-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x16 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  main_v3
-- ==== Kernel.lean ====
abbrev S16384x16 : Shape := ⟨2, ![16384, 16]⟩
abbrev S16x16384 : Shape := ⟨2, ![16, 16384]⟩
abbrev S2x16x256 : Shape := ⟨3, ![2, 16, 256]⟩
abbrev S_ : Shape := ⟨0, ![]⟩
abbrev S16 : Shape := ⟨1, ![16]⟩
abbrev S1x16x256 : Shape := ⟨3, ![1, 16, 256]⟩
abbrev S16x256 : Shape := ⟨2, ![16, 256]⟩
abbrev S1x1x16 : Shape := ⟨3, ![1, 1, 16]⟩

abbrev nBuf : Table → Nat
  | .hbm => 4
  | .local .scVector .vmem => 2
  | _ => 0

abbrev bufTy : (tb : Table) → Fin (nBuf tb) → BufTy
  | .hbm, ⟨0, _⟩ => ⟨S16384x16, .f32⟩
  | .hbm, ⟨1, _⟩ => ⟨S16x16384, .f32⟩
  | .hbm, ⟨2, _⟩ => ⟨S16x16384, .i32⟩
  | .hbm, ⟨3, _⟩ => ⟨S16384x16, .i32⟩
  | .local .scVector .vmem, ⟨0, _⟩ => ⟨S2x16x256, .f32⟩
  | .local .scVector .vmem, ⟨1, _⟩ => ⟨S2x16x256, .i32⟩
  | _, _ => ⟨S16384x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c0_i32_0
  ![0, v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x16_S16x16384_1_0 : S16384x16.Transposes [1, 0] S16x16384
  inb_S2x16x256_S1x16x256_0_0_0 : ∀ a, (![0, 0, 0] : Fin 3 → Nat) a + S1x16x256.size a ≤ S2x16x256.size a
  squeezes_S1x16x256_S16x256 : S1x16x256.Squeezes S16x256
  inb_S2x16x256_S1x16x256_1_0_0 : ∀ a, (![1, 0, 0] : Fin 3 → Nat) a + S1x16x256.size a ≤ S2x16x256.size a
  inb_S2x16x256_S1x1x16_0_0_0 : ∀ a, (![0, 0, 0] : Fin 3 → Nat) a + S1x1x16.size a ≤ S2x16x256.size a
  h_S1x1x16 : 0 < S1x1x16.numel
  shapeCasts_S1x1x16_S16 : S1x1x16.ShapeCasts S16
  inb_S2x16x256_S1x1x16_0_1_0 : ∀ a, (![0, 1, 0] : Fin 3 → Nat) a + S1x1x16.size a ≤ S2x16x256.size a
  shapeCasts_S16_S1x1x16 : S16.ShapeCasts S1x1x16
  inb_S2x16x256_S1x1x16_0_2_0 : ∀ a, (![0, 2, 0] : Fin 3 → Nat) a + S1x1x16.size a ≤ S2x16x256.size a
  inb_S2x16x256_S1x1x16_0_3_0 : ∀ a, (![0, 3, 0] : Fin 3 → Nat) a + S1x1x16.size a ≤ S2x16x256.size a
  inb_S2x16x256_S1x1x16_0_4_0 : ∀ a, (![0, 4, 0] : Fin 3 → Nat) a + S1x1x16.size a ≤ S2x16x256.size a
  inb_S2x16x256_S1x1x16_0_5_0 : ∀ a, (![0, 5, 0] : Fin 3 → Nat) a + S1x1x16.size a ≤ S2x16x256.size a
  inb_S2x16x256_S1x1x16_0_6_0 : ∀ a, (![0, 6, 0] : Fin 3 → Nat) a + S1x1x16.size a ≤ S2x16x256.size a
  inb_S2x16x256_S1x1x16_0_7_0 : ∀ a, (![0, 7, 0] : Fin 3 → Nat) a + S1x1x16.size a ≤ S2x16x256.size a
  inb_S2x16x256_S1x1x16_0_8_0 : ∀ a, (![0, 8, 0] : Fin 3 → Nat) a + S1x1x16.size a ≤ S2x16x256.size a
  inb_S2x16x256_S1x1x16_0_9_0 : ∀ a, (![0, 9, 0] : Fin 3 → Nat) a + S1x1x16.size a ≤ S2x16x256.size a
  inb_S2x16x256_S1x1x16_0_10_0 : ∀ a, (![0, 10, 0] : Fin 3 → Nat) a + S1x1x16.size a ≤ S2x16x256.size a
  inb_S2x16x256_S1x1x16_0_11_0 : ∀ a, (![0, 11, 0] : Fin 3 → Nat) a + S1x1x16.size a ≤ S2x16x256.size a
  inb_S2x16x256_S1x1x16_0_12_0 : ∀ a, (![0, 12, 0] : Fin 3 → Nat) a + S1x1x16.size a ≤ S2x16x256.size a
  inb_S2x16x256_S1x1x16_0_13_0 : ∀ a, (![0, 13, 0] : Fin 3 → Nat) a + S1x1x16.size a ≤ S2x16x256.size a
  inb_S2x16x256_S1x1x16_0_14_0 : ∀ a, (![0, 14, 0] : Fin 3 → Nat) a + S1x1x16.size a ≤ S2x16x256.size a
  inb_S2x16x256_S1x1x16_0_15_0 : ∀ a, (![0, 15, 0] : Fin 3 → Nat) a + S1x1x16.size a ≤ S2x16x256.size a
  inb_S2x16x256_S1x1x16_0_0_16 : ∀ a, (![0, 0, 16] : Fin 3 → Nat) a + S1x1x16.size a ≤ S2x16x256.size a
  inb_S2x16x256_S1x1x16_0_1_16 : ∀ a, (![0, 1, 16] : Fin 3 → Nat) a + S1x1x16.size a ≤ S2x16x256.size a
  inb_S2x16x256_S1x1x16_0_2_16 : ∀ a, (![0, 2, 16] : Fin 3 → Nat) a + S1x1x16.size a ≤ S2x16x256.size a
  inb_S2x16x256_S1x1x16_0_3_16 : ∀ a, (![0, 3, 16] : Fin 3 → Nat) a + S1x1x16.size a ≤ S2x16x256.size a
  inb_S2x16x256_S1x1x16_0_4_16 : ∀ a, (![0, 4, 16] : Fin 3 → Nat) a + S1x1x16.size a ≤ S2x16x256.size a
  inb_S2x16x256_S1x1x16_0_5_16 : ∀ a, (![0, 5, 16] : Fin 3 → Nat) a + S1x1x16.size a ≤ S2x16x256.size a
  inb_S2x16x256_S1x1x16_0_6_16 : ∀ a, (![0, 6, 16] : Fin 3 → Nat) a + S1x1x16.size a ≤ S2x16x256.size a
  inb_S2x16x256_S1x1x16_0_7_16 : ∀ a, (![0, 7, 16] : Fin 3 → Nat) a + S1x1x16.size a ≤ S2x16x256.size a
  inb_S2x16x256_S1x1x16_0_8_16 : ∀ a, (![0, 8, 16] : Fin 3 → Nat) a + S1x1x16.size a ≤ S2x16x256.size a
  inb_S2x16x256_S1x1x16_0_9_16 : ∀ a, (![0, 9, 16] : Fin 3 → Nat) a + S1x1x16.size a ≤ S2x16x256.size a
  inb_S2x16x256_S1x1x16_0_10_16 : ∀ a, (![0, 10, 16] : Fin 3 → Nat) a + S1x1x16.size a ≤ S2x16x256.size a
  inb_S2x16x256_S1x1x16_0_11_16 : ∀ a, (![0, 11, 16] : Fin 3 → Nat) a + S1x1x16.size a ≤ S2x16x256.size a
  inb_S2x16x256_S1x1x16_0_12_16 : ∀ a, (![0, 12, 16] : Fin 3 → Nat) a + S1x1x16.size a ≤ S2x16x256.size a
  inb_S2x16x256_S1x1x16_0_13_16 : ∀ a, (![0, 13, 16] : Fin 3 → Nat) a + S1x1x16.size a ≤ S2x16x256.size a
  inb_S2x16x256_S1x1x16_0_14_16 : ∀ a, (![0, 14, 16] : Fin 3 → Nat) a + S1x1x16.size a ≤ S2x16x256.size a
  inb_S2x16x256_S1x1x16_0_15_16 : ∀ a, (![0, 15, 16] : Fin 3 → Nat) a + S1x1x16.size a ≤ S2x16x256.size a
  inb_S2x16x256_S1x1x16_0_0_32 : ∀ a, (![0, 0, 32] : Fin 3 → Nat) a + S1x1x16.size a ≤ S2x16x256.size a
  inb_S2x16x256_S1x1x16_0_1_32 : ∀ a, (![0, 1, 32] : Fin 3 → Nat) a + S1x1x16.size a ≤ S2x16x256.size a
  inb_S2x16x256_S1x1x16_0_2_32 : ∀ a, (![0, 2, 32] : Fin 3 → Nat) a + S1x1x16.size a ≤ S2x16x256.size a
  inb_S2x16x256_S1x1x16_0_3_32 : ∀ a, (![0, 3, 32] : Fin 3 → Nat) a + S1x1x16.size a ≤ S2x16x256.size a
  inb_S2x16x256_S1x1x16_0_4_32 : ∀ a, (![0, 4, 32] : Fin 3 → Nat) a + S1x1x16.size a ≤ S2x16x256.size a
  inb_S2x16x256_S1x1x16_0_5_32 : ∀ a, (![0, 5, 32] : Fin 3 → Nat) a + S1x1x16.size a ≤ S2x16x256.size a
  inb_S2x16x256_S1x1x16_0_6_32 : ∀ a, (![0, 6, 32] : Fin 3 → Nat) a + S1x1x16.size a ≤ S2x16x256.size a
  inb_S2x16x256_S1x1x16_0_7_32 : ∀ a, (![0, 7, 32] : Fin 3 → Nat) a + S1x1x16.size a ≤ S2x16x256.size a
  inb_S2x16x256_S1x1x16_0_8_32 : ∀ a, (![0, 8, 32] : Fin 3 → Nat) a + S1x1x16.size a ≤ S2x16x256.size a
  inb_S2x16x256_S1x1x16_0_9_32 : ∀ a, (![0, 9, 32] : Fin 3 → Nat) a + S1x1x16.size a ≤ S2x16x256.size a
  inb_S2x16x256_S1x1x16_0_10_32 : ∀ a, (![0, 10, 32] : Fin 3 → Nat) a + S1x1x16.size a ≤ S2x16x256.size a
  inb_S2x16x256_S1x1x16_0_11_32 : ∀ a, (![0, 11, 32] : Fin 3 → Nat) a + S1x1x16.size a ≤ S2x16x256.size a
  inb_S2x16x256_S1x1x16_0_12_32 : ∀ a, (![0, 12, 32] : Fin 3 → Nat) a + S1x1x16.size a ≤ S2x16x256.size a
  inb_S2x16x256_S1x1x16_0_13_32 : ∀ a, (![0, 13, 32] : Fin 3 → Nat) a + S1x1x16.size a ≤ S2x16x256.size a
  inb_S2x16x256_S1x1x16_0_14_32 : ∀ a, (![0, 14, 32] : Fin 3 → Nat) a + S1x1x16.size a ≤ S2x16x256.size a
  inb_S2x16x256_S1x1x16_0_15_32 : ∀ a, (![0, 15, 32] : Fin 3 → Nat) a + S1x1x16.size a ≤ S2x16x256.size a
  inb_S2x16x256_S1x1x16_0_0_48 : ∀ a, (![0, 0, 48] : Fin 3 → Nat) a + S1x1x16.size a ≤ S2x16x256.size a
  inb_S2x16x256_S1x1x16_0_1_48 : ∀ a, (![0, 1, 48] : Fin 3 → Nat) a + S1x1x16.size a ≤ S2x16x256.size a
  inb_S2x16x256_S1x1x16_0_2_48 : ∀ a, (![0, 2, 48] : Fin 3 → Nat) a + S1x1x16.size a ≤ S2x16x256.size a
  inb_S2x16x256_S1x1x16_0_3_48 : ∀ a, (![0, 3, 48] : Fin 3 → Nat) a + S1x1x16.size a ≤ S2x16x256.size a
  inb_S2x16x256_S1x1x16_0_4_48 : ∀ a, (![0, 4, 48] : Fin 3 → Nat) a + S1x1x16.size a ≤ S2x16x256.size a
  inb_S2x16x256_S1x1x16_0_5_48 : ∀ a, (![0, 5, 48] : Fin 3 → Nat) a + S1x1x16.size a ≤ S2x16x256.size a
  inb_S2x16x256_S1x1x16_0_6_48 : ∀ a, (![0, 6, 48] : Fin 3 → Nat) a + S1x1x16.size a ≤ S2x16x256.size a
  inb_S2x16x256_S1x1x16_0_7_48 : ∀ a, (![0, 7, 48] : Fin 3 → Nat) a + S1x1x16.size a ≤ S2x16x256.size a
  inb_S2x16x256_S1x1x16_0_8_48 : ∀ a, (![0, 8, 48] : Fin 3 → Nat) a + S1x1x16.size a ≤ S2x16x256.size a
  inb_S2x16x256_S1x1x16_0_9_48 : ∀ a, (![0, 9, 48] : Fin 3 → Nat) a + S1x1x16.size a ≤ S2x16x256.size a
  inb_S2x16x256_S1x1x16_0_10_48 : ∀ a, (![0, 10, 48] : Fin 3 → Nat) a + S1x1x16.size a ≤ S2x16x256.size a
  inb_S2x16x256_S1x1x16_0_11_48 : ∀ a, (![0, 11, 48] : Fin 3 → Nat) a + S1x1x16.size a ≤ S2x16x256.size a
  inb_S2x16x256_S1x1x16_0_12_48 : ∀ a, (![0, 12, 48] : Fin 3 → Nat) a + S1x1x16.size a ≤ S2x16x256.size a
  inb_S2x16x256_S1x1x16_0_13_48 : ∀ a, (![0, 13, 48] : Fin 3 → Nat) a + S1x1x16.size a ≤ S2x16x256.size a
  inb_S2x16x256_S1x1x16_0_14_48 : ∀ a, (![0, 14, 48] : Fin 3 → Nat) a + S1x1x16.size a ≤ S2x16x256.size a
  inb_S2x16x256_S1x1x16_0_15_48 : ∀ a, (![0, 15, 48] : Fin 3 → Nat) a + S1x1x16.size a ≤ S2x16x256.size a
  inb_S2x16x256_S1x1x16_0_0_64 : ∀ a, (![0, 0, 64] : Fin 3 → Nat) a + S1x1x16.size a ≤ S2x16x256.size a
  inb_S2x16x256_S1x1x16_0_1_64 : ∀ a, (![0, 1, 64] : Fin 3 → Nat) a + S1x1x16.size a ≤ S2x16x256.size a
  inb_S2x16x256_S1x1x16_0_2_64 : ∀ a, (![0, 2, 64] : Fin 3 → Nat) a + S1x1x16.size a ≤ S2x16x256.size a
  inb_S2x16x256_S1x1x16_0_3_64 : ∀ a, (![0, 3, 64] : Fin 3 → Nat) a + S1x1x16.size a ≤ S2x16x256.size a
  inb_S2x16x256_S1x1x16_0_4_64 : ∀ a, (![0, 4, 64] : Fin 3 → Nat) a + S1x1x16.size a ≤ S2x16x256.size a
  inb_S2x16x256_S1x1x16_0_5_64 : ∀ a, (![0, 5, 64] : Fin 3 → Nat) a + S1x1x16.size a ≤ S2x16x256.size a
  inb_S2x16x256_S1x1x16_0_6_64 : ∀ a, (![0, 6, 64] : Fin 3 → Nat) a + S1x1x16.size a ≤ S2x16x256.size a
  inb_S2x16x256_S1x1x16_0_7_64 : ∀ a, (![0, 7, 64] : Fin 3 → Nat) a + S1x1x16.size a ≤ S2x16x256.size a
  inb_S2x16x256_S1x1x16_0_8_64 : ∀ a, (![0, 8, 64] : Fin 3 → Nat) a + S1x1x16.size a ≤ S2x16x256.size a
  inb_S2x16x256_S1x1x16_0_9_64 : ∀ a, (![0, 9, 64] : Fin 3 → Nat) a + S1x1x16.size a ≤ S2x16x256.size a
  inb_S2x16x256_S1x1x16_0_10_64 : ∀ a, (![0, 10, 64] : Fin 3 → Nat) a + S1x1x16.size a ≤ S2x16x256.size a
  inb_S2x16x256_S1x1x16_0_11_64 : ∀ a, (![0, 11, 64] : Fin 3 → Nat) a + S1x1x16.size a ≤ S2x16x256.size a
  inb_S2x16x256_S1x1x16_0_12_64 : ∀ a, (![0, 12, 64] : Fin 3 → Nat) a + S1x1x16.size a ≤ S2x16x256.size a
  inb_S2x16x256_S1x1x16_0_13_64 : ∀ a, (![0, 13, 64] : Fin 3 → Nat) a + S1x1x16.size a ≤ S2x16x256.size a
  inb_S2x16x256_S1x1x16_0_14_64 : ∀ a, (![0, 14, 64] : Fin 3 → Nat) a + S1x1x16.size a ≤ S2x16x256.size a
  inb_S2x16x256_S1x1x16_0_15_64 : ∀ a, (![0, 15, 64] : Fin 3 → Nat) a + S1x1x16.size a ≤ S2x16x256.size a
  inb_S2x16x256_S1x1x16_0_0_80 : ∀ a, (![0, 0, 80] : Fin 3 → Nat) a + S1x1x16.size a ≤ S2x16x256.size a
  inb_S2x16x256_S1x1x16_0_1_80 : ∀ a, (![0, 1, 80] : Fin 3 → Nat) a + S1x1x16.size a ≤ S2x16x256.size a
  inb_S2x16x256_S1x1x16_0_2_80 : ∀ a, (![0, 2, 80] : Fin 3 → Nat) a + S1x1x16.size a ≤ S2x16x256.size a
  inb_S2x16x256_S1x1x16_0_3_80 : ∀ a, (![0, 3, 80] : Fin 3 → Nat) a + S1x1x16.size a ≤ S2x16x256.size a
  inb_S2x16x256_S1x1x16_0_4_80 : ∀ a, (![0, 4, 80] : Fin 3 → Nat) a + S1x1x16.size a ≤ S2x16x256.size a
  inb_S2x16x256_S1x1x16_0_5_80 : ∀ a, (![0, 5, 80] : Fin 3 → Nat) a + S1x1x16.size a ≤ S2x16x256.size a
  inb_S2x16x256_S1x1x16_0_6_80 : ∀ a, (![0, 6, 80] : Fin 3 → Nat) a + S1x1x16.size a ≤ S2x16x256.size a
  inb_S2x16x256_S1x1x16_0_7_80 : ∀ a, (![0, 7, 80] : Fin 3 → Nat) a + S1x1x16.size a ≤ S2x16x256.size a
  inb_S2x16x256_S1x1x16_0_8_80 : ∀ a, (![0, 8, 80] : Fin 3 → Nat) a + S1x1x16.size a ≤ S2x16x256.size a
  inb_S2x16x256_S1x1x16_0_9_80 : ∀ a, (![0, 9, 80] : Fin 3 → Nat) a + S1x1x16.size a ≤ S2x16x256.size a
  inb_S2x16x256_S1x1x16_0_10_80 : ∀ a, (![0, 10, 80] : Fin 3 → Nat) a + S1x1x16.size a ≤ S2x16x256.size a
  inb_S2x16x256_S1x1x16_0_11_80 : ∀ a, (![0, 11, 80] : Fin 3 → Nat) a + S1x1x16.size a ≤ S2x16x256.size a
  inb_S2x16x256_S1x1x16_0_12_80 : ∀ a, (![0, 12, 80] : Fin 3 → Nat) a + S1x1x16.size a ≤ S2x16x256.size a
  inb_S2x16x256_S1x1x16_0_13_80 : ∀ a, (![0, 13, 80] : Fin 3 → Nat) a + S1x1x16.size a ≤ S2x16x256.size a
  inb_S2x16x256_S1x1x16_0_14_80 : ∀ a, (![0, 14, 80] : Fin 3 → Nat) a + S1x1x16.size a ≤ S2x16x256.size a
  inb_S2x16x256_S1x1x16_0_15_80 : ∀ a, (![0, 15, 80] : Fin 3 → Nat) a + S1x1x16.size a ≤ S2x16x256.size a
  inb_S2x16x256_S1x1x16_0_0_96 : ∀ a, (![0, 0, 96] : Fin 3 → Nat) a + S1x1x16.size a ≤ S2x16x256.size a
  inb_S2x16x256_S1x1x16_0_1_96 : ∀ a, (![0, 1, 96] : Fin 3 → Nat) a + S1x1x16.size a ≤ S2x16x256.size a
  inb_S2x16x256_S1x1x16_0_2_96 : ∀ a, (![0, 2, 96] : Fin 3 → Nat) a + S1x1x16.size a ≤ S2x16x256.size a
  inb_S2x16x256_S1x1x16_0_3_96 : ∀ a, (![0, 3, 96] : Fin 3 → Nat) a + S1x1x16.size a ≤ S2x16x256.size a
  inb_S2x16x256_S1x1x16_0_4_96 : ∀ a, (![0, 4, 96] : Fin 3 → Nat) a + S1x1x16.size a ≤ S2x16x256.size a
  inb_S2x16x256_S1x1x16_0_5_96 : ∀ a, (![0, 5, 96] : Fin 3 → Nat) a + S1x1x16.size a ≤ S2x16x256.size a
  inb_S2x16x256_S1x1x16_0_6_96 : ∀ a, (![0, 6, 96] : Fin 3 → Nat) a + S1x1x16.size a ≤ S2x16x256.size a
  inb_S2x16x256_S1x1x16_0_7_96 : ∀ a, (![0, 7, 96] : Fin 3 → Nat) a + S1x1x16.size a ≤ S2x16x256.size a
  inb_S2x16x256_S1x1x16_0_8_96 : ∀ a, (![0, 8, 96] : Fin 3 → Nat) a + S1x1x16.size a ≤ S2x16x256.size a
  inb_S2x16x256_S1x1x16_0_9_96 : ∀ a, (![0, 9, 96] : Fin 3 → Nat) a + S1x1x16.size a ≤ S2x16x256.size a
  inb_S2x16x256_S1x1x16_0_10_96 : ∀ a, (![0, 10, 96] : Fin 3 → Nat) a + S1x1x16.size a ≤ S2x16x256.size a
  inb_S2x16x256_S1x1x16_0_11_96 : ∀ a, (![0, 11, 96] : Fin 3 → Nat) a + S1x1x16.size a ≤ S2x16x256.size a
  inb_S2x16x256_S1x1x16_0_12_96 : ∀ a, (![0, 12, 96] : Fin 3 → Nat) a + S1x1x16.size a ≤ S2x16x256.size a
  inb_S2x16x256_S1x1x16_0_13_96 : ∀ a, (![0, 13, 96] : Fin 3 → Nat) a + S1x1x16.size a ≤ S2x16x256.size a
  inb_S2x16x256_S1x1x16_0_14_96 : ∀ a, (![0, 14, 96] : Fin 3 → Nat) a + S1x1x16.size a ≤ S2x16x256.size a
  inb_S2x16x256_S1x1x16_0_15_96 : ∀ a, (![0, 15, 96] : Fin 3 → Nat) a + S1x1x16.size a ≤ S2x16x256.size a
  inb_S2x16x256_S1x1x16_0_0_112 : ∀ a, (![0, 0, 112] : Fin 3 → Nat) a + S1x1x16.size a ≤ S2x16x256.size a
  inb_S2x16x256_S1x1x16_0_1_112 : ∀ a, (![0, 1, 112] : Fin 3 → Nat) a + S1x1x16.size a ≤ S2x16x256.size a
  inb_S2x16x256_S1x1x16_0_2_112 : ∀ a, (![0, 2, 112] : Fin 3 → Nat) a + S1x1x16.size a ≤ S2x16x256.size a
  inb_S2x16x256_S1x1x16_0_3_112 : ∀ a, (![0, 3, 112] : Fin 3 → Nat) a + S1x1x16.size a ≤ S2x16x256.size a
  inb_S2x16x256_S1x1x16_0_4_112 : ∀ a, (![0, 4, 112] : Fin 3 → Nat) a + S1x1x16.size a ≤ S2x16x256.size a
  inb_S2x16x256_S1x1x16_0_5_112 : ∀ a, (![0, 5, 112] : Fin 3 → Nat) a + S1x1x16.size a ≤ S2x16x256.size a
  inb_S2x16x256_S1x1x16_0_6_112 : ∀ a, (![0, 6, 112] : Fin 3 → Nat) a + S1x1x16.size a ≤ S2x16x256.size a
  inb_S2x16x256_S1x1x16_0_7_112 : ∀ a, (![0, 7, 112] : Fin 3 → Nat) a + S1x1x16.size a ≤ S2x16x256.size a
  inb_S2x16x256_S1x1x16_0_8_112 : ∀ a, (![0, 8, 112] : Fin 3 → Nat) a + S1x1x16.size a ≤ S2x16x256.size a
  inb_S2x16x256_S1x1x16_0_9_112 : ∀ a, (![0, 9, 112] : Fin 3 → Nat) a + S1x1x16.size a ≤ S2x16x256.size a
  inb_S2x16x256_S1x1x16_0_10_112 : ∀ a, (![0, 10, 112] : Fin 3 → Nat) a + S1x1x16.size a ≤ S2x16x256.size a
  inb_S2x16x256_S1x1x16_0_11_112 : ∀ a, (![0, 11, 112] : Fin 3 → Nat) a + S1x1x16.size a ≤ S2x16x256.size a
  inb_S2x16x256_S1x1x16_0_12_112 : ∀ a, (![0, 12, 112] : Fin 3 → Nat) a + S1x1x16.size a ≤ S2x16x256.size a
  inb_S2x16x256_S1x1x16_0_13_112 : ∀ a, (![0, 13, 112] : Fin 3 → Nat) a + S1x1x16.size a ≤ S2x16x256.size a
  inb_S2x16x256_S1x1x16_0_14_112 : ∀ a, (![0, 14, 112] : Fin 3 → Nat) a + S1x1x16.size a ≤ S2x16x256.size a
  inb_S2x16x256_S1x1x16_0_15_112 : ∀ a, (![0, 15, 112] : Fin 3 → Nat) a + S1x1x16.size a ≤ S2x16x256.size a
  inb_S2x16x256_S1x1x16_0_0_128 : ∀ a, (![0, 0, 128] : Fin 3 → Nat) a + S1x1x16.size a ≤ S2x16x256.size a
  inb_S2x16x256_S1x1x16_0_1_128 : ∀ a, (![0, 1, 128] : Fin 3 → Nat) a + S1x1x16.size a ≤ S2x16x256.size a
  inb_S2x16x256_S1x1x16_0_2_128 : ∀ a, (![0, 2, 128] : Fin 3 → Nat) a + S1x1x16.size a ≤ S2x16x256.size a
  inb_S2x16x256_S1x1x16_0_3_128 : ∀ a, (![0, 3, 128] : Fin 3 → Nat) a + S1x1x16.size a ≤ S2x16x256.size a
  inb_S2x16x256_S1x1x16_0_4_128 : ∀ a, (![0, 4, 128] : Fin 3 → Nat) a + S1x1x16.size a ≤ S2x16x256.size a
  inb_S2x16x256_S1x1x16_0_5_128 : ∀ a, (![0, 5, 128] : Fin 3 → Nat) a + S1x1x16.size a ≤ S2x16x256.size a
  inb_S2x16x256_S1x1x16_0_6_128 : ∀ a, (![0, 6, 128] : Fin 3 → Nat) a + S1x1x16.size a ≤ S2x16x256.size a
  inb_S2x16x256_S1x1x16_0_7_128 : ∀ a, (![0, 7, 128] : Fin 3 → Nat) a + S1x1x16.size a ≤ S2x16x256.size a
  inb_S2x16x256_S1x1x16_0_8_128 : ∀ a, (![0, 8, 128] : Fin 3 → Nat) a + S1x1x16.size a ≤ S2x16x256.size a
  inb_S2x16x256_S1x1x16_0_9_128 : ∀ a, (![0, 9, 128] : Fin 3 → Nat) a + S1x1x16.size a ≤ S2x16x256.size a
  inb_S2x16x256_S1x1x16_0_10_128 : ∀ a, (![0, 10, 128] : Fin 3 → Nat) a + S1x1x16.size a ≤ S2x16x256.size a
  inb_S2x16x256_S1x1x16_0_11_128 : ∀ a, (![0, 11, 128] : Fin 3 → Nat) a + S1x1x16.size a ≤ S2x16x256.size a
  inb_S2x16x256_S1x1x16_0_12_128 : ∀ a, (![0, 12, 128] : Fin 3 → Nat) a + S1x1x16.size a ≤ S2x16x256.size a
  inb_S2x16x256_S1x1x16_0_13_128 : ∀ a, (![0, 13, 128] : Fin 3 → Nat) a + S1x1x16.size a ≤ S2x16x256.size a
  inb_S2x16x256_S1x1x16_0_14_128 : ∀ a, (![0, 14, 128] : Fin 3 → Nat) a + S1x1x16.size a ≤ S2x16x256.size a
  inb_S2x16x256_S1x1x16_0_15_128 : ∀ a, (![0, 15, 128] : Fin 3 → Nat) a + S1x1x16.size a ≤ S2x16x256.size a
  inb_S2x16x256_S1x1x16_0_0_144 : ∀ a, (![0, 0, 144] : Fin 3 → Nat) a + S1x1x16.size a ≤ S2x16x256.size a
  inb_S2x16x256_S1x1x16_0_1_144 : ∀ a, (![0, 1, 144] : Fin 3 → Nat) a + S1x1x16.size a ≤ S2x16x256.size a
  inb_S2x16x256_S1x1x16_0_2_144 : ∀ a, (![0, 2, 144] : Fin 3 → Nat) a + S1x1x16.size a ≤ S2x16x256.size a
  inb_S2x16x256_S1x1x16_0_3_144 : ∀ a, (![0, 3, 144] : Fin 3 → Nat) a + S1x1x16.size a ≤ S2x16x256.size a
  inb_S2x16x256_S1x1x16_0_4_144 : ∀ a, (![0, 4, 144] : Fin 3 → Nat) a + S1x1x16.size a ≤ S2x16x256.size a
  inb_S2x16x256_S1x1x16_0_5_144 : ∀ a, (![0, 5, 144] : Fin 3 → Nat) a + S1x1x16.size a ≤ S2x16x256.size a
  inb_S2x16x256_S1x1x16_0_6_144 : ∀ a, (![0, 6, 144] : Fin 3 → Nat) a + S1x1x16.size a ≤ S2x16x256.size a
  inb_S2x16x256_S1x1x16_0_7_144 : ∀ a, (![0, 7, 144] : Fin 3 → Nat) a + S1x1x16.size a ≤ S2x16x256.size a
  inb_S2x16x256_S1x1x16_0_8_144 : ∀ a, (![0, 8, 144] : Fin 3 → Nat) a + S1x1x16.size a ≤ S2x16x256.size a
  inb_S2x16x256_S1x1x16_0_9_144 : ∀ a, (![0, 9, 144] : Fin 3 → Nat) a + S1x1x16.size a ≤ S2x16x256.size a
  inb_S2x16x256_S1x1x16_0_10_144 : ∀ a, (![0, 10, 144] : Fin 3 → Nat) a + S1x1x16.size a ≤ S2x16x256.size a
  inb_S2x16x256_S1x1x16_0_11_144 : ∀ a, (![0, 11, 144] : Fin 3 → Nat) a + S1x1x16.size a ≤ S2x16x256.size a
  inb_S2x16x256_S1x1x16_0_12_144 : ∀ a, (![0, 12, 144] : Fin 3 → Nat) a + S1x1x16.size a ≤ S2x16x256.size a
  inb_S2x16x256_S1x1x16_0_13_144 : ∀ a, (![0, 13, 144] : Fin 3 → Nat) a + S1x1x16.size a ≤ S2x16x256.size a
  inb_S2x16x256_S1x1x16_0_14_144 : ∀ a, (![0, 14, 144] : Fin 3 → Nat) a + S1x1x16.size a ≤ S2x16x256.size a
  inb_S2x16x256_S1x1x16_0_15_144 : ∀ a, (![0, 15, 144] : Fin 3 → Nat) a + S1x1x16.size a ≤ S2x16x256.size a
  inb_S2x16x256_S1x1x16_0_0_160 : ∀ a, (![0, 0, 160] : Fin 3 → Nat) a + S1x1x16.size a ≤ S2x16x256.size a
  inb_S2x16x256_S1x1x16_0_1_160 : ∀ a, (![0, 1, 160] : Fin 3 → Nat) a + S1x1x16.size a ≤ S2x16x256.size a
  inb_S2x16x256_S1x1x16_0_2_160 : ∀ a, (![0, 2, 160] : Fin 3 → Nat) a + S1x1x16.size a ≤ S2x16x256.size a
  inb_S2x16x256_S1x1x16_0_3_160 : ∀ a, (![0, 3, 160] : Fin 3 → Nat) a + S1x1x16.size a ≤ S2x16x256.size a
  inb_S2x16x256_S1x1x16_0_4_160 : ∀ a, (![0, 4, 160] : Fin 3 → Nat) a + S1x1x16.size a ≤ S2x16x256.size a
  inb_S2x16x256_S1x1x16_0_5_160 : ∀ a, (![0, 5, 160] : Fin 3 → Nat) a + S1x1x16.size a ≤ S2x16x256.size a
  inb_S2x16x256_S1x1x16_0_6_160 : ∀ a, (![0, 6, 160] : Fin 3 → Nat) a + S1x1x16.size a ≤ S2x16x256.size a
  inb_S2x16x256_S1x1x16_0_7_160 : ∀ a, (![0, 7, 160] : Fin 3 → Nat) a + S1x1x16.size a ≤ S2x16x256.size a
  inb_S2x16x256_S1x1x16_0_8_160 : ∀ a, (![0, 8, 160] : Fin 3 → Nat) a + S1x1x16.size a ≤ S2x16x256.size a
  inb_S2x16x256_S1x1x16_0_9_160 : ∀ a, (![0, 9, 160] : Fin 3 → Nat) a + S1x1x16.size a ≤ S2x16x256.size a
  inb_S2x16x256_S1x1x16_0_10_160 : ∀ a, (![0, 10, 160] : Fin 3 → Nat) a + S1x1x16.size a ≤ S2x16x256.size a
  inb_S2x16x256_S1x1x16_0_11_160 : ∀ a, (![0, 11, 160] : Fin 3 → Nat) a + S1x1x16.size a ≤ S2x16x256.size a
  inb_S2x16x256_S1x1x16_0_12_160 : ∀ a, (![0, 12, 160] : Fin 3 → Nat) a + S1x1x16.size a ≤ S2x16x256.size a
  inb_S2x16x256_S1x1x16_0_13_160 : ∀ a, (![0, 13, 160] : Fin 3 → Nat) a + S1x1x16.size a ≤ S2x16x256.size a
  inb_S2x16x256_S1x1x16_0_14_160 : ∀ a, (![0, 14, 160] : Fin 3 → Nat) a + S1x1x16.size a ≤ S2x16x256.size a
  inb_S2x16x256_S1x1x16_0_15_160 : ∀ a, (![0, 15, 160] : Fin 3 → Nat) a + S1x1x16.size a ≤ S2x16x256.size a
  inb_S2x16x256_S1x1x16_0_0_176 : ∀ a, (![0, 0, 176] : Fin 3 → Nat) a + S1x1x16.size a ≤ S2x16x256.size a
  inb_S2x16x256_S1x1x16_0_1_176 : ∀ a, (![0, 1, 176] : Fin 3 → Nat) a + S1x1x16.size a ≤ S2x16x256.size a
  inb_S2x16x256_S1x1x16_0_2_176 : ∀ a, (![0, 2, 176] : Fin 3 → Nat) a + S1x1x16.size a ≤ S2x16x256.size a
  inb_S2x16x256_S1x1x16_0_3_176 : ∀ a, (![0, 3, 176] : Fin 3 → Nat) a + S1x1x16.size a ≤ S2x16x256.size a
  inb_S2x16x256_S1x1x16_0_4_176 : ∀ a, (![0, 4, 176] : Fin 3 → Nat) a + S1x1x16.size a ≤ S2x16x256.size a
  inb_S2x16x256_S1x1x16_0_5_176 : ∀ a, (![0, 5, 176] : Fin 3 → Nat) a + S1x1x16.size a ≤ S2x16x256.size a
  inb_S2x16x256_S1x1x16_0_6_176 : ∀ a, (![0, 6, 176] : Fin 3 → Nat) a + S1x1x16.size a ≤ S2x16x256.size a
  inb_S2x16x256_S1x1x16_0_7_176 : ∀ a, (![0, 7, 176] : Fin 3 → Nat) a + S1x1x16.size a ≤ S2x16x256.size a
  inb_S2x16x256_S1x1x16_0_8_176 : ∀ a, (![0, 8, 176] : Fin 3 → Nat) a + S1x1x16.size a ≤ S2x16x256.size a
  inb_S2x16x256_S1x1x16_0_9_176 : ∀ a, (![0, 9, 176] : Fin 3 → Nat) a + S1x1x16.size a ≤ S2x16x256.size a
  inb_S2x16x256_S1x1x16_0_10_176 : ∀ a, (![0, 10, 176] : Fin 3 → Nat) a + S1x1x16.size a ≤ S2x16x256.size a
  inb_S2x16x256_S1x1x16_0_11_176 : ∀ a, (![0, 11, 176] : Fin 3 → Nat) a + S1x1x16.size a ≤ S2x16x256.size a
  inb_S2x16x256_S1x1x16_0_12_176 : ∀ a, (![0, 12, 176] : Fin 3 → Nat) a + S1x1x16.size a ≤ S2x16x256.size a
  inb_S2x16x256_S1x1x16_0_13_176 : ∀ a, (![0, 13, 176] : Fin 3 → Nat) a + S1x1x16.size a ≤ S2x16x256.size a
  inb_S2x16x256_S1x1x16_0_14_176 : ∀ a, (![0, 14, 176] : Fin 3 → Nat) a + S1x1x16.size a ≤ S2x16x256.size a
  inb_S2x16x256_S1x1x16_0_15_176 : ∀ a, (![0, 15, 176] : Fin 3 → Nat) a + S1x1x16.size a ≤ S2x16x256.size a
  inb_S2x16x256_S1x1x16_0_0_192 : ∀ a, (![0, 0, 192] : Fin 3 → Nat) a + S1x1x16.size a ≤ S2x16x256.size a
  inb_S2x16x256_S1x1x16_0_1_192 : ∀ a, (![0, 1, 192] : Fin 3 → Nat) a + S1x1x16.size a ≤ S2x16x256.size a
  inb_S2x16x256_S1x1x16_0_2_192 : ∀ a, (![0, 2, 192] : Fin 3 → Nat) a + S1x1x16.size a ≤ S2x16x256.size a
  inb_S2x16x256_S1x1x16_0_3_192 : ∀ a, (![0, 3, 192] : Fin 3 → Nat) a + S1x1x16.size a ≤ S2x16x256.size a
  inb_S2x16x256_S1x1x16_0_4_192 : ∀ a, (![0, 4, 192] : Fin 3 → Nat) a + S1x1x16.size a ≤ S2x16x256.size a
  inb_S2x16x256_S1x1x16_0_5_192 : ∀ a, (![0, 5, 192] : Fin 3 → Nat) a + S1x1x16.size a ≤ S2x16x256.size a
  inb_S2x16x256_S1x1x16_0_6_192 : ∀ a, (![0, 6, 192] : Fin 3 → Nat) a + S1x1x16.size a ≤ S2x16x256.size a
  inb_S2x16x256_S1x1x16_0_7_192 : ∀ a, (![0, 7, 192] : Fin 3 → Nat) a + S1x1x16.size a ≤ S2x16x256.size a
  inb_S2x16x256_S1x1x16_0_8_192 : ∀ a, (![0, 8, 192] : Fin 3 → Nat) a + S1x1x16.size a ≤ S2x16x256.size a
  inb_S2x16x256_S1x1x16_0_9_192 : ∀ a, (![0, 9, 192] : Fin 3 → Nat) a + S1x1x16.size a ≤ S2x16x256.size a
  inb_S2x16x256_S1x1x16_0_10_192 : ∀ a, (![0, 10, 192] : Fin 3 → Nat) a + S1x1x16.size a ≤ S2x16x256.size a
  inb_S2x16x256_S1x1x16_0_11_192 : ∀ a, (![0, 11, 192] : Fin 3 → Nat) a + S1x1x16.size a ≤ S2x16x256.size a
  inb_S2x16x256_S1x1x16_0_12_192 : ∀ a, (![0, 12, 192] : Fin 3 → Nat) a + S1x1x16.size a ≤ S2x16x256.size a
  inb_S2x16x256_S1x1x16_0_13_192 : ∀ a, (![0, 13, 192] : Fin 3 → Nat) a + S1x1x16.size a ≤ S2x16x256.size a
  inb_S2x16x256_S1x1x16_0_14_192 : ∀ a, (![0, 14, 192] : Fin 3 → Nat) a + S1x1x16.size a ≤ S2x16x256.size a
  inb_S2x16x256_S1x1x16_0_15_192 : ∀ a, (![0, 15, 192] : Fin 3 → Nat) a + S1x1x16.size a ≤ S2x16x256.size a
  inb_S2x16x256_S1x1x16_0_0_208 : ∀ a, (![0, 0, 208] : Fin 3 → Nat) a + S1x1x16.size a ≤ S2x16x256.size a
  inb_S2x16x256_S1x1x16_0_1_208 : ∀ a, (![0, 1, 208] : Fin 3 → Nat) a + S1x1x16.size a ≤ S2x16x256.size a
  inb_S2x16x256_S1x1x16_0_2_208 : ∀ a, (![0, 2, 208] : Fin 3 → Nat) a + S1x1x16.size a ≤ S2x16x256.size a
  inb_S2x16x256_S1x1x16_0_3_208 : ∀ a, (![0, 3, 208] : Fin 3 → Nat) a + S1x1x16.size a ≤ S2x16x256.size a
  inb_S2x16x256_S1x1x16_0_4_208 : ∀ a, (![0, 4, 208] : Fin 3 → Nat) a + S1x1x16.size a ≤ S2x16x256.size a
  inb_S2x16x256_S1x1x16_0_5_208 : ∀ a, (![0, 5, 208] : Fin 3 → Nat) a + S1x1x16.size a ≤ S2x16x256.size a
  inb_S2x16x256_S1x1x16_0_6_208 : ∀ a, (![0, 6, 208] : Fin 3 → Nat) a + S1x1x16.size a ≤ S2x16x256.size a
  inb_S2x16x256_S1x1x16_0_7_208 : ∀ a, (![0, 7, 208] : Fin 3 → Nat) a + S1x1x16.size a ≤ S2x16x256.size a
  inb_S2x16x256_S1x1x16_0_8_208 : ∀ a, (![0, 8, 208] : Fin 3 → Nat) a + S1x1x16.size a ≤ S2x16x256.size a
  inb_S2x16x256_S1x1x16_0_9_208 : ∀ a, (![0, 9, 208] : Fin 3 → Nat) a + S1x1x16.size a ≤ S2x16x256.size a
  inb_S2x16x256_S1x1x16_0_10_208 : ∀ a, (![0, 10, 208] : Fin 3 → Nat) a + S1x1x16.size a ≤ S2x16x256.size a
  inb_S2x16x256_S1x1x16_0_11_208 : ∀ a, (![0, 11, 208] : Fin 3 → Nat) a + S1x1x16.size a ≤ S2x16x256.size a
  inb_S2x16x256_S1x1x16_0_12_208 : ∀ a, (![0, 12, 208] : Fin 3 → Nat) a + S1x1x16.size a ≤ S2x16x256.size a
  inb_S2x16x256_S1x1x16_0_13_208 : ∀ a, (![0, 13, 208] : Fin 3 → Nat) a + S1x1x16.size a ≤ S2x16x256.size a
  inb_S2x16x256_S1x1x16_0_14_208 : ∀ a, (![0, 14, 208] : Fin 3 → Nat) a + S1x1x16.size a ≤ S2x16x256.size a
  inb_S2x16x256_S1x1x16_0_15_208 : ∀ a, (![0, 15, 208] : Fin 3 → Nat) a + S1x1x16.size a ≤ S2x16x256.size a
  inb_S2x16x256_S1x1x16_0_0_224 : ∀ a, (![0, 0, 224] : Fin 3 → Nat) a + S1x1x16.size a ≤ S2x16x256.size a
  inb_S2x16x256_S1x1x16_0_1_224 : ∀ a, (![0, 1, 224] : Fin 3 → Nat) a + S1x1x16.size a ≤ S2x16x256.size a
  inb_S2x16x256_S1x1x16_0_2_224 : ∀ a, (![0, 2, 224] : Fin 3 → Nat) a + S1x1x16.size a ≤ S2x16x256.size a
  inb_S2x16x256_S1x1x16_0_3_224 : ∀ a, (![0, 3, 224] : Fin 3 → Nat) a + S1x1x16.size a ≤ S2x16x256.size a
  inb_S2x16x256_S1x1x16_0_4_224 : ∀ a, (![0, 4, 224] : Fin 3 → Nat) a + S1x1x16.size a ≤ S2x16x256.size a
  inb_S2x16x256_S1x1x16_0_5_224 : ∀ a, (![0, 5, 224] : Fin 3 → Nat) a + S1x1x16.size a ≤ S2x16x256.size a
  inb_S2x16x256_S1x1x16_0_6_224 : ∀ a, (![0, 6, 224] : Fin 3 → Nat) a + S1x1x16.size a ≤ S2x16x256.size a
  inb_S2x16x256_S1x1x16_0_7_224 : ∀ a, (![0, 7, 224] : Fin 3 → Nat) a + S1x1x16.size a ≤ S2x16x256.size a
  inb_S2x16x256_S1x1x16_0_8_224 : ∀ a, (![0, 8, 224] : Fin 3 → Nat) a + S1x1x16.size a ≤ S2x16x256.size a
  inb_S2x16x256_S1x1x16_0_9_224 : ∀ a, (![0, 9, 224] : Fin 3 → Nat) a + S1x1x16.size a ≤ S2x16x256.size a
  inb_S2x16x256_S1x1x16_0_10_224 : ∀ a, (![0, 10, 224] : Fin 3 → Nat) a + S1x1x16.size a ≤ S2x16x256.size a
  inb_S2x16x256_S1x1x16_0_11_224 : ∀ a, (![0, 11, 224] : Fin 3 → Nat) a + S1x1x16.size a ≤ S2x16x256.size a
  inb_S2x16x256_S1x1x16_0_12_224 : ∀ a, (![0, 12, 224] : Fin 3 → Nat) a + S1x1x16.size a ≤ S2x16x256.size a
  inb_S2x16x256_S1x1x16_0_13_224 : ∀ a, (![0, 13, 224] : Fin 3 → Nat) a + S1x1x16.size a ≤ S2x16x256.size a
  inb_S2x16x256_S1x1x16_0_14_224 : ∀ a, (![0, 14, 224] : Fin 3 → Nat) a + S1x1x16.size a ≤ S2x16x256.size a
  inb_S2x16x256_S1x1x16_0_15_224 : ∀ a, (![0, 15, 224] : Fin 3 → Nat) a + S1x1x16.size a ≤ S2x16x256.size a
  inb_S2x16x256_S1x1x16_0_0_240 : ∀ a, (![0, 0, 240] : Fin 3 → Nat) a + S1x1x16.size a ≤ S2x16x256.size a
  inb_S2x16x256_S1x1x16_0_1_240 : ∀ a, (![0, 1, 240] : Fin 3 → Nat) a + S1x1x16.size a ≤ S2x16x256.size a
  inb_S2x16x256_S1x1x16_0_2_240 : ∀ a, (![0, 2, 240] : Fin 3 → Nat) a + S1x1x16.size a ≤ S2x16x256.size a
  inb_S2x16x256_S1x1x16_0_3_240 : ∀ a, (![0, 3, 240] : Fin 3 → Nat) a + S1x1x16.size a ≤ S2x16x256.size a
  inb_S2x16x256_S1x1x16_0_4_240 : ∀ a, (![0, 4, 240] : Fin 3 → Nat) a + S1x1x16.size a ≤ S2x16x256.size a
  inb_S2x16x256_S1x1x16_0_5_240 : ∀ a, (![0, 5, 240] : Fin 3 → Nat) a + S1x1x16.size a ≤ S2x16x256.size a
  inb_S2x16x256_S1x1x16_0_6_240 : ∀ a, (![0, 6, 240] : Fin 3 → Nat) a + S1x1x16.size a ≤ S2x16x256.size a
  inb_S2x16x256_S1x1x16_0_7_240 : ∀ a, (![0, 7, 240] : Fin 3 → Nat) a + S1x1x16.size a ≤ S2x16x256.size a
  inb_S2x16x256_S1x1x16_0_8_240 : ∀ a, (![0, 8, 240] : Fin 3 → Nat) a + S1x1x16.size a ≤ S2x16x256.size a
  inb_S2x16x256_S1x1x16_0_9_240 : ∀ a, (![0, 9, 240] : Fin 3 → Nat) a + S1x1x16.size a ≤ S2x16x256.size a
  inb_S2x16x256_S1x1x16_0_10_240 : ∀ a, (![0, 10, 240] : Fin 3 → Nat) a + S1x1x16.size a ≤ S2x16x256.size a
  inb_S2x16x256_S1x1x16_0_11_240 : ∀ a, (![0, 11, 240] : Fin 3 → Nat) a + S1x1x16.size a ≤ S2x16x256.size a
  inb_S2x16x256_S1x1x16_0_12_240 : ∀ a, (![0, 12, 240] : Fin 3 → Nat) a + S1x1x16.size a ≤ S2x16x256.size a
  inb_S2x16x256_S1x1x16_0_13_240 : ∀ a, (![0, 13, 240] : Fin 3 → Nat) a + S1x1x16.size a ≤ S2x16x256.size a
  inb_S2x16x256_S1x1x16_0_14_240 : ∀ a, (![0, 14, 240] : Fin 3 → Nat) a + S1x1x16.size a ≤ S2x16x256.size a
  inb_S2x16x256_S1x1x16_0_15_240 : ∀ a, (![0, 15, 240] : Fin 3 → Nat) a + S1x1x16.size a ≤ S2x16x256.size a
  inb_S2x16x256_S1x1x16_1_0_0 : ∀ a, (![1, 0, 0] : Fin 3 → Nat) a + S1x1x16.size a ≤ S2x16x256.size a
  inb_S2x16x256_S1x1x16_1_1_0 : ∀ a, (![1, 1, 0] : Fin 3 → Nat) a + S1x1x16.size a ≤ S2x16x256.size a
  inb_S2x16x256_S1x1x16_1_2_0 : ∀ a, (![1, 2, 0] : Fin 3 → Nat) a + S1x1x16.size a ≤ S2x16x256.size a
  inb_S2x16x256_S1x1x16_1_3_0 : ∀ a, (![1, 3, 0] : Fin 3 → Nat) a + S1x1x16.size a ≤ S2x16x256.size a
  inb_S2x16x256_S1x1x16_1_4_0 : ∀ a, (![1, 4, 0] : Fin 3 → Nat) a + S1x1x16.size a ≤ S2x16x256.size a
  inb_S2x16x256_S1x1x16_1_5_0 : ∀ a, (![1, 5, 0] : Fin 3 → Nat) a + S1x1x16.size a ≤ S2x16x256.size a
  inb_S2x16x256_S1x1x16_1_6_0 : ∀ a, (![1, 6, 0] : Fin 3 → Nat) a + S1x1x16.size a ≤ S2x16x256.size a
  inb_S2x16x256_S1x1x16_1_7_0 : ∀ a, (![1, 7, 0] : Fin 3 → Nat) a + S1x1x16.size a ≤ S2x16x256.size a
  inb_S2x16x256_S1x1x16_1_8_0 : ∀ a, (![1, 8, 0] : Fin 3 → Nat) a + S1x1x16.size a ≤ S2x16x256.size a
  inb_S2x16x256_S1x1x16_1_9_0 : ∀ a, (![1, 9, 0] : Fin 3 → Nat) a + S1x1x16.size a ≤ S2x16x256.size a
  inb_S2x16x256_S1x1x16_1_10_0 : ∀ a, (![1, 10, 0] : Fin 3 → Nat) a + S1x1x16.size a ≤ S2x16x256.size a
  inb_S2x16x256_S1x1x16_1_11_0 : ∀ a, (![1, 11, 0] : Fin 3 → Nat) a + S1x1x16.size a ≤ S2x16x256.size a
  inb_S2x16x256_S1x1x16_1_12_0 : ∀ a, (![1, 12, 0] : Fin 3 → Nat) a + S1x1x16.size a ≤ S2x16x256.size a
  inb_S2x16x256_S1x1x16_1_13_0 : ∀ a, (![1, 13, 0] : Fin 3 → Nat) a + S1x1x16.size a ≤ S2x16x256.size a
  inb_S2x16x256_S1x1x16_1_14_0 : ∀ a, (![1, 14, 0] : Fin 3 → Nat) a + S1x1x16.size a ≤ S2x16x256.size a
  inb_S2x16x256_S1x1x16_1_15_0 : ∀ a, (![1, 15, 0] : Fin 3 → Nat) a + S1x1x16.size a ≤ S2x16x256.size a
  inb_S2x16x256_S1x1x16_1_0_16 : ∀ a, (![1, 0, 16] : Fin 3 → Nat) a + S1x1x16.size a ≤ S2x16x256.size a
  inb_S2x16x256_S1x1x16_1_1_16 : ∀ a, (![1, 1, 16] : Fin 3 → Nat) a + S1x1x16.size a ≤ S2x16x256.size a
  inb_S2x16x256_S1x1x16_1_2_16 : ∀ a, (![1, 2, 16] : Fin 3 → Nat) a + S1x1x16.size a ≤ S2x16x256.size a
  inb_S2x16x256_S1x1x16_1_3_16 : ∀ a, (![1, 3, 16] : Fin 3 → Nat) a + S1x1x16.size a ≤ S2x16x256.size a
  inb_S2x16x256_S1x1x16_1_4_16 : ∀ a, (![1, 4, 16] : Fin 3 → Nat) a + S1x1x16.size a ≤ S2x16x256.size a
  inb_S2x16x256_S1x1x16_1_5_16 : ∀ a, (![1, 5, 16] : Fin 3 → Nat) a + S1x1x16.size a ≤ S2x16x256.size a
  inb_S2x16x256_S1x1x16_1_6_16 : ∀ a, (![1, 6, 16] : Fin 3 → Nat) a + S1x1x16.size a ≤ S2x16x256.size a
  inb_S2x16x256_S1x1x16_1_7_16 : ∀ a, (![1, 7, 16] : Fin 3 → Nat) a + S1x1x16.size a ≤ S2x16x256.size a
  inb_S2x16x256_S1x1x16_1_8_16 : ∀ a, (![1, 8, 16] : Fin 3 → Nat) a + S1x1x16.size a ≤ S2x16x256.size a
  inb_S2x16x256_S1x1x16_1_9_16 : ∀ a, (![1, 9, 16] : Fin 3 → Nat) a + S1x1x16.size a ≤ S2x16x256.size a
  inb_S2x16x256_S1x1x16_1_10_16 : ∀ a, (![1, 10, 16] : Fin 3 → Nat) a + S1x1x16.size a ≤ S2x16x256.size a
  inb_S2x16x256_S1x1x16_1_11_16 : ∀ a, (![1, 11, 16] : Fin 3 → Nat) a + S1x1x16.size a ≤ S2x16x256.size a
  inb_S2x16x256_S1x1x16_1_12_16 : ∀ a, (![1, 12, 16] : Fin 3 → Nat) a + S1x1x16.size a ≤ S2x16x256.size a
  inb_S2x16x256_S1x1x16_1_13_16 : ∀ a, (![1, 13, 16] : Fin 3 → Nat) a + S1x1x16.size a ≤ S2x16x256.size a
  inb_S2x16x256_S1x1x16_1_14_16 : ∀ a, (![1, 14, 16] : Fin 3 → Nat) a + S1x1x16.size a ≤ S2x16x256.size a
  inb_S2x16x256_S1x1x16_1_15_16 : ∀ a, (![1, 15, 16] : Fin 3 → Nat) a + S1x1x16.size a ≤ S2x16x256.size a
  inb_S2x16x256_S1x1x16_1_0_32 : ∀ a, (![1, 0, 32] : Fin 3 → Nat) a + S1x1x16.size a ≤ S2x16x256.size a
  inb_S2x16x256_S1x1x16_1_1_32 : ∀ a, (![1, 1, 32] : Fin 3 → Nat) a + S1x1x16.size a ≤ S2x16x256.size a
  inb_S2x16x256_S1x1x16_1_2_32 : ∀ a, (![1, 2, 32] : Fin 3 → Nat) a + S1x1x16.size a ≤ S2x16x256.size a
  inb_S2x16x256_S1x1x16_1_3_32 : ∀ a, (![1, 3, 32] : Fin 3 → Nat) a + S1x1x16.size a ≤ S2x16x256.size a
  inb_S2x16x256_S1x1x16_1_4_32 : ∀ a, (![1, 4, 32] : Fin 3 → Nat) a + S1x1x16.size a ≤ S2x16x256.size a
  inb_S2x16x256_S1x1x16_1_5_32 : ∀ a, (![1, 5, 32] : Fin 3 → Nat) a + S1x1x16.size a ≤ S2x16x256.size a
  inb_S2x16x256_S1x1x16_1_6_32 : ∀ a, (![1, 6, 32] : Fin 3 → Nat) a + S1x1x16.size a ≤ S2x16x256.size a
  inb_S2x16x256_S1x1x16_1_7_32 : ∀ a, (![1, 7, 32] : Fin 3 → Nat) a + S1x1x16.size a ≤ S2x16x256.size a
  inb_S2x16x256_S1x1x16_1_8_32 : ∀ a, (![1, 8, 32] : Fin 3 → Nat) a + S1x1x16.size a ≤ S2x16x256.size a
  inb_S2x16x256_S1x1x16_1_9_32 : ∀ a, (![1, 9, 32] : Fin 3 → Nat) a + S1x1x16.size a ≤ S2x16x256.size a
  inb_S2x16x256_S1x1x16_1_10_32 : ∀ a, (![1, 10, 32] : Fin 3 → Nat) a + S1x1x16.size a ≤ S2x16x256.size a
  inb_S2x16x256_S1x1x16_1_11_32 : ∀ a, (![1, 11, 32] : Fin 3 → Nat) a + S1x1x16.size a ≤ S2x16x256.size a
  inb_S2x16x256_S1x1x16_1_12_32 : ∀ a, (![1, 12, 32] : Fin 3 → Nat) a + S1x1x16.size a ≤ S2x16x256.size a
  inb_S2x16x256_S1x1x16_1_13_32 : ∀ a, (![1, 13, 32] : Fin 3 → Nat) a + S1x1x16.size a ≤ S2x16x256.size a
  inb_S2x16x256_S1x1x16_1_14_32 : ∀ a, (![1, 14, 32] : Fin 3 → Nat) a + S1x1x16.size a ≤ S2x16x256.size a
  inb_S2x16x256_S1x1x16_1_15_32 : ∀ a, (![1, 15, 32] : Fin 3 → Nat) a + S1x1x16.size a ≤ S2x16x256.size a
  inb_S2x16x256_S1x1x16_1_0_48 : ∀ a, (![1, 0, 48] : Fin 3 → Nat) a + S1x1x16.size a ≤ S2x16x256.size a
  inb_S2x16x256_S1x1x16_1_1_48 : ∀ a, (![1, 1, 48] : Fin 3 → Nat) a + S1x1x16.size a ≤ S2x16x256.size a
  inb_S2x16x256_S1x1x16_1_2_48 : ∀ a, (![1, 2, 48] : Fin 3 → Nat) a + S1x1x16.size a ≤ S2x16x256.size a
  inb_S2x16x256_S1x1x16_1_3_48 : ∀ a, (![1, 3, 48] : Fin 3 → Nat) a + S1x1x16.size a ≤ S2x16x256.size a
  inb_S2x16x256_S1x1x16_1_4_48 : ∀ a, (![1, 4, 48] : Fin 3 → Nat) a + S1x1x16.size a ≤ S2x16x256.size a
  inb_S2x16x256_S1x1x16_1_5_48 : ∀ a, (![1, 5, 48] : Fin 3 → Nat) a + S1x1x16.size a ≤ S2x16x256.size a
  inb_S2x16x256_S1x1x16_1_6_48 : ∀ a, (![1, 6, 48] : Fin 3 → Nat) a + S1x1x16.size a ≤ S2x16x256.size a
  inb_S2x16x256_S1x1x16_1_7_48 : ∀ a, (![1, 7, 48] : Fin 3 → Nat) a + S1x1x16.size a ≤ S2x16x256.size a
  inb_S2x16x256_S1x1x16_1_8_48 : ∀ a, (![1, 8, 48] : Fin 3 → Nat) a + S1x1x16.size a ≤ S2x16x256.size a
  inb_S2x16x256_S1x1x16_1_9_48 : ∀ a, (![1, 9, 48] : Fin 3 → Nat) a + S1x1x16.size a ≤ S2x16x256.size a
  inb_S2x16x256_S1x1x16_1_10_48 : ∀ a, (![1, 10, 48] : Fin 3 → Nat) a + S1x1x16.size a ≤ S2x16x256.size a
  inb_S2x16x256_S1x1x16_1_11_48 : ∀ a, (![1, 11, 48] : Fin 3 → Nat) a + S1x1x16.size a ≤ S2x16x256.size a
  inb_S2x16x256_S1x1x16_1_12_48 : ∀ a, (![1, 12, 48] : Fin 3 → Nat) a + S1x1x16.size a ≤ S2x16x256.size a
  inb_S2x16x256_S1x1x16_1_13_48 : ∀ a, (![1, 13, 48] : Fin 3 → Nat) a + S1x1x16.size a ≤ S2x16x256.size a
  inb_S2x16x256_S1x1x16_1_14_48 : ∀ a, (![1, 14, 48] : Fin 3 → Nat) a + S1x1x16.size a ≤ S2x16x256.size a
  inb_S2x16x256_S1x1x16_1_15_48 : ∀ a, (![1, 15, 48] : Fin 3 → Nat) a + S1x1x16.size a ≤ S2x16x256.size a
  inb_S2x16x256_S1x1x16_1_0_64 : ∀ a, (![1, 0, 64] : Fin 3 → Nat) a + S1x1x16.size a ≤ S2x16x256.size a
  inb_S2x16x256_S1x1x16_1_1_64 : ∀ a, (![1, 1, 64] : Fin 3 → Nat) a + S1x1x16.size a ≤ S2x16x256.size a
  inb_S2x16x256_S1x1x16_1_2_64 : ∀ a, (![1, 2, 64] : Fin 3 → Nat) a + S1x1x16.size a ≤ S2x16x256.size a
  inb_S2x16x256_S1x1x16_1_3_64 : ∀ a, (![1, 3, 64] : Fin 3 → Nat) a + S1x1x16.size a ≤ S2x16x256.size a
  inb_S2x16x256_S1x1x16_1_4_64 : ∀ a, (![1, 4, 64] : Fin 3 → Nat) a + S1x1x16.size a ≤ S2x16x256.size a
  inb_S2x16x256_S1x1x16_1_5_64 : ∀ a, (![1, 5, 64] : Fin 3 → Nat) a + S1x1x16.size a ≤ S2x16x256.size a
  inb_S2x16x256_S1x1x16_1_6_64 : ∀ a, (![1, 6, 64] : Fin 3 → Nat) a + S1x1x16.size a ≤ S2x16x256.size a
  inb_S2x16x256_S1x1x16_1_7_64 : ∀ a, (![1, 7, 64] : Fin 3 → Nat) a + S1x1x16.size a ≤ S2x16x256.size a
  inb_S2x16x256_S1x1x16_1_8_64 : ∀ a, (![1, 8, 64] : Fin 3 → Nat) a + S1x1x16.size a ≤ S2x16x256.size a
  inb_S2x16x256_S1x1x16_1_9_64 : ∀ a, (![1, 9, 64] : Fin 3 → Nat) a + S1x1x16.size a ≤ S2x16x256.size a
  inb_S2x16x256_S1x1x16_1_10_64 : ∀ a, (![1, 10, 64] : Fin 3 → Nat) a + S1x1x16.size a ≤ S2x16x256.size a
  inb_S2x16x256_S1x1x16_1_11_64 : ∀ a, (![1, 11, 64] : Fin 3 → Nat) a + S1x1x16.size a ≤ S2x16x256.size a
  inb_S2x16x256_S1x1x16_1_12_64 : ∀ a, (![1, 12, 64] : Fin 3 → Nat) a + S1x1x16.size a ≤ S2x16x256.size a
  inb_S2x16x256_S1x1x16_1_13_64 : ∀ a, (![1, 13, 64] : Fin 3 → Nat) a + S1x1x16.size a ≤ S2x16x256.size a
  inb_S2x16x256_S1x1x16_1_14_64 : ∀ a, (![1, 14, 64] : Fin 3 → Nat) a + S1x1x16.size a ≤ S2x16x256.size a
  inb_S2x16x256_S1x1x16_1_15_64 : ∀ a, (![1, 15, 64] : Fin 3 → Nat) a + S1x1x16.size a ≤ S2x16x256.size a
  inb_S2x16x256_S1x1x16_1_0_80 : ∀ a, (![1, 0, 80] : Fin 3 → Nat) a + S1x1x16.size a ≤ S2x16x256.size a
  inb_S2x16x256_S1x1x16_1_1_80 : ∀ a, (![1, 1, 80] : Fin 3 → Nat) a + S1x1x16.size a ≤ S2x16x256.size a
  inb_S2x16x256_S1x1x16_1_2_80 : ∀ a, (![1, 2, 80] : Fin 3 → Nat) a + S1x1x16.size a ≤ S2x16x256.size a
  inb_S2x16x256_S1x1x16_1_3_80 : ∀ a, (![1, 3, 80] : Fin 3 → Nat) a + S1x1x16.size a ≤ S2x16x256.size a
  inb_S2x16x256_S1x1x16_1_4_80 : ∀ a, (![1, 4, 80] : Fin 3 → Nat) a + S1x1x16.size a ≤ S2x16x256.size a
  inb_S2x16x256_S1x1x16_1_5_80 : ∀ a, (![1, 5, 80] : Fin 3 → Nat) a + S1x1x16.size a ≤ S2x16x256.size a
  inb_S2x16x256_S1x1x16_1_6_80 : ∀ a, (![1, 6, 80] : Fin 3 → Nat) a + S1x1x16.size a ≤ S2x16x256.size a
  inb_S2x16x256_S1x1x16_1_7_80 : ∀ a, (![1, 7, 80] : Fin 3 → Nat) a + S1x1x16.size a ≤ S2x16x256.size a
  inb_S2x16x256_S1x1x16_1_8_80 : ∀ a, (![1, 8, 80] : Fin 3 → Nat) a + S1x1x16.size a ≤ S2x16x256.size a
  inb_S2x16x256_S1x1x16_1_9_80 : ∀ a, (![1, 9, 80] : Fin 3 → Nat) a + S1x1x16.size a ≤ S2x16x256.size a
  inb_S2x16x256_S1x1x16_1_10_80 : ∀ a, (![1, 10, 80] : Fin 3 → Nat) a + S1x1x16.size a ≤ S2x16x256.size a
  inb_S2x16x256_S1x1x16_1_11_80 : ∀ a, (![1, 11, 80] : Fin 3 → Nat) a + S1x1x16.size a ≤ S2x16x256.size a
  inb_S2x16x256_S1x1x16_1_12_80 : ∀ a, (![1, 12, 80] : Fin 3 → Nat) a + S1x1x16.size a ≤ S2x16x256.size a
  inb_S2x16x256_S1x1x16_1_13_80 : ∀ a, (![1, 13, 80] : Fin 3 → Nat) a + S1x1x16.size a ≤ S2x16x256.size a
  inb_S2x16x256_S1x1x16_1_14_80 : ∀ a, (![1, 14, 80] : Fin 3 → Nat) a + S1x1x16.size a ≤ S2x16x256.size a
  inb_S2x16x256_S1x1x16_1_15_80 : ∀ a, (![1, 15, 80] : Fin 3 → Nat) a + S1x1x16.size a ≤ S2x16x256.size a
  inb_S2x16x256_S1x1x16_1_0_96 : ∀ a, (![1, 0, 96] : Fin 3 → Nat) a + S1x1x16.size a ≤ S2x16x256.size a
  inb_S2x16x256_S1x1x16_1_1_96 : ∀ a, (![1, 1, 96] : Fin 3 → Nat) a + S1x1x16.size a ≤ S2x16x256.size a
  inb_S2x16x256_S1x1x16_1_2_96 : ∀ a, (![1, 2, 96] : Fin 3 → Nat) a + S1x1x16.size a ≤ S2x16x256.size a
  inb_S2x16x256_S1x1x16_1_3_96 : ∀ a, (![1, 3, 96] : Fin 3 → Nat) a + S1x1x16.size a ≤ S2x16x256.size a
  inb_S2x16x256_S1x1x16_1_4_96 : ∀ a, (![1, 4, 96] : Fin 3 → Nat) a + S1x1x16.size a ≤ S2x16x256.size a
  inb_S2x16x256_S1x1x16_1_5_96 : ∀ a, (![1, 5, 96] : Fin 3 → Nat) a + S1x1x16.size a ≤ S2x16x256.size a
  inb_S2x16x256_S1x1x16_1_6_96 : ∀ a, (![1, 6, 96] : Fin 3 → Nat) a + S1x1x16.size a ≤ S2x16x256.size a
  inb_S2x16x256_S1x1x16_1_7_96 : ∀ a, (![1, 7, 96] : Fin 3 → Nat) a + S1x1x16.size a ≤ S2x16x256.size a
  inb_S2x16x256_S1x1x16_1_8_96 : ∀ a, (![1, 8, 96] : Fin 3 → Nat) a + S1x1x16.size a ≤ S2x16x256.size a
  inb_S2x16x256_S1x1x16_1_9_96 : ∀ a, (![1, 9, 96] : Fin 3 → Nat) a + S1x1x16.size a ≤ S2x16x256.size a
  inb_S2x16x256_S1x1x16_1_10_96 : ∀ a, (![1, 10, 96] : Fin 3 → Nat) a + S1x1x16.size a ≤ S2x16x256.size a
  inb_S2x16x256_S1x1x16_1_11_96 : ∀ a, (![1, 11, 96] : Fin 3 → Nat) a + S1x1x16.size a ≤ S2x16x256.size a
  inb_S2x16x256_S1x1x16_1_12_96 : ∀ a, (![1, 12, 96] : Fin 3 → Nat) a + S1x1x16.size a ≤ S2x16x256.size a
  inb_S2x16x256_S1x1x16_1_13_96 : ∀ a, (![1, 13, 96] : Fin 3 → Nat) a + S1x1x16.size a ≤ S2x16x256.size a
  inb_S2x16x256_S1x1x16_1_14_96 : ∀ a, (![1, 14, 96] : Fin 3 → Nat) a + S1x1x16.size a ≤ S2x16x256.size a
  inb_S2x16x256_S1x1x16_1_15_96 : ∀ a, (![1, 15, 96] : Fin 3 → Nat) a + S1x1x16.size a ≤ S2x16x256.size a
  inb_S2x16x256_S1x1x16_1_0_112 : ∀ a, (![1, 0, 112] : Fin 3 → Nat) a + S1x1x16.size a ≤ S2x16x256.size a
  inb_S2x16x256_S1x1x16_1_1_112 : ∀ a, (![1, 1, 112] : Fin 3 → Nat) a + S1x1x16.size a ≤ S2x16x256.size a
  inb_S2x16x256_S1x1x16_1_2_112 : ∀ a, (![1, 2, 112] : Fin 3 → Nat) a + S1x1x16.size a ≤ S2x16x256.size a
  inb_S2x16x256_S1x1x16_1_3_112 : ∀ a, (![1, 3, 112] : Fin 3 → Nat) a + S1x1x16.size a ≤ S2x16x256.size a
  inb_S2x16x256_S1x1x16_1_4_112 : ∀ a, (![1, 4, 112] : Fin 3 → Nat) a + S1x1x16.size a ≤ S2x16x256.size a
  inb_S2x16x256_S1x1x16_1_5_112 : ∀ a, (![1, 5, 112] : Fin 3 → Nat) a + S1x1x16.size a ≤ S2x16x256.size a
  inb_S2x16x256_S1x1x16_1_6_112 : ∀ a, (![1, 6, 112] : Fin 3 → Nat) a + S1x1x16.size a ≤ S2x16x256.size a
  inb_S2x16x256_S1x1x16_1_7_112 : ∀ a, (![1, 7, 112] : Fin 3 → Nat) a + S1x1x16.size a ≤ S2x16x256.size a
  inb_S2x16x256_S1x1x16_1_8_112 : ∀ a, (![1, 8, 112] : Fin 3 → Nat) a + S1x1x16.size a ≤ S2x16x256.size a
  inb_S2x16x256_S1x1x16_1_9_112 : ∀ a, (![1, 9, 112] : Fin 3 → Nat) a + S1x1x16.size a ≤ S2x16x256.size a
  inb_S2x16x256_S1x1x16_1_10_112 : ∀ a, (![1, 10, 112] : Fin 3 → Nat) a + S1x1x16.size a ≤ S2x16x256.size a
  inb_S2x16x256_S1x1x16_1_11_112 : ∀ a, (![1, 11, 112] : Fin 3 → Nat) a + S1x1x16.size a ≤ S2x16x256.size a
  inb_S2x16x256_S1x1x16_1_12_112 : ∀ a, (![1, 12, 112] : Fin 3 → Nat) a + S1x1x16.size a ≤ S2x16x256.size a
  inb_S2x16x256_S1x1x16_1_13_112 : ∀ a, (![1, 13, 112] : Fin 3 → Nat) a + S1x1x16.size a ≤ S2x16x256.size a
  inb_S2x16x256_S1x1x16_1_14_112 : ∀ a, (![1, 14, 112] : Fin 3 → Nat) a + S1x1x16.size a ≤ S2x16x256.size a
  inb_S2x16x256_S1x1x16_1_15_112 : ∀ a, (![1, 15, 112] : Fin 3 → Nat) a + S1x1x16.size a ≤ S2x16x256.size a
  inb_S2x16x256_S1x1x16_1_0_128 : ∀ a, (![1, 0, 128] : Fin 3 → Nat) a + S1x1x16.size a ≤ S2x16x256.size a
  inb_S2x16x256_S1x1x16_1_1_128 : ∀ a, (![1, 1, 128] : Fin 3 → Nat) a + S1x1x16.size a ≤ S2x16x256.size a
  inb_S2x16x256_S1x1x16_1_2_128 : ∀ a, (![1, 2, 128] : Fin 3 → Nat) a + S1x1x16.size a ≤ S2x16x256.size a
  inb_S2x16x256_S1x1x16_1_3_128 : ∀ a, (![1, 3, 128] : Fin 3 → Nat) a + S1x1x16.size a ≤ S2x16x256.size a
  inb_S2x16x256_S1x1x16_1_4_128 : ∀ a, (![1, 4, 128] : Fin 3 → Nat) a + S1x1x16.size a ≤ S2x16x256.size a
  inb_S2x16x256_S1x1x16_1_5_128 : ∀ a, (![1, 5, 128] : Fin 3 → Nat) a + S1x1x16.size a ≤ S2x16x256.size a
  inb_S2x16x256_S1x1x16_1_6_128 : ∀ a, (![1, 6, 128] : Fin 3 → Nat) a + S1x1x16.size a ≤ S2x16x256.size a
  inb_S2x16x256_S1x1x16_1_7_128 : ∀ a, (![1, 7, 128] : Fin 3 → Nat) a + S1x1x16.size a ≤ S2x16x256.size a
  inb_S2x16x256_S1x1x16_1_8_128 : ∀ a, (![1, 8, 128] : Fin 3 → Nat) a + S1x1x16.size a ≤ S2x16x256.size a
  inb_S2x16x256_S1x1x16_1_9_128 : ∀ a, (![1, 9, 128] : Fin 3 → Nat) a + S1x1x16.size a ≤ S2x16x256.size a
  inb_S2x16x256_S1x1x16_1_10_128 : ∀ a, (![1, 10, 128] : Fin 3 → Nat) a + S1x1x16.size a ≤ S2x16x256.size a
  inb_S2x16x256_S1x1x16_1_11_128 : ∀ a, (![1, 11, 128] : Fin 3 → Nat) a + S1x1x16.size a ≤ S2x16x256.size a
  inb_S2x16x256_S1x1x16_1_12_128 : ∀ a, (![1, 12, 128] : Fin 3 → Nat) a + S1x1x16.size a ≤ S2x16x256.size a
  inb_S2x16x256_S1x1x16_1_13_128 : ∀ a, (![1, 13, 128] : Fin 3 → Nat) a + S1x1x16.size a ≤ S2x16x256.size a
  inb_S2x16x256_S1x1x16_1_14_128 : ∀ a, (![1, 14, 128] : Fin 3 → Nat) a + S1x1x16.size a ≤ S2x16x256.size a
  inb_S2x16x256_S1x1x16_1_15_128 : ∀ a, (![1, 15, 128] : Fin 3 → Nat) a + S1x1x16.size a ≤ S2x16x256.size a
  inb_S2x16x256_S1x1x16_1_0_144 : ∀ a, (![1, 0, 144] : Fin 3 → Nat) a + S1x1x16.size a ≤ S2x16x256.size a
  inb_S2x16x256_S1x1x16_1_1_144 : ∀ a, (![1, 1, 144] : Fin 3 → Nat) a + S1x1x16.size a ≤ S2x16x256.size a
  inb_S2x16x256_S1x1x16_1_2_144 : ∀ a, (![1, 2, 144] : Fin 3 → Nat) a + S1x1x16.size a ≤ S2x16x256.size a
  inb_S2x16x256_S1x1x16_1_3_144 : ∀ a, (![1, 3, 144] : Fin 3 → Nat) a + S1x1x16.size a ≤ S2x16x256.size a
  inb_S2x16x256_S1x1x16_1_4_144 : ∀ a, (![1, 4, 144] : Fin 3 → Nat) a + S1x1x16.size a ≤ S2x16x256.size a
  inb_S2x16x256_S1x1x16_1_5_144 : ∀ a, (![1, 5, 144] : Fin 3 → Nat) a + S1x1x16.size a ≤ S2x16x256.size a
  inb_S2x16x256_S1x1x16_1_6_144 : ∀ a, (![1, 6, 144] : Fin 3 → Nat) a + S1x1x16.size a ≤ S2x16x256.size a
  inb_S2x16x256_S1x1x16_1_7_144 : ∀ a, (![1, 7, 144] : Fin 3 → Nat) a + S1x1x16.size a ≤ S2x16x256.size a
  inb_S2x16x256_S1x1x16_1_8_144 : ∀ a, (![1, 8, 144] : Fin 3 → Nat) a + S1x1x16.size a ≤ S2x16x256.size a
  inb_S2x16x256_S1x1x16_1_9_144 : ∀ a, (![1, 9, 144] : Fin 3 → Nat) a + S1x1x16.size a ≤ S2x16x256.size a
  inb_S2x16x256_S1x1x16_1_10_144 : ∀ a, (![1, 10, 144] : Fin 3 → Nat) a + S1x1x16.size a ≤ S2x16x256.size a
  inb_S2x16x256_S1x1x16_1_11_144 : ∀ a, (![1, 11, 144] : Fin 3 → Nat) a + S1x1x16.size a ≤ S2x16x256.size a
  inb_S2x16x256_S1x1x16_1_12_144 : ∀ a, (![1, 12, 144] : Fin 3 → Nat) a + S1x1x16.size a ≤ S2x16x256.size a
  inb_S2x16x256_S1x1x16_1_13_144 : ∀ a, (![1, 13, 144] : Fin 3 → Nat) a + S1x1x16.size a ≤ S2x16x256.size a
  inb_S2x16x256_S1x1x16_1_14_144 : ∀ a, (![1, 14, 144] : Fin 3 → Nat) a + S1x1x16.size a ≤ S2x16x256.size a
  inb_S2x16x256_S1x1x16_1_15_144 : ∀ a, (![1, 15, 144] : Fin 3 → Nat) a + S1x1x16.size a ≤ S2x16x256.size a
  inb_S2x16x256_S1x1x16_1_0_160 : ∀ a, (![1, 0, 160] : Fin 3 → Nat) a + S1x1x16.size a ≤ S2x16x256.size a
  inb_S2x16x256_S1x1x16_1_1_160 : ∀ a, (![1, 1, 160] : Fin 3 → Nat) a + S1x1x16.size a ≤ S2x16x256.size a
  inb_S2x16x256_S1x1x16_1_2_160 : ∀ a, (![1, 2, 160] : Fin 3 → Nat) a + S1x1x16.size a ≤ S2x16x256.size a
  inb_S2x16x256_S1x1x16_1_3_160 : ∀ a, (![1, 3, 160] : Fin 3 → Nat) a + S1x1x16.size a ≤ S2x16x256.size a
  inb_S2x16x256_S1x1x16_1_4_160 : ∀ a, (![1, 4, 160] : Fin 3 → Nat) a + S1x1x16.size a ≤ S2x16x256.size a
  inb_S2x16x256_S1x1x16_1_5_160 : ∀ a, (![1, 5, 160] : Fin 3 → Nat) a + S1x1x16.size a ≤ S2x16x256.size a
  inb_S2x16x256_S1x1x16_1_6_160 : ∀ a, (![1, 6, 160] : Fin 3 → Nat) a + S1x1x16.size a ≤ S2x16x256.size a
  inb_S2x16x256_S1x1x16_1_7_160 : ∀ a, (![1, 7, 160] : Fin 3 → Nat) a + S1x1x16.size a ≤ S2x16x256.size a
  inb_S2x16x256_S1x1x16_1_8_160 : ∀ a, (![1, 8, 160] : Fin 3 → Nat) a + S1x1x16.size a ≤ S2x16x256.size a
  inb_S2x16x256_S1x1x16_1_9_160 : ∀ a, (![1, 9, 160] : Fin 3 → Nat) a + S1x1x16.size a ≤ S2x16x256.size a
  inb_S2x16x256_S1x1x16_1_10_160 : ∀ a, (![1, 10, 160] : Fin 3 → Nat) a + S1x1x16.size a ≤ S2x16x256.size a
  inb_S2x16x256_S1x1x16_1_11_160 : ∀ a, (![1, 11, 160] : Fin 3 → Nat) a + S1x1x16.size a ≤ S2x16x256.size a
  inb_S2x16x256_S1x1x16_1_12_160 : ∀ a, (![1, 12, 160] : Fin 3 → Nat) a + S1x1x16.size a ≤ S2x16x256.size a
  inb_S2x16x256_S1x1x16_1_13_160 : ∀ a, (![1, 13, 160] : Fin 3 → Nat) a + S1x1x16.size a ≤ S2x16x256.size a
  inb_S2x16x256_S1x1x16_1_14_160 : ∀ a, (![1, 14, 160] : Fin 3 → Nat) a + S1x1x16.size a ≤ S2x16x256.size a
  inb_S2x16x256_S1x1x16_1_15_160 : ∀ a, (![1, 15, 160] : Fin 3 → Nat) a + S1x1x16.size a ≤ S2x16x256.size a
  inb_S2x16x256_S1x1x16_1_0_176 : ∀ a, (![1, 0, 176] : Fin 3 → Nat) a + S1x1x16.size a ≤ S2x16x256.size a
  inb_S2x16x256_S1x1x16_1_1_176 : ∀ a, (![1, 1, 176] : Fin 3 → Nat) a + S1x1x16.size a ≤ S2x16x256.size a
  inb_S2x16x256_S1x1x16_1_2_176 : ∀ a, (![1, 2, 176] : Fin 3 → Nat) a + S1x1x16.size a ≤ S2x16x256.size a
  inb_S2x16x256_S1x1x16_1_3_176 : ∀ a, (![1, 3, 176] : Fin 3 → Nat) a + S1x1x16.size a ≤ S2x16x256.size a
  inb_S2x16x256_S1x1x16_1_4_176 : ∀ a, (![1, 4, 176] : Fin 3 → Nat) a + S1x1x16.size a ≤ S2x16x256.size a
  inb_S2x16x256_S1x1x16_1_5_176 : ∀ a, (![1, 5, 176] : Fin 3 → Nat) a + S1x1x16.size a ≤ S2x16x256.size a
  inb_S2x16x256_S1x1x16_1_6_176 : ∀ a, (![1, 6, 176] : Fin 3 → Nat) a + S1x1x16.size a ≤ S2x16x256.size a
  inb_S2x16x256_S1x1x16_1_7_176 : ∀ a, (![1, 7, 176] : Fin 3 → Nat) a + S1x1x16.size a ≤ S2x16x256.size a
  inb_S2x16x256_S1x1x16_1_8_176 : ∀ a, (![1, 8, 176] : Fin 3 → Nat) a + S1x1x16.size a ≤ S2x16x256.size a
  inb_S2x16x256_S1x1x16_1_9_176 : ∀ a, (![1, 9, 176] : Fin 3 → Nat) a + S1x1x16.size a ≤ S2x16x256.size a
  inb_S2x16x256_S1x1x16_1_10_176 : ∀ a, (![1, 10, 176] : Fin 3 → Nat) a + S1x1x16.size a ≤ S2x16x256.size a
  inb_S2x16x256_S1x1x16_1_11_176 : ∀ a, (![1, 11, 176] : Fin 3 → Nat) a + S1x1x16.size a ≤ S2x16x256.size a
  inb_S2x16x256_S1x1x16_1_12_176 : ∀ a, (![1, 12, 176] : Fin 3 → Nat) a + S1x1x16.size a ≤ S2x16x256.size a
  inb_S2x16x256_S1x1x16_1_13_176 : ∀ a, (![1, 13, 176] : Fin 3 → Nat) a + S1x1x16.size a ≤ S2x16x256.size a
  inb_S2x16x256_S1x1x16_1_14_176 : ∀ a, (![1, 14, 176] : Fin 3 → Nat) a + S1x1x16.size a ≤ S2x16x256.size a
  inb_S2x16x256_S1x1x16_1_15_176 : ∀ a, (![1, 15, 176] : Fin 3 → Nat) a + S1x1x16.size a ≤ S2x16x256.size a
  inb_S2x16x256_S1x1x16_1_0_192 : ∀ a, (![1, 0, 192] : Fin 3 → Nat) a + S1x1x16.size a ≤ S2x16x256.size a
  inb_S2x16x256_S1x1x16_1_1_192 : ∀ a, (![1, 1, 192] : Fin 3 → Nat) a + S1x1x16.size a ≤ S2x16x256.size a
  inb_S2x16x256_S1x1x16_1_2_192 : ∀ a, (![1, 2, 192] : Fin 3 → Nat) a + S1x1x16.size a ≤ S2x16x256.size a
  inb_S2x16x256_S1x1x16_1_3_192 : ∀ a, (![1, 3, 192] : Fin 3 → Nat) a + S1x1x16.size a ≤ S2x16x256.size a
  inb_S2x16x256_S1x1x16_1_4_192 : ∀ a, (![1, 4, 192] : Fin 3 → Nat) a + S1x1x16.size a ≤ S2x16x256.size a
  inb_S2x16x256_S1x1x16_1_5_192 : ∀ a, (![1, 5, 192] : Fin 3 → Nat) a + S1x1x16.size a ≤ S2x16x256.size a
  inb_S2x16x256_S1x1x16_1_6_192 : ∀ a, (![1, 6, 192] : Fin 3 → Nat) a + S1x1x16.size a ≤ S2x16x256.size a
  inb_S2x16x256_S1x1x16_1_7_192 : ∀ a, (![1, 7, 192] : Fin 3 → Nat) a + S1x1x16.size a ≤ S2x16x256.size a
  inb_S2x16x256_S1x1x16_1_8_192 : ∀ a, (![1, 8, 192] : Fin 3 → Nat) a + S1x1x16.size a ≤ S2x16x256.size a
  inb_S2x16x256_S1x1x16_1_9_192 : ∀ a, (![1, 9, 192] : Fin 3 → Nat) a + S1x1x16.size a ≤ S2x16x256.size a
  inb_S2x16x256_S1x1x16_1_10_192 : ∀ a, (![1, 10, 192] : Fin 3 → Nat) a + S1x1x16.size a ≤ S2x16x256.size a
  inb_S2x16x256_S1x1x16_1_11_192 : ∀ a, (![1, 11, 192] : Fin 3 → Nat) a + S1x1x16.size a ≤ S2x16x256.size a
  inb_S2x16x256_S1x1x16_1_12_192 : ∀ a, (![1, 12, 192] : Fin 3 → Nat) a + S1x1x16.size a ≤ S2x16x256.size a
  inb_S2x16x256_S1x1x16_1_13_192 : ∀ a, (![1, 13, 192] : Fin 3 → Nat) a + S1x1x16.size a ≤ S2x16x256.size a
  inb_S2x16x256_S1x1x16_1_14_192 : ∀ a, (![1, 14, 192] : Fin 3 → Nat) a + S1x1x16.size a ≤ S2x16x256.size a
  inb_S2x16x256_S1x1x16_1_15_192 : ∀ a, (![1, 15, 192] : Fin 3 → Nat) a + S1x1x16.size a ≤ S2x16x256.size a
  inb_S2x16x256_S1x1x16_1_0_208 : ∀ a, (![1, 0, 208] : Fin 3 → Nat) a + S1x1x16.size a ≤ S2x16x256.size a
  inb_S2x16x256_S1x1x16_1_1_208 : ∀ a, (![1, 1, 208] : Fin 3 → Nat) a + S1x1x16.size a ≤ S2x16x256.size a
  inb_S2x16x256_S1x1x16_1_2_208 : ∀ a, (![1, 2, 208] : Fin 3 → Nat) a + S1x1x16.size a ≤ S2x16x256.size a
  inb_S2x16x256_S1x1x16_1_3_208 : ∀ a, (![1, 3, 208] : Fin 3 → Nat) a + S1x1x16.size a ≤ S2x16x256.size a
  inb_S2x16x256_S1x1x16_1_4_208 : ∀ a, (![1, 4, 208] : Fin 3 → Nat) a + S1x1x16.size a ≤ S2x16x256.size a
  inb_S2x16x256_S1x1x16_1_5_208 : ∀ a, (![1, 5, 208] : Fin 3 → Nat) a + S1x1x16.size a ≤ S2x16x256.size a
  inb_S2x16x256_S1x1x16_1_6_208 : ∀ a, (![1, 6, 208] : Fin 3 → Nat) a + S1x1x16.size a ≤ S2x16x256.size a
  inb_S2x16x256_S1x1x16_1_7_208 : ∀ a, (![1, 7, 208] : Fin 3 → Nat) a + S1x1x16.size a ≤ S2x16x256.size a
  inb_S2x16x256_S1x1x16_1_8_208 : ∀ a, (![1, 8, 208] : Fin 3 → Nat) a + S1x1x16.size a ≤ S2x16x256.size a
  inb_S2x16x256_S1x1x16_1_9_208 : ∀ a, (![1, 9, 208] : Fin 3 → Nat) a + S1x1x16.size a ≤ S2x16x256.size a
  inb_S2x16x256_S1x1x16_1_10_208 : ∀ a, (![1, 10, 208] : Fin 3 → Nat) a + S1x1x16.size a ≤ S2x16x256.size a
  inb_S2x16x256_S1x1x16_1_11_208 : ∀ a, (![1, 11, 208] : Fin 3 → Nat) a + S1x1x16.size a ≤ S2x16x256.size a
  inb_S2x16x256_S1x1x16_1_12_208 : ∀ a, (![1, 12, 208] : Fin 3 → Nat) a + S1x1x16.size a ≤ S2x16x256.size a
  inb_S2x16x256_S1x1x16_1_13_208 : ∀ a, (![1, 13, 208] : Fin 3 → Nat) a + S1x1x16.size a ≤ S2x16x256.size a
  inb_S2x16x256_S1x1x16_1_14_208 : ∀ a, (![1, 14, 208] : Fin 3 → Nat) a + S1x1x16.size a ≤ S2x16x256.size a
  inb_S2x16x256_S1x1x16_1_15_208 : ∀ a, (![1, 15, 208] : Fin 3 → Nat) a + S1x1x16.size a ≤ S2x16x256.size a
  inb_S2x16x256_S1x1x16_1_0_224 : ∀ a, (![1, 0, 224] : Fin 3 → Nat) a + S1x1x16.size a ≤ S2x16x256.size a
  inb_S2x16x256_S1x1x16_1_1_224 : ∀ a, (![1, 1, 224] : Fin 3 → Nat) a + S1x1x16.size a ≤ S2x16x256.size a
  inb_S2x16x256_S1x1x16_1_2_224 : ∀ a, (![1, 2, 224] : Fin 3 → Nat) a + S1x1x16.size a ≤ S2x16x256.size a
  inb_S2x16x256_S1x1x16_1_3_224 : ∀ a, (![1, 3, 224] : Fin 3 → Nat) a + S1x1x16.size a ≤ S2x16x256.size a
  inb_S2x16x256_S1x1x16_1_4_224 : ∀ a, (![1, 4, 224] : Fin 3 → Nat) a + S1x1x16.size a ≤ S2x16x256.size a
  inb_S2x16x256_S1x1x16_1_5_224 : ∀ a, (![1, 5, 224] : Fin 3 → Nat) a + S1x1x16.size a ≤ S2x16x256.size a
  inb_S2x16x256_S1x1x16_1_6_224 : ∀ a, (![1, 6, 224] : Fin 3 → Nat) a + S1x1x16.size a ≤ S2x16x256.size a
  inb_S2x16x256_S1x1x16_1_7_224 : ∀ a, (![1, 7, 224] : Fin 3 → Nat) a + S1x1x16.size a ≤ S2x16x256.size a
  inb_S2x16x256_S1x1x16_1_8_224 : ∀ a, (![1, 8, 224] : Fin 3 → Nat) a + S1x1x16.size a ≤ S2x16x256.size a
  inb_S2x16x256_S1x1x16_1_9_224 : ∀ a, (![1, 9, 224] : Fin 3 → Nat) a + S1x1x16.size a ≤ S2x16x256.size a
  inb_S2x16x256_S1x1x16_1_10_224 : ∀ a, (![1, 10, 224] : Fin 3 → Nat) a + S1x1x16.size a ≤ S2x16x256.size a
  inb_S2x16x256_S1x1x16_1_11_224 : ∀ a, (![1, 11, 224] : Fin 3 → Nat) a + S1x1x16.size a ≤ S2x16x256.size a
  inb_S2x16x256_S1x1x16_1_12_224 : ∀ a, (![1, 12, 224] : Fin 3 → Nat) a + S1x1x16.size a ≤ S2x16x256.size a
  inb_S2x16x256_S1x1x16_1_13_224 : ∀ a, (![1, 13, 224] : Fin 3 → Nat) a + S1x1x16.size a ≤ S2x16x256.size a
  inb_S2x16x256_S1x1x16_1_14_224 : ∀ a, (![1, 14, 224] : Fin 3 → Nat) a + S1x1x16.size a ≤ S2x16x256.size a
  inb_S2x16x256_S1x1x16_1_15_224 : ∀ a, (![1, 15, 224] : Fin 3 → Nat) a + S1x1x16.size a ≤ S2x16x256.size a
  inb_S2x16x256_S1x1x16_1_0_240 : ∀ a, (![1, 0, 240] : Fin 3 → Nat) a + S1x1x16.size a ≤ S2x16x256.size a
  inb_S2x16x256_S1x1x16_1_1_240 : ∀ a, (![1, 1, 240] : Fin 3 → Nat) a + S1x1x16.size a ≤ S2x16x256.size a
  inb_S2x16x256_S1x1x16_1_2_240 : ∀ a, (![1, 2, 240] : Fin 3 → Nat) a + S1x1x16.size a ≤ S2x16x256.size a
  inb_S2x16x256_S1x1x16_1_3_240 : ∀ a, (![1, 3, 240] : Fin 3 → Nat) a + S1x1x16.size a ≤ S2x16x256.size a
  inb_S2x16x256_S1x1x16_1_4_240 : ∀ a, (![1, 4, 240] : Fin 3 → Nat) a + S1x1x16.size a ≤ S2x16x256.size a
  inb_S2x16x256_S1x1x16_1_5_240 : ∀ a, (![1, 5, 240] : Fin 3 → Nat) a + S1x1x16.size a ≤ S2x16x256.size a
  inb_S2x16x256_S1x1x16_1_6_240 : ∀ a, (![1, 6, 240] : Fin 3 → Nat) a + S1x1x16.size a ≤ S2x16x256.size a
  inb_S2x16x256_S1x1x16_1_7_240 : ∀ a, (![1, 7, 240] : Fin 3 → Nat) a + S1x1x16.size a ≤ S2x16x256.size a
  inb_S2x16x256_S1x1x16_1_8_240 : ∀ a, (![1, 8, 240] : Fin 3 → Nat) a + S1x1x16.size a ≤ S2x16x256.size a
  inb_S2x16x256_S1x1x16_1_9_240 : ∀ a, (![1, 9, 240] : Fin 3 → Nat) a + S1x1x16.size a ≤ S2x16x256.size a
  inb_S2x16x256_S1x1x16_1_10_240 : ∀ a, (![1, 10, 240] : Fin 3 → Nat) a + S1x1x16.size a ≤ S2x16x256.size a
  inb_S2x16x256_S1x1x16_1_11_240 : ∀ a, (![1, 11, 240] : Fin 3 → Nat) a + S1x1x16.size a ≤ S2x16x256.size a
  inb_S2x16x256_S1x1x16_1_12_240 : ∀ a, (![1, 12, 240] : Fin 3 → Nat) a + S1x1x16.size a ≤ S2x16x256.size a
  inb_S2x16x256_S1x1x16_1_13_240 : ∀ a, (![1, 13, 240] : Fin 3 → Nat) a + S1x1x16.size a ≤ S2x16x256.size a
  inb_S2x16x256_S1x1x16_1_14_240 : ∀ a, (![1, 14, 240] : Fin 3 → Nat) a + S1x1x16.size a ≤ S2x16x256.size a
  inb_S2x16x256_S1x1x16_1_15_240 : ∀ a, (![1, 15, 240] : Fin 3 → Nat) a + S1x1x16.size a ≤ S2x16x256.size a
  transposes_S16x16384_S16384x16_1_0 : S16x16384.Transposes [1, 0] S16384x16
  hcc0_scratch2 : 0 + S_.numel ≤ 3
  hcc0_scratch3 : 1 + S_.numel ≤ 3
  hcc0_scratch4 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (256 * r.val))) a + S16x256.size a ≤ S16x16384.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4

class Facts : Prop extends Facts₀ where

variable [Facts]
-- ==== ReferenceIdeal.lean ====
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S16384x1x2 : Shape := ⟨3, ![16384, 1, 2]⟩

abbrev nBuf : Space → Nat
  | .hbm => 34
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S_, .f32⟩
  | .hbm, ⟨2, _⟩ => ⟨S16384x16, .f32⟩
  | .hbm, ⟨3, _⟩ => ⟨S16384x16, .i1⟩
  | .hbm, ⟨4, _⟩ => ⟨S16384x16, .i32⟩
  | .hbm, ⟨5, _⟩ => ⟨S_, .i32⟩
  | .hbm, ⟨6, _⟩ => ⟨S16384, .i32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S16384x1, .i32⟩
  | .hbm, ⟨12, _⟩ => ⟨S16384, .i32⟩
  | .hbm, ⟨13, _⟩ => ⟨S16384x1, .i32⟩
  | .hbm, ⟨14, _⟩ => ⟨S_, .i32⟩
  | .hbm, ⟨15, _⟩ => ⟨S16384x1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S_, .i32⟩
  | .hbm, ⟨20, _⟩ => ⟨S16384x1, .i32⟩
  | .hbm, ⟨21, _⟩ => ⟨S16384x1, .i32⟩
  | .hbm, ⟨22, _⟩ => ⟨S16384x1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S_, .i32⟩
  | .hbm, ⟨27, _⟩ => ⟨S16384x1, .i32⟩
  | .hbm, ⟨28, _⟩ => ⟨S16384x1, .i32⟩
  | .hbm, ⟨29, _⟩ => ⟨S16384x1, .i32⟩
  | .hbm, ⟨30, _⟩ => ⟨S16384x1x1, .i32⟩
  | .hbm, ⟨31, _⟩ => ⟨S16384x1x1, .i32⟩
  | .hbm, ⟨32, _⟩ => ⟨S16384x1x2, .i32⟩
  | .hbm, ⟨33, _⟩ => ⟨S16384x16, .i32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S16384x16 : S_.BroadcastsInDim S16384x16 (![] : Fin 0 → Fin S16384x16.rank)
  natLt_1_32 : 1 < 32
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  scatter_S16384x16_S16384x1x2_S16384x1_n_01_01_2_wf : ScatterDims.WF S16384x16 S16384x1x2 S16384x1 [] [0, 1] [0, 1] 2

variable [Facts₀]

def scatter_S16384x16_S16384x1x2_S16384x1_n_01_01_2 : ScatterDims S16384x16 S16384x1x2 S16384x1 where
  updateWindowDims := []
  insertedWindowDims := [0, 1]
  scatterDimsToOperandDims := [0, 1]
  indexVectorDim := 2
  wf := scatter_S16384x16_S16384x1x2_S16384x1_n_01_01_2_wf

class Facts : Prop extends Facts₀ where

variable [Facts]
-- ==== Proof.Spec.lean ====
/-
  What both programs compute, stated once and for any float instance.

  A score is HOT when it is above zero. Every entry of the result is the hot bit of its own score, as a 32-bit
  word (1 or 0) — except at expert 0: a token none of whose sixteen experts is hot is sent to expert 0 (the residual
  destination), so the entry at expert 0 is 1 for such a token, and the hot bit of its own score otherwise.

  The reference says this as "add, into column 0, the indicator that the row of hot bits sums to zero": where the row
  sums to zero the own bit is 0 and the sum 0 + 1 is 1; elsewhere the indicator is 0 and the own bit stands. The kernel
  says it as "select 1 where the count is zero, else the own bit". Both are the function `G` below.

  The kernel works on the transposed array (experts × tokens): `GT` is the same function in that layout.
-/
import Idealize.ShloMosaic.PureOps
import Idealize.ShloMosaic.Lib.ValueIdx

noncomputable section

namespace Cert.Threshold

open Idealize.ShloMosaic Idealize.ShloMosaic.ValueIdx

variable {F : FTy → Type} [FloatOps F]

/-- Tokens × experts. -/
abbrev STE : Shape := ⟨2, ![16384, 16]⟩
/-- Experts × tokens. -/
abbrev SET : Shape := ⟨2, ![16, 16384]⟩

/-- The hot bit of one score: is it above zero? -/
def hotBit (v : F .f32) : BitVec 1 := FloatOps.cmpf .ogt v (FloatOps.ofBits .f32 0x00000000#32)

/-- The hot bit as a 32-bit word, 1 or 0. -/
def hot (v : F .f32) : BitVec 32 := (hotBit v).setWidth 32

/-- Token `t` has no hot expert (tokens × experts layout). -/
def cold (x : FVec F STE .f32) (t : Fin 16384) : Prop := ∀ e : Fin 16, hotBit (x (ix2 t e)) = 0#1

/-- Token `t` has no hot expert (experts × tokens layout). -/
def coldT (y : FVec F SET .f32) (t : Fin 16384) : Prop := ∀ e : Fin 16, hotBit (y (ix2 e t)) = 0#1

open Classical in
/-- The result, tokens × experts. -/
def G (x : FVec F STE .f32) : IVec STE 32 := fun i =>
  if (i 1).val = 0 ∧ cold x (i 0) then 1#32 else hot (x i)

open Classical in
/-- The result, experts × tokens. -/
def GT (y : FVec F SET .f32) : IVec SET 32 := fun i =>
  if (i 0).val = 0 ∧ coldT y (i 1) then 1#32 else hot (y i)

/-- A hot word is 0 exactly when its bit is. -/
theorem hot_eq_zero_iff (v : F .f32) : hot v = 0#32 ↔ hotBit v = 0#1 := by
  unfold hot
  generalize hotBit v = b
  revert b; decide

/-- A hot word is 0 or 1. -/
theorem hot_cases (v : F .f32) : hot v = 0#32 ∨ hot v = 1#32 := by
  unfold hot
  generalize hotBit v = b
  revert b; decide

end Cert.Threshold

end
-- ==== Proof.RefValue.lean ====
/-
  The reference's value: the scatter-add of the row indicators into column 0 of the hot words is the function `G`.

  The scatter is a fold over its 16384 scalar updates. Update `(t, 0)` reads its start index `(t, 0)` off the index
  table (the token's own number, and column 0, neither wrapped) and so lands at `(t, 0)`: every position meets at most
  one update, position `(t, e)` with `e ≠ 0` none. A fold of such updates, read at one position, combines that one
  update into the operand's element, or leaves it (a general lemma, by induction on the list of updates). The update is
  the indicator that the sixteen hot words of the row sum to zero; sixteen words each 0 or 1 do not wrap, so the sum is
  zero exactly when every word is: when the token is cold.
-/
import proofs.«216989_g62371515073183_cont_9to1_m_320_20_alg».proof.Proof.Gen.ReferenceIdeal.Read
import proofs.«216989_g62371515073183_cont_9to1_m_320_20_alg».proof.Proof.Spec
import Idealize.ShloMosaic.Lib.ValueIdx
import Idealize.ShloMosaic.Lib.Pipeline.Value
import Idealize.ShloMosaic.PureOps.Reduce
import Idealize.ShloMosaic.Lib.Affine

noncomputable section

namespace Cert.Threshold.Ref

open Idealize.ShloMosaic Idealize.ShloMosaic.ValueIdx
open Cert.ReferenceIdeal Cert.ReferenceIdeal.Gen Cert.ReferenceIdeal.Read
open scoped BigOperators

variable {F : FTy → Type} [FloatOps F]

/-! ## A fold of single-position updates, read at one position -/

section Fold
variable {ι β α : Type}

/-- If no update of the list names position `p` — a step whose update names another position, or none, leaves `p`
    as it was —, the fold leaves it as it was. -/
theorem foldl_miss (g : (β → α) → ι → β → α) (pos : ι → Option β) (p : β)
    (hmiss : ∀ r n, pos n ≠ some p → g r n p = r p) :
    ∀ (l : List ι) (x : β → α), (∀ n ∈ l, pos n ≠ some p) → l.foldl g x p = x p
  | [], _, _ => rfl
  | a :: l, x, h => by
    rw [List.foldl_cons, foldl_miss g pos p hmiss l _ (fun n hn => h n (List.mem_cons_of_mem _ hn)),
      hmiss x a (h a (List.mem_cons_self ..))]

/-- If exactly one update `n₀` of a list without repeats names position `p` — and a step whose update names `p`
    combines its value into it —, the fold combines that update's value into it, once. -/
theorem foldl_hit (g : (β → α) → ι → β → α) (pos : ι → Option β) (f : α → α → α) (v : ι → α) (p : β)
    (hmiss : ∀ r n, pos n ≠ some p → g r n p = r p) (hhit : ∀ r n, pos n = some p → g r n p = f (r p) (v n))
    (n₀ : ι) (hp : pos n₀ = some p) :
    ∀ (l : List ι) (x : β → α), l.Nodup → n₀ ∈ l → (∀ n ∈ l, pos n = some p → n = n₀) →
      l.foldl g x p = f (x p) (v n₀)
  | [], _, _, hm, _ => absurd hm (List.not_mem_nil)
  | a :: l, x, hnd, hm, hu => by
    rw [List.foldl_cons]
    by_cases ha : a = n₀
    · subst ha
      have hnot : ∀ n ∈ l, pos n ≠ some p := fun n hn e => by
        have := hu n (List.mem_cons_of_mem _ hn) e
        subst this
        exact (List.nodup_cons.1 hnd).1 hn
      rw [foldl_miss g pos p hmiss l _ hnot, hhit x a hp]
    · have hm' : n₀ ∈ l := by
        rcases List.mem_cons.1 hm with e | e
        · exact absurd e.symm ha
        · exact e
      have hpa : pos a ≠ some p := fun e => ha (hu a (List.mem_cons_self ..) e)
      rw [foldl_hit g pos f v p hmiss hhit n₀ hp l _ (List.nodup_cons.1 hnd).2 hm'
        (fun n hn => hu n (List.mem_cons_of_mem _ hn)), hmiss x a hpa]

end Fold

section Scatter
variable {s si u : Shape} {w : Nat} {α : Type}

/-- A scatter's step whose update lands elsewhere, or nowhere, leaves position `p` as it was. -/
theorem scatter_step_miss (d : ScatterDims s si u) (f : α → α → α) (idx : IVec si w) (upd : u.Idx → α) (p : s.Idx)
    (r : s.Idx → α) (n : Fin u.numel) (h : d.resultIdx? (u.rowMajor.symm n) idx ≠ some p) :
    (match d.resultIdx? (u.rowMajor.symm n) idx with
      | some i => fun i' => if i' = i then f (r i) (upd (u.rowMajor.symm n)) else r i'
      | none => r) p = r p := by
  cases hq : d.resultIdx? (u.rowMajor.symm n) idx with
  | none => rfl
  | some i =>
    have : p ≠ i := fun e => h (by rw [hq, e])
    show (if p = i then f (r i) (upd (u.rowMajor.symm n)) else r p) = r p
    rw [if_neg this]

/-- A scatter's step whose update lands on position `p` combines its value into it. -/
theorem scatter_step_hit (d : ScatterDims s si u) (f : α → α → α) (idx : IVec si w) (upd : u.Idx → α) (p : s.Idx)
    (r : s.Idx → α) (n : Fin u.numel) (h : d.resultIdx? (u.rowMajor.symm n) idx = some p) :
    (match d.resultIdx? (u.rowMajor.symm n) idx with
      | some i => fun i' => if i' = i then f (r i) (upd (u.rowMajor.symm n)) else r i'
      | none => r) p = f (r p) (upd (u.rowMajor.symm n)) := by
  cases hq : d.resultIdx? (u.rowMajor.symm n) idx with
  | none => rw [hq] at h; exact absurd h (by simp)
  | some i =>
    have e : p = i := Option.some.inj (h.symm.trans hq)
    subst e
    show (if p = p then f (r p) (upd (u.rowMajor.symm n)) else r p) = f (r p) (upd (u.rowMajor.symm n))
    rw [if_pos rfl]

/-- A scatter read at a position no update lands on: the operand's element. -/
theorem scatter_apply_miss (d : ScatterDims s si u) (f : α → α → α) (x : s.Idx → α)
    (idx : IVec si w) (upd : u.Idx → α) (p : s.Idx) (h : ∀ j : u.Idx, d.resultIdx? j idx ≠ some p) :
    Host.scatter d f x idx upd p = x p := by
  unfold Host.scatter
  exact foldl_miss _ (fun n => d.resultIdx? (u.rowMajor.symm n) idx) p
    (fun r n hn => scatter_step_miss d f idx upd p r n hn) (List.finRange u.numel) x (fun n _ => h _)

/-- A scatter read at a position exactly one update lands on: the body applied to the operand's element and that
    update's. -/
theorem scatter_apply_hit (d : ScatterDims s si u) (f : α → α → α) (x : s.Idx → α)
    (idx : IVec si w) (upd : u.Idx → α) (p : s.Idx) (j₀ : u.Idx) (h₀ : d.resultIdx? j₀ idx = some p)
    (hu : ∀ j : u.Idx, d.resultIdx? j idx = some p → j = j₀) :
    Host.scatter d f x idx upd p = f (x p) (upd j₀) := by
  unfold Host.scatter
  have e₀ : u.rowMajor.symm (u.rowMajor j₀) = j₀ := Equiv.symm_apply_apply _ _
  have := foldl_hit _ (fun n => d.resultIdx? (u.rowMajor.symm n) idx) f (fun n => upd (u.rowMajor.symm n)) p
    (fun r n hn => scatter_step_miss d f idx upd p r n hn) (fun r n hn => scatter_step_hit d f idx upd p r n hn)
    (u.rowMajor j₀) (by show d.resultIdx? (u.rowMajor.symm (u.rowMajor j₀)) idx = some p; rw [e₀]; exact h₀)
    (List.finRange u.numel) x (List.nodup_finRange _) (List.mem_finRange _)
    (fun n _ e => by have := hu _ e; rw [← this]; exact (Equiv.apply_symm_apply _ _).symm)
  refine this.trans ?_
  rw [e₀]

end Scatter

/-! ## A row's sum of hot words -/

/-- A sum of fewer than 2³² words, each 0 or 1, does not wrap: it is 0 exactly when every word is. -/
theorem fold_addi_bits {ι : Type} [DecidableEq ι] (g : ι → BitVec 32) (h01 : ∀ k, g k = 0#32 ∨ g k = 1#32) (S : Finset ι) :
    S.card < 2 ^ 32 →
      (S.fold IntOp.addi 0#32 g).toNat ≤ S.card ∧ (S.fold IntOp.addi 0#32 g = 0#32 ↔ ∀ k ∈ S, g k = 0#32) := by
  induction S using Finset.induction_on with
  | empty => intro _; simp
  | insert a S ha ih =>
    intro hc
    rw [Finset.card_insert_of_notMem ha] at hc ⊢
    obtain ⟨hle, hiff⟩ := ih (by omega)
    rw [Finset.fold_insert ha]
    generalize S.fold IntOp.addi 0#32 g = r at hle hiff ⊢
    have h1 : (g a).toNat ≤ 1 := by rcases h01 a with e | e <;> rw [e] <;> decide
    have hadd : (IntOp.addi (g a) r).toNat = (g a).toNat + r.toNat := by
      unfold IntOp.addi
      rw [BitVec.toNat_add, Nat.mod_eq_of_lt (by omega)]
    refine ⟨by omega, ?_⟩
    rw [Finset.forall_mem_insert, ← hiff]
    constructor
    · intro h0
      have := congrArg BitVec.toNat h0
      rw [hadd] at this
      have z : (0#32 : BitVec 32).toNat = 0 := rfl
      rw [z] at this
      exact ⟨BitVec.eq_of_toNat_eq (by rw [z]; omega), BitVec.eq_of_toNat_eq (by rw [z]; omega)⟩
    · rintro ⟨e1, e2⟩
      rw [e1, e2]; rfl

/-- The operand index over row `j` at column `k`. -/
theorem lift_eq (h : S16384x16.Reduces [1] S16384) (j : S16384.Idx) (k : Fin 16) : h.lift j k = ix2 (j 0) k := by
  funext c
  match c with
  | ⟨0, _⟩ => rfl
  | ⟨1, _⟩ => rfl

/-- The hot word of a score, as the reference computes it. -/
theorem v2_apply (x0 : (⟨S16384x16, .f32⟩ : BufTy).Contents (Elt F)) (i : S16384x16.Idx) :
    val_main_v2 (F := F) x0 i = hot (x0 i) := by
  rw [val_main_v2_apply, val_main_v1_apply, val_main_v0_apply, val_main_cst_apply]
  rfl

/-- Dropping axis 1 of the scores' shape leaves the tokens' axis. -/
theorem reduces_row : S16384x16.Reduces [1] S16384 := by decide

/-- The row sum is the sum of the row's sixteen hot words. -/
theorem v3_apply (x0 : (⟨S16384x16, .f32⟩ : BufTy).Contents (Elt F)) (t : Fin 16384) :
    val_main_v3 (F := F) x0 (ix1 t)
      = (Finset.univ : Finset (Fin 16)).fold IntOp.addi 0#32 (fun k => hot (x0 (ix2 t k))) := by
  unfold val_main_v3
  rw [Host.reduce_eq_fold_single IntOp.addi _ _ reducesTo_S16384x16_S16384_d1 reduces_row h_S_]
  congr 1
  funext k
  exact (congrArg (val_main_v2 (F := F) x0) (lift_eq reduces_row (ix1 t) k)).trans (v2_apply x0 _)

/-- The row sum is zero exactly when the token is cold. -/
theorem v3_eq_zero_iff (x0 : (⟨S16384x16, .f32⟩ : BufTy).Contents (Elt F)) (t : Fin 16384) :
    val_main_v3 (F := F) x0 (ix1 t) = 0#32 ↔ cold x0 t := by
  rw [v3_apply]
  have := (fold_addi_bits (fun k : Fin 16 => hot (x0 (ix2 t k))) (fun k => hot_cases _) Finset.univ (by decide)).2
  rw [this]
  unfold cold
  constructor
  · intro h e; exact (hot_eq_zero_iff _).1 (h e (Finset.mem_univ _))
  · intro h e _; exact (hot_eq_zero_iff _).2 (h e)

/-! ## Where the updates land -/

/-- The scatter's dimension numbers. -/
abbrev dims := scatter_S16384x16_S16384x1x2_S16384x1_n_01_01_2

/-- Both operand axes are inserted: an update has no window coordinate. -/
theorem window_zero (j : S16384x1.Idx) (a : Fin 2) : dims.window j a = 0 := by
  have h : a ∉ dims.sKept := by
    have e : dims.sKept = [] := by decide
    rw [e]; exact List.not_mem_nil
  unfold ScatterDims.window
  rw [dif_neg h]

/-- Update `j` reads component `c` of its start index at `(j 0, j 1, c)`. -/
theorem siIdx_eq (j : S16384x1.Idx) (c : Fin 2) : dims.siIdx j c = ix3 (j 0) (j 1) c := by
  funext b
  match b with
  | ⟨0, _⟩ => rfl
  | ⟨1, _⟩ => rfl
  | ⟨2, _⟩ => rfl

/-- The start on operand axis 0 is the index table's entry `(j 0, j 1, 0)`, read signed. -/
theorem start_zero {w : Nat} (j : S16384x1.Idx) (idx : IVec S16384x1x2 w) :
    dims.start j idx 0 = (idx (ix3 (j 0) (j 1) 0)).toInt := by
  unfold ScatterDims.start
  rw [dif_pos (by decide)]
  exact congrArg (fun i => (idx i).toInt) (siIdx_eq j _)

/-- The start on operand axis 1 is the index table's entry `(j 0, j 1, 1)`, read signed. -/
theorem start_one {w : Nat} (j : S16384x1.Idx) (idx : IVec S16384x1x2 w) :
    dims.start j idx 1 = (idx (ix3 (j 0) (j 1) 1)).toInt := by
  unfold ScatterDims.start
  rw [dif_pos (by decide)]
  exact congrArg (fun i => (idx i).toInt) (siIdx_eq j _)

/-- An update whose start index is `(r, c)`, inside the operand, lands at `(r, c)`. -/
theorem resultIdx_eq {w : Nat} (j : S16384x1.Idx) (idx : IVec S16384x1x2 w) (r : Fin 16384) (c : Fin 16)
    (h0 : (idx (ix3 (j 0) (j 1) 0)).toInt = (r.val : Int)) (h1 : (idx (ix3 (j 0) (j 1) 1)).toInt = (c.val : Int)) :
    dims.resultIdx? j idx = some (ix2 r c) := by
  have hs : ∀ a : Fin 2, dims.start j idx a + dims.window j a = ((ix2 r c a).val : Int) := fun a => by
    rw [window_zero]
    match a with
    | ⟨0, _⟩ => rw [show (⟨0, _⟩ : Fin 2) = 0 from rfl, start_zero, h0]; rfl
    | ⟨1, _⟩ => rw [show (⟨1, _⟩ : Fin 2) = 1 from rfl, start_one, h1]; rfl
  unfold ScatterDims.resultIdx?
  rw [dif_pos (fun a => by rw [hs a]; exact ⟨Int.natCast_nonneg _, by exact_mod_cast (ix2 r c a).isLt⟩)]
  congr 1
  funext a
  apply Fin.ext
  show (dims.start j idx a + dims.window j a).toNat = _
  rw [hs a]; rfl

/-! ## The index table and the updates -/

/-- A token's number, as a 32-bit word read signed, is itself. -/
theorem toInt_ofNat_small (n : Nat) (hn : n < 16384) : (BitVec.ofNat 32 n).toInt = (n : Int) := by
  rw [BitVec.toInt_eq_toNat_cond, BitVec.toNat_ofNat, Nat.mod_eq_of_lt (by omega), if_pos (by omega)]

/-- Row `t` of the row-number column: `t`, not wrapped (it is not negative). -/
theorem v15_apply (t : Fin 16384) : val_main_v15 (F := F) (ix2 t 0) = BitVec.ofNat 32 t.val := by
  have h9 : val_main_v9 (F := F) (ix2 t 0) = BitVec.ofNat 32 t.val := by
    rw [val_main_v9_apply, val_main_v8_apply]
  have h11 : val_main_v11 (F := F) (ix2 t 0) = 0#32 := by
    rw [val_main_v11_apply, val_main_c_2_apply]
  have h12 : val_main_v12 (F := F) (ix2 t 0) = 0#1 := by
    rw [val_main_v12_apply, h9, h11]
    apply eq_zero_of_ne_one
    rw [IntOp.cmpi_slt, toInt_ofNat_small _ t.isLt]
    show ¬ ((t.val : Int) < 0)
    omega
  rw [val_main_v15_apply, h12, select_zero, h9]

/-- Row `t` of the column-number column: 0, not wrapped. -/
theorem v20_apply (t : Fin 16384) : val_main_v20 (F := F) (ix2 t 0) = 0#32 := by
  have h10 : val_main_v10 (F := F) (ix2 t 0) = 0#32 := by
    rw [val_main_v10_apply, val_main_c_1_apply]
  have h16 : val_main_v16 (F := F) (ix2 t 0) = 0#32 := by
    rw [val_main_v16_apply, val_main_c_4_apply]
  have h17 : val_main_v17 (F := F) (ix2 t 0) = 0#1 := by
    rw [val_main_v17_apply, h10, h16]; rfl
  rw [val_main_v20_apply, h17, select_zero, h10]

/-- The index table's first component at update `(t, 0)`: the token's number `t`. -/
theorem v23_zero (t : Fin 16384) : val_main_v23 (F := F) (ix3 t (0 : Fin 1) (0 : Fin 2)) = BitVec.ofNat 32 t.val := by
  unfold val_main_v23
  rw [concatenate_pair_apply_left 2 _ _ concatenates_S16384x1x1_S16384x1x1_S16384x1x2_d2 _ rfl
    (ix3 t (0 : Fin 1) (0 : Fin 1)) (fun b => by match b with | ⟨0, _⟩ => rfl | ⟨1, _⟩ => rfl | ⟨2, _⟩ => rfl)]
  rw [val_main_v21_apply]
  exact v15_apply t

/-- The index table's second component at update `(t, 0)`: column 0. -/
theorem v23_one (t : Fin 16384) : val_main_v23 (F := F) (ix3 t (0 : Fin 1) (1 : Fin 2)) = 0#32 := by
  unfold val_main_v23
  rw [concatenate_pair_apply_right 2 _ _ concatenates_S16384x1x1_S16384x1x1_S16384x1x2_d2 _ rfl rfl
    (ix3 t (0 : Fin 1) (0 : Fin 1)) (fun b hb => by
      match b with
      | ⟨0, _⟩ => rfl
      | ⟨1, _⟩ => rfl
      | ⟨2, _⟩ => exact absurd rfl hb) rfl]
  rw [val_main_v22_apply]
  exact v20_apply t

/-- Update `(t, 0)` lands at `(t, 0)`. -/
theorem lands (t : Fin 16384) (z : Fin 1) :
    dims.resultIdx? (ix2 t z) (val_main_v23 (F := F)) = some (ix2 t (0 : Fin 16)) := by
  have e1 : z = 0 := Subsingleton.elim _ _
  subst e1
  refine resultIdx_eq (ix2 t (0 : Fin 1)) _ t 0 ?_ ?_
  · show (val_main_v23 (F := F) (ix3 t (0 : Fin 1) (0 : Fin 2))).toInt = _
    rw [v23_zero, toInt_ofNat_small _ t.isLt]
  · show (val_main_v23 (F := F) (ix3 t (0 : Fin 1) (1 : Fin 2))).toInt = _
    rw [v23_one]; rfl

/-- Update `(t, 0)`: the indicator, as a 32-bit word, that the row sum is zero. -/
theorem v7_apply (x0 : (⟨S16384x16, .f32⟩ : BufTy).Contents (Elt F)) (t : Fin 16384) :
    val_main_v7 (F := F) x0 (ix2 t 0)
      = (IntOp.cmpi .eq (val_main_v3 (F := F) x0 (ix1 t)) 0#32).setWidth 32 := by
  have e : idx_main_v4 (ix2 t (0 : Fin 1)) = ix1 t := by
    funext a
    match a with
    | ⟨0, _⟩ => rfl
  rw [val_main_v7_apply, val_main_v6_apply, val_main_v4_apply, val_main_v5_apply, val_main_c_0_apply, e]

/-! ## The reference's value -/

/-- The reference's result is `G`: every entry the hot word of its own score, plus — at expert 0 — the indicator that
    the token's sixteen hot words sum to zero, which is the indicator that the token is cold. -/
theorem val_is_G (x0 : (⟨S16384x16, .f32⟩ : BufTy).Contents (Elt F)) :
    val_main_v24 (F := F) x0 = G x0 := by
  funext i
  obtain ⟨t, e, rfl⟩ : ∃ (t : Fin 16384) (e : Fin 16), i = ix2 t e := ⟨i 0, i 1, eq_ix2 i⟩
  unfold val_main_v24
  by_cases he : e.val = 0
  · -- expert 0: update `(t, 0)`, and no other, lands here
    have e0 : e = 0 := Fin.ext he
    subst e0
    have hu : ∀ j : S16384x1.Idx, dims.resultIdx? j (val_main_v23 (F := F)) = some (ix2 t (0 : Fin 16)) →
        j = ix2 t (0 : Fin 1) := fun j hj => by
      obtain ⟨t', z, rfl⟩ : ∃ (t' : Fin 16384) (z : Fin 1), j = ix2 t' z := ⟨j 0, j 1, eq_ix2 j⟩
      rw [lands t' z] at hj
      have e1 : t' = t := congrArg (fun p : S16384x16.Idx => p 0) (Option.some.inj hj)
      have e2 : z = 0 := Subsingleton.elim _ _
      rw [e1, e2]
    rw [scatter_apply_hit dims IntOp.addi _ _ _ (ix2 t (0 : Fin 16)) (ix2 t (0 : Fin 1)) (lands t 0) hu, v2_apply, v7_apply]
    unfold G
    by_cases hc : cold x0 t
    · -- a cold token: its own word is 0, the row sum is 0, and 0 + 1 = 1
      rw [if_pos ⟨rfl, hc⟩, (v3_eq_zero_iff x0 t).2 hc, (hot_eq_zero_iff _).2 (hc 0)]
      rfl
    · -- a token with a hot expert: the row sum is not 0, the indicator is 0, the own word stands
      rw [if_neg (fun h => hc h.2)]
      have hz : IntOp.cmpi .eq (val_main_v3 (F := F) x0 (ix1 t)) 0#32 = 0#1 :=
        eq_zero_of_ne_one (fun h => hc ((v3_eq_zero_iff x0 t).1 (IntOp.cmpi_eq.1 h)))
      rw [hz]
      show hot (x0 (ix2 t 0)) + (0#1).setWidth 32 = hot (x0 (ix2 t 0))
      rw [show (0#1).setWidth 32 = 0#32 from rfl, BitVec.add_zero]
  · -- another expert: no update lands here
    have hm : ∀ j : S16384x1.Idx, dims.resultIdx? j (val_main_v23 (F := F)) ≠ some (ix2 t e) := fun j hj => by
      obtain ⟨t', z, rfl⟩ : ∃ (t' : Fin 16384) (z : Fin 1), j = ix2 t' z := ⟨j 0, j 1, eq_ix2 j⟩
      rw [lands t' z] at hj
      have e1 : (0 : Fin 16) = e := congrArg (fun p : S16384x16.Idx => p 1) (Option.some.inj hj)
      exact he (by rw [← e1]; rfl)
    rw [scatter_apply_miss dims IntOp.addi _ _ _ (ix2 t e) hm, v2_apply]
    unfold G
    rw [if_neg (fun h => he h.1)]

end Cert.Threshold.Ref

end
-- ==== Proof.IdealSetup.lean ====
/-
  The threshold kernel as the SparseCore launch theorem sees it: the call's configuration, the resource algebra (the
  launch handshakes' rounds beside the local transfers' counters), and the kernel's memrefs spelt as its body spells
  them. Tile (c, s) of the 2 × 16 grid has index 2 s + c in the kernel's own numbering; it owns the 512 token columns from 1024 s + 512 c on, in two
  chunks of 256: it copies chunk r of the transposed scores (all sixteen expert rows) into slot r of its score scratch,
  computes slot r of its result scratch from it, and copies that slot out to chunk r of the result.
-/
import proofs.«216989_g62371515073183_cont_9to1_m_320_20_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«216989_g62371515073183_cont_9to1_m_320_20_alg».proof.Proof.Gen.KernelIdeal
import proofs.«216989_g62371515073183_cont_9to1_m_320_20_alg».proof.Proof.Gen.KernelIdeal.Skeleton
import proofs.«216989_g62371515073183_cont_9to1_m_320_20_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and the kernel's memrefs -/

/-- The transposed scores (experts × tokens) and the transposed result, as a tile names them. -/
abbrev xV : Memref sig .scVector .hbm S16x16384 .f32 := Memref.whole main_v0_scv
abbrev oV : Memref sig .scVector .hbm S16x16384 .i32 := Memref.whole main_v1_scv
/-- A tile's score scratch and result scratch: two slots of 16 × 256 each. -/
abbrev sS : Memref sig .scVector .vmem S2x16x256 .f32 := Memref.whole cc0_scratch0
abbrev sO : Memref sig .scVector .vmem S2x16x256 .i32 := Memref.whole cc0_scratch1

/-- Chunk 0 and chunk 1 of a tile's columns, of the scores and of the result, as the body slices them. -/
abbrev xWin0 (L : grid0.Coords) : Memref sig .scVector .hbm S16x256 .f32 :=
  xV.slice (Rect.unit (s := S16x16384) (k0_off1 L 0#32) S16x256.size (k0_off1_inb L 0)) (fun _ => rfl)
abbrev xWin1 (L : grid0.Coords) : Memref sig .scVector .hbm S16x256 .f32 :=
  xV.slice (Rect.unit (s := S16x16384) (k0_off1 L 256#32) S16x256.size (k0_off1_inb L 1)) (fun _ => rfl)
abbrev oWin0 (L : grid0.Coords) : Memref sig .scVector .hbm S16x256 .i32 :=
  oV.slice (Rect.unit (s := S16x16384) (k0_off1 L 0#32) S16x256.size (k0_off1_inb L 0)) (fun _ => rfl)
abbrev oWin1 (L : grid0.Coords) : Memref sig .scVector .hbm S16x256 .i32 :=
  oV.slice (Rect.unit (s := S16x16384) (k0_off1 L 256#32) S16x256.size (k0_off1_inb L 1)) (fun _ => rfl)

/-- Slot 0 and slot 1 of the two scratches, as the body slices and squeezes them. -/
abbrev sSlot0 : Memref sig .scVector .vmem S16x256 .f32 :=
  (sS.slice (Rect.unit (s := S2x16x256) ![0, 0, 0] S1x16x256.size inb_S2x16x256_S1x16x256_0_0_0) (fun _ => rfl)).squeeze S16x256 squeezes_S1x16x256_S16x256
abbrev sSlot1 : Memref sig .scVector .vmem S16x256 .f32 :=
  (sS.slice (Rect.unit (s := S2x16x256) ![1, 0, 0] S1x16x256.size inb_S2x16x256_S1x16x256_1_0_0) (fun _ => rfl)).squeeze S16x256 squeezes_S1x16x256_S16x256
abbrev oSlot0 : Memref sig .scVector .vmem S16x256 .i32 :=
  (sO.slice (Rect.unit (s := S2x16x256) ![0, 0, 0] S1x16x256.size inb_S2x16x256_S1x16x256_0_0_0) (fun _ => rfl)).squeeze S16x256 squeezes_S1x16x256_S16x256
abbrev oSlot1 : Memref sig .scVector .vmem S16x256 .i32 :=
  (sO.slice (Rect.unit (s := S2x16x256) ![1, 0, 0] S1x16x256.size inb_S2x16x256_S1x16x256_1_0_0) (fun _ => rfl)).squeeze S16x256 squeezes_S1x16x256_S16x256

/-- The tile a grid point names. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's three transfer semaphores: chunk 0 in, chunk 1 in, both chunks out. -/
abbrev cIn0 (d : Dev nD) (c : Fin τ.nSC) (i : Fin τ.nSub) : GSem nD τ sig := (V d c i, .dma cc0_scratch2.sem)
abbrev cIn1 (d : Dev nD) (c : Fin τ.nSC) (i : Fin τ.nSub) : GSem nD τ sig := (V d c i, .dma cc0_scratch3.sem)
abbrev cOut (d : Dev nD) (c : Fin τ.nSC) (i : Fin τ.nSub) : GSem nD τ sig := (V d c i, .dma cc0_scratch4.sem)

end Cert.Proof.KI

end
-- ==== Proof.IdealPay.lean ====
/-
  What the launch handshakes carry for the threshold kernel. The 16384 token columns of the transposed arrays fall into
  64 chunks of 256; tile (c, i), of index 2 i + c, works on chunks 4 i + 2 c and 4 i + 2 c + 1. A tile is handed its two
  chunks of the transposed scores (read, and given back unchanged) and of the transposed result (at whatever they held),
  and hands the result chunks back holding the ONE whole-array function `GT` of the transposed scores. A SparseCore's
  share is its sixteen tiles' shares side by side, so splitting a SparseCore's operands among its tiles is the identity.
-/
import proofs.«216989_g62371515073183_cont_9to1_m_320_20_alg».proof.Proof.IdealSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The scores, their transpose, the transposed result, the result: the TensorCore's arrays. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

theorem hdiv64 : 64 ∣ S16x16384.size 1 := ⟨256, rfl⟩
/-- Chunk `k` of the 64 chunks of 256 token columns (all sixteen expert rows). -/
abbrev chunk (k : Fin 64) : Rect S16x16384 := Rect.part (s := S16x16384) (a₀ := 1) hdiv64 k
abbrev chunkSet (k : Fin 64) : Finset S16x16384.Idx := ((xV : Memref sig .scVector .hbm S16x16384 .f32).view.slice (chunk k)).set

/-- Tile (c, i)'s chunk `r` is chunk 4 i + 2 c + r. -/
def chunkOf (c : Fin 2) (i : Fin 16) (r : Fin 2) : Fin 64 := ⟨4 * i.val + 2 * c.val + r.val, by omega⟩

variable [FloatOps F] (m : (ℓ : Loc nD τ sig) → Buf (Elt F) ℓ)

/-- The transposed scores, as @main's first operation leaves them for the call. -/
def xT (d : Dev nD) : Buf (Elt F) (xLoc d) := transpose S16x16384 [1, 0] (m (aLoc d)) transposes_S16384x16_S16x16384_1_0

/-- The transposed result the kernel leaves: the specification's function of the transposed scores. -/
def oT (d : Dev nD) : Buf (Elt F) (oLoc d) := Cert.Threshold.GT (F := F) (xT m d)

/-- One tile's share: its two chunks of the transposed scores, and of the transposed result at contents `fo`. -/
def tileRes (d : Dev nD) (c : Fin 2) (i : Fin 16) (fo : Buf (Elt F) (oLoc d)) : sProp 𝕄 :=
  iprop((xLoc d ↦[chunkSet (chunkOf c i 0)]{fullShare} xT m d) ∗ (xLoc d ↦[chunkSet (chunkOf c i 1)]{fullShare} xT m d)
      ∗ (oLoc d ↦[chunkSet (chunkOf c i 0)]{fullShare} fo) ∗ (oLoc d ↦[chunkSet (chunkOf c i 1)]{fullShare} fo))

/-- The one call: each SparseCore is handed its sixteen tiles' shares, each tile its own; back the same with the result
    chunks at `oT`. Nothing of the launch's is consumed by the kernel's proof. -/
def P : (K (F := F)).Pay (nD := nD) (Val := Elt F) (Name := ℕ) (U := UU) where
  st := fun q d c => match q with
    | 0 => bigSep Finset.univ fun i : Fin 16 => tileRes m d (Fin.cast nCore_zero c) i (m (oLoc d))
  dn := fun q d c => match q with
    | 0 => bigSep Finset.univ fun i : Fin 16 => tileRes m d (Fin.cast nCore_zero c) i (oT m d)
  go := fun q d c i => match q with
    | 0 => tileRes m d (Fin.cast nCore_zero c) (Fin.cast nSub_zero i) (m (oLoc d))
  td := fun q d c i => match q with
    | 0 => tileRes m d (Fin.cast nCore_zero c) (Fin.cast nSub_zero i) (oT m d)
  x := fun _ _ => iprop(emp)

instance tileRes_storable (d : Dev nD) (c : Fin 2) (i : Fin 16) (fo : Buf (Elt F) (oLoc d)) :
    BI.Storable (upEmb : UEmb _ 𝕄) (tileRes m d c i fo) := by unfold tileRes; infer_instance

instance P_storable : (P (F := F) m).IsStorable where
  st q d c := match q with
    | 0 => (inferInstance : BI.Storable (upEmb : UEmb _ 𝕄) (bigSep Finset.univ fun i : Fin 16 => tileRes m d (Fin.cast nCore_zero c) i (m (oLoc d))))
  dn q d c := match q with
    | 0 => (inferInstance : BI.Storable (upEmb : UEmb _ 𝕄) (bigSep Finset.univ fun i : Fin 16 => tileRes m d (Fin.cast nCore_zero c) i (oT m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (oT m d)))

end Cert.Proof.KI

end
-- ==== Proof.IdealLaunch.lean ====
/-
  The launch of the threshold kernel's run. On each device the TensorCore transposes the scores, starts the two
  SparseCores on the transposed array and waits for them, and transposes what they leave. The call is handed the
  transposed scores and the transposed result in 64 chunks of 256 token columns — chunk 4 i + 2 c + r to tile (c, i) —,
  every chunk of one array held at ONE whole-array function, so that the chunks split from the whole array and join back
  into it by equations. What the tiles leave is the specification's function of the transposed scores; transposed back
  it is the specification's function of the scores.
-/
import proofs.«216989_g62371515073183_cont_9to1_m_320_20_alg».proof.Proof.IdealPay
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the handshakes carry, as equations -/

theorem st_eq (d : Dev nD) (c : Fin ((K (F := F)).nCore 0)) :
    (P m).st 0 d c = bigSep Finset.univ fun i : Fin 16 => tileRes m d (Fin.cast nCore_zero c) i (m (oLoc d)) := rfl
theorem dn_eq (d : Dev nD) (c : Fin ((K (F := F)).nCore 0)) :
    (P m).dn 0 d c = bigSep Finset.univ fun i : Fin 16 => tileRes m d (Fin.cast nCore_zero c) i (oT m d) := rfl
theorem go_eq (d : Dev nD) (c : Fin ((K (F := F)).nCore 0)) (i : Fin ((K (F := F)).nSub 0)) :
    (P m).go 0 d c i = tileRes m d (Fin.cast nCore_zero c) (Fin.cast nSub_zero i) (m (oLoc d)) := rfl
theorem td_eq (d : Dev nD) (c : Fin ((K (F := F)).nCore 0)) (i : Fin ((K (F := F)).nSub 0)) :
    (P m).td 0 d c i = tileRes m d (Fin.cast nCore_zero c) (Fin.cast nSub_zero i) (oT m d) := rfl

/-! ## A SparseCore's share among its tiles: the identity -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [st_eq, dn_eq, bigSep_congr (fun i _ => go_eq m d c i), bigSep_congr (fun i _ => td_eq m d c i),
    bigSep_tasks (F := F) (fun i => tileRes m d (Fin.cast nCore_zero c) i (m (oLoc d))),
    bigSep_tasks (F := F) (fun i => tileRes m d (Fin.cast nCore_zero c) i (oT m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr)
      = (iprop(emp) : sProp 𝕄) from by
    rw [bigSep_congr fun thr _ => show (bigSep Finset.univ fun q : Fin 1 => (P m).x q thr) = (iprop(emp) : sProp 𝕄) from bigSep_emp' _,
      bigSep_emp']]
  iempintro

/-! ## @main's four arrays -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the transpose before the call and the transpose after it. -/
abbrev op1 : HloOp τ sig (Elt F) :=
  StableHlo.unary main_arg0 main_v0 ((transpose S16x16384 [1, 0] · transposes_S16384x16_S16x16384_1_0) :
    (⟨S16384x16, .f32⟩ : BufTy).Contents (Elt F) → (⟨S16x16384, .f32⟩ : BufTy).Contents (Elt F))
abbrev op2 : HloOp τ sig (Elt F) :=
  StableHlo.unary main_v1 main_v2 ((transpose S16384x16 [1, 0] · transposes_S16x16384_S16384x16_1_0) :
    (⟨S16x16384, .i32⟩ : BufTy).Contents (Elt F) → (⟨S16384x16, .i32⟩ : BufTy).Contents (Elt F))

/-- The result: the transposed result, transposed back. -/
def rT (d : Dev nD) : Buf (Elt F) (rLoc d) := transpose S16384x16 [1, 0] (oT m d) transposes_S16x16384_S16384x16_1_0

/-- The TensorCore's arrays, all unscoped. -/
abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the valuation after the call, the transposed scores and result in place. -/
def V0 (d : Dev nD) : Valuation τ sig (Elt F) := fun b => m (d, b)
def V2 (d : Dev nD) : Valuation τ sig (Elt F) := Function.update (Function.update (V0 m d) x' (xT m d)) o' (oT m d)

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = xT m d :=
  (Function.update_of_ne (show x' ≠ o' by decide) _ _).trans (Function.update_self _ _ _)
theorem V2_o (d : Dev nD) : V2 m d o' = oT m d := Function.update_self _ _ _
theorem V2_r (d : Dev nD) : V2 m d r' = m (rLoc d) :=
  (Function.update_of_ne (show r' ≠ o' by decide) _ _).trans (Function.update_of_ne (show r' ≠ x' by decide) _ _)

/-- After the first transpose: the transposed scores in place, the rest as launched. -/
theorem held_res1 (d : Dev nD) :
    (held (T d) S4 ((op1 (F := F)).result (V0 m d)) : sProp 𝕄)
      = iprop((aLoc d ↦{fullShare} m (aLoc d)) ∗ (xLoc d ↦{fullShare} xT m d) ∗ (oLoc d ↦{fullShare} m (oLoc d)) ∗ rLoc d ↦{fullShare} m (rLoc d)) := by
  rw [held_S4,
    (op1 (F := F)).result_of_not_mem (V0 m d) (b := a') (show a' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide),
    show (op1 (F := F)).result (V0 m d) x' = xT m d from StableHlo.unary_result _ _ _ _ _ _]
  rfl

/-- Before the second transpose: what the call left. -/
theorem held_V2 (d : Dev nD) :
    (held (T d) S4 (V2 m d) : sProp 𝕄)
      = iprop((aLoc d ↦{fullShare} m (aLoc d)) ∗ (xLoc d ↦{fullShare} xT m d) ∗ (oLoc d ↦{fullShare} oT m d) ∗ rLoc d ↦{fullShare} m (rLoc d)) := by
  rw [held_S4, V2_a, V2_x, V2_o, V2_r]

/-- After the second transpose: the result in place. -/
theorem held_res2 (d : Dev nD) :
    (held (T d) S4 ((op2 (F := F)).result (V2 m d)) : sProp 𝕄)
      = iprop((aLoc d ↦{fullShare} m (aLoc d)) ∗ (xLoc d ↦{fullShare} xT m d) ∗ (oLoc d ↦{fullShare} oT m d) ∗ rLoc d ↦{fullShare} rT m d) := by
  rw [held_S4,
    (op2 (F := F)).result_of_not_mem (V2 m d) (b := a') (show a' ∉ ({r'} : Finset (DevRef τ sig)) by decide),
    (op2 (F := F)).result_of_not_mem (V2 m d) (b := x') (show x' ∉ ({r'} : Finset (DevRef τ sig)) by decide),
    (op2 (F := F)).result_of_not_mem (V2 m d) (b := o') (show o' ∉ ({r'} : Finset (DevRef τ sig)) by decide),
    show (op2 (F := F)).result (V2 m d) r' = rT m d from
      (StableHlo.unary_result _ _ _ _ _ _).trans (by unfold rT; rw [V2_o]),
    V2_a, V2_x, V2_o]

theorem h1 : (op1 (F := F)).bufs ⊆ S4 := show ({a', x'} : Finset (DevRef τ sig)) ⊆ S4 by decide
theorem h2 : (op2 (F := F)).bufs ⊆ S4 := show ({o', r'} : Finset (DevRef τ sig)) ⊆ S4 by decide

/-! ## The 64 chunks: a whole array is its chunks, and the chunks are the tiles' -/

omit [FloatOps F] in
theorem chunkSet_eq (k : Fin 64) : chunkSet k = (chunk k).set := by
  show ((View.whole (main_v0_scv : Ref sig .scVector)).slice (chunk k)).set = _
  rw [View.set_slice]; exact Finset.map_refl
omit [FloatOps F] in
theorem chunks_disjoint : ∀ i ∈ (Finset.univ : Finset (Fin 64)), ∀ j ∈ (Finset.univ : Finset (Fin 64)), i ≠ j → Disjoint (chunkSet i) (chunkSet j) :=
  fun i _ j _ h => by rw [chunkSet_eq, chunkSet_eq]; exact Rect.part_disjoint hdiv64 h
omit [FloatOps F] in
theorem chunks_cover : (Finset.univ : Finset (Fin 64)).biUnion chunkSet = Finset.univ :=
  (Finset.biUnion_congr rfl fun i _ => chunkSet_eq i).trans (Rect.biUnion_part hdiv64)

omit [FloatOps F] in
theorem xPts_chunks (d : Dev nD) (f : Buf (Elt F) (xLoc d)) :
    (xLoc d ↦{fullShare} f : sProp 𝕄) = bigSep Finset.univ fun k : Fin 64 => xLoc d ↦[chunkSet k]{fullShare} f := by
  rw [← pointsTo_biUnion Finset.univ (ℓ := xLoc d) chunkSet chunks_disjoint, chunks_cover]; try rfl
omit [FloatOps F] in
theorem oPts_chunks (d : Dev nD) (f : Buf (Elt F) (oLoc d)) :
    (oLoc d ↦{fullShare} f : sProp 𝕄) = bigSep Finset.univ fun k : Fin 64 => oLoc d ↦[chunkSet k]{fullShare} f := by
  rw [← pointsTo_biUnion Finset.univ (ℓ := oLoc d) chunkSet chunks_disjoint, chunks_cover]; try rfl

/-- Chunk numbers are the triples (SparseCore, tile, chunk of the tile): `4 i + 2 c + r` is a bijection. -/
def chunkEquiv : Fin 2 × Fin 16 × Fin 2 ≃ Fin 64 where
  toFun p := chunkOf p.1 p.2.1 p.2.2
  invFun k := (⟨k.val % 4 / 2, by omega⟩, ⟨k.val / 4, by omega⟩, ⟨k.val % 2, by omega⟩)
  left_inv p := by
    obtain ⟨⟨c, hc⟩, ⟨i, hi⟩, ⟨r, hr⟩⟩ := p
    refine Prod.ext (Fin.ext ?_) (Prod.ext (Fin.ext ?_) (Fin.ext ?_)) <;> simp only [chunkOf] <;> omega
  right_inv k := by
    apply Fin.ext
    simp only [chunkOf]
    omega

omit [FloatOps F] in
/-- A product over the 64 chunks, regrouped by SparseCore, tile and the tile's two chunks. -/
theorem bigSep_chunks (Φ : Fin 64 → sProp 𝕄) :
    bigSep Finset.univ Φ
      = bigSep Finset.univ fun c : Fin 2 => bigSep Finset.univ fun i : Fin 16 => iprop(Φ (chunkOf c i 0) ∗ Φ (chunkOf c i 1)) := by
  rw [BI.bigSep_univ_equiv chunkEquiv Φ, bigSep_univ_prod]
  refine bigSep_congr fun c _ => ?_
  rw [bigSep_univ_prod]
  refine bigSep_congr fun i _ => ?_
  rw [bigSep_univ_two]
  rfl

/-- One tile's share, its score chunks beside its result chunks. -/
theorem tileRes_eq (d : Dev nD) (c : Fin 2) (i : Fin 16) (fo : Buf (Elt F) (oLoc d)) :
    tileRes m d c i fo
      = iprop(((xLoc d ↦[chunkSet (chunkOf c i 0)]{fullShare} xT m d) ∗ (xLoc d ↦[chunkSet (chunkOf c i 1)]{fullShare} xT m d))
          ∗ ((oLoc d ↦[chunkSet (chunkOf c i 0)]{fullShare} fo) ∗ (oLoc d ↦[chunkSet (chunkOf c i 1)]{fullShare} fo))) := by
  unfold tileRes
  exact equiv_iff.mp ⟨BI.sep_assoc', BI.sep_assoc⟩

/-- All the tiles' shares are the two whole arrays. -/
theorem tiles_eq (d : Dev nD) (fo : Buf (Elt F) (oLoc d)) :
    (bigSep Finset.univ fun c : Fin 2 => bigSep Finset.univ fun i : Fin 16 => tileRes m d c i fo)
      = iprop((xLoc d ↦{fullShare} xT m d) ∗ (oLoc d ↦{fullShare} fo)) := by
  rw [xPts_chunks, oPts_chunks, bigSep_chunks (F := F) (fun k => xLoc d ↦[chunkSet k]{fullShare} xT m d),
    bigSep_chunks (F := F) (fun k => oLoc d ↦[chunkSet k]{fullShare} fo), ← bigSep_sep']
  refine bigSep_congr fun c _ => ?_
  rw [← bigSep_sep']
  exact bigSep_congr fun i _ => tileRes_eq m d c i fo

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back. -/
theorem st0_eq (d : Dev nD) :
    (bigSep Finset.univ fun c : Fin ((K (F := F)).nCore 0) => (P m).st 0 d c)
      = iprop((xLoc d ↦{fullShare} xT m d) ∗ (oLoc d ↦{fullShare} m (oLoc d))) := by
  rw [bigSep_congr (fun c _ => st_eq m d c),
    bigSep_cores (F := F) (fun c => bigSep Finset.univ fun i : Fin 16 => tileRes m d c i (m (oLoc d))), tiles_eq]
theorem dn0_eq (d : Dev nD) :
    (bigSep Finset.univ fun c : Fin ((K (F := F)).nCore 0) => (P m).dn 0 d c)
      = iprop((xLoc d ↦{fullShare} xT m d) ∗ (oLoc d ↦{fullShare} oT m d)) := by
  rw [bigSep_congr (fun c _ => dn_eq m d c),
    bigSep_cores (F := F) (fun c => bigSep Finset.univ fun i : Fin 16 => tileRes m d c i (oT m d)), tiles_eq]

/-! ## @main on the TensorCore -/

/-- What @main leaves the claim: the scores at their launch contents, and the result. -/
abbrev FIN (d : Dev nD) : sProp 𝕄 := iprop((aLoc d ↦{fullShare} m (aLoc d)) ∗ (rLoc d ↦{fullShare} rT m d))

/-- @main on device `d`'s TensorCore: the first transpose leaves the transposed scores; the call takes them and the
    transposed result's array in chunks and hands them back, the result's at the specification's function; the second
    transpose leaves the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := op1) (S := S4) h1 (V := V0 m d)) $$ [Hb Hheld]
  · isplitl [Hb]; · iexact Hb
    iexact Hheld
  iintro ⟨Hb, Hheld⟩
  ihave Hh := (Entails.of_eq (held_res1 (F := F) m d)) $$ Hheld
  icases Hh with ⟨Ha, Hx, Ho, Hr⟩
  rw [wp_ret]; imodintro
  -- the call: the two arrays in chunks to the tiles, and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the second transpose
  iapply (wp_hlo_within 𝒱 (SparseCore.T d) none Set.univ (op := op2) (S := S4) h2 (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_res2 (F := F) m d)) $$ Hheld
  icases Hh with ⟨Ha, -, -, Hr⟩
  rw [wp_ret]; imodintro; imodintro
  isplitl [Hst]; · iexact Hst
  isplitl [Ha]; · iexact Ha
  iexact Hr

/-! ## The value: transposing back -/

/-- The specification in the transposed layout, transposed back, is the specification. -/
theorem result_eq (x : FVec F Cert.Threshold.STE .f32) :
    transpose S16384x16 [1, 0] (Cert.Threshold.GT (F := F) (transpose S16x16384 [1, 0] x transposes_S16384x16_S16x16384_1_0))
      transposes_S16x16384_S16384x16_1_0 = Cert.Threshold.G (F := F) x := by
  funext i
  obtain ⟨t, e, rfl⟩ : ∃ (t : Fin 16384) (e : Fin 16), i = ValueIdx.ix2 t e := ⟨i 0, i 1, ValueIdx.eq_ix2 i⟩
  rw [ValueIdx.transpose_ix2_apply]
  have hx : ∀ (e' : Fin 16) (t' : Fin 16384),
      transpose S16x16384 [1, 0] x transposes_S16384x16_S16x16384_1_0 (ValueIdx.ix2 e' t') = x (ValueIdx.ix2 t' e') :=
    fun e' t' => ValueIdx.transpose_ix2_apply x _ e' t'
  unfold Cert.Threshold.GT Cert.Threshold.G Cert.Threshold.coldT Cert.Threshold.cold
  simp only [hx]
  by_cases hc : (e.val = 0 ∧ ∀ e' : Fin 16, Cert.Threshold.hotBit (x (ValueIdx.ix2 t e')) = 0#1)
  · exact (if_pos hc).trans (if_pos hc).symm
  · exact (if_neg hc).trans (if_neg hc).symm

/-! ## The final memory, the program's run -/

def fq (d : Dev nD) (s' : Phys nD τ sig (Elt F)) : Prop :=
  s'.mem.mem (aLoc d) = m (aLoc d) ∧ s'.mem.mem (rLoc d) = rT m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := rT m d)) $$ [HSI Hr]
  · isplitl [HSI] <;> iassumption
  icases H with %h2
  ipureintro; exact ⟨funext fun i => h1 i (Finset.mem_univ i), funext fun i => h2 i (Finset.mem_univ i)⟩

/-- The result array holds the specification's function of the scores. -/
theorem rT_eq (d : Dev nD) : rT m d = Cert.Threshold.G (F := F) (m (aLoc d)) := by
  unfold rT oT xT
  exact result_eq (m (aLoc d))

/-- Every weakly fair execution of the whole family of threads ends; the scores are unchanged and the result is the
    specification's function of them — given the tile's body obligation. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (rLoc c) = Cert.Threshold.G (F := F) (m (aLoc c)) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).2.trans (rT_eq m c), (h c).1⟩)

end Cert.Proof.KI

end
-- ==== Proof.IdealWin.lean ====
/-
  A tile's windows are its chunks. Tile (c, i), of index 2 i + c, slices, of each transposed array, the 256 columns from
  1024 i + 512 c + 256 r on, r = 0, 1: that rectangle is part 4 i + 2 c + r of the cut of the 16384 columns into 64, so a
  window held through the tile's memref is the chunk held at the device's array.
-/
import proofs.«216989_g62371515073183_cont_9to1_m_320_20_alg».proof.Proof.IdealPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A tile's windows are its chunks -/

/-- The SparseCore and the tile a grid point names, as the chunks are numbered by. -/
abbrev cL (L : grid0.Coords) : Fin 2 := Fin.cast rfl (L 0)
abbrev iL (L : grid0.Coords) : Fin 16 := Fin.cast rfl (L 1)

/-- The two windows of a tile, as rectangles of the transposed arrays. -/
abbrev winK0 (L : grid0.Coords) : Rect S16x16384 := Rect.unit (s := S16x16384) (k0_off1 L 0#32) S16x256.size (k0_off1_inb L 0)
abbrev winK1 (L : grid0.Coords) : Rect S16x16384 := Rect.unit (s := S16x16384) (k0_off1 L 256#32) S16x256.size (k0_off1_inb L 1)

omit [FloatOps F] in
theorem winK0_eq (L : grid0.Coords) : winK0 L = chunk (chunkOf (cL L) (iL L) 0) := by
  have ho : k0_off1 L 0#32 = ![0, 1024 * (L 1).val + 512 * (L 0).val + 256 * 0] := k0_off1_eq L 0
  unfold winK0 chunk Rect.part Rect.block
  congr 1 <;> funext a
  · rw [ho]
    match a with
    | 0 => simp [Shape.partIx, Shape.partSize]
    | 1 =>
      have hcv : ((cL L : Fin 2) : ℕ) = ((L 0 : Fin (grid0.bound 0)) : ℕ) := rfl
      have hiv : ((iL L : Fin 16) : ℕ) = ((L 1 : Fin (grid0.bound 1)) : ℕ) := rfl
      simp [Shape.partIx, Shape.partSize, chunkOf, hcv, hiv]; omega
  · match a with
    | 0 => simp [Shape.partSize]
    | 1 => simp [Shape.partSize]
omit [FloatOps F] in
theorem winK1_eq (L : grid0.Coords) : winK1 L = chunk (chunkOf (cL L) (iL L) 1) := by
  have ho : k0_off1 L 256#32 = ![0, 1024 * (L 1).val + 512 * (L 0).val + 256 * 1] := k0_off1_eq L 1
  unfold winK1 chunk Rect.part Rect.block
  congr 1 <;> funext a
  · rw [ho]
    match a with
    | 0 => simp [Shape.partIx, Shape.partSize]
    | 1 =>
      have hcv : ((cL L : Fin 2) : ℕ) = ((L 0 : Fin (grid0.bound 0)) : ℕ) := rfl
      have hiv : ((iL L : Fin 16) : ℕ) = ((L 1 : Fin (grid0.bound 1)) : ℕ) := rfl
      simp [Shape.partIx, Shape.partSize, chunkOf, hcv, hiv]; omega
  · match a with
    | 0 => simp [Shape.partSize]
    | 1 => simp [Shape.partSize]

omit [FloatOps F] in
theorem set_xWin0 (L : grid0.Coords) : (xWin0 L).view.set = chunkSet (chunkOf (cL L) (iL L) 0) := by
  show ((xV : Memref sig .scVector .hbm S16x16384 .f32).view.slice (winK0 L)).set
    = ((xV : Memref sig .scVector .hbm S16x16384 .f32).view.slice (chunk (chunkOf (cL L) (iL L) 0))).set
  exact winK0_eq L ▸ rfl
omit [FloatOps F] in
theorem set_xWin1 (L : grid0.Coords) : (xWin1 L).view.set = chunkSet (chunkOf (cL L) (iL L) 1) := by
  show ((xV : Memref sig .scVector .hbm S16x16384 .f32).view.slice (winK1 L)).set
    = ((xV : Memref sig .scVector .hbm S16x16384 .f32).view.slice (chunk (chunkOf (cL L) (iL L) 1))).set
  exact winK1_eq L ▸ rfl
omit [FloatOps F] in
theorem set_oWin0 (L : grid0.Coords) : (oWin0 L).view.set = chunkSet (chunkOf (cL L) (iL L) 0) := by
  have h1 : (oWin0 L).view.set = (winK0 L).set := View.set_slice_whole (main_v1_scv : Ref sig .scVector) (winK0 L)
  have h2 : chunkSet (chunkOf (cL L) (iL L) 0) = (chunk (chunkOf (cL L) (iL L) 0)).set :=
    View.set_slice_whole (main_v0_scv : Ref sig .scVector) (chunk (chunkOf (cL L) (iL L) 0))
  rw [h1, h2, winK0_eq]
omit [FloatOps F] in
theorem set_oWin1 (L : grid0.Coords) : (oWin1 L).view.set = chunkSet (chunkOf (cL L) (iL L) 1) := by
  have h1 : (oWin1 L).view.set = (winK1 L).set := View.set_slice_whole (main_v1_scv : Ref sig .scVector) (winK1 L)
  have h2 : chunkSet (chunkOf (cL L) (iL L) 1) = (chunk (chunkOf (cL L) (iL L) 1)).set :=
    View.set_slice_whole (main_v0_scv : Ref sig .scVector) (chunk (chunkOf (cL L) (iL L) 1))
  rw [h1, h2, winK1_eq]

omit [FloatOps F] in
theorem pts_xWin0 (d : Dev nD) (L : grid0.Coords) (f : Buf (Elt F) (xLoc d)) :
    ((xWin0 L).view.loc (V d (cV L) (jV L)) ↦[(xWin0 L).view.set]{fullShare} f : sProp 𝕄)
      = (xLoc d ↦[chunkSet (chunkOf (cL L) (iL L) 0)]{fullShare} f) := by
  rw [set_xWin0]
omit [FloatOps F] in
theorem pts_xWin1 (d : Dev nD) (L : grid0.Coords) (f : Buf (Elt F) (xLoc d)) :
    ((xWin1 L).view.loc (V d (cV L) (jV L)) ↦[(xWin1 L).view.set]{fullShare} f : sProp 𝕄)
      = (xLoc d ↦[chunkSet (chunkOf (cL L) (iL L) 1)]{fullShare} f) := by
  rw [set_xWin1]
omit [FloatOps F] in
theorem pts_oWin0 (d : Dev nD) (L : grid0.Coords) (f : Buf (Elt F) (oLoc d)) :
    ((oWin0 L).view.loc (V d (cV L) (jV L)) ↦[(oWin0 L).view.set]{fullShare} f : sProp 𝕄)
      = (oLoc d ↦[chunkSet (chunkOf (cL L) (iL L) 0)]{fullShare} f) := by
  rw [set_oWin0]
omit [FloatOps F] in
theorem pts_oWin1 (d : Dev nD) (L : grid0.Coords) (f : Buf (Elt F) (oLoc d)) :
    ((oWin1 L).view.loc (V d (cV L) (jV L)) ↦[(oWin1 L).view.set]{fullShare} f : sProp 𝕄)
      = (oLoc d ↦[chunkSet (chunkOf (cL L) (iL L) 1)]{fullShare} f) := by
  rw [set_oWin1]

end Cert.Proof.KI

end
-- ==== Proof.IdealObl.lean ====
/-
  The tile obligation of the launch theorem, from the body's triple. The launch names a tile by its core and subcore
  indices; the body names it by a grid point. At the grid point with those two coordinates the two spellings of the tile,
  of its share and of its program agree, and the body's postcondition (waits left over are old ones or the body's own)
  is the obligation's (which also allows waits of the call's own protocol).
-/
import proofs.«216989_g62371515073183_cont_9to1_m_320_20_alg».proof.Proof.IdealWin
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- A vector subcore's program is the kernel body at the grid point with the subcore's coordinates. -/
theorem defs₀_vector (c : Fin τ.nSC) (s : Fin τ.nSub) :
    defs₀ (F := F) (.scVector c s) 0 ()
      = SparseCore.onTile hcore0 hsub0 (fun c s => cc0__threshold_kernel (coordsV c s) xV (Memref.isWhole_whole _) oV (Memref.isWhole_whole _) sS (Memref.isWhole_whole _) sO (Memref.isWhole_whole _) cc0_scratch2 cc0_scratch3 cc0_scratch4) ⟨⟩ c s := rfl

omit [FloatOps F] in
/-- Waits left over that are old or the body's own are in particular old, the body's own, or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] wp in
/-- The launch theorem's obligation for a tile, from the body's triple at every grid point. -/
theorem tileObl_of
    (hbody : ∀ (d : Dev nD) (L : grid0.Coords) (O : CellTallies nD τ sig (HIx 1)) (W : Waits sig (HIx 1)), (∀ g, O g none = 0) →
      ((iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(tileRes m d (cL L) (iL L) (oT m d) ∗ scopedBufs (V d (cV L) (jV L)) ∗ scopedSems0 (V d (cV L) (jV L))
            ∗ ∃ W', ⌜∀ p ∈ W', p ∈ W ∨ p.2 = none⌝ ∗ owes (V d (cV L) (jV L)) O W'))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have ec : cL (coordsV ⟨_, hc.1⟩ ⟨_, hc.2⟩) = Fin.cast nCore_zero c := Fin.ext rfl
  have ei : iL (coordsV ⟨_, hc.1⟩ ⟨_, hc.2⟩) = Fin.cast nSub_zero i := Fin.ext rfl
  have hb := hbody d (coordsV ⟨_, hc.1⟩ ⟨_, hc.2⟩) O W hO
  rw [ec, ei] at hb
  have ex : (P m).x 0 (V d ((K (F := F)).core 0 c) ((K (F := F)).sub 0 i)) = (iprop(emp) : sProp 𝕄) := rfl
  have eg : (P m).go 0 d c i = tileRes m d (Fin.cast nCore_zero c) (Fin.cast nSub_zero i) (m (oLoc d)) := rfl
  have et : (P m).td 0 d c i = tileRes m d (Fin.cast nCore_zero c) (Fin.cast nSub_zero i) (oT m d) := rfl
  rw [ex, eg, et]
  refine hb.trans ?_
  refine wp_mono frame _ _ fun _ => ?_
  exact obl_post

end Cert.Proof.KI

end
-- ==== Proof.IdealRun0.lean ====
/-
  One run of a tile's body from its operands, scratch slots and semaphores, kept only for the NAMES it gives the values
  the body computes on the way (each load's vector, each slot's contents after each store, each copy's delivery): the
  value lemmas are stated over those names.
-/
import proofs.«216989_g62371515073183_cont_9to1_m_320_20_alg».proof.Proof.IdealSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 0 in
theorem run0 [∀ e, Nonempty (Elt F e)] (d : Dev nD) (L : grid0.Coords) (O : CellTallies nD τ sig (HIx 1)) (W : Waits sig (HIx 1))
    (fx : Buf (Elt F) ((xV).view.loc (V d (cV L) (jV L)))) (fo : Buf (Elt F) ((oV).view.loc (V d (cV L) (jV L))))
    (fs : Buf (Elt F) ((sS).view.loc (V d (cV L) (jV L)))) (fr : Buf (Elt F) ((sO).view.loc (V d (cV L) (jV L)))) :
    (iprop(Transfers.MayWaits (V d (cV L) (jV L)) (none : HIx 1) O
        ∗ ((xWin0 L).view.loc (V d (cV L) (jV L)) ↦[(xWin0 L).view.set]{fullShare} fx) ∗ ((xWin1 L).view.loc (V d (cV L) (jV L)) ↦[(xWin1 L).view.set]{fullShare} fx)
        ∗ ((oWin0 L).view.loc (V d (cV L) (jV L)) ↦[(oWin0 L).view.set]{fullShare} fo) ∗ ((oWin1 L).view.loc (V d (cV L) (jV L)) ↦[(oWin1 L).view.set]{fullShare} fo)
        ∗ ((sSlot0).view.loc (V d (cV L) (jV L)) ↦[(sSlot0).view.set]{fullShare} fs) ∗ ((sSlot1).view.loc (V d (cV L) (jV L)) ↦[(sSlot1).view.set]{fullShare} fs)
        ∗ ((oSlot0).view.loc (V d (cV L) (jV L)) ↦[(oSlot0).view.set]{fullShare} fr) ∗ ((oSlot1).view.loc (V d (cV L) (jV L)) ↦[(oSlot1).view.set]{fullShare} fr)
        ∗ semVal (cIn0 d (cV L) (jV L)) 0 ∗ semVal (cIn1 d (cV L) (jV L)) 0 ∗ semVal (cOut d (cV L) (jV L)) 0
        ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(True) := by
  iintro ⟨Hmw, Hx0, Hx1, Ho0, Ho1, Hs0, Hs1, Hr0, Hr1, Hc0, Hc1, Hc2, HO⟩
  have hB : Transfers.BatchOf (V d (cV L) (jV L)) (SemLoc.dma (SemArray.sem cc0_scratch4)) 2 := Transfers.BatchOf.intro _ _ 2
  rw [cc0__threshold_kernel_eq_skeleton]; unfold cc0__threshold_kernel_skel
  sl_exec_parts (disch := exact View.amount_pos _ _ (show 0 < S16x256.numel by decide))
  sl_step
  ipureintro; trivial

end Cert.Proof.KI

end
-- ==== Proof.Lanes.lean ====
/-
  The two stores of the kernel's inner step, read at one lane, for any float instance.
-/
import proofs.«216989_g62371515073183_cont_9to1_m_320_20_alg».proof.Proof.Spec
import Idealize.ShloMosaic.Lib.Pipeline.Value

noncomputable section

namespace Cert.Threshold

open Idealize.ShloMosaic Idealize.ShloMosaic.ValueIdx

variable {F : FTy → Type} [FloatOps F]

/-- An index of the `[1, 1, 16]` shape is its lane: the two leading coordinates range over one value. -/
theorem idx_eq_lane (x : (⟨3, ![1, 1, 16]⟩ : Shape).Idx) : x = ix3 (0 : Fin 1) (0 : Fin 1) (x 2) := by
  have h0 : x 0 = (0 : Fin 1) := Fin.ext (by have h := (x 0).isLt; change (x 0).val < 1 at h; show (x 0).val = 0; omega)
  have h1 : x 1 = (0 : Fin 1) := Fin.ext (by have h := (x 1).isLt; change (x 1).val < 1 at h; show (x 1).val = 0; omega)
  funext d
  match d with
  | ⟨0, _⟩ => exact h0
  | ⟨1, _⟩ => exact h1
  | ⟨2, _⟩ => rfl

/-- The cast to one axis keeps the lane. -/
theorem cast_3_1_apply {α : Type} (v : (⟨3, ![1, 1, 16]⟩ : Shape).Idx → α) (h : (⟨3, ![1, 1, 16]⟩ : Shape).ShapeCasts ⟨1, ![16]⟩) (l : Fin 16) :
    shapeCast (⟨1, ![16]⟩ : Shape) v h (ix1 l) = v (ix3 (0 : Fin 1) (0 : Fin 1) l) :=
  shapeCast_apply v h _ _ (by
    rw [Shape.rowMajor_val_three, Shape.rowMajor_val_one]
    show (0 * 1 + 0) * 16 + l.val = l.val
    omega)

/-- The cast back to three axes keeps the lane. -/
theorem cast_1_3_apply {α : Type} (v : (⟨1, ![16]⟩ : Shape).Idx → α) (h : (⟨1, ![16]⟩ : Shape).ShapeCasts ⟨3, ![1, 1, 16]⟩) (x : (⟨3, ![1, 1, 16]⟩ : Shape).Idx) :
    shapeCast (⟨3, ![1, 1, 16]⟩ : Shape) v h x = v (ix1 (x 2)) :=
  shapeCast_apply v h _ _ (by
    have h0 : (x 0).val = 0 := by have := (x 0).isLt; change _ < 1 at this; omega
    have h1 : (x 1).val = 0 := by have := (x 1).isLt; change _ < 1 at this; omega
    rw [Shape.rowMajor_val_three, Shape.rowMajor_val_one]
    show (x 2).val = ((x 0).val * 1 + (x 1).val) * 16 + (x 2).val
    rw [h0, h1]; omega)

/-- Choosing 1 or 0 by a one-bit word is widening that word. -/
theorem select_one_zero (b : BitVec 1) : Scalar.select b 1#32 0#32 = b.setWidth 32 := by
  revert b; decide

/-- One lane of the thresholded vector is the hot word of the score at that lane. -/
theorem lane_hot (ld : Vec F (⟨3, ![1, 1, 16]⟩ : Shape) .f32) (h1 : (⟨3, ![1, 1, 16]⟩ : Shape).ShapeCasts ⟨1, ![16]⟩) (x : (⟨3, ![1, 1, 16]⟩ : Shape).Idx) :
    (select (cmpf .ogt (shapeCast (⟨1, ![16]⟩ : Shape) ld h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32) (ix1 (x 2)) = hot (ld x) := by
  have e : shapeCast (⟨1, ![16]⟩ : Shape) ld h1 (ix1 (x 2)) = ld x :=
    (cast_3_1_apply ld h1 (x 2)).trans (congrArg ld (idx_eq_lane x).symm)
  show Scalar.select (FloatOps.cmpf .ogt (shapeCast (⟨1, ![16]⟩ : Shape) ld h1 (ix1 (x 2))) (Scalar.ofBits .f32 0x00000000#32 : F .f32)) 1#32 0#32 = _
  rw [e]
  exact select_one_zero _

/-- Choosing by the one-bit word of an equality is the `if` on that equality. -/
theorem select_cmpi_eq {α : Type} (s t : BitVec 32) (a b : α) :
    Scalar.select (IntOp.cmpi .eq s t) a b = if s = t then a else b := by
  show (if BitVec.ofBool (s == t) = 1 then a else b) = _
  by_cases h : s = t
  · have hb : (s == t) = true := beq_iff_eq.2 h
    rw [hb, if_pos h]; exact if_pos rfl
  · have hb : (s == t) = false := beq_eq_false_iff_ne.2 h
    rw [hb, if_neg h]; exact if_neg (by decide)

/-- One lane of "1 where the sixteen words sum to zero, else the first word". -/
theorem lane_zero (A0 A1 A2 A3 A4 A5 A6 A7 A8 A9 A10 A11 A12 A13 A14 A15 : IVec (⟨1, ![16]⟩ : Shape) 32) (l : (⟨1, ![16]⟩ : Shape).Idx) :
    select (cmpi .eq (addi (addi (addi (addi (addi (addi (addi (addi (addi (addi (addi (addi (addi (addi (addi (A0) A1) A2) A3) A4) A5) A6) A7) A8) A9) A10) A11) A12) A13) A14) A15) (broadcast (⟨1, ![16]⟩ : Shape) 0#32)) (broadcast (⟨1, ![16]⟩ : Shape) 1#32) A0 l
      = if A0 l + A1 l + A2 l + A3 l + A4 l + A5 l + A6 l + A7 l + A8 l + A9 l + A10 l + A11 l + A12 l + A13 l + A14 l + A15 l = 0#32 then 1#32 else A0 l :=
  select_cmpi_eq _ _ _ _

/-- Adding two words whose values are small enough does not wrap. -/
theorem toNat_add_of_le (a b : BitVec 32) (n m : Nat) (ha : a.toNat ≤ n) (hb : b.toNat ≤ m) (h : n + m < 2 ^ 32) :
    (a + b).toNat = a.toNat + b.toNat := by
  rw [BitVec.toNat_add]
  exact Nat.mod_eq_of_lt (by omega)

/-- One more word, 0 or 1, added to a sum known to be at most `n`: the sum stays small, and it is zero exactly when
the old sum and the new word both are. -/
theorem sum_step (s w : BitVec 32) (n : Nat) (P : Prop) (hs : s.toNat ≤ n) (hP : s = 0#32 ↔ P) (hw : w.toNat ≤ 1)
    (hn : n ≤ 16) : (s + w).toNat ≤ n + 1 ∧ (s + w = 0#32 ↔ P ∧ w = 0#32) := by
  have e : (s + w).toNat = s.toNat + w.toNat := toNat_add_of_le s w n 1 hs hw (by omega)
  have z : (0#32).toNat = 0 := rfl
  refine ⟨by omega, ?_⟩
  rw [← hP]
  constructor
  · intro h
    have h' := congrArg BitVec.toNat h
    rw [e, z] at h'
    exact ⟨BitVec.eq_of_toNat_eq (by rw [z]; omega), BitVec.eq_of_toNat_eq (by rw [z]; omega)⟩
  · rintro ⟨h1, h2⟩
    rw [h1, h2]; rfl

/-- Sixteen words, each 0 or 1, sum to zero exactly when each is zero: the sum is at most 16, so it never wraps. -/
theorem sum16_eq_zero_iff (w0 w1 w2 w3 w4 w5 w6 w7 w8 w9 w10 w11 w12 w13 w14 w15 : BitVec 32)
    (h0 : w0.toNat ≤ 1)
    (h1 : w1.toNat ≤ 1)
    (h2 : w2.toNat ≤ 1)
    (h3 : w3.toNat ≤ 1)
    (h4 : w4.toNat ≤ 1)
    (h5 : w5.toNat ≤ 1)
    (h6 : w6.toNat ≤ 1)
    (h7 : w7.toNat ≤ 1)
    (h8 : w8.toNat ≤ 1)
    (h9 : w9.toNat ≤ 1)
    (h10 : w10.toNat ≤ 1)
    (h11 : w11.toNat ≤ 1)
    (h12 : w12.toNat ≤ 1)
    (h13 : w13.toNat ≤ 1)
    (h14 : w14.toNat ≤ 1)
    (h15 : w15.toNat ≤ 1) :
    w0 + w1 + w2 + w3 + w4 + w5 + w6 + w7 + w8 + w9 + w10 + w11 + w12 + w13 + w14 + w15 = 0#32 ↔ w0 = 0#32 ∧ w1 = 0#32 ∧ w2 = 0#32 ∧ w3 = 0#32 ∧ w4 = 0#32 ∧ w5 = 0#32 ∧ w6 = 0#32 ∧ w7 = 0#32 ∧ w8 = 0#32 ∧ w9 = 0#32 ∧ w10 = 0#32 ∧ w11 = 0#32 ∧ w12 = 0#32 ∧ w13 = 0#32 ∧ w14 = 0#32 ∧ w15 = 0#32 := by
  have s1 := sum_step w0 w1 1 (w0 = 0#32) h0 Iff.rfl h1 (by decide)
  have s2 := sum_step _ w2 2 _ s1.1 s1.2 h2 (by decide)
  have s3 := sum_step _ w3 3 _ s2.1 s2.2 h3 (by decide)
  have s4 := sum_step _ w4 4 _ s3.1 s3.2 h4 (by decide)
  have s5 := sum_step _ w5 5 _ s4.1 s4.2 h5 (by decide)
  have s6 := sum_step _ w6 6 _ s5.1 s5.2 h6 (by decide)
  have s7 := sum_step _ w7 7 _ s6.1 s6.2 h7 (by decide)
  have s8 := sum_step _ w8 8 _ s7.1 s7.2 h8 (by decide)
  have s9 := sum_step _ w9 9 _ s8.1 s8.2 h9 (by decide)
  have s10 := sum_step _ w10 10 _ s9.1 s9.2 h10 (by decide)
  have s11 := sum_step _ w11 11 _ s10.1 s10.2 h11 (by decide)
  have s12 := sum_step _ w12 12 _ s11.1 s11.2 h12 (by decide)
  have s13 := sum_step _ w13 13 _ s12.1 s12.2 h13 (by decide)
  have s14 := sum_step _ w14 14 _ s13.1 s13.2 h14 (by decide)
  have s15 := sum_step _ w15 15 _ s14.1 s14.2 h15 (by decide)
  refine s15.2.trans ?_
  simp only [and_assoc]

/-- The store of an expert row other than row 0: the hot word of the loaded score, lane by lane. -/
theorem store_hot (ld : Vec F (⟨3, ![1, 1, 16]⟩ : Shape) .f32) (h1 : (⟨3, ![1, 1, 16]⟩ : Shape).ShapeCasts ⟨1, ![16]⟩)
    (h2 : (⟨1, ![16]⟩ : Shape).ShapeCasts ⟨3, ![1, 1, 16]⟩) (x : (⟨3, ![1, 1, 16]⟩ : Shape).Idx) :
    shapeCast (⟨3, ![1, 1, 16]⟩ : Shape) (select (cmpf .ogt (shapeCast (⟨1, ![16]⟩ : Shape) ld h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32) h2 x = hot (ld x) := by
  refine (cast_1_3_apply _ h2 x).trans ?_
  exact lane_hot ld h1 x

open Classical in
/-- The store of expert row 0: 1 where the sixteen hot words sum to zero, else row 0's own hot word. -/
theorem store_zero (ld0 ld1 ld2 ld3 ld4 ld5 ld6 ld7 ld8 ld9 ld10 ld11 ld12 ld13 ld14 ld15 : Vec F (⟨3, ![1, 1, 16]⟩ : Shape) .f32)
    (h1 : (⟨3, ![1, 1, 16]⟩ : Shape).ShapeCasts ⟨1, ![16]⟩)
    (h2 : (⟨1, ![16]⟩ : Shape).ShapeCasts ⟨3, ![1, 1, 16]⟩) (x : (⟨3, ![1, 1, 16]⟩ : Shape).Idx) :
    shapeCast (⟨3, ![1, 1, 16]⟩ : Shape)
      (select (cmpi .eq (addi (addi (addi (addi (addi (addi (addi (addi (addi (addi (addi (addi (addi (addi (addi (select (cmpf .ogt (shapeCast (⟨1, ![16]⟩ : Shape) ld0 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32) (select (cmpf .ogt (shapeCast (⟨1, ![16]⟩ : Shape) ld1 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld2 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld3 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld4 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld5 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld6 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld7 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld8 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld9 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld10 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld11 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld12 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld13 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld14 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (select (cmpf .ogt (shapeCast (⟨1, ![16]⟩ : Shape) ld15 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) (broadcast (⟨1, ![16]⟩ : Shape) 0#32)) (broadcast (⟨1, ![16]⟩ : Shape) 1#32) (select (cmpf .ogt (shapeCast (⟨1, ![16]⟩ : Shape) ld0 h1) (broadcast (⟨1, ![16]⟩ : Shape) (Scalar.ofBits .f32 0x00000000#32 : F .f32))) (broadcast (⟨1, ![16]⟩ : Shape) 1#32) (broadcast (⟨1, ![16]⟩ : Shape) 0#32) : IVec (⟨1, ![16]⟩ : Shape) 32)) h2 x
      = if hotBit (ld0 x) = 0#1 ∧ hotBit (ld1 x) = 0#1 ∧ hotBit (ld2 x) = 0#1 ∧ hotBit (ld3 x) = 0#1 ∧ hotBit (ld4 x) = 0#1 ∧ hotBit (ld5 x) = 0#1 ∧ hotBit (ld6 x) = 0#1 ∧ hotBit (ld7 x) = 0#1 ∧ hotBit (ld8 x) = 0#1 ∧ hotBit (ld9 x) = 0#1 ∧ hotBit (ld10 x) = 0#1 ∧ hotBit (ld11 x) = 0#1 ∧ hotBit (ld12 x) = 0#1 ∧ hotBit (ld13 x) = 0#1 ∧ hotBit (ld14 x) = 0#1 ∧ hotBit (ld15 x) = 0#1 then 1#32 else hot (ld0 x) := by
  refine (cast_1_3_apply _ h2 x).trans ?_
  refine (lane_zero _ _ _ _ _ _ _ _ _ _ _ _ _ _ _ _ (ix1 (x 2))).trans ?_
  rw [lane_hot ld0 h1 x, lane_hot ld1 h1 x, lane_hot ld2 h1 x, lane_hot ld3 h1 x, lane_hot ld4 h1 x, lane_hot ld5 h1 x, lane_hot ld6 h1 x, lane_hot ld7 h1 x, lane_hot ld8 h1 x, lane_hot ld9 h1 x, lane_hot ld10 h1 x, lane_hot ld11 h1 x, lane_hot ld12 h1 x, lane_hot ld13 h1 x, lane_hot ld14 h1 x, lane_hot ld15 h1 x]
  have le_one : ∀ v : F .f32, (hot v).toNat ≤ 1 := fun v => by
    rcases hot_cases v with h | h <;> rw [h] <;> decide
  refine if_congr ((sum16_eq_zero_iff _ _ _ _ _ _ _ _ _ _ _ _ _ _ _ _
    (le_one (ld0 x)) (le_one (ld1 x)) (le_one (ld2 x)) (le_one (ld3 x)) (le_one (ld4 x)) (le_one (ld5 x)) (le_one (ld6 x)) (le_one (ld7 x)) (le_one (ld8 x)) (le_one (ld9 x)) (le_one (ld10 x)) (le_one (ld11 x)) (le_one (ld12 x)) (le_one (ld13 x)) (le_one (ld14 x)) (le_one (ld15 x))).trans ?_) rfl rfl
  simp only [hot_eq_zero_iff]

end Cert.Threshold

end
-- ==== Proof.IdealPieces.lean ====
/-
  A result slot after its computation, as ONE function of the score scratch's contents, and the three facts that read
  the body's 256 stores into a slot as that function: a store of an expert row other than 0 agrees with it, the store
  of row 0 agrees with it, and the stores (sixteen lanes each, rows 1 … 15 then row 0, lane group by lane group) cover
  the slot.
-/
import proofs.«216989_g62371515073183_cont_9to1_m_320_20_alg».proof.Proof.IdealSetup
import proofs.«216989_g62371515073183_cont_9to1_m_320_20_alg».proof.Proof.Lanes
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
open Cert.Threshold (hotBit hot)

variable {F : FTy → Type} [FloatOps F]

open Classical in
/-- The result scratch where a slot's computation has written, from the score scratch's contents `C`: at expert row 0
    it is 1 when no row of the same slot and column is hot, else the row's own hot word; at the other rows the own hot
    word. -/
def Gs (C : sS.view.ty.Contents (Elt F)) : sO.view.ty.Contents (Elt F) := fun y =>
  if (y 1).val = 0 ∧ (∀ e : Fin 16, hotBit (F := F) (C (ix3 (y 0) e (y 2))) = 0#1) then 1#32 else hot (F := F) (C y)

/-- A store of expert row `e ≠ 0` (sixteen lanes at column `t` of slot `b`) writes `Gs C` there. -/
theorem pieceA (C : sS.view.ty.Contents (Elt F)) (b e t : ℕ)
    (inb : ∀ a, (![b, e, t] : Fin 3 → ℕ) a + S1x1x16.size a ≤ S2x16x256.size a)
    (h1 : S1x1x16.ShapeCasts S16) (h2 : S16.ShapeCasts S1x1x16) (he : e ≠ 0)
    (x : (Rect.unit (s := S2x16x256) ![b, e, t] S1x1x16.size inb).shape.Idx) :
    shapeCast S1x1x16 (select (cmpf .ogt (shapeCast S16 (View.readAt (Elt F) sS.view (Rect.unit (s := S2x16x256) ![b, e, t] S1x1x16.size inb).toLoadRect C) h1) (broadcast S16 (Scalar.ofBits .f32 0x00000000#32 : F .f32))) (broadcast S16 1#32) (broadcast S16 0#32) : IVec S16 32) h2 x
      = Gs C ((Rect.unit (s := S2x16x256) ![b, e, t] S1x1x16.size inb).emb x) := by
  refine (Cert.Threshold.store_hot _ h1 h2 x).trans ?_
  unfold Gs
  rw [if_neg]
  · rfl
  · rintro ⟨h0, -⟩
    have e1 : (((Rect.unit (s := S2x16x256) ![b, e, t] S1x1x16.size inb).emb x) 1).val = e + 1 * (x 1).val := rfl
    rw [e1] at h0
    omega

/-- A statement about every one of sixteen rows is the conjunction of the sixteen statements. -/
theorem forall_fin16 (Q : Fin 16 → Prop) :
    (Q ⟨0, by omega⟩ ∧ Q ⟨1, by omega⟩ ∧ Q ⟨2, by omega⟩ ∧ Q ⟨3, by omega⟩ ∧ Q ⟨4, by omega⟩ ∧ Q ⟨5, by omega⟩ ∧ Q ⟨6, by omega⟩ ∧ Q ⟨7, by omega⟩ ∧ Q ⟨8, by omega⟩ ∧ Q ⟨9, by omega⟩ ∧ Q ⟨10, by omega⟩ ∧ Q ⟨11, by omega⟩ ∧ Q ⟨12, by omega⟩ ∧ Q ⟨13, by omega⟩ ∧ Q ⟨14, by omega⟩ ∧ Q ⟨15, by omega⟩) ↔ ∀ e : Fin 16, Q e := by
  constructor
  · rintro ⟨q0, q1, q2, q3, q4, q5, q6, q7, q8, q9, q10, q11, q12, q13, q14, q15⟩ e
    match e with
    | ⟨0, _⟩ => exact q0
    | ⟨1, _⟩ => exact q1
    | ⟨2, _⟩ => exact q2
    | ⟨3, _⟩ => exact q3
    | ⟨4, _⟩ => exact q4
    | ⟨5, _⟩ => exact q5
    | ⟨6, _⟩ => exact q6
    | ⟨7, _⟩ => exact q7
    | ⟨8, _⟩ => exact q8
    | ⟨9, _⟩ => exact q9
    | ⟨10, _⟩ => exact q10
    | ⟨11, _⟩ => exact q11
    | ⟨12, _⟩ => exact q12
    | ⟨13, _⟩ => exact q13
    | ⟨14, _⟩ => exact q14
    | ⟨15, _⟩ => exact q15
    | ⟨n + 16, h⟩ => omega
  · intro H
    exact ⟨H _, H _, H _, H _, H _, H _, H _, H _, H _, H _, H _, H _, H _, H _, H _, H _⟩

/-- The load of sixteen lanes at row `k`, column `t`, slot `b` reads, at a lane, the scratch at row `k` of the same slot
    and column as the row-0 load reads at that lane. -/
theorem row_read (C : sS.view.ty.Contents (Elt F)) (b k t : ℕ) (hk : k < 16)
    (inbk : ∀ a, (![b, k, t] : Fin 3 → ℕ) a + S1x1x16.size a ≤ S2x16x256.size a)
    (inb0 : ∀ a, (![b, 0, t] : Fin 3 → ℕ) a + S1x1x16.size a ≤ S2x16x256.size a)
    (x : S1x1x16.Idx) :
    View.readAt (Elt F) sS.view (Rect.unit (s := S2x16x256) ![b, k, t] S1x1x16.size inbk).toLoadRect C x
      = C (ix3 (((Rect.unit (s := S2x16x256) ![b, 0, t] S1x1x16.size inb0).emb x) 0) ⟨k, hk⟩
          (((Rect.unit (s := S2x16x256) ![b, 0, t] S1x1x16.size inb0).emb x) 2)) := by
  show C ((Rect.unit (s := S2x16x256) ![b, k, t] S1x1x16.size inbk).emb x) = _
  refine congrArg C (funext fun a => Fin.ext ?_)
  match a with
  | ⟨0, _⟩ => rfl
  | ⟨1, _⟩ =>
    show k + 1 * (x 1).val = k
    have h := (x 1).isLt
    change (x 1).val < 1 at h
    omega
  | ⟨2, _⟩ => rfl

/-- The store of expert row 0 writes `Gs C` there: the sixteen loads are the sixteen rows at the same slot and lanes. -/
theorem pieceB (C : sS.view.ty.Contents (Elt F)) (b t : ℕ)
    (inb0 : ∀ a, (![b, 0, t] : Fin 3 → ℕ) a + S1x1x16.size a ≤ S2x16x256.size a)
    (inb1 : ∀ a, (![b, 1, t] : Fin 3 → ℕ) a + S1x1x16.size a ≤ S2x16x256.size a)
    (inb2 : ∀ a, (![b, 2, t] : Fin 3 → ℕ) a + S1x1x16.size a ≤ S2x16x256.size a)
    (inb3 : ∀ a, (![b, 3, t] : Fin 3 → ℕ) a + S1x1x16.size a ≤ S2x16x256.size a)
    (inb4 : ∀ a, (![b, 4, t] : Fin 3 → ℕ) a + S1x1x16.size a ≤ S2x16x256.size a)
    (inb5 : ∀ a, (![b, 5, t] : Fin 3 → ℕ) a + S1x1x16.size a ≤ S2x16x256.size a)
    (inb6 : ∀ a, (![b, 6, t] : Fin 3 → ℕ) a + S1x1x16.size a ≤ S2x16x256.size a)
    (inb7 : ∀ a, (![b, 7, t] : Fin 3 → ℕ) a + S1x1x16.size a ≤ S2x16x256.size a)
    (inb8 : ∀ a, (![b, 8, t] : Fin 3 → ℕ) a + S1x1x16.size a ≤ S2x16x256.size a)
    (inb9 : ∀ a, (![b, 9, t] : Fin 3 → ℕ) a + S1x1x16.size a ≤ S2x16x256.size a)
    (inb10 : ∀ a, (![b, 10, t] : Fin 3 → ℕ) a + S1x1x16.size a ≤ S2x16x256.size a)
    (inb11 : ∀ a, (![b, 11, t] : Fin 3 → ℕ) a + S1x1x16.size a ≤ S2x16x256.size a)
    (inb12 : ∀ a, (![b, 12, t] : Fin 3 → ℕ) a + S1x1x16.size a ≤ S2x16x256.size a)
    (inb13 : ∀ a, (![b, 13, t] : Fin 3 → ℕ) a + S1x1x16.size a ≤ S2x16x256.size a)
    (inb14 : ∀ a, (![b, 14, t] : Fin 3 → ℕ) a + S1x1x16.size a ≤ S2x16x256.size a)
    (inb15 : ∀ a, (![b, 15, t] : Fin 3 → ℕ) a + S1x1x16.size a ≤ S2x16x256.size a)
    (h1 : S1x1x16.ShapeCasts S16) (h2 : S16.ShapeCasts S1x1x16)
    (x : (Rect.unit (s := S2x16x256) ![b, 0, t] S1x1x16.size inb0).shape.Idx) :
    shapeCast S1x1x16 (select (cmpi .eq (addi (addi (addi (addi (addi (addi (addi (addi (addi (addi (addi (addi (addi (addi (addi (select (cmpf .ogt (shapeCast S16 (View.readAt (Elt F) sS.view (Rect.unit (s := S2x16x256) ![b, 0, t] S1x1x16.size inb0).toLoadRect C) h1) (broadcast S16 (Scalar.ofBits .f32 0x00000000#32 : F .f32))) (broadcast S16 1#32) (broadcast S16 0#32) : IVec S16 32) (select (cmpf .ogt (shapeCast S16 (View.readAt (Elt F) sS.view (Rect.unit (s := S2x16x256) ![b, 1, t] S1x1x16.size inb1).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 2, t] S1x1x16.size inb2).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 3, t] S1x1x16.size inb3).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 4, t] S1x1x16.size inb4).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 5, t] S1x1x16.size inb5).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 6, t] S1x1x16.size inb6).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 7, t] S1x1x16.size inb7).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 8, t] S1x1x16.size inb8).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 9, t] S1x1x16.size inb9).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 10, t] S1x1x16.size inb10).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 11, t] S1x1x16.size inb11).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 12, t] S1x1x16.size inb12).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 13, t] S1x1x16.size inb13).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 14, t] S1x1x16.size inb14).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 15, t] S1x1x16.size inb15).toLoadRect C) h1) (broadcast S16 (Scalar.ofBits .f32 0x00000000#32 : F .f32))) (broadcast S16 1#32) (broadcast S16 0#32) : IVec S16 32)) (broadcast S16 0#32)) (broadcast S16 1#32) (select (cmpf .ogt (shapeCast S16 (View.readAt (Elt F) sS.view (Rect.unit (s := S2x16x256) ![b, 0, t] S1x1x16.size inb0).toLoadRect C) h1) (broadcast S16 (Scalar.ofBits .f32 0x00000000#32 : F .f32))) (broadcast S16 1#32) (broadcast S16 0#32) : IVec S16 32)) h2 x
      = Gs C ((Rect.unit (s := S2x16x256) ![b, 0, t] S1x1x16.size inb0).emb x) := by
  refine (Cert.Threshold.store_zero _ _ _ _ _ _ _ _ _ _ _ _ _ _ _ _ h1 h2 x).trans ?_
  unfold Gs
  refine if_congr ?_ rfl rfl
  rw [row_read C b 0 t (by omega) inb0 inb0 x, row_read C b 1 t (by omega) inb1 inb0 x, row_read C b 2 t (by omega) inb2 inb0 x, row_read C b 3 t (by omega) inb3 inb0 x, row_read C b 4 t (by omega) inb4 inb0 x, row_read C b 5 t (by omega) inb5 inb0 x, row_read C b 6 t (by omega) inb6 inb0 x, row_read C b 7 t (by omega) inb7 inb0 x, row_read C b 8 t (by omega) inb8 inb0 x, row_read C b 9 t (by omega) inb9 inb0 x, row_read C b 10 t (by omega) inb10 inb0 x, row_read C b 11 t (by omega) inb11 inb0 x, row_read C b 12 t (by omega) inb12 inb0 x, row_read C b 13 t (by omega) inb13 inb0 x, row_read C b 14 t (by omega) inb14 inb0 x, row_read C b 15 t (by omega) inb15 inb0 x]
  have z : (((Rect.unit (s := S2x16x256) ![b, 0, t] S1x1x16.size inb0).emb x) 1).val = 0 := by
    show 0 + 1 * (x 1).val = 0
    have h := (x 1).isLt
    change (x 1).val < 1 at h
    omega
  refine (forall_fin16 (fun e => hotBit (F := F) (C (ix3 (((Rect.unit (s := S2x16x256) ![b, 0, t] S1x1x16.size inb0).emb x) 0) e (((Rect.unit (s := S2x16x256) ![b, 0, t] S1x1x16.size inb0).emb x) 2))) = 0#1)).trans ?_
  exact ⟨fun H => ⟨z, H⟩, fun H => H.2⟩

/-- Where the `K`-th store of slot `b` (from 0, in program order) goes: lane group `K / 16`; rows 1 … 15, then row 0. -/
def storeOff (b K : ℕ) : ℕ × ℕ × ℕ := (b, (if K % 16 = 15 then 0 else K % 16 + 1), 16 * (K / 16))

/-- A list of 256 unit-stride stores of 1 × 1 × 16 at those places (last store first) covers slot `b`. -/
theorem cover_slot (Lst : List (View.Piece (Elt F) S2x16x256 .i32)) (b : ℕ)
    (h : Lst.map (fun p => ((p.1.off 0, p.1.off 1, p.1.off 2), (p.1.size 0, p.1.size 1, p.1.size 2), (p.1.stride 0, p.1.stride 1, p.1.stride 2)))
        = ((List.range 256).map fun K => (storeOff b K, ((1 : ℕ), (1 : ℕ), (16 : ℕ)), ((1 : ℕ), (1 : ℕ), (1 : ℕ)))).reverse) :
    ∀ y : S2x16x256.Idx, (y 0).val = b → ∃ p ∈ Lst, y ∈ p.1.set := by
  intro y hy
  have hy1 : (y 1).val < 16 := (y 1).isLt
  have hy2 : (y 2).val < 256 := (y 2).isLt
  -- the store that holds `y`: lane group `y 2 / 16`; row `y 1` is store `y 1 - 1` of its group, row 0 the last one
  obtain ⟨K, hK, hKq, hKr⟩ : ∃ K, K < 256 ∧ K / 16 = (y 2).val / 16 ∧
      ((y 1).val = 0 → K % 16 = 15) ∧ ((y 1).val ≠ 0 → K % 16 = (y 1).val - 1) := by
    by_cases h0 : (y 1).val = 0
    · exact ⟨16 * ((y 2).val / 16) + 15, by omega, by omega, fun _ => by omega, fun h => absurd h0 h⟩
    · exact ⟨16 * ((y 2).val / 16) + ((y 1).val - 1), by omega, by omega, fun h => absurd h h0, fun _ => by omega⟩
  have hm : (storeOff b K, ((1 : ℕ), (1 : ℕ), (16 : ℕ)), ((1 : ℕ), (1 : ℕ), (1 : ℕ))) ∈
      Lst.map (fun p => ((p.1.off 0, p.1.off 1, p.1.off 2), (p.1.size 0, p.1.size 1, p.1.size 2), (p.1.stride 0, p.1.stride 1, p.1.stride 2))) := by
    rw [h, List.mem_reverse, List.mem_map]
    exact ⟨K, List.mem_range.2 hK, rfl⟩
  obtain ⟨p, hp, hpe⟩ := List.mem_map.1 hm
  refine ⟨p, hp, ?_⟩
  unfold storeOff at hpe
  simp only [Prod.mk.injEq] at hpe
  obtain ⟨⟨o0, o1, o2⟩, ⟨s0, s1, s2⟩, ⟨t0, t1, t2⟩⟩ := hpe
  rw [LoadRect.mem_set]
  intro a
  match a with
  | ⟨0, _⟩ =>
    refine ⟨0, ?_, ?_⟩
    · show 0 < p.1.size 0
      rw [s0]; exact Nat.one_pos
    · show (y 0).val = p.1.off 0 + p.1.stride 0 * 0
      rw [o0, t0]; omega
  | ⟨1, _⟩ =>
    refine ⟨0, ?_, ?_⟩
    · show 0 < p.1.size 1
      rw [s1]; exact Nat.one_pos
    · show (y 1).val = p.1.off 1 + p.1.stride 1 * 0
      rw [o1, t1]
      by_cases h0 : (y 1).val = 0
      · rw [if_pos (hKr.1 h0)]; omega
      · have := hKr.2 h0
        rw [if_neg (by omega)]; omega
  | ⟨2, _⟩ =>
    refine ⟨(y 2).val % 16, ?_, ?_⟩
    · show (y 2).val % 16 < p.1.size 2
      rw [s2]; omega
    · show (y 2).val = p.1.off 2 + p.1.stride 2 * ((y 2).val % 16)
      rw [o2, t2]; omega

end Cert.Proof.KI

end
-- ==== Proof.IdealSlots.lean ====
/-
  The result scratch after a slot's 256 stores is the slot function `Gs` of the score scratch, wherever the slot is. The
  stores come lane group by lane group, rows 1 … 15 then row 0; read as a list (last store first) every sixteenth is a
  row-0 store and the others are plain rows, each agreeing with `Gs` on its sixteen lanes, and together they cover the slot.
-/
import proofs.«216989_g62371515073183_cont_9to1_m_320_20_alg».proof.Proof.IdealRun0
import proofs.«216989_g62371515073183_cont_9to1_m_320_20_alg».proof.Proof.IdealPieces
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]

/-- One more store on top of a list of stores is the longer list. -/
theorem write_writes (r : Rect S2x16x256) (w : r.shape.Idx → Elt F .i32) (f0 : sO.view.ty.Contents (Elt F)) (Lst : List (View.Piece (Elt F) S2x16x256 .i32)) :
    View.write (Elt F) (sO.access r) (sO.view.writes (Elt F) f0 Lst) w Finset.univ = sO.view.writes (Elt F) f0 (⟨r, w⟩ :: Lst) := rfl

/-- `pieceA`, the slot function's side first. -/
theorem pieceA' (C : sS.view.ty.Contents (Elt F)) (b e t : ℕ)
    (inb : ∀ a, (![b, e, t] : Fin 3 → ℕ) a + S1x1x16.size a ≤ S2x16x256.size a)
    (h1 : S1x1x16.ShapeCasts S16) (h2 : S16.ShapeCasts S1x1x16) (he : e ≠ 0)
    (x : (Rect.unit (s := S2x16x256) ![b, e, t] S1x1x16.size inb).shape.Idx) :
    Gs C ((Rect.unit (s := S2x16x256) ![b, e, t] S1x1x16.size inb).emb x) = shapeCast S1x1x16 (select (cmpf .ogt (shapeCast S16 (View.readAt (Elt F) sS.view (Rect.unit (s := S2x16x256) ![b, e, t] S1x1x16.size inb).toLoadRect C) h1) (broadcast S16 (Scalar.ofBits .f32 0x00000000#32 : F .f32))) (broadcast S16 1#32) (broadcast S16 0#32) : IVec S16 32) h2 x :=
  (pieceA C b e t inb h1 h2 he x).symm

/-- `pieceB`, the slot function's side first. -/
theorem pieceB' (C : sS.view.ty.Contents (Elt F)) (b t : ℕ)
    (inb0 : ∀ a, (![b, 0, t] : Fin 3 → ℕ) a + S1x1x16.size a ≤ S2x16x256.size a)
    (inb1 : ∀ a, (![b, 1, t] : Fin 3 → ℕ) a + S1x1x16.size a ≤ S2x16x256.size a)
    (inb2 : ∀ a, (![b, 2, t] : Fin 3 → ℕ) a + S1x1x16.size a ≤ S2x16x256.size a)
    (inb3 : ∀ a, (![b, 3, t] : Fin 3 → ℕ) a + S1x1x16.size a ≤ S2x16x256.size a)
    (inb4 : ∀ a, (![b, 4, t] : Fin 3 → ℕ) a + S1x1x16.size a ≤ S2x16x256.size a)
    (inb5 : ∀ a, (![b, 5, t] : Fin 3 → ℕ) a + S1x1x16.size a ≤ S2x16x256.size a)
    (inb6 : ∀ a, (![b, 6, t] : Fin 3 → ℕ) a + S1x1x16.size a ≤ S2x16x256.size a)
    (inb7 : ∀ a, (![b, 7, t] : Fin 3 → ℕ) a + S1x1x16.size a ≤ S2x16x256.size a)
    (inb8 : ∀ a, (![b, 8, t] : Fin 3 → ℕ) a + S1x1x16.size a ≤ S2x16x256.size a)
    (inb9 : ∀ a, (![b, 9, t] : Fin 3 → ℕ) a + S1x1x16.size a ≤ S2x16x256.size a)
    (inb10 : ∀ a, (![b, 10, t] : Fin 3 → ℕ) a + S1x1x16.size a ≤ S2x16x256.size a)
    (inb11 : ∀ a, (![b, 11, t] : Fin 3 → ℕ) a + S1x1x16.size a ≤ S2x16x256.size a)
    (inb12 : ∀ a, (![b, 12, t] : Fin 3 → ℕ) a + S1x1x16.size a ≤ S2x16x256.size a)
    (inb13 : ∀ a, (![b, 13, t] : Fin 3 → ℕ) a + S1x1x16.size a ≤ S2x16x256.size a)
    (inb14 : ∀ a, (![b, 14, t] : Fin 3 → ℕ) a + S1x1x16.size a ≤ S2x16x256.size a)
    (inb15 : ∀ a, (![b, 15, t] : Fin 3 → ℕ) a + S1x1x16.size a ≤ S2x16x256.size a)
    (h1 : S1x1x16.ShapeCasts S16) (h2 : S16.ShapeCasts S1x1x16)
    (x : (Rect.unit (s := S2x16x256) ![b, 0, t] S1x1x16.size inb0).shape.Idx) :
    Gs C ((Rect.unit (s := S2x16x256) ![b, 0, t] S1x1x16.size inb0).emb x) = shapeCast S1x1x16 (select (cmpi .eq (addi (addi (addi (addi (addi (addi (addi (addi (addi (addi (addi (addi (addi (addi (addi (select (cmpf .ogt (shapeCast S16 (View.readAt (Elt F) sS.view (Rect.unit (s := S2x16x256) ![b, 0, t] S1x1x16.size inb0).toLoadRect C) h1) (broadcast S16 (Scalar.ofBits .f32 0x00000000#32 : F .f32))) (broadcast S16 1#32) (broadcast S16 0#32) : IVec S16 32) (select (cmpf .ogt (shapeCast S16 (View.readAt (Elt F) sS.view (Rect.unit (s := S2x16x256) ![b, 1, t] S1x1x16.size inb1).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 2, t] S1x1x16.size inb2).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 3, t] S1x1x16.size inb3).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 4, t] S1x1x16.size inb4).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 5, t] S1x1x16.size inb5).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 6, t] S1x1x16.size inb6).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 7, t] S1x1x16.size inb7).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 8, t] S1x1x16.size inb8).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 9, t] S1x1x16.size inb9).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 10, t] S1x1x16.size inb10).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 11, t] S1x1x16.size inb11).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 12, t] S1x1x16.size inb12).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 13, t] S1x1x16.size inb13).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 14, t] S1x1x16.size inb14).toLoadRect C) h1) (broadcast S16 (Scalar.ofBits .f32 0x00000000#32 : F .f32))) (broadcast S16 1#32) (broadcast S16 0#32) : IVec S16 32)) (select (cmpf .ogt (shapeCast S16 (View.readAt (Elt F) sS.view (Rect.unit (s := S2x16x256) ![b, 15, t] S1x1x16.size inb15).toLoadRect C) h1) (broadcast S16 (Scalar.ofBits .f32 0x00000000#32 : F .f32))) (broadcast S16 1#32) (broadcast S16 0#32) : IVec S16 32)) (broadcast S16 0#32)) (broadcast S16 1#32) (select (cmpf .ogt (shapeCast S16 (View.readAt (Elt F) sS.view (Rect.unit (s := S2x16x256) ![b, 0, t] S1x1x16.size inb0).toLoadRect C) h1) (broadcast S16 (Scalar.ofBits .f32 0x00000000#32 : F .f32))) (broadcast S16 1#32) (broadcast S16 0#32) : IVec S16 32)) h2 x :=
  (pieceB C b t inb0 inb1 inb2 inb3 inb4 inb5 inb6 inb7 inb8 inb9 inb10 inb11 inb12 inb13 inb14 inb15 h1 h2 x).symm

set_option maxHeartbeats 1000000 in
theorem step0_1 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w1 d L fx fr = View.write (Elt F) (sO.access (Rect.unit (s := S2x16x256) ![0, 1, 0] S1x1x16.size inb_S2x16x256_S1x1x16_0_1_0)) fr
      (fun x => Gs (sSlot0.view.writes (Elt F) sSlot0.view.junk [⟨Rect.whole S16x256, run0.sl.dma0 d L fx⟩]) ((Rect.unit (s := S2x16x256) ![0, 1, 0] S1x1x16.size inb_S2x16x256_S1x1x16_0_1_0).emb x)) Finset.univ := by
  unfold run0.sl.Hr0_w1
  exact congrArg (fun w => View.write (Elt F) (sO.access (Rect.unit (s := S2x16x256) ![0, 1, 0] S1x1x16.size inb_S2x16x256_S1x1x16_0_1_0)) fr w Finset.univ)
    (funext fun x => (pieceA' _ _ _ _ _ _ _ (by decide) x).symm)

set_option maxHeartbeats 1000000 in
theorem step0_2 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w2 d L fx fr = View.write (Elt F) (sO.access (Rect.unit (s := S2x16x256) ![0, 2, 0] S1x1x16.size inb_S2x16x256_S1x1x16_0_2_0)) (run0.sl.Hr0_w1 d L fx fr)
      (fun x => Gs (sSlot0.view.writes (Elt F) sSlot0.view.junk [⟨Rect.whole S16x256, run0.sl.dma0 d L fx⟩]) ((Rect.unit (s := S2x16x256) ![0, 2, 0] S1x1x16.size inb_S2x16x256_S1x1x16_0_2_0).emb x)) Finset.univ := by
  unfold run0.sl.Hr0_w2
  exact congrArg (fun w => View.write (Elt F) (sO.access (Rect.unit (s := S2x16x256) ![0, 2, 0] S1x1x16.size inb_S2x16x256_S1x1x16_0_2_0)) (run0.sl.Hr0_w1 d L fx fr) w Finset.univ)
    (funext fun x => (pieceA' _ _ _ _ _ _ _ (by decide) x).symm)

set_option maxHeartbeats 1000000 in
theorem step0_3 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w3 d L fx fr = View.write (Elt F) (sO.access (Rect.unit (s := S2x16x256) ![0, 3, 0] S1x1x16.size inb_S2x16x256_S1x1x16_0_3_0)) (run0.sl.Hr0_w2 d L fx fr)
      (fun x => Gs (sSlot0.view.writes (Elt F) sSlot0.view.junk [⟨Rect.whole S16x256, run0.sl.dma0 d L fx⟩]) ((Rect.unit (s := S2x16x256) ![0, 3, 0] S1x1x16.size inb_S2x16x256_S1x1x16_0_3_0).emb x)) Finset.univ := by
  unfold run0.sl.Hr0_w3
  unfold run0.sl.r_2
  exact congrArg (fun w => View.write (Elt F) (sO.access (Rect.unit (s := S2x16x256) ![0, 3, 0] S1x1x16.size inb_S2x16x256_S1x1x16_0_3_0)) (run0.sl.Hr0_w2 d L fx fr) w Finset.univ)
    (funext fun x => (pieceA' _ _ _ _ _ _ _ (by decide) x).symm)

set_option maxHeartbeats 1000000 in
theorem step0_4 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w4 d L fx fr = View.write (Elt F) (sO.access (Rect.unit (s := S2x16x256) ![0, 4, 0] S1x1x16.size inb_S2x16x256_S1x1x16_0_4_0)) (run0.sl.Hr0_w3 d L fx fr)
      (fun x => Gs (sSlot0.view.writes (Elt F) sSlot0.view.junk [⟨Rect.whole S16x256, run0.sl.dma0 d L fx⟩]) ((Rect.unit (s := S2x16x256) ![0, 4, 0] S1x1x16.size inb_S2x16x256_S1x1x16_0_4_0).emb x)) Finset.univ := by
  unfold run0.sl.Hr0_w4
  exact congrArg (fun w => View.write (Elt F) (sO.access (Rect.unit (s := S2x16x256) ![0, 4, 0] S1x1x16.size inb_S2x16x256_S1x1x16_0_4_0)) (run0.sl.Hr0_w3 d L fx fr) w Finset.univ)
    (funext fun x => (pieceA' _ _ _ _ _ _ _ (by decide) x).symm)

set_option maxHeartbeats 1000000 in
theorem step0_5 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w5 d L fx fr = View.write (Elt F) (sO.access (Rect.unit (s := S2x16x256) ![0, 5, 0] S1x1x16.size inb_S2x16x256_S1x1x16_0_5_0)) (run0.sl.Hr0_w4 d L fx fr)
      (fun x => Gs (sSlot0.view.writes (Elt F) sSlot0.view.junk [⟨Rect.whole S16x256, run0.sl.dma0 d L fx⟩]) ((Rect.unit (s := S2x16x256) ![0, 5, 0] S1x1x16.size inb_S2x16x256_S1x1x16_0_5_0).emb x)) Finset.univ := by
  unfold run0.sl.Hr0_w5
  exact congrArg (fun w => View.write (Elt F) (sO.access (Rect.unit (s := S2x16x256) ![0, 5, 0] S1x1x16.size inb_S2x16x256_S1x1x16_0_5_0)) (run0.sl.Hr0_w4 d L fx fr) w Finset.univ)
    (funext fun x => (pieceA' _ _ _ _ _ _ _ (by decide) x).symm)

set_option maxHeartbeats 1000000 in
theorem step0_6 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w6 d L fx fr = View.write (Elt F) (sO.access (Rect.unit (s := S2x16x256) ![0, 6, 0] S1x1x16.size inb_S2x16x256_S1x1x16_0_6_0)) (run0.sl.Hr0_w5 d L fx fr)
      (fun x => Gs (sSlot0.view.writes (Elt F) sSlot0.view.junk [⟨Rect.whole S16x256, run0.sl.dma0 d L fx⟩]) ((Rect.unit (s := S2x16x256) ![0, 6, 0] S1x1x16.size inb_S2x16x256_S1x1x16_0_6_0).emb x)) Finset.univ := by
  unfold run0.sl.Hr0_w6
  unfold run0.sl.r_4
  exact congrArg (fun w => View.write (Elt F) (sO.access (Rect.unit (s := S2x16x256) ![0, 6, 0] S1x1x16.size inb_S2x16x256_S1x1x16_0_6_0)) (run0.sl.Hr0_w5 d L fx fr) w Finset.univ)
    (funext fun x => (pieceA' _ _ _ _ _ _ _ (by decide) x).symm)

set_option maxHeartbeats 1000000 in
theorem step0_7 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w7 d L fx fr = View.write (Elt F) (sO.access (Rect.unit (s := S2x16x256) ![0, 7, 0] S1x1x16.size inb_S2x16x256_S1x1x16_0_7_0)) (run0.sl.Hr0_w6 d L fx fr)
      (fun x => Gs (sSlot0.view.writes (Elt F) sSlot0.view.junk [⟨Rect.whole S16x256, run0.sl.dma0 d L fx⟩]) ((Rect.unit (s := S2x16x256) ![0, 7, 0] S1x1x16.size inb_S2x16x256_S1x1x16_0_7_0).emb x)) Finset.univ := by
  unfold run0.sl.Hr0_w7
  exact congrArg (fun w => View.write (Elt F) (sO.access (Rect.unit (s := S2x16x256) ![0, 7, 0] S1x1x16.size inb_S2x16x256_S1x1x16_0_7_0)) (run0.sl.Hr0_w6 d L fx fr) w Finset.univ)
    (funext fun x => (pieceA' _ _ _ _ _ _ _ (by decide) x).symm)

set_option maxHeartbeats 1000000 in
theorem step0_8 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w8 d L fx fr = View.write (Elt F) (sO.access (Rect.unit (s := S2x16x256) ![0, 8, 0] S1x1x16.size inb_S2x16x256_S1x1x16_0_8_0)) (run0.sl.Hr0_w7 d L fx fr)
      (fun x => Gs (sSlot0.view.writes (Elt F) sSlot0.view.junk [⟨Rect.whole S16x256, run0.sl.dma0 d L fx⟩]) ((Rect.unit (s := S2x16x256) ![0, 8, 0] S1x1x16.size inb_S2x16x256_S1x1x16_0_8_0).emb x)) Finset.univ := by
  unfold run0.sl.Hr0_w8
  exact congrArg (fun w => View.write (Elt F) (sO.access (Rect.unit (s := S2x16x256) ![0, 8, 0] S1x1x16.size inb_S2x16x256_S1x1x16_0_8_0)) (run0.sl.Hr0_w7 d L fx fr) w Finset.univ)
    (funext fun x => (pieceA' _ _ _ _ _ _ _ (by decide) x).symm)

set_option maxHeartbeats 1000000 in
theorem step0_9 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w9 d L fx fr = View.write (Elt F) (sO.access (Rect.unit (s := S2x16x256) ![0, 9, 0] S1x1x16.size inb_S2x16x256_S1x1x16_0_9_0)) (run0.sl.Hr0_w8 d L fx fr)
      (fun x => Gs (sSlot0.view.writes (Elt F) sSlot0.view.junk [⟨Rect.whole S16x256, run0.sl.dma0 d L fx⟩]) ((Rect.unit (s := S2x16x256) ![0, 9, 0] S1x1x16.size inb_S2x16x256_S1x1x16_0_9_0).emb x)) Finset.univ := by
  unfold run0.sl.Hr0_w9
  exact congrArg (fun w => View.write (Elt F) (sO.access (Rect.unit (s := S2x16x256) ![0, 9, 0] S1x1x16.size inb_S2x16x256_S1x1x16_0_9_0)) (run0.sl.Hr0_w8 d L fx fr) w Finset.univ)
    (funext fun x => (pieceA' _ _ _ _ _ _ _ (by decide) x).symm)

set_option maxHeartbeats 1000000 in
theorem step0_10 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w10 d L fx fr = View.write (Elt F) (sO.access (Rect.unit (s := S2x16x256) ![0, 10, 0] S1x1x16.size inb_S2x16x256_S1x1x16_0_10_0)) (run0.sl.Hr0_w9 d L fx fr)
      (fun x => Gs (sSlot0.view.writes (Elt F) sSlot0.view.junk [⟨Rect.whole S16x256, run0.sl.dma0 d L fx⟩]) ((Rect.unit (s := S2x16x256) ![0, 10, 0] S1x1x16.size inb_S2x16x256_S1x1x16_0_10_0).emb x)) Finset.univ := by
  unfold run0.sl.Hr0_w10
  exact congrArg (fun w => View.write (Elt F) (sO.access (Rect.unit (s := S2x16x256) ![0, 10, 0] S1x1x16.size inb_S2x16x256_S1x1x16_0_10_0)) (run0.sl.Hr0_w9 d L fx fr) w Finset.univ)
    (funext fun x => (pieceA' _ _ _ _ _ _ _ (by decide) x).symm)

set_option maxHeartbeats 1000000 in
theorem step0_11 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w11 d L fx fr = View.write (Elt F) (sO.access (Rect.unit (s := S2x16x256) ![0, 11, 0] S1x1x16.size inb_S2x16x256_S1x1x16_0_11_0)) (run0.sl.Hr0_w10 d L fx fr)
      (fun x => Gs (sSlot0.view.writes (Elt F) sSlot0.view.junk [⟨Rect.whole S16x256, run0.sl.dma0 d L fx⟩]) ((Rect.unit (s := S2x16x256) ![0, 11, 0] S1x1x16.size inb_S2x16x256_S1x1x16_0_11_0).emb x)) Finset.univ := by
  unfold run0.sl.Hr0_w11
  exact congrArg (fun w => View.write (Elt F) (sO.access (Rect.unit (s := S2x16x256) ![0, 11, 0] S1x1x16.size inb_S2x16x256_S1x1x16_0_11_0)) (run0.sl.Hr0_w10 d L fx fr) w Finset.univ)
    (funext fun x => (pieceA' _ _ _ _ _ _ _ (by decide) x).symm)

set_option maxHeartbeats 1000000 in
theorem step0_12 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w12 d L fx fr = View.write (Elt F) (sO.access (Rect.unit (s := S2x16x256) ![0, 12, 0] S1x1x16.size inb_S2x16x256_S1x1x16_0_12_0)) (run0.sl.Hr0_w11 d L fx fr)
      (fun x => Gs (sSlot0.view.writes (Elt F) sSlot0.view.junk [⟨Rect.whole S16x256, run0.sl.dma0 d L fx⟩]) ((Rect.unit (s := S2x16x256) ![0, 12, 0] S1x1x16.size inb_S2x16x256_S1x1x16_0_12_0).emb x)) Finset.univ := by
  unfold run0.sl.Hr0_w12
  exact congrArg (fun w => View.write (Elt F) (sO.access (Rect.unit (s := S2x16x256) ![0, 12, 0] S1x1x16.size inb_S2x16x256_S1x1x16_0_12_0)) (run0.sl.Hr0_w11 d L fx fr) w Finset.univ)
    (funext fun x => (pieceA' _ _ _ _ _ _ _ (by decide) x).symm)

set_option maxHeartbeats 1000000 in
theorem step0_13 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w13 d L fx fr = View.write (Elt F) (sO.access (Rect.unit (s := S2x16x256) ![0, 13, 0] S1x1x16.size inb_S2x16x256_S1x1x16_0_13_0)) (run0.sl.Hr0_w12 d L fx fr)
      (fun x => Gs (sSlot0.view.writes (Elt F) sSlot0.view.junk [⟨Rect.whole S16x256, run0.sl.dma0 d L fx⟩]) ((Rect.unit (s := S2x16x256) ![0, 13, 0] S1x1x16.size inb_S2x16x256_S1x1x16_0_13_0).emb x)) Finset.univ := by
  unfold run0.sl.Hr0_w13
  exact congrArg (fun w => View.write (Elt F) (sO.access (Rect.unit (s := S2x16x256) ![0, 13, 0] S1x1x16.size inb_S2x16x256_S1x1x16_0_13_0)) (run0.sl.Hr0_w12 d L fx fr) w Finset.univ)
    (funext fun x => (pieceA' _ _ _ _ _ _ _ (by decide) x).symm)

set_option maxHeartbeats 1000000 in
theorem step0_14 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w14 d L fx fr = View.write (Elt F) (sO.access (Rect.unit (s := S2x16x256) ![0, 14, 0] S1x1x16.size inb_S2x16x256_S1x1x16_0_14_0)) (run0.sl.Hr0_w13 d L fx fr)
      (fun x => Gs (sSlot0.view.writes (Elt F) sSlot0.view.junk [⟨Rect.whole S16x256, run0.sl.dma0 d L fx⟩]) ((Rect.unit (s := S2x16x256) ![0, 14, 0] S1x1x16.size inb_S2x16x256_S1x1x16_0_14_0).emb x)) Finset.univ := by
  unfold run0.sl.Hr0_w14
  unfold run0.sl.r_7
  exact congrArg (fun w => View.write (Elt F) (sO.access (Rect.unit (s := S2x16x256) ![0, 14, 0] S1x1x16.size inb_S2x16x256_S1x1x16_0_14_0)) (run0.sl.Hr0_w13 d L fx fr) w Finset.univ)
    (funext fun x => (pieceA' _ _ _ _ _ _ _ (by decide) x).symm)

set_option maxHeartbeats 1000000 in
theorem step0_15 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w15 d L fx fr = View.write (Elt F) (sO.access (Rect.unit (s := S2x16x256) ![0, 15, 0] S1x1x16.size inb_S2x16x256_S1x1x16_0_15_0)) (run0.sl.Hr0_w14 d L fx fr)
      (fun x => Gs (sSlot0.view.writes (Elt F) sSlot0.view.junk [⟨Rect.whole S16x256, run0.sl.dma0 d L fx⟩]) ((Rect.unit (s := S2x16x256) ![0, 15, 0] S1x1x16.size inb_S2x16x256_S1x1x16_0_15_0).emb x)) Finset.univ := by
  unfold run0.sl.Hr0_w15
  exact congrArg (fun w => View.write (Elt F) (sO.access (Rect.unit (s := S2x16x256) ![0, 15, 0] S1x1x16.size inb_S2x16x256_S1x1x16_0_15_0)) (run0.sl.Hr0_w14 d L fx fr) w Finset.univ)
    (funext fun x => (pieceA' _ _ _ _ _ _ _ (by decide) x).symm)

set_option maxHeartbeats 1000000 in
theorem step0_16 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w16 d L fx fr = View.write (Elt F) (sO.access (Rect.unit (s := S2x16x256) ![0, 0, 0] S1x1x16.size inb_S2x16x256_S1x1x16_0_0_0)) (run0.sl.Hr0_w15 d L fx fr)
      (fun x => Gs (sSlot0.view.writes (Elt F) sSlot0.view.junk [⟨Rect.whole S16x256, run0.sl.dma0 d L fx⟩]) ((Rect.unit (s := S2x16x256) ![0, 0, 0] S1x1x16.size inb_S2x16x256_S1x1x16_0_0_0).emb x)) Finset.univ := by
  unfold run0.sl.Hr0_w16
  unfold run0.sl.r run0.sl.r_8 run0.sl.r_6 run0.sl.r_5 run0.sl.r_3 run0.sl.r_4 run0.sl.r_1 run0.sl.r_2
  exact congrArg (fun w => View.write (Elt F) (sO.access (Rect.unit (s := S2x16x256) ![0, 0, 0] S1x1x16.size inb_S2x16x256_S1x1x16_0_0_0)) (run0.sl.Hr0_w15 d L fx fr) w Finset.univ)
    (funext fun x => (pieceB' (sSlot0.view.writes (Elt F) sSlot0.view.junk [⟨Rect.whole S16x256, run0.sl.dma0 d L fx⟩]) 0 0 inb_S2x16x256_S1x1x16_0_0_0 inb_S2x16x256_S1x1x16_0_1_0 inb_S2x16x256_S1x1x16_0_2_0 inb_S2x16x256_S1x1x16_0_3_0 inb_S2x16x256_S1x1x16_0_4_0 inb_S2x16x256_S1x1x16_0_5_0 inb_S2x16x256_S1x1x16_0_6_0 inb_S2x16x256_S1x1x16_0_7_0 inb_S2x16x256_S1x1x16_0_8_0 inb_S2x16x256_S1x1x16_0_9_0 inb_S2x16x256_S1x1x16_0_10_0 inb_S2x16x256_S1x1x16_0_11_0 inb_S2x16x256_S1x1x16_0_12_0 inb_S2x16x256_S1x1x16_0_13_0 inb_S2x16x256_S1x1x16_0_14_0 inb_S2x16x256_S1x1x16_0_15_0 shapeCasts_S1x1x16_S16 shapeCasts_S16_S1x1x16 x).symm)

set_option maxHeartbeats 1000000 in
theorem step0_17 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w17 d L fx fr = View.write (Elt F) (sO.access (Rect.unit (s := S2x16x256) ![0, 1, 16] S1x1x16.size inb_S2x16x256_S1x1x16_0_1_16)) (run0.sl.Hr0_w16 d L fx fr)
      (fun x => Gs (sSlot0.view.writes (Elt F) sSlot0.view.junk [⟨Rect.whole S16x256, run0.sl.dma0 d L fx⟩]) ((Rect.unit (s := S2x16x256) ![0, 1, 16] S1x1x16.size inb_S2x16x256_S1x1x16_0_1_16).emb x)) Finset.univ := by
  unfold run0.sl.Hr0_w17
  unfold run0.sl.r_10
  exact congrArg (fun w => View.write (Elt F) (sO.access (Rect.unit (s := S2x16x256) ![0, 1, 16] S1x1x16.size inb_S2x16x256_S1x1x16_0_1_16)) (run0.sl.Hr0_w16 d L fx fr) w Finset.univ)
    (funext fun x => (pieceA' _ _ _ _ _ _ _ (by decide) x).symm)

set_option maxHeartbeats 1000000 in
theorem step0_18 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w18 d L fx fr = View.write (Elt F) (sO.access (Rect.unit (s := S2x16x256) ![0, 2, 16] S1x1x16.size inb_S2x16x256_S1x1x16_0_2_16)) (run0.sl.Hr0_w17 d L fx fr)
      (fun x => Gs (sSlot0.view.writes (Elt F) sSlot0.view.junk [⟨Rect.whole S16x256, run0.sl.dma0 d L fx⟩]) ((Rect.unit (s := S2x16x256) ![0, 2, 16] S1x1x16.size inb_S2x16x256_S1x1x16_0_2_16).emb x)) Finset.univ := by
  unfold run0.sl.Hr0_w18
  exact congrArg (fun w => View.write (Elt F) (sO.access (Rect.unit (s := S2x16x256) ![0, 2, 16] S1x1x16.size inb_S2x16x256_S1x1x16_0_2_16)) (run0.sl.Hr0_w17 d L fx fr) w Finset.univ)
    (funext fun x => (pieceA' _ _ _ _ _ _ _ (by decide) x).symm)

set_option maxHeartbeats 1000000 in
theorem step0_19 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w19 d L fx fr = View.write (Elt F) (sO.access (Rect.unit (s := S2x16x256) ![0, 3, 16] S1x1x16.size inb_S2x16x256_S1x1x16_0_3_16)) (run0.sl.Hr0_w18 d L fx fr)
      (fun x => Gs (sSlot0.view.writes (Elt F) sSlot0.view.junk [⟨Rect.whole S16x256, run0.sl.dma0 d L fx⟩]) ((Rect.unit (s := S2x16x256) ![0, 3, 16] S1x1x16.size inb_S2x16x256_S1x1x16_0_3_16).emb x)) Finset.univ := by
  unfold run0.sl.Hr0_w19
  exact congrArg (fun w => View.write (Elt F) (sO.access (Rect.unit (s := S2x16x256) ![0, 3, 16] S1x1x16.size inb_S2x16x256_S1x1x16_0_3_16)) (run0.sl.Hr0_w18 d L fx fr) w Finset.univ)
    (funext fun x => (pieceA' _ _ _ _ _ _ _ (by decide) x).symm)

set_option maxHeartbeats 1000000 in
theorem step0_20 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w20 d L fx fr = View.write (Elt F) (sO.access (Rect.unit (s := S2x16x256) ![0, 4, 16] S1x1x16.size inb_S2x16x256_S1x1x16_0_4_16)) (run0.sl.Hr0_w19 d L fx fr)
      (fun x => Gs (sSlot0.view.writes (Elt F) sSlot0.view.junk [⟨Rect.whole S16x256, run0.sl.dma0 d L fx⟩]) ((Rect.unit (s := S2x16x256) ![0, 4, 16] S1x1x16.size inb_S2x16x256_S1x1x16_0_4_16).emb x)) Finset.univ := by
  unfold run0.sl.Hr0_w20
  unfold run0.sl.r_12
  exact congrArg (fun w => View.write (Elt F) (sO.access (Rect.unit (s := S2x16x256) ![0, 4, 16] S1x1x16.size inb_S2x16x256_S1x1x16_0_4_16)) (run0.sl.Hr0_w19 d L fx fr) w Finset.univ)
    (funext fun x => (pieceA' _ _ _ _ _ _ _ (by decide) x).symm)

set_option maxHeartbeats 1000000 in
theorem step0_21 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w21 d L fx fr = View.write (Elt F) (sO.access (Rect.unit (s := S2x16x256) ![0, 5, 16] S1x1x16.size inb_S2x16x256_S1x1x16_0_5_16)) (run0.sl.Hr0_w20 d L fx fr)
      (fun x => Gs (sSlot0.view.writes (Elt F) sSlot0.view.junk [⟨Rect.whole S16x256, run0.sl.dma0 d L fx⟩]) ((Rect.unit (s := S2x16x256) ![0, 5, 16] S1x1x16.size inb_S2x16x256_S1x1x16_0_5_16).emb x)) Finset.univ := by
  unfold run0.sl.Hr0_w21
  exact congrArg (fun w => View.write (Elt F) (sO.access (Rect.unit (s := S2x16x256) ![0, 5, 16] S1x1x16.size inb_S2x16x256_S1x1x16_0_5_16)) (run0.sl.Hr0_w20 d L fx fr) w Finset.univ)
    (funext fun x => (pieceA' _ _ _ _ _ _ _ (by decide) x).symm)

set_option maxHeartbeats 1000000 in
theorem step0_22 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w22 d L fx fr = View.write (Elt F) (sO.access (Rect.unit (s := S2x16x256) ![0, 6, 16] S1x1x16.size inb_S2x16x256_S1x1x16_0_6_16)) (run0.sl.Hr0_w21 d L fx fr)
      (fun x => Gs (sSlot0.view.writes (Elt F) sSlot0.view.junk [⟨Rect.whole S16x256, run0.sl.dma0 d L fx⟩]) ((Rect.unit (s := S2x16x256) ![0, 6, 16] S1x1x16.size inb_S2x16x256_S1x1x16_0_6_16).emb x)) Finset.univ := by
  unfold run0.sl.Hr0_w22
  exact congrArg (fun w => View.write (Elt F) (sO.access (Rect.unit (s := S2x16x256) ![0, 6, 16] S1x1x16.size inb_S2x16x256_S1x1x16_0_6_16)) (run0.sl.Hr0_w21 d L fx fr) w Finset.univ)
    (funext fun x => (pieceA' _ _ _ _ _ _ _ (by decide) x).symm)

set_option maxHeartbeats 1000000 in
theorem step0_23 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w23 d L fx fr = View.write (Elt F) (sO.access (Rect.unit (s := S2x16x256) ![0, 7, 16] S1x1x16.size inb_S2x16x256_S1x1x16_0_7_16)) (run0.sl.Hr0_w22 d L fx fr)
      (fun x => Gs (sSlot0.view.writes (Elt F) sSlot0.view.junk [⟨Rect.whole S16x256, run0.sl.dma0 d L fx⟩]) ((Rect.unit (s := S2x16x256) ![0, 7, 16] S1x1x16.size inb_S2x16x256_S1x1x16_0_7_16).emb x)) Finset.univ := by
  unfold run0.sl.Hr0_w23
  unfold run0.sl.r_15
  exact congrArg (fun w => View.write (Elt F) (sO.access (Rect.unit (s := S2x16x256) ![0, 7, 16] S1x1x16.size inb_S2x16x256_S1x1x16_0_7_16)) (run0.sl.Hr0_w22 d L fx fr) w Finset.univ)
    (funext fun x => (pieceA' _ _ _ _ _ _ _ (by decide) x).symm)

set_option maxHeartbeats 1000000 in
theorem step0_24 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w24 d L fx fr = View.write (Elt F) (sO.access (Rect.unit (s := S2x16x256) ![0, 8, 16] S1x1x16.size inb_S2x16x256_S1x1x16_0_8_16)) (run0.sl.Hr0_w23 d L fx fr)
      (fun x => Gs (sSlot0.view.writes (Elt F) sSlot0.view.junk [⟨Rect.whole S16x256, run0.sl.dma0 d L fx⟩]) ((Rect.unit (s := S2x16x256) ![0, 8, 16] S1x1x16.size inb_S2x16x256_S1x1x16_0_8_16).emb x)) Finset.univ := by
  unfold run0.sl.Hr0_w24
  exact congrArg (fun w => View.write (Elt F) (sO.access (Rect.unit (s := S2x16x256) ![0, 8, 16] S1x1x16.size inb_S2x16x256_S1x1x16_0_8_16)) (run0.sl.Hr0_w23 d L fx fr) w Finset.univ)
    (funext fun x => (pieceA' _ _ _ _ _ _ _ (by decide) x).symm)

set_option maxHeartbeats 1000000 in
theorem step0_25 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w25 d L fx fr = View.write (Elt F) (sO.access (Rect.unit (s := S2x16x256) ![0, 9, 16] S1x1x16.size inb_S2x16x256_S1x1x16_0_9_16)) (run0.sl.Hr0_w24 d L fx fr)
      (fun x => Gs (sSlot0.view.writes (Elt F) sSlot0.view.junk [⟨Rect.whole S16x256, run0.sl.dma0 d L fx⟩]) ((Rect.unit (s := S2x16x256) ![0, 9, 16] S1x1x16.size inb_S2x16x256_S1x1x16_0_9_16).emb x)) Finset.univ := by
  unfold run0.sl.Hr0_w25
  exact congrArg (fun w => View.write (Elt F) (sO.access (Rect.unit (s := S2x16x256) ![0, 9, 16] S1x1x16.size inb_S2x16x256_S1x1x16_0_9_16)) (run0.sl.Hr0_w24 d L fx fr) w Finset.univ)
    (funext fun x => (pieceA' _ _ _ _ _ _ _ (by decide) x).symm)

set_option maxHeartbeats 1000000 in
theorem step0_26 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w26 d L fx fr = View.write (Elt F) (sO.access (Rect.unit (s := S2x16x256) ![0, 10, 16] S1x1x16.size inb_S2x16x256_S1x1x16_0_10_16)) (run0.sl.Hr0_w25 d L fx fr)
      (fun x => Gs (sSlot0.view.writes (Elt F) sSlot0.view.junk [⟨Rect.whole S16x256, run0.sl.dma0 d L fx⟩]) ((Rect.unit (s := S2x16x256) ![0, 10, 16] S1x1x16.size inb_S2x16x256_S1x1x16_0_10_16).emb x)) Finset.univ := by
  unfold run0.sl.Hr0_w26
  unfold run0.sl.r_17
  exact congrArg (fun w => View.write (Elt F) (sO.access (Rect.unit (s := S2x16x256) ![0, 10, 16] S1x1x16.size inb_S2x16x256_S1x1x16_0_10_16)) (run0.sl.Hr0_w25 d L fx fr) w Finset.univ)
    (funext fun x => (pieceA' _ _ _ _ _ _ _ (by decide) x).symm)

set_option maxHeartbeats 1000000 in
theorem step0_27 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w27 d L fx fr = View.write (Elt F) (sO.access (Rect.unit (s := S2x16x256) ![0, 11, 16] S1x1x16.size inb_S2x16x256_S1x1x16_0_11_16)) (run0.sl.Hr0_w26 d L fx fr)
      (fun x => Gs (sSlot0.view.writes (Elt F) sSlot0.view.junk [⟨Rect.whole S16x256, run0.sl.dma0 d L fx⟩]) ((Rect.unit (s := S2x16x256) ![0, 11, 16] S1x1x16.size inb_S2x16x256_S1x1x16_0_11_16).emb x)) Finset.univ := by
  unfold run0.sl.Hr0_w27
  exact congrArg (fun w => View.write (Elt F) (sO.access (Rect.unit (s := S2x16x256) ![0, 11, 16] S1x1x16.size inb_S2x16x256_S1x1x16_0_11_16)) (run0.sl.Hr0_w26 d L fx fr) w Finset.univ)
    (funext fun x => (pieceA' _ _ _ _ _ _ _ (by decide) x).symm)

set_option maxHeartbeats 1000000 in
theorem step0_28 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w28 d L fx fr = View.write (Elt F) (sO.access (Rect.unit (s := S2x16x256) ![0, 12, 16] S1x1x16.size inb_S2x16x256_S1x1x16_0_12_16)) (run0.sl.Hr0_w27 d L fx fr)
      (fun x => Gs (sSlot0.view.writes (Elt F) sSlot0.view.junk [⟨Rect.whole S16x256, run0.sl.dma0 d L fx⟩]) ((Rect.unit (s := S2x16x256) ![0, 12, 16] S1x1x16.size inb_S2x16x256_S1x1x16_0_12_16).emb x)) Finset.univ := by
  unfold run0.sl.Hr0_w28
  exact congrArg (fun w => View.write (Elt F) (sO.access (Rect.unit (s := S2x16x256) ![0, 12, 16] S1x1x16.size inb_S2x16x256_S1x1x16_0_12_16)) (run0.sl.Hr0_w27 d L fx fr) w Finset.univ)
    (funext fun x => (pieceA' _ _ _ _ _ _ _ (by decide) x).symm)

set_option maxHeartbeats 1000000 in
theorem step0_29 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w29 d L fx fr = View.write (Elt F) (sO.access (Rect.unit (s := S2x16x256) ![0, 13, 16] S1x1x16.size inb_S2x16x256_S1x1x16_0_13_16)) (run0.sl.Hr0_w28 d L fx fr)
      (fun x => Gs (sSlot0.view.writes (Elt F) sSlot0.view.junk [⟨Rect.whole S16x256, run0.sl.dma0 d L fx⟩]) ((Rect.unit (s := S2x16x256) ![0, 13, 16] S1x1x16.size inb_S2x16x256_S1x1x16_0_13_16).emb x)) Finset.univ := by
  unfold run0.sl.Hr0_w29
  exact congrArg (fun w => View.write (Elt F) (sO.access (Rect.unit (s := S2x16x256) ![0, 13, 16] S1x1x16.size inb_S2x16x256_S1x1x16_0_13_16)) (run0.sl.Hr0_w28 d L fx fr) w Finset.univ)
    (funext fun x => (pieceA' _ _ _ _ _ _ _ (by decide) x).symm)

set_option maxHeartbeats 1000000 in
theorem step0_30 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w30 d L fx fr = View.write (Elt F) (sO.access (Rect.unit (s := S2x16x256) ![0, 14, 16] S1x1x16.size inb_S2x16x256_S1x1x16_0_14_16)) (run0.sl.Hr0_w29 d L fx fr)
      (fun x => Gs (sSlot0.view.writes (Elt F) sSlot0.view.junk [⟨Rect.whole S16x256, run0.sl.dma0 d L fx⟩]) ((Rect.unit (s := S2x16x256) ![0, 14, 16] S1x1x16.size inb_S2x16x256_S1x1x16_0_14_16).emb x)) Finset.univ := by
  unfold run0.sl.Hr0_w30
  exact congrArg (fun w => View.write (Elt F) (sO.access (Rect.unit (s := S2x16x256) ![0, 14, 16] S1x1x16.size inb_S2x16x256_S1x1x16_0_14_16)) (run0.sl.Hr0_w29 d L fx fr) w Finset.univ)
    (funext fun x => (pieceA' _ _ _ _ _ _ _ (by decide) x).symm)

set_option maxHeartbeats 1000000 in
theorem step0_31 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w31 d L fx fr = View.write (Elt F) (sO.access (Rect.unit (s := S2x16x256) ![0, 15, 16] S1x1x16.size inb_S2x16x256_S1x1x16_0_15_16)) (run0.sl.Hr0_w30 d L fx fr)
      (fun x => Gs (sSlot0.view.writes (Elt F) sSlot0.view.junk [⟨Rect.whole S16x256, run0.sl.dma0 d L fx⟩]) ((Rect.unit (s := S2x16x256) ![0, 15, 16] S1x1x16.size inb_S2x16x256_S1x1x16_0_15_16).emb x)) Finset.univ := by
  unfold run0.sl.Hr0_w31
  exact congrArg (fun w => View.write (Elt F) (sO.access (Rect.unit (s := S2x16x256) ![0, 15, 16] S1x1x16.size inb_S2x16x256_S1x1x16_0_15_16)) (run0.sl.Hr0_w30 d L fx fr) w Finset.univ)
    (funext fun x => (pieceA' _ _ _ _ _ _ _ (by decide) x).symm)

set_option maxHeartbeats 1000000 in
theorem step0_32 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w32 d L fx fr = View.write (Elt F) (sO.access (Rect.unit (s := S2x16x256) ![0, 0, 16] S1x1x16.size inb_S2x16x256_S1x1x16_0_0_16)) (run0.sl.Hr0_w31 d L fx fr)
      (fun x => Gs (sSlot0.view.writes (Elt F) sSlot0.view.junk [⟨Rect.whole S16x256, run0.sl.dma0 d L fx⟩]) ((Rect.unit (s := S2x16x256) ![0, 0, 16] S1x1x16.size inb_S2x16x256_S1x1x16_0_0_16).emb x)) Finset.univ := by
  unfold run0.sl.Hr0_w32
  unfold run0.sl.r_9 run0.sl.r_19 run0.sl.r_18 run0.sl.r_16 run0.sl.r_17 run0.sl.r_14 run0.sl.r_15 run0.sl.r_13 run0.sl.r_11
  exact congrArg (fun w => View.write (Elt F) (sO.access (Rect.unit (s := S2x16x256) ![0, 0, 16] S1x1x16.size inb_S2x16x256_S1x1x16_0_0_16)) (run0.sl.Hr0_w31 d L fx fr) w Finset.univ)
    (funext fun x => (pieceB' (sSlot0.view.writes (Elt F) sSlot0.view.junk [⟨Rect.whole S16x256, run0.sl.dma0 d L fx⟩]) 0 16 inb_S2x16x256_S1x1x16_0_0_16 inb_S2x16x256_S1x1x16_0_1_16 inb_S2x16x256_S1x1x16_0_2_16 inb_S2x16x256_S1x1x16_0_3_16 inb_S2x16x256_S1x1x16_0_4_16 inb_S2x16x256_S1x1x16_0_5_16 inb_S2x16x256_S1x1x16_0_6_16 inb_S2x16x256_S1x1x16_0_7_16 inb_S2x16x256_S1x1x16_0_8_16 inb_S2x16x256_S1x1x16_0_9_16 inb_S2x16x256_S1x1x16_0_10_16 inb_S2x16x256_S1x1x16_0_11_16 inb_S2x16x256_S1x1x16_0_12_16 inb_S2x16x256_S1x1x16_0_13_16 inb_S2x16x256_S1x1x16_0_14_16 inb_S2x16x256_S1x1x16_0_15_16 shapeCasts_S1x1x16_S16 shapeCasts_S16_S1x1x16 x).symm)

set_option maxHeartbeats 1000000 in
theorem step0_33 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w33 d L fx fr = View.write (Elt F) (sO.access (Rect.unit (s := S2x16x256) ![0, 1, 32] S1x1x16.size inb_S2x16x256_S1x1x16_0_1_32)) (run0.sl.Hr0_w32 d L fx fr)
      (fun x => Gs (sSlot0.view.writes (Elt F) sSlot0.view.junk [⟨Rect.whole S16x256, run0.sl.dma0 d L fx⟩]) ((Rect.unit (s := S2x16x256) ![0, 1, 32] S1x1x16.size inb_S2x16x256_S1x1x16_0_1_32).emb x)) Finset.univ := by
  unfold run0.sl.Hr0_w33
  exact congrArg (fun w => View.write (Elt F) (sO.access (Rect.unit (s := S2x16x256) ![0, 1, 32] S1x1x16.size inb_S2x16x256_S1x1x16_0_1_32)) (run0.sl.Hr0_w32 d L fx fr) w Finset.univ)
    (funext fun x => (pieceA' _ _ _ _ _ _ _ (by decide) x).symm)

set_option maxHeartbeats 1000000 in
theorem step0_34 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w34 d L fx fr = View.write (Elt F) (sO.access (Rect.unit (s := S2x16x256) ![0, 2, 32] S1x1x16.size inb_S2x16x256_S1x1x16_0_2_32)) (run0.sl.Hr0_w33 d L fx fr)
      (fun x => Gs (sSlot0.view.writes (Elt F) sSlot0.view.junk [⟨Rect.whole S16x256, run0.sl.dma0 d L fx⟩]) ((Rect.unit (s := S2x16x256) ![0, 2, 32] S1x1x16.size inb_S2x16x256_S1x1x16_0_2_32).emb x)) Finset.univ := by
  unfold run0.sl.Hr0_w34
  unfold run0.sl.r_21
  exact congrArg (fun w => View.write (Elt F) (sO.access (Rect.unit (s := S2x16x256) ![0, 2, 32] S1x1x16.size inb_S2x16x256_S1x1x16_0_2_32)) (run0.sl.Hr0_w33 d L fx fr) w Finset.univ)
    (funext fun x => (pieceA' _ _ _ _ _ _ _ (by decide) x).symm)

set_option maxHeartbeats 1000000 in
theorem step0_35 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w35 d L fx fr = View.write (Elt F) (sO.access (Rect.unit (s := S2x16x256) ![0, 3, 32] S1x1x16.size inb_S2x16x256_S1x1x16_0_3_32)) (run0.sl.Hr0_w34 d L fx fr)
      (fun x => Gs (sSlot0.view.writes (Elt F) sSlot0.view.junk [⟨Rect.whole S16x256, run0.sl.dma0 d L fx⟩]) ((Rect.unit (s := S2x16x256) ![0, 3, 32] S1x1x16.size inb_S2x16x256_S1x1x16_0_3_32).emb x)) Finset.univ := by
  unfold run0.sl.Hr0_w35
  exact congrArg (fun w => View.write (Elt F) (sO.access (Rect.unit (s := S2x16x256) ![0, 3, 32] S1x1x16.size inb_S2x16x256_S1x1x16_0_3_32)) (run0.sl.Hr0_w34 d L fx fr) w Finset.univ)
    (funext fun x => (pieceA' _ _ _ _ _ _ _ (by decide) x).symm)

set_option maxHeartbeats 1000000 in
theorem step0_36 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w36 d L fx fr = View.write (Elt F) (sO.access (Rect.unit (s := S2x16x256) ![0, 4, 32] S1x1x16.size inb_S2x16x256_S1x1x16_0_4_32)) (run0.sl.Hr0_w35 d L fx fr)
      (fun x => Gs (sSlot0.view.writes (Elt F) sSlot0.view.junk [⟨Rect.whole S16x256, run0.sl.dma0 d L fx⟩]) ((Rect.unit (s := S2x16x256) ![0, 4, 32] S1x1x16.size inb_S2x16x256_S1x1x16_0_4_32).emb x)) Finset.univ := by
  unfold run0.sl.Hr0_w36
  exact congrArg (fun w => View.write (Elt F) (sO.access (Rect.unit (s := S2x16x256) ![0, 4, 32] S1x1x16.size inb_S2x16x256_S1x1x16_0_4_32)) (run0.sl.Hr0_w35 d L fx fr) w Finset.univ)
    (funext fun x => (pieceA' _ _ _ _ _ _ _ (by decide) x).symm)

set_option maxHeartbeats 1000000 in
theorem step0_37 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w37 d L fx fr = View.write (Elt F) (sO.access (Rect.unit (s := S2x16x256) ![0, 5, 32] S1x1x16.size inb_S2x16x256_S1x1x16_0_5_32)) (run0.sl.Hr0_w36 d L fx fr)
      (fun x => Gs (sSlot0.view.writes (Elt F) sSlot0.view.junk [⟨Rect.whole S16x256, run0.sl.dma0 d L fx⟩]) ((Rect.unit (s := S2x16x256) ![0, 5, 32] S1x1x16.size inb_S2x16x256_S1x1x16_0_5_32).emb x)) Finset.univ := by
  unfold run0.sl.Hr0_w37
  unfold run0.sl.r_23
  exact congrArg (fun w => View.write (Elt F) (sO.access (Rect.unit (s := S2x16x256) ![0, 5, 32] S1x1x16.size inb_S2x16x256_S1x1x16_0_5_32)) (run0.sl.Hr0_w36 d L fx fr) w Finset.univ)
    (funext fun x => (pieceA' _ _ _ _ _ _ _ (by decide) x).symm)

set_option maxHeartbeats 1000000 in
theorem step0_38 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w38 d L fx fr = View.write (Elt F) (sO.access (Rect.unit (s := S2x16x256) ![0, 6, 32] S1x1x16.size inb_S2x16x256_S1x1x16_0_6_32)) (run0.sl.Hr0_w37 d L fx fr)
      (fun x => Gs (sSlot0.view.writes (Elt F) sSlot0.view.junk [⟨Rect.whole S16x256, run0.sl.dma0 d L fx⟩]) ((Rect.unit (s := S2x16x256) ![0, 6, 32] S1x1x16.size inb_S2x16x256_S1x1x16_0_6_32).emb x)) Finset.univ := by
  unfold run0.sl.Hr0_w38
  exact congrArg (fun w => View.write (Elt F) (sO.access (Rect.unit (s := S2x16x256) ![0, 6, 32] S1x1x16.size inb_S2x16x256_S1x1x16_0_6_32)) (run0.sl.Hr0_w37 d L fx fr) w Finset.univ)
    (funext fun x => (pieceA' _ _ _ _ _ _ _ (by decide) x).symm)

set_option maxHeartbeats 1000000 in
theorem step0_39 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w39 d L fx fr = View.write (Elt F) (sO.access (Rect.unit (s := S2x16x256) ![0, 7, 32] S1x1x16.size inb_S2x16x256_S1x1x16_0_7_32)) (run0.sl.Hr0_w38 d L fx fr)
      (fun x => Gs (sSlot0.view.writes (Elt F) sSlot0.view.junk [⟨Rect.whole S16x256, run0.sl.dma0 d L fx⟩]) ((Rect.unit (s := S2x16x256) ![0, 7, 32] S1x1x16.size inb_S2x16x256_S1x1x16_0_7_32).emb x)) Finset.univ := by
  unfold run0.sl.Hr0_w39
  exact congrArg (fun w => View.write (Elt F) (sO.access (Rect.unit (s := S2x16x256) ![0, 7, 32] S1x1x16.size inb_S2x16x256_S1x1x16_0_7_32)) (run0.sl.Hr0_w38 d L fx fr) w Finset.univ)
    (funext fun x => (pieceA' _ _ _ _ _ _ _ (by decide) x).symm)

set_option maxHeartbeats 1000000 in
theorem step0_40 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w40 d L fx fr = View.write (Elt F) (sO.access (Rect.unit (s := S2x16x256) ![0, 8, 32] S1x1x16.size inb_S2x16x256_S1x1x16_0_8_32)) (run0.sl.Hr0_w39 d L fx fr)
      (fun x => Gs (sSlot0.view.writes (Elt F) sSlot0.view.junk [⟨Rect.whole S16x256, run0.sl.dma0 d L fx⟩]) ((Rect.unit (s := S2x16x256) ![0, 8, 32] S1x1x16.size inb_S2x16x256_S1x1x16_0_8_32).emb x)) Finset.univ := by
  unfold run0.sl.Hr0_w40
  unfold run0.sl.r_26
  exact congrArg (fun w => View.write (Elt F) (sO.access (Rect.unit (s := S2x16x256) ![0, 8, 32] S1x1x16.size inb_S2x16x256_S1x1x16_0_8_32)) (run0.sl.Hr0_w39 d L fx fr) w Finset.univ)
    (funext fun x => (pieceA' _ _ _ _ _ _ _ (by decide) x).symm)

set_option maxHeartbeats 1000000 in
theorem step0_41 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w41 d L fx fr = View.write (Elt F) (sO.access (Rect.unit (s := S2x16x256) ![0, 9, 32] S1x1x16.size inb_S2x16x256_S1x1x16_0_9_32)) (run0.sl.Hr0_w40 d L fx fr)
      (fun x => Gs (sSlot0.view.writes (Elt F) sSlot0.view.junk [⟨Rect.whole S16x256, run0.sl.dma0 d L fx⟩]) ((Rect.unit (s := S2x16x256) ![0, 9, 32] S1x1x16.size inb_S2x16x256_S1x1x16_0_9_32).emb x)) Finset.univ := by
  unfold run0.sl.Hr0_w41
  exact congrArg (fun w => View.write (Elt F) (sO.access (Rect.unit (s := S2x16x256) ![0, 9, 32] S1x1x16.size inb_S2x16x256_S1x1x16_0_9_32)) (run0.sl.Hr0_w40 d L fx fr) w Finset.univ)
    (funext fun x => (pieceA' _ _ _ _ _ _ _ (by decide) x).symm)

set_option maxHeartbeats 1000000 in
theorem step0_42 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w42 d L fx fr = View.write (Elt F) (sO.access (Rect.unit (s := S2x16x256) ![0, 10, 32] S1x1x16.size inb_S2x16x256_S1x1x16_0_10_32)) (run0.sl.Hr0_w41 d L fx fr)
      (fun x => Gs (sSlot0.view.writes (Elt F) sSlot0.view.junk [⟨Rect.whole S16x256, run0.sl.dma0 d L fx⟩]) ((Rect.unit (s := S2x16x256) ![0, 10, 32] S1x1x16.size inb_S2x16x256_S1x1x16_0_10_32).emb x)) Finset.univ := by
  unfold run0.sl.Hr0_w42
  exact congrArg (fun w => View.write (Elt F) (sO.access (Rect.unit (s := S2x16x256) ![0, 10, 32] S1x1x16.size inb_S2x16x256_S1x1x16_0_10_32)) (run0.sl.Hr0_w41 d L fx fr) w Finset.univ)
    (funext fun x => (pieceA' _ _ _ _ _ _ _ (by decide) x).symm)

set_option maxHeartbeats 1000000 in
theorem step0_43 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w43 d L fx fr = View.write (Elt F) (sO.access (Rect.unit (s := S2x16x256) ![0, 11, 32] S1x1x16.size inb_S2x16x256_S1x1x16_0_11_32)) (run0.sl.Hr0_w42 d L fx fr)
      (fun x => Gs (sSlot0.view.writes (Elt F) sSlot0.view.junk [⟨Rect.whole S16x256, run0.sl.dma0 d L fx⟩]) ((Rect.unit (s := S2x16x256) ![0, 11, 32] S1x1x16.size inb_S2x16x256_S1x1x16_0_11_32).emb x)) Finset.univ := by
  unfold run0.sl.Hr0_w43
  unfold run0.sl.r_28 run0.sl.cst_306
  exact congrArg (fun w => View.write (Elt F) (sO.access (Rect.unit (s := S2x16x256) ![0, 11, 32] S1x1x16.size inb_S2x16x256_S1x1x16_0_11_32)) (run0.sl.Hr0_w42 d L fx fr) w Finset.univ)
    (funext fun x => (pieceA' _ _ _ _ _ _ _ (by decide) x).symm)

set_option maxHeartbeats 1000000 in
theorem step0_44 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w44 d L fx fr = View.write (Elt F) (sO.access (Rect.unit (s := S2x16x256) ![0, 12, 32] S1x1x16.size inb_S2x16x256_S1x1x16_0_12_32)) (run0.sl.Hr0_w43 d L fx fr)
      (fun x => Gs (sSlot0.view.writes (Elt F) sSlot0.view.junk [⟨Rect.whole S16x256, run0.sl.dma0 d L fx⟩]) ((Rect.unit (s := S2x16x256) ![0, 12, 32] S1x1x16.size inb_S2x16x256_S1x1x16_0_12_32).emb x)) Finset.univ := by
  unfold run0.sl.Hr0_w44
  exact congrArg (fun w => View.write (Elt F) (sO.access (Rect.unit (s := S2x16x256) ![0, 12, 32] S1x1x16.size inb_S2x16x256_S1x1x16_0_12_32)) (run0.sl.Hr0_w43 d L fx fr) w Finset.univ)
    (funext fun x => (pieceA' _ _ _ _ _ _ _ (by decide) x).symm)

set_option maxHeartbeats 1000000 in
theorem step0_45 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w45 d L fx fr = View.write (Elt F) (sO.access (Rect.unit (s := S2x16x256) ![0, 13, 32] S1x1x16.size inb_S2x16x256_S1x1x16_0_13_32)) (run0.sl.Hr0_w44 d L fx fr)
      (fun x => Gs (sSlot0.view.writes (Elt F) sSlot0.view.junk [⟨Rect.whole S16x256, run0.sl.dma0 d L fx⟩]) ((Rect.unit (s := S2x16x256) ![0, 13, 32] S1x1x16.size inb_S2x16x256_S1x1x16_0_13_32).emb x)) Finset.univ := by
  unfold run0.sl.Hr0_w45
  exact congrArg (fun w => View.write (Elt F) (sO.access (Rect.unit (s := S2x16x256) ![0, 13, 32] S1x1x16.size inb_S2x16x256_S1x1x16_0_13_32)) (run0.sl.Hr0_w44 d L fx fr) w Finset.univ)
    (funext fun x => (pieceA' _ _ _ _ _ _ _ (by decide) x).symm)

set_option maxHeartbeats 1000000 in
theorem step0_46 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w46 d L fx fr = View.write (Elt F) (sO.access (Rect.unit (s := S2x16x256) ![0, 14, 32] S1x1x16.size inb_S2x16x256_S1x1x16_0_14_32)) (run0.sl.Hr0_w45 d L fx fr)
      (fun x => Gs (sSlot0.view.writes (Elt F) sSlot0.view.junk [⟨Rect.whole S16x256, run0.sl.dma0 d L fx⟩]) ((Rect.unit (s := S2x16x256) ![0, 14, 32] S1x1x16.size inb_S2x16x256_S1x1x16_0_14_32).emb x)) Finset.univ := by
  unfold run0.sl.Hr0_w46
  exact congrArg (fun w => View.write (Elt F) (sO.access (Rect.unit (s := S2x16x256) ![0, 14, 32] S1x1x16.size inb_S2x16x256_S1x1x16_0_14_32)) (run0.sl.Hr0_w45 d L fx fr) w Finset.univ)
    (funext fun x => (pieceA' _ _ _ _ _ _ _ (by decide) x).symm)

set_option maxHeartbeats 1000000 in
theorem step0_47 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w47 d L fx fr = View.write (Elt F) (sO.access (Rect.unit (s := S2x16x256) ![0, 15, 32] S1x1x16.size inb_S2x16x256_S1x1x16_0_15_32)) (run0.sl.Hr0_w46 d L fx fr)
      (fun x => Gs (sSlot0.view.writes (Elt F) sSlot0.view.junk [⟨Rect.whole S16x256, run0.sl.dma0 d L fx⟩]) ((Rect.unit (s := S2x16x256) ![0, 15, 32] S1x1x16.size inb_S2x16x256_S1x1x16_0_15_32).emb x)) Finset.univ := by
  unfold run0.sl.Hr0_w47
  exact congrArg (fun w => View.write (Elt F) (sO.access (Rect.unit (s := S2x16x256) ![0, 15, 32] S1x1x16.size inb_S2x16x256_S1x1x16_0_15_32)) (run0.sl.Hr0_w46 d L fx fr) w Finset.univ)
    (funext fun x => (pieceA' _ _ _ _ _ _ _ (by decide) x).symm)

set_option maxHeartbeats 1000000 in
theorem step0_48 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w48 d L fx fr = View.write (Elt F) (sO.access (Rect.unit (s := S2x16x256) ![0, 0, 32] S1x1x16.size inb_S2x16x256_S1x1x16_0_0_32)) (run0.sl.Hr0_w47 d L fx fr)
      (fun x => Gs (sSlot0.view.writes (Elt F) sSlot0.view.junk [⟨Rect.whole S16x256, run0.sl.dma0 d L fx⟩]) ((Rect.unit (s := S2x16x256) ![0, 0, 32] S1x1x16.size inb_S2x16x256_S1x1x16_0_0_32).emb x)) Finset.univ := by
  unfold run0.sl.Hr0_w48
  unfold run0.sl.r_20 run0.sl.r_29 run0.sl.r_27 run0.sl.r_28 run0.sl.r_25 run0.sl.r_26 run0.sl.r_24 run0.sl.r_22 run0.sl.cst_306
  exact congrArg (fun w => View.write (Elt F) (sO.access (Rect.unit (s := S2x16x256) ![0, 0, 32] S1x1x16.size inb_S2x16x256_S1x1x16_0_0_32)) (run0.sl.Hr0_w47 d L fx fr) w Finset.univ)
    (funext fun x => (pieceB' (sSlot0.view.writes (Elt F) sSlot0.view.junk [⟨Rect.whole S16x256, run0.sl.dma0 d L fx⟩]) 0 32 inb_S2x16x256_S1x1x16_0_0_32 inb_S2x16x256_S1x1x16_0_1_32 inb_S2x16x256_S1x1x16_0_2_32 inb_S2x16x256_S1x1x16_0_3_32 inb_S2x16x256_S1x1x16_0_4_32 inb_S2x16x256_S1x1x16_0_5_32 inb_S2x16x256_S1x1x16_0_6_32 inb_S2x16x256_S1x1x16_0_7_32 inb_S2x16x256_S1x1x16_0_8_32 inb_S2x16x256_S1x1x16_0_9_32 inb_S2x16x256_S1x1x16_0_10_32 inb_S2x16x256_S1x1x16_0_11_32 inb_S2x16x256_S1x1x16_0_12_32 inb_S2x16x256_S1x1x16_0_13_32 inb_S2x16x256_S1x1x16_0_14_32 inb_S2x16x256_S1x1x16_0_15_32 shapeCasts_S1x1x16_S16 shapeCasts_S16_S1x1x16 x).symm)

set_option maxHeartbeats 1000000 in
theorem step0_49 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w49 d L fx fr = View.write (Elt F) (sO.access (Rect.unit (s := S2x16x256) ![0, 1, 48] S1x1x16.size inb_S2x16x256_S1x1x16_0_1_48)) (run0.sl.Hr0_w48 d L fx fr)
      (fun x => Gs (sSlot0.view.writes (Elt F) sSlot0.view.junk [⟨Rect.whole S16x256, run0.sl.dma0 d L fx⟩]) ((Rect.unit (s := S2x16x256) ![0, 1, 48] S1x1x16.size inb_S2x16x256_S1x1x16_0_1_48).emb x)) Finset.univ := by
  unfold run0.sl.Hr0_w49
  exact congrArg (fun w => View.write (Elt F) (sO.access (Rect.unit (s := S2x16x256) ![0, 1, 48] S1x1x16.size inb_S2x16x256_S1x1x16_0_1_48)) (run0.sl.Hr0_w48 d L fx fr) w Finset.univ)
    (funext fun x => (pieceA' _ _ _ _ _ _ _ (by decide) x).symm)

set_option maxHeartbeats 1000000 in
theorem step0_50 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w50 d L fx fr = View.write (Elt F) (sO.access (Rect.unit (s := S2x16x256) ![0, 2, 48] S1x1x16.size inb_S2x16x256_S1x1x16_0_2_48)) (run0.sl.Hr0_w49 d L fx fr)
      (fun x => Gs (sSlot0.view.writes (Elt F) sSlot0.view.junk [⟨Rect.whole S16x256, run0.sl.dma0 d L fx⟩]) ((Rect.unit (s := S2x16x256) ![0, 2, 48] S1x1x16.size inb_S2x16x256_S1x1x16_0_2_48).emb x)) Finset.univ := by
  unfold run0.sl.Hr0_w50
  exact congrArg (fun w => View.write (Elt F) (sO.access (Rect.unit (s := S2x16x256) ![0, 2, 48] S1x1x16.size inb_S2x16x256_S1x1x16_0_2_48)) (run0.sl.Hr0_w49 d L fx fr) w Finset.univ)
    (funext fun x => (pieceA' _ _ _ _ _ _ _ (by decide) x).symm)

set_option maxHeartbeats 1000000 in
theorem step0_51 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w51 d L fx fr = View.write (Elt F) (sO.access (Rect.unit (s := S2x16x256) ![0, 3, 48] S1x1x16.size inb_S2x16x256_S1x1x16_0_3_48)) (run0.sl.Hr0_w50 d L fx fr)
      (fun x => Gs (sSlot0.view.writes (Elt F) sSlot0.view.junk [⟨Rect.whole S16x256, run0.sl.dma0 d L fx⟩]) ((Rect.unit (s := S2x16x256) ![0, 3, 48] S1x1x16.size inb_S2x16x256_S1x1x16_0_3_48).emb x)) Finset.univ := by
  unfold run0.sl.Hr0_w51
  unfold run0.sl.r_31
  exact congrArg (fun w => View.write (Elt F) (sO.access (Rect.unit (s := S2x16x256) ![0, 3, 48] S1x1x16.size inb_S2x16x256_S1x1x16_0_3_48)) (run0.sl.Hr0_w50 d L fx fr) w Finset.univ)
    (funext fun x => (pieceA' _ _ _ _ _ _ _ (by decide) x).symm)

set_option maxHeartbeats 1000000 in
theorem step0_52 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w52 d L fx fr = View.write (Elt F) (sO.access (Rect.unit (s := S2x16x256) ![0, 4, 48] S1x1x16.size inb_S2x16x256_S1x1x16_0_4_48)) (run0.sl.Hr0_w51 d L fx fr)
      (fun x => Gs (sSlot0.view.writes (Elt F) sSlot0.view.junk [⟨Rect.whole S16x256, run0.sl.dma0 d L fx⟩]) ((Rect.unit (s := S2x16x256) ![0, 4, 48] S1x1x16.size inb_S2x16x256_S1x1x16_0_4_48).emb x)) Finset.univ := by
  unfold run0.sl.Hr0_w52
  exact congrArg (fun w => View.write (Elt F) (sO.access (Rect.unit (s := S2x16x256) ![0, 4, 48] S1x1x16.size inb_S2x16x256_S1x1x16_0_4_48)) (run0.sl.Hr0_w51 d L fx fr) w Finset.univ)
    (funext fun x => (pieceA' _ _ _ _ _ _ _ (by decide) x).symm)

set_option maxHeartbeats 1000000 in
theorem step0_53 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w53 d L fx fr = View.write (Elt F) (sO.access (Rect.unit (s := S2x16x256) ![0, 5, 48] S1x1x16.size inb_S2x16x256_S1x1x16_0_5_48)) (run0.sl.Hr0_w52 d L fx fr)
      (fun x => Gs (sSlot0.view.writes (Elt F) sSlot0.view.junk [⟨Rect.whole S16x256, run0.sl.dma0 d L fx⟩]) ((Rect.unit (s := S2x16x256) ![0, 5, 48] S1x1x16.size inb_S2x16x256_S1x1x16_0_5_48).emb x)) Finset.univ := by
  unfold run0.sl.Hr0_w53
  exact congrArg (fun w => View.write (Elt F) (sO.access (Rect.unit (s := S2x16x256) ![0, 5, 48] S1x1x16.size inb_S2x16x256_S1x1x16_0_5_48)) (run0.sl.Hr0_w52 d L fx fr) w Finset.univ)
    (funext fun x => (pieceA' _ _ _ _ _ _ _ (by decide) x).symm)

set_option maxHeartbeats 1000000 in
theorem step0_54 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w54 d L fx fr = View.write (Elt F) (sO.access (Rect.unit (s := S2x16x256) ![0, 6, 48] S1x1x16.size inb_S2x16x256_S1x1x16_0_6_48)) (run0.sl.Hr0_w53 d L fx fr)
      (fun x => Gs (sSlot0.view.writes (Elt F) sSlot0.view.junk [⟨Rect.whole S16x256, run0.sl.dma0 d L fx⟩]) ((Rect.unit (s := S2x16x256) ![0, 6, 48] S1x1x16.size inb_S2x16x256_S1x1x16_0_6_48).emb x)) Finset.univ := by
  unfold run0.sl.Hr0_w54
  unfold run0.sl.r_33
  exact congrArg (fun w => View.write (Elt F) (sO.access (Rect.unit (s := S2x16x256) ![0, 6, 48] S1x1x16.size inb_S2x16x256_S1x1x16_0_6_48)) (run0.sl.Hr0_w53 d L fx fr) w Finset.univ)
    (funext fun x => (pieceA' _ _ _ _ _ _ _ (by decide) x).symm)

set_option maxHeartbeats 1000000 in
theorem step0_55 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w55 d L fx fr = View.write (Elt F) (sO.access (Rect.unit (s := S2x16x256) ![0, 7, 48] S1x1x16.size inb_S2x16x256_S1x1x16_0_7_48)) (run0.sl.Hr0_w54 d L fx fr)
      (fun x => Gs (sSlot0.view.writes (Elt F) sSlot0.view.junk [⟨Rect.whole S16x256, run0.sl.dma0 d L fx⟩]) ((Rect.unit (s := S2x16x256) ![0, 7, 48] S1x1x16.size inb_S2x16x256_S1x1x16_0_7_48).emb x)) Finset.univ := by
  unfold run0.sl.Hr0_w55
  exact congrArg (fun w => View.write (Elt F) (sO.access (Rect.unit (s := S2x16x256) ![0, 7, 48] S1x1x16.size inb_S2x16x256_S1x1x16_0_7_48)) (run0.sl.Hr0_w54 d L fx fr) w Finset.univ)
    (funext fun x => (pieceA' _ _ _ _ _ _ _ (by decide) x).symm)

set_option maxHeartbeats 1000000 in
theorem step0_56 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w56 d L fx fr = View.write (Elt F) (sO.access (Rect.unit (s := S2x16x256) ![0, 8, 48] S1x1x16.size inb_S2x16x256_S1x1x16_0_8_48)) (run0.sl.Hr0_w55 d L fx fr)
      (fun x => Gs (sSlot0.view.writes (Elt F) sSlot0.view.junk [⟨Rect.whole S16x256, run0.sl.dma0 d L fx⟩]) ((Rect.unit (s := S2x16x256) ![0, 8, 48] S1x1x16.size inb_S2x16x256_S1x1x16_0_8_48).emb x)) Finset.univ := by
  unfold run0.sl.Hr0_w56
  exact congrArg (fun w => View.write (Elt F) (sO.access (Rect.unit (s := S2x16x256) ![0, 8, 48] S1x1x16.size inb_S2x16x256_S1x1x16_0_8_48)) (run0.sl.Hr0_w55 d L fx fr) w Finset.univ)
    (funext fun x => (pieceA' _ _ _ _ _ _ _ (by decide) x).symm)

set_option maxHeartbeats 1000000 in
theorem step0_57 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w57 d L fx fr = View.write (Elt F) (sO.access (Rect.unit (s := S2x16x256) ![0, 9, 48] S1x1x16.size inb_S2x16x256_S1x1x16_0_9_48)) (run0.sl.Hr0_w56 d L fx fr)
      (fun x => Gs (sSlot0.view.writes (Elt F) sSlot0.view.junk [⟨Rect.whole S16x256, run0.sl.dma0 d L fx⟩]) ((Rect.unit (s := S2x16x256) ![0, 9, 48] S1x1x16.size inb_S2x16x256_S1x1x16_0_9_48).emb x)) Finset.univ := by
  unfold run0.sl.Hr0_w57
  unfold run0.sl.r_35
  exact congrArg (fun w => View.write (Elt F) (sO.access (Rect.unit (s := S2x16x256) ![0, 9, 48] S1x1x16.size inb_S2x16x256_S1x1x16_0_9_48)) (run0.sl.Hr0_w56 d L fx fr) w Finset.univ)
    (funext fun x => (pieceA' _ _ _ _ _ _ _ (by decide) x).symm)

set_option maxHeartbeats 1000000 in
theorem step0_58 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w58 d L fx fr = View.write (Elt F) (sO.access (Rect.unit (s := S2x16x256) ![0, 10, 48] S1x1x16.size inb_S2x16x256_S1x1x16_0_10_48)) (run0.sl.Hr0_w57 d L fx fr)
      (fun x => Gs (sSlot0.view.writes (Elt F) sSlot0.view.junk [⟨Rect.whole S16x256, run0.sl.dma0 d L fx⟩]) ((Rect.unit (s := S2x16x256) ![0, 10, 48] S1x1x16.size inb_S2x16x256_S1x1x16_0_10_48).emb x)) Finset.univ := by
  unfold run0.sl.Hr0_w58
  exact congrArg (fun w => View.write (Elt F) (sO.access (Rect.unit (s := S2x16x256) ![0, 10, 48] S1x1x16.size inb_S2x16x256_S1x1x16_0_10_48)) (run0.sl.Hr0_w57 d L fx fr) w Finset.univ)
    (funext fun x => (pieceA' _ _ _ _ _ _ _ (by decide) x).symm)

set_option maxHeartbeats 1000000 in
theorem step0_59 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w59 d L fx fr = View.write (Elt F) (sO.access (Rect.unit (s := S2x16x256) ![0, 11, 48] S1x1x16.size inb_S2x16x256_S1x1x16_0_11_48)) (run0.sl.Hr0_w58 d L fx fr)
      (fun x => Gs (sSlot0.view.writes (Elt F) sSlot0.view.junk [⟨Rect.whole S16x256, run0.sl.dma0 d L fx⟩]) ((Rect.unit (s := S2x16x256) ![0, 11, 48] S1x1x16.size inb_S2x16x256_S1x1x16_0_11_48).emb x)) Finset.univ := by
  unfold run0.sl.Hr0_w59
  exact congrArg (fun w => View.write (Elt F) (sO.access (Rect.unit (s := S2x16x256) ![0, 11, 48] S1x1x16.size inb_S2x16x256_S1x1x16_0_11_48)) (run0.sl.Hr0_w58 d L fx fr) w Finset.univ)
    (funext fun x => (pieceA' _ _ _ _ _ _ _ (by decide) x).symm)

set_option maxHeartbeats 1000000 in
theorem step0_60 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w60 d L fx fr = View.write (Elt F) (sO.access (Rect.unit (s := S2x16x256) ![0, 12, 48] S1x1x16.size inb_S2x16x256_S1x1x16_0_12_48)) (run0.sl.Hr0_w59 d L fx fr)
      (fun x => Gs (sSlot0.view.writes (Elt F) sSlot0.view.junk [⟨Rect.whole S16x256, run0.sl.dma0 d L fx⟩]) ((Rect.unit (s := S2x16x256) ![0, 12, 48] S1x1x16.size inb_S2x16x256_S1x1x16_0_12_48).emb x)) Finset.univ := by
  unfold run0.sl.Hr0_w60
  unfold run0.sl.r_38
  exact congrArg (fun w => View.write (Elt F) (sO.access (Rect.unit (s := S2x16x256) ![0, 12, 48] S1x1x16.size inb_S2x16x256_S1x1x16_0_12_48)) (run0.sl.Hr0_w59 d L fx fr) w Finset.univ)
    (funext fun x => (pieceA' _ _ _ _ _ _ _ (by decide) x).symm)

set_option maxHeartbeats 1000000 in
theorem step0_61 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w61 d L fx fr = View.write (Elt F) (sO.access (Rect.unit (s := S2x16x256) ![0, 13, 48] S1x1x16.size inb_S2x16x256_S1x1x16_0_13_48)) (run0.sl.Hr0_w60 d L fx fr)
      (fun x => Gs (sSlot0.view.writes (Elt F) sSlot0.view.junk [⟨Rect.whole S16x256, run0.sl.dma0 d L fx⟩]) ((Rect.unit (s := S2x16x256) ![0, 13, 48] S1x1x16.size inb_S2x16x256_S1x1x16_0_13_48).emb x)) Finset.univ := by
  unfold run0.sl.Hr0_w61
  exact congrArg (fun w => View.write (Elt F) (sO.access (Rect.unit (s := S2x16x256) ![0, 13, 48] S1x1x16.size inb_S2x16x256_S1x1x16_0_13_48)) (run0.sl.Hr0_w60 d L fx fr) w Finset.univ)
    (funext fun x => (pieceA' _ _ _ _ _ _ _ (by decide) x).symm)

set_option maxHeartbeats 1000000 in
theorem step0_62 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w62 d L fx fr = View.write (Elt F) (sO.access (Rect.unit (s := S2x16x256) ![0, 14, 48] S1x1x16.size inb_S2x16x256_S1x1x16_0_14_48)) (run0.sl.Hr0_w61 d L fx fr)
      (fun x => Gs (sSlot0.view.writes (Elt F) sSlot0.view.junk [⟨Rect.whole S16x256, run0.sl.dma0 d L fx⟩]) ((Rect.unit (s := S2x16x256) ![0, 14, 48] S1x1x16.size inb_S2x16x256_S1x1x16_0_14_48).emb x)) Finset.univ := by
  unfold run0.sl.Hr0_w62
  exact congrArg (fun w => View.write (Elt F) (sO.access (Rect.unit (s := S2x16x256) ![0, 14, 48] S1x1x16.size inb_S2x16x256_S1x1x16_0_14_48)) (run0.sl.Hr0_w61 d L fx fr) w Finset.univ)
    (funext fun x => (pieceA' _ _ _ _ _ _ _ (by decide) x).symm)

set_option maxHeartbeats 1000000 in
theorem step0_63 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w63 d L fx fr = View.write (Elt F) (sO.access (Rect.unit (s := S2x16x256) ![0, 15, 48] S1x1x16.size inb_S2x16x256_S1x1x16_0_15_48)) (run0.sl.Hr0_w62 d L fx fr)
      (fun x => Gs (sSlot0.view.writes (Elt F) sSlot0.view.junk [⟨Rect.whole S16x256, run0.sl.dma0 d L fx⟩]) ((Rect.unit (s := S2x16x256) ![0, 15, 48] S1x1x16.size inb_S2x16x256_S1x1x16_0_15_48).emb x)) Finset.univ := by
  unfold run0.sl.Hr0_w63
  unfold run0.sl.r_40
  exact congrArg (fun w => View.write (Elt F) (sO.access (Rect.unit (s := S2x16x256) ![0, 15, 48] S1x1x16.size inb_S2x16x256_S1x1x16_0_15_48)) (run0.sl.Hr0_w62 d L fx fr) w Finset.univ)
    (funext fun x => (pieceA' _ _ _ _ _ _ _ (by decide) x).symm)

set_option maxHeartbeats 1000000 in
theorem step0_64 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w64 d L fx fr = View.write (Elt F) (sO.access (Rect.unit (s := S2x16x256) ![0, 0, 48] S1x1x16.size inb_S2x16x256_S1x1x16_0_0_48)) (run0.sl.Hr0_w63 d L fx fr)
      (fun x => Gs (sSlot0.view.writes (Elt F) sSlot0.view.junk [⟨Rect.whole S16x256, run0.sl.dma0 d L fx⟩]) ((Rect.unit (s := S2x16x256) ![0, 0, 48] S1x1x16.size inb_S2x16x256_S1x1x16_0_0_48).emb x)) Finset.univ := by
  unfold run0.sl.Hr0_w64
  unfold run0.sl.r_30 run0.sl.r_39 run0.sl.r_40 run0.sl.r_37 run0.sl.r_38 run0.sl.r_36 run0.sl.r_34 run0.sl.r_32
  exact congrArg (fun w => View.write (Elt F) (sO.access (Rect.unit (s := S2x16x256) ![0, 0, 48] S1x1x16.size inb_S2x16x256_S1x1x16_0_0_48)) (run0.sl.Hr0_w63 d L fx fr) w Finset.univ)
    (funext fun x => (pieceB' (sSlot0.view.writes (Elt F) sSlot0.view.junk [⟨Rect.whole S16x256, run0.sl.dma0 d L fx⟩]) 0 48 inb_S2x16x256_S1x1x16_0_0_48 inb_S2x16x256_S1x1x16_0_1_48 inb_S2x16x256_S1x1x16_0_2_48 inb_S2x16x256_S1x1x16_0_3_48 inb_S2x16x256_S1x1x16_0_4_48 inb_S2x16x256_S1x1x16_0_5_48 inb_S2x16x256_S1x1x16_0_6_48 inb_S2x16x256_S1x1x16_0_7_48 inb_S2x16x256_S1x1x16_0_8_48 inb_S2x16x256_S1x1x16_0_9_48 inb_S2x16x256_S1x1x16_0_10_48 inb_S2x16x256_S1x1x16_0_11_48 inb_S2x16x256_S1x1x16_0_12_48 inb_S2x16x256_S1x1x16_0_13_48 inb_S2x16x256_S1x1x16_0_14_48 inb_S2x16x256_S1x1x16_0_15_48 shapeCasts_S1x1x16_S16 shapeCasts_S16_S1x1x16 x).symm)

set_option maxHeartbeats 1000000 in
theorem step0_65 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w65 d L fx fr = View.write (Elt F) (sO.access (Rect.unit (s := S2x16x256) ![0, 1, 64] S1x1x16.size inb_S2x16x256_S1x1x16_0_1_64)) (run0.sl.Hr0_w64 d L fx fr)
      (fun x => Gs (sSlot0.view.writes (Elt F) sSlot0.view.junk [⟨Rect.whole S16x256, run0.sl.dma0 d L fx⟩]) ((Rect.unit (s := S2x16x256) ![0, 1, 64] S1x1x16.size inb_S2x16x256_S1x1x16_0_1_64).emb x)) Finset.univ := by
  unfold run0.sl.Hr0_w65
  exact congrArg (fun w => View.write (Elt F) (sO.access (Rect.unit (s := S2x16x256) ![0, 1, 64] S1x1x16.size inb_S2x16x256_S1x1x16_0_1_64)) (run0.sl.Hr0_w64 d L fx fr) w Finset.univ)
    (funext fun x => (pieceA' _ _ _ _ _ _ _ (by decide) x).symm)

set_option maxHeartbeats 1000000 in
theorem step0_66 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w66 d L fx fr = View.write (Elt F) (sO.access (Rect.unit (s := S2x16x256) ![0, 2, 64] S1x1x16.size inb_S2x16x256_S1x1x16_0_2_64)) (run0.sl.Hr0_w65 d L fx fr)
      (fun x => Gs (sSlot0.view.writes (Elt F) sSlot0.view.junk [⟨Rect.whole S16x256, run0.sl.dma0 d L fx⟩]) ((Rect.unit (s := S2x16x256) ![0, 2, 64] S1x1x16.size inb_S2x16x256_S1x1x16_0_2_64).emb x)) Finset.univ := by
  unfold run0.sl.Hr0_w66
  exact congrArg (fun w => View.write (Elt F) (sO.access (Rect.unit (s := S2x16x256) ![0, 2, 64] S1x1x16.size inb_S2x16x256_S1x1x16_0_2_64)) (run0.sl.Hr0_w65 d L fx fr) w Finset.univ)
    (funext fun x => (pieceA' _ _ _ _ _ _ _ (by decide) x).symm)

set_option maxHeartbeats 1000000 in
theorem step0_67 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w67 d L fx fr = View.write (Elt F) (sO.access (Rect.unit (s := S2x16x256) ![0, 3, 64] S1x1x16.size inb_S2x16x256_S1x1x16_0_3_64)) (run0.sl.Hr0_w66 d L fx fr)
      (fun x => Gs (sSlot0.view.writes (Elt F) sSlot0.view.junk [⟨Rect.whole S16x256, run0.sl.dma0 d L fx⟩]) ((Rect.unit (s := S2x16x256) ![0, 3, 64] S1x1x16.size inb_S2x16x256_S1x1x16_0_3_64).emb x)) Finset.univ := by
  unfold run0.sl.Hr0_w67
  exact congrArg (fun w => View.write (Elt F) (sO.access (Rect.unit (s := S2x16x256) ![0, 3, 64] S1x1x16.size inb_S2x16x256_S1x1x16_0_3_64)) (run0.sl.Hr0_w66 d L fx fr) w Finset.univ)
    (funext fun x => (pieceA' _ _ _ _ _ _ _ (by decide) x).symm)

set_option maxHeartbeats 1000000 in
theorem step0_68 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w68 d L fx fr = View.write (Elt F) (sO.access (Rect.unit (s := S2x16x256) ![0, 4, 64] S1x1x16.size inb_S2x16x256_S1x1x16_0_4_64)) (run0.sl.Hr0_w67 d L fx fr)
      (fun x => Gs (sSlot0.view.writes (Elt F) sSlot0.view.junk [⟨Rect.whole S16x256, run0.sl.dma0 d L fx⟩]) ((Rect.unit (s := S2x16x256) ![0, 4, 64] S1x1x16.size inb_S2x16x256_S1x1x16_0_4_64).emb x)) Finset.univ := by
  unfold run0.sl.Hr0_w68
  exact congrArg (fun w => View.write (Elt F) (sO.access (Rect.unit (s := S2x16x256) ![0, 4, 64] S1x1x16.size inb_S2x16x256_S1x1x16_0_4_64)) (run0.sl.Hr0_w67 d L fx fr) w Finset.univ)
    (funext fun x => (pieceA' _ _ _ _ _ _ _ (by decide) x).symm)

set_option maxHeartbeats 1000000 in
theorem step0_69 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w69 d L fx fr = View.write (Elt F) (sO.access (Rect.unit (s := S2x16x256) ![0, 5, 64] S1x1x16.size inb_S2x16x256_S1x1x16_0_5_64)) (run0.sl.Hr0_w68 d L fx fr)
      (fun x => Gs (sSlot0.view.writes (Elt F) sSlot0.view.junk [⟨Rect.whole S16x256, run0.sl.dma0 d L fx⟩]) ((Rect.unit (s := S2x16x256) ![0, 5, 64] S1x1x16.size inb_S2x16x256_S1x1x16_0_5_64).emb x)) Finset.univ := by
  unfold run0.sl.Hr0_w69
  exact congrArg (fun w => View.write (Elt F) (sO.access (Rect.unit (s := S2x16x256) ![0, 5, 64] S1x1x16.size inb_S2x16x256_S1x1x16_0_5_64)) (run0.sl.Hr0_w68 d L fx fr) w Finset.univ)
    (funext fun x => (pieceA' _ _ _ _ _ _ _ (by decide) x).symm)

set_option maxHeartbeats 1000000 in
theorem step0_70 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w70 d L fx fr = View.write (Elt F) (sO.access (Rect.unit (s := S2x16x256) ![0, 6, 64] S1x1x16.size inb_S2x16x256_S1x1x16_0_6_64)) (run0.sl.Hr0_w69 d L fx fr)
      (fun x => Gs (sSlot0.view.writes (Elt F) sSlot0.view.junk [⟨Rect.whole S16x256, run0.sl.dma0 d L fx⟩]) ((Rect.unit (s := S2x16x256) ![0, 6, 64] S1x1x16.size inb_S2x16x256_S1x1x16_0_6_64).emb x)) Finset.univ := by
  unfold run0.sl.Hr0_w70
  exact congrArg (fun w => View.write (Elt F) (sO.access (Rect.unit (s := S2x16x256) ![0, 6, 64] S1x1x16.size inb_S2x16x256_S1x1x16_0_6_64)) (run0.sl.Hr0_w69 d L fx fr) w Finset.univ)
    (funext fun x => (pieceA' _ _ _ _ _ _ _ (by decide) x).symm)

set_option maxHeartbeats 1000000 in
theorem step0_71 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w71 d L fx fr = View.write (Elt F) (sO.access (Rect.unit (s := S2x16x256) ![0, 7, 64] S1x1x16.size inb_S2x16x256_S1x1x16_0_7_64)) (run0.sl.Hr0_w70 d L fx fr)
      (fun x => Gs (sSlot0.view.writes (Elt F) sSlot0.view.junk [⟨Rect.whole S16x256, run0.sl.dma0 d L fx⟩]) ((Rect.unit (s := S2x16x256) ![0, 7, 64] S1x1x16.size inb_S2x16x256_S1x1x16_0_7_64).emb x)) Finset.univ := by
  unfold run0.sl.Hr0_w71
  unfold run0.sl.r_44
  exact congrArg (fun w => View.write (Elt F) (sO.access (Rect.unit (s := S2x16x256) ![0, 7, 64] S1x1x16.size inb_S2x16x256_S1x1x16_0_7_64)) (run0.sl.Hr0_w70 d L fx fr) w Finset.univ)
    (funext fun x => (pieceA' _ _ _ _ _ _ _ (by decide) x).symm)

set_option maxHeartbeats 1000000 in
theorem step0_72 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w72 d L fx fr = View.write (Elt F) (sO.access (Rect.unit (s := S2x16x256) ![0, 8, 64] S1x1x16.size inb_S2x16x256_S1x1x16_0_8_64)) (run0.sl.Hr0_w71 d L fx fr)
      (fun x => Gs (sSlot0.view.writes (Elt F) sSlot0.view.junk [⟨Rect.whole S16x256, run0.sl.dma0 d L fx⟩]) ((Rect.unit (s := S2x16x256) ![0, 8, 64] S1x1x16.size inb_S2x16x256_S1x1x16_0_8_64).emb x)) Finset.univ := by
  unfold run0.sl.Hr0_w72
  exact congrArg (fun w => View.write (Elt F) (sO.access (Rect.unit (s := S2x16x256) ![0, 8, 64] S1x1x16.size inb_S2x16x256_S1x1x16_0_8_64)) (run0.sl.Hr0_w71 d L fx fr) w Finset.univ)
    (funext fun x => (pieceA' _ _ _ _ _ _ _ (by decide) x).symm)

set_option maxHeartbeats 1000000 in
theorem step0_73 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w73 d L fx fr = View.write (Elt F) (sO.access (Rect.unit (s := S2x16x256) ![0, 9, 64] S1x1x16.size inb_S2x16x256_S1x1x16_0_9_64)) (run0.sl.Hr0_w72 d L fx fr)
      (fun x => Gs (sSlot0.view.writes (Elt F) sSlot0.view.junk [⟨Rect.whole S16x256, run0.sl.dma0 d L fx⟩]) ((Rect.unit (s := S2x16x256) ![0, 9, 64] S1x1x16.size inb_S2x16x256_S1x1x16_0_9_64).emb x)) Finset.univ := by
  unfold run0.sl.Hr0_w73
  exact congrArg (fun w => View.write (Elt F) (sO.access (Rect.unit (s := S2x16x256) ![0, 9, 64] S1x1x16.size inb_S2x16x256_S1x1x16_0_9_64)) (run0.sl.Hr0_w72 d L fx fr) w Finset.univ)
    (funext fun x => (pieceA' _ _ _ _ _ _ _ (by decide) x).symm)

set_option maxHeartbeats 1000000 in
theorem step0_74 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w74 d L fx fr = View.write (Elt F) (sO.access (Rect.unit (s := S2x16x256) ![0, 10, 64] S1x1x16.size inb_S2x16x256_S1x1x16_0_10_64)) (run0.sl.Hr0_w73 d L fx fr)
      (fun x => Gs (sSlot0.view.writes (Elt F) sSlot0.view.junk [⟨Rect.whole S16x256, run0.sl.dma0 d L fx⟩]) ((Rect.unit (s := S2x16x256) ![0, 10, 64] S1x1x16.size inb_S2x16x256_S1x1x16_0_10_64).emb x)) Finset.univ := by
  unfold run0.sl.Hr0_w74
  unfold run0.sl.r_47
  exact congrArg (fun w => View.write (Elt F) (sO.access (Rect.unit (s := S2x16x256) ![0, 10, 64] S1x1x16.size inb_S2x16x256_S1x1x16_0_10_64)) (run0.sl.Hr0_w73 d L fx fr) w Finset.univ)
    (funext fun x => (pieceA' _ _ _ _ _ _ _ (by decide) x).symm)

set_option maxHeartbeats 1000000 in
theorem step0_75 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w75 d L fx fr = View.write (Elt F) (sO.access (Rect.unit (s := S2x16x256) ![0, 11, 64] S1x1x16.size inb_S2x16x256_S1x1x16_0_11_64)) (run0.sl.Hr0_w74 d L fx fr)
      (fun x => Gs (sSlot0.view.writes (Elt F) sSlot0.view.junk [⟨Rect.whole S16x256, run0.sl.dma0 d L fx⟩]) ((Rect.unit (s := S2x16x256) ![0, 11, 64] S1x1x16.size inb_S2x16x256_S1x1x16_0_11_64).emb x)) Finset.univ := by
  unfold run0.sl.Hr0_w75
  exact congrArg (fun w => View.write (Elt F) (sO.access (Rect.unit (s := S2x16x256) ![0, 11, 64] S1x1x16.size inb_S2x16x256_S1x1x16_0_11_64)) (run0.sl.Hr0_w74 d L fx fr) w Finset.univ)
    (funext fun x => (pieceA' _ _ _ _ _ _ _ (by decide) x).symm)

set_option maxHeartbeats 1000000 in
theorem step0_76 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w76 d L fx fr = View.write (Elt F) (sO.access (Rect.unit (s := S2x16x256) ![0, 12, 64] S1x1x16.size inb_S2x16x256_S1x1x16_0_12_64)) (run0.sl.Hr0_w75 d L fx fr)
      (fun x => Gs (sSlot0.view.writes (Elt F) sSlot0.view.junk [⟨Rect.whole S16x256, run0.sl.dma0 d L fx⟩]) ((Rect.unit (s := S2x16x256) ![0, 12, 64] S1x1x16.size inb_S2x16x256_S1x1x16_0_12_64).emb x)) Finset.univ := by
  unfold run0.sl.Hr0_w76
  exact congrArg (fun w => View.write (Elt F) (sO.access (Rect.unit (s := S2x16x256) ![0, 12, 64] S1x1x16.size inb_S2x16x256_S1x1x16_0_12_64)) (run0.sl.Hr0_w75 d L fx fr) w Finset.univ)
    (funext fun x => (pieceA' _ _ _ _ _ _ _ (by decide) x).symm)

set_option maxHeartbeats 1000000 in
theorem step0_77 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w77 d L fx fr = View.write (Elt F) (sO.access (Rect.unit (s := S2x16x256) ![0, 13, 64] S1x1x16.size inb_S2x16x256_S1x1x16_0_13_64)) (run0.sl.Hr0_w76 d L fx fr)
      (fun x => Gs (sSlot0.view.writes (Elt F) sSlot0.view.junk [⟨Rect.whole S16x256, run0.sl.dma0 d L fx⟩]) ((Rect.unit (s := S2x16x256) ![0, 13, 64] S1x1x16.size inb_S2x16x256_S1x1x16_0_13_64).emb x)) Finset.univ := by
  unfold run0.sl.Hr0_w77
  unfold run0.sl.r_49
  exact congrArg (fun w => View.write (Elt F) (sO.access (Rect.unit (s := S2x16x256) ![0, 13, 64] S1x1x16.size inb_S2x16x256_S1x1x16_0_13_64)) (run0.sl.Hr0_w76 d L fx fr) w Finset.univ)
    (funext fun x => (pieceA' _ _ _ _ _ _ _ (by decide) x).symm)

set_option maxHeartbeats 1000000 in
theorem step0_78 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w78 d L fx fr = View.write (Elt F) (sO.access (Rect.unit (s := S2x16x256) ![0, 14, 64] S1x1x16.size inb_S2x16x256_S1x1x16_0_14_64)) (run0.sl.Hr0_w77 d L fx fr)
      (fun x => Gs (sSlot0.view.writes (Elt F) sSlot0.view.junk [⟨Rect.whole S16x256, run0.sl.dma0 d L fx⟩]) ((Rect.unit (s := S2x16x256) ![0, 14, 64] S1x1x16.size inb_S2x16x256_S1x1x16_0_14_64).emb x)) Finset.univ := by
  unfold run0.sl.Hr0_w78
  exact congrArg (fun w => View.write (Elt F) (sO.access (Rect.unit (s := S2x16x256) ![0, 14, 64] S1x1x16.size inb_S2x16x256_S1x1x16_0_14_64)) (run0.sl.Hr0_w77 d L fx fr) w Finset.univ)
    (funext fun x => (pieceA' _ _ _ _ _ _ _ (by decide) x).symm)

set_option maxHeartbeats 1000000 in
theorem step0_79 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w79 d L fx fr = View.write (Elt F) (sO.access (Rect.unit (s := S2x16x256) ![0, 15, 64] S1x1x16.size inb_S2x16x256_S1x1x16_0_15_64)) (run0.sl.Hr0_w78 d L fx fr)
      (fun x => Gs (sSlot0.view.writes (Elt F) sSlot0.view.junk [⟨Rect.whole S16x256, run0.sl.dma0 d L fx⟩]) ((Rect.unit (s := S2x16x256) ![0, 15, 64] S1x1x16.size inb_S2x16x256_S1x1x16_0_15_64).emb x)) Finset.univ := by
  unfold run0.sl.Hr0_w79
  exact congrArg (fun w => View.write (Elt F) (sO.access (Rect.unit (s := S2x16x256) ![0, 15, 64] S1x1x16.size inb_S2x16x256_S1x1x16_0_15_64)) (run0.sl.Hr0_w78 d L fx fr) w Finset.univ)
    (funext fun x => (pieceA' _ _ _ _ _ _ _ (by decide) x).symm)

set_option maxHeartbeats 1000000 in
theorem step0_80 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w80 d L fx fr = View.write (Elt F) (sO.access (Rect.unit (s := S2x16x256) ![0, 0, 64] S1x1x16.size inb_S2x16x256_S1x1x16_0_0_64)) (run0.sl.Hr0_w79 d L fx fr)
      (fun x => Gs (sSlot0.view.writes (Elt F) sSlot0.view.junk [⟨Rect.whole S16x256, run0.sl.dma0 d L fx⟩]) ((Rect.unit (s := S2x16x256) ![0, 0, 64] S1x1x16.size inb_S2x16x256_S1x1x16_0_0_64).emb x)) Finset.univ := by
  unfold run0.sl.Hr0_w80
  unfold run0.sl.r_51 run0.sl.r_41 run0.sl.r_50 run0.sl.r_48 run0.sl.r_45 run0.sl.r_43 run0.sl.r_42
  exact congrArg (fun w => View.write (Elt F) (sO.access (Rect.unit (s := S2x16x256) ![0, 0, 64] S1x1x16.size inb_S2x16x256_S1x1x16_0_0_64)) (run0.sl.Hr0_w79 d L fx fr) w Finset.univ)
    (funext fun x => (pieceB' (sSlot0.view.writes (Elt F) sSlot0.view.junk [⟨Rect.whole S16x256, run0.sl.dma0 d L fx⟩]) 0 64 inb_S2x16x256_S1x1x16_0_0_64 inb_S2x16x256_S1x1x16_0_1_64 inb_S2x16x256_S1x1x16_0_2_64 inb_S2x16x256_S1x1x16_0_3_64 inb_S2x16x256_S1x1x16_0_4_64 inb_S2x16x256_S1x1x16_0_5_64 inb_S2x16x256_S1x1x16_0_6_64 inb_S2x16x256_S1x1x16_0_7_64 inb_S2x16x256_S1x1x16_0_8_64 inb_S2x16x256_S1x1x16_0_9_64 inb_S2x16x256_S1x1x16_0_10_64 inb_S2x16x256_S1x1x16_0_11_64 inb_S2x16x256_S1x1x16_0_12_64 inb_S2x16x256_S1x1x16_0_13_64 inb_S2x16x256_S1x1x16_0_14_64 inb_S2x16x256_S1x1x16_0_15_64 shapeCasts_S1x1x16_S16 shapeCasts_S16_S1x1x16 x).symm)

set_option maxHeartbeats 1000000 in
theorem step0_81 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w81 d L fx fr = View.write (Elt F) (sO.access (Rect.unit (s := S2x16x256) ![0, 1, 80] S1x1x16.size inb_S2x16x256_S1x1x16_0_1_80)) (run0.sl.Hr0_w80 d L fx fr)
      (fun x => Gs (sSlot0.view.writes (Elt F) sSlot0.view.junk [⟨Rect.whole S16x256, run0.sl.dma0 d L fx⟩]) ((Rect.unit (s := S2x16x256) ![0, 1, 80] S1x1x16.size inb_S2x16x256_S1x1x16_0_1_80).emb x)) Finset.univ := by
  unfold run0.sl.Hr0_w81
  exact congrArg (fun w => View.write (Elt F) (sO.access (Rect.unit (s := S2x16x256) ![0, 1, 80] S1x1x16.size inb_S2x16x256_S1x1x16_0_1_80)) (run0.sl.Hr0_w80 d L fx fr) w Finset.univ)
    (funext fun x => (pieceA' _ _ _ _ _ _ _ (by decide) x).symm)

set_option maxHeartbeats 1000000 in
theorem step0_82 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w82 d L fx fr = View.write (Elt F) (sO.access (Rect.unit (s := S2x16x256) ![0, 2, 80] S1x1x16.size inb_S2x16x256_S1x1x16_0_2_80)) (run0.sl.Hr0_w81 d L fx fr)
      (fun x => Gs (sSlot0.view.writes (Elt F) sSlot0.view.junk [⟨Rect.whole S16x256, run0.sl.dma0 d L fx⟩]) ((Rect.unit (s := S2x16x256) ![0, 2, 80] S1x1x16.size inb_S2x16x256_S1x1x16_0_2_80).emb x)) Finset.univ := by
  unfold run0.sl.Hr0_w82
  exact congrArg (fun w => View.write (Elt F) (sO.access (Rect.unit (s := S2x16x256) ![0, 2, 80] S1x1x16.size inb_S2x16x256_S1x1x16_0_2_80)) (run0.sl.Hr0_w81 d L fx fr) w Finset.univ)
    (funext fun x => (pieceA' _ _ _ _ _ _ _ (by decide) x).symm)

set_option maxHeartbeats 1000000 in
theorem step0_83 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w83 d L fx fr = View.write (Elt F) (sO.access (Rect.unit (s := S2x16x256) ![0, 3, 80] S1x1x16.size inb_S2x16x256_S1x1x16_0_3_80)) (run0.sl.Hr0_w82 d L fx fr)
      (fun x => Gs (sSlot0.view.writes (Elt F) sSlot0.view.junk [⟨Rect.whole S16x256, run0.sl.dma0 d L fx⟩]) ((Rect.unit (s := S2x16x256) ![0, 3, 80] S1x1x16.size inb_S2x16x256_S1x1x16_0_3_80).emb x)) Finset.univ := by
  unfold run0.sl.Hr0_w83
  exact congrArg (fun w => View.write (Elt F) (sO.access (Rect.unit (s := S2x16x256) ![0, 3, 80] S1x1x16.size inb_S2x16x256_S1x1x16_0_3_80)) (run0.sl.Hr0_w82 d L fx fr) w Finset.univ)
    (funext fun x => (pieceA' _ _ _ _ _ _ _ (by decide) x).symm)

set_option maxHeartbeats 1000000 in
theorem step0_84 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w84 d L fx fr = View.write (Elt F) (sO.access (Rect.unit (s := S2x16x256) ![0, 4, 80] S1x1x16.size inb_S2x16x256_S1x1x16_0_4_80)) (run0.sl.Hr0_w83 d L fx fr)
      (fun x => Gs (sSlot0.view.writes (Elt F) sSlot0.view.junk [⟨Rect.whole S16x256, run0.sl.dma0 d L fx⟩]) ((Rect.unit (s := S2x16x256) ![0, 4, 80] S1x1x16.size inb_S2x16x256_S1x1x16_0_4_80).emb x)) Finset.univ := by
  unfold run0.sl.Hr0_w84
  exact congrArg (fun w => View.write (Elt F) (sO.access (Rect.unit (s := S2x16x256) ![0, 4, 80] S1x1x16.size inb_S2x16x256_S1x1x16_0_4_80)) (run0.sl.Hr0_w83 d L fx fr) w Finset.univ)
    (funext fun x => (pieceA' _ _ _ _ _ _ _ (by decide) x).symm)

set_option maxHeartbeats 1000000 in
theorem step0_85 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w85 d L fx fr = View.write (Elt F) (sO.access (Rect.unit (s := S2x16x256) ![0, 5, 80] S1x1x16.size inb_S2x16x256_S1x1x16_0_5_80)) (run0.sl.Hr0_w84 d L fx fr)
      (fun x => Gs (sSlot0.view.writes (Elt F) sSlot0.view.junk [⟨Rect.whole S16x256, run0.sl.dma0 d L fx⟩]) ((Rect.unit (s := S2x16x256) ![0, 5, 80] S1x1x16.size inb_S2x16x256_S1x1x16_0_5_80).emb x)) Finset.univ := by
  unfold run0.sl.Hr0_w85
  exact congrArg (fun w => View.write (Elt F) (sO.access (Rect.unit (s := S2x16x256) ![0, 5, 80] S1x1x16.size inb_S2x16x256_S1x1x16_0_5_80)) (run0.sl.Hr0_w84 d L fx fr) w Finset.univ)
    (funext fun x => (pieceA' _ _ _ _ _ _ _ (by decide) x).symm)

set_option maxHeartbeats 1000000 in
theorem step0_86 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w86 d L fx fr = View.write (Elt F) (sO.access (Rect.unit (s := S2x16x256) ![0, 6, 80] S1x1x16.size inb_S2x16x256_S1x1x16_0_6_80)) (run0.sl.Hr0_w85 d L fx fr)
      (fun x => Gs (sSlot0.view.writes (Elt F) sSlot0.view.junk [⟨Rect.whole S16x256, run0.sl.dma0 d L fx⟩]) ((Rect.unit (s := S2x16x256) ![0, 6, 80] S1x1x16.size inb_S2x16x256_S1x1x16_0_6_80).emb x)) Finset.univ := by
  unfold run0.sl.Hr0_w86
  exact congrArg (fun w => View.write (Elt F) (sO.access (Rect.unit (s := S2x16x256) ![0, 6, 80] S1x1x16.size inb_S2x16x256_S1x1x16_0_6_80)) (run0.sl.Hr0_w85 d L fx fr) w Finset.univ)
    (funext fun x => (pieceA' _ _ _ _ _ _ _ (by decide) x).symm)

set_option maxHeartbeats 1000000 in
theorem step0_87 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w87 d L fx fr = View.write (Elt F) (sO.access (Rect.unit (s := S2x16x256) ![0, 7, 80] S1x1x16.size inb_S2x16x256_S1x1x16_0_7_80)) (run0.sl.Hr0_w86 d L fx fr)
      (fun x => Gs (sSlot0.view.writes (Elt F) sSlot0.view.junk [⟨Rect.whole S16x256, run0.sl.dma0 d L fx⟩]) ((Rect.unit (s := S2x16x256) ![0, 7, 80] S1x1x16.size inb_S2x16x256_S1x1x16_0_7_80).emb x)) Finset.univ := by
  unfold run0.sl.Hr0_w87
  exact congrArg (fun w => View.write (Elt F) (sO.access (Rect.unit (s := S2x16x256) ![0, 7, 80] S1x1x16.size inb_S2x16x256_S1x1x16_0_7_80)) (run0.sl.Hr0_w86 d L fx fr) w Finset.univ)
    (funext fun x => (pieceA' _ _ _ _ _ _ _ (by decide) x).symm)

set_option maxHeartbeats 1000000 in
theorem step0_88 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w88 d L fx fr = View.write (Elt F) (sO.access (Rect.unit (s := S2x16x256) ![0, 8, 80] S1x1x16.size inb_S2x16x256_S1x1x16_0_8_80)) (run0.sl.Hr0_w87 d L fx fr)
      (fun x => Gs (sSlot0.view.writes (Elt F) sSlot0.view.junk [⟨Rect.whole S16x256, run0.sl.dma0 d L fx⟩]) ((Rect.unit (s := S2x16x256) ![0, 8, 80] S1x1x16.size inb_S2x16x256_S1x1x16_0_8_80).emb x)) Finset.univ := by
  unfold run0.sl.Hr0_w88
  unfold run0.sl.r_56
  exact congrArg (fun w => View.write (Elt F) (sO.access (Rect.unit (s := S2x16x256) ![0, 8, 80] S1x1x16.size inb_S2x16x256_S1x1x16_0_8_80)) (run0.sl.Hr0_w87 d L fx fr) w Finset.univ)
    (funext fun x => (pieceA' _ _ _ _ _ _ _ (by decide) x).symm)

set_option maxHeartbeats 1000000 in
theorem step0_89 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w89 d L fx fr = View.write (Elt F) (sO.access (Rect.unit (s := S2x16x256) ![0, 9, 80] S1x1x16.size inb_S2x16x256_S1x1x16_0_9_80)) (run0.sl.Hr0_w88 d L fx fr)
      (fun x => Gs (sSlot0.view.writes (Elt F) sSlot0.view.junk [⟨Rect.whole S16x256, run0.sl.dma0 d L fx⟩]) ((Rect.unit (s := S2x16x256) ![0, 9, 80] S1x1x16.size inb_S2x16x256_S1x1x16_0_9_80).emb x)) Finset.univ := by
  unfold run0.sl.Hr0_w89
  exact congrArg (fun w => View.write (Elt F) (sO.access (Rect.unit (s := S2x16x256) ![0, 9, 80] S1x1x16.size inb_S2x16x256_S1x1x16_0_9_80)) (run0.sl.Hr0_w88 d L fx fr) w Finset.univ)
    (funext fun x => (pieceA' _ _ _ _ _ _ _ (by decide) x).symm)

set_option maxHeartbeats 1000000 in
theorem step0_90 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w90 d L fx fr = View.write (Elt F) (sO.access (Rect.unit (s := S2x16x256) ![0, 10, 80] S1x1x16.size inb_S2x16x256_S1x1x16_0_10_80)) (run0.sl.Hr0_w89 d L fx fr)
      (fun x => Gs (sSlot0.view.writes (Elt F) sSlot0.view.junk [⟨Rect.whole S16x256, run0.sl.dma0 d L fx⟩]) ((Rect.unit (s := S2x16x256) ![0, 10, 80] S1x1x16.size inb_S2x16x256_S1x1x16_0_10_80).emb x)) Finset.univ := by
  unfold run0.sl.Hr0_w90
  exact congrArg (fun w => View.write (Elt F) (sO.access (Rect.unit (s := S2x16x256) ![0, 10, 80] S1x1x16.size inb_S2x16x256_S1x1x16_0_10_80)) (run0.sl.Hr0_w89 d L fx fr) w Finset.univ)
    (funext fun x => (pieceA' _ _ _ _ _ _ _ (by decide) x).symm)

set_option maxHeartbeats 1000000 in
theorem step0_91 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w91 d L fx fr = View.write (Elt F) (sO.access (Rect.unit (s := S2x16x256) ![0, 11, 80] S1x1x16.size inb_S2x16x256_S1x1x16_0_11_80)) (run0.sl.Hr0_w90 d L fx fr)
      (fun x => Gs (sSlot0.view.writes (Elt F) sSlot0.view.junk [⟨Rect.whole S16x256, run0.sl.dma0 d L fx⟩]) ((Rect.unit (s := S2x16x256) ![0, 11, 80] S1x1x16.size inb_S2x16x256_S1x1x16_0_11_80).emb x)) Finset.univ := by
  unfold run0.sl.Hr0_w91
  unfold run0.sl.r_57
  exact congrArg (fun w => View.write (Elt F) (sO.access (Rect.unit (s := S2x16x256) ![0, 11, 80] S1x1x16.size inb_S2x16x256_S1x1x16_0_11_80)) (run0.sl.Hr0_w90 d L fx fr) w Finset.univ)
    (funext fun x => (pieceA' _ _ _ _ _ _ _ (by decide) x).symm)

set_option maxHeartbeats 1000000 in
theorem step0_92 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w92 d L fx fr = View.write (Elt F) (sO.access (Rect.unit (s := S2x16x256) ![0, 12, 80] S1x1x16.size inb_S2x16x256_S1x1x16_0_12_80)) (run0.sl.Hr0_w91 d L fx fr)
      (fun x => Gs (sSlot0.view.writes (Elt F) sSlot0.view.junk [⟨Rect.whole S16x256, run0.sl.dma0 d L fx⟩]) ((Rect.unit (s := S2x16x256) ![0, 12, 80] S1x1x16.size inb_S2x16x256_S1x1x16_0_12_80).emb x)) Finset.univ := by
  unfold run0.sl.Hr0_w92
  exact congrArg (fun w => View.write (Elt F) (sO.access (Rect.unit (s := S2x16x256) ![0, 12, 80] S1x1x16.size inb_S2x16x256_S1x1x16_0_12_80)) (run0.sl.Hr0_w91 d L fx fr) w Finset.univ)
    (funext fun x => (pieceA' _ _ _ _ _ _ _ (by decide) x).symm)

set_option maxHeartbeats 1000000 in
theorem step0_93 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w93 d L fx fr = View.write (Elt F) (sO.access (Rect.unit (s := S2x16x256) ![0, 13, 80] S1x1x16.size inb_S2x16x256_S1x1x16_0_13_80)) (run0.sl.Hr0_w92 d L fx fr)
      (fun x => Gs (sSlot0.view.writes (Elt F) sSlot0.view.junk [⟨Rect.whole S16x256, run0.sl.dma0 d L fx⟩]) ((Rect.unit (s := S2x16x256) ![0, 13, 80] S1x1x16.size inb_S2x16x256_S1x1x16_0_13_80).emb x)) Finset.univ := by
  unfold run0.sl.Hr0_w93
  exact congrArg (fun w => View.write (Elt F) (sO.access (Rect.unit (s := S2x16x256) ![0, 13, 80] S1x1x16.size inb_S2x16x256_S1x1x16_0_13_80)) (run0.sl.Hr0_w92 d L fx fr) w Finset.univ)
    (funext fun x => (pieceA' _ _ _ _ _ _ _ (by decide) x).symm)

set_option maxHeartbeats 1000000 in
theorem step0_94 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w94 d L fx fr = View.write (Elt F) (sO.access (Rect.unit (s := S2x16x256) ![0, 14, 80] S1x1x16.size inb_S2x16x256_S1x1x16_0_14_80)) (run0.sl.Hr0_w93 d L fx fr)
      (fun x => Gs (sSlot0.view.writes (Elt F) sSlot0.view.junk [⟨Rect.whole S16x256, run0.sl.dma0 d L fx⟩]) ((Rect.unit (s := S2x16x256) ![0, 14, 80] S1x1x16.size inb_S2x16x256_S1x1x16_0_14_80).emb x)) Finset.univ := by
  unfold run0.sl.Hr0_w94
  unfold run0.sl.r_59
  exact congrArg (fun w => View.write (Elt F) (sO.access (Rect.unit (s := S2x16x256) ![0, 14, 80] S1x1x16.size inb_S2x16x256_S1x1x16_0_14_80)) (run0.sl.Hr0_w93 d L fx fr) w Finset.univ)
    (funext fun x => (pieceA' _ _ _ _ _ _ _ (by decide) x).symm)

set_option maxHeartbeats 1000000 in
theorem step0_95 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w95 d L fx fr = View.write (Elt F) (sO.access (Rect.unit (s := S2x16x256) ![0, 15, 80] S1x1x16.size inb_S2x16x256_S1x1x16_0_15_80)) (run0.sl.Hr0_w94 d L fx fr)
      (fun x => Gs (sSlot0.view.writes (Elt F) sSlot0.view.junk [⟨Rect.whole S16x256, run0.sl.dma0 d L fx⟩]) ((Rect.unit (s := S2x16x256) ![0, 15, 80] S1x1x16.size inb_S2x16x256_S1x1x16_0_15_80).emb x)) Finset.univ := by
  unfold run0.sl.Hr0_w95
  exact congrArg (fun w => View.write (Elt F) (sO.access (Rect.unit (s := S2x16x256) ![0, 15, 80] S1x1x16.size inb_S2x16x256_S1x1x16_0_15_80)) (run0.sl.Hr0_w94 d L fx fr) w Finset.univ)
    (funext fun x => (pieceA' _ _ _ _ _ _ _ (by decide) x).symm)

set_option maxHeartbeats 1000000 in
theorem step0_96 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w96 d L fx fr = View.write (Elt F) (sO.access (Rect.unit (s := S2x16x256) ![0, 0, 80] S1x1x16.size inb_S2x16x256_S1x1x16_0_0_80)) (run0.sl.Hr0_w95 d L fx fr)
      (fun x => Gs (sSlot0.view.writes (Elt F) sSlot0.view.junk [⟨Rect.whole S16x256, run0.sl.dma0 d L fx⟩]) ((Rect.unit (s := S2x16x256) ![0, 0, 80] S1x1x16.size inb_S2x16x256_S1x1x16_0_0_80).emb x)) Finset.univ := by
  unfold run0.sl.Hr0_w96
  unfold run0.sl.r_52 run0.sl.r_60 run0.sl.r_58 run0.sl.r_55 run0.sl.r_54 run0.sl.r_53
  exact congrArg (fun w => View.write (Elt F) (sO.access (Rect.unit (s := S2x16x256) ![0, 0, 80] S1x1x16.size inb_S2x16x256_S1x1x16_0_0_80)) (run0.sl.Hr0_w95 d L fx fr) w Finset.univ)
    (funext fun x => (pieceB' (sSlot0.view.writes (Elt F) sSlot0.view.junk [⟨Rect.whole S16x256, run0.sl.dma0 d L fx⟩]) 0 80 inb_S2x16x256_S1x1x16_0_0_80 inb_S2x16x256_S1x1x16_0_1_80 inb_S2x16x256_S1x1x16_0_2_80 inb_S2x16x256_S1x1x16_0_3_80 inb_S2x16x256_S1x1x16_0_4_80 inb_S2x16x256_S1x1x16_0_5_80 inb_S2x16x256_S1x1x16_0_6_80 inb_S2x16x256_S1x1x16_0_7_80 inb_S2x16x256_S1x1x16_0_8_80 inb_S2x16x256_S1x1x16_0_9_80 inb_S2x16x256_S1x1x16_0_10_80 inb_S2x16x256_S1x1x16_0_11_80 inb_S2x16x256_S1x1x16_0_12_80 inb_S2x16x256_S1x1x16_0_13_80 inb_S2x16x256_S1x1x16_0_14_80 inb_S2x16x256_S1x1x16_0_15_80 shapeCasts_S1x1x16_S16 shapeCasts_S16_S1x1x16 x).symm)

set_option maxHeartbeats 1000000 in
theorem step0_97 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w97 d L fx fr = View.write (Elt F) (sO.access (Rect.unit (s := S2x16x256) ![0, 1, 96] S1x1x16.size inb_S2x16x256_S1x1x16_0_1_96)) (run0.sl.Hr0_w96 d L fx fr)
      (fun x => Gs (sSlot0.view.writes (Elt F) sSlot0.view.junk [⟨Rect.whole S16x256, run0.sl.dma0 d L fx⟩]) ((Rect.unit (s := S2x16x256) ![0, 1, 96] S1x1x16.size inb_S2x16x256_S1x1x16_0_1_96).emb x)) Finset.univ := by
  unfold run0.sl.Hr0_w97
  unfold run0.sl.r_62
  exact congrArg (fun w => View.write (Elt F) (sO.access (Rect.unit (s := S2x16x256) ![0, 1, 96] S1x1x16.size inb_S2x16x256_S1x1x16_0_1_96)) (run0.sl.Hr0_w96 d L fx fr) w Finset.univ)
    (funext fun x => (pieceA' _ _ _ _ _ _ _ (by decide) x).symm)

set_option maxHeartbeats 1000000 in
theorem step0_98 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w98 d L fx fr = View.write (Elt F) (sO.access (Rect.unit (s := S2x16x256) ![0, 2, 96] S1x1x16.size inb_S2x16x256_S1x1x16_0_2_96)) (run0.sl.Hr0_w97 d L fx fr)
      (fun x => Gs (sSlot0.view.writes (Elt F) sSlot0.view.junk [⟨Rect.whole S16x256, run0.sl.dma0 d L fx⟩]) ((Rect.unit (s := S2x16x256) ![0, 2, 96] S1x1x16.size inb_S2x16x256_S1x1x16_0_2_96).emb x)) Finset.univ := by
  unfold run0.sl.Hr0_w98
  exact congrArg (fun w => View.write (Elt F) (sO.access (Rect.unit (s := S2x16x256) ![0, 2, 96] S1x1x16.size inb_S2x16x256_S1x1x16_0_2_96)) (run0.sl.Hr0_w97 d L fx fr) w Finset.univ)
    (funext fun x => (pieceA' _ _ _ _ _ _ _ (by decide) x).symm)

set_option maxHeartbeats 1000000 in
theorem step0_99 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w99 d L fx fr = View.write (Elt F) (sO.access (Rect.unit (s := S2x16x256) ![0, 3, 96] S1x1x16.size inb_S2x16x256_S1x1x16_0_3_96)) (run0.sl.Hr0_w98 d L fx fr)
      (fun x => Gs (sSlot0.view.writes (Elt F) sSlot0.view.junk [⟨Rect.whole S16x256, run0.sl.dma0 d L fx⟩]) ((Rect.unit (s := S2x16x256) ![0, 3, 96] S1x1x16.size inb_S2x16x256_S1x1x16_0_3_96).emb x)) Finset.univ := by
  unfold run0.sl.Hr0_w99
  exact congrArg (fun w => View.write (Elt F) (sO.access (Rect.unit (s := S2x16x256) ![0, 3, 96] S1x1x16.size inb_S2x16x256_S1x1x16_0_3_96)) (run0.sl.Hr0_w98 d L fx fr) w Finset.univ)
    (funext fun x => (pieceA' _ _ _ _ _ _ _ (by decide) x).symm)

set_option maxHeartbeats 1000000 in
theorem step0_100 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w100 d L fx fr = View.write (Elt F) (sO.access (Rect.unit (s := S2x16x256) ![0, 4, 96] S1x1x16.size inb_S2x16x256_S1x1x16_0_4_96)) (run0.sl.Hr0_w99 d L fx fr)
      (fun x => Gs (sSlot0.view.writes (Elt F) sSlot0.view.junk [⟨Rect.whole S16x256, run0.sl.dma0 d L fx⟩]) ((Rect.unit (s := S2x16x256) ![0, 4, 96] S1x1x16.size inb_S2x16x256_S1x1x16_0_4_96).emb x)) Finset.univ := by
  unfold run0.sl.Hr0_w100
  unfold run0.sl.r_64
  exact congrArg (fun w => View.write (Elt F) (sO.access (Rect.unit (s := S2x16x256) ![0, 4, 96] S1x1x16.size inb_S2x16x256_S1x1x16_0_4_96)) (run0.sl.Hr0_w99 d L fx fr) w Finset.univ)
    (funext fun x => (pieceA' _ _ _ _ _ _ _ (by decide) x).symm)

set_option maxHeartbeats 1000000 in
theorem step0_101 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w101 d L fx fr = View.write (Elt F) (sO.access (Rect.unit (s := S2x16x256) ![0, 5, 96] S1x1x16.size inb_S2x16x256_S1x1x16_0_5_96)) (run0.sl.Hr0_w100 d L fx fr)
      (fun x => Gs (sSlot0.view.writes (Elt F) sSlot0.view.junk [⟨Rect.whole S16x256, run0.sl.dma0 d L fx⟩]) ((Rect.unit (s := S2x16x256) ![0, 5, 96] S1x1x16.size inb_S2x16x256_S1x1x16_0_5_96).emb x)) Finset.univ := by
  unfold run0.sl.Hr0_w101
  exact congrArg (fun w => View.write (Elt F) (sO.access (Rect.unit (s := S2x16x256) ![0, 5, 96] S1x1x16.size inb_S2x16x256_S1x1x16_0_5_96)) (run0.sl.Hr0_w100 d L fx fr) w Finset.univ)
    (funext fun x => (pieceA' _ _ _ _ _ _ _ (by decide) x).symm)

set_option maxHeartbeats 1000000 in
theorem step0_102 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w102 d L fx fr = View.write (Elt F) (sO.access (Rect.unit (s := S2x16x256) ![0, 6, 96] S1x1x16.size inb_S2x16x256_S1x1x16_0_6_96)) (run0.sl.Hr0_w101 d L fx fr)
      (fun x => Gs (sSlot0.view.writes (Elt F) sSlot0.view.junk [⟨Rect.whole S16x256, run0.sl.dma0 d L fx⟩]) ((Rect.unit (s := S2x16x256) ![0, 6, 96] S1x1x16.size inb_S2x16x256_S1x1x16_0_6_96).emb x)) Finset.univ := by
  unfold run0.sl.Hr0_w102
  exact congrArg (fun w => View.write (Elt F) (sO.access (Rect.unit (s := S2x16x256) ![0, 6, 96] S1x1x16.size inb_S2x16x256_S1x1x16_0_6_96)) (run0.sl.Hr0_w101 d L fx fr) w Finset.univ)
    (funext fun x => (pieceA' _ _ _ _ _ _ _ (by decide) x).symm)

set_option maxHeartbeats 1000000 in
theorem step0_103 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w103 d L fx fr = View.write (Elt F) (sO.access (Rect.unit (s := S2x16x256) ![0, 7, 96] S1x1x16.size inb_S2x16x256_S1x1x16_0_7_96)) (run0.sl.Hr0_w102 d L fx fr)
      (fun x => Gs (sSlot0.view.writes (Elt F) sSlot0.view.junk [⟨Rect.whole S16x256, run0.sl.dma0 d L fx⟩]) ((Rect.unit (s := S2x16x256) ![0, 7, 96] S1x1x16.size inb_S2x16x256_S1x1x16_0_7_96).emb x)) Finset.univ := by
  unfold run0.sl.Hr0_w103
  exact congrArg (fun w => View.write (Elt F) (sO.access (Rect.unit (s := S2x16x256) ![0, 7, 96] S1x1x16.size inb_S2x16x256_S1x1x16_0_7_96)) (run0.sl.Hr0_w102 d L fx fr) w Finset.univ)
    (funext fun x => (pieceA' _ _ _ _ _ _ _ (by decide) x).symm)

set_option maxHeartbeats 1000000 in
theorem step0_104 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w104 d L fx fr = View.write (Elt F) (sO.access (Rect.unit (s := S2x16x256) ![0, 8, 96] S1x1x16.size inb_S2x16x256_S1x1x16_0_8_96)) (run0.sl.Hr0_w103 d L fx fr)
      (fun x => Gs (sSlot0.view.writes (Elt F) sSlot0.view.junk [⟨Rect.whole S16x256, run0.sl.dma0 d L fx⟩]) ((Rect.unit (s := S2x16x256) ![0, 8, 96] S1x1x16.size inb_S2x16x256_S1x1x16_0_8_96).emb x)) Finset.univ := by
  unfold run0.sl.Hr0_w104
  exact congrArg (fun w => View.write (Elt F) (sO.access (Rect.unit (s := S2x16x256) ![0, 8, 96] S1x1x16.size inb_S2x16x256_S1x1x16_0_8_96)) (run0.sl.Hr0_w103 d L fx fr) w Finset.univ)
    (funext fun x => (pieceA' _ _ _ _ _ _ _ (by decide) x).symm)

set_option maxHeartbeats 1000000 in
theorem step0_105 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w105 d L fx fr = View.write (Elt F) (sO.access (Rect.unit (s := S2x16x256) ![0, 9, 96] S1x1x16.size inb_S2x16x256_S1x1x16_0_9_96)) (run0.sl.Hr0_w104 d L fx fr)
      (fun x => Gs (sSlot0.view.writes (Elt F) sSlot0.view.junk [⟨Rect.whole S16x256, run0.sl.dma0 d L fx⟩]) ((Rect.unit (s := S2x16x256) ![0, 9, 96] S1x1x16.size inb_S2x16x256_S1x1x16_0_9_96).emb x)) Finset.univ := by
  unfold run0.sl.Hr0_w105
  exact congrArg (fun w => View.write (Elt F) (sO.access (Rect.unit (s := S2x16x256) ![0, 9, 96] S1x1x16.size inb_S2x16x256_S1x1x16_0_9_96)) (run0.sl.Hr0_w104 d L fx fr) w Finset.univ)
    (funext fun x => (pieceA' _ _ _ _ _ _ _ (by decide) x).symm)

set_option maxHeartbeats 1000000 in
theorem step0_106 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w106 d L fx fr = View.write (Elt F) (sO.access (Rect.unit (s := S2x16x256) ![0, 10, 96] S1x1x16.size inb_S2x16x256_S1x1x16_0_10_96)) (run0.sl.Hr0_w105 d L fx fr)
      (fun x => Gs (sSlot0.view.writes (Elt F) sSlot0.view.junk [⟨Rect.whole S16x256, run0.sl.dma0 d L fx⟩]) ((Rect.unit (s := S2x16x256) ![0, 10, 96] S1x1x16.size inb_S2x16x256_S1x1x16_0_10_96).emb x)) Finset.univ := by
  unfold run0.sl.Hr0_w106
  exact congrArg (fun w => View.write (Elt F) (sO.access (Rect.unit (s := S2x16x256) ![0, 10, 96] S1x1x16.size inb_S2x16x256_S1x1x16_0_10_96)) (run0.sl.Hr0_w105 d L fx fr) w Finset.univ)
    (funext fun x => (pieceA' _ _ _ _ _ _ _ (by decide) x).symm)

set_option maxHeartbeats 1000000 in
theorem step0_107 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w107 d L fx fr = View.write (Elt F) (sO.access (Rect.unit (s := S2x16x256) ![0, 11, 96] S1x1x16.size inb_S2x16x256_S1x1x16_0_11_96)) (run0.sl.Hr0_w106 d L fx fr)
      (fun x => Gs (sSlot0.view.writes (Elt F) sSlot0.view.junk [⟨Rect.whole S16x256, run0.sl.dma0 d L fx⟩]) ((Rect.unit (s := S2x16x256) ![0, 11, 96] S1x1x16.size inb_S2x16x256_S1x1x16_0_11_96).emb x)) Finset.univ := by
  unfold run0.sl.Hr0_w107
  exact congrArg (fun w => View.write (Elt F) (sO.access (Rect.unit (s := S2x16x256) ![0, 11, 96] S1x1x16.size inb_S2x16x256_S1x1x16_0_11_96)) (run0.sl.Hr0_w106 d L fx fr) w Finset.univ)
    (funext fun x => (pieceA' _ _ _ _ _ _ _ (by decide) x).symm)

set_option maxHeartbeats 1000000 in
theorem step0_108 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w108 d L fx fr = View.write (Elt F) (sO.access (Rect.unit (s := S2x16x256) ![0, 12, 96] S1x1x16.size inb_S2x16x256_S1x1x16_0_12_96)) (run0.sl.Hr0_w107 d L fx fr)
      (fun x => Gs (sSlot0.view.writes (Elt F) sSlot0.view.junk [⟨Rect.whole S16x256, run0.sl.dma0 d L fx⟩]) ((Rect.unit (s := S2x16x256) ![0, 12, 96] S1x1x16.size inb_S2x16x256_S1x1x16_0_12_96).emb x)) Finset.univ := by
  unfold run0.sl.Hr0_w108
  unfold run0.sl.r_67
  exact congrArg (fun w => View.write (Elt F) (sO.access (Rect.unit (s := S2x16x256) ![0, 12, 96] S1x1x16.size inb_S2x16x256_S1x1x16_0_12_96)) (run0.sl.Hr0_w107 d L fx fr) w Finset.univ)
    (funext fun x => (pieceA' _ _ _ _ _ _ _ (by decide) x).symm)

set_option maxHeartbeats 1000000 in
theorem step0_109 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w109 d L fx fr = View.write (Elt F) (sO.access (Rect.unit (s := S2x16x256) ![0, 13, 96] S1x1x16.size inb_S2x16x256_S1x1x16_0_13_96)) (run0.sl.Hr0_w108 d L fx fr)
      (fun x => Gs (sSlot0.view.writes (Elt F) sSlot0.view.junk [⟨Rect.whole S16x256, run0.sl.dma0 d L fx⟩]) ((Rect.unit (s := S2x16x256) ![0, 13, 96] S1x1x16.size inb_S2x16x256_S1x1x16_0_13_96).emb x)) Finset.univ := by
  unfold run0.sl.Hr0_w109
  exact congrArg (fun w => View.write (Elt F) (sO.access (Rect.unit (s := S2x16x256) ![0, 13, 96] S1x1x16.size inb_S2x16x256_S1x1x16_0_13_96)) (run0.sl.Hr0_w108 d L fx fr) w Finset.univ)
    (funext fun x => (pieceA' _ _ _ _ _ _ _ (by decide) x).symm)

set_option maxHeartbeats 1000000 in
theorem step0_110 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w110 d L fx fr = View.write (Elt F) (sO.access (Rect.unit (s := S2x16x256) ![0, 14, 96] S1x1x16.size inb_S2x16x256_S1x1x16_0_14_96)) (run0.sl.Hr0_w109 d L fx fr)
      (fun x => Gs (sSlot0.view.writes (Elt F) sSlot0.view.junk [⟨Rect.whole S16x256, run0.sl.dma0 d L fx⟩]) ((Rect.unit (s := S2x16x256) ![0, 14, 96] S1x1x16.size inb_S2x16x256_S1x1x16_0_14_96).emb x)) Finset.univ := by
  unfold run0.sl.Hr0_w110
  exact congrArg (fun w => View.write (Elt F) (sO.access (Rect.unit (s := S2x16x256) ![0, 14, 96] S1x1x16.size inb_S2x16x256_S1x1x16_0_14_96)) (run0.sl.Hr0_w109 d L fx fr) w Finset.univ)
    (funext fun x => (pieceA' _ _ _ _ _ _ _ (by decide) x).symm)

set_option maxHeartbeats 1000000 in
theorem step0_111 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w111 d L fx fr = View.write (Elt F) (sO.access (Rect.unit (s := S2x16x256) ![0, 15, 96] S1x1x16.size inb_S2x16x256_S1x1x16_0_15_96)) (run0.sl.Hr0_w110 d L fx fr)
      (fun x => Gs (sSlot0.view.writes (Elt F) sSlot0.view.junk [⟨Rect.whole S16x256, run0.sl.dma0 d L fx⟩]) ((Rect.unit (s := S2x16x256) ![0, 15, 96] S1x1x16.size inb_S2x16x256_S1x1x16_0_15_96).emb x)) Finset.univ := by
  unfold run0.sl.Hr0_w111
  unfold run0.sl.r_69
  exact congrArg (fun w => View.write (Elt F) (sO.access (Rect.unit (s := S2x16x256) ![0, 15, 96] S1x1x16.size inb_S2x16x256_S1x1x16_0_15_96)) (run0.sl.Hr0_w110 d L fx fr) w Finset.univ)
    (funext fun x => (pieceA' _ _ _ _ _ _ _ (by decide) x).symm)

set_option maxHeartbeats 1000000 in
theorem step0_112 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w112 d L fx fr = View.write (Elt F) (sO.access (Rect.unit (s := S2x16x256) ![0, 0, 96] S1x1x16.size inb_S2x16x256_S1x1x16_0_0_96)) (run0.sl.Hr0_w111 d L fx fr)
      (fun x => Gs (sSlot0.view.writes (Elt F) sSlot0.view.junk [⟨Rect.whole S16x256, run0.sl.dma0 d L fx⟩]) ((Rect.unit (s := S2x16x256) ![0, 0, 96] S1x1x16.size inb_S2x16x256_S1x1x16_0_0_96).emb x)) Finset.univ := by
  unfold run0.sl.Hr0_w112
  unfold run0.sl.r_61 run0.sl.r_70 run0.sl.r_68 run0.sl.r_66 run0.sl.r_65 run0.sl.r_63 run0.sl.r_64 run0.sl.r_62
  exact congrArg (fun w => View.write (Elt F) (sO.access (Rect.unit (s := S2x16x256) ![0, 0, 96] S1x1x16.size inb_S2x16x256_S1x1x16_0_0_96)) (run0.sl.Hr0_w111 d L fx fr) w Finset.univ)
    (funext fun x => (pieceB' (sSlot0.view.writes (Elt F) sSlot0.view.junk [⟨Rect.whole S16x256, run0.sl.dma0 d L fx⟩]) 0 96 inb_S2x16x256_S1x1x16_0_0_96 inb_S2x16x256_S1x1x16_0_1_96 inb_S2x16x256_S1x1x16_0_2_96 inb_S2x16x256_S1x1x16_0_3_96 inb_S2x16x256_S1x1x16_0_4_96 inb_S2x16x256_S1x1x16_0_5_96 inb_S2x16x256_S1x1x16_0_6_96 inb_S2x16x256_S1x1x16_0_7_96 inb_S2x16x256_S1x1x16_0_8_96 inb_S2x16x256_S1x1x16_0_9_96 inb_S2x16x256_S1x1x16_0_10_96 inb_S2x16x256_S1x1x16_0_11_96 inb_S2x16x256_S1x1x16_0_12_96 inb_S2x16x256_S1x1x16_0_13_96 inb_S2x16x256_S1x1x16_0_14_96 inb_S2x16x256_S1x1x16_0_15_96 shapeCasts_S1x1x16_S16 shapeCasts_S16_S1x1x16 x).symm)

set_option maxHeartbeats 1000000 in
theorem step0_113 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w113 d L fx fr = View.write (Elt F) (sO.access (Rect.unit (s := S2x16x256) ![0, 1, 112] S1x1x16.size inb_S2x16x256_S1x1x16_0_1_112)) (run0.sl.Hr0_w112 d L fx fr)
      (fun x => Gs (sSlot0.view.writes (Elt F) sSlot0.view.junk [⟨Rect.whole S16x256, run0.sl.dma0 d L fx⟩]) ((Rect.unit (s := S2x16x256) ![0, 1, 112] S1x1x16.size inb_S2x16x256_S1x1x16_0_1_112).emb x)) Finset.univ := by
  unfold run0.sl.Hr0_w113
  exact congrArg (fun w => View.write (Elt F) (sO.access (Rect.unit (s := S2x16x256) ![0, 1, 112] S1x1x16.size inb_S2x16x256_S1x1x16_0_1_112)) (run0.sl.Hr0_w112 d L fx fr) w Finset.univ)
    (funext fun x => (pieceA' _ _ _ _ _ _ _ (by decide) x).symm)

set_option maxHeartbeats 1000000 in
theorem step0_114 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w114 d L fx fr = View.write (Elt F) (sO.access (Rect.unit (s := S2x16x256) ![0, 2, 112] S1x1x16.size inb_S2x16x256_S1x1x16_0_2_112)) (run0.sl.Hr0_w113 d L fx fr)
      (fun x => Gs (sSlot0.view.writes (Elt F) sSlot0.view.junk [⟨Rect.whole S16x256, run0.sl.dma0 d L fx⟩]) ((Rect.unit (s := S2x16x256) ![0, 2, 112] S1x1x16.size inb_S2x16x256_S1x1x16_0_2_112).emb x)) Finset.univ := by
  unfold run0.sl.Hr0_w114
  unfold run0.sl.r_72
  exact congrArg (fun w => View.write (Elt F) (sO.access (Rect.unit (s := S2x16x256) ![0, 2, 112] S1x1x16.size inb_S2x16x256_S1x1x16_0_2_112)) (run0.sl.Hr0_w113 d L fx fr) w Finset.univ)
    (funext fun x => (pieceA' _ _ _ _ _ _ _ (by decide) x).symm)

set_option maxHeartbeats 1000000 in
theorem step0_115 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w115 d L fx fr = View.write (Elt F) (sO.access (Rect.unit (s := S2x16x256) ![0, 3, 112] S1x1x16.size inb_S2x16x256_S1x1x16_0_3_112)) (run0.sl.Hr0_w114 d L fx fr)
      (fun x => Gs (sSlot0.view.writes (Elt F) sSlot0.view.junk [⟨Rect.whole S16x256, run0.sl.dma0 d L fx⟩]) ((Rect.unit (s := S2x16x256) ![0, 3, 112] S1x1x16.size inb_S2x16x256_S1x1x16_0_3_112).emb x)) Finset.univ := by
  unfold run0.sl.Hr0_w115
  exact congrArg (fun w => View.write (Elt F) (sO.access (Rect.unit (s := S2x16x256) ![0, 3, 112] S1x1x16.size inb_S2x16x256_S1x1x16_0_3_112)) (run0.sl.Hr0_w114 d L fx fr) w Finset.univ)
    (funext fun x => (pieceA' _ _ _ _ _ _ _ (by decide) x).symm)

set_option maxHeartbeats 1000000 in
theorem step0_116 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w116 d L fx fr = View.write (Elt F) (sO.access (Rect.unit (s := S2x16x256) ![0, 4, 112] S1x1x16.size inb_S2x16x256_S1x1x16_0_4_112)) (run0.sl.Hr0_w115 d L fx fr)
      (fun x => Gs (sSlot0.view.writes (Elt F) sSlot0.view.junk [⟨Rect.whole S16x256, run0.sl.dma0 d L fx⟩]) ((Rect.unit (s := S2x16x256) ![0, 4, 112] S1x1x16.size inb_S2x16x256_S1x1x16_0_4_112).emb x)) Finset.univ := by
  unfold run0.sl.Hr0_w116
  exact congrArg (fun w => View.write (Elt F) (sO.access (Rect.unit (s := S2x16x256) ![0, 4, 112] S1x1x16.size inb_S2x16x256_S1x1x16_0_4_112)) (run0.sl.Hr0_w115 d L fx fr) w Finset.univ)
    (funext fun x => (pieceA' _ _ _ _ _ _ _ (by decide) x).symm)

set_option maxHeartbeats 1000000 in
theorem step0_117 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w117 d L fx fr = View.write (Elt F) (sO.access (Rect.unit (s := S2x16x256) ![0, 5, 112] S1x1x16.size inb_S2x16x256_S1x1x16_0_5_112)) (run0.sl.Hr0_w116 d L fx fr)
      (fun x => Gs (sSlot0.view.writes (Elt F) sSlot0.view.junk [⟨Rect.whole S16x256, run0.sl.dma0 d L fx⟩]) ((Rect.unit (s := S2x16x256) ![0, 5, 112] S1x1x16.size inb_S2x16x256_S1x1x16_0_5_112).emb x)) Finset.univ := by
  unfold run0.sl.Hr0_w117
  unfold run0.sl.r_75
  exact congrArg (fun w => View.write (Elt F) (sO.access (Rect.unit (s := S2x16x256) ![0, 5, 112] S1x1x16.size inb_S2x16x256_S1x1x16_0_5_112)) (run0.sl.Hr0_w116 d L fx fr) w Finset.univ)
    (funext fun x => (pieceA' _ _ _ _ _ _ _ (by decide) x).symm)

set_option maxHeartbeats 1000000 in
theorem step0_118 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w118 d L fx fr = View.write (Elt F) (sO.access (Rect.unit (s := S2x16x256) ![0, 6, 112] S1x1x16.size inb_S2x16x256_S1x1x16_0_6_112)) (run0.sl.Hr0_w117 d L fx fr)
      (fun x => Gs (sSlot0.view.writes (Elt F) sSlot0.view.junk [⟨Rect.whole S16x256, run0.sl.dma0 d L fx⟩]) ((Rect.unit (s := S2x16x256) ![0, 6, 112] S1x1x16.size inb_S2x16x256_S1x1x16_0_6_112).emb x)) Finset.univ := by
  unfold run0.sl.Hr0_w118
  exact congrArg (fun w => View.write (Elt F) (sO.access (Rect.unit (s := S2x16x256) ![0, 6, 112] S1x1x16.size inb_S2x16x256_S1x1x16_0_6_112)) (run0.sl.Hr0_w117 d L fx fr) w Finset.univ)
    (funext fun x => (pieceA' _ _ _ _ _ _ _ (by decide) x).symm)

set_option maxHeartbeats 1000000 in
theorem step0_119 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w119 d L fx fr = View.write (Elt F) (sO.access (Rect.unit (s := S2x16x256) ![0, 7, 112] S1x1x16.size inb_S2x16x256_S1x1x16_0_7_112)) (run0.sl.Hr0_w118 d L fx fr)
      (fun x => Gs (sSlot0.view.writes (Elt F) sSlot0.view.junk [⟨Rect.whole S16x256, run0.sl.dma0 d L fx⟩]) ((Rect.unit (s := S2x16x256) ![0, 7, 112] S1x1x16.size inb_S2x16x256_S1x1x16_0_7_112).emb x)) Finset.univ := by
  unfold run0.sl.Hr0_w119
  exact congrArg (fun w => View.write (Elt F) (sO.access (Rect.unit (s := S2x16x256) ![0, 7, 112] S1x1x16.size inb_S2x16x256_S1x1x16_0_7_112)) (run0.sl.Hr0_w118 d L fx fr) w Finset.univ)
    (funext fun x => (pieceA' _ _ _ _ _ _ _ (by decide) x).symm)

set_option maxHeartbeats 1000000 in
theorem step0_120 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w120 d L fx fr = View.write (Elt F) (sO.access (Rect.unit (s := S2x16x256) ![0, 8, 112] S1x1x16.size inb_S2x16x256_S1x1x16_0_8_112)) (run0.sl.Hr0_w119 d L fx fr)
      (fun x => Gs (sSlot0.view.writes (Elt F) sSlot0.view.junk [⟨Rect.whole S16x256, run0.sl.dma0 d L fx⟩]) ((Rect.unit (s := S2x16x256) ![0, 8, 112] S1x1x16.size inb_S2x16x256_S1x1x16_0_8_112).emb x)) Finset.univ := by
  unfold run0.sl.Hr0_w120
  unfold run0.sl.r_77
  exact congrArg (fun w => View.write (Elt F) (sO.access (Rect.unit (s := S2x16x256) ![0, 8, 112] S1x1x16.size inb_S2x16x256_S1x1x16_0_8_112)) (run0.sl.Hr0_w119 d L fx fr) w Finset.univ)
    (funext fun x => (pieceA' _ _ _ _ _ _ _ (by decide) x).symm)

set_option maxHeartbeats 1000000 in
theorem step0_121 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w121 d L fx fr = View.write (Elt F) (sO.access (Rect.unit (s := S2x16x256) ![0, 9, 112] S1x1x16.size inb_S2x16x256_S1x1x16_0_9_112)) (run0.sl.Hr0_w120 d L fx fr)
      (fun x => Gs (sSlot0.view.writes (Elt F) sSlot0.view.junk [⟨Rect.whole S16x256, run0.sl.dma0 d L fx⟩]) ((Rect.unit (s := S2x16x256) ![0, 9, 112] S1x1x16.size inb_S2x16x256_S1x1x16_0_9_112).emb x)) Finset.univ := by
  unfold run0.sl.Hr0_w121
  exact congrArg (fun w => View.write (Elt F) (sO.access (Rect.unit (s := S2x16x256) ![0, 9, 112] S1x1x16.size inb_S2x16x256_S1x1x16_0_9_112)) (run0.sl.Hr0_w120 d L fx fr) w Finset.univ)
    (funext fun x => (pieceA' _ _ _ _ _ _ _ (by decide) x).symm)

set_option maxHeartbeats 1000000 in
theorem step0_122 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w122 d L fx fr = View.write (Elt F) (sO.access (Rect.unit (s := S2x16x256) ![0, 10, 112] S1x1x16.size inb_S2x16x256_S1x1x16_0_10_112)) (run0.sl.Hr0_w121 d L fx fr)
      (fun x => Gs (sSlot0.view.writes (Elt F) sSlot0.view.junk [⟨Rect.whole S16x256, run0.sl.dma0 d L fx⟩]) ((Rect.unit (s := S2x16x256) ![0, 10, 112] S1x1x16.size inb_S2x16x256_S1x1x16_0_10_112).emb x)) Finset.univ := by
  unfold run0.sl.Hr0_w122
  exact congrArg (fun w => View.write (Elt F) (sO.access (Rect.unit (s := S2x16x256) ![0, 10, 112] S1x1x16.size inb_S2x16x256_S1x1x16_0_10_112)) (run0.sl.Hr0_w121 d L fx fr) w Finset.univ)
    (funext fun x => (pieceA' _ _ _ _ _ _ _ (by decide) x).symm)

set_option maxHeartbeats 1000000 in
theorem step0_123 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w123 d L fx fr = View.write (Elt F) (sO.access (Rect.unit (s := S2x16x256) ![0, 11, 112] S1x1x16.size inb_S2x16x256_S1x1x16_0_11_112)) (run0.sl.Hr0_w122 d L fx fr)
      (fun x => Gs (sSlot0.view.writes (Elt F) sSlot0.view.junk [⟨Rect.whole S16x256, run0.sl.dma0 d L fx⟩]) ((Rect.unit (s := S2x16x256) ![0, 11, 112] S1x1x16.size inb_S2x16x256_S1x1x16_0_11_112).emb x)) Finset.univ := by
  unfold run0.sl.Hr0_w123
  exact congrArg (fun w => View.write (Elt F) (sO.access (Rect.unit (s := S2x16x256) ![0, 11, 112] S1x1x16.size inb_S2x16x256_S1x1x16_0_11_112)) (run0.sl.Hr0_w122 d L fx fr) w Finset.univ)
    (funext fun x => (pieceA' _ _ _ _ _ _ _ (by decide) x).symm)

set_option maxHeartbeats 1000000 in
theorem step0_124 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w124 d L fx fr = View.write (Elt F) (sO.access (Rect.unit (s := S2x16x256) ![0, 12, 112] S1x1x16.size inb_S2x16x256_S1x1x16_0_12_112)) (run0.sl.Hr0_w123 d L fx fr)
      (fun x => Gs (sSlot0.view.writes (Elt F) sSlot0.view.junk [⟨Rect.whole S16x256, run0.sl.dma0 d L fx⟩]) ((Rect.unit (s := S2x16x256) ![0, 12, 112] S1x1x16.size inb_S2x16x256_S1x1x16_0_12_112).emb x)) Finset.univ := by
  unfold run0.sl.Hr0_w124
  exact congrArg (fun w => View.write (Elt F) (sO.access (Rect.unit (s := S2x16x256) ![0, 12, 112] S1x1x16.size inb_S2x16x256_S1x1x16_0_12_112)) (run0.sl.Hr0_w123 d L fx fr) w Finset.univ)
    (funext fun x => (pieceA' _ _ _ _ _ _ _ (by decide) x).symm)

set_option maxHeartbeats 1000000 in
theorem step0_125 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w125 d L fx fr = View.write (Elt F) (sO.access (Rect.unit (s := S2x16x256) ![0, 13, 112] S1x1x16.size inb_S2x16x256_S1x1x16_0_13_112)) (run0.sl.Hr0_w124 d L fx fr)
      (fun x => Gs (sSlot0.view.writes (Elt F) sSlot0.view.junk [⟨Rect.whole S16x256, run0.sl.dma0 d L fx⟩]) ((Rect.unit (s := S2x16x256) ![0, 13, 112] S1x1x16.size inb_S2x16x256_S1x1x16_0_13_112).emb x)) Finset.univ := by
  unfold run0.sl.Hr0_w125
  exact congrArg (fun w => View.write (Elt F) (sO.access (Rect.unit (s := S2x16x256) ![0, 13, 112] S1x1x16.size inb_S2x16x256_S1x1x16_0_13_112)) (run0.sl.Hr0_w124 d L fx fr) w Finset.univ)
    (funext fun x => (pieceA' _ _ _ _ _ _ _ (by decide) x).symm)

set_option maxHeartbeats 1000000 in
theorem step0_126 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w126 d L fx fr = View.write (Elt F) (sO.access (Rect.unit (s := S2x16x256) ![0, 14, 112] S1x1x16.size inb_S2x16x256_S1x1x16_0_14_112)) (run0.sl.Hr0_w125 d L fx fr)
      (fun x => Gs (sSlot0.view.writes (Elt F) sSlot0.view.junk [⟨Rect.whole S16x256, run0.sl.dma0 d L fx⟩]) ((Rect.unit (s := S2x16x256) ![0, 14, 112] S1x1x16.size inb_S2x16x256_S1x1x16_0_14_112).emb x)) Finset.univ := by
  unfold run0.sl.Hr0_w126
  exact congrArg (fun w => View.write (Elt F) (sO.access (Rect.unit (s := S2x16x256) ![0, 14, 112] S1x1x16.size inb_S2x16x256_S1x1x16_0_14_112)) (run0.sl.Hr0_w125 d L fx fr) w Finset.univ)
    (funext fun x => (pieceA' _ _ _ _ _ _ _ (by decide) x).symm)

set_option maxHeartbeats 1000000 in
theorem step0_127 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w127 d L fx fr = View.write (Elt F) (sO.access (Rect.unit (s := S2x16x256) ![0, 15, 112] S1x1x16.size inb_S2x16x256_S1x1x16_0_15_112)) (run0.sl.Hr0_w126 d L fx fr)
      (fun x => Gs (sSlot0.view.writes (Elt F) sSlot0.view.junk [⟨Rect.whole S16x256, run0.sl.dma0 d L fx⟩]) ((Rect.unit (s := S2x16x256) ![0, 15, 112] S1x1x16.size inb_S2x16x256_S1x1x16_0_15_112).emb x)) Finset.univ := by
  unfold run0.sl.Hr0_w127
  exact congrArg (fun w => View.write (Elt F) (sO.access (Rect.unit (s := S2x16x256) ![0, 15, 112] S1x1x16.size inb_S2x16x256_S1x1x16_0_15_112)) (run0.sl.Hr0_w126 d L fx fr) w Finset.univ)
    (funext fun x => (pieceA' _ _ _ _ _ _ _ (by decide) x).symm)

set_option maxHeartbeats 1000000 in
theorem step0_128 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w128 d L fx fr = View.write (Elt F) (sO.access (Rect.unit (s := S2x16x256) ![0, 0, 112] S1x1x16.size inb_S2x16x256_S1x1x16_0_0_112)) (run0.sl.Hr0_w127 d L fx fr)
      (fun x => Gs (sSlot0.view.writes (Elt F) sSlot0.view.junk [⟨Rect.whole S16x256, run0.sl.dma0 d L fx⟩]) ((Rect.unit (s := S2x16x256) ![0, 0, 112] S1x1x16.size inb_S2x16x256_S1x1x16_0_0_112).emb x)) Finset.univ := by
  unfold run0.sl.Hr0_w128
  unfold run0.sl.r_71 run0.sl.r_79 run0.sl.r_78 run0.sl.r_76 run0.sl.r_77 run0.sl.r_74 run0.sl.r_75 run0.sl.r_73
  exact congrArg (fun w => View.write (Elt F) (sO.access (Rect.unit (s := S2x16x256) ![0, 0, 112] S1x1x16.size inb_S2x16x256_S1x1x16_0_0_112)) (run0.sl.Hr0_w127 d L fx fr) w Finset.univ)
    (funext fun x => (pieceB' (sSlot0.view.writes (Elt F) sSlot0.view.junk [⟨Rect.whole S16x256, run0.sl.dma0 d L fx⟩]) 0 112 inb_S2x16x256_S1x1x16_0_0_112 inb_S2x16x256_S1x1x16_0_1_112 inb_S2x16x256_S1x1x16_0_2_112 inb_S2x16x256_S1x1x16_0_3_112 inb_S2x16x256_S1x1x16_0_4_112 inb_S2x16x256_S1x1x16_0_5_112 inb_S2x16x256_S1x1x16_0_6_112 inb_S2x16x256_S1x1x16_0_7_112 inb_S2x16x256_S1x1x16_0_8_112 inb_S2x16x256_S1x1x16_0_9_112 inb_S2x16x256_S1x1x16_0_10_112 inb_S2x16x256_S1x1x16_0_11_112 inb_S2x16x256_S1x1x16_0_12_112 inb_S2x16x256_S1x1x16_0_13_112 inb_S2x16x256_S1x1x16_0_14_112 inb_S2x16x256_S1x1x16_0_15_112 shapeCasts_S1x1x16_S16 shapeCasts_S16_S1x1x16 x).symm)

set_option maxHeartbeats 1000000 in
theorem step0_129 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w129 d L fx fr = View.write (Elt F) (sO.access (Rect.unit (s := S2x16x256) ![0, 1, 128] S1x1x16.size inb_S2x16x256_S1x1x16_0_1_128)) (run0.sl.Hr0_w128 d L fx fr)
      (fun x => Gs (sSlot0.view.writes (Elt F) sSlot0.view.junk [⟨Rect.whole S16x256, run0.sl.dma0 d L fx⟩]) ((Rect.unit (s := S2x16x256) ![0, 1, 128] S1x1x16.size inb_S2x16x256_S1x1x16_0_1_128).emb x)) Finset.univ := by
  unfold run0.sl.Hr0_w129
  exact congrArg (fun w => View.write (Elt F) (sO.access (Rect.unit (s := S2x16x256) ![0, 1, 128] S1x1x16.size inb_S2x16x256_S1x1x16_0_1_128)) (run0.sl.Hr0_w128 d L fx fr) w Finset.univ)
    (funext fun x => (pieceA' _ _ _ _ _ _ _ (by decide) x).symm)

set_option maxHeartbeats 1000000 in
theorem step0_130 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w130 d L fx fr = View.write (Elt F) (sO.access (Rect.unit (s := S2x16x256) ![0, 2, 128] S1x1x16.size inb_S2x16x256_S1x1x16_0_2_128)) (run0.sl.Hr0_w129 d L fx fr)
      (fun x => Gs (sSlot0.view.writes (Elt F) sSlot0.view.junk [⟨Rect.whole S16x256, run0.sl.dma0 d L fx⟩]) ((Rect.unit (s := S2x16x256) ![0, 2, 128] S1x1x16.size inb_S2x16x256_S1x1x16_0_2_128).emb x)) Finset.univ := by
  unfold run0.sl.Hr0_w130
  exact congrArg (fun w => View.write (Elt F) (sO.access (Rect.unit (s := S2x16x256) ![0, 2, 128] S1x1x16.size inb_S2x16x256_S1x1x16_0_2_128)) (run0.sl.Hr0_w129 d L fx fr) w Finset.univ)
    (funext fun x => (pieceA' _ _ _ _ _ _ _ (by decide) x).symm)

set_option maxHeartbeats 1000000 in
theorem step0_131 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w131 d L fx fr = View.write (Elt F) (sO.access (Rect.unit (s := S2x16x256) ![0, 3, 128] S1x1x16.size inb_S2x16x256_S1x1x16_0_3_128)) (run0.sl.Hr0_w130 d L fx fr)
      (fun x => Gs (sSlot0.view.writes (Elt F) sSlot0.view.junk [⟨Rect.whole S16x256, run0.sl.dma0 d L fx⟩]) ((Rect.unit (s := S2x16x256) ![0, 3, 128] S1x1x16.size inb_S2x16x256_S1x1x16_0_3_128).emb x)) Finset.univ := by
  unfold run0.sl.Hr0_w131
  unfold run0.sl.r_82
  exact congrArg (fun w => View.write (Elt F) (sO.access (Rect.unit (s := S2x16x256) ![0, 3, 128] S1x1x16.size inb_S2x16x256_S1x1x16_0_3_128)) (run0.sl.Hr0_w130 d L fx fr) w Finset.univ)
    (funext fun x => (pieceA' _ _ _ _ _ _ _ (by decide) x).symm)

set_option maxHeartbeats 1000000 in
theorem step0_132 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w132 d L fx fr = View.write (Elt F) (sO.access (Rect.unit (s := S2x16x256) ![0, 4, 128] S1x1x16.size inb_S2x16x256_S1x1x16_0_4_128)) (run0.sl.Hr0_w131 d L fx fr)
      (fun x => Gs (sSlot0.view.writes (Elt F) sSlot0.view.junk [⟨Rect.whole S16x256, run0.sl.dma0 d L fx⟩]) ((Rect.unit (s := S2x16x256) ![0, 4, 128] S1x1x16.size inb_S2x16x256_S1x1x16_0_4_128).emb x)) Finset.univ := by
  unfold run0.sl.Hr0_w132
  exact congrArg (fun w => View.write (Elt F) (sO.access (Rect.unit (s := S2x16x256) ![0, 4, 128] S1x1x16.size inb_S2x16x256_S1x1x16_0_4_128)) (run0.sl.Hr0_w131 d L fx fr) w Finset.univ)
    (funext fun x => (pieceA' _ _ _ _ _ _ _ (by decide) x).symm)

set_option maxHeartbeats 1000000 in
theorem step0_133 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w133 d L fx fr = View.write (Elt F) (sO.access (Rect.unit (s := S2x16x256) ![0, 5, 128] S1x1x16.size inb_S2x16x256_S1x1x16_0_5_128)) (run0.sl.Hr0_w132 d L fx fr)
      (fun x => Gs (sSlot0.view.writes (Elt F) sSlot0.view.junk [⟨Rect.whole S16x256, run0.sl.dma0 d L fx⟩]) ((Rect.unit (s := S2x16x256) ![0, 5, 128] S1x1x16.size inb_S2x16x256_S1x1x16_0_5_128).emb x)) Finset.univ := by
  unfold run0.sl.Hr0_w133
  exact congrArg (fun w => View.write (Elt F) (sO.access (Rect.unit (s := S2x16x256) ![0, 5, 128] S1x1x16.size inb_S2x16x256_S1x1x16_0_5_128)) (run0.sl.Hr0_w132 d L fx fr) w Finset.univ)
    (funext fun x => (pieceA' _ _ _ _ _ _ _ (by decide) x).symm)

set_option maxHeartbeats 1000000 in
theorem step0_134 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w134 d L fx fr = View.write (Elt F) (sO.access (Rect.unit (s := S2x16x256) ![0, 6, 128] S1x1x16.size inb_S2x16x256_S1x1x16_0_6_128)) (run0.sl.Hr0_w133 d L fx fr)
      (fun x => Gs (sSlot0.view.writes (Elt F) sSlot0.view.junk [⟨Rect.whole S16x256, run0.sl.dma0 d L fx⟩]) ((Rect.unit (s := S2x16x256) ![0, 6, 128] S1x1x16.size inb_S2x16x256_S1x1x16_0_6_128).emb x)) Finset.univ := by
  unfold run0.sl.Hr0_w134
  unfold run0.sl.r_85
  exact congrArg (fun w => View.write (Elt F) (sO.access (Rect.unit (s := S2x16x256) ![0, 6, 128] S1x1x16.size inb_S2x16x256_S1x1x16_0_6_128)) (run0.sl.Hr0_w133 d L fx fr) w Finset.univ)
    (funext fun x => (pieceA' _ _ _ _ _ _ _ (by decide) x).symm)

set_option maxHeartbeats 1000000 in
theorem step0_135 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w135 d L fx fr = View.write (Elt F) (sO.access (Rect.unit (s := S2x16x256) ![0, 7, 128] S1x1x16.size inb_S2x16x256_S1x1x16_0_7_128)) (run0.sl.Hr0_w134 d L fx fr)
      (fun x => Gs (sSlot0.view.writes (Elt F) sSlot0.view.junk [⟨Rect.whole S16x256, run0.sl.dma0 d L fx⟩]) ((Rect.unit (s := S2x16x256) ![0, 7, 128] S1x1x16.size inb_S2x16x256_S1x1x16_0_7_128).emb x)) Finset.univ := by
  unfold run0.sl.Hr0_w135
  exact congrArg (fun w => View.write (Elt F) (sO.access (Rect.unit (s := S2x16x256) ![0, 7, 128] S1x1x16.size inb_S2x16x256_S1x1x16_0_7_128)) (run0.sl.Hr0_w134 d L fx fr) w Finset.univ)
    (funext fun x => (pieceA' _ _ _ _ _ _ _ (by decide) x).symm)

set_option maxHeartbeats 1000000 in
theorem step0_136 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w136 d L fx fr = View.write (Elt F) (sO.access (Rect.unit (s := S2x16x256) ![0, 8, 128] S1x1x16.size inb_S2x16x256_S1x1x16_0_8_128)) (run0.sl.Hr0_w135 d L fx fr)
      (fun x => Gs (sSlot0.view.writes (Elt F) sSlot0.view.junk [⟨Rect.whole S16x256, run0.sl.dma0 d L fx⟩]) ((Rect.unit (s := S2x16x256) ![0, 8, 128] S1x1x16.size inb_S2x16x256_S1x1x16_0_8_128).emb x)) Finset.univ := by
  unfold run0.sl.Hr0_w136
  exact congrArg (fun w => View.write (Elt F) (sO.access (Rect.unit (s := S2x16x256) ![0, 8, 128] S1x1x16.size inb_S2x16x256_S1x1x16_0_8_128)) (run0.sl.Hr0_w135 d L fx fr) w Finset.univ)
    (funext fun x => (pieceA' _ _ _ _ _ _ _ (by decide) x).symm)

set_option maxHeartbeats 1000000 in
theorem step0_137 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w137 d L fx fr = View.write (Elt F) (sO.access (Rect.unit (s := S2x16x256) ![0, 9, 128] S1x1x16.size inb_S2x16x256_S1x1x16_0_9_128)) (run0.sl.Hr0_w136 d L fx fr)
      (fun x => Gs (sSlot0.view.writes (Elt F) sSlot0.view.junk [⟨Rect.whole S16x256, run0.sl.dma0 d L fx⟩]) ((Rect.unit (s := S2x16x256) ![0, 9, 128] S1x1x16.size inb_S2x16x256_S1x1x16_0_9_128).emb x)) Finset.univ := by
  unfold run0.sl.Hr0_w137
  unfold run0.sl.r_87 run0.sl.cst_306
  exact congrArg (fun w => View.write (Elt F) (sO.access (Rect.unit (s := S2x16x256) ![0, 9, 128] S1x1x16.size inb_S2x16x256_S1x1x16_0_9_128)) (run0.sl.Hr0_w136 d L fx fr) w Finset.univ)
    (funext fun x => (pieceA' _ _ _ _ _ _ _ (by decide) x).symm)

set_option maxHeartbeats 1000000 in
theorem step0_138 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w138 d L fx fr = View.write (Elt F) (sO.access (Rect.unit (s := S2x16x256) ![0, 10, 128] S1x1x16.size inb_S2x16x256_S1x1x16_0_10_128)) (run0.sl.Hr0_w137 d L fx fr)
      (fun x => Gs (sSlot0.view.writes (Elt F) sSlot0.view.junk [⟨Rect.whole S16x256, run0.sl.dma0 d L fx⟩]) ((Rect.unit (s := S2x16x256) ![0, 10, 128] S1x1x16.size inb_S2x16x256_S1x1x16_0_10_128).emb x)) Finset.univ := by
  unfold run0.sl.Hr0_w138
  exact congrArg (fun w => View.write (Elt F) (sO.access (Rect.unit (s := S2x16x256) ![0, 10, 128] S1x1x16.size inb_S2x16x256_S1x1x16_0_10_128)) (run0.sl.Hr0_w137 d L fx fr) w Finset.univ)
    (funext fun x => (pieceA' _ _ _ _ _ _ _ (by decide) x).symm)

set_option maxHeartbeats 1000000 in
theorem step0_139 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w139 d L fx fr = View.write (Elt F) (sO.access (Rect.unit (s := S2x16x256) ![0, 11, 128] S1x1x16.size inb_S2x16x256_S1x1x16_0_11_128)) (run0.sl.Hr0_w138 d L fx fr)
      (fun x => Gs (sSlot0.view.writes (Elt F) sSlot0.view.junk [⟨Rect.whole S16x256, run0.sl.dma0 d L fx⟩]) ((Rect.unit (s := S2x16x256) ![0, 11, 128] S1x1x16.size inb_S2x16x256_S1x1x16_0_11_128).emb x)) Finset.univ := by
  unfold run0.sl.Hr0_w139
  exact congrArg (fun w => View.write (Elt F) (sO.access (Rect.unit (s := S2x16x256) ![0, 11, 128] S1x1x16.size inb_S2x16x256_S1x1x16_0_11_128)) (run0.sl.Hr0_w138 d L fx fr) w Finset.univ)
    (funext fun x => (pieceA' _ _ _ _ _ _ _ (by decide) x).symm)

set_option maxHeartbeats 1000000 in
theorem step0_140 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w140 d L fx fr = View.write (Elt F) (sO.access (Rect.unit (s := S2x16x256) ![0, 12, 128] S1x1x16.size inb_S2x16x256_S1x1x16_0_12_128)) (run0.sl.Hr0_w139 d L fx fr)
      (fun x => Gs (sSlot0.view.writes (Elt F) sSlot0.view.junk [⟨Rect.whole S16x256, run0.sl.dma0 d L fx⟩]) ((Rect.unit (s := S2x16x256) ![0, 12, 128] S1x1x16.size inb_S2x16x256_S1x1x16_0_12_128).emb x)) Finset.univ := by
  unfold run0.sl.Hr0_w140
  exact congrArg (fun w => View.write (Elt F) (sO.access (Rect.unit (s := S2x16x256) ![0, 12, 128] S1x1x16.size inb_S2x16x256_S1x1x16_0_12_128)) (run0.sl.Hr0_w139 d L fx fr) w Finset.univ)
    (funext fun x => (pieceA' _ _ _ _ _ _ _ (by decide) x).symm)

set_option maxHeartbeats 1000000 in
theorem step0_141 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w141 d L fx fr = View.write (Elt F) (sO.access (Rect.unit (s := S2x16x256) ![0, 13, 128] S1x1x16.size inb_S2x16x256_S1x1x16_0_13_128)) (run0.sl.Hr0_w140 d L fx fr)
      (fun x => Gs (sSlot0.view.writes (Elt F) sSlot0.view.junk [⟨Rect.whole S16x256, run0.sl.dma0 d L fx⟩]) ((Rect.unit (s := S2x16x256) ![0, 13, 128] S1x1x16.size inb_S2x16x256_S1x1x16_0_13_128).emb x)) Finset.univ := by
  unfold run0.sl.Hr0_w141
  exact congrArg (fun w => View.write (Elt F) (sO.access (Rect.unit (s := S2x16x256) ![0, 13, 128] S1x1x16.size inb_S2x16x256_S1x1x16_0_13_128)) (run0.sl.Hr0_w140 d L fx fr) w Finset.univ)
    (funext fun x => (pieceA' _ _ _ _ _ _ _ (by decide) x).symm)

set_option maxHeartbeats 1000000 in
theorem step0_142 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w142 d L fx fr = View.write (Elt F) (sO.access (Rect.unit (s := S2x16x256) ![0, 14, 128] S1x1x16.size inb_S2x16x256_S1x1x16_0_14_128)) (run0.sl.Hr0_w141 d L fx fr)
      (fun x => Gs (sSlot0.view.writes (Elt F) sSlot0.view.junk [⟨Rect.whole S16x256, run0.sl.dma0 d L fx⟩]) ((Rect.unit (s := S2x16x256) ![0, 14, 128] S1x1x16.size inb_S2x16x256_S1x1x16_0_14_128).emb x)) Finset.univ := by
  unfold run0.sl.Hr0_w142
  exact congrArg (fun w => View.write (Elt F) (sO.access (Rect.unit (s := S2x16x256) ![0, 14, 128] S1x1x16.size inb_S2x16x256_S1x1x16_0_14_128)) (run0.sl.Hr0_w141 d L fx fr) w Finset.univ)
    (funext fun x => (pieceA' _ _ _ _ _ _ _ (by decide) x).symm)

set_option maxHeartbeats 1000000 in
theorem step0_143 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w143 d L fx fr = View.write (Elt F) (sO.access (Rect.unit (s := S2x16x256) ![0, 15, 128] S1x1x16.size inb_S2x16x256_S1x1x16_0_15_128)) (run0.sl.Hr0_w142 d L fx fr)
      (fun x => Gs (sSlot0.view.writes (Elt F) sSlot0.view.junk [⟨Rect.whole S16x256, run0.sl.dma0 d L fx⟩]) ((Rect.unit (s := S2x16x256) ![0, 15, 128] S1x1x16.size inb_S2x16x256_S1x1x16_0_15_128).emb x)) Finset.univ := by
  unfold run0.sl.Hr0_w143
  exact congrArg (fun w => View.write (Elt F) (sO.access (Rect.unit (s := S2x16x256) ![0, 15, 128] S1x1x16.size inb_S2x16x256_S1x1x16_0_15_128)) (run0.sl.Hr0_w142 d L fx fr) w Finset.univ)
    (funext fun x => (pieceA' _ _ _ _ _ _ _ (by decide) x).symm)

set_option maxHeartbeats 1000000 in
theorem step0_144 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w144 d L fx fr = View.write (Elt F) (sO.access (Rect.unit (s := S2x16x256) ![0, 0, 128] S1x1x16.size inb_S2x16x256_S1x1x16_0_0_128)) (run0.sl.Hr0_w143 d L fx fr)
      (fun x => Gs (sSlot0.view.writes (Elt F) sSlot0.view.junk [⟨Rect.whole S16x256, run0.sl.dma0 d L fx⟩]) ((Rect.unit (s := S2x16x256) ![0, 0, 128] S1x1x16.size inb_S2x16x256_S1x1x16_0_0_128).emb x)) Finset.univ := by
  unfold run0.sl.Hr0_w144
  unfold run0.sl.r_81 run0.sl.r_89 run0.sl.r_80 run0.sl.r_88 run0.sl.r_86 run0.sl.r_87 run0.sl.r_84 run0.sl.r_85 run0.sl.r_83 run0.sl.cst_306
  exact congrArg (fun w => View.write (Elt F) (sO.access (Rect.unit (s := S2x16x256) ![0, 0, 128] S1x1x16.size inb_S2x16x256_S1x1x16_0_0_128)) (run0.sl.Hr0_w143 d L fx fr) w Finset.univ)
    (funext fun x => (pieceB' (sSlot0.view.writes (Elt F) sSlot0.view.junk [⟨Rect.whole S16x256, run0.sl.dma0 d L fx⟩]) 0 128 inb_S2x16x256_S1x1x16_0_0_128 inb_S2x16x256_S1x1x16_0_1_128 inb_S2x16x256_S1x1x16_0_2_128 inb_S2x16x256_S1x1x16_0_3_128 inb_S2x16x256_S1x1x16_0_4_128 inb_S2x16x256_S1x1x16_0_5_128 inb_S2x16x256_S1x1x16_0_6_128 inb_S2x16x256_S1x1x16_0_7_128 inb_S2x16x256_S1x1x16_0_8_128 inb_S2x16x256_S1x1x16_0_9_128 inb_S2x16x256_S1x1x16_0_10_128 inb_S2x16x256_S1x1x16_0_11_128 inb_S2x16x256_S1x1x16_0_12_128 inb_S2x16x256_S1x1x16_0_13_128 inb_S2x16x256_S1x1x16_0_14_128 inb_S2x16x256_S1x1x16_0_15_128 shapeCasts_S1x1x16_S16 shapeCasts_S16_S1x1x16 x).symm)

set_option maxHeartbeats 1000000 in
theorem step0_145 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w145 d L fx fr = View.write (Elt F) (sO.access (Rect.unit (s := S2x16x256) ![0, 1, 144] S1x1x16.size inb_S2x16x256_S1x1x16_0_1_144)) (run0.sl.Hr0_w144 d L fx fr)
      (fun x => Gs (sSlot0.view.writes (Elt F) sSlot0.view.junk [⟨Rect.whole S16x256, run0.sl.dma0 d L fx⟩]) ((Rect.unit (s := S2x16x256) ![0, 1, 144] S1x1x16.size inb_S2x16x256_S1x1x16_0_1_144).emb x)) Finset.univ := by
  unfold run0.sl.Hr0_w145
  unfold run0.sl.r_91
  exact congrArg (fun w => View.write (Elt F) (sO.access (Rect.unit (s := S2x16x256) ![0, 1, 144] S1x1x16.size inb_S2x16x256_S1x1x16_0_1_144)) (run0.sl.Hr0_w144 d L fx fr) w Finset.univ)
    (funext fun x => (pieceA' _ _ _ _ _ _ _ (by decide) x).symm)

set_option maxHeartbeats 1000000 in
theorem step0_146 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w146 d L fx fr = View.write (Elt F) (sO.access (Rect.unit (s := S2x16x256) ![0, 2, 144] S1x1x16.size inb_S2x16x256_S1x1x16_0_2_144)) (run0.sl.Hr0_w145 d L fx fr)
      (fun x => Gs (sSlot0.view.writes (Elt F) sSlot0.view.junk [⟨Rect.whole S16x256, run0.sl.dma0 d L fx⟩]) ((Rect.unit (s := S2x16x256) ![0, 2, 144] S1x1x16.size inb_S2x16x256_S1x1x16_0_2_144).emb x)) Finset.univ := by
  unfold run0.sl.Hr0_w146
  exact congrArg (fun w => View.write (Elt F) (sO.access (Rect.unit (s := S2x16x256) ![0, 2, 144] S1x1x16.size inb_S2x16x256_S1x1x16_0_2_144)) (run0.sl.Hr0_w145 d L fx fr) w Finset.univ)
    (funext fun x => (pieceA' _ _ _ _ _ _ _ (by decide) x).symm)

set_option maxHeartbeats 1000000 in
theorem step0_147 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w147 d L fx fr = View.write (Elt F) (sO.access (Rect.unit (s := S2x16x256) ![0, 3, 144] S1x1x16.size inb_S2x16x256_S1x1x16_0_3_144)) (run0.sl.Hr0_w146 d L fx fr)
      (fun x => Gs (sSlot0.view.writes (Elt F) sSlot0.view.junk [⟨Rect.whole S16x256, run0.sl.dma0 d L fx⟩]) ((Rect.unit (s := S2x16x256) ![0, 3, 144] S1x1x16.size inb_S2x16x256_S1x1x16_0_3_144).emb x)) Finset.univ := by
  unfold run0.sl.Hr0_w147
  exact congrArg (fun w => View.write (Elt F) (sO.access (Rect.unit (s := S2x16x256) ![0, 3, 144] S1x1x16.size inb_S2x16x256_S1x1x16_0_3_144)) (run0.sl.Hr0_w146 d L fx fr) w Finset.univ)
    (funext fun x => (pieceA' _ _ _ _ _ _ _ (by decide) x).symm)

set_option maxHeartbeats 1000000 in
theorem step0_148 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w148 d L fx fr = View.write (Elt F) (sO.access (Rect.unit (s := S2x16x256) ![0, 4, 144] S1x1x16.size inb_S2x16x256_S1x1x16_0_4_144)) (run0.sl.Hr0_w147 d L fx fr)
      (fun x => Gs (sSlot0.view.writes (Elt F) sSlot0.view.junk [⟨Rect.whole S16x256, run0.sl.dma0 d L fx⟩]) ((Rect.unit (s := S2x16x256) ![0, 4, 144] S1x1x16.size inb_S2x16x256_S1x1x16_0_4_144).emb x)) Finset.univ := by
  unfold run0.sl.Hr0_w148
  unfold run0.sl.r_93
  exact congrArg (fun w => View.write (Elt F) (sO.access (Rect.unit (s := S2x16x256) ![0, 4, 144] S1x1x16.size inb_S2x16x256_S1x1x16_0_4_144)) (run0.sl.Hr0_w147 d L fx fr) w Finset.univ)
    (funext fun x => (pieceA' _ _ _ _ _ _ _ (by decide) x).symm)

set_option maxHeartbeats 1000000 in
theorem step0_149 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w149 d L fx fr = View.write (Elt F) (sO.access (Rect.unit (s := S2x16x256) ![0, 5, 144] S1x1x16.size inb_S2x16x256_S1x1x16_0_5_144)) (run0.sl.Hr0_w148 d L fx fr)
      (fun x => Gs (sSlot0.view.writes (Elt F) sSlot0.view.junk [⟨Rect.whole S16x256, run0.sl.dma0 d L fx⟩]) ((Rect.unit (s := S2x16x256) ![0, 5, 144] S1x1x16.size inb_S2x16x256_S1x1x16_0_5_144).emb x)) Finset.univ := by
  unfold run0.sl.Hr0_w149
  exact congrArg (fun w => View.write (Elt F) (sO.access (Rect.unit (s := S2x16x256) ![0, 5, 144] S1x1x16.size inb_S2x16x256_S1x1x16_0_5_144)) (run0.sl.Hr0_w148 d L fx fr) w Finset.univ)
    (funext fun x => (pieceA' _ _ _ _ _ _ _ (by decide) x).symm)

set_option maxHeartbeats 1000000 in
theorem step0_150 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w150 d L fx fr = View.write (Elt F) (sO.access (Rect.unit (s := S2x16x256) ![0, 6, 144] S1x1x16.size inb_S2x16x256_S1x1x16_0_6_144)) (run0.sl.Hr0_w149 d L fx fr)
      (fun x => Gs (sSlot0.view.writes (Elt F) sSlot0.view.junk [⟨Rect.whole S16x256, run0.sl.dma0 d L fx⟩]) ((Rect.unit (s := S2x16x256) ![0, 6, 144] S1x1x16.size inb_S2x16x256_S1x1x16_0_6_144).emb x)) Finset.univ := by
  unfold run0.sl.Hr0_w150
  exact congrArg (fun w => View.write (Elt F) (sO.access (Rect.unit (s := S2x16x256) ![0, 6, 144] S1x1x16.size inb_S2x16x256_S1x1x16_0_6_144)) (run0.sl.Hr0_w149 d L fx fr) w Finset.univ)
    (funext fun x => (pieceA' _ _ _ _ _ _ _ (by decide) x).symm)

set_option maxHeartbeats 1000000 in
theorem step0_151 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w151 d L fx fr = View.write (Elt F) (sO.access (Rect.unit (s := S2x16x256) ![0, 7, 144] S1x1x16.size inb_S2x16x256_S1x1x16_0_7_144)) (run0.sl.Hr0_w150 d L fx fr)
      (fun x => Gs (sSlot0.view.writes (Elt F) sSlot0.view.junk [⟨Rect.whole S16x256, run0.sl.dma0 d L fx⟩]) ((Rect.unit (s := S2x16x256) ![0, 7, 144] S1x1x16.size inb_S2x16x256_S1x1x16_0_7_144).emb x)) Finset.univ := by
  unfold run0.sl.Hr0_w151
  unfold run0.sl.r_95
  exact congrArg (fun w => View.write (Elt F) (sO.access (Rect.unit (s := S2x16x256) ![0, 7, 144] S1x1x16.size inb_S2x16x256_S1x1x16_0_7_144)) (run0.sl.Hr0_w150 d L fx fr) w Finset.univ)
    (funext fun x => (pieceA' _ _ _ _ _ _ _ (by decide) x).symm)

set_option maxHeartbeats 1000000 in
theorem step0_152 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w152 d L fx fr = View.write (Elt F) (sO.access (Rect.unit (s := S2x16x256) ![0, 8, 144] S1x1x16.size inb_S2x16x256_S1x1x16_0_8_144)) (run0.sl.Hr0_w151 d L fx fr)
      (fun x => Gs (sSlot0.view.writes (Elt F) sSlot0.view.junk [⟨Rect.whole S16x256, run0.sl.dma0 d L fx⟩]) ((Rect.unit (s := S2x16x256) ![0, 8, 144] S1x1x16.size inb_S2x16x256_S1x1x16_0_8_144).emb x)) Finset.univ := by
  unfold run0.sl.Hr0_w152
  exact congrArg (fun w => View.write (Elt F) (sO.access (Rect.unit (s := S2x16x256) ![0, 8, 144] S1x1x16.size inb_S2x16x256_S1x1x16_0_8_144)) (run0.sl.Hr0_w151 d L fx fr) w Finset.univ)
    (funext fun x => (pieceA' _ _ _ _ _ _ _ (by decide) x).symm)

set_option maxHeartbeats 1000000 in
theorem step0_153 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w153 d L fx fr = View.write (Elt F) (sO.access (Rect.unit (s := S2x16x256) ![0, 9, 144] S1x1x16.size inb_S2x16x256_S1x1x16_0_9_144)) (run0.sl.Hr0_w152 d L fx fr)
      (fun x => Gs (sSlot0.view.writes (Elt F) sSlot0.view.junk [⟨Rect.whole S16x256, run0.sl.dma0 d L fx⟩]) ((Rect.unit (s := S2x16x256) ![0, 9, 144] S1x1x16.size inb_S2x16x256_S1x1x16_0_9_144).emb x)) Finset.univ := by
  unfold run0.sl.Hr0_w153
  exact congrArg (fun w => View.write (Elt F) (sO.access (Rect.unit (s := S2x16x256) ![0, 9, 144] S1x1x16.size inb_S2x16x256_S1x1x16_0_9_144)) (run0.sl.Hr0_w152 d L fx fr) w Finset.univ)
    (funext fun x => (pieceA' _ _ _ _ _ _ _ (by decide) x).symm)

set_option maxHeartbeats 1000000 in
theorem step0_154 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w154 d L fx fr = View.write (Elt F) (sO.access (Rect.unit (s := S2x16x256) ![0, 10, 144] S1x1x16.size inb_S2x16x256_S1x1x16_0_10_144)) (run0.sl.Hr0_w153 d L fx fr)
      (fun x => Gs (sSlot0.view.writes (Elt F) sSlot0.view.junk [⟨Rect.whole S16x256, run0.sl.dma0 d L fx⟩]) ((Rect.unit (s := S2x16x256) ![0, 10, 144] S1x1x16.size inb_S2x16x256_S1x1x16_0_10_144).emb x)) Finset.univ := by
  unfold run0.sl.Hr0_w154
  unfold run0.sl.r_98
  exact congrArg (fun w => View.write (Elt F) (sO.access (Rect.unit (s := S2x16x256) ![0, 10, 144] S1x1x16.size inb_S2x16x256_S1x1x16_0_10_144)) (run0.sl.Hr0_w153 d L fx fr) w Finset.univ)
    (funext fun x => (pieceA' _ _ _ _ _ _ _ (by decide) x).symm)

set_option maxHeartbeats 1000000 in
theorem step0_155 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w155 d L fx fr = View.write (Elt F) (sO.access (Rect.unit (s := S2x16x256) ![0, 11, 144] S1x1x16.size inb_S2x16x256_S1x1x16_0_11_144)) (run0.sl.Hr0_w154 d L fx fr)
      (fun x => Gs (sSlot0.view.writes (Elt F) sSlot0.view.junk [⟨Rect.whole S16x256, run0.sl.dma0 d L fx⟩]) ((Rect.unit (s := S2x16x256) ![0, 11, 144] S1x1x16.size inb_S2x16x256_S1x1x16_0_11_144).emb x)) Finset.univ := by
  unfold run0.sl.Hr0_w155
  exact congrArg (fun w => View.write (Elt F) (sO.access (Rect.unit (s := S2x16x256) ![0, 11, 144] S1x1x16.size inb_S2x16x256_S1x1x16_0_11_144)) (run0.sl.Hr0_w154 d L fx fr) w Finset.univ)
    (funext fun x => (pieceA' _ _ _ _ _ _ _ (by decide) x).symm)

set_option maxHeartbeats 1000000 in
theorem step0_156 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w156 d L fx fr = View.write (Elt F) (sO.access (Rect.unit (s := S2x16x256) ![0, 12, 144] S1x1x16.size inb_S2x16x256_S1x1x16_0_12_144)) (run0.sl.Hr0_w155 d L fx fr)
      (fun x => Gs (sSlot0.view.writes (Elt F) sSlot0.view.junk [⟨Rect.whole S16x256, run0.sl.dma0 d L fx⟩]) ((Rect.unit (s := S2x16x256) ![0, 12, 144] S1x1x16.size inb_S2x16x256_S1x1x16_0_12_144).emb x)) Finset.univ := by
  unfold run0.sl.Hr0_w156
  exact congrArg (fun w => View.write (Elt F) (sO.access (Rect.unit (s := S2x16x256) ![0, 12, 144] S1x1x16.size inb_S2x16x256_S1x1x16_0_12_144)) (run0.sl.Hr0_w155 d L fx fr) w Finset.univ)
    (funext fun x => (pieceA' _ _ _ _ _ _ _ (by decide) x).symm)

set_option maxHeartbeats 1000000 in
theorem step0_157 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w157 d L fx fr = View.write (Elt F) (sO.access (Rect.unit (s := S2x16x256) ![0, 13, 144] S1x1x16.size inb_S2x16x256_S1x1x16_0_13_144)) (run0.sl.Hr0_w156 d L fx fr)
      (fun x => Gs (sSlot0.view.writes (Elt F) sSlot0.view.junk [⟨Rect.whole S16x256, run0.sl.dma0 d L fx⟩]) ((Rect.unit (s := S2x16x256) ![0, 13, 144] S1x1x16.size inb_S2x16x256_S1x1x16_0_13_144).emb x)) Finset.univ := by
  unfold run0.sl.Hr0_w157
  unfold run0.sl.r_100
  exact congrArg (fun w => View.write (Elt F) (sO.access (Rect.unit (s := S2x16x256) ![0, 13, 144] S1x1x16.size inb_S2x16x256_S1x1x16_0_13_144)) (run0.sl.Hr0_w156 d L fx fr) w Finset.univ)
    (funext fun x => (pieceA' _ _ _ _ _ _ _ (by decide) x).symm)

set_option maxHeartbeats 1000000 in
theorem step0_158 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w158 d L fx fr = View.write (Elt F) (sO.access (Rect.unit (s := S2x16x256) ![0, 14, 144] S1x1x16.size inb_S2x16x256_S1x1x16_0_14_144)) (run0.sl.Hr0_w157 d L fx fr)
      (fun x => Gs (sSlot0.view.writes (Elt F) sSlot0.view.junk [⟨Rect.whole S16x256, run0.sl.dma0 d L fx⟩]) ((Rect.unit (s := S2x16x256) ![0, 14, 144] S1x1x16.size inb_S2x16x256_S1x1x16_0_14_144).emb x)) Finset.univ := by
  unfold run0.sl.Hr0_w158
  exact congrArg (fun w => View.write (Elt F) (sO.access (Rect.unit (s := S2x16x256) ![0, 14, 144] S1x1x16.size inb_S2x16x256_S1x1x16_0_14_144)) (run0.sl.Hr0_w157 d L fx fr) w Finset.univ)
    (funext fun x => (pieceA' _ _ _ _ _ _ _ (by decide) x).symm)

set_option maxHeartbeats 1000000 in
theorem step0_159 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w159 d L fx fr = View.write (Elt F) (sO.access (Rect.unit (s := S2x16x256) ![0, 15, 144] S1x1x16.size inb_S2x16x256_S1x1x16_0_15_144)) (run0.sl.Hr0_w158 d L fx fr)
      (fun x => Gs (sSlot0.view.writes (Elt F) sSlot0.view.junk [⟨Rect.whole S16x256, run0.sl.dma0 d L fx⟩]) ((Rect.unit (s := S2x16x256) ![0, 15, 144] S1x1x16.size inb_S2x16x256_S1x1x16_0_15_144).emb x)) Finset.univ := by
  unfold run0.sl.Hr0_w159
  exact congrArg (fun w => View.write (Elt F) (sO.access (Rect.unit (s := S2x16x256) ![0, 15, 144] S1x1x16.size inb_S2x16x256_S1x1x16_0_15_144)) (run0.sl.Hr0_w158 d L fx fr) w Finset.univ)
    (funext fun x => (pieceA' _ _ _ _ _ _ _ (by decide) x).symm)

set_option maxHeartbeats 1000000 in
theorem step0_160 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w160 d L fx fr = View.write (Elt F) (sO.access (Rect.unit (s := S2x16x256) ![0, 0, 144] S1x1x16.size inb_S2x16x256_S1x1x16_0_0_144)) (run0.sl.Hr0_w159 d L fx fr)
      (fun x => Gs (sSlot0.view.writes (Elt F) sSlot0.view.junk [⟨Rect.whole S16x256, run0.sl.dma0 d L fx⟩]) ((Rect.unit (s := S2x16x256) ![0, 0, 144] S1x1x16.size inb_S2x16x256_S1x1x16_0_0_144).emb x)) Finset.univ := by
  unfold run0.sl.Hr0_w160
  unfold run0.sl.r_101 run0.sl.r_90 run0.sl.r_99 run0.sl.r_100 run0.sl.r_97 run0.sl.r_98 run0.sl.r_96 run0.sl.r_94 run0.sl.r_92
  exact congrArg (fun w => View.write (Elt F) (sO.access (Rect.unit (s := S2x16x256) ![0, 0, 144] S1x1x16.size inb_S2x16x256_S1x1x16_0_0_144)) (run0.sl.Hr0_w159 d L fx fr) w Finset.univ)
    (funext fun x => (pieceB' (sSlot0.view.writes (Elt F) sSlot0.view.junk [⟨Rect.whole S16x256, run0.sl.dma0 d L fx⟩]) 0 144 inb_S2x16x256_S1x1x16_0_0_144 inb_S2x16x256_S1x1x16_0_1_144 inb_S2x16x256_S1x1x16_0_2_144 inb_S2x16x256_S1x1x16_0_3_144 inb_S2x16x256_S1x1x16_0_4_144 inb_S2x16x256_S1x1x16_0_5_144 inb_S2x16x256_S1x1x16_0_6_144 inb_S2x16x256_S1x1x16_0_7_144 inb_S2x16x256_S1x1x16_0_8_144 inb_S2x16x256_S1x1x16_0_9_144 inb_S2x16x256_S1x1x16_0_10_144 inb_S2x16x256_S1x1x16_0_11_144 inb_S2x16x256_S1x1x16_0_12_144 inb_S2x16x256_S1x1x16_0_13_144 inb_S2x16x256_S1x1x16_0_14_144 inb_S2x16x256_S1x1x16_0_15_144 shapeCasts_S1x1x16_S16 shapeCasts_S16_S1x1x16 x).symm)

set_option maxHeartbeats 1000000 in
theorem step0_161 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w161 d L fx fr = View.write (Elt F) (sO.access (Rect.unit (s := S2x16x256) ![0, 1, 160] S1x1x16.size inb_S2x16x256_S1x1x16_0_1_160)) (run0.sl.Hr0_w160 d L fx fr)
      (fun x => Gs (sSlot0.view.writes (Elt F) sSlot0.view.junk [⟨Rect.whole S16x256, run0.sl.dma0 d L fx⟩]) ((Rect.unit (s := S2x16x256) ![0, 1, 160] S1x1x16.size inb_S2x16x256_S1x1x16_0_1_160).emb x)) Finset.univ := by
  unfold run0.sl.Hr0_w161
  exact congrArg (fun w => View.write (Elt F) (sO.access (Rect.unit (s := S2x16x256) ![0, 1, 160] S1x1x16.size inb_S2x16x256_S1x1x16_0_1_160)) (run0.sl.Hr0_w160 d L fx fr) w Finset.univ)
    (funext fun x => (pieceA' _ _ _ _ _ _ _ (by decide) x).symm)

set_option maxHeartbeats 1000000 in
theorem step0_162 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w162 d L fx fr = View.write (Elt F) (sO.access (Rect.unit (s := S2x16x256) ![0, 2, 160] S1x1x16.size inb_S2x16x256_S1x1x16_0_2_160)) (run0.sl.Hr0_w161 d L fx fr)
      (fun x => Gs (sSlot0.view.writes (Elt F) sSlot0.view.junk [⟨Rect.whole S16x256, run0.sl.dma0 d L fx⟩]) ((Rect.unit (s := S2x16x256) ![0, 2, 160] S1x1x16.size inb_S2x16x256_S1x1x16_0_2_160).emb x)) Finset.univ := by
  unfold run0.sl.Hr0_w162
  exact congrArg (fun w => View.write (Elt F) (sO.access (Rect.unit (s := S2x16x256) ![0, 2, 160] S1x1x16.size inb_S2x16x256_S1x1x16_0_2_160)) (run0.sl.Hr0_w161 d L fx fr) w Finset.univ)
    (funext fun x => (pieceA' _ _ _ _ _ _ _ (by decide) x).symm)

set_option maxHeartbeats 1000000 in
theorem step0_163 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w163 d L fx fr = View.write (Elt F) (sO.access (Rect.unit (s := S2x16x256) ![0, 3, 160] S1x1x16.size inb_S2x16x256_S1x1x16_0_3_160)) (run0.sl.Hr0_w162 d L fx fr)
      (fun x => Gs (sSlot0.view.writes (Elt F) sSlot0.view.junk [⟨Rect.whole S16x256, run0.sl.dma0 d L fx⟩]) ((Rect.unit (s := S2x16x256) ![0, 3, 160] S1x1x16.size inb_S2x16x256_S1x1x16_0_3_160).emb x)) Finset.univ := by
  unfold run0.sl.Hr0_w163
  exact congrArg (fun w => View.write (Elt F) (sO.access (Rect.unit (s := S2x16x256) ![0, 3, 160] S1x1x16.size inb_S2x16x256_S1x1x16_0_3_160)) (run0.sl.Hr0_w162 d L fx fr) w Finset.univ)
    (funext fun x => (pieceA' _ _ _ _ _ _ _ (by decide) x).symm)

set_option maxHeartbeats 1000000 in
theorem step0_164 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w164 d L fx fr = View.write (Elt F) (sO.access (Rect.unit (s := S2x16x256) ![0, 4, 160] S1x1x16.size inb_S2x16x256_S1x1x16_0_4_160)) (run0.sl.Hr0_w163 d L fx fr)
      (fun x => Gs (sSlot0.view.writes (Elt F) sSlot0.view.junk [⟨Rect.whole S16x256, run0.sl.dma0 d L fx⟩]) ((Rect.unit (s := S2x16x256) ![0, 4, 160] S1x1x16.size inb_S2x16x256_S1x1x16_0_4_160).emb x)) Finset.univ := by
  unfold run0.sl.Hr0_w164
  exact congrArg (fun w => View.write (Elt F) (sO.access (Rect.unit (s := S2x16x256) ![0, 4, 160] S1x1x16.size inb_S2x16x256_S1x1x16_0_4_160)) (run0.sl.Hr0_w163 d L fx fr) w Finset.univ)
    (funext fun x => (pieceA' _ _ _ _ _ _ _ (by decide) x).symm)

set_option maxHeartbeats 1000000 in
theorem step0_165 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w165 d L fx fr = View.write (Elt F) (sO.access (Rect.unit (s := S2x16x256) ![0, 5, 160] S1x1x16.size inb_S2x16x256_S1x1x16_0_5_160)) (run0.sl.Hr0_w164 d L fx fr)
      (fun x => Gs (sSlot0.view.writes (Elt F) sSlot0.view.junk [⟨Rect.whole S16x256, run0.sl.dma0 d L fx⟩]) ((Rect.unit (s := S2x16x256) ![0, 5, 160] S1x1x16.size inb_S2x16x256_S1x1x16_0_5_160).emb x)) Finset.univ := by
  unfold run0.sl.Hr0_w165
  unfold run0.sl.r_104
  exact congrArg (fun w => View.write (Elt F) (sO.access (Rect.unit (s := S2x16x256) ![0, 5, 160] S1x1x16.size inb_S2x16x256_S1x1x16_0_5_160)) (run0.sl.Hr0_w164 d L fx fr) w Finset.univ)
    (funext fun x => (pieceA' _ _ _ _ _ _ _ (by decide) x).symm)

set_option maxHeartbeats 1000000 in
theorem step0_166 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w166 d L fx fr = View.write (Elt F) (sO.access (Rect.unit (s := S2x16x256) ![0, 6, 160] S1x1x16.size inb_S2x16x256_S1x1x16_0_6_160)) (run0.sl.Hr0_w165 d L fx fr)
      (fun x => Gs (sSlot0.view.writes (Elt F) sSlot0.view.junk [⟨Rect.whole S16x256, run0.sl.dma0 d L fx⟩]) ((Rect.unit (s := S2x16x256) ![0, 6, 160] S1x1x16.size inb_S2x16x256_S1x1x16_0_6_160).emb x)) Finset.univ := by
  unfold run0.sl.Hr0_w166
  exact congrArg (fun w => View.write (Elt F) (sO.access (Rect.unit (s := S2x16x256) ![0, 6, 160] S1x1x16.size inb_S2x16x256_S1x1x16_0_6_160)) (run0.sl.Hr0_w165 d L fx fr) w Finset.univ)
    (funext fun x => (pieceA' _ _ _ _ _ _ _ (by decide) x).symm)

set_option maxHeartbeats 1000000 in
theorem step0_167 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w167 d L fx fr = View.write (Elt F) (sO.access (Rect.unit (s := S2x16x256) ![0, 7, 160] S1x1x16.size inb_S2x16x256_S1x1x16_0_7_160)) (run0.sl.Hr0_w166 d L fx fr)
      (fun x => Gs (sSlot0.view.writes (Elt F) sSlot0.view.junk [⟨Rect.whole S16x256, run0.sl.dma0 d L fx⟩]) ((Rect.unit (s := S2x16x256) ![0, 7, 160] S1x1x16.size inb_S2x16x256_S1x1x16_0_7_160).emb x)) Finset.univ := by
  unfold run0.sl.Hr0_w167
  exact congrArg (fun w => View.write (Elt F) (sO.access (Rect.unit (s := S2x16x256) ![0, 7, 160] S1x1x16.size inb_S2x16x256_S1x1x16_0_7_160)) (run0.sl.Hr0_w166 d L fx fr) w Finset.univ)
    (funext fun x => (pieceA' _ _ _ _ _ _ _ (by decide) x).symm)

set_option maxHeartbeats 1000000 in
theorem step0_168 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w168 d L fx fr = View.write (Elt F) (sO.access (Rect.unit (s := S2x16x256) ![0, 8, 160] S1x1x16.size inb_S2x16x256_S1x1x16_0_8_160)) (run0.sl.Hr0_w167 d L fx fr)
      (fun x => Gs (sSlot0.view.writes (Elt F) sSlot0.view.junk [⟨Rect.whole S16x256, run0.sl.dma0 d L fx⟩]) ((Rect.unit (s := S2x16x256) ![0, 8, 160] S1x1x16.size inb_S2x16x256_S1x1x16_0_8_160).emb x)) Finset.univ := by
  unfold run0.sl.Hr0_w168
  unfold run0.sl.r_107
  exact congrArg (fun w => View.write (Elt F) (sO.access (Rect.unit (s := S2x16x256) ![0, 8, 160] S1x1x16.size inb_S2x16x256_S1x1x16_0_8_160)) (run0.sl.Hr0_w167 d L fx fr) w Finset.univ)
    (funext fun x => (pieceA' _ _ _ _ _ _ _ (by decide) x).symm)

set_option maxHeartbeats 1000000 in
theorem step0_169 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w169 d L fx fr = View.write (Elt F) (sO.access (Rect.unit (s := S2x16x256) ![0, 9, 160] S1x1x16.size inb_S2x16x256_S1x1x16_0_9_160)) (run0.sl.Hr0_w168 d L fx fr)
      (fun x => Gs (sSlot0.view.writes (Elt F) sSlot0.view.junk [⟨Rect.whole S16x256, run0.sl.dma0 d L fx⟩]) ((Rect.unit (s := S2x16x256) ![0, 9, 160] S1x1x16.size inb_S2x16x256_S1x1x16_0_9_160).emb x)) Finset.univ := by
  unfold run0.sl.Hr0_w169
  exact congrArg (fun w => View.write (Elt F) (sO.access (Rect.unit (s := S2x16x256) ![0, 9, 160] S1x1x16.size inb_S2x16x256_S1x1x16_0_9_160)) (run0.sl.Hr0_w168 d L fx fr) w Finset.univ)
    (funext fun x => (pieceA' _ _ _ _ _ _ _ (by decide) x).symm)

set_option maxHeartbeats 1000000 in
theorem step0_170 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w170 d L fx fr = View.write (Elt F) (sO.access (Rect.unit (s := S2x16x256) ![0, 10, 160] S1x1x16.size inb_S2x16x256_S1x1x16_0_10_160)) (run0.sl.Hr0_w169 d L fx fr)
      (fun x => Gs (sSlot0.view.writes (Elt F) sSlot0.view.junk [⟨Rect.whole S16x256, run0.sl.dma0 d L fx⟩]) ((Rect.unit (s := S2x16x256) ![0, 10, 160] S1x1x16.size inb_S2x16x256_S1x1x16_0_10_160).emb x)) Finset.univ := by
  unfold run0.sl.Hr0_w170
  exact congrArg (fun w => View.write (Elt F) (sO.access (Rect.unit (s := S2x16x256) ![0, 10, 160] S1x1x16.size inb_S2x16x256_S1x1x16_0_10_160)) (run0.sl.Hr0_w169 d L fx fr) w Finset.univ)
    (funext fun x => (pieceA' _ _ _ _ _ _ _ (by decide) x).symm)

set_option maxHeartbeats 1000000 in
theorem step0_171 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w171 d L fx fr = View.write (Elt F) (sO.access (Rect.unit (s := S2x16x256) ![0, 11, 160] S1x1x16.size inb_S2x16x256_S1x1x16_0_11_160)) (run0.sl.Hr0_w170 d L fx fr)
      (fun x => Gs (sSlot0.view.writes (Elt F) sSlot0.view.junk [⟨Rect.whole S16x256, run0.sl.dma0 d L fx⟩]) ((Rect.unit (s := S2x16x256) ![0, 11, 160] S1x1x16.size inb_S2x16x256_S1x1x16_0_11_160).emb x)) Finset.univ := by
  unfold run0.sl.Hr0_w171
  unfold run0.sl.r_109
  exact congrArg (fun w => View.write (Elt F) (sO.access (Rect.unit (s := S2x16x256) ![0, 11, 160] S1x1x16.size inb_S2x16x256_S1x1x16_0_11_160)) (run0.sl.Hr0_w170 d L fx fr) w Finset.univ)
    (funext fun x => (pieceA' _ _ _ _ _ _ _ (by decide) x).symm)

set_option maxHeartbeats 1000000 in
theorem step0_172 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w172 d L fx fr = View.write (Elt F) (sO.access (Rect.unit (s := S2x16x256) ![0, 12, 160] S1x1x16.size inb_S2x16x256_S1x1x16_0_12_160)) (run0.sl.Hr0_w171 d L fx fr)
      (fun x => Gs (sSlot0.view.writes (Elt F) sSlot0.view.junk [⟨Rect.whole S16x256, run0.sl.dma0 d L fx⟩]) ((Rect.unit (s := S2x16x256) ![0, 12, 160] S1x1x16.size inb_S2x16x256_S1x1x16_0_12_160).emb x)) Finset.univ := by
  unfold run0.sl.Hr0_w172
  exact congrArg (fun w => View.write (Elt F) (sO.access (Rect.unit (s := S2x16x256) ![0, 12, 160] S1x1x16.size inb_S2x16x256_S1x1x16_0_12_160)) (run0.sl.Hr0_w171 d L fx fr) w Finset.univ)
    (funext fun x => (pieceA' _ _ _ _ _ _ _ (by decide) x).symm)

set_option maxHeartbeats 1000000 in
theorem step0_173 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w173 d L fx fr = View.write (Elt F) (sO.access (Rect.unit (s := S2x16x256) ![0, 13, 160] S1x1x16.size inb_S2x16x256_S1x1x16_0_13_160)) (run0.sl.Hr0_w172 d L fx fr)
      (fun x => Gs (sSlot0.view.writes (Elt F) sSlot0.view.junk [⟨Rect.whole S16x256, run0.sl.dma0 d L fx⟩]) ((Rect.unit (s := S2x16x256) ![0, 13, 160] S1x1x16.size inb_S2x16x256_S1x1x16_0_13_160).emb x)) Finset.univ := by
  unfold run0.sl.Hr0_w173
  exact congrArg (fun w => View.write (Elt F) (sO.access (Rect.unit (s := S2x16x256) ![0, 13, 160] S1x1x16.size inb_S2x16x256_S1x1x16_0_13_160)) (run0.sl.Hr0_w172 d L fx fr) w Finset.univ)
    (funext fun x => (pieceA' _ _ _ _ _ _ _ (by decide) x).symm)

set_option maxHeartbeats 1000000 in
theorem step0_174 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w174 d L fx fr = View.write (Elt F) (sO.access (Rect.unit (s := S2x16x256) ![0, 14, 160] S1x1x16.size inb_S2x16x256_S1x1x16_0_14_160)) (run0.sl.Hr0_w173 d L fx fr)
      (fun x => Gs (sSlot0.view.writes (Elt F) sSlot0.view.junk [⟨Rect.whole S16x256, run0.sl.dma0 d L fx⟩]) ((Rect.unit (s := S2x16x256) ![0, 14, 160] S1x1x16.size inb_S2x16x256_S1x1x16_0_14_160).emb x)) Finset.univ := by
  unfold run0.sl.Hr0_w174
  unfold run0.sl.r_112
  exact congrArg (fun w => View.write (Elt F) (sO.access (Rect.unit (s := S2x16x256) ![0, 14, 160] S1x1x16.size inb_S2x16x256_S1x1x16_0_14_160)) (run0.sl.Hr0_w173 d L fx fr) w Finset.univ)
    (funext fun x => (pieceA' _ _ _ _ _ _ _ (by decide) x).symm)

set_option maxHeartbeats 1000000 in
theorem step0_175 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w175 d L fx fr = View.write (Elt F) (sO.access (Rect.unit (s := S2x16x256) ![0, 15, 160] S1x1x16.size inb_S2x16x256_S1x1x16_0_15_160)) (run0.sl.Hr0_w174 d L fx fr)
      (fun x => Gs (sSlot0.view.writes (Elt F) sSlot0.view.junk [⟨Rect.whole S16x256, run0.sl.dma0 d L fx⟩]) ((Rect.unit (s := S2x16x256) ![0, 15, 160] S1x1x16.size inb_S2x16x256_S1x1x16_0_15_160).emb x)) Finset.univ := by
  unfold run0.sl.Hr0_w175
  exact congrArg (fun w => View.write (Elt F) (sO.access (Rect.unit (s := S2x16x256) ![0, 15, 160] S1x1x16.size inb_S2x16x256_S1x1x16_0_15_160)) (run0.sl.Hr0_w174 d L fx fr) w Finset.univ)
    (funext fun x => (pieceA' _ _ _ _ _ _ _ (by decide) x).symm)

set_option maxHeartbeats 1000000 in
theorem step0_176 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w176 d L fx fr = View.write (Elt F) (sO.access (Rect.unit (s := S2x16x256) ![0, 0, 160] S1x1x16.size inb_S2x16x256_S1x1x16_0_0_160)) (run0.sl.Hr0_w175 d L fx fr)
      (fun x => Gs (sSlot0.view.writes (Elt F) sSlot0.view.junk [⟨Rect.whole S16x256, run0.sl.dma0 d L fx⟩]) ((Rect.unit (s := S2x16x256) ![0, 0, 160] S1x1x16.size inb_S2x16x256_S1x1x16_0_0_160).emb x)) Finset.univ := by
  unfold run0.sl.Hr0_w176
  unfold run0.sl.r_102 run0.sl.r_111 run0.sl.r_112 run0.sl.r_110 run0.sl.r_108 run0.sl.r_105 run0.sl.r_103
  exact congrArg (fun w => View.write (Elt F) (sO.access (Rect.unit (s := S2x16x256) ![0, 0, 160] S1x1x16.size inb_S2x16x256_S1x1x16_0_0_160)) (run0.sl.Hr0_w175 d L fx fr) w Finset.univ)
    (funext fun x => (pieceB' (sSlot0.view.writes (Elt F) sSlot0.view.junk [⟨Rect.whole S16x256, run0.sl.dma0 d L fx⟩]) 0 160 inb_S2x16x256_S1x1x16_0_0_160 inb_S2x16x256_S1x1x16_0_1_160 inb_S2x16x256_S1x1x16_0_2_160 inb_S2x16x256_S1x1x16_0_3_160 inb_S2x16x256_S1x1x16_0_4_160 inb_S2x16x256_S1x1x16_0_5_160 inb_S2x16x256_S1x1x16_0_6_160 inb_S2x16x256_S1x1x16_0_7_160 inb_S2x16x256_S1x1x16_0_8_160 inb_S2x16x256_S1x1x16_0_9_160 inb_S2x16x256_S1x1x16_0_10_160 inb_S2x16x256_S1x1x16_0_11_160 inb_S2x16x256_S1x1x16_0_12_160 inb_S2x16x256_S1x1x16_0_13_160 inb_S2x16x256_S1x1x16_0_14_160 inb_S2x16x256_S1x1x16_0_15_160 shapeCasts_S1x1x16_S16 shapeCasts_S16_S1x1x16 x).symm)

set_option maxHeartbeats 1000000 in
theorem step0_177 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w177 d L fx fr = View.write (Elt F) (sO.access (Rect.unit (s := S2x16x256) ![0, 1, 176] S1x1x16.size inb_S2x16x256_S1x1x16_0_1_176)) (run0.sl.Hr0_w176 d L fx fr)
      (fun x => Gs (sSlot0.view.writes (Elt F) sSlot0.view.junk [⟨Rect.whole S16x256, run0.sl.dma0 d L fx⟩]) ((Rect.unit (s := S2x16x256) ![0, 1, 176] S1x1x16.size inb_S2x16x256_S1x1x16_0_1_176).emb x)) Finset.univ := by
  unfold run0.sl.Hr0_w177
  exact congrArg (fun w => View.write (Elt F) (sO.access (Rect.unit (s := S2x16x256) ![0, 1, 176] S1x1x16.size inb_S2x16x256_S1x1x16_0_1_176)) (run0.sl.Hr0_w176 d L fx fr) w Finset.univ)
    (funext fun x => (pieceA' _ _ _ _ _ _ _ (by decide) x).symm)

set_option maxHeartbeats 1000000 in
theorem step0_178 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w178 d L fx fr = View.write (Elt F) (sO.access (Rect.unit (s := S2x16x256) ![0, 2, 176] S1x1x16.size inb_S2x16x256_S1x1x16_0_2_176)) (run0.sl.Hr0_w177 d L fx fr)
      (fun x => Gs (sSlot0.view.writes (Elt F) sSlot0.view.junk [⟨Rect.whole S16x256, run0.sl.dma0 d L fx⟩]) ((Rect.unit (s := S2x16x256) ![0, 2, 176] S1x1x16.size inb_S2x16x256_S1x1x16_0_2_176).emb x)) Finset.univ := by
  unfold run0.sl.Hr0_w178
  exact congrArg (fun w => View.write (Elt F) (sO.access (Rect.unit (s := S2x16x256) ![0, 2, 176] S1x1x16.size inb_S2x16x256_S1x1x16_0_2_176)) (run0.sl.Hr0_w177 d L fx fr) w Finset.univ)
    (funext fun x => (pieceA' _ _ _ _ _ _ _ (by decide) x).symm)

set_option maxHeartbeats 1000000 in
theorem step0_179 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w179 d L fx fr = View.write (Elt F) (sO.access (Rect.unit (s := S2x16x256) ![0, 3, 176] S1x1x16.size inb_S2x16x256_S1x1x16_0_3_176)) (run0.sl.Hr0_w178 d L fx fr)
      (fun x => Gs (sSlot0.view.writes (Elt F) sSlot0.view.junk [⟨Rect.whole S16x256, run0.sl.dma0 d L fx⟩]) ((Rect.unit (s := S2x16x256) ![0, 3, 176] S1x1x16.size inb_S2x16x256_S1x1x16_0_3_176).emb x)) Finset.univ := by
  unfold run0.sl.Hr0_w179
  exact congrArg (fun w => View.write (Elt F) (sO.access (Rect.unit (s := S2x16x256) ![0, 3, 176] S1x1x16.size inb_S2x16x256_S1x1x16_0_3_176)) (run0.sl.Hr0_w178 d L fx fr) w Finset.univ)
    (funext fun x => (pieceA' _ _ _ _ _ _ _ (by decide) x).symm)

set_option maxHeartbeats 1000000 in
theorem step0_180 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w180 d L fx fr = View.write (Elt F) (sO.access (Rect.unit (s := S2x16x256) ![0, 4, 176] S1x1x16.size inb_S2x16x256_S1x1x16_0_4_176)) (run0.sl.Hr0_w179 d L fx fr)
      (fun x => Gs (sSlot0.view.writes (Elt F) sSlot0.view.junk [⟨Rect.whole S16x256, run0.sl.dma0 d L fx⟩]) ((Rect.unit (s := S2x16x256) ![0, 4, 176] S1x1x16.size inb_S2x16x256_S1x1x16_0_4_176).emb x)) Finset.univ := by
  unfold run0.sl.Hr0_w180
  exact congrArg (fun w => View.write (Elt F) (sO.access (Rect.unit (s := S2x16x256) ![0, 4, 176] S1x1x16.size inb_S2x16x256_S1x1x16_0_4_176)) (run0.sl.Hr0_w179 d L fx fr) w Finset.univ)
    (funext fun x => (pieceA' _ _ _ _ _ _ _ (by decide) x).symm)

set_option maxHeartbeats 1000000 in
theorem step0_181 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w181 d L fx fr = View.write (Elt F) (sO.access (Rect.unit (s := S2x16x256) ![0, 5, 176] S1x1x16.size inb_S2x16x256_S1x1x16_0_5_176)) (run0.sl.Hr0_w180 d L fx fr)
      (fun x => Gs (sSlot0.view.writes (Elt F) sSlot0.view.junk [⟨Rect.whole S16x256, run0.sl.dma0 d L fx⟩]) ((Rect.unit (s := S2x16x256) ![0, 5, 176] S1x1x16.size inb_S2x16x256_S1x1x16_0_5_176).emb x)) Finset.univ := by
  unfold run0.sl.Hr0_w181
  exact congrArg (fun w => View.write (Elt F) (sO.access (Rect.unit (s := S2x16x256) ![0, 5, 176] S1x1x16.size inb_S2x16x256_S1x1x16_0_5_176)) (run0.sl.Hr0_w180 d L fx fr) w Finset.univ)
    (funext fun x => (pieceA' _ _ _ _ _ _ _ (by decide) x).symm)

set_option maxHeartbeats 1000000 in
theorem step0_182 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w182 d L fx fr = View.write (Elt F) (sO.access (Rect.unit (s := S2x16x256) ![0, 6, 176] S1x1x16.size inb_S2x16x256_S1x1x16_0_6_176)) (run0.sl.Hr0_w181 d L fx fr)
      (fun x => Gs (sSlot0.view.writes (Elt F) sSlot0.view.junk [⟨Rect.whole S16x256, run0.sl.dma0 d L fx⟩]) ((Rect.unit (s := S2x16x256) ![0, 6, 176] S1x1x16.size inb_S2x16x256_S1x1x16_0_6_176).emb x)) Finset.univ := by
  unfold run0.sl.Hr0_w182
  unfold run0.sl.r_116
  exact congrArg (fun w => View.write (Elt F) (sO.access (Rect.unit (s := S2x16x256) ![0, 6, 176] S1x1x16.size inb_S2x16x256_S1x1x16_0_6_176)) (run0.sl.Hr0_w181 d L fx fr) w Finset.univ)
    (funext fun x => (pieceA' _ _ _ _ _ _ _ (by decide) x).symm)

set_option maxHeartbeats 1000000 in
theorem step0_183 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w183 d L fx fr = View.write (Elt F) (sO.access (Rect.unit (s := S2x16x256) ![0, 7, 176] S1x1x16.size inb_S2x16x256_S1x1x16_0_7_176)) (run0.sl.Hr0_w182 d L fx fr)
      (fun x => Gs (sSlot0.view.writes (Elt F) sSlot0.view.junk [⟨Rect.whole S16x256, run0.sl.dma0 d L fx⟩]) ((Rect.unit (s := S2x16x256) ![0, 7, 176] S1x1x16.size inb_S2x16x256_S1x1x16_0_7_176).emb x)) Finset.univ := by
  unfold run0.sl.Hr0_w183
  exact congrArg (fun w => View.write (Elt F) (sO.access (Rect.unit (s := S2x16x256) ![0, 7, 176] S1x1x16.size inb_S2x16x256_S1x1x16_0_7_176)) (run0.sl.Hr0_w182 d L fx fr) w Finset.univ)
    (funext fun x => (pieceA' _ _ _ _ _ _ _ (by decide) x).symm)

set_option maxHeartbeats 1000000 in
theorem step0_184 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w184 d L fx fr = View.write (Elt F) (sO.access (Rect.unit (s := S2x16x256) ![0, 8, 176] S1x1x16.size inb_S2x16x256_S1x1x16_0_8_176)) (run0.sl.Hr0_w183 d L fx fr)
      (fun x => Gs (sSlot0.view.writes (Elt F) sSlot0.view.junk [⟨Rect.whole S16x256, run0.sl.dma0 d L fx⟩]) ((Rect.unit (s := S2x16x256) ![0, 8, 176] S1x1x16.size inb_S2x16x256_S1x1x16_0_8_176).emb x)) Finset.univ := by
  unfold run0.sl.Hr0_w184
  exact congrArg (fun w => View.write (Elt F) (sO.access (Rect.unit (s := S2x16x256) ![0, 8, 176] S1x1x16.size inb_S2x16x256_S1x1x16_0_8_176)) (run0.sl.Hr0_w183 d L fx fr) w Finset.univ)
    (funext fun x => (pieceA' _ _ _ _ _ _ _ (by decide) x).symm)

set_option maxHeartbeats 1000000 in
theorem step0_185 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w185 d L fx fr = View.write (Elt F) (sO.access (Rect.unit (s := S2x16x256) ![0, 9, 176] S1x1x16.size inb_S2x16x256_S1x1x16_0_9_176)) (run0.sl.Hr0_w184 d L fx fr)
      (fun x => Gs (sSlot0.view.writes (Elt F) sSlot0.view.junk [⟨Rect.whole S16x256, run0.sl.dma0 d L fx⟩]) ((Rect.unit (s := S2x16x256) ![0, 9, 176] S1x1x16.size inb_S2x16x256_S1x1x16_0_9_176).emb x)) Finset.univ := by
  unfold run0.sl.Hr0_w185
  unfold run0.sl.r_117
  exact congrArg (fun w => View.write (Elt F) (sO.access (Rect.unit (s := S2x16x256) ![0, 9, 176] S1x1x16.size inb_S2x16x256_S1x1x16_0_9_176)) (run0.sl.Hr0_w184 d L fx fr) w Finset.univ)
    (funext fun x => (pieceA' _ _ _ _ _ _ _ (by decide) x).symm)

set_option maxHeartbeats 1000000 in
theorem step0_186 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w186 d L fx fr = View.write (Elt F) (sO.access (Rect.unit (s := S2x16x256) ![0, 10, 176] S1x1x16.size inb_S2x16x256_S1x1x16_0_10_176)) (run0.sl.Hr0_w185 d L fx fr)
      (fun x => Gs (sSlot0.view.writes (Elt F) sSlot0.view.junk [⟨Rect.whole S16x256, run0.sl.dma0 d L fx⟩]) ((Rect.unit (s := S2x16x256) ![0, 10, 176] S1x1x16.size inb_S2x16x256_S1x1x16_0_10_176).emb x)) Finset.univ := by
  unfold run0.sl.Hr0_w186
  exact congrArg (fun w => View.write (Elt F) (sO.access (Rect.unit (s := S2x16x256) ![0, 10, 176] S1x1x16.size inb_S2x16x256_S1x1x16_0_10_176)) (run0.sl.Hr0_w185 d L fx fr) w Finset.univ)
    (funext fun x => (pieceA' _ _ _ _ _ _ _ (by decide) x).symm)

set_option maxHeartbeats 1000000 in
theorem step0_187 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w187 d L fx fr = View.write (Elt F) (sO.access (Rect.unit (s := S2x16x256) ![0, 11, 176] S1x1x16.size inb_S2x16x256_S1x1x16_0_11_176)) (run0.sl.Hr0_w186 d L fx fr)
      (fun x => Gs (sSlot0.view.writes (Elt F) sSlot0.view.junk [⟨Rect.whole S16x256, run0.sl.dma0 d L fx⟩]) ((Rect.unit (s := S2x16x256) ![0, 11, 176] S1x1x16.size inb_S2x16x256_S1x1x16_0_11_176).emb x)) Finset.univ := by
  unfold run0.sl.Hr0_w187
  exact congrArg (fun w => View.write (Elt F) (sO.access (Rect.unit (s := S2x16x256) ![0, 11, 176] S1x1x16.size inb_S2x16x256_S1x1x16_0_11_176)) (run0.sl.Hr0_w186 d L fx fr) w Finset.univ)
    (funext fun x => (pieceA' _ _ _ _ _ _ _ (by decide) x).symm)

set_option maxHeartbeats 1000000 in
theorem step0_188 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w188 d L fx fr = View.write (Elt F) (sO.access (Rect.unit (s := S2x16x256) ![0, 12, 176] S1x1x16.size inb_S2x16x256_S1x1x16_0_12_176)) (run0.sl.Hr0_w187 d L fx fr)
      (fun x => Gs (sSlot0.view.writes (Elt F) sSlot0.view.junk [⟨Rect.whole S16x256, run0.sl.dma0 d L fx⟩]) ((Rect.unit (s := S2x16x256) ![0, 12, 176] S1x1x16.size inb_S2x16x256_S1x1x16_0_12_176).emb x)) Finset.univ := by
  unfold run0.sl.Hr0_w188
  unfold run0.sl.r_119
  exact congrArg (fun w => View.write (Elt F) (sO.access (Rect.unit (s := S2x16x256) ![0, 12, 176] S1x1x16.size inb_S2x16x256_S1x1x16_0_12_176)) (run0.sl.Hr0_w187 d L fx fr) w Finset.univ)
    (funext fun x => (pieceA' _ _ _ _ _ _ _ (by decide) x).symm)

set_option maxHeartbeats 1000000 in
theorem step0_189 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w189 d L fx fr = View.write (Elt F) (sO.access (Rect.unit (s := S2x16x256) ![0, 13, 176] S1x1x16.size inb_S2x16x256_S1x1x16_0_13_176)) (run0.sl.Hr0_w188 d L fx fr)
      (fun x => Gs (sSlot0.view.writes (Elt F) sSlot0.view.junk [⟨Rect.whole S16x256, run0.sl.dma0 d L fx⟩]) ((Rect.unit (s := S2x16x256) ![0, 13, 176] S1x1x16.size inb_S2x16x256_S1x1x16_0_13_176).emb x)) Finset.univ := by
  unfold run0.sl.Hr0_w189
  exact congrArg (fun w => View.write (Elt F) (sO.access (Rect.unit (s := S2x16x256) ![0, 13, 176] S1x1x16.size inb_S2x16x256_S1x1x16_0_13_176)) (run0.sl.Hr0_w188 d L fx fr) w Finset.univ)
    (funext fun x => (pieceA' _ _ _ _ _ _ _ (by decide) x).symm)

set_option maxHeartbeats 1000000 in
theorem step0_190 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w190 d L fx fr = View.write (Elt F) (sO.access (Rect.unit (s := S2x16x256) ![0, 14, 176] S1x1x16.size inb_S2x16x256_S1x1x16_0_14_176)) (run0.sl.Hr0_w189 d L fx fr)
      (fun x => Gs (sSlot0.view.writes (Elt F) sSlot0.view.junk [⟨Rect.whole S16x256, run0.sl.dma0 d L fx⟩]) ((Rect.unit (s := S2x16x256) ![0, 14, 176] S1x1x16.size inb_S2x16x256_S1x1x16_0_14_176).emb x)) Finset.univ := by
  unfold run0.sl.Hr0_w190
  exact congrArg (fun w => View.write (Elt F) (sO.access (Rect.unit (s := S2x16x256) ![0, 14, 176] S1x1x16.size inb_S2x16x256_S1x1x16_0_14_176)) (run0.sl.Hr0_w189 d L fx fr) w Finset.univ)
    (funext fun x => (pieceA' _ _ _ _ _ _ _ (by decide) x).symm)

set_option maxHeartbeats 1000000 in
theorem step0_191 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w191 d L fx fr = View.write (Elt F) (sO.access (Rect.unit (s := S2x16x256) ![0, 15, 176] S1x1x16.size inb_S2x16x256_S1x1x16_0_15_176)) (run0.sl.Hr0_w190 d L fx fr)
      (fun x => Gs (sSlot0.view.writes (Elt F) sSlot0.view.junk [⟨Rect.whole S16x256, run0.sl.dma0 d L fx⟩]) ((Rect.unit (s := S2x16x256) ![0, 15, 176] S1x1x16.size inb_S2x16x256_S1x1x16_0_15_176).emb x)) Finset.univ := by
  unfold run0.sl.Hr0_w191
  unfold run0.sl.r_122
  exact congrArg (fun w => View.write (Elt F) (sO.access (Rect.unit (s := S2x16x256) ![0, 15, 176] S1x1x16.size inb_S2x16x256_S1x1x16_0_15_176)) (run0.sl.Hr0_w190 d L fx fr) w Finset.univ)
    (funext fun x => (pieceA' _ _ _ _ _ _ _ (by decide) x).symm)

set_option maxHeartbeats 1000000 in
theorem step0_192 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w192 d L fx fr = View.write (Elt F) (sO.access (Rect.unit (s := S2x16x256) ![0, 0, 176] S1x1x16.size inb_S2x16x256_S1x1x16_0_0_176)) (run0.sl.Hr0_w191 d L fx fr)
      (fun x => Gs (sSlot0.view.writes (Elt F) sSlot0.view.junk [⟨Rect.whole S16x256, run0.sl.dma0 d L fx⟩]) ((Rect.unit (s := S2x16x256) ![0, 0, 176] S1x1x16.size inb_S2x16x256_S1x1x16_0_0_176).emb x)) Finset.univ := by
  unfold run0.sl.Hr0_w192
  unfold run0.sl.r_113 run0.sl.r_121 run0.sl.r_122 run0.sl.r_120 run0.sl.r_118 run0.sl.r_115 run0.sl.r_114
  exact congrArg (fun w => View.write (Elt F) (sO.access (Rect.unit (s := S2x16x256) ![0, 0, 176] S1x1x16.size inb_S2x16x256_S1x1x16_0_0_176)) (run0.sl.Hr0_w191 d L fx fr) w Finset.univ)
    (funext fun x => (pieceB' (sSlot0.view.writes (Elt F) sSlot0.view.junk [⟨Rect.whole S16x256, run0.sl.dma0 d L fx⟩]) 0 176 inb_S2x16x256_S1x1x16_0_0_176 inb_S2x16x256_S1x1x16_0_1_176 inb_S2x16x256_S1x1x16_0_2_176 inb_S2x16x256_S1x1x16_0_3_176 inb_S2x16x256_S1x1x16_0_4_176 inb_S2x16x256_S1x1x16_0_5_176 inb_S2x16x256_S1x1x16_0_6_176 inb_S2x16x256_S1x1x16_0_7_176 inb_S2x16x256_S1x1x16_0_8_176 inb_S2x16x256_S1x1x16_0_9_176 inb_S2x16x256_S1x1x16_0_10_176 inb_S2x16x256_S1x1x16_0_11_176 inb_S2x16x256_S1x1x16_0_12_176 inb_S2x16x256_S1x1x16_0_13_176 inb_S2x16x256_S1x1x16_0_14_176 inb_S2x16x256_S1x1x16_0_15_176 shapeCasts_S1x1x16_S16 shapeCasts_S16_S1x1x16 x).symm)

set_option maxHeartbeats 1000000 in
theorem step0_193 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w193 d L fx fr = View.write (Elt F) (sO.access (Rect.unit (s := S2x16x256) ![0, 1, 192] S1x1x16.size inb_S2x16x256_S1x1x16_0_1_192)) (run0.sl.Hr0_w192 d L fx fr)
      (fun x => Gs (sSlot0.view.writes (Elt F) sSlot0.view.junk [⟨Rect.whole S16x256, run0.sl.dma0 d L fx⟩]) ((Rect.unit (s := S2x16x256) ![0, 1, 192] S1x1x16.size inb_S2x16x256_S1x1x16_0_1_192).emb x)) Finset.univ := by
  unfold run0.sl.Hr0_w193
  exact congrArg (fun w => View.write (Elt F) (sO.access (Rect.unit (s := S2x16x256) ![0, 1, 192] S1x1x16.size inb_S2x16x256_S1x1x16_0_1_192)) (run0.sl.Hr0_w192 d L fx fr) w Finset.univ)
    (funext fun x => (pieceA' _ _ _ _ _ _ _ (by decide) x).symm)

set_option maxHeartbeats 1000000 in
theorem step0_194 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w194 d L fx fr = View.write (Elt F) (sO.access (Rect.unit (s := S2x16x256) ![0, 2, 192] S1x1x16.size inb_S2x16x256_S1x1x16_0_2_192)) (run0.sl.Hr0_w193 d L fx fr)
      (fun x => Gs (sSlot0.view.writes (Elt F) sSlot0.view.junk [⟨Rect.whole S16x256, run0.sl.dma0 d L fx⟩]) ((Rect.unit (s := S2x16x256) ![0, 2, 192] S1x1x16.size inb_S2x16x256_S1x1x16_0_2_192).emb x)) Finset.univ := by
  unfold run0.sl.Hr0_w194
  unfold run0.sl.r_125
  exact congrArg (fun w => View.write (Elt F) (sO.access (Rect.unit (s := S2x16x256) ![0, 2, 192] S1x1x16.size inb_S2x16x256_S1x1x16_0_2_192)) (run0.sl.Hr0_w193 d L fx fr) w Finset.univ)
    (funext fun x => (pieceA' _ _ _ _ _ _ _ (by decide) x).symm)

set_option maxHeartbeats 1000000 in
theorem step0_195 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w195 d L fx fr = View.write (Elt F) (sO.access (Rect.unit (s := S2x16x256) ![0, 3, 192] S1x1x16.size inb_S2x16x256_S1x1x16_0_3_192)) (run0.sl.Hr0_w194 d L fx fr)
      (fun x => Gs (sSlot0.view.writes (Elt F) sSlot0.view.junk [⟨Rect.whole S16x256, run0.sl.dma0 d L fx⟩]) ((Rect.unit (s := S2x16x256) ![0, 3, 192] S1x1x16.size inb_S2x16x256_S1x1x16_0_3_192).emb x)) Finset.univ := by
  unfold run0.sl.Hr0_w195
  exact congrArg (fun w => View.write (Elt F) (sO.access (Rect.unit (s := S2x16x256) ![0, 3, 192] S1x1x16.size inb_S2x16x256_S1x1x16_0_3_192)) (run0.sl.Hr0_w194 d L fx fr) w Finset.univ)
    (funext fun x => (pieceA' _ _ _ _ _ _ _ (by decide) x).symm)

set_option maxHeartbeats 1000000 in
theorem step0_196 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w196 d L fx fr = View.write (Elt F) (sO.access (Rect.unit (s := S2x16x256) ![0, 4, 192] S1x1x16.size inb_S2x16x256_S1x1x16_0_4_192)) (run0.sl.Hr0_w195 d L fx fr)
      (fun x => Gs (sSlot0.view.writes (Elt F) sSlot0.view.junk [⟨Rect.whole S16x256, run0.sl.dma0 d L fx⟩]) ((Rect.unit (s := S2x16x256) ![0, 4, 192] S1x1x16.size inb_S2x16x256_S1x1x16_0_4_192).emb x)) Finset.univ := by
  unfold run0.sl.Hr0_w196
  exact congrArg (fun w => View.write (Elt F) (sO.access (Rect.unit (s := S2x16x256) ![0, 4, 192] S1x1x16.size inb_S2x16x256_S1x1x16_0_4_192)) (run0.sl.Hr0_w195 d L fx fr) w Finset.univ)
    (funext fun x => (pieceA' _ _ _ _ _ _ _ (by decide) x).symm)

set_option maxHeartbeats 1000000 in
theorem step0_197 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w197 d L fx fr = View.write (Elt F) (sO.access (Rect.unit (s := S2x16x256) ![0, 5, 192] S1x1x16.size inb_S2x16x256_S1x1x16_0_5_192)) (run0.sl.Hr0_w196 d L fx fr)
      (fun x => Gs (sSlot0.view.writes (Elt F) sSlot0.view.junk [⟨Rect.whole S16x256, run0.sl.dma0 d L fx⟩]) ((Rect.unit (s := S2x16x256) ![0, 5, 192] S1x1x16.size inb_S2x16x256_S1x1x16_0_5_192).emb x)) Finset.univ := by
  unfold run0.sl.Hr0_w197
  exact congrArg (fun w => View.write (Elt F) (sO.access (Rect.unit (s := S2x16x256) ![0, 5, 192] S1x1x16.size inb_S2x16x256_S1x1x16_0_5_192)) (run0.sl.Hr0_w196 d L fx fr) w Finset.univ)
    (funext fun x => (pieceA' _ _ _ _ _ _ _ (by decide) x).symm)

set_option maxHeartbeats 1000000 in
theorem step0_198 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w198 d L fx fr = View.write (Elt F) (sO.access (Rect.unit (s := S2x16x256) ![0, 6, 192] S1x1x16.size inb_S2x16x256_S1x1x16_0_6_192)) (run0.sl.Hr0_w197 d L fx fr)
      (fun x => Gs (sSlot0.view.writes (Elt F) sSlot0.view.junk [⟨Rect.whole S16x256, run0.sl.dma0 d L fx⟩]) ((Rect.unit (s := S2x16x256) ![0, 6, 192] S1x1x16.size inb_S2x16x256_S1x1x16_0_6_192).emb x)) Finset.univ := by
  unfold run0.sl.Hr0_w198
  exact congrArg (fun w => View.write (Elt F) (sO.access (Rect.unit (s := S2x16x256) ![0, 6, 192] S1x1x16.size inb_S2x16x256_S1x1x16_0_6_192)) (run0.sl.Hr0_w197 d L fx fr) w Finset.univ)
    (funext fun x => (pieceA' _ _ _ _ _ _ _ (by decide) x).symm)

set_option maxHeartbeats 1000000 in
theorem step0_199 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w199 d L fx fr = View.write (Elt F) (sO.access (Rect.unit (s := S2x16x256) ![0, 7, 192] S1x1x16.size inb_S2x16x256_S1x1x16_0_7_192)) (run0.sl.Hr0_w198 d L fx fr)
      (fun x => Gs (sSlot0.view.writes (Elt F) sSlot0.view.junk [⟨Rect.whole S16x256, run0.sl.dma0 d L fx⟩]) ((Rect.unit (s := S2x16x256) ![0, 7, 192] S1x1x16.size inb_S2x16x256_S1x1x16_0_7_192).emb x)) Finset.univ := by
  unfold run0.sl.Hr0_w199
  exact congrArg (fun w => View.write (Elt F) (sO.access (Rect.unit (s := S2x16x256) ![0, 7, 192] S1x1x16.size inb_S2x16x256_S1x1x16_0_7_192)) (run0.sl.Hr0_w198 d L fx fr) w Finset.univ)
    (funext fun x => (pieceA' _ _ _ _ _ _ _ (by decide) x).symm)

set_option maxHeartbeats 1000000 in
theorem step0_200 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w200 d L fx fr = View.write (Elt F) (sO.access (Rect.unit (s := S2x16x256) ![0, 8, 192] S1x1x16.size inb_S2x16x256_S1x1x16_0_8_192)) (run0.sl.Hr0_w199 d L fx fr)
      (fun x => Gs (sSlot0.view.writes (Elt F) sSlot0.view.junk [⟨Rect.whole S16x256, run0.sl.dma0 d L fx⟩]) ((Rect.unit (s := S2x16x256) ![0, 8, 192] S1x1x16.size inb_S2x16x256_S1x1x16_0_8_192).emb x)) Finset.univ := by
  unfold run0.sl.Hr0_w200
  exact congrArg (fun w => View.write (Elt F) (sO.access (Rect.unit (s := S2x16x256) ![0, 8, 192] S1x1x16.size inb_S2x16x256_S1x1x16_0_8_192)) (run0.sl.Hr0_w199 d L fx fr) w Finset.univ)
    (funext fun x => (pieceA' _ _ _ _ _ _ _ (by decide) x).symm)

set_option maxHeartbeats 1000000 in
theorem step0_201 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w201 d L fx fr = View.write (Elt F) (sO.access (Rect.unit (s := S2x16x256) ![0, 9, 192] S1x1x16.size inb_S2x16x256_S1x1x16_0_9_192)) (run0.sl.Hr0_w200 d L fx fr)
      (fun x => Gs (sSlot0.view.writes (Elt F) sSlot0.view.junk [⟨Rect.whole S16x256, run0.sl.dma0 d L fx⟩]) ((Rect.unit (s := S2x16x256) ![0, 9, 192] S1x1x16.size inb_S2x16x256_S1x1x16_0_9_192).emb x)) Finset.univ := by
  unfold run0.sl.Hr0_w201
  exact congrArg (fun w => View.write (Elt F) (sO.access (Rect.unit (s := S2x16x256) ![0, 9, 192] S1x1x16.size inb_S2x16x256_S1x1x16_0_9_192)) (run0.sl.Hr0_w200 d L fx fr) w Finset.univ)
    (funext fun x => (pieceA' _ _ _ _ _ _ _ (by decide) x).symm)

set_option maxHeartbeats 1000000 in
theorem step0_202 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w202 d L fx fr = View.write (Elt F) (sO.access (Rect.unit (s := S2x16x256) ![0, 10, 192] S1x1x16.size inb_S2x16x256_S1x1x16_0_10_192)) (run0.sl.Hr0_w201 d L fx fr)
      (fun x => Gs (sSlot0.view.writes (Elt F) sSlot0.view.junk [⟨Rect.whole S16x256, run0.sl.dma0 d L fx⟩]) ((Rect.unit (s := S2x16x256) ![0, 10, 192] S1x1x16.size inb_S2x16x256_S1x1x16_0_10_192).emb x)) Finset.univ := by
  unfold run0.sl.Hr0_w202
  unfold run0.sl.r_128
  exact congrArg (fun w => View.write (Elt F) (sO.access (Rect.unit (s := S2x16x256) ![0, 10, 192] S1x1x16.size inb_S2x16x256_S1x1x16_0_10_192)) (run0.sl.Hr0_w201 d L fx fr) w Finset.univ)
    (funext fun x => (pieceA' _ _ _ _ _ _ _ (by decide) x).symm)

set_option maxHeartbeats 1000000 in
theorem step0_203 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w203 d L fx fr = View.write (Elt F) (sO.access (Rect.unit (s := S2x16x256) ![0, 11, 192] S1x1x16.size inb_S2x16x256_S1x1x16_0_11_192)) (run0.sl.Hr0_w202 d L fx fr)
      (fun x => Gs (sSlot0.view.writes (Elt F) sSlot0.view.junk [⟨Rect.whole S16x256, run0.sl.dma0 d L fx⟩]) ((Rect.unit (s := S2x16x256) ![0, 11, 192] S1x1x16.size inb_S2x16x256_S1x1x16_0_11_192).emb x)) Finset.univ := by
  unfold run0.sl.Hr0_w203
  exact congrArg (fun w => View.write (Elt F) (sO.access (Rect.unit (s := S2x16x256) ![0, 11, 192] S1x1x16.size inb_S2x16x256_S1x1x16_0_11_192)) (run0.sl.Hr0_w202 d L fx fr) w Finset.univ)
    (funext fun x => (pieceA' _ _ _ _ _ _ _ (by decide) x).symm)

set_option maxHeartbeats 1000000 in
theorem step0_204 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w204 d L fx fr = View.write (Elt F) (sO.access (Rect.unit (s := S2x16x256) ![0, 12, 192] S1x1x16.size inb_S2x16x256_S1x1x16_0_12_192)) (run0.sl.Hr0_w203 d L fx fr)
      (fun x => Gs (sSlot0.view.writes (Elt F) sSlot0.view.junk [⟨Rect.whole S16x256, run0.sl.dma0 d L fx⟩]) ((Rect.unit (s := S2x16x256) ![0, 12, 192] S1x1x16.size inb_S2x16x256_S1x1x16_0_12_192).emb x)) Finset.univ := by
  unfold run0.sl.Hr0_w204
  exact congrArg (fun w => View.write (Elt F) (sO.access (Rect.unit (s := S2x16x256) ![0, 12, 192] S1x1x16.size inb_S2x16x256_S1x1x16_0_12_192)) (run0.sl.Hr0_w203 d L fx fr) w Finset.univ)
    (funext fun x => (pieceA' _ _ _ _ _ _ _ (by decide) x).symm)

set_option maxHeartbeats 1000000 in
theorem step0_205 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w205 d L fx fr = View.write (Elt F) (sO.access (Rect.unit (s := S2x16x256) ![0, 13, 192] S1x1x16.size inb_S2x16x256_S1x1x16_0_13_192)) (run0.sl.Hr0_w204 d L fx fr)
      (fun x => Gs (sSlot0.view.writes (Elt F) sSlot0.view.junk [⟨Rect.whole S16x256, run0.sl.dma0 d L fx⟩]) ((Rect.unit (s := S2x16x256) ![0, 13, 192] S1x1x16.size inb_S2x16x256_S1x1x16_0_13_192).emb x)) Finset.univ := by
  unfold run0.sl.Hr0_w205
  unfold run0.sl.r_130
  exact congrArg (fun w => View.write (Elt F) (sO.access (Rect.unit (s := S2x16x256) ![0, 13, 192] S1x1x16.size inb_S2x16x256_S1x1x16_0_13_192)) (run0.sl.Hr0_w204 d L fx fr) w Finset.univ)
    (funext fun x => (pieceA' _ _ _ _ _ _ _ (by decide) x).symm)

set_option maxHeartbeats 1000000 in
theorem step0_206 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w206 d L fx fr = View.write (Elt F) (sO.access (Rect.unit (s := S2x16x256) ![0, 14, 192] S1x1x16.size inb_S2x16x256_S1x1x16_0_14_192)) (run0.sl.Hr0_w205 d L fx fr)
      (fun x => Gs (sSlot0.view.writes (Elt F) sSlot0.view.junk [⟨Rect.whole S16x256, run0.sl.dma0 d L fx⟩]) ((Rect.unit (s := S2x16x256) ![0, 14, 192] S1x1x16.size inb_S2x16x256_S1x1x16_0_14_192).emb x)) Finset.univ := by
  unfold run0.sl.Hr0_w206
  exact congrArg (fun w => View.write (Elt F) (sO.access (Rect.unit (s := S2x16x256) ![0, 14, 192] S1x1x16.size inb_S2x16x256_S1x1x16_0_14_192)) (run0.sl.Hr0_w205 d L fx fr) w Finset.univ)
    (funext fun x => (pieceA' _ _ _ _ _ _ _ (by decide) x).symm)

set_option maxHeartbeats 1000000 in
theorem step0_207 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w207 d L fx fr = View.write (Elt F) (sO.access (Rect.unit (s := S2x16x256) ![0, 15, 192] S1x1x16.size inb_S2x16x256_S1x1x16_0_15_192)) (run0.sl.Hr0_w206 d L fx fr)
      (fun x => Gs (sSlot0.view.writes (Elt F) sSlot0.view.junk [⟨Rect.whole S16x256, run0.sl.dma0 d L fx⟩]) ((Rect.unit (s := S2x16x256) ![0, 15, 192] S1x1x16.size inb_S2x16x256_S1x1x16_0_15_192).emb x)) Finset.univ := by
  unfold run0.sl.Hr0_w207
  exact congrArg (fun w => View.write (Elt F) (sO.access (Rect.unit (s := S2x16x256) ![0, 15, 192] S1x1x16.size inb_S2x16x256_S1x1x16_0_15_192)) (run0.sl.Hr0_w206 d L fx fr) w Finset.univ)
    (funext fun x => (pieceA' _ _ _ _ _ _ _ (by decide) x).symm)

set_option maxHeartbeats 1000000 in
theorem step0_208 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w208 d L fx fr = View.write (Elt F) (sO.access (Rect.unit (s := S2x16x256) ![0, 0, 192] S1x1x16.size inb_S2x16x256_S1x1x16_0_0_192)) (run0.sl.Hr0_w207 d L fx fr)
      (fun x => Gs (sSlot0.view.writes (Elt F) sSlot0.view.junk [⟨Rect.whole S16x256, run0.sl.dma0 d L fx⟩]) ((Rect.unit (s := S2x16x256) ![0, 0, 192] S1x1x16.size inb_S2x16x256_S1x1x16_0_0_192).emb x)) Finset.univ := by
  unfold run0.sl.Hr0_w208
  unfold run0.sl.r_123 run0.sl.r_131 run0.sl.r_129 run0.sl.r_127 run0.sl.r_126 run0.sl.r_124 run0.sl.r_125
  exact congrArg (fun w => View.write (Elt F) (sO.access (Rect.unit (s := S2x16x256) ![0, 0, 192] S1x1x16.size inb_S2x16x256_S1x1x16_0_0_192)) (run0.sl.Hr0_w207 d L fx fr) w Finset.univ)
    (funext fun x => (pieceB' (sSlot0.view.writes (Elt F) sSlot0.view.junk [⟨Rect.whole S16x256, run0.sl.dma0 d L fx⟩]) 0 192 inb_S2x16x256_S1x1x16_0_0_192 inb_S2x16x256_S1x1x16_0_1_192 inb_S2x16x256_S1x1x16_0_2_192 inb_S2x16x256_S1x1x16_0_3_192 inb_S2x16x256_S1x1x16_0_4_192 inb_S2x16x256_S1x1x16_0_5_192 inb_S2x16x256_S1x1x16_0_6_192 inb_S2x16x256_S1x1x16_0_7_192 inb_S2x16x256_S1x1x16_0_8_192 inb_S2x16x256_S1x1x16_0_9_192 inb_S2x16x256_S1x1x16_0_10_192 inb_S2x16x256_S1x1x16_0_11_192 inb_S2x16x256_S1x1x16_0_12_192 inb_S2x16x256_S1x1x16_0_13_192 inb_S2x16x256_S1x1x16_0_14_192 inb_S2x16x256_S1x1x16_0_15_192 shapeCasts_S1x1x16_S16 shapeCasts_S16_S1x1x16 x).symm)

set_option maxHeartbeats 1000000 in
theorem step0_209 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w209 d L fx fr = View.write (Elt F) (sO.access (Rect.unit (s := S2x16x256) ![0, 1, 208] S1x1x16.size inb_S2x16x256_S1x1x16_0_1_208)) (run0.sl.Hr0_w208 d L fx fr)
      (fun x => Gs (sSlot0.view.writes (Elt F) sSlot0.view.junk [⟨Rect.whole S16x256, run0.sl.dma0 d L fx⟩]) ((Rect.unit (s := S2x16x256) ![0, 1, 208] S1x1x16.size inb_S2x16x256_S1x1x16_0_1_208).emb x)) Finset.univ := by
  unfold run0.sl.Hr0_w209
  exact congrArg (fun w => View.write (Elt F) (sO.access (Rect.unit (s := S2x16x256) ![0, 1, 208] S1x1x16.size inb_S2x16x256_S1x1x16_0_1_208)) (run0.sl.Hr0_w208 d L fx fr) w Finset.univ)
    (funext fun x => (pieceA' _ _ _ _ _ _ _ (by decide) x).symm)

set_option maxHeartbeats 1000000 in
theorem step0_210 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w210 d L fx fr = View.write (Elt F) (sO.access (Rect.unit (s := S2x16x256) ![0, 2, 208] S1x1x16.size inb_S2x16x256_S1x1x16_0_2_208)) (run0.sl.Hr0_w209 d L fx fr)
      (fun x => Gs (sSlot0.view.writes (Elt F) sSlot0.view.junk [⟨Rect.whole S16x256, run0.sl.dma0 d L fx⟩]) ((Rect.unit (s := S2x16x256) ![0, 2, 208] S1x1x16.size inb_S2x16x256_S1x1x16_0_2_208).emb x)) Finset.univ := by
  unfold run0.sl.Hr0_w210
  exact congrArg (fun w => View.write (Elt F) (sO.access (Rect.unit (s := S2x16x256) ![0, 2, 208] S1x1x16.size inb_S2x16x256_S1x1x16_0_2_208)) (run0.sl.Hr0_w209 d L fx fr) w Finset.univ)
    (funext fun x => (pieceA' _ _ _ _ _ _ _ (by decide) x).symm)

set_option maxHeartbeats 1000000 in
theorem step0_211 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w211 d L fx fr = View.write (Elt F) (sO.access (Rect.unit (s := S2x16x256) ![0, 3, 208] S1x1x16.size inb_S2x16x256_S1x1x16_0_3_208)) (run0.sl.Hr0_w210 d L fx fr)
      (fun x => Gs (sSlot0.view.writes (Elt F) sSlot0.view.junk [⟨Rect.whole S16x256, run0.sl.dma0 d L fx⟩]) ((Rect.unit (s := S2x16x256) ![0, 3, 208] S1x1x16.size inb_S2x16x256_S1x1x16_0_3_208).emb x)) Finset.univ := by
  unfold run0.sl.Hr0_w211
  unfold run0.sl.r_134
  exact congrArg (fun w => View.write (Elt F) (sO.access (Rect.unit (s := S2x16x256) ![0, 3, 208] S1x1x16.size inb_S2x16x256_S1x1x16_0_3_208)) (run0.sl.Hr0_w210 d L fx fr) w Finset.univ)
    (funext fun x => (pieceA' _ _ _ _ _ _ _ (by decide) x).symm)

set_option maxHeartbeats 1000000 in
theorem step0_212 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w212 d L fx fr = View.write (Elt F) (sO.access (Rect.unit (s := S2x16x256) ![0, 4, 208] S1x1x16.size inb_S2x16x256_S1x1x16_0_4_208)) (run0.sl.Hr0_w211 d L fx fr)
      (fun x => Gs (sSlot0.view.writes (Elt F) sSlot0.view.junk [⟨Rect.whole S16x256, run0.sl.dma0 d L fx⟩]) ((Rect.unit (s := S2x16x256) ![0, 4, 208] S1x1x16.size inb_S2x16x256_S1x1x16_0_4_208).emb x)) Finset.univ := by
  unfold run0.sl.Hr0_w212
  exact congrArg (fun w => View.write (Elt F) (sO.access (Rect.unit (s := S2x16x256) ![0, 4, 208] S1x1x16.size inb_S2x16x256_S1x1x16_0_4_208)) (run0.sl.Hr0_w211 d L fx fr) w Finset.univ)
    (funext fun x => (pieceA' _ _ _ _ _ _ _ (by decide) x).symm)

set_option maxHeartbeats 1000000 in
theorem step0_213 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w213 d L fx fr = View.write (Elt F) (sO.access (Rect.unit (s := S2x16x256) ![0, 5, 208] S1x1x16.size inb_S2x16x256_S1x1x16_0_5_208)) (run0.sl.Hr0_w212 d L fx fr)
      (fun x => Gs (sSlot0.view.writes (Elt F) sSlot0.view.junk [⟨Rect.whole S16x256, run0.sl.dma0 d L fx⟩]) ((Rect.unit (s := S2x16x256) ![0, 5, 208] S1x1x16.size inb_S2x16x256_S1x1x16_0_5_208).emb x)) Finset.univ := by
  unfold run0.sl.Hr0_w213
  exact congrArg (fun w => View.write (Elt F) (sO.access (Rect.unit (s := S2x16x256) ![0, 5, 208] S1x1x16.size inb_S2x16x256_S1x1x16_0_5_208)) (run0.sl.Hr0_w212 d L fx fr) w Finset.univ)
    (funext fun x => (pieceA' _ _ _ _ _ _ _ (by decide) x).symm)

set_option maxHeartbeats 1000000 in
theorem step0_214 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w214 d L fx fr = View.write (Elt F) (sO.access (Rect.unit (s := S2x16x256) ![0, 6, 208] S1x1x16.size inb_S2x16x256_S1x1x16_0_6_208)) (run0.sl.Hr0_w213 d L fx fr)
      (fun x => Gs (sSlot0.view.writes (Elt F) sSlot0.view.junk [⟨Rect.whole S16x256, run0.sl.dma0 d L fx⟩]) ((Rect.unit (s := S2x16x256) ![0, 6, 208] S1x1x16.size inb_S2x16x256_S1x1x16_0_6_208).emb x)) Finset.univ := by
  unfold run0.sl.Hr0_w214
  unfold run0.sl.r_136
  exact congrArg (fun w => View.write (Elt F) (sO.access (Rect.unit (s := S2x16x256) ![0, 6, 208] S1x1x16.size inb_S2x16x256_S1x1x16_0_6_208)) (run0.sl.Hr0_w213 d L fx fr) w Finset.univ)
    (funext fun x => (pieceA' _ _ _ _ _ _ _ (by decide) x).symm)

set_option maxHeartbeats 1000000 in
theorem step0_215 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w215 d L fx fr = View.write (Elt F) (sO.access (Rect.unit (s := S2x16x256) ![0, 7, 208] S1x1x16.size inb_S2x16x256_S1x1x16_0_7_208)) (run0.sl.Hr0_w214 d L fx fr)
      (fun x => Gs (sSlot0.view.writes (Elt F) sSlot0.view.junk [⟨Rect.whole S16x256, run0.sl.dma0 d L fx⟩]) ((Rect.unit (s := S2x16x256) ![0, 7, 208] S1x1x16.size inb_S2x16x256_S1x1x16_0_7_208).emb x)) Finset.univ := by
  unfold run0.sl.Hr0_w215
  exact congrArg (fun w => View.write (Elt F) (sO.access (Rect.unit (s := S2x16x256) ![0, 7, 208] S1x1x16.size inb_S2x16x256_S1x1x16_0_7_208)) (run0.sl.Hr0_w214 d L fx fr) w Finset.univ)
    (funext fun x => (pieceA' _ _ _ _ _ _ _ (by decide) x).symm)

set_option maxHeartbeats 1000000 in
theorem step0_216 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w216 d L fx fr = View.write (Elt F) (sO.access (Rect.unit (s := S2x16x256) ![0, 8, 208] S1x1x16.size inb_S2x16x256_S1x1x16_0_8_208)) (run0.sl.Hr0_w215 d L fx fr)
      (fun x => Gs (sSlot0.view.writes (Elt F) sSlot0.view.junk [⟨Rect.whole S16x256, run0.sl.dma0 d L fx⟩]) ((Rect.unit (s := S2x16x256) ![0, 8, 208] S1x1x16.size inb_S2x16x256_S1x1x16_0_8_208).emb x)) Finset.univ := by
  unfold run0.sl.Hr0_w216
  exact congrArg (fun w => View.write (Elt F) (sO.access (Rect.unit (s := S2x16x256) ![0, 8, 208] S1x1x16.size inb_S2x16x256_S1x1x16_0_8_208)) (run0.sl.Hr0_w215 d L fx fr) w Finset.univ)
    (funext fun x => (pieceA' _ _ _ _ _ _ _ (by decide) x).symm)

set_option maxHeartbeats 1000000 in
theorem step0_217 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w217 d L fx fr = View.write (Elt F) (sO.access (Rect.unit (s := S2x16x256) ![0, 9, 208] S1x1x16.size inb_S2x16x256_S1x1x16_0_9_208)) (run0.sl.Hr0_w216 d L fx fr)
      (fun x => Gs (sSlot0.view.writes (Elt F) sSlot0.view.junk [⟨Rect.whole S16x256, run0.sl.dma0 d L fx⟩]) ((Rect.unit (s := S2x16x256) ![0, 9, 208] S1x1x16.size inb_S2x16x256_S1x1x16_0_9_208).emb x)) Finset.univ := by
  unfold run0.sl.Hr0_w217
  exact congrArg (fun w => View.write (Elt F) (sO.access (Rect.unit (s := S2x16x256) ![0, 9, 208] S1x1x16.size inb_S2x16x256_S1x1x16_0_9_208)) (run0.sl.Hr0_w216 d L fx fr) w Finset.univ)
    (funext fun x => (pieceA' _ _ _ _ _ _ _ (by decide) x).symm)

set_option maxHeartbeats 1000000 in
theorem step0_218 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w218 d L fx fr = View.write (Elt F) (sO.access (Rect.unit (s := S2x16x256) ![0, 10, 208] S1x1x16.size inb_S2x16x256_S1x1x16_0_10_208)) (run0.sl.Hr0_w217 d L fx fr)
      (fun x => Gs (sSlot0.view.writes (Elt F) sSlot0.view.junk [⟨Rect.whole S16x256, run0.sl.dma0 d L fx⟩]) ((Rect.unit (s := S2x16x256) ![0, 10, 208] S1x1x16.size inb_S2x16x256_S1x1x16_0_10_208).emb x)) Finset.univ := by
  unfold run0.sl.Hr0_w218
  exact congrArg (fun w => View.write (Elt F) (sO.access (Rect.unit (s := S2x16x256) ![0, 10, 208] S1x1x16.size inb_S2x16x256_S1x1x16_0_10_208)) (run0.sl.Hr0_w217 d L fx fr) w Finset.univ)
    (funext fun x => (pieceA' _ _ _ _ _ _ _ (by decide) x).symm)

set_option maxHeartbeats 1000000 in
theorem step0_219 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w219 d L fx fr = View.write (Elt F) (sO.access (Rect.unit (s := S2x16x256) ![0, 11, 208] S1x1x16.size inb_S2x16x256_S1x1x16_0_11_208)) (run0.sl.Hr0_w218 d L fx fr)
      (fun x => Gs (sSlot0.view.writes (Elt F) sSlot0.view.junk [⟨Rect.whole S16x256, run0.sl.dma0 d L fx⟩]) ((Rect.unit (s := S2x16x256) ![0, 11, 208] S1x1x16.size inb_S2x16x256_S1x1x16_0_11_208).emb x)) Finset.univ := by
  unfold run0.sl.Hr0_w219
  exact congrArg (fun w => View.write (Elt F) (sO.access (Rect.unit (s := S2x16x256) ![0, 11, 208] S1x1x16.size inb_S2x16x256_S1x1x16_0_11_208)) (run0.sl.Hr0_w218 d L fx fr) w Finset.univ)
    (funext fun x => (pieceA' _ _ _ _ _ _ _ (by decide) x).symm)

set_option maxHeartbeats 1000000 in
theorem step0_220 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w220 d L fx fr = View.write (Elt F) (sO.access (Rect.unit (s := S2x16x256) ![0, 12, 208] S1x1x16.size inb_S2x16x256_S1x1x16_0_12_208)) (run0.sl.Hr0_w219 d L fx fr)
      (fun x => Gs (sSlot0.view.writes (Elt F) sSlot0.view.junk [⟨Rect.whole S16x256, run0.sl.dma0 d L fx⟩]) ((Rect.unit (s := S2x16x256) ![0, 12, 208] S1x1x16.size inb_S2x16x256_S1x1x16_0_12_208).emb x)) Finset.univ := by
  unfold run0.sl.Hr0_w220
  exact congrArg (fun w => View.write (Elt F) (sO.access (Rect.unit (s := S2x16x256) ![0, 12, 208] S1x1x16.size inb_S2x16x256_S1x1x16_0_12_208)) (run0.sl.Hr0_w219 d L fx fr) w Finset.univ)
    (funext fun x => (pieceA' _ _ _ _ _ _ _ (by decide) x).symm)

set_option maxHeartbeats 1000000 in
theorem step0_221 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w221 d L fx fr = View.write (Elt F) (sO.access (Rect.unit (s := S2x16x256) ![0, 13, 208] S1x1x16.size inb_S2x16x256_S1x1x16_0_13_208)) (run0.sl.Hr0_w220 d L fx fr)
      (fun x => Gs (sSlot0.view.writes (Elt F) sSlot0.view.junk [⟨Rect.whole S16x256, run0.sl.dma0 d L fx⟩]) ((Rect.unit (s := S2x16x256) ![0, 13, 208] S1x1x16.size inb_S2x16x256_S1x1x16_0_13_208).emb x)) Finset.univ := by
  unfold run0.sl.Hr0_w221
  exact congrArg (fun w => View.write (Elt F) (sO.access (Rect.unit (s := S2x16x256) ![0, 13, 208] S1x1x16.size inb_S2x16x256_S1x1x16_0_13_208)) (run0.sl.Hr0_w220 d L fx fr) w Finset.univ)
    (funext fun x => (pieceA' _ _ _ _ _ _ _ (by decide) x).symm)

set_option maxHeartbeats 1000000 in
theorem step0_222 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w222 d L fx fr = View.write (Elt F) (sO.access (Rect.unit (s := S2x16x256) ![0, 14, 208] S1x1x16.size inb_S2x16x256_S1x1x16_0_14_208)) (run0.sl.Hr0_w221 d L fx fr)
      (fun x => Gs (sSlot0.view.writes (Elt F) sSlot0.view.junk [⟨Rect.whole S16x256, run0.sl.dma0 d L fx⟩]) ((Rect.unit (s := S2x16x256) ![0, 14, 208] S1x1x16.size inb_S2x16x256_S1x1x16_0_14_208).emb x)) Finset.univ := by
  unfold run0.sl.Hr0_w222
  unfold run0.sl.r_139
  exact congrArg (fun w => View.write (Elt F) (sO.access (Rect.unit (s := S2x16x256) ![0, 14, 208] S1x1x16.size inb_S2x16x256_S1x1x16_0_14_208)) (run0.sl.Hr0_w221 d L fx fr) w Finset.univ)
    (funext fun x => (pieceA' _ _ _ _ _ _ _ (by decide) x).symm)

set_option maxHeartbeats 1000000 in
theorem step0_223 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w223 d L fx fr = View.write (Elt F) (sO.access (Rect.unit (s := S2x16x256) ![0, 15, 208] S1x1x16.size inb_S2x16x256_S1x1x16_0_15_208)) (run0.sl.Hr0_w222 d L fx fr)
      (fun x => Gs (sSlot0.view.writes (Elt F) sSlot0.view.junk [⟨Rect.whole S16x256, run0.sl.dma0 d L fx⟩]) ((Rect.unit (s := S2x16x256) ![0, 15, 208] S1x1x16.size inb_S2x16x256_S1x1x16_0_15_208).emb x)) Finset.univ := by
  unfold run0.sl.Hr0_w223
  exact congrArg (fun w => View.write (Elt F) (sO.access (Rect.unit (s := S2x16x256) ![0, 15, 208] S1x1x16.size inb_S2x16x256_S1x1x16_0_15_208)) (run0.sl.Hr0_w222 d L fx fr) w Finset.univ)
    (funext fun x => (pieceA' _ _ _ _ _ _ _ (by decide) x).symm)

set_option maxHeartbeats 1000000 in
theorem step0_224 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w224 d L fx fr = View.write (Elt F) (sO.access (Rect.unit (s := S2x16x256) ![0, 0, 208] S1x1x16.size inb_S2x16x256_S1x1x16_0_0_208)) (run0.sl.Hr0_w223 d L fx fr)
      (fun x => Gs (sSlot0.view.writes (Elt F) sSlot0.view.junk [⟨Rect.whole S16x256, run0.sl.dma0 d L fx⟩]) ((Rect.unit (s := S2x16x256) ![0, 0, 208] S1x1x16.size inb_S2x16x256_S1x1x16_0_0_208).emb x)) Finset.univ := by
  unfold run0.sl.Hr0_w224
  unfold run0.sl.r_132 run0.sl.r_140 run0.sl.r_138 run0.sl.r_137 run0.sl.r_135 run0.sl.r_136 run0.sl.r_133 run0.sl.r_134
  exact congrArg (fun w => View.write (Elt F) (sO.access (Rect.unit (s := S2x16x256) ![0, 0, 208] S1x1x16.size inb_S2x16x256_S1x1x16_0_0_208)) (run0.sl.Hr0_w223 d L fx fr) w Finset.univ)
    (funext fun x => (pieceB' (sSlot0.view.writes (Elt F) sSlot0.view.junk [⟨Rect.whole S16x256, run0.sl.dma0 d L fx⟩]) 0 208 inb_S2x16x256_S1x1x16_0_0_208 inb_S2x16x256_S1x1x16_0_1_208 inb_S2x16x256_S1x1x16_0_2_208 inb_S2x16x256_S1x1x16_0_3_208 inb_S2x16x256_S1x1x16_0_4_208 inb_S2x16x256_S1x1x16_0_5_208 inb_S2x16x256_S1x1x16_0_6_208 inb_S2x16x256_S1x1x16_0_7_208 inb_S2x16x256_S1x1x16_0_8_208 inb_S2x16x256_S1x1x16_0_9_208 inb_S2x16x256_S1x1x16_0_10_208 inb_S2x16x256_S1x1x16_0_11_208 inb_S2x16x256_S1x1x16_0_12_208 inb_S2x16x256_S1x1x16_0_13_208 inb_S2x16x256_S1x1x16_0_14_208 inb_S2x16x256_S1x1x16_0_15_208 shapeCasts_S1x1x16_S16 shapeCasts_S16_S1x1x16 x).symm)

set_option maxHeartbeats 1000000 in
theorem step0_225 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w225 d L fx fr = View.write (Elt F) (sO.access (Rect.unit (s := S2x16x256) ![0, 1, 224] S1x1x16.size inb_S2x16x256_S1x1x16_0_1_224)) (run0.sl.Hr0_w224 d L fx fr)
      (fun x => Gs (sSlot0.view.writes (Elt F) sSlot0.view.junk [⟨Rect.whole S16x256, run0.sl.dma0 d L fx⟩]) ((Rect.unit (s := S2x16x256) ![0, 1, 224] S1x1x16.size inb_S2x16x256_S1x1x16_0_1_224).emb x)) Finset.univ := by
  unfold run0.sl.Hr0_w225
  unfold run0.sl.r_143
  exact congrArg (fun w => View.write (Elt F) (sO.access (Rect.unit (s := S2x16x256) ![0, 1, 224] S1x1x16.size inb_S2x16x256_S1x1x16_0_1_224)) (run0.sl.Hr0_w224 d L fx fr) w Finset.univ)
    (funext fun x => (pieceA' _ _ _ _ _ _ _ (by decide) x).symm)

set_option maxHeartbeats 1000000 in
theorem step0_226 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w226 d L fx fr = View.write (Elt F) (sO.access (Rect.unit (s := S2x16x256) ![0, 2, 224] S1x1x16.size inb_S2x16x256_S1x1x16_0_2_224)) (run0.sl.Hr0_w225 d L fx fr)
      (fun x => Gs (sSlot0.view.writes (Elt F) sSlot0.view.junk [⟨Rect.whole S16x256, run0.sl.dma0 d L fx⟩]) ((Rect.unit (s := S2x16x256) ![0, 2, 224] S1x1x16.size inb_S2x16x256_S1x1x16_0_2_224).emb x)) Finset.univ := by
  unfold run0.sl.Hr0_w226
  exact congrArg (fun w => View.write (Elt F) (sO.access (Rect.unit (s := S2x16x256) ![0, 2, 224] S1x1x16.size inb_S2x16x256_S1x1x16_0_2_224)) (run0.sl.Hr0_w225 d L fx fr) w Finset.univ)
    (funext fun x => (pieceA' _ _ _ _ _ _ _ (by decide) x).symm)

set_option maxHeartbeats 1000000 in
theorem step0_227 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w227 d L fx fr = View.write (Elt F) (sO.access (Rect.unit (s := S2x16x256) ![0, 3, 224] S1x1x16.size inb_S2x16x256_S1x1x16_0_3_224)) (run0.sl.Hr0_w226 d L fx fr)
      (fun x => Gs (sSlot0.view.writes (Elt F) sSlot0.view.junk [⟨Rect.whole S16x256, run0.sl.dma0 d L fx⟩]) ((Rect.unit (s := S2x16x256) ![0, 3, 224] S1x1x16.size inb_S2x16x256_S1x1x16_0_3_224).emb x)) Finset.univ := by
  unfold run0.sl.Hr0_w227
  exact congrArg (fun w => View.write (Elt F) (sO.access (Rect.unit (s := S2x16x256) ![0, 3, 224] S1x1x16.size inb_S2x16x256_S1x1x16_0_3_224)) (run0.sl.Hr0_w226 d L fx fr) w Finset.univ)
    (funext fun x => (pieceA' _ _ _ _ _ _ _ (by decide) x).symm)

set_option maxHeartbeats 1000000 in
theorem step0_228 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w228 d L fx fr = View.write (Elt F) (sO.access (Rect.unit (s := S2x16x256) ![0, 4, 224] S1x1x16.size inb_S2x16x256_S1x1x16_0_4_224)) (run0.sl.Hr0_w227 d L fx fr)
      (fun x => Gs (sSlot0.view.writes (Elt F) sSlot0.view.junk [⟨Rect.whole S16x256, run0.sl.dma0 d L fx⟩]) ((Rect.unit (s := S2x16x256) ![0, 4, 224] S1x1x16.size inb_S2x16x256_S1x1x16_0_4_224).emb x)) Finset.univ := by
  unfold run0.sl.Hr0_w228
  unfold run0.sl.r_146
  exact congrArg (fun w => View.write (Elt F) (sO.access (Rect.unit (s := S2x16x256) ![0, 4, 224] S1x1x16.size inb_S2x16x256_S1x1x16_0_4_224)) (run0.sl.Hr0_w227 d L fx fr) w Finset.univ)
    (funext fun x => (pieceA' _ _ _ _ _ _ _ (by decide) x).symm)

set_option maxHeartbeats 1000000 in
theorem step0_229 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w229 d L fx fr = View.write (Elt F) (sO.access (Rect.unit (s := S2x16x256) ![0, 5, 224] S1x1x16.size inb_S2x16x256_S1x1x16_0_5_224)) (run0.sl.Hr0_w228 d L fx fr)
      (fun x => Gs (sSlot0.view.writes (Elt F) sSlot0.view.junk [⟨Rect.whole S16x256, run0.sl.dma0 d L fx⟩]) ((Rect.unit (s := S2x16x256) ![0, 5, 224] S1x1x16.size inb_S2x16x256_S1x1x16_0_5_224).emb x)) Finset.univ := by
  unfold run0.sl.Hr0_w229
  exact congrArg (fun w => View.write (Elt F) (sO.access (Rect.unit (s := S2x16x256) ![0, 5, 224] S1x1x16.size inb_S2x16x256_S1x1x16_0_5_224)) (run0.sl.Hr0_w228 d L fx fr) w Finset.univ)
    (funext fun x => (pieceA' _ _ _ _ _ _ _ (by decide) x).symm)

set_option maxHeartbeats 1000000 in
theorem step0_230 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w230 d L fx fr = View.write (Elt F) (sO.access (Rect.unit (s := S2x16x256) ![0, 6, 224] S1x1x16.size inb_S2x16x256_S1x1x16_0_6_224)) (run0.sl.Hr0_w229 d L fx fr)
      (fun x => Gs (sSlot0.view.writes (Elt F) sSlot0.view.junk [⟨Rect.whole S16x256, run0.sl.dma0 d L fx⟩]) ((Rect.unit (s := S2x16x256) ![0, 6, 224] S1x1x16.size inb_S2x16x256_S1x1x16_0_6_224).emb x)) Finset.univ := by
  unfold run0.sl.Hr0_w230
  exact congrArg (fun w => View.write (Elt F) (sO.access (Rect.unit (s := S2x16x256) ![0, 6, 224] S1x1x16.size inb_S2x16x256_S1x1x16_0_6_224)) (run0.sl.Hr0_w229 d L fx fr) w Finset.univ)
    (funext fun x => (pieceA' _ _ _ _ _ _ _ (by decide) x).symm)

set_option maxHeartbeats 1000000 in
theorem step0_231 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w231 d L fx fr = View.write (Elt F) (sO.access (Rect.unit (s := S2x16x256) ![0, 7, 224] S1x1x16.size inb_S2x16x256_S1x1x16_0_7_224)) (run0.sl.Hr0_w230 d L fx fr)
      (fun x => Gs (sSlot0.view.writes (Elt F) sSlot0.view.junk [⟨Rect.whole S16x256, run0.sl.dma0 d L fx⟩]) ((Rect.unit (s := S2x16x256) ![0, 7, 224] S1x1x16.size inb_S2x16x256_S1x1x16_0_7_224).emb x)) Finset.univ := by
  unfold run0.sl.Hr0_w231
  unfold run0.sl.r_148 run0.sl.cst_306
  exact congrArg (fun w => View.write (Elt F) (sO.access (Rect.unit (s := S2x16x256) ![0, 7, 224] S1x1x16.size inb_S2x16x256_S1x1x16_0_7_224)) (run0.sl.Hr0_w230 d L fx fr) w Finset.univ)
    (funext fun x => (pieceA' _ _ _ _ _ _ _ (by decide) x).symm)

set_option maxHeartbeats 1000000 in
theorem step0_232 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w232 d L fx fr = View.write (Elt F) (sO.access (Rect.unit (s := S2x16x256) ![0, 8, 224] S1x1x16.size inb_S2x16x256_S1x1x16_0_8_224)) (run0.sl.Hr0_w231 d L fx fr)
      (fun x => Gs (sSlot0.view.writes (Elt F) sSlot0.view.junk [⟨Rect.whole S16x256, run0.sl.dma0 d L fx⟩]) ((Rect.unit (s := S2x16x256) ![0, 8, 224] S1x1x16.size inb_S2x16x256_S1x1x16_0_8_224).emb x)) Finset.univ := by
  unfold run0.sl.Hr0_w232
  exact congrArg (fun w => View.write (Elt F) (sO.access (Rect.unit (s := S2x16x256) ![0, 8, 224] S1x1x16.size inb_S2x16x256_S1x1x16_0_8_224)) (run0.sl.Hr0_w231 d L fx fr) w Finset.univ)
    (funext fun x => (pieceA' _ _ _ _ _ _ _ (by decide) x).symm)

set_option maxHeartbeats 1000000 in
theorem step0_233 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w233 d L fx fr = View.write (Elt F) (sO.access (Rect.unit (s := S2x16x256) ![0, 9, 224] S1x1x16.size inb_S2x16x256_S1x1x16_0_9_224)) (run0.sl.Hr0_w232 d L fx fr)
      (fun x => Gs (sSlot0.view.writes (Elt F) sSlot0.view.junk [⟨Rect.whole S16x256, run0.sl.dma0 d L fx⟩]) ((Rect.unit (s := S2x16x256) ![0, 9, 224] S1x1x16.size inb_S2x16x256_S1x1x16_0_9_224).emb x)) Finset.univ := by
  unfold run0.sl.Hr0_w233
  exact congrArg (fun w => View.write (Elt F) (sO.access (Rect.unit (s := S2x16x256) ![0, 9, 224] S1x1x16.size inb_S2x16x256_S1x1x16_0_9_224)) (run0.sl.Hr0_w232 d L fx fr) w Finset.univ)
    (funext fun x => (pieceA' _ _ _ _ _ _ _ (by decide) x).symm)

set_option maxHeartbeats 1000000 in
theorem step0_234 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w234 d L fx fr = View.write (Elt F) (sO.access (Rect.unit (s := S2x16x256) ![0, 10, 224] S1x1x16.size inb_S2x16x256_S1x1x16_0_10_224)) (run0.sl.Hr0_w233 d L fx fr)
      (fun x => Gs (sSlot0.view.writes (Elt F) sSlot0.view.junk [⟨Rect.whole S16x256, run0.sl.dma0 d L fx⟩]) ((Rect.unit (s := S2x16x256) ![0, 10, 224] S1x1x16.size inb_S2x16x256_S1x1x16_0_10_224).emb x)) Finset.univ := by
  unfold run0.sl.Hr0_w234
  exact congrArg (fun w => View.write (Elt F) (sO.access (Rect.unit (s := S2x16x256) ![0, 10, 224] S1x1x16.size inb_S2x16x256_S1x1x16_0_10_224)) (run0.sl.Hr0_w233 d L fx fr) w Finset.univ)
    (funext fun x => (pieceA' _ _ _ _ _ _ _ (by decide) x).symm)

set_option maxHeartbeats 1000000 in
theorem step0_235 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w235 d L fx fr = View.write (Elt F) (sO.access (Rect.unit (s := S2x16x256) ![0, 11, 224] S1x1x16.size inb_S2x16x256_S1x1x16_0_11_224)) (run0.sl.Hr0_w234 d L fx fr)
      (fun x => Gs (sSlot0.view.writes (Elt F) sSlot0.view.junk [⟨Rect.whole S16x256, run0.sl.dma0 d L fx⟩]) ((Rect.unit (s := S2x16x256) ![0, 11, 224] S1x1x16.size inb_S2x16x256_S1x1x16_0_11_224).emb x)) Finset.univ := by
  unfold run0.sl.Hr0_w235
  exact congrArg (fun w => View.write (Elt F) (sO.access (Rect.unit (s := S2x16x256) ![0, 11, 224] S1x1x16.size inb_S2x16x256_S1x1x16_0_11_224)) (run0.sl.Hr0_w234 d L fx fr) w Finset.univ)
    (funext fun x => (pieceA' _ _ _ _ _ _ _ (by decide) x).symm)

set_option maxHeartbeats 1000000 in
theorem step0_236 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w236 d L fx fr = View.write (Elt F) (sO.access (Rect.unit (s := S2x16x256) ![0, 12, 224] S1x1x16.size inb_S2x16x256_S1x1x16_0_12_224)) (run0.sl.Hr0_w235 d L fx fr)
      (fun x => Gs (sSlot0.view.writes (Elt F) sSlot0.view.junk [⟨Rect.whole S16x256, run0.sl.dma0 d L fx⟩]) ((Rect.unit (s := S2x16x256) ![0, 12, 224] S1x1x16.size inb_S2x16x256_S1x1x16_0_12_224).emb x)) Finset.univ := by
  unfold run0.sl.Hr0_w236
  exact congrArg (fun w => View.write (Elt F) (sO.access (Rect.unit (s := S2x16x256) ![0, 12, 224] S1x1x16.size inb_S2x16x256_S1x1x16_0_12_224)) (run0.sl.Hr0_w235 d L fx fr) w Finset.univ)
    (funext fun x => (pieceA' _ _ _ _ _ _ _ (by decide) x).symm)

set_option maxHeartbeats 1000000 in
theorem step0_237 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w237 d L fx fr = View.write (Elt F) (sO.access (Rect.unit (s := S2x16x256) ![0, 13, 224] S1x1x16.size inb_S2x16x256_S1x1x16_0_13_224)) (run0.sl.Hr0_w236 d L fx fr)
      (fun x => Gs (sSlot0.view.writes (Elt F) sSlot0.view.junk [⟨Rect.whole S16x256, run0.sl.dma0 d L fx⟩]) ((Rect.unit (s := S2x16x256) ![0, 13, 224] S1x1x16.size inb_S2x16x256_S1x1x16_0_13_224).emb x)) Finset.univ := by
  unfold run0.sl.Hr0_w237
  exact congrArg (fun w => View.write (Elt F) (sO.access (Rect.unit (s := S2x16x256) ![0, 13, 224] S1x1x16.size inb_S2x16x256_S1x1x16_0_13_224)) (run0.sl.Hr0_w236 d L fx fr) w Finset.univ)
    (funext fun x => (pieceA' _ _ _ _ _ _ _ (by decide) x).symm)

set_option maxHeartbeats 1000000 in
theorem step0_238 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w238 d L fx fr = View.write (Elt F) (sO.access (Rect.unit (s := S2x16x256) ![0, 14, 224] S1x1x16.size inb_S2x16x256_S1x1x16_0_14_224)) (run0.sl.Hr0_w237 d L fx fr)
      (fun x => Gs (sSlot0.view.writes (Elt F) sSlot0.view.junk [⟨Rect.whole S16x256, run0.sl.dma0 d L fx⟩]) ((Rect.unit (s := S2x16x256) ![0, 14, 224] S1x1x16.size inb_S2x16x256_S1x1x16_0_14_224).emb x)) Finset.univ := by
  unfold run0.sl.Hr0_w238
  exact congrArg (fun w => View.write (Elt F) (sO.access (Rect.unit (s := S2x16x256) ![0, 14, 224] S1x1x16.size inb_S2x16x256_S1x1x16_0_14_224)) (run0.sl.Hr0_w237 d L fx fr) w Finset.univ)
    (funext fun x => (pieceA' _ _ _ _ _ _ _ (by decide) x).symm)

set_option maxHeartbeats 1000000 in
theorem step0_239 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w239 d L fx fr = View.write (Elt F) (sO.access (Rect.unit (s := S2x16x256) ![0, 15, 224] S1x1x16.size inb_S2x16x256_S1x1x16_0_15_224)) (run0.sl.Hr0_w238 d L fx fr)
      (fun x => Gs (sSlot0.view.writes (Elt F) sSlot0.view.junk [⟨Rect.whole S16x256, run0.sl.dma0 d L fx⟩]) ((Rect.unit (s := S2x16x256) ![0, 15, 224] S1x1x16.size inb_S2x16x256_S1x1x16_0_15_224).emb x)) Finset.univ := by
  unfold run0.sl.Hr0_w239
  unfold run0.sl.r_152
  exact congrArg (fun w => View.write (Elt F) (sO.access (Rect.unit (s := S2x16x256) ![0, 15, 224] S1x1x16.size inb_S2x16x256_S1x1x16_0_15_224)) (run0.sl.Hr0_w238 d L fx fr) w Finset.univ)
    (funext fun x => (pieceA' _ _ _ _ _ _ _ (by decide) x).symm)

set_option maxHeartbeats 1000000 in
theorem step0_240 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w240 d L fx fr = View.write (Elt F) (sO.access (Rect.unit (s := S2x16x256) ![0, 0, 224] S1x1x16.size inb_S2x16x256_S1x1x16_0_0_224)) (run0.sl.Hr0_w239 d L fx fr)
      (fun x => Gs (sSlot0.view.writes (Elt F) sSlot0.view.junk [⟨Rect.whole S16x256, run0.sl.dma0 d L fx⟩]) ((Rect.unit (s := S2x16x256) ![0, 0, 224] S1x1x16.size inb_S2x16x256_S1x1x16_0_0_224).emb x)) Finset.univ := by
  unfold run0.sl.Hr0_w240
  unfold run0.sl.r_142 run0.sl.r_151 run0.sl.r_150 run0.sl.r_149 run0.sl.r_147 run0.sl.r_148 run0.sl.r_145 run0.sl.r_146 run0.sl.r_144 run0.sl.cst_306
  exact congrArg (fun w => View.write (Elt F) (sO.access (Rect.unit (s := S2x16x256) ![0, 0, 224] S1x1x16.size inb_S2x16x256_S1x1x16_0_0_224)) (run0.sl.Hr0_w239 d L fx fr) w Finset.univ)
    (funext fun x => (pieceB' (sSlot0.view.writes (Elt F) sSlot0.view.junk [⟨Rect.whole S16x256, run0.sl.dma0 d L fx⟩]) 0 224 inb_S2x16x256_S1x1x16_0_0_224 inb_S2x16x256_S1x1x16_0_1_224 inb_S2x16x256_S1x1x16_0_2_224 inb_S2x16x256_S1x1x16_0_3_224 inb_S2x16x256_S1x1x16_0_4_224 inb_S2x16x256_S1x1x16_0_5_224 inb_S2x16x256_S1x1x16_0_6_224 inb_S2x16x256_S1x1x16_0_7_224 inb_S2x16x256_S1x1x16_0_8_224 inb_S2x16x256_S1x1x16_0_9_224 inb_S2x16x256_S1x1x16_0_10_224 inb_S2x16x256_S1x1x16_0_11_224 inb_S2x16x256_S1x1x16_0_12_224 inb_S2x16x256_S1x1x16_0_13_224 inb_S2x16x256_S1x1x16_0_14_224 inb_S2x16x256_S1x1x16_0_15_224 shapeCasts_S1x1x16_S16 shapeCasts_S16_S1x1x16 x).symm)

set_option maxHeartbeats 1000000 in
theorem step0_241 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w241 d L fx fr = View.write (Elt F) (sO.access (Rect.unit (s := S2x16x256) ![0, 1, 240] S1x1x16.size inb_S2x16x256_S1x1x16_0_1_240)) (run0.sl.Hr0_w240 d L fx fr)
      (fun x => Gs (sSlot0.view.writes (Elt F) sSlot0.view.junk [⟨Rect.whole S16x256, run0.sl.dma0 d L fx⟩]) ((Rect.unit (s := S2x16x256) ![0, 1, 240] S1x1x16.size inb_S2x16x256_S1x1x16_0_1_240).emb x)) Finset.univ := by
  unfold run0.sl.Hr0_w241
  exact congrArg (fun w => View.write (Elt F) (sO.access (Rect.unit (s := S2x16x256) ![0, 1, 240] S1x1x16.size inb_S2x16x256_S1x1x16_0_1_240)) (run0.sl.Hr0_w240 d L fx fr) w Finset.univ)
    (funext fun x => (pieceA' _ _ _ _ _ _ _ (by decide) x).symm)

set_option maxHeartbeats 1000000 in
theorem step0_242 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w242 d L fx fr = View.write (Elt F) (sO.access (Rect.unit (s := S2x16x256) ![0, 2, 240] S1x1x16.size inb_S2x16x256_S1x1x16_0_2_240)) (run0.sl.Hr0_w241 d L fx fr)
      (fun x => Gs (sSlot0.view.writes (Elt F) sSlot0.view.junk [⟨Rect.whole S16x256, run0.sl.dma0 d L fx⟩]) ((Rect.unit (s := S2x16x256) ![0, 2, 240] S1x1x16.size inb_S2x16x256_S1x1x16_0_2_240).emb x)) Finset.univ := by
  unfold run0.sl.Hr0_w242
  unfold run0.sl.r_154
  exact congrArg (fun w => View.write (Elt F) (sO.access (Rect.unit (s := S2x16x256) ![0, 2, 240] S1x1x16.size inb_S2x16x256_S1x1x16_0_2_240)) (run0.sl.Hr0_w241 d L fx fr) w Finset.univ)
    (funext fun x => (pieceA' _ _ _ _ _ _ _ (by decide) x).symm)

set_option maxHeartbeats 1000000 in
theorem step0_243 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w243 d L fx fr = View.write (Elt F) (sO.access (Rect.unit (s := S2x16x256) ![0, 3, 240] S1x1x16.size inb_S2x16x256_S1x1x16_0_3_240)) (run0.sl.Hr0_w242 d L fx fr)
      (fun x => Gs (sSlot0.view.writes (Elt F) sSlot0.view.junk [⟨Rect.whole S16x256, run0.sl.dma0 d L fx⟩]) ((Rect.unit (s := S2x16x256) ![0, 3, 240] S1x1x16.size inb_S2x16x256_S1x1x16_0_3_240).emb x)) Finset.univ := by
  unfold run0.sl.Hr0_w243
  exact congrArg (fun w => View.write (Elt F) (sO.access (Rect.unit (s := S2x16x256) ![0, 3, 240] S1x1x16.size inb_S2x16x256_S1x1x16_0_3_240)) (run0.sl.Hr0_w242 d L fx fr) w Finset.univ)
    (funext fun x => (pieceA' _ _ _ _ _ _ _ (by decide) x).symm)

set_option maxHeartbeats 1000000 in
theorem step0_244 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w244 d L fx fr = View.write (Elt F) (sO.access (Rect.unit (s := S2x16x256) ![0, 4, 240] S1x1x16.size inb_S2x16x256_S1x1x16_0_4_240)) (run0.sl.Hr0_w243 d L fx fr)
      (fun x => Gs (sSlot0.view.writes (Elt F) sSlot0.view.junk [⟨Rect.whole S16x256, run0.sl.dma0 d L fx⟩]) ((Rect.unit (s := S2x16x256) ![0, 4, 240] S1x1x16.size inb_S2x16x256_S1x1x16_0_4_240).emb x)) Finset.univ := by
  unfold run0.sl.Hr0_w244
  exact congrArg (fun w => View.write (Elt F) (sO.access (Rect.unit (s := S2x16x256) ![0, 4, 240] S1x1x16.size inb_S2x16x256_S1x1x16_0_4_240)) (run0.sl.Hr0_w243 d L fx fr) w Finset.univ)
    (funext fun x => (pieceA' _ _ _ _ _ _ _ (by decide) x).symm)

set_option maxHeartbeats 1000000 in
theorem step0_245 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w245 d L fx fr = View.write (Elt F) (sO.access (Rect.unit (s := S2x16x256) ![0, 5, 240] S1x1x16.size inb_S2x16x256_S1x1x16_0_5_240)) (run0.sl.Hr0_w244 d L fx fr)
      (fun x => Gs (sSlot0.view.writes (Elt F) sSlot0.view.junk [⟨Rect.whole S16x256, run0.sl.dma0 d L fx⟩]) ((Rect.unit (s := S2x16x256) ![0, 5, 240] S1x1x16.size inb_S2x16x256_S1x1x16_0_5_240).emb x)) Finset.univ := by
  unfold run0.sl.Hr0_w245
  unfold run0.sl.r_156
  exact congrArg (fun w => View.write (Elt F) (sO.access (Rect.unit (s := S2x16x256) ![0, 5, 240] S1x1x16.size inb_S2x16x256_S1x1x16_0_5_240)) (run0.sl.Hr0_w244 d L fx fr) w Finset.univ)
    (funext fun x => (pieceA' _ _ _ _ _ _ _ (by decide) x).symm)

set_option maxHeartbeats 1000000 in
theorem step0_246 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w246 d L fx fr = View.write (Elt F) (sO.access (Rect.unit (s := S2x16x256) ![0, 6, 240] S1x1x16.size inb_S2x16x256_S1x1x16_0_6_240)) (run0.sl.Hr0_w245 d L fx fr)
      (fun x => Gs (sSlot0.view.writes (Elt F) sSlot0.view.junk [⟨Rect.whole S16x256, run0.sl.dma0 d L fx⟩]) ((Rect.unit (s := S2x16x256) ![0, 6, 240] S1x1x16.size inb_S2x16x256_S1x1x16_0_6_240).emb x)) Finset.univ := by
  unfold run0.sl.Hr0_w246
  exact congrArg (fun w => View.write (Elt F) (sO.access (Rect.unit (s := S2x16x256) ![0, 6, 240] S1x1x16.size inb_S2x16x256_S1x1x16_0_6_240)) (run0.sl.Hr0_w245 d L fx fr) w Finset.univ)
    (funext fun x => (pieceA' _ _ _ _ _ _ _ (by decide) x).symm)

set_option maxHeartbeats 1000000 in
theorem step0_247 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w247 d L fx fr = View.write (Elt F) (sO.access (Rect.unit (s := S2x16x256) ![0, 7, 240] S1x1x16.size inb_S2x16x256_S1x1x16_0_7_240)) (run0.sl.Hr0_w246 d L fx fr)
      (fun x => Gs (sSlot0.view.writes (Elt F) sSlot0.view.junk [⟨Rect.whole S16x256, run0.sl.dma0 d L fx⟩]) ((Rect.unit (s := S2x16x256) ![0, 7, 240] S1x1x16.size inb_S2x16x256_S1x1x16_0_7_240).emb x)) Finset.univ := by
  unfold run0.sl.Hr0_w247
  exact congrArg (fun w => View.write (Elt F) (sO.access (Rect.unit (s := S2x16x256) ![0, 7, 240] S1x1x16.size inb_S2x16x256_S1x1x16_0_7_240)) (run0.sl.Hr0_w246 d L fx fr) w Finset.univ)
    (funext fun x => (pieceA' _ _ _ _ _ _ _ (by decide) x).symm)

set_option maxHeartbeats 1000000 in
theorem step0_248 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w248 d L fx fr = View.write (Elt F) (sO.access (Rect.unit (s := S2x16x256) ![0, 8, 240] S1x1x16.size inb_S2x16x256_S1x1x16_0_8_240)) (run0.sl.Hr0_w247 d L fx fr)
      (fun x => Gs (sSlot0.view.writes (Elt F) sSlot0.view.junk [⟨Rect.whole S16x256, run0.sl.dma0 d L fx⟩]) ((Rect.unit (s := S2x16x256) ![0, 8, 240] S1x1x16.size inb_S2x16x256_S1x1x16_0_8_240).emb x)) Finset.univ := by
  unfold run0.sl.Hr0_w248
  unfold run0.sl.r_159
  exact congrArg (fun w => View.write (Elt F) (sO.access (Rect.unit (s := S2x16x256) ![0, 8, 240] S1x1x16.size inb_S2x16x256_S1x1x16_0_8_240)) (run0.sl.Hr0_w247 d L fx fr) w Finset.univ)
    (funext fun x => (pieceA' _ _ _ _ _ _ _ (by decide) x).symm)

set_option maxHeartbeats 1000000 in
theorem step0_249 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w249 d L fx fr = View.write (Elt F) (sO.access (Rect.unit (s := S2x16x256) ![0, 9, 240] S1x1x16.size inb_S2x16x256_S1x1x16_0_9_240)) (run0.sl.Hr0_w248 d L fx fr)
      (fun x => Gs (sSlot0.view.writes (Elt F) sSlot0.view.junk [⟨Rect.whole S16x256, run0.sl.dma0 d L fx⟩]) ((Rect.unit (s := S2x16x256) ![0, 9, 240] S1x1x16.size inb_S2x16x256_S1x1x16_0_9_240).emb x)) Finset.univ := by
  unfold run0.sl.Hr0_w249
  exact congrArg (fun w => View.write (Elt F) (sO.access (Rect.unit (s := S2x16x256) ![0, 9, 240] S1x1x16.size inb_S2x16x256_S1x1x16_0_9_240)) (run0.sl.Hr0_w248 d L fx fr) w Finset.univ)
    (funext fun x => (pieceA' _ _ _ _ _ _ _ (by decide) x).symm)

set_option maxHeartbeats 1000000 in
theorem step0_250 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w250 d L fx fr = View.write (Elt F) (sO.access (Rect.unit (s := S2x16x256) ![0, 10, 240] S1x1x16.size inb_S2x16x256_S1x1x16_0_10_240)) (run0.sl.Hr0_w249 d L fx fr)
      (fun x => Gs (sSlot0.view.writes (Elt F) sSlot0.view.junk [⟨Rect.whole S16x256, run0.sl.dma0 d L fx⟩]) ((Rect.unit (s := S2x16x256) ![0, 10, 240] S1x1x16.size inb_S2x16x256_S1x1x16_0_10_240).emb x)) Finset.univ := by
  unfold run0.sl.Hr0_w250
  exact congrArg (fun w => View.write (Elt F) (sO.access (Rect.unit (s := S2x16x256) ![0, 10, 240] S1x1x16.size inb_S2x16x256_S1x1x16_0_10_240)) (run0.sl.Hr0_w249 d L fx fr) w Finset.univ)
    (funext fun x => (pieceA' _ _ _ _ _ _ _ (by decide) x).symm)

set_option maxHeartbeats 1000000 in
theorem step0_251 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w251 d L fx fr = View.write (Elt F) (sO.access (Rect.unit (s := S2x16x256) ![0, 11, 240] S1x1x16.size inb_S2x16x256_S1x1x16_0_11_240)) (run0.sl.Hr0_w250 d L fx fr)
      (fun x => Gs (sSlot0.view.writes (Elt F) sSlot0.view.junk [⟨Rect.whole S16x256, run0.sl.dma0 d L fx⟩]) ((Rect.unit (s := S2x16x256) ![0, 11, 240] S1x1x16.size inb_S2x16x256_S1x1x16_0_11_240).emb x)) Finset.univ := by
  unfold run0.sl.Hr0_w251
  unfold run0.sl.r_161
  exact congrArg (fun w => View.write (Elt F) (sO.access (Rect.unit (s := S2x16x256) ![0, 11, 240] S1x1x16.size inb_S2x16x256_S1x1x16_0_11_240)) (run0.sl.Hr0_w250 d L fx fr) w Finset.univ)
    (funext fun x => (pieceA' _ _ _ _ _ _ _ (by decide) x).symm)

set_option maxHeartbeats 1000000 in
theorem step0_252 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w252 d L fx fr = View.write (Elt F) (sO.access (Rect.unit (s := S2x16x256) ![0, 12, 240] S1x1x16.size inb_S2x16x256_S1x1x16_0_12_240)) (run0.sl.Hr0_w251 d L fx fr)
      (fun x => Gs (sSlot0.view.writes (Elt F) sSlot0.view.junk [⟨Rect.whole S16x256, run0.sl.dma0 d L fx⟩]) ((Rect.unit (s := S2x16x256) ![0, 12, 240] S1x1x16.size inb_S2x16x256_S1x1x16_0_12_240).emb x)) Finset.univ := by
  unfold run0.sl.Hr0_w252
  exact congrArg (fun w => View.write (Elt F) (sO.access (Rect.unit (s := S2x16x256) ![0, 12, 240] S1x1x16.size inb_S2x16x256_S1x1x16_0_12_240)) (run0.sl.Hr0_w251 d L fx fr) w Finset.univ)
    (funext fun x => (pieceA' _ _ _ _ _ _ _ (by decide) x).symm)

set_option maxHeartbeats 1000000 in
theorem step0_253 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w253 d L fx fr = View.write (Elt F) (sO.access (Rect.unit (s := S2x16x256) ![0, 13, 240] S1x1x16.size inb_S2x16x256_S1x1x16_0_13_240)) (run0.sl.Hr0_w252 d L fx fr)
      (fun x => Gs (sSlot0.view.writes (Elt F) sSlot0.view.junk [⟨Rect.whole S16x256, run0.sl.dma0 d L fx⟩]) ((Rect.unit (s := S2x16x256) ![0, 13, 240] S1x1x16.size inb_S2x16x256_S1x1x16_0_13_240).emb x)) Finset.univ := by
  unfold run0.sl.Hr0_w253
  exact congrArg (fun w => View.write (Elt F) (sO.access (Rect.unit (s := S2x16x256) ![0, 13, 240] S1x1x16.size inb_S2x16x256_S1x1x16_0_13_240)) (run0.sl.Hr0_w252 d L fx fr) w Finset.univ)
    (funext fun x => (pieceA' _ _ _ _ _ _ _ (by decide) x).symm)

set_option maxHeartbeats 1000000 in
theorem step0_254 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w254 d L fx fr = View.write (Elt F) (sO.access (Rect.unit (s := S2x16x256) ![0, 14, 240] S1x1x16.size inb_S2x16x256_S1x1x16_0_14_240)) (run0.sl.Hr0_w253 d L fx fr)
      (fun x => Gs (sSlot0.view.writes (Elt F) sSlot0.view.junk [⟨Rect.whole S16x256, run0.sl.dma0 d L fx⟩]) ((Rect.unit (s := S2x16x256) ![0, 14, 240] S1x1x16.size inb_S2x16x256_S1x1x16_0_14_240).emb x)) Finset.univ := by
  unfold run0.sl.Hr0_w254
  exact congrArg (fun w => View.write (Elt F) (sO.access (Rect.unit (s := S2x16x256) ![0, 14, 240] S1x1x16.size inb_S2x16x256_S1x1x16_0_14_240)) (run0.sl.Hr0_w253 d L fx fr) w Finset.univ)
    (funext fun x => (pieceA' _ _ _ _ _ _ _ (by decide) x).symm)

set_option maxHeartbeats 1000000 in
theorem step0_255 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w255 d L fx fr = View.write (Elt F) (sO.access (Rect.unit (s := S2x16x256) ![0, 15, 240] S1x1x16.size inb_S2x16x256_S1x1x16_0_15_240)) (run0.sl.Hr0_w254 d L fx fr)
      (fun x => Gs (sSlot0.view.writes (Elt F) sSlot0.view.junk [⟨Rect.whole S16x256, run0.sl.dma0 d L fx⟩]) ((Rect.unit (s := S2x16x256) ![0, 15, 240] S1x1x16.size inb_S2x16x256_S1x1x16_0_15_240).emb x)) Finset.univ := by
  unfold run0.sl.Hr0_w255
  exact congrArg (fun w => View.write (Elt F) (sO.access (Rect.unit (s := S2x16x256) ![0, 15, 240] S1x1x16.size inb_S2x16x256_S1x1x16_0_15_240)) (run0.sl.Hr0_w254 d L fx fr) w Finset.univ)
    (funext fun x => (pieceA' _ _ _ _ _ _ _ (by decide) x).symm)

set_option maxHeartbeats 1000000 in
theorem step0_256 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr0_w256 d L fx fr = View.write (Elt F) (sO.access (Rect.unit (s := S2x16x256) ![0, 0, 240] S1x1x16.size inb_S2x16x256_S1x1x16_0_0_240)) (run0.sl.Hr0_w255 d L fx fr)
      (fun x => Gs (sSlot0.view.writes (Elt F) sSlot0.view.junk [⟨Rect.whole S16x256, run0.sl.dma0 d L fx⟩]) ((Rect.unit (s := S2x16x256) ![0, 0, 240] S1x1x16.size inb_S2x16x256_S1x1x16_0_0_240).emb x)) Finset.univ := by
  unfold run0.sl.Hr0_w256
  unfold run0.sl.r_153 run0.sl.r_162 run0.sl.r_160 run0.sl.r_161 run0.sl.r_158 run0.sl.r_159 run0.sl.r_157 run0.sl.r_155
  exact congrArg (fun w => View.write (Elt F) (sO.access (Rect.unit (s := S2x16x256) ![0, 0, 240] S1x1x16.size inb_S2x16x256_S1x1x16_0_0_240)) (run0.sl.Hr0_w255 d L fx fr) w Finset.univ)
    (funext fun x => (pieceB' (sSlot0.view.writes (Elt F) sSlot0.view.junk [⟨Rect.whole S16x256, run0.sl.dma0 d L fx⟩]) 0 240 inb_S2x16x256_S1x1x16_0_0_240 inb_S2x16x256_S1x1x16_0_1_240 inb_S2x16x256_S1x1x16_0_2_240 inb_S2x16x256_S1x1x16_0_3_240 inb_S2x16x256_S1x1x16_0_4_240 inb_S2x16x256_S1x1x16_0_5_240 inb_S2x16x256_S1x1x16_0_6_240 inb_S2x16x256_S1x1x16_0_7_240 inb_S2x16x256_S1x1x16_0_8_240 inb_S2x16x256_S1x1x16_0_9_240 inb_S2x16x256_S1x1x16_0_10_240 inb_S2x16x256_S1x1x16_0_11_240 inb_S2x16x256_S1x1x16_0_12_240 inb_S2x16x256_S1x1x16_0_13_240 inb_S2x16x256_S1x1x16_0_14_240 inb_S2x16x256_S1x1x16_0_15_240 shapeCasts_S1x1x16_S16 shapeCasts_S16_S1x1x16 x).symm)

set_option maxHeartbeats 0 in
/-- The result scratch after slot 0's stores is the slot function of the score scratch, on slot 0. -/
theorem slot0_val [∀ e, Nonempty (Elt F e)] (d : Dev nD) (L : grid0.Coords)
    (fx : Buf (Elt F) ((xV).view.loc (V d (cV L) (jV L)))) (fr : Buf (Elt F) ((sO).view.loc (V d (cV L) (jV L)))) (y : S2x16x256.Idx) (hy : (y 0).val = 0) :
    run0.sl.Hr0_w256 d L fx fr y = Gs (sSlot0.view.writes (Elt F) sSlot0.view.junk [⟨Rect.whole S16x256, run0.sl.dma0 d L fx⟩]) y := by
  have base : ∀ (r : Rect S2x16x256) (w : r.shape.Idx → Elt F .i32), View.write (Elt F) (sO.access r) fr w Finset.univ = sO.view.writes (Elt F) fr [⟨r, w⟩] := fun _ _ => rfl
  rw [step0_256 d L fx fr, step0_255 d L fx fr, step0_254 d L fx fr, step0_253 d L fx fr, step0_252 d L fx fr, step0_251 d L fx fr, step0_250 d L fx fr, step0_249 d L fx fr]
  rw [step0_248 d L fx fr, step0_247 d L fx fr, step0_246 d L fx fr, step0_245 d L fx fr, step0_244 d L fx fr, step0_243 d L fx fr, step0_242 d L fx fr, step0_241 d L fx fr]
  rw [step0_240 d L fx fr, step0_239 d L fx fr, step0_238 d L fx fr, step0_237 d L fx fr, step0_236 d L fx fr, step0_235 d L fx fr, step0_234 d L fx fr, step0_233 d L fx fr]
  rw [step0_232 d L fx fr, step0_231 d L fx fr, step0_230 d L fx fr, step0_229 d L fx fr, step0_228 d L fx fr, step0_227 d L fx fr, step0_226 d L fx fr, step0_225 d L fx fr]
  rw [step0_224 d L fx fr, step0_223 d L fx fr, step0_222 d L fx fr, step0_221 d L fx fr, step0_220 d L fx fr, step0_219 d L fx fr, step0_218 d L fx fr, step0_217 d L fx fr]
  rw [step0_216 d L fx fr, step0_215 d L fx fr, step0_214 d L fx fr, step0_213 d L fx fr, step0_212 d L fx fr, step0_211 d L fx fr, step0_210 d L fx fr, step0_209 d L fx fr]
  rw [step0_208 d L fx fr, step0_207 d L fx fr, step0_206 d L fx fr, step0_205 d L fx fr, step0_204 d L fx fr, step0_203 d L fx fr, step0_202 d L fx fr, step0_201 d L fx fr]
  rw [step0_200 d L fx fr, step0_199 d L fx fr, step0_198 d L fx fr, step0_197 d L fx fr, step0_196 d L fx fr, step0_195 d L fx fr, step0_194 d L fx fr, step0_193 d L fx fr]
  rw [step0_192 d L fx fr, step0_191 d L fx fr, step0_190 d L fx fr, step0_189 d L fx fr, step0_188 d L fx fr, step0_187 d L fx fr, step0_186 d L fx fr, step0_185 d L fx fr]
  rw [step0_184 d L fx fr, step0_183 d L fx fr, step0_182 d L fx fr, step0_181 d L fx fr, step0_180 d L fx fr, step0_179 d L fx fr, step0_178 d L fx fr, step0_177 d L fx fr]
  rw [step0_176 d L fx fr, step0_175 d L fx fr, step0_174 d L fx fr, step0_173 d L fx fr, step0_172 d L fx fr, step0_171 d L fx fr, step0_170 d L fx fr, step0_169 d L fx fr]
  rw [step0_168 d L fx fr, step0_167 d L fx fr, step0_166 d L fx fr, step0_165 d L fx fr, step0_164 d L fx fr, step0_163 d L fx fr, step0_162 d L fx fr, step0_161 d L fx fr]
  rw [step0_160 d L fx fr, step0_159 d L fx fr, step0_158 d L fx fr, step0_157 d L fx fr, step0_156 d L fx fr, step0_155 d L fx fr, step0_154 d L fx fr, step0_153 d L fx fr]
  rw [step0_152 d L fx fr, step0_151 d L fx fr, step0_150 d L fx fr, step0_149 d L fx fr, step0_148 d L fx fr, step0_147 d L fx fr, step0_146 d L fx fr, step0_145 d L fx fr]
  rw [step0_144 d L fx fr, step0_143 d L fx fr, step0_142 d L fx fr, step0_141 d L fx fr, step0_140 d L fx fr, step0_139 d L fx fr, step0_138 d L fx fr, step0_137 d L fx fr]
  rw [step0_136 d L fx fr, step0_135 d L fx fr, step0_134 d L fx fr, step0_133 d L fx fr, step0_132 d L fx fr, step0_131 d L fx fr, step0_130 d L fx fr, step0_129 d L fx fr]
  rw [step0_128 d L fx fr, step0_127 d L fx fr, step0_126 d L fx fr, step0_125 d L fx fr, step0_124 d L fx fr, step0_123 d L fx fr, step0_122 d L fx fr, step0_121 d L fx fr]
  rw [step0_120 d L fx fr, step0_119 d L fx fr, step0_118 d L fx fr, step0_117 d L fx fr, step0_116 d L fx fr, step0_115 d L fx fr, step0_114 d L fx fr, step0_113 d L fx fr]
  rw [step0_112 d L fx fr, step0_111 d L fx fr, step0_110 d L fx fr, step0_109 d L fx fr, step0_108 d L fx fr, step0_107 d L fx fr, step0_106 d L fx fr, step0_105 d L fx fr]
  rw [step0_104 d L fx fr, step0_103 d L fx fr, step0_102 d L fx fr, step0_101 d L fx fr, step0_100 d L fx fr, step0_99 d L fx fr, step0_98 d L fx fr, step0_97 d L fx fr]
  rw [step0_96 d L fx fr, step0_95 d L fx fr, step0_94 d L fx fr, step0_93 d L fx fr, step0_92 d L fx fr, step0_91 d L fx fr, step0_90 d L fx fr, step0_89 d L fx fr]
  rw [step0_88 d L fx fr, step0_87 d L fx fr, step0_86 d L fx fr, step0_85 d L fx fr, step0_84 d L fx fr, step0_83 d L fx fr, step0_82 d L fx fr, step0_81 d L fx fr]
  rw [step0_80 d L fx fr, step0_79 d L fx fr, step0_78 d L fx fr, step0_77 d L fx fr, step0_76 d L fx fr, step0_75 d L fx fr, step0_74 d L fx fr, step0_73 d L fx fr]
  rw [step0_72 d L fx fr, step0_71 d L fx fr, step0_70 d L fx fr, step0_69 d L fx fr, step0_68 d L fx fr, step0_67 d L fx fr, step0_66 d L fx fr, step0_65 d L fx fr]
  rw [step0_64 d L fx fr, step0_63 d L fx fr, step0_62 d L fx fr, step0_61 d L fx fr, step0_60 d L fx fr, step0_59 d L fx fr, step0_58 d L fx fr, step0_57 d L fx fr]
  rw [step0_56 d L fx fr, step0_55 d L fx fr, step0_54 d L fx fr, step0_53 d L fx fr, step0_52 d L fx fr, step0_51 d L fx fr, step0_50 d L fx fr, step0_49 d L fx fr]
  rw [step0_48 d L fx fr, step0_47 d L fx fr, step0_46 d L fx fr, step0_45 d L fx fr, step0_44 d L fx fr, step0_43 d L fx fr, step0_42 d L fx fr, step0_41 d L fx fr]
  rw [step0_40 d L fx fr, step0_39 d L fx fr, step0_38 d L fx fr, step0_37 d L fx fr, step0_36 d L fx fr, step0_35 d L fx fr, step0_34 d L fx fr, step0_33 d L fx fr]
  rw [step0_32 d L fx fr, step0_31 d L fx fr, step0_30 d L fx fr, step0_29 d L fx fr, step0_28 d L fx fr, step0_27 d L fx fr, step0_26 d L fx fr, step0_25 d L fx fr]
  rw [step0_24 d L fx fr, step0_23 d L fx fr, step0_22 d L fx fr, step0_21 d L fx fr, step0_20 d L fx fr, step0_19 d L fx fr, step0_18 d L fx fr, step0_17 d L fx fr]
  rw [step0_16 d L fx fr, step0_15 d L fx fr, step0_14 d L fx fr, step0_13 d L fx fr, step0_12 d L fx fr, step0_11 d L fx fr, step0_10 d L fx fr, step0_9 d L fx fr]
  rw [step0_8 d L fx fr, step0_7 d L fx fr, step0_6 d L fx fr, step0_5 d L fx fr, step0_4 d L fx fr, step0_3 d L fx fr, step0_2 d L fx fr, step0_1 d L fx fr]
  rw [base]; repeat rw [write_writes]
  refine (congrFun (View.read_whole (Val := Elt F) cc0_scratch1 _) y).symm.trans ?_
  refine View.read_writes_apply_of_pieces (View.whole cc0_scratch1) fr (Gs _) _ ?hG y ?hc
  case hG =>
    iterate 256 (refine List.forall_mem_cons.2 ⟨fun x => rfl, ?_⟩)
    exact List.forall_mem_nil _
  case hc => exact cover_slot _ 0 rfl y hy

set_option maxHeartbeats 1000000 in
theorem step1_1 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w257 d L fx fr = View.write (Elt F) (sO.access (Rect.unit (s := S2x16x256) ![1, 1, 0] S1x1x16.size inb_S2x16x256_S1x1x16_1_1_0)) fr
      (fun x => Gs (sSlot1.view.writes (Elt F) sSlot1.view.junk [⟨Rect.whole S16x256, run0.sl.dma0_1 d L fx⟩]) ((Rect.unit (s := S2x16x256) ![1, 1, 0] S1x1x16.size inb_S2x16x256_S1x1x16_1_1_0).emb x)) Finset.univ := by
  unfold run0.sl.Hr1_w257
  exact congrArg (fun w => View.write (Elt F) (sO.access (Rect.unit (s := S2x16x256) ![1, 1, 0] S1x1x16.size inb_S2x16x256_S1x1x16_1_1_0)) fr w Finset.univ)
    (funext fun x => (pieceA' _ _ _ _ _ _ _ (by decide) x).symm)

set_option maxHeartbeats 1000000 in
theorem step1_2 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w258 d L fx fr = View.write (Elt F) (sO.access (Rect.unit (s := S2x16x256) ![1, 2, 0] S1x1x16.size inb_S2x16x256_S1x1x16_1_2_0)) (run0.sl.Hr1_w257 d L fx fr)
      (fun x => Gs (sSlot1.view.writes (Elt F) sSlot1.view.junk [⟨Rect.whole S16x256, run0.sl.dma0_1 d L fx⟩]) ((Rect.unit (s := S2x16x256) ![1, 2, 0] S1x1x16.size inb_S2x16x256_S1x1x16_1_2_0).emb x)) Finset.univ := by
  unfold run0.sl.Hr1_w258
  unfold run0.sl.r_165
  exact congrArg (fun w => View.write (Elt F) (sO.access (Rect.unit (s := S2x16x256) ![1, 2, 0] S1x1x16.size inb_S2x16x256_S1x1x16_1_2_0)) (run0.sl.Hr1_w257 d L fx fr) w Finset.univ)
    (funext fun x => (pieceA' _ _ _ _ _ _ _ (by decide) x).symm)

set_option maxHeartbeats 1000000 in
theorem step1_3 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w259 d L fx fr = View.write (Elt F) (sO.access (Rect.unit (s := S2x16x256) ![1, 3, 0] S1x1x16.size inb_S2x16x256_S1x1x16_1_3_0)) (run0.sl.Hr1_w258 d L fx fr)
      (fun x => Gs (sSlot1.view.writes (Elt F) sSlot1.view.junk [⟨Rect.whole S16x256, run0.sl.dma0_1 d L fx⟩]) ((Rect.unit (s := S2x16x256) ![1, 3, 0] S1x1x16.size inb_S2x16x256_S1x1x16_1_3_0).emb x)) Finset.univ := by
  unfold run0.sl.Hr1_w259
  exact congrArg (fun w => View.write (Elt F) (sO.access (Rect.unit (s := S2x16x256) ![1, 3, 0] S1x1x16.size inb_S2x16x256_S1x1x16_1_3_0)) (run0.sl.Hr1_w258 d L fx fr) w Finset.univ)
    (funext fun x => (pieceA' _ _ _ _ _ _ _ (by decide) x).symm)

set_option maxHeartbeats 1000000 in
theorem step1_4 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w260 d L fx fr = View.write (Elt F) (sO.access (Rect.unit (s := S2x16x256) ![1, 4, 0] S1x1x16.size inb_S2x16x256_S1x1x16_1_4_0)) (run0.sl.Hr1_w259 d L fx fr)
      (fun x => Gs (sSlot1.view.writes (Elt F) sSlot1.view.junk [⟨Rect.whole S16x256, run0.sl.dma0_1 d L fx⟩]) ((Rect.unit (s := S2x16x256) ![1, 4, 0] S1x1x16.size inb_S2x16x256_S1x1x16_1_4_0).emb x)) Finset.univ := by
  unfold run0.sl.Hr1_w260
  exact congrArg (fun w => View.write (Elt F) (sO.access (Rect.unit (s := S2x16x256) ![1, 4, 0] S1x1x16.size inb_S2x16x256_S1x1x16_1_4_0)) (run0.sl.Hr1_w259 d L fx fr) w Finset.univ)
    (funext fun x => (pieceA' _ _ _ _ _ _ _ (by decide) x).symm)

set_option maxHeartbeats 1000000 in
theorem step1_5 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w261 d L fx fr = View.write (Elt F) (sO.access (Rect.unit (s := S2x16x256) ![1, 5, 0] S1x1x16.size inb_S2x16x256_S1x1x16_1_5_0)) (run0.sl.Hr1_w260 d L fx fr)
      (fun x => Gs (sSlot1.view.writes (Elt F) sSlot1.view.junk [⟨Rect.whole S16x256, run0.sl.dma0_1 d L fx⟩]) ((Rect.unit (s := S2x16x256) ![1, 5, 0] S1x1x16.size inb_S2x16x256_S1x1x16_1_5_0).emb x)) Finset.univ := by
  unfold run0.sl.Hr1_w261
  unfold run0.sl.r_167
  exact congrArg (fun w => View.write (Elt F) (sO.access (Rect.unit (s := S2x16x256) ![1, 5, 0] S1x1x16.size inb_S2x16x256_S1x1x16_1_5_0)) (run0.sl.Hr1_w260 d L fx fr) w Finset.univ)
    (funext fun x => (pieceA' _ _ _ _ _ _ _ (by decide) x).symm)

set_option maxHeartbeats 1000000 in
theorem step1_6 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w262 d L fx fr = View.write (Elt F) (sO.access (Rect.unit (s := S2x16x256) ![1, 6, 0] S1x1x16.size inb_S2x16x256_S1x1x16_1_6_0)) (run0.sl.Hr1_w261 d L fx fr)
      (fun x => Gs (sSlot1.view.writes (Elt F) sSlot1.view.junk [⟨Rect.whole S16x256, run0.sl.dma0_1 d L fx⟩]) ((Rect.unit (s := S2x16x256) ![1, 6, 0] S1x1x16.size inb_S2x16x256_S1x1x16_1_6_0).emb x)) Finset.univ := by
  unfold run0.sl.Hr1_w262
  exact congrArg (fun w => View.write (Elt F) (sO.access (Rect.unit (s := S2x16x256) ![1, 6, 0] S1x1x16.size inb_S2x16x256_S1x1x16_1_6_0)) (run0.sl.Hr1_w261 d L fx fr) w Finset.univ)
    (funext fun x => (pieceA' _ _ _ _ _ _ _ (by decide) x).symm)

set_option maxHeartbeats 1000000 in
theorem step1_7 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w263 d L fx fr = View.write (Elt F) (sO.access (Rect.unit (s := S2x16x256) ![1, 7, 0] S1x1x16.size inb_S2x16x256_S1x1x16_1_7_0)) (run0.sl.Hr1_w262 d L fx fr)
      (fun x => Gs (sSlot1.view.writes (Elt F) sSlot1.view.junk [⟨Rect.whole S16x256, run0.sl.dma0_1 d L fx⟩]) ((Rect.unit (s := S2x16x256) ![1, 7, 0] S1x1x16.size inb_S2x16x256_S1x1x16_1_7_0).emb x)) Finset.univ := by
  unfold run0.sl.Hr1_w263
  exact congrArg (fun w => View.write (Elt F) (sO.access (Rect.unit (s := S2x16x256) ![1, 7, 0] S1x1x16.size inb_S2x16x256_S1x1x16_1_7_0)) (run0.sl.Hr1_w262 d L fx fr) w Finset.univ)
    (funext fun x => (pieceA' _ _ _ _ _ _ _ (by decide) x).symm)

set_option maxHeartbeats 1000000 in
theorem step1_8 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w264 d L fx fr = View.write (Elt F) (sO.access (Rect.unit (s := S2x16x256) ![1, 8, 0] S1x1x16.size inb_S2x16x256_S1x1x16_1_8_0)) (run0.sl.Hr1_w263 d L fx fr)
      (fun x => Gs (sSlot1.view.writes (Elt F) sSlot1.view.junk [⟨Rect.whole S16x256, run0.sl.dma0_1 d L fx⟩]) ((Rect.unit (s := S2x16x256) ![1, 8, 0] S1x1x16.size inb_S2x16x256_S1x1x16_1_8_0).emb x)) Finset.univ := by
  unfold run0.sl.Hr1_w264
  exact congrArg (fun w => View.write (Elt F) (sO.access (Rect.unit (s := S2x16x256) ![1, 8, 0] S1x1x16.size inb_S2x16x256_S1x1x16_1_8_0)) (run0.sl.Hr1_w263 d L fx fr) w Finset.univ)
    (funext fun x => (pieceA' _ _ _ _ _ _ _ (by decide) x).symm)

set_option maxHeartbeats 1000000 in
theorem step1_9 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w265 d L fx fr = View.write (Elt F) (sO.access (Rect.unit (s := S2x16x256) ![1, 9, 0] S1x1x16.size inb_S2x16x256_S1x1x16_1_9_0)) (run0.sl.Hr1_w264 d L fx fr)
      (fun x => Gs (sSlot1.view.writes (Elt F) sSlot1.view.junk [⟨Rect.whole S16x256, run0.sl.dma0_1 d L fx⟩]) ((Rect.unit (s := S2x16x256) ![1, 9, 0] S1x1x16.size inb_S2x16x256_S1x1x16_1_9_0).emb x)) Finset.univ := by
  unfold run0.sl.Hr1_w265
  exact congrArg (fun w => View.write (Elt F) (sO.access (Rect.unit (s := S2x16x256) ![1, 9, 0] S1x1x16.size inb_S2x16x256_S1x1x16_1_9_0)) (run0.sl.Hr1_w264 d L fx fr) w Finset.univ)
    (funext fun x => (pieceA' _ _ _ _ _ _ _ (by decide) x).symm)

set_option maxHeartbeats 1000000 in
theorem step1_10 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w266 d L fx fr = View.write (Elt F) (sO.access (Rect.unit (s := S2x16x256) ![1, 10, 0] S1x1x16.size inb_S2x16x256_S1x1x16_1_10_0)) (run0.sl.Hr1_w265 d L fx fr)
      (fun x => Gs (sSlot1.view.writes (Elt F) sSlot1.view.junk [⟨Rect.whole S16x256, run0.sl.dma0_1 d L fx⟩]) ((Rect.unit (s := S2x16x256) ![1, 10, 0] S1x1x16.size inb_S2x16x256_S1x1x16_1_10_0).emb x)) Finset.univ := by
  unfold run0.sl.Hr1_w266
  exact congrArg (fun w => View.write (Elt F) (sO.access (Rect.unit (s := S2x16x256) ![1, 10, 0] S1x1x16.size inb_S2x16x256_S1x1x16_1_10_0)) (run0.sl.Hr1_w265 d L fx fr) w Finset.univ)
    (funext fun x => (pieceA' _ _ _ _ _ _ _ (by decide) x).symm)

set_option maxHeartbeats 1000000 in
theorem step1_11 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w267 d L fx fr = View.write (Elt F) (sO.access (Rect.unit (s := S2x16x256) ![1, 11, 0] S1x1x16.size inb_S2x16x256_S1x1x16_1_11_0)) (run0.sl.Hr1_w266 d L fx fr)
      (fun x => Gs (sSlot1.view.writes (Elt F) sSlot1.view.junk [⟨Rect.whole S16x256, run0.sl.dma0_1 d L fx⟩]) ((Rect.unit (s := S2x16x256) ![1, 11, 0] S1x1x16.size inb_S2x16x256_S1x1x16_1_11_0).emb x)) Finset.univ := by
  unfold run0.sl.Hr1_w267
  exact congrArg (fun w => View.write (Elt F) (sO.access (Rect.unit (s := S2x16x256) ![1, 11, 0] S1x1x16.size inb_S2x16x256_S1x1x16_1_11_0)) (run0.sl.Hr1_w266 d L fx fr) w Finset.univ)
    (funext fun x => (pieceA' _ _ _ _ _ _ _ (by decide) x).symm)

set_option maxHeartbeats 1000000 in
theorem step1_12 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w268 d L fx fr = View.write (Elt F) (sO.access (Rect.unit (s := S2x16x256) ![1, 12, 0] S1x1x16.size inb_S2x16x256_S1x1x16_1_12_0)) (run0.sl.Hr1_w267 d L fx fr)
      (fun x => Gs (sSlot1.view.writes (Elt F) sSlot1.view.junk [⟨Rect.whole S16x256, run0.sl.dma0_1 d L fx⟩]) ((Rect.unit (s := S2x16x256) ![1, 12, 0] S1x1x16.size inb_S2x16x256_S1x1x16_1_12_0).emb x)) Finset.univ := by
  unfold run0.sl.Hr1_w268
  exact congrArg (fun w => View.write (Elt F) (sO.access (Rect.unit (s := S2x16x256) ![1, 12, 0] S1x1x16.size inb_S2x16x256_S1x1x16_1_12_0)) (run0.sl.Hr1_w267 d L fx fr) w Finset.univ)
    (funext fun x => (pieceA' _ _ _ _ _ _ _ (by decide) x).symm)

set_option maxHeartbeats 1000000 in
theorem step1_13 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w269 d L fx fr = View.write (Elt F) (sO.access (Rect.unit (s := S2x16x256) ![1, 13, 0] S1x1x16.size inb_S2x16x256_S1x1x16_1_13_0)) (run0.sl.Hr1_w268 d L fx fr)
      (fun x => Gs (sSlot1.view.writes (Elt F) sSlot1.view.junk [⟨Rect.whole S16x256, run0.sl.dma0_1 d L fx⟩]) ((Rect.unit (s := S2x16x256) ![1, 13, 0] S1x1x16.size inb_S2x16x256_S1x1x16_1_13_0).emb x)) Finset.univ := by
  unfold run0.sl.Hr1_w269
  unfold run0.sl.r_170
  exact congrArg (fun w => View.write (Elt F) (sO.access (Rect.unit (s := S2x16x256) ![1, 13, 0] S1x1x16.size inb_S2x16x256_S1x1x16_1_13_0)) (run0.sl.Hr1_w268 d L fx fr) w Finset.univ)
    (funext fun x => (pieceA' _ _ _ _ _ _ _ (by decide) x).symm)

set_option maxHeartbeats 1000000 in
theorem step1_14 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w270 d L fx fr = View.write (Elt F) (sO.access (Rect.unit (s := S2x16x256) ![1, 14, 0] S1x1x16.size inb_S2x16x256_S1x1x16_1_14_0)) (run0.sl.Hr1_w269 d L fx fr)
      (fun x => Gs (sSlot1.view.writes (Elt F) sSlot1.view.junk [⟨Rect.whole S16x256, run0.sl.dma0_1 d L fx⟩]) ((Rect.unit (s := S2x16x256) ![1, 14, 0] S1x1x16.size inb_S2x16x256_S1x1x16_1_14_0).emb x)) Finset.univ := by
  unfold run0.sl.Hr1_w270
  exact congrArg (fun w => View.write (Elt F) (sO.access (Rect.unit (s := S2x16x256) ![1, 14, 0] S1x1x16.size inb_S2x16x256_S1x1x16_1_14_0)) (run0.sl.Hr1_w269 d L fx fr) w Finset.univ)
    (funext fun x => (pieceA' _ _ _ _ _ _ _ (by decide) x).symm)

set_option maxHeartbeats 1000000 in
theorem step1_15 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w271 d L fx fr = View.write (Elt F) (sO.access (Rect.unit (s := S2x16x256) ![1, 15, 0] S1x1x16.size inb_S2x16x256_S1x1x16_1_15_0)) (run0.sl.Hr1_w270 d L fx fr)
      (fun x => Gs (sSlot1.view.writes (Elt F) sSlot1.view.junk [⟨Rect.whole S16x256, run0.sl.dma0_1 d L fx⟩]) ((Rect.unit (s := S2x16x256) ![1, 15, 0] S1x1x16.size inb_S2x16x256_S1x1x16_1_15_0).emb x)) Finset.univ := by
  unfold run0.sl.Hr1_w271
  exact congrArg (fun w => View.write (Elt F) (sO.access (Rect.unit (s := S2x16x256) ![1, 15, 0] S1x1x16.size inb_S2x16x256_S1x1x16_1_15_0)) (run0.sl.Hr1_w270 d L fx fr) w Finset.univ)
    (funext fun x => (pieceA' _ _ _ _ _ _ _ (by decide) x).symm)

set_option maxHeartbeats 1000000 in
theorem step1_16 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w272 d L fx fr = View.write (Elt F) (sO.access (Rect.unit (s := S2x16x256) ![1, 0, 0] S1x1x16.size inb_S2x16x256_S1x1x16_1_0_0)) (run0.sl.Hr1_w271 d L fx fr)
      (fun x => Gs (sSlot1.view.writes (Elt F) sSlot1.view.junk [⟨Rect.whole S16x256, run0.sl.dma0_1 d L fx⟩]) ((Rect.unit (s := S2x16x256) ![1, 0, 0] S1x1x16.size inb_S2x16x256_S1x1x16_1_0_0).emb x)) Finset.univ := by
  unfold run0.sl.Hr1_w272
  unfold run0.sl.r_163 run0.sl.r_171 run0.sl.r_169 run0.sl.r_168 run0.sl.r_166 run0.sl.r_167 run0.sl.r_164 run0.sl.r_165
  exact congrArg (fun w => View.write (Elt F) (sO.access (Rect.unit (s := S2x16x256) ![1, 0, 0] S1x1x16.size inb_S2x16x256_S1x1x16_1_0_0)) (run0.sl.Hr1_w271 d L fx fr) w Finset.univ)
    (funext fun x => (pieceB' (sSlot1.view.writes (Elt F) sSlot1.view.junk [⟨Rect.whole S16x256, run0.sl.dma0_1 d L fx⟩]) 1 0 inb_S2x16x256_S1x1x16_1_0_0 inb_S2x16x256_S1x1x16_1_1_0 inb_S2x16x256_S1x1x16_1_2_0 inb_S2x16x256_S1x1x16_1_3_0 inb_S2x16x256_S1x1x16_1_4_0 inb_S2x16x256_S1x1x16_1_5_0 inb_S2x16x256_S1x1x16_1_6_0 inb_S2x16x256_S1x1x16_1_7_0 inb_S2x16x256_S1x1x16_1_8_0 inb_S2x16x256_S1x1x16_1_9_0 inb_S2x16x256_S1x1x16_1_10_0 inb_S2x16x256_S1x1x16_1_11_0 inb_S2x16x256_S1x1x16_1_12_0 inb_S2x16x256_S1x1x16_1_13_0 inb_S2x16x256_S1x1x16_1_14_0 inb_S2x16x256_S1x1x16_1_15_0 shapeCasts_S1x1x16_S16 shapeCasts_S16_S1x1x16 x).symm)

set_option maxHeartbeats 1000000 in
theorem step1_17 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w273 d L fx fr = View.write (Elt F) (sO.access (Rect.unit (s := S2x16x256) ![1, 1, 16] S1x1x16.size inb_S2x16x256_S1x1x16_1_1_16)) (run0.sl.Hr1_w272 d L fx fr)
      (fun x => Gs (sSlot1.view.writes (Elt F) sSlot1.view.junk [⟨Rect.whole S16x256, run0.sl.dma0_1 d L fx⟩]) ((Rect.unit (s := S2x16x256) ![1, 1, 16] S1x1x16.size inb_S2x16x256_S1x1x16_1_1_16).emb x)) Finset.univ := by
  unfold run0.sl.Hr1_w273
  exact congrArg (fun w => View.write (Elt F) (sO.access (Rect.unit (s := S2x16x256) ![1, 1, 16] S1x1x16.size inb_S2x16x256_S1x1x16_1_1_16)) (run0.sl.Hr1_w272 d L fx fr) w Finset.univ)
    (funext fun x => (pieceA' _ _ _ _ _ _ _ (by decide) x).symm)

set_option maxHeartbeats 1000000 in
theorem step1_18 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w274 d L fx fr = View.write (Elt F) (sO.access (Rect.unit (s := S2x16x256) ![1, 2, 16] S1x1x16.size inb_S2x16x256_S1x1x16_1_2_16)) (run0.sl.Hr1_w273 d L fx fr)
      (fun x => Gs (sSlot1.view.writes (Elt F) sSlot1.view.junk [⟨Rect.whole S16x256, run0.sl.dma0_1 d L fx⟩]) ((Rect.unit (s := S2x16x256) ![1, 2, 16] S1x1x16.size inb_S2x16x256_S1x1x16_1_2_16).emb x)) Finset.univ := by
  unfold run0.sl.Hr1_w274
  exact congrArg (fun w => View.write (Elt F) (sO.access (Rect.unit (s := S2x16x256) ![1, 2, 16] S1x1x16.size inb_S2x16x256_S1x1x16_1_2_16)) (run0.sl.Hr1_w273 d L fx fr) w Finset.univ)
    (funext fun x => (pieceA' _ _ _ _ _ _ _ (by decide) x).symm)

set_option maxHeartbeats 1000000 in
theorem step1_19 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w275 d L fx fr = View.write (Elt F) (sO.access (Rect.unit (s := S2x16x256) ![1, 3, 16] S1x1x16.size inb_S2x16x256_S1x1x16_1_3_16)) (run0.sl.Hr1_w274 d L fx fr)
      (fun x => Gs (sSlot1.view.writes (Elt F) sSlot1.view.junk [⟨Rect.whole S16x256, run0.sl.dma0_1 d L fx⟩]) ((Rect.unit (s := S2x16x256) ![1, 3, 16] S1x1x16.size inb_S2x16x256_S1x1x16_1_3_16).emb x)) Finset.univ := by
  unfold run0.sl.Hr1_w275
  unfold run0.sl.r_175
  exact congrArg (fun w => View.write (Elt F) (sO.access (Rect.unit (s := S2x16x256) ![1, 3, 16] S1x1x16.size inb_S2x16x256_S1x1x16_1_3_16)) (run0.sl.Hr1_w274 d L fx fr) w Finset.univ)
    (funext fun x => (pieceA' _ _ _ _ _ _ _ (by decide) x).symm)

set_option maxHeartbeats 1000000 in
theorem step1_20 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w276 d L fx fr = View.write (Elt F) (sO.access (Rect.unit (s := S2x16x256) ![1, 4, 16] S1x1x16.size inb_S2x16x256_S1x1x16_1_4_16)) (run0.sl.Hr1_w275 d L fx fr)
      (fun x => Gs (sSlot1.view.writes (Elt F) sSlot1.view.junk [⟨Rect.whole S16x256, run0.sl.dma0_1 d L fx⟩]) ((Rect.unit (s := S2x16x256) ![1, 4, 16] S1x1x16.size inb_S2x16x256_S1x1x16_1_4_16).emb x)) Finset.univ := by
  unfold run0.sl.Hr1_w276
  exact congrArg (fun w => View.write (Elt F) (sO.access (Rect.unit (s := S2x16x256) ![1, 4, 16] S1x1x16.size inb_S2x16x256_S1x1x16_1_4_16)) (run0.sl.Hr1_w275 d L fx fr) w Finset.univ)
    (funext fun x => (pieceA' _ _ _ _ _ _ _ (by decide) x).symm)

set_option maxHeartbeats 1000000 in
theorem step1_21 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w277 d L fx fr = View.write (Elt F) (sO.access (Rect.unit (s := S2x16x256) ![1, 5, 16] S1x1x16.size inb_S2x16x256_S1x1x16_1_5_16)) (run0.sl.Hr1_w276 d L fx fr)
      (fun x => Gs (sSlot1.view.writes (Elt F) sSlot1.view.junk [⟨Rect.whole S16x256, run0.sl.dma0_1 d L fx⟩]) ((Rect.unit (s := S2x16x256) ![1, 5, 16] S1x1x16.size inb_S2x16x256_S1x1x16_1_5_16).emb x)) Finset.univ := by
  unfold run0.sl.Hr1_w277
  exact congrArg (fun w => View.write (Elt F) (sO.access (Rect.unit (s := S2x16x256) ![1, 5, 16] S1x1x16.size inb_S2x16x256_S1x1x16_1_5_16)) (run0.sl.Hr1_w276 d L fx fr) w Finset.univ)
    (funext fun x => (pieceA' _ _ _ _ _ _ _ (by decide) x).symm)

set_option maxHeartbeats 1000000 in
theorem step1_22 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w278 d L fx fr = View.write (Elt F) (sO.access (Rect.unit (s := S2x16x256) ![1, 6, 16] S1x1x16.size inb_S2x16x256_S1x1x16_1_6_16)) (run0.sl.Hr1_w277 d L fx fr)
      (fun x => Gs (sSlot1.view.writes (Elt F) sSlot1.view.junk [⟨Rect.whole S16x256, run0.sl.dma0_1 d L fx⟩]) ((Rect.unit (s := S2x16x256) ![1, 6, 16] S1x1x16.size inb_S2x16x256_S1x1x16_1_6_16).emb x)) Finset.univ := by
  unfold run0.sl.Hr1_w278
  unfold run0.sl.r_177 run0.sl.cst_306
  exact congrArg (fun w => View.write (Elt F) (sO.access (Rect.unit (s := S2x16x256) ![1, 6, 16] S1x1x16.size inb_S2x16x256_S1x1x16_1_6_16)) (run0.sl.Hr1_w277 d L fx fr) w Finset.univ)
    (funext fun x => (pieceA' _ _ _ _ _ _ _ (by decide) x).symm)

set_option maxHeartbeats 1000000 in
theorem step1_23 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w279 d L fx fr = View.write (Elt F) (sO.access (Rect.unit (s := S2x16x256) ![1, 7, 16] S1x1x16.size inb_S2x16x256_S1x1x16_1_7_16)) (run0.sl.Hr1_w278 d L fx fr)
      (fun x => Gs (sSlot1.view.writes (Elt F) sSlot1.view.junk [⟨Rect.whole S16x256, run0.sl.dma0_1 d L fx⟩]) ((Rect.unit (s := S2x16x256) ![1, 7, 16] S1x1x16.size inb_S2x16x256_S1x1x16_1_7_16).emb x)) Finset.univ := by
  unfold run0.sl.Hr1_w279
  exact congrArg (fun w => View.write (Elt F) (sO.access (Rect.unit (s := S2x16x256) ![1, 7, 16] S1x1x16.size inb_S2x16x256_S1x1x16_1_7_16)) (run0.sl.Hr1_w278 d L fx fr) w Finset.univ)
    (funext fun x => (pieceA' _ _ _ _ _ _ _ (by decide) x).symm)

set_option maxHeartbeats 1000000 in
theorem step1_24 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w280 d L fx fr = View.write (Elt F) (sO.access (Rect.unit (s := S2x16x256) ![1, 8, 16] S1x1x16.size inb_S2x16x256_S1x1x16_1_8_16)) (run0.sl.Hr1_w279 d L fx fr)
      (fun x => Gs (sSlot1.view.writes (Elt F) sSlot1.view.junk [⟨Rect.whole S16x256, run0.sl.dma0_1 d L fx⟩]) ((Rect.unit (s := S2x16x256) ![1, 8, 16] S1x1x16.size inb_S2x16x256_S1x1x16_1_8_16).emb x)) Finset.univ := by
  unfold run0.sl.Hr1_w280
  exact congrArg (fun w => View.write (Elt F) (sO.access (Rect.unit (s := S2x16x256) ![1, 8, 16] S1x1x16.size inb_S2x16x256_S1x1x16_1_8_16)) (run0.sl.Hr1_w279 d L fx fr) w Finset.univ)
    (funext fun x => (pieceA' _ _ _ _ _ _ _ (by decide) x).symm)

set_option maxHeartbeats 1000000 in
theorem step1_25 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w281 d L fx fr = View.write (Elt F) (sO.access (Rect.unit (s := S2x16x256) ![1, 9, 16] S1x1x16.size inb_S2x16x256_S1x1x16_1_9_16)) (run0.sl.Hr1_w280 d L fx fr)
      (fun x => Gs (sSlot1.view.writes (Elt F) sSlot1.view.junk [⟨Rect.whole S16x256, run0.sl.dma0_1 d L fx⟩]) ((Rect.unit (s := S2x16x256) ![1, 9, 16] S1x1x16.size inb_S2x16x256_S1x1x16_1_9_16).emb x)) Finset.univ := by
  unfold run0.sl.Hr1_w281
  exact congrArg (fun w => View.write (Elt F) (sO.access (Rect.unit (s := S2x16x256) ![1, 9, 16] S1x1x16.size inb_S2x16x256_S1x1x16_1_9_16)) (run0.sl.Hr1_w280 d L fx fr) w Finset.univ)
    (funext fun x => (pieceA' _ _ _ _ _ _ _ (by decide) x).symm)

set_option maxHeartbeats 1000000 in
theorem step1_26 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w282 d L fx fr = View.write (Elt F) (sO.access (Rect.unit (s := S2x16x256) ![1, 10, 16] S1x1x16.size inb_S2x16x256_S1x1x16_1_10_16)) (run0.sl.Hr1_w281 d L fx fr)
      (fun x => Gs (sSlot1.view.writes (Elt F) sSlot1.view.junk [⟨Rect.whole S16x256, run0.sl.dma0_1 d L fx⟩]) ((Rect.unit (s := S2x16x256) ![1, 10, 16] S1x1x16.size inb_S2x16x256_S1x1x16_1_10_16).emb x)) Finset.univ := by
  unfold run0.sl.Hr1_w282
  exact congrArg (fun w => View.write (Elt F) (sO.access (Rect.unit (s := S2x16x256) ![1, 10, 16] S1x1x16.size inb_S2x16x256_S1x1x16_1_10_16)) (run0.sl.Hr1_w281 d L fx fr) w Finset.univ)
    (funext fun x => (pieceA' _ _ _ _ _ _ _ (by decide) x).symm)

set_option maxHeartbeats 1000000 in
theorem step1_27 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w283 d L fx fr = View.write (Elt F) (sO.access (Rect.unit (s := S2x16x256) ![1, 11, 16] S1x1x16.size inb_S2x16x256_S1x1x16_1_11_16)) (run0.sl.Hr1_w282 d L fx fr)
      (fun x => Gs (sSlot1.view.writes (Elt F) sSlot1.view.junk [⟨Rect.whole S16x256, run0.sl.dma0_1 d L fx⟩]) ((Rect.unit (s := S2x16x256) ![1, 11, 16] S1x1x16.size inb_S2x16x256_S1x1x16_1_11_16).emb x)) Finset.univ := by
  unfold run0.sl.Hr1_w283
  exact congrArg (fun w => View.write (Elt F) (sO.access (Rect.unit (s := S2x16x256) ![1, 11, 16] S1x1x16.size inb_S2x16x256_S1x1x16_1_11_16)) (run0.sl.Hr1_w282 d L fx fr) w Finset.univ)
    (funext fun x => (pieceA' _ _ _ _ _ _ _ (by decide) x).symm)

set_option maxHeartbeats 1000000 in
theorem step1_28 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w284 d L fx fr = View.write (Elt F) (sO.access (Rect.unit (s := S2x16x256) ![1, 12, 16] S1x1x16.size inb_S2x16x256_S1x1x16_1_12_16)) (run0.sl.Hr1_w283 d L fx fr)
      (fun x => Gs (sSlot1.view.writes (Elt F) sSlot1.view.junk [⟨Rect.whole S16x256, run0.sl.dma0_1 d L fx⟩]) ((Rect.unit (s := S2x16x256) ![1, 12, 16] S1x1x16.size inb_S2x16x256_S1x1x16_1_12_16).emb x)) Finset.univ := by
  unfold run0.sl.Hr1_w284
  exact congrArg (fun w => View.write (Elt F) (sO.access (Rect.unit (s := S2x16x256) ![1, 12, 16] S1x1x16.size inb_S2x16x256_S1x1x16_1_12_16)) (run0.sl.Hr1_w283 d L fx fr) w Finset.univ)
    (funext fun x => (pieceA' _ _ _ _ _ _ _ (by decide) x).symm)

set_option maxHeartbeats 1000000 in
theorem step1_29 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w285 d L fx fr = View.write (Elt F) (sO.access (Rect.unit (s := S2x16x256) ![1, 13, 16] S1x1x16.size inb_S2x16x256_S1x1x16_1_13_16)) (run0.sl.Hr1_w284 d L fx fr)
      (fun x => Gs (sSlot1.view.writes (Elt F) sSlot1.view.junk [⟨Rect.whole S16x256, run0.sl.dma0_1 d L fx⟩]) ((Rect.unit (s := S2x16x256) ![1, 13, 16] S1x1x16.size inb_S2x16x256_S1x1x16_1_13_16).emb x)) Finset.univ := by
  unfold run0.sl.Hr1_w285
  exact congrArg (fun w => View.write (Elt F) (sO.access (Rect.unit (s := S2x16x256) ![1, 13, 16] S1x1x16.size inb_S2x16x256_S1x1x16_1_13_16)) (run0.sl.Hr1_w284 d L fx fr) w Finset.univ)
    (funext fun x => (pieceA' _ _ _ _ _ _ _ (by decide) x).symm)

set_option maxHeartbeats 1000000 in
theorem step1_30 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w286 d L fx fr = View.write (Elt F) (sO.access (Rect.unit (s := S2x16x256) ![1, 14, 16] S1x1x16.size inb_S2x16x256_S1x1x16_1_14_16)) (run0.sl.Hr1_w285 d L fx fr)
      (fun x => Gs (sSlot1.view.writes (Elt F) sSlot1.view.junk [⟨Rect.whole S16x256, run0.sl.dma0_1 d L fx⟩]) ((Rect.unit (s := S2x16x256) ![1, 14, 16] S1x1x16.size inb_S2x16x256_S1x1x16_1_14_16).emb x)) Finset.univ := by
  unfold run0.sl.Hr1_w286
  unfold run0.sl.r_181
  exact congrArg (fun w => View.write (Elt F) (sO.access (Rect.unit (s := S2x16x256) ![1, 14, 16] S1x1x16.size inb_S2x16x256_S1x1x16_1_14_16)) (run0.sl.Hr1_w285 d L fx fr) w Finset.univ)
    (funext fun x => (pieceA' _ _ _ _ _ _ _ (by decide) x).symm)

set_option maxHeartbeats 1000000 in
theorem step1_31 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w287 d L fx fr = View.write (Elt F) (sO.access (Rect.unit (s := S2x16x256) ![1, 15, 16] S1x1x16.size inb_S2x16x256_S1x1x16_1_15_16)) (run0.sl.Hr1_w286 d L fx fr)
      (fun x => Gs (sSlot1.view.writes (Elt F) sSlot1.view.junk [⟨Rect.whole S16x256, run0.sl.dma0_1 d L fx⟩]) ((Rect.unit (s := S2x16x256) ![1, 15, 16] S1x1x16.size inb_S2x16x256_S1x1x16_1_15_16).emb x)) Finset.univ := by
  unfold run0.sl.Hr1_w287
  exact congrArg (fun w => View.write (Elt F) (sO.access (Rect.unit (s := S2x16x256) ![1, 15, 16] S1x1x16.size inb_S2x16x256_S1x1x16_1_15_16)) (run0.sl.Hr1_w286 d L fx fr) w Finset.univ)
    (funext fun x => (pieceA' _ _ _ _ _ _ _ (by decide) x).symm)

set_option maxHeartbeats 1000000 in
theorem step1_32 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w288 d L fx fr = View.write (Elt F) (sO.access (Rect.unit (s := S2x16x256) ![1, 0, 16] S1x1x16.size inb_S2x16x256_S1x1x16_1_0_16)) (run0.sl.Hr1_w287 d L fx fr)
      (fun x => Gs (sSlot1.view.writes (Elt F) sSlot1.view.junk [⟨Rect.whole S16x256, run0.sl.dma0_1 d L fx⟩]) ((Rect.unit (s := S2x16x256) ![1, 0, 16] S1x1x16.size inb_S2x16x256_S1x1x16_1_0_16).emb x)) Finset.univ := by
  unfold run0.sl.Hr1_w288
  unfold run0.sl.r_173 run0.sl.r_180 run0.sl.r_179 run0.sl.r_178 run0.sl.r_176 run0.sl.r_177 run0.sl.r_174 run0.sl.r_175 run0.sl.cst_306
  exact congrArg (fun w => View.write (Elt F) (sO.access (Rect.unit (s := S2x16x256) ![1, 0, 16] S1x1x16.size inb_S2x16x256_S1x1x16_1_0_16)) (run0.sl.Hr1_w287 d L fx fr) w Finset.univ)
    (funext fun x => (pieceB' (sSlot1.view.writes (Elt F) sSlot1.view.junk [⟨Rect.whole S16x256, run0.sl.dma0_1 d L fx⟩]) 1 16 inb_S2x16x256_S1x1x16_1_0_16 inb_S2x16x256_S1x1x16_1_1_16 inb_S2x16x256_S1x1x16_1_2_16 inb_S2x16x256_S1x1x16_1_3_16 inb_S2x16x256_S1x1x16_1_4_16 inb_S2x16x256_S1x1x16_1_5_16 inb_S2x16x256_S1x1x16_1_6_16 inb_S2x16x256_S1x1x16_1_7_16 inb_S2x16x256_S1x1x16_1_8_16 inb_S2x16x256_S1x1x16_1_9_16 inb_S2x16x256_S1x1x16_1_10_16 inb_S2x16x256_S1x1x16_1_11_16 inb_S2x16x256_S1x1x16_1_12_16 inb_S2x16x256_S1x1x16_1_13_16 inb_S2x16x256_S1x1x16_1_14_16 inb_S2x16x256_S1x1x16_1_15_16 shapeCasts_S1x1x16_S16 shapeCasts_S16_S1x1x16 x).symm)

set_option maxHeartbeats 1000000 in
theorem step1_33 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w289 d L fx fr = View.write (Elt F) (sO.access (Rect.unit (s := S2x16x256) ![1, 1, 32] S1x1x16.size inb_S2x16x256_S1x1x16_1_1_32)) (run0.sl.Hr1_w288 d L fx fr)
      (fun x => Gs (sSlot1.view.writes (Elt F) sSlot1.view.junk [⟨Rect.whole S16x256, run0.sl.dma0_1 d L fx⟩]) ((Rect.unit (s := S2x16x256) ![1, 1, 32] S1x1x16.size inb_S2x16x256_S1x1x16_1_1_32).emb x)) Finset.univ := by
  unfold run0.sl.Hr1_w289
  unfold run0.sl.r_183
  exact congrArg (fun w => View.write (Elt F) (sO.access (Rect.unit (s := S2x16x256) ![1, 1, 32] S1x1x16.size inb_S2x16x256_S1x1x16_1_1_32)) (run0.sl.Hr1_w288 d L fx fr) w Finset.univ)
    (funext fun x => (pieceA' _ _ _ _ _ _ _ (by decide) x).symm)

set_option maxHeartbeats 1000000 in
theorem step1_34 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w290 d L fx fr = View.write (Elt F) (sO.access (Rect.unit (s := S2x16x256) ![1, 2, 32] S1x1x16.size inb_S2x16x256_S1x1x16_1_2_32)) (run0.sl.Hr1_w289 d L fx fr)
      (fun x => Gs (sSlot1.view.writes (Elt F) sSlot1.view.junk [⟨Rect.whole S16x256, run0.sl.dma0_1 d L fx⟩]) ((Rect.unit (s := S2x16x256) ![1, 2, 32] S1x1x16.size inb_S2x16x256_S1x1x16_1_2_32).emb x)) Finset.univ := by
  unfold run0.sl.Hr1_w290
  exact congrArg (fun w => View.write (Elt F) (sO.access (Rect.unit (s := S2x16x256) ![1, 2, 32] S1x1x16.size inb_S2x16x256_S1x1x16_1_2_32)) (run0.sl.Hr1_w289 d L fx fr) w Finset.univ)
    (funext fun x => (pieceA' _ _ _ _ _ _ _ (by decide) x).symm)

set_option maxHeartbeats 1000000 in
theorem step1_35 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w291 d L fx fr = View.write (Elt F) (sO.access (Rect.unit (s := S2x16x256) ![1, 3, 32] S1x1x16.size inb_S2x16x256_S1x1x16_1_3_32)) (run0.sl.Hr1_w290 d L fx fr)
      (fun x => Gs (sSlot1.view.writes (Elt F) sSlot1.view.junk [⟨Rect.whole S16x256, run0.sl.dma0_1 d L fx⟩]) ((Rect.unit (s := S2x16x256) ![1, 3, 32] S1x1x16.size inb_S2x16x256_S1x1x16_1_3_32).emb x)) Finset.univ := by
  unfold run0.sl.Hr1_w291
  exact congrArg (fun w => View.write (Elt F) (sO.access (Rect.unit (s := S2x16x256) ![1, 3, 32] S1x1x16.size inb_S2x16x256_S1x1x16_1_3_32)) (run0.sl.Hr1_w290 d L fx fr) w Finset.univ)
    (funext fun x => (pieceA' _ _ _ _ _ _ _ (by decide) x).symm)

set_option maxHeartbeats 1000000 in
theorem step1_36 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w292 d L fx fr = View.write (Elt F) (sO.access (Rect.unit (s := S2x16x256) ![1, 4, 32] S1x1x16.size inb_S2x16x256_S1x1x16_1_4_32)) (run0.sl.Hr1_w291 d L fx fr)
      (fun x => Gs (sSlot1.view.writes (Elt F) sSlot1.view.junk [⟨Rect.whole S16x256, run0.sl.dma0_1 d L fx⟩]) ((Rect.unit (s := S2x16x256) ![1, 4, 32] S1x1x16.size inb_S2x16x256_S1x1x16_1_4_32).emb x)) Finset.univ := by
  unfold run0.sl.Hr1_w292
  unfold run0.sl.r_185
  exact congrArg (fun w => View.write (Elt F) (sO.access (Rect.unit (s := S2x16x256) ![1, 4, 32] S1x1x16.size inb_S2x16x256_S1x1x16_1_4_32)) (run0.sl.Hr1_w291 d L fx fr) w Finset.univ)
    (funext fun x => (pieceA' _ _ _ _ _ _ _ (by decide) x).symm)

set_option maxHeartbeats 1000000 in
theorem step1_37 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w293 d L fx fr = View.write (Elt F) (sO.access (Rect.unit (s := S2x16x256) ![1, 5, 32] S1x1x16.size inb_S2x16x256_S1x1x16_1_5_32)) (run0.sl.Hr1_w292 d L fx fr)
      (fun x => Gs (sSlot1.view.writes (Elt F) sSlot1.view.junk [⟨Rect.whole S16x256, run0.sl.dma0_1 d L fx⟩]) ((Rect.unit (s := S2x16x256) ![1, 5, 32] S1x1x16.size inb_S2x16x256_S1x1x16_1_5_32).emb x)) Finset.univ := by
  unfold run0.sl.Hr1_w293
  exact congrArg (fun w => View.write (Elt F) (sO.access (Rect.unit (s := S2x16x256) ![1, 5, 32] S1x1x16.size inb_S2x16x256_S1x1x16_1_5_32)) (run0.sl.Hr1_w292 d L fx fr) w Finset.univ)
    (funext fun x => (pieceA' _ _ _ _ _ _ _ (by decide) x).symm)

set_option maxHeartbeats 1000000 in
theorem step1_38 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w294 d L fx fr = View.write (Elt F) (sO.access (Rect.unit (s := S2x16x256) ![1, 6, 32] S1x1x16.size inb_S2x16x256_S1x1x16_1_6_32)) (run0.sl.Hr1_w293 d L fx fr)
      (fun x => Gs (sSlot1.view.writes (Elt F) sSlot1.view.junk [⟨Rect.whole S16x256, run0.sl.dma0_1 d L fx⟩]) ((Rect.unit (s := S2x16x256) ![1, 6, 32] S1x1x16.size inb_S2x16x256_S1x1x16_1_6_32).emb x)) Finset.univ := by
  unfold run0.sl.Hr1_w294
  exact congrArg (fun w => View.write (Elt F) (sO.access (Rect.unit (s := S2x16x256) ![1, 6, 32] S1x1x16.size inb_S2x16x256_S1x1x16_1_6_32)) (run0.sl.Hr1_w293 d L fx fr) w Finset.univ)
    (funext fun x => (pieceA' _ _ _ _ _ _ _ (by decide) x).symm)

set_option maxHeartbeats 1000000 in
theorem step1_39 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w295 d L fx fr = View.write (Elt F) (sO.access (Rect.unit (s := S2x16x256) ![1, 7, 32] S1x1x16.size inb_S2x16x256_S1x1x16_1_7_32)) (run0.sl.Hr1_w294 d L fx fr)
      (fun x => Gs (sSlot1.view.writes (Elt F) sSlot1.view.junk [⟨Rect.whole S16x256, run0.sl.dma0_1 d L fx⟩]) ((Rect.unit (s := S2x16x256) ![1, 7, 32] S1x1x16.size inb_S2x16x256_S1x1x16_1_7_32).emb x)) Finset.univ := by
  unfold run0.sl.Hr1_w295
  unfold run0.sl.r_188
  exact congrArg (fun w => View.write (Elt F) (sO.access (Rect.unit (s := S2x16x256) ![1, 7, 32] S1x1x16.size inb_S2x16x256_S1x1x16_1_7_32)) (run0.sl.Hr1_w294 d L fx fr) w Finset.univ)
    (funext fun x => (pieceA' _ _ _ _ _ _ _ (by decide) x).symm)

set_option maxHeartbeats 1000000 in
theorem step1_40 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w296 d L fx fr = View.write (Elt F) (sO.access (Rect.unit (s := S2x16x256) ![1, 8, 32] S1x1x16.size inb_S2x16x256_S1x1x16_1_8_32)) (run0.sl.Hr1_w295 d L fx fr)
      (fun x => Gs (sSlot1.view.writes (Elt F) sSlot1.view.junk [⟨Rect.whole S16x256, run0.sl.dma0_1 d L fx⟩]) ((Rect.unit (s := S2x16x256) ![1, 8, 32] S1x1x16.size inb_S2x16x256_S1x1x16_1_8_32).emb x)) Finset.univ := by
  unfold run0.sl.Hr1_w296
  exact congrArg (fun w => View.write (Elt F) (sO.access (Rect.unit (s := S2x16x256) ![1, 8, 32] S1x1x16.size inb_S2x16x256_S1x1x16_1_8_32)) (run0.sl.Hr1_w295 d L fx fr) w Finset.univ)
    (funext fun x => (pieceA' _ _ _ _ _ _ _ (by decide) x).symm)

set_option maxHeartbeats 1000000 in
theorem step1_41 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w297 d L fx fr = View.write (Elt F) (sO.access (Rect.unit (s := S2x16x256) ![1, 9, 32] S1x1x16.size inb_S2x16x256_S1x1x16_1_9_32)) (run0.sl.Hr1_w296 d L fx fr)
      (fun x => Gs (sSlot1.view.writes (Elt F) sSlot1.view.junk [⟨Rect.whole S16x256, run0.sl.dma0_1 d L fx⟩]) ((Rect.unit (s := S2x16x256) ![1, 9, 32] S1x1x16.size inb_S2x16x256_S1x1x16_1_9_32).emb x)) Finset.univ := by
  unfold run0.sl.Hr1_w297
  exact congrArg (fun w => View.write (Elt F) (sO.access (Rect.unit (s := S2x16x256) ![1, 9, 32] S1x1x16.size inb_S2x16x256_S1x1x16_1_9_32)) (run0.sl.Hr1_w296 d L fx fr) w Finset.univ)
    (funext fun x => (pieceA' _ _ _ _ _ _ _ (by decide) x).symm)

set_option maxHeartbeats 1000000 in
theorem step1_42 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w298 d L fx fr = View.write (Elt F) (sO.access (Rect.unit (s := S2x16x256) ![1, 10, 32] S1x1x16.size inb_S2x16x256_S1x1x16_1_10_32)) (run0.sl.Hr1_w297 d L fx fr)
      (fun x => Gs (sSlot1.view.writes (Elt F) sSlot1.view.junk [⟨Rect.whole S16x256, run0.sl.dma0_1 d L fx⟩]) ((Rect.unit (s := S2x16x256) ![1, 10, 32] S1x1x16.size inb_S2x16x256_S1x1x16_1_10_32).emb x)) Finset.univ := by
  unfold run0.sl.Hr1_w298
  unfold run0.sl.r_190
  exact congrArg (fun w => View.write (Elt F) (sO.access (Rect.unit (s := S2x16x256) ![1, 10, 32] S1x1x16.size inb_S2x16x256_S1x1x16_1_10_32)) (run0.sl.Hr1_w297 d L fx fr) w Finset.univ)
    (funext fun x => (pieceA' _ _ _ _ _ _ _ (by decide) x).symm)

set_option maxHeartbeats 1000000 in
theorem step1_43 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w299 d L fx fr = View.write (Elt F) (sO.access (Rect.unit (s := S2x16x256) ![1, 11, 32] S1x1x16.size inb_S2x16x256_S1x1x16_1_11_32)) (run0.sl.Hr1_w298 d L fx fr)
      (fun x => Gs (sSlot1.view.writes (Elt F) sSlot1.view.junk [⟨Rect.whole S16x256, run0.sl.dma0_1 d L fx⟩]) ((Rect.unit (s := S2x16x256) ![1, 11, 32] S1x1x16.size inb_S2x16x256_S1x1x16_1_11_32).emb x)) Finset.univ := by
  unfold run0.sl.Hr1_w299
  exact congrArg (fun w => View.write (Elt F) (sO.access (Rect.unit (s := S2x16x256) ![1, 11, 32] S1x1x16.size inb_S2x16x256_S1x1x16_1_11_32)) (run0.sl.Hr1_w298 d L fx fr) w Finset.univ)
    (funext fun x => (pieceA' _ _ _ _ _ _ _ (by decide) x).symm)

set_option maxHeartbeats 1000000 in
theorem step1_44 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w300 d L fx fr = View.write (Elt F) (sO.access (Rect.unit (s := S2x16x256) ![1, 12, 32] S1x1x16.size inb_S2x16x256_S1x1x16_1_12_32)) (run0.sl.Hr1_w299 d L fx fr)
      (fun x => Gs (sSlot1.view.writes (Elt F) sSlot1.view.junk [⟨Rect.whole S16x256, run0.sl.dma0_1 d L fx⟩]) ((Rect.unit (s := S2x16x256) ![1, 12, 32] S1x1x16.size inb_S2x16x256_S1x1x16_1_12_32).emb x)) Finset.univ := by
  unfold run0.sl.Hr1_w300
  exact congrArg (fun w => View.write (Elt F) (sO.access (Rect.unit (s := S2x16x256) ![1, 12, 32] S1x1x16.size inb_S2x16x256_S1x1x16_1_12_32)) (run0.sl.Hr1_w299 d L fx fr) w Finset.univ)
    (funext fun x => (pieceA' _ _ _ _ _ _ _ (by decide) x).symm)

set_option maxHeartbeats 1000000 in
theorem step1_45 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w301 d L fx fr = View.write (Elt F) (sO.access (Rect.unit (s := S2x16x256) ![1, 13, 32] S1x1x16.size inb_S2x16x256_S1x1x16_1_13_32)) (run0.sl.Hr1_w300 d L fx fr)
      (fun x => Gs (sSlot1.view.writes (Elt F) sSlot1.view.junk [⟨Rect.whole S16x256, run0.sl.dma0_1 d L fx⟩]) ((Rect.unit (s := S2x16x256) ![1, 13, 32] S1x1x16.size inb_S2x16x256_S1x1x16_1_13_32).emb x)) Finset.univ := by
  unfold run0.sl.Hr1_w301
  exact congrArg (fun w => View.write (Elt F) (sO.access (Rect.unit (s := S2x16x256) ![1, 13, 32] S1x1x16.size inb_S2x16x256_S1x1x16_1_13_32)) (run0.sl.Hr1_w300 d L fx fr) w Finset.univ)
    (funext fun x => (pieceA' _ _ _ _ _ _ _ (by decide) x).symm)

set_option maxHeartbeats 1000000 in
theorem step1_46 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w302 d L fx fr = View.write (Elt F) (sO.access (Rect.unit (s := S2x16x256) ![1, 14, 32] S1x1x16.size inb_S2x16x256_S1x1x16_1_14_32)) (run0.sl.Hr1_w301 d L fx fr)
      (fun x => Gs (sSlot1.view.writes (Elt F) sSlot1.view.junk [⟨Rect.whole S16x256, run0.sl.dma0_1 d L fx⟩]) ((Rect.unit (s := S2x16x256) ![1, 14, 32] S1x1x16.size inb_S2x16x256_S1x1x16_1_14_32).emb x)) Finset.univ := by
  unfold run0.sl.Hr1_w302
  exact congrArg (fun w => View.write (Elt F) (sO.access (Rect.unit (s := S2x16x256) ![1, 14, 32] S1x1x16.size inb_S2x16x256_S1x1x16_1_14_32)) (run0.sl.Hr1_w301 d L fx fr) w Finset.univ)
    (funext fun x => (pieceA' _ _ _ _ _ _ _ (by decide) x).symm)

set_option maxHeartbeats 1000000 in
theorem step1_47 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w303 d L fx fr = View.write (Elt F) (sO.access (Rect.unit (s := S2x16x256) ![1, 15, 32] S1x1x16.size inb_S2x16x256_S1x1x16_1_15_32)) (run0.sl.Hr1_w302 d L fx fr)
      (fun x => Gs (sSlot1.view.writes (Elt F) sSlot1.view.junk [⟨Rect.whole S16x256, run0.sl.dma0_1 d L fx⟩]) ((Rect.unit (s := S2x16x256) ![1, 15, 32] S1x1x16.size inb_S2x16x256_S1x1x16_1_15_32).emb x)) Finset.univ := by
  unfold run0.sl.Hr1_w303
  exact congrArg (fun w => View.write (Elt F) (sO.access (Rect.unit (s := S2x16x256) ![1, 15, 32] S1x1x16.size inb_S2x16x256_S1x1x16_1_15_32)) (run0.sl.Hr1_w302 d L fx fr) w Finset.univ)
    (funext fun x => (pieceA' _ _ _ _ _ _ _ (by decide) x).symm)

set_option maxHeartbeats 1000000 in
theorem step1_48 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w304 d L fx fr = View.write (Elt F) (sO.access (Rect.unit (s := S2x16x256) ![1, 0, 32] S1x1x16.size inb_S2x16x256_S1x1x16_1_0_32)) (run0.sl.Hr1_w303 d L fx fr)
      (fun x => Gs (sSlot1.view.writes (Elt F) sSlot1.view.junk [⟨Rect.whole S16x256, run0.sl.dma0_1 d L fx⟩]) ((Rect.unit (s := S2x16x256) ![1, 0, 32] S1x1x16.size inb_S2x16x256_S1x1x16_1_0_32).emb x)) Finset.univ := by
  unfold run0.sl.Hr1_w304
  unfold run0.sl.r_182 run0.sl.r_192 run0.sl.r_191 run0.sl.r_189 run0.sl.r_190 run0.sl.r_187 run0.sl.r_188 run0.sl.r_186 run0.sl.r_184
  exact congrArg (fun w => View.write (Elt F) (sO.access (Rect.unit (s := S2x16x256) ![1, 0, 32] S1x1x16.size inb_S2x16x256_S1x1x16_1_0_32)) (run0.sl.Hr1_w303 d L fx fr) w Finset.univ)
    (funext fun x => (pieceB' (sSlot1.view.writes (Elt F) sSlot1.view.junk [⟨Rect.whole S16x256, run0.sl.dma0_1 d L fx⟩]) 1 32 inb_S2x16x256_S1x1x16_1_0_32 inb_S2x16x256_S1x1x16_1_1_32 inb_S2x16x256_S1x1x16_1_2_32 inb_S2x16x256_S1x1x16_1_3_32 inb_S2x16x256_S1x1x16_1_4_32 inb_S2x16x256_S1x1x16_1_5_32 inb_S2x16x256_S1x1x16_1_6_32 inb_S2x16x256_S1x1x16_1_7_32 inb_S2x16x256_S1x1x16_1_8_32 inb_S2x16x256_S1x1x16_1_9_32 inb_S2x16x256_S1x1x16_1_10_32 inb_S2x16x256_S1x1x16_1_11_32 inb_S2x16x256_S1x1x16_1_12_32 inb_S2x16x256_S1x1x16_1_13_32 inb_S2x16x256_S1x1x16_1_14_32 inb_S2x16x256_S1x1x16_1_15_32 shapeCasts_S1x1x16_S16 shapeCasts_S16_S1x1x16 x).symm)

set_option maxHeartbeats 1000000 in
theorem step1_49 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w305 d L fx fr = View.write (Elt F) (sO.access (Rect.unit (s := S2x16x256) ![1, 1, 48] S1x1x16.size inb_S2x16x256_S1x1x16_1_1_48)) (run0.sl.Hr1_w304 d L fx fr)
      (fun x => Gs (sSlot1.view.writes (Elt F) sSlot1.view.junk [⟨Rect.whole S16x256, run0.sl.dma0_1 d L fx⟩]) ((Rect.unit (s := S2x16x256) ![1, 1, 48] S1x1x16.size inb_S2x16x256_S1x1x16_1_1_48).emb x)) Finset.univ := by
  unfold run0.sl.Hr1_w305
  exact congrArg (fun w => View.write (Elt F) (sO.access (Rect.unit (s := S2x16x256) ![1, 1, 48] S1x1x16.size inb_S2x16x256_S1x1x16_1_1_48)) (run0.sl.Hr1_w304 d L fx fr) w Finset.univ)
    (funext fun x => (pieceA' _ _ _ _ _ _ _ (by decide) x).symm)

set_option maxHeartbeats 1000000 in
theorem step1_50 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w306 d L fx fr = View.write (Elt F) (sO.access (Rect.unit (s := S2x16x256) ![1, 2, 48] S1x1x16.size inb_S2x16x256_S1x1x16_1_2_48)) (run0.sl.Hr1_w305 d L fx fr)
      (fun x => Gs (sSlot1.view.writes (Elt F) sSlot1.view.junk [⟨Rect.whole S16x256, run0.sl.dma0_1 d L fx⟩]) ((Rect.unit (s := S2x16x256) ![1, 2, 48] S1x1x16.size inb_S2x16x256_S1x1x16_1_2_48).emb x)) Finset.univ := by
  unfold run0.sl.Hr1_w306
  unfold run0.sl.r_194
  exact congrArg (fun w => View.write (Elt F) (sO.access (Rect.unit (s := S2x16x256) ![1, 2, 48] S1x1x16.size inb_S2x16x256_S1x1x16_1_2_48)) (run0.sl.Hr1_w305 d L fx fr) w Finset.univ)
    (funext fun x => (pieceA' _ _ _ _ _ _ _ (by decide) x).symm)

set_option maxHeartbeats 1000000 in
theorem step1_51 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w307 d L fx fr = View.write (Elt F) (sO.access (Rect.unit (s := S2x16x256) ![1, 3, 48] S1x1x16.size inb_S2x16x256_S1x1x16_1_3_48)) (run0.sl.Hr1_w306 d L fx fr)
      (fun x => Gs (sSlot1.view.writes (Elt F) sSlot1.view.junk [⟨Rect.whole S16x256, run0.sl.dma0_1 d L fx⟩]) ((Rect.unit (s := S2x16x256) ![1, 3, 48] S1x1x16.size inb_S2x16x256_S1x1x16_1_3_48).emb x)) Finset.univ := by
  unfold run0.sl.Hr1_w307
  exact congrArg (fun w => View.write (Elt F) (sO.access (Rect.unit (s := S2x16x256) ![1, 3, 48] S1x1x16.size inb_S2x16x256_S1x1x16_1_3_48)) (run0.sl.Hr1_w306 d L fx fr) w Finset.univ)
    (funext fun x => (pieceA' _ _ _ _ _ _ _ (by decide) x).symm)

set_option maxHeartbeats 1000000 in
theorem step1_52 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w308 d L fx fr = View.write (Elt F) (sO.access (Rect.unit (s := S2x16x256) ![1, 4, 48] S1x1x16.size inb_S2x16x256_S1x1x16_1_4_48)) (run0.sl.Hr1_w307 d L fx fr)
      (fun x => Gs (sSlot1.view.writes (Elt F) sSlot1.view.junk [⟨Rect.whole S16x256, run0.sl.dma0_1 d L fx⟩]) ((Rect.unit (s := S2x16x256) ![1, 4, 48] S1x1x16.size inb_S2x16x256_S1x1x16_1_4_48).emb x)) Finset.univ := by
  unfold run0.sl.Hr1_w308
  exact congrArg (fun w => View.write (Elt F) (sO.access (Rect.unit (s := S2x16x256) ![1, 4, 48] S1x1x16.size inb_S2x16x256_S1x1x16_1_4_48)) (run0.sl.Hr1_w307 d L fx fr) w Finset.univ)
    (funext fun x => (pieceA' _ _ _ _ _ _ _ (by decide) x).symm)

set_option maxHeartbeats 1000000 in
theorem step1_53 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w309 d L fx fr = View.write (Elt F) (sO.access (Rect.unit (s := S2x16x256) ![1, 5, 48] S1x1x16.size inb_S2x16x256_S1x1x16_1_5_48)) (run0.sl.Hr1_w308 d L fx fr)
      (fun x => Gs (sSlot1.view.writes (Elt F) sSlot1.view.junk [⟨Rect.whole S16x256, run0.sl.dma0_1 d L fx⟩]) ((Rect.unit (s := S2x16x256) ![1, 5, 48] S1x1x16.size inb_S2x16x256_S1x1x16_1_5_48).emb x)) Finset.univ := by
  unfold run0.sl.Hr1_w309
  unfold run0.sl.r_197
  exact congrArg (fun w => View.write (Elt F) (sO.access (Rect.unit (s := S2x16x256) ![1, 5, 48] S1x1x16.size inb_S2x16x256_S1x1x16_1_5_48)) (run0.sl.Hr1_w308 d L fx fr) w Finset.univ)
    (funext fun x => (pieceA' _ _ _ _ _ _ _ (by decide) x).symm)

set_option maxHeartbeats 1000000 in
theorem step1_54 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w310 d L fx fr = View.write (Elt F) (sO.access (Rect.unit (s := S2x16x256) ![1, 6, 48] S1x1x16.size inb_S2x16x256_S1x1x16_1_6_48)) (run0.sl.Hr1_w309 d L fx fr)
      (fun x => Gs (sSlot1.view.writes (Elt F) sSlot1.view.junk [⟨Rect.whole S16x256, run0.sl.dma0_1 d L fx⟩]) ((Rect.unit (s := S2x16x256) ![1, 6, 48] S1x1x16.size inb_S2x16x256_S1x1x16_1_6_48).emb x)) Finset.univ := by
  unfold run0.sl.Hr1_w310
  exact congrArg (fun w => View.write (Elt F) (sO.access (Rect.unit (s := S2x16x256) ![1, 6, 48] S1x1x16.size inb_S2x16x256_S1x1x16_1_6_48)) (run0.sl.Hr1_w309 d L fx fr) w Finset.univ)
    (funext fun x => (pieceA' _ _ _ _ _ _ _ (by decide) x).symm)

set_option maxHeartbeats 1000000 in
theorem step1_55 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w311 d L fx fr = View.write (Elt F) (sO.access (Rect.unit (s := S2x16x256) ![1, 7, 48] S1x1x16.size inb_S2x16x256_S1x1x16_1_7_48)) (run0.sl.Hr1_w310 d L fx fr)
      (fun x => Gs (sSlot1.view.writes (Elt F) sSlot1.view.junk [⟨Rect.whole S16x256, run0.sl.dma0_1 d L fx⟩]) ((Rect.unit (s := S2x16x256) ![1, 7, 48] S1x1x16.size inb_S2x16x256_S1x1x16_1_7_48).emb x)) Finset.univ := by
  unfold run0.sl.Hr1_w311
  exact congrArg (fun w => View.write (Elt F) (sO.access (Rect.unit (s := S2x16x256) ![1, 7, 48] S1x1x16.size inb_S2x16x256_S1x1x16_1_7_48)) (run0.sl.Hr1_w310 d L fx fr) w Finset.univ)
    (funext fun x => (pieceA' _ _ _ _ _ _ _ (by decide) x).symm)

set_option maxHeartbeats 1000000 in
theorem step1_56 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w312 d L fx fr = View.write (Elt F) (sO.access (Rect.unit (s := S2x16x256) ![1, 8, 48] S1x1x16.size inb_S2x16x256_S1x1x16_1_8_48)) (run0.sl.Hr1_w311 d L fx fr)
      (fun x => Gs (sSlot1.view.writes (Elt F) sSlot1.view.junk [⟨Rect.whole S16x256, run0.sl.dma0_1 d L fx⟩]) ((Rect.unit (s := S2x16x256) ![1, 8, 48] S1x1x16.size inb_S2x16x256_S1x1x16_1_8_48).emb x)) Finset.univ := by
  unfold run0.sl.Hr1_w312
  unfold run0.sl.r_199
  exact congrArg (fun w => View.write (Elt F) (sO.access (Rect.unit (s := S2x16x256) ![1, 8, 48] S1x1x16.size inb_S2x16x256_S1x1x16_1_8_48)) (run0.sl.Hr1_w311 d L fx fr) w Finset.univ)
    (funext fun x => (pieceA' _ _ _ _ _ _ _ (by decide) x).symm)

set_option maxHeartbeats 1000000 in
theorem step1_57 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w313 d L fx fr = View.write (Elt F) (sO.access (Rect.unit (s := S2x16x256) ![1, 9, 48] S1x1x16.size inb_S2x16x256_S1x1x16_1_9_48)) (run0.sl.Hr1_w312 d L fx fr)
      (fun x => Gs (sSlot1.view.writes (Elt F) sSlot1.view.junk [⟨Rect.whole S16x256, run0.sl.dma0_1 d L fx⟩]) ((Rect.unit (s := S2x16x256) ![1, 9, 48] S1x1x16.size inb_S2x16x256_S1x1x16_1_9_48).emb x)) Finset.univ := by
  unfold run0.sl.Hr1_w313
  exact congrArg (fun w => View.write (Elt F) (sO.access (Rect.unit (s := S2x16x256) ![1, 9, 48] S1x1x16.size inb_S2x16x256_S1x1x16_1_9_48)) (run0.sl.Hr1_w312 d L fx fr) w Finset.univ)
    (funext fun x => (pieceA' _ _ _ _ _ _ _ (by decide) x).symm)

set_option maxHeartbeats 1000000 in
theorem step1_58 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w314 d L fx fr = View.write (Elt F) (sO.access (Rect.unit (s := S2x16x256) ![1, 10, 48] S1x1x16.size inb_S2x16x256_S1x1x16_1_10_48)) (run0.sl.Hr1_w313 d L fx fr)
      (fun x => Gs (sSlot1.view.writes (Elt F) sSlot1.view.junk [⟨Rect.whole S16x256, run0.sl.dma0_1 d L fx⟩]) ((Rect.unit (s := S2x16x256) ![1, 10, 48] S1x1x16.size inb_S2x16x256_S1x1x16_1_10_48).emb x)) Finset.univ := by
  unfold run0.sl.Hr1_w314
  exact congrArg (fun w => View.write (Elt F) (sO.access (Rect.unit (s := S2x16x256) ![1, 10, 48] S1x1x16.size inb_S2x16x256_S1x1x16_1_10_48)) (run0.sl.Hr1_w313 d L fx fr) w Finset.univ)
    (funext fun x => (pieceA' _ _ _ _ _ _ _ (by decide) x).symm)

set_option maxHeartbeats 1000000 in
theorem step1_59 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w315 d L fx fr = View.write (Elt F) (sO.access (Rect.unit (s := S2x16x256) ![1, 11, 48] S1x1x16.size inb_S2x16x256_S1x1x16_1_11_48)) (run0.sl.Hr1_w314 d L fx fr)
      (fun x => Gs (sSlot1.view.writes (Elt F) sSlot1.view.junk [⟨Rect.whole S16x256, run0.sl.dma0_1 d L fx⟩]) ((Rect.unit (s := S2x16x256) ![1, 11, 48] S1x1x16.size inb_S2x16x256_S1x1x16_1_11_48).emb x)) Finset.univ := by
  unfold run0.sl.Hr1_w315
  unfold run0.sl.r_202
  exact congrArg (fun w => View.write (Elt F) (sO.access (Rect.unit (s := S2x16x256) ![1, 11, 48] S1x1x16.size inb_S2x16x256_S1x1x16_1_11_48)) (run0.sl.Hr1_w314 d L fx fr) w Finset.univ)
    (funext fun x => (pieceA' _ _ _ _ _ _ _ (by decide) x).symm)

set_option maxHeartbeats 1000000 in
theorem step1_60 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w316 d L fx fr = View.write (Elt F) (sO.access (Rect.unit (s := S2x16x256) ![1, 12, 48] S1x1x16.size inb_S2x16x256_S1x1x16_1_12_48)) (run0.sl.Hr1_w315 d L fx fr)
      (fun x => Gs (sSlot1.view.writes (Elt F) sSlot1.view.junk [⟨Rect.whole S16x256, run0.sl.dma0_1 d L fx⟩]) ((Rect.unit (s := S2x16x256) ![1, 12, 48] S1x1x16.size inb_S2x16x256_S1x1x16_1_12_48).emb x)) Finset.univ := by
  unfold run0.sl.Hr1_w316
  exact congrArg (fun w => View.write (Elt F) (sO.access (Rect.unit (s := S2x16x256) ![1, 12, 48] S1x1x16.size inb_S2x16x256_S1x1x16_1_12_48)) (run0.sl.Hr1_w315 d L fx fr) w Finset.univ)
    (funext fun x => (pieceA' _ _ _ _ _ _ _ (by decide) x).symm)

set_option maxHeartbeats 1000000 in
theorem step1_61 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w317 d L fx fr = View.write (Elt F) (sO.access (Rect.unit (s := S2x16x256) ![1, 13, 48] S1x1x16.size inb_S2x16x256_S1x1x16_1_13_48)) (run0.sl.Hr1_w316 d L fx fr)
      (fun x => Gs (sSlot1.view.writes (Elt F) sSlot1.view.junk [⟨Rect.whole S16x256, run0.sl.dma0_1 d L fx⟩]) ((Rect.unit (s := S2x16x256) ![1, 13, 48] S1x1x16.size inb_S2x16x256_S1x1x16_1_13_48).emb x)) Finset.univ := by
  unfold run0.sl.Hr1_w317
  exact congrArg (fun w => View.write (Elt F) (sO.access (Rect.unit (s := S2x16x256) ![1, 13, 48] S1x1x16.size inb_S2x16x256_S1x1x16_1_13_48)) (run0.sl.Hr1_w316 d L fx fr) w Finset.univ)
    (funext fun x => (pieceA' _ _ _ _ _ _ _ (by decide) x).symm)

set_option maxHeartbeats 1000000 in
theorem step1_62 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w318 d L fx fr = View.write (Elt F) (sO.access (Rect.unit (s := S2x16x256) ![1, 14, 48] S1x1x16.size inb_S2x16x256_S1x1x16_1_14_48)) (run0.sl.Hr1_w317 d L fx fr)
      (fun x => Gs (sSlot1.view.writes (Elt F) sSlot1.view.junk [⟨Rect.whole S16x256, run0.sl.dma0_1 d L fx⟩]) ((Rect.unit (s := S2x16x256) ![1, 14, 48] S1x1x16.size inb_S2x16x256_S1x1x16_1_14_48).emb x)) Finset.univ := by
  unfold run0.sl.Hr1_w318
  unfold run0.sl.r_204
  exact congrArg (fun w => View.write (Elt F) (sO.access (Rect.unit (s := S2x16x256) ![1, 14, 48] S1x1x16.size inb_S2x16x256_S1x1x16_1_14_48)) (run0.sl.Hr1_w317 d L fx fr) w Finset.univ)
    (funext fun x => (pieceA' _ _ _ _ _ _ _ (by decide) x).symm)

set_option maxHeartbeats 1000000 in
theorem step1_63 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w319 d L fx fr = View.write (Elt F) (sO.access (Rect.unit (s := S2x16x256) ![1, 15, 48] S1x1x16.size inb_S2x16x256_S1x1x16_1_15_48)) (run0.sl.Hr1_w318 d L fx fr)
      (fun x => Gs (sSlot1.view.writes (Elt F) sSlot1.view.junk [⟨Rect.whole S16x256, run0.sl.dma0_1 d L fx⟩]) ((Rect.unit (s := S2x16x256) ![1, 15, 48] S1x1x16.size inb_S2x16x256_S1x1x16_1_15_48).emb x)) Finset.univ := by
  unfold run0.sl.Hr1_w319
  exact congrArg (fun w => View.write (Elt F) (sO.access (Rect.unit (s := S2x16x256) ![1, 15, 48] S1x1x16.size inb_S2x16x256_S1x1x16_1_15_48)) (run0.sl.Hr1_w318 d L fx fr) w Finset.univ)
    (funext fun x => (pieceA' _ _ _ _ _ _ _ (by decide) x).symm)

set_option maxHeartbeats 1000000 in
theorem step1_64 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w320 d L fx fr = View.write (Elt F) (sO.access (Rect.unit (s := S2x16x256) ![1, 0, 48] S1x1x16.size inb_S2x16x256_S1x1x16_1_0_48)) (run0.sl.Hr1_w319 d L fx fr)
      (fun x => Gs (sSlot1.view.writes (Elt F) sSlot1.view.junk [⟨Rect.whole S16x256, run0.sl.dma0_1 d L fx⟩]) ((Rect.unit (s := S2x16x256) ![1, 0, 48] S1x1x16.size inb_S2x16x256_S1x1x16_1_0_48).emb x)) Finset.univ := by
  unfold run0.sl.Hr1_w320
  unfold run0.sl.r_193 run0.sl.r_203 run0.sl.r_204 run0.sl.r_201 run0.sl.r_202 run0.sl.r_200 run0.sl.r_198 run0.sl.r_195
  exact congrArg (fun w => View.write (Elt F) (sO.access (Rect.unit (s := S2x16x256) ![1, 0, 48] S1x1x16.size inb_S2x16x256_S1x1x16_1_0_48)) (run0.sl.Hr1_w319 d L fx fr) w Finset.univ)
    (funext fun x => (pieceB' (sSlot1.view.writes (Elt F) sSlot1.view.junk [⟨Rect.whole S16x256, run0.sl.dma0_1 d L fx⟩]) 1 48 inb_S2x16x256_S1x1x16_1_0_48 inb_S2x16x256_S1x1x16_1_1_48 inb_S2x16x256_S1x1x16_1_2_48 inb_S2x16x256_S1x1x16_1_3_48 inb_S2x16x256_S1x1x16_1_4_48 inb_S2x16x256_S1x1x16_1_5_48 inb_S2x16x256_S1x1x16_1_6_48 inb_S2x16x256_S1x1x16_1_7_48 inb_S2x16x256_S1x1x16_1_8_48 inb_S2x16x256_S1x1x16_1_9_48 inb_S2x16x256_S1x1x16_1_10_48 inb_S2x16x256_S1x1x16_1_11_48 inb_S2x16x256_S1x1x16_1_12_48 inb_S2x16x256_S1x1x16_1_13_48 inb_S2x16x256_S1x1x16_1_14_48 inb_S2x16x256_S1x1x16_1_15_48 shapeCasts_S1x1x16_S16 shapeCasts_S16_S1x1x16 x).symm)

set_option maxHeartbeats 1000000 in
theorem step1_65 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w321 d L fx fr = View.write (Elt F) (sO.access (Rect.unit (s := S2x16x256) ![1, 1, 64] S1x1x16.size inb_S2x16x256_S1x1x16_1_1_64)) (run0.sl.Hr1_w320 d L fx fr)
      (fun x => Gs (sSlot1.view.writes (Elt F) sSlot1.view.junk [⟨Rect.whole S16x256, run0.sl.dma0_1 d L fx⟩]) ((Rect.unit (s := S2x16x256) ![1, 1, 64] S1x1x16.size inb_S2x16x256_S1x1x16_1_1_64).emb x)) Finset.univ := by
  unfold run0.sl.Hr1_w321
  exact congrArg (fun w => View.write (Elt F) (sO.access (Rect.unit (s := S2x16x256) ![1, 1, 64] S1x1x16.size inb_S2x16x256_S1x1x16_1_1_64)) (run0.sl.Hr1_w320 d L fx fr) w Finset.univ)
    (funext fun x => (pieceA' _ _ _ _ _ _ _ (by decide) x).symm)

set_option maxHeartbeats 1000000 in
theorem step1_66 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w322 d L fx fr = View.write (Elt F) (sO.access (Rect.unit (s := S2x16x256) ![1, 2, 64] S1x1x16.size inb_S2x16x256_S1x1x16_1_2_64)) (run0.sl.Hr1_w321 d L fx fr)
      (fun x => Gs (sSlot1.view.writes (Elt F) sSlot1.view.junk [⟨Rect.whole S16x256, run0.sl.dma0_1 d L fx⟩]) ((Rect.unit (s := S2x16x256) ![1, 2, 64] S1x1x16.size inb_S2x16x256_S1x1x16_1_2_64).emb x)) Finset.univ := by
  unfold run0.sl.Hr1_w322
  exact congrArg (fun w => View.write (Elt F) (sO.access (Rect.unit (s := S2x16x256) ![1, 2, 64] S1x1x16.size inb_S2x16x256_S1x1x16_1_2_64)) (run0.sl.Hr1_w321 d L fx fr) w Finset.univ)
    (funext fun x => (pieceA' _ _ _ _ _ _ _ (by decide) x).symm)

set_option maxHeartbeats 1000000 in
theorem step1_67 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w323 d L fx fr = View.write (Elt F) (sO.access (Rect.unit (s := S2x16x256) ![1, 3, 64] S1x1x16.size inb_S2x16x256_S1x1x16_1_3_64)) (run0.sl.Hr1_w322 d L fx fr)
      (fun x => Gs (sSlot1.view.writes (Elt F) sSlot1.view.junk [⟨Rect.whole S16x256, run0.sl.dma0_1 d L fx⟩]) ((Rect.unit (s := S2x16x256) ![1, 3, 64] S1x1x16.size inb_S2x16x256_S1x1x16_1_3_64).emb x)) Finset.univ := by
  unfold run0.sl.Hr1_w323
  unfold run0.sl.r_207
  exact congrArg (fun w => View.write (Elt F) (sO.access (Rect.unit (s := S2x16x256) ![1, 3, 64] S1x1x16.size inb_S2x16x256_S1x1x16_1_3_64)) (run0.sl.Hr1_w322 d L fx fr) w Finset.univ)
    (funext fun x => (pieceA' _ _ _ _ _ _ _ (by decide) x).symm)

set_option maxHeartbeats 1000000 in
theorem step1_68 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w324 d L fx fr = View.write (Elt F) (sO.access (Rect.unit (s := S2x16x256) ![1, 4, 64] S1x1x16.size inb_S2x16x256_S1x1x16_1_4_64)) (run0.sl.Hr1_w323 d L fx fr)
      (fun x => Gs (sSlot1.view.writes (Elt F) sSlot1.view.junk [⟨Rect.whole S16x256, run0.sl.dma0_1 d L fx⟩]) ((Rect.unit (s := S2x16x256) ![1, 4, 64] S1x1x16.size inb_S2x16x256_S1x1x16_1_4_64).emb x)) Finset.univ := by
  unfold run0.sl.Hr1_w324
  exact congrArg (fun w => View.write (Elt F) (sO.access (Rect.unit (s := S2x16x256) ![1, 4, 64] S1x1x16.size inb_S2x16x256_S1x1x16_1_4_64)) (run0.sl.Hr1_w323 d L fx fr) w Finset.univ)
    (funext fun x => (pieceA' _ _ _ _ _ _ _ (by decide) x).symm)

set_option maxHeartbeats 1000000 in
theorem step1_69 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w325 d L fx fr = View.write (Elt F) (sO.access (Rect.unit (s := S2x16x256) ![1, 5, 64] S1x1x16.size inb_S2x16x256_S1x1x16_1_5_64)) (run0.sl.Hr1_w324 d L fx fr)
      (fun x => Gs (sSlot1.view.writes (Elt F) sSlot1.view.junk [⟨Rect.whole S16x256, run0.sl.dma0_1 d L fx⟩]) ((Rect.unit (s := S2x16x256) ![1, 5, 64] S1x1x16.size inb_S2x16x256_S1x1x16_1_5_64).emb x)) Finset.univ := by
  unfold run0.sl.Hr1_w325
  exact congrArg (fun w => View.write (Elt F) (sO.access (Rect.unit (s := S2x16x256) ![1, 5, 64] S1x1x16.size inb_S2x16x256_S1x1x16_1_5_64)) (run0.sl.Hr1_w324 d L fx fr) w Finset.univ)
    (funext fun x => (pieceA' _ _ _ _ _ _ _ (by decide) x).symm)

set_option maxHeartbeats 1000000 in
theorem step1_70 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w326 d L fx fr = View.write (Elt F) (sO.access (Rect.unit (s := S2x16x256) ![1, 6, 64] S1x1x16.size inb_S2x16x256_S1x1x16_1_6_64)) (run0.sl.Hr1_w325 d L fx fr)
      (fun x => Gs (sSlot1.view.writes (Elt F) sSlot1.view.junk [⟨Rect.whole S16x256, run0.sl.dma0_1 d L fx⟩]) ((Rect.unit (s := S2x16x256) ![1, 6, 64] S1x1x16.size inb_S2x16x256_S1x1x16_1_6_64).emb x)) Finset.univ := by
  unfold run0.sl.Hr1_w326
  unfold run0.sl.r_208
  exact congrArg (fun w => View.write (Elt F) (sO.access (Rect.unit (s := S2x16x256) ![1, 6, 64] S1x1x16.size inb_S2x16x256_S1x1x16_1_6_64)) (run0.sl.Hr1_w325 d L fx fr) w Finset.univ)
    (funext fun x => (pieceA' _ _ _ _ _ _ _ (by decide) x).symm)

set_option maxHeartbeats 1000000 in
theorem step1_71 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w327 d L fx fr = View.write (Elt F) (sO.access (Rect.unit (s := S2x16x256) ![1, 7, 64] S1x1x16.size inb_S2x16x256_S1x1x16_1_7_64)) (run0.sl.Hr1_w326 d L fx fr)
      (fun x => Gs (sSlot1.view.writes (Elt F) sSlot1.view.junk [⟨Rect.whole S16x256, run0.sl.dma0_1 d L fx⟩]) ((Rect.unit (s := S2x16x256) ![1, 7, 64] S1x1x16.size inb_S2x16x256_S1x1x16_1_7_64).emb x)) Finset.univ := by
  unfold run0.sl.Hr1_w327
  exact congrArg (fun w => View.write (Elt F) (sO.access (Rect.unit (s := S2x16x256) ![1, 7, 64] S1x1x16.size inb_S2x16x256_S1x1x16_1_7_64)) (run0.sl.Hr1_w326 d L fx fr) w Finset.univ)
    (funext fun x => (pieceA' _ _ _ _ _ _ _ (by decide) x).symm)

set_option maxHeartbeats 1000000 in
theorem step1_72 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w328 d L fx fr = View.write (Elt F) (sO.access (Rect.unit (s := S2x16x256) ![1, 8, 64] S1x1x16.size inb_S2x16x256_S1x1x16_1_8_64)) (run0.sl.Hr1_w327 d L fx fr)
      (fun x => Gs (sSlot1.view.writes (Elt F) sSlot1.view.junk [⟨Rect.whole S16x256, run0.sl.dma0_1 d L fx⟩]) ((Rect.unit (s := S2x16x256) ![1, 8, 64] S1x1x16.size inb_S2x16x256_S1x1x16_1_8_64).emb x)) Finset.univ := by
  unfold run0.sl.Hr1_w328
  exact congrArg (fun w => View.write (Elt F) (sO.access (Rect.unit (s := S2x16x256) ![1, 8, 64] S1x1x16.size inb_S2x16x256_S1x1x16_1_8_64)) (run0.sl.Hr1_w327 d L fx fr) w Finset.univ)
    (funext fun x => (pieceA' _ _ _ _ _ _ _ (by decide) x).symm)

set_option maxHeartbeats 1000000 in
theorem step1_73 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w329 d L fx fr = View.write (Elt F) (sO.access (Rect.unit (s := S2x16x256) ![1, 9, 64] S1x1x16.size inb_S2x16x256_S1x1x16_1_9_64)) (run0.sl.Hr1_w328 d L fx fr)
      (fun x => Gs (sSlot1.view.writes (Elt F) sSlot1.view.junk [⟨Rect.whole S16x256, run0.sl.dma0_1 d L fx⟩]) ((Rect.unit (s := S2x16x256) ![1, 9, 64] S1x1x16.size inb_S2x16x256_S1x1x16_1_9_64).emb x)) Finset.univ := by
  unfold run0.sl.Hr1_w329
  unfold run0.sl.r_210
  exact congrArg (fun w => View.write (Elt F) (sO.access (Rect.unit (s := S2x16x256) ![1, 9, 64] S1x1x16.size inb_S2x16x256_S1x1x16_1_9_64)) (run0.sl.Hr1_w328 d L fx fr) w Finset.univ)
    (funext fun x => (pieceA' _ _ _ _ _ _ _ (by decide) x).symm)

set_option maxHeartbeats 1000000 in
theorem step1_74 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w330 d L fx fr = View.write (Elt F) (sO.access (Rect.unit (s := S2x16x256) ![1, 10, 64] S1x1x16.size inb_S2x16x256_S1x1x16_1_10_64)) (run0.sl.Hr1_w329 d L fx fr)
      (fun x => Gs (sSlot1.view.writes (Elt F) sSlot1.view.junk [⟨Rect.whole S16x256, run0.sl.dma0_1 d L fx⟩]) ((Rect.unit (s := S2x16x256) ![1, 10, 64] S1x1x16.size inb_S2x16x256_S1x1x16_1_10_64).emb x)) Finset.univ := by
  unfold run0.sl.Hr1_w330
  exact congrArg (fun w => View.write (Elt F) (sO.access (Rect.unit (s := S2x16x256) ![1, 10, 64] S1x1x16.size inb_S2x16x256_S1x1x16_1_10_64)) (run0.sl.Hr1_w329 d L fx fr) w Finset.univ)
    (funext fun x => (pieceA' _ _ _ _ _ _ _ (by decide) x).symm)

set_option maxHeartbeats 1000000 in
theorem step1_75 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w331 d L fx fr = View.write (Elt F) (sO.access (Rect.unit (s := S2x16x256) ![1, 11, 64] S1x1x16.size inb_S2x16x256_S1x1x16_1_11_64)) (run0.sl.Hr1_w330 d L fx fr)
      (fun x => Gs (sSlot1.view.writes (Elt F) sSlot1.view.junk [⟨Rect.whole S16x256, run0.sl.dma0_1 d L fx⟩]) ((Rect.unit (s := S2x16x256) ![1, 11, 64] S1x1x16.size inb_S2x16x256_S1x1x16_1_11_64).emb x)) Finset.univ := by
  unfold run0.sl.Hr1_w331
  exact congrArg (fun w => View.write (Elt F) (sO.access (Rect.unit (s := S2x16x256) ![1, 11, 64] S1x1x16.size inb_S2x16x256_S1x1x16_1_11_64)) (run0.sl.Hr1_w330 d L fx fr) w Finset.univ)
    (funext fun x => (pieceA' _ _ _ _ _ _ _ (by decide) x).symm)

set_option maxHeartbeats 1000000 in
theorem step1_76 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w332 d L fx fr = View.write (Elt F) (sO.access (Rect.unit (s := S2x16x256) ![1, 12, 64] S1x1x16.size inb_S2x16x256_S1x1x16_1_12_64)) (run0.sl.Hr1_w331 d L fx fr)
      (fun x => Gs (sSlot1.view.writes (Elt F) sSlot1.view.junk [⟨Rect.whole S16x256, run0.sl.dma0_1 d L fx⟩]) ((Rect.unit (s := S2x16x256) ![1, 12, 64] S1x1x16.size inb_S2x16x256_S1x1x16_1_12_64).emb x)) Finset.univ := by
  unfold run0.sl.Hr1_w332
  unfold run0.sl.r_213
  exact congrArg (fun w => View.write (Elt F) (sO.access (Rect.unit (s := S2x16x256) ![1, 12, 64] S1x1x16.size inb_S2x16x256_S1x1x16_1_12_64)) (run0.sl.Hr1_w331 d L fx fr) w Finset.univ)
    (funext fun x => (pieceA' _ _ _ _ _ _ _ (by decide) x).symm)

set_option maxHeartbeats 1000000 in
theorem step1_77 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w333 d L fx fr = View.write (Elt F) (sO.access (Rect.unit (s := S2x16x256) ![1, 13, 64] S1x1x16.size inb_S2x16x256_S1x1x16_1_13_64)) (run0.sl.Hr1_w332 d L fx fr)
      (fun x => Gs (sSlot1.view.writes (Elt F) sSlot1.view.junk [⟨Rect.whole S16x256, run0.sl.dma0_1 d L fx⟩]) ((Rect.unit (s := S2x16x256) ![1, 13, 64] S1x1x16.size inb_S2x16x256_S1x1x16_1_13_64).emb x)) Finset.univ := by
  unfold run0.sl.Hr1_w333
  exact congrArg (fun w => View.write (Elt F) (sO.access (Rect.unit (s := S2x16x256) ![1, 13, 64] S1x1x16.size inb_S2x16x256_S1x1x16_1_13_64)) (run0.sl.Hr1_w332 d L fx fr) w Finset.univ)
    (funext fun x => (pieceA' _ _ _ _ _ _ _ (by decide) x).symm)

set_option maxHeartbeats 1000000 in
theorem step1_78 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w334 d L fx fr = View.write (Elt F) (sO.access (Rect.unit (s := S2x16x256) ![1, 14, 64] S1x1x16.size inb_S2x16x256_S1x1x16_1_14_64)) (run0.sl.Hr1_w333 d L fx fr)
      (fun x => Gs (sSlot1.view.writes (Elt F) sSlot1.view.junk [⟨Rect.whole S16x256, run0.sl.dma0_1 d L fx⟩]) ((Rect.unit (s := S2x16x256) ![1, 14, 64] S1x1x16.size inb_S2x16x256_S1x1x16_1_14_64).emb x)) Finset.univ := by
  unfold run0.sl.Hr1_w334
  exact congrArg (fun w => View.write (Elt F) (sO.access (Rect.unit (s := S2x16x256) ![1, 14, 64] S1x1x16.size inb_S2x16x256_S1x1x16_1_14_64)) (run0.sl.Hr1_w333 d L fx fr) w Finset.univ)
    (funext fun x => (pieceA' _ _ _ _ _ _ _ (by decide) x).symm)

set_option maxHeartbeats 1000000 in
theorem step1_79 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w335 d L fx fr = View.write (Elt F) (sO.access (Rect.unit (s := S2x16x256) ![1, 15, 64] S1x1x16.size inb_S2x16x256_S1x1x16_1_15_64)) (run0.sl.Hr1_w334 d L fx fr)
      (fun x => Gs (sSlot1.view.writes (Elt F) sSlot1.view.junk [⟨Rect.whole S16x256, run0.sl.dma0_1 d L fx⟩]) ((Rect.unit (s := S2x16x256) ![1, 15, 64] S1x1x16.size inb_S2x16x256_S1x1x16_1_15_64).emb x)) Finset.univ := by
  unfold run0.sl.Hr1_w335
  unfold run0.sl.r_215 run0.sl.cst_306
  exact congrArg (fun w => View.write (Elt F) (sO.access (Rect.unit (s := S2x16x256) ![1, 15, 64] S1x1x16.size inb_S2x16x256_S1x1x16_1_15_64)) (run0.sl.Hr1_w334 d L fx fr) w Finset.univ)
    (funext fun x => (pieceA' _ _ _ _ _ _ _ (by decide) x).symm)

set_option maxHeartbeats 1000000 in
theorem step1_80 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w336 d L fx fr = View.write (Elt F) (sO.access (Rect.unit (s := S2x16x256) ![1, 0, 64] S1x1x16.size inb_S2x16x256_S1x1x16_1_0_64)) (run0.sl.Hr1_w335 d L fx fr)
      (fun x => Gs (sSlot1.view.writes (Elt F) sSlot1.view.junk [⟨Rect.whole S16x256, run0.sl.dma0_1 d L fx⟩]) ((Rect.unit (s := S2x16x256) ![1, 0, 64] S1x1x16.size inb_S2x16x256_S1x1x16_1_0_64).emb x)) Finset.univ := by
  unfold run0.sl.Hr1_w336
  unfold run0.sl.r_205 run0.sl.r_214 run0.sl.r_215 run0.sl.r_212 run0.sl.r_213 run0.sl.r_211 run0.sl.r_209 run0.sl.r_206 run0.sl.cst_306
  exact congrArg (fun w => View.write (Elt F) (sO.access (Rect.unit (s := S2x16x256) ![1, 0, 64] S1x1x16.size inb_S2x16x256_S1x1x16_1_0_64)) (run0.sl.Hr1_w335 d L fx fr) w Finset.univ)
    (funext fun x => (pieceB' (sSlot1.view.writes (Elt F) sSlot1.view.junk [⟨Rect.whole S16x256, run0.sl.dma0_1 d L fx⟩]) 1 64 inb_S2x16x256_S1x1x16_1_0_64 inb_S2x16x256_S1x1x16_1_1_64 inb_S2x16x256_S1x1x16_1_2_64 inb_S2x16x256_S1x1x16_1_3_64 inb_S2x16x256_S1x1x16_1_4_64 inb_S2x16x256_S1x1x16_1_5_64 inb_S2x16x256_S1x1x16_1_6_64 inb_S2x16x256_S1x1x16_1_7_64 inb_S2x16x256_S1x1x16_1_8_64 inb_S2x16x256_S1x1x16_1_9_64 inb_S2x16x256_S1x1x16_1_10_64 inb_S2x16x256_S1x1x16_1_11_64 inb_S2x16x256_S1x1x16_1_12_64 inb_S2x16x256_S1x1x16_1_13_64 inb_S2x16x256_S1x1x16_1_14_64 inb_S2x16x256_S1x1x16_1_15_64 shapeCasts_S1x1x16_S16 shapeCasts_S16_S1x1x16 x).symm)

set_option maxHeartbeats 1000000 in
theorem step1_81 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w337 d L fx fr = View.write (Elt F) (sO.access (Rect.unit (s := S2x16x256) ![1, 1, 80] S1x1x16.size inb_S2x16x256_S1x1x16_1_1_80)) (run0.sl.Hr1_w336 d L fx fr)
      (fun x => Gs (sSlot1.view.writes (Elt F) sSlot1.view.junk [⟨Rect.whole S16x256, run0.sl.dma0_1 d L fx⟩]) ((Rect.unit (s := S2x16x256) ![1, 1, 80] S1x1x16.size inb_S2x16x256_S1x1x16_1_1_80).emb x)) Finset.univ := by
  unfold run0.sl.Hr1_w337
  exact congrArg (fun w => View.write (Elt F) (sO.access (Rect.unit (s := S2x16x256) ![1, 1, 80] S1x1x16.size inb_S2x16x256_S1x1x16_1_1_80)) (run0.sl.Hr1_w336 d L fx fr) w Finset.univ)
    (funext fun x => (pieceA' _ _ _ _ _ _ _ (by decide) x).symm)

set_option maxHeartbeats 1000000 in
theorem step1_82 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w338 d L fx fr = View.write (Elt F) (sO.access (Rect.unit (s := S2x16x256) ![1, 2, 80] S1x1x16.size inb_S2x16x256_S1x1x16_1_2_80)) (run0.sl.Hr1_w337 d L fx fr)
      (fun x => Gs (sSlot1.view.writes (Elt F) sSlot1.view.junk [⟨Rect.whole S16x256, run0.sl.dma0_1 d L fx⟩]) ((Rect.unit (s := S2x16x256) ![1, 2, 80] S1x1x16.size inb_S2x16x256_S1x1x16_1_2_80).emb x)) Finset.univ := by
  unfold run0.sl.Hr1_w338
  exact congrArg (fun w => View.write (Elt F) (sO.access (Rect.unit (s := S2x16x256) ![1, 2, 80] S1x1x16.size inb_S2x16x256_S1x1x16_1_2_80)) (run0.sl.Hr1_w337 d L fx fr) w Finset.univ)
    (funext fun x => (pieceA' _ _ _ _ _ _ _ (by decide) x).symm)

set_option maxHeartbeats 1000000 in
theorem step1_83 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w339 d L fx fr = View.write (Elt F) (sO.access (Rect.unit (s := S2x16x256) ![1, 3, 80] S1x1x16.size inb_S2x16x256_S1x1x16_1_3_80)) (run0.sl.Hr1_w338 d L fx fr)
      (fun x => Gs (sSlot1.view.writes (Elt F) sSlot1.view.junk [⟨Rect.whole S16x256, run0.sl.dma0_1 d L fx⟩]) ((Rect.unit (s := S2x16x256) ![1, 3, 80] S1x1x16.size inb_S2x16x256_S1x1x16_1_3_80).emb x)) Finset.univ := by
  unfold run0.sl.Hr1_w339
  exact congrArg (fun w => View.write (Elt F) (sO.access (Rect.unit (s := S2x16x256) ![1, 3, 80] S1x1x16.size inb_S2x16x256_S1x1x16_1_3_80)) (run0.sl.Hr1_w338 d L fx fr) w Finset.univ)
    (funext fun x => (pieceA' _ _ _ _ _ _ _ (by decide) x).symm)

set_option maxHeartbeats 1000000 in
theorem step1_84 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w340 d L fx fr = View.write (Elt F) (sO.access (Rect.unit (s := S2x16x256) ![1, 4, 80] S1x1x16.size inb_S2x16x256_S1x1x16_1_4_80)) (run0.sl.Hr1_w339 d L fx fr)
      (fun x => Gs (sSlot1.view.writes (Elt F) sSlot1.view.junk [⟨Rect.whole S16x256, run0.sl.dma0_1 d L fx⟩]) ((Rect.unit (s := S2x16x256) ![1, 4, 80] S1x1x16.size inb_S2x16x256_S1x1x16_1_4_80).emb x)) Finset.univ := by
  unfold run0.sl.Hr1_w340
  exact congrArg (fun w => View.write (Elt F) (sO.access (Rect.unit (s := S2x16x256) ![1, 4, 80] S1x1x16.size inb_S2x16x256_S1x1x16_1_4_80)) (run0.sl.Hr1_w339 d L fx fr) w Finset.univ)
    (funext fun x => (pieceA' _ _ _ _ _ _ _ (by decide) x).symm)

set_option maxHeartbeats 1000000 in
theorem step1_85 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w341 d L fx fr = View.write (Elt F) (sO.access (Rect.unit (s := S2x16x256) ![1, 5, 80] S1x1x16.size inb_S2x16x256_S1x1x16_1_5_80)) (run0.sl.Hr1_w340 d L fx fr)
      (fun x => Gs (sSlot1.view.writes (Elt F) sSlot1.view.junk [⟨Rect.whole S16x256, run0.sl.dma0_1 d L fx⟩]) ((Rect.unit (s := S2x16x256) ![1, 5, 80] S1x1x16.size inb_S2x16x256_S1x1x16_1_5_80).emb x)) Finset.univ := by
  unfold run0.sl.Hr1_w341
  exact congrArg (fun w => View.write (Elt F) (sO.access (Rect.unit (s := S2x16x256) ![1, 5, 80] S1x1x16.size inb_S2x16x256_S1x1x16_1_5_80)) (run0.sl.Hr1_w340 d L fx fr) w Finset.univ)
    (funext fun x => (pieceA' _ _ _ _ _ _ _ (by decide) x).symm)

set_option maxHeartbeats 1000000 in
theorem step1_86 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w342 d L fx fr = View.write (Elt F) (sO.access (Rect.unit (s := S2x16x256) ![1, 6, 80] S1x1x16.size inb_S2x16x256_S1x1x16_1_6_80)) (run0.sl.Hr1_w341 d L fx fr)
      (fun x => Gs (sSlot1.view.writes (Elt F) sSlot1.view.junk [⟨Rect.whole S16x256, run0.sl.dma0_1 d L fx⟩]) ((Rect.unit (s := S2x16x256) ![1, 6, 80] S1x1x16.size inb_S2x16x256_S1x1x16_1_6_80).emb x)) Finset.univ := by
  unfold run0.sl.Hr1_w342
  exact congrArg (fun w => View.write (Elt F) (sO.access (Rect.unit (s := S2x16x256) ![1, 6, 80] S1x1x16.size inb_S2x16x256_S1x1x16_1_6_80)) (run0.sl.Hr1_w341 d L fx fr) w Finset.univ)
    (funext fun x => (pieceA' _ _ _ _ _ _ _ (by decide) x).symm)

set_option maxHeartbeats 1000000 in
theorem step1_87 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w343 d L fx fr = View.write (Elt F) (sO.access (Rect.unit (s := S2x16x256) ![1, 7, 80] S1x1x16.size inb_S2x16x256_S1x1x16_1_7_80)) (run0.sl.Hr1_w342 d L fx fr)
      (fun x => Gs (sSlot1.view.writes (Elt F) sSlot1.view.junk [⟨Rect.whole S16x256, run0.sl.dma0_1 d L fx⟩]) ((Rect.unit (s := S2x16x256) ![1, 7, 80] S1x1x16.size inb_S2x16x256_S1x1x16_1_7_80).emb x)) Finset.univ := by
  unfold run0.sl.Hr1_w343
  unfold run0.sl.r_219
  exact congrArg (fun w => View.write (Elt F) (sO.access (Rect.unit (s := S2x16x256) ![1, 7, 80] S1x1x16.size inb_S2x16x256_S1x1x16_1_7_80)) (run0.sl.Hr1_w342 d L fx fr) w Finset.univ)
    (funext fun x => (pieceA' _ _ _ _ _ _ _ (by decide) x).symm)

set_option maxHeartbeats 1000000 in
theorem step1_88 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w344 d L fx fr = View.write (Elt F) (sO.access (Rect.unit (s := S2x16x256) ![1, 8, 80] S1x1x16.size inb_S2x16x256_S1x1x16_1_8_80)) (run0.sl.Hr1_w343 d L fx fr)
      (fun x => Gs (sSlot1.view.writes (Elt F) sSlot1.view.junk [⟨Rect.whole S16x256, run0.sl.dma0_1 d L fx⟩]) ((Rect.unit (s := S2x16x256) ![1, 8, 80] S1x1x16.size inb_S2x16x256_S1x1x16_1_8_80).emb x)) Finset.univ := by
  unfold run0.sl.Hr1_w344
  exact congrArg (fun w => View.write (Elt F) (sO.access (Rect.unit (s := S2x16x256) ![1, 8, 80] S1x1x16.size inb_S2x16x256_S1x1x16_1_8_80)) (run0.sl.Hr1_w343 d L fx fr) w Finset.univ)
    (funext fun x => (pieceA' _ _ _ _ _ _ _ (by decide) x).symm)

set_option maxHeartbeats 1000000 in
theorem step1_89 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w345 d L fx fr = View.write (Elt F) (sO.access (Rect.unit (s := S2x16x256) ![1, 9, 80] S1x1x16.size inb_S2x16x256_S1x1x16_1_9_80)) (run0.sl.Hr1_w344 d L fx fr)
      (fun x => Gs (sSlot1.view.writes (Elt F) sSlot1.view.junk [⟨Rect.whole S16x256, run0.sl.dma0_1 d L fx⟩]) ((Rect.unit (s := S2x16x256) ![1, 9, 80] S1x1x16.size inb_S2x16x256_S1x1x16_1_9_80).emb x)) Finset.univ := by
  unfold run0.sl.Hr1_w345
  exact congrArg (fun w => View.write (Elt F) (sO.access (Rect.unit (s := S2x16x256) ![1, 9, 80] S1x1x16.size inb_S2x16x256_S1x1x16_1_9_80)) (run0.sl.Hr1_w344 d L fx fr) w Finset.univ)
    (funext fun x => (pieceA' _ _ _ _ _ _ _ (by decide) x).symm)

set_option maxHeartbeats 1000000 in
theorem step1_90 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w346 d L fx fr = View.write (Elt F) (sO.access (Rect.unit (s := S2x16x256) ![1, 10, 80] S1x1x16.size inb_S2x16x256_S1x1x16_1_10_80)) (run0.sl.Hr1_w345 d L fx fr)
      (fun x => Gs (sSlot1.view.writes (Elt F) sSlot1.view.junk [⟨Rect.whole S16x256, run0.sl.dma0_1 d L fx⟩]) ((Rect.unit (s := S2x16x256) ![1, 10, 80] S1x1x16.size inb_S2x16x256_S1x1x16_1_10_80).emb x)) Finset.univ := by
  unfold run0.sl.Hr1_w346
  unfold run0.sl.r_221
  exact congrArg (fun w => View.write (Elt F) (sO.access (Rect.unit (s := S2x16x256) ![1, 10, 80] S1x1x16.size inb_S2x16x256_S1x1x16_1_10_80)) (run0.sl.Hr1_w345 d L fx fr) w Finset.univ)
    (funext fun x => (pieceA' _ _ _ _ _ _ _ (by decide) x).symm)

set_option maxHeartbeats 1000000 in
theorem step1_91 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w347 d L fx fr = View.write (Elt F) (sO.access (Rect.unit (s := S2x16x256) ![1, 11, 80] S1x1x16.size inb_S2x16x256_S1x1x16_1_11_80)) (run0.sl.Hr1_w346 d L fx fr)
      (fun x => Gs (sSlot1.view.writes (Elt F) sSlot1.view.junk [⟨Rect.whole S16x256, run0.sl.dma0_1 d L fx⟩]) ((Rect.unit (s := S2x16x256) ![1, 11, 80] S1x1x16.size inb_S2x16x256_S1x1x16_1_11_80).emb x)) Finset.univ := by
  unfold run0.sl.Hr1_w347
  exact congrArg (fun w => View.write (Elt F) (sO.access (Rect.unit (s := S2x16x256) ![1, 11, 80] S1x1x16.size inb_S2x16x256_S1x1x16_1_11_80)) (run0.sl.Hr1_w346 d L fx fr) w Finset.univ)
    (funext fun x => (pieceA' _ _ _ _ _ _ _ (by decide) x).symm)

set_option maxHeartbeats 1000000 in
theorem step1_92 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w348 d L fx fr = View.write (Elt F) (sO.access (Rect.unit (s := S2x16x256) ![1, 12, 80] S1x1x16.size inb_S2x16x256_S1x1x16_1_12_80)) (run0.sl.Hr1_w347 d L fx fr)
      (fun x => Gs (sSlot1.view.writes (Elt F) sSlot1.view.junk [⟨Rect.whole S16x256, run0.sl.dma0_1 d L fx⟩]) ((Rect.unit (s := S2x16x256) ![1, 12, 80] S1x1x16.size inb_S2x16x256_S1x1x16_1_12_80).emb x)) Finset.univ := by
  unfold run0.sl.Hr1_w348
  exact congrArg (fun w => View.write (Elt F) (sO.access (Rect.unit (s := S2x16x256) ![1, 12, 80] S1x1x16.size inb_S2x16x256_S1x1x16_1_12_80)) (run0.sl.Hr1_w347 d L fx fr) w Finset.univ)
    (funext fun x => (pieceA' _ _ _ _ _ _ _ (by decide) x).symm)

set_option maxHeartbeats 1000000 in
theorem step1_93 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w349 d L fx fr = View.write (Elt F) (sO.access (Rect.unit (s := S2x16x256) ![1, 13, 80] S1x1x16.size inb_S2x16x256_S1x1x16_1_13_80)) (run0.sl.Hr1_w348 d L fx fr)
      (fun x => Gs (sSlot1.view.writes (Elt F) sSlot1.view.junk [⟨Rect.whole S16x256, run0.sl.dma0_1 d L fx⟩]) ((Rect.unit (s := S2x16x256) ![1, 13, 80] S1x1x16.size inb_S2x16x256_S1x1x16_1_13_80).emb x)) Finset.univ := by
  unfold run0.sl.Hr1_w349
  unfold run0.sl.r_223
  exact congrArg (fun w => View.write (Elt F) (sO.access (Rect.unit (s := S2x16x256) ![1, 13, 80] S1x1x16.size inb_S2x16x256_S1x1x16_1_13_80)) (run0.sl.Hr1_w348 d L fx fr) w Finset.univ)
    (funext fun x => (pieceA' _ _ _ _ _ _ _ (by decide) x).symm)

set_option maxHeartbeats 1000000 in
theorem step1_94 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w350 d L fx fr = View.write (Elt F) (sO.access (Rect.unit (s := S2x16x256) ![1, 14, 80] S1x1x16.size inb_S2x16x256_S1x1x16_1_14_80)) (run0.sl.Hr1_w349 d L fx fr)
      (fun x => Gs (sSlot1.view.writes (Elt F) sSlot1.view.junk [⟨Rect.whole S16x256, run0.sl.dma0_1 d L fx⟩]) ((Rect.unit (s := S2x16x256) ![1, 14, 80] S1x1x16.size inb_S2x16x256_S1x1x16_1_14_80).emb x)) Finset.univ := by
  unfold run0.sl.Hr1_w350
  exact congrArg (fun w => View.write (Elt F) (sO.access (Rect.unit (s := S2x16x256) ![1, 14, 80] S1x1x16.size inb_S2x16x256_S1x1x16_1_14_80)) (run0.sl.Hr1_w349 d L fx fr) w Finset.univ)
    (funext fun x => (pieceA' _ _ _ _ _ _ _ (by decide) x).symm)

set_option maxHeartbeats 1000000 in
theorem step1_95 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w351 d L fx fr = View.write (Elt F) (sO.access (Rect.unit (s := S2x16x256) ![1, 15, 80] S1x1x16.size inb_S2x16x256_S1x1x16_1_15_80)) (run0.sl.Hr1_w350 d L fx fr)
      (fun x => Gs (sSlot1.view.writes (Elt F) sSlot1.view.junk [⟨Rect.whole S16x256, run0.sl.dma0_1 d L fx⟩]) ((Rect.unit (s := S2x16x256) ![1, 15, 80] S1x1x16.size inb_S2x16x256_S1x1x16_1_15_80).emb x)) Finset.univ := by
  unfold run0.sl.Hr1_w351
  exact congrArg (fun w => View.write (Elt F) (sO.access (Rect.unit (s := S2x16x256) ![1, 15, 80] S1x1x16.size inb_S2x16x256_S1x1x16_1_15_80)) (run0.sl.Hr1_w350 d L fx fr) w Finset.univ)
    (funext fun x => (pieceA' _ _ _ _ _ _ _ (by decide) x).symm)

set_option maxHeartbeats 1000000 in
theorem step1_96 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w352 d L fx fr = View.write (Elt F) (sO.access (Rect.unit (s := S2x16x256) ![1, 0, 80] S1x1x16.size inb_S2x16x256_S1x1x16_1_0_80)) (run0.sl.Hr1_w351 d L fx fr)
      (fun x => Gs (sSlot1.view.writes (Elt F) sSlot1.view.junk [⟨Rect.whole S16x256, run0.sl.dma0_1 d L fx⟩]) ((Rect.unit (s := S2x16x256) ![1, 0, 80] S1x1x16.size inb_S2x16x256_S1x1x16_1_0_80).emb x)) Finset.univ := by
  unfold run0.sl.Hr1_w352
  unfold run0.sl.r_225 run0.sl.r_216 run0.sl.r_224 run0.sl.r_222 run0.sl.r_220 run0.sl.r_218 run0.sl.r_217
  exact congrArg (fun w => View.write (Elt F) (sO.access (Rect.unit (s := S2x16x256) ![1, 0, 80] S1x1x16.size inb_S2x16x256_S1x1x16_1_0_80)) (run0.sl.Hr1_w351 d L fx fr) w Finset.univ)
    (funext fun x => (pieceB' (sSlot1.view.writes (Elt F) sSlot1.view.junk [⟨Rect.whole S16x256, run0.sl.dma0_1 d L fx⟩]) 1 80 inb_S2x16x256_S1x1x16_1_0_80 inb_S2x16x256_S1x1x16_1_1_80 inb_S2x16x256_S1x1x16_1_2_80 inb_S2x16x256_S1x1x16_1_3_80 inb_S2x16x256_S1x1x16_1_4_80 inb_S2x16x256_S1x1x16_1_5_80 inb_S2x16x256_S1x1x16_1_6_80 inb_S2x16x256_S1x1x16_1_7_80 inb_S2x16x256_S1x1x16_1_8_80 inb_S2x16x256_S1x1x16_1_9_80 inb_S2x16x256_S1x1x16_1_10_80 inb_S2x16x256_S1x1x16_1_11_80 inb_S2x16x256_S1x1x16_1_12_80 inb_S2x16x256_S1x1x16_1_13_80 inb_S2x16x256_S1x1x16_1_14_80 inb_S2x16x256_S1x1x16_1_15_80 shapeCasts_S1x1x16_S16 shapeCasts_S16_S1x1x16 x).symm)

set_option maxHeartbeats 1000000 in
theorem step1_97 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w353 d L fx fr = View.write (Elt F) (sO.access (Rect.unit (s := S2x16x256) ![1, 1, 96] S1x1x16.size inb_S2x16x256_S1x1x16_1_1_96)) (run0.sl.Hr1_w352 d L fx fr)
      (fun x => Gs (sSlot1.view.writes (Elt F) sSlot1.view.junk [⟨Rect.whole S16x256, run0.sl.dma0_1 d L fx⟩]) ((Rect.unit (s := S2x16x256) ![1, 1, 96] S1x1x16.size inb_S2x16x256_S1x1x16_1_1_96).emb x)) Finset.univ := by
  unfold run0.sl.Hr1_w353
  exact congrArg (fun w => View.write (Elt F) (sO.access (Rect.unit (s := S2x16x256) ![1, 1, 96] S1x1x16.size inb_S2x16x256_S1x1x16_1_1_96)) (run0.sl.Hr1_w352 d L fx fr) w Finset.univ)
    (funext fun x => (pieceA' _ _ _ _ _ _ _ (by decide) x).symm)

set_option maxHeartbeats 1000000 in
theorem step1_98 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w354 d L fx fr = View.write (Elt F) (sO.access (Rect.unit (s := S2x16x256) ![1, 2, 96] S1x1x16.size inb_S2x16x256_S1x1x16_1_2_96)) (run0.sl.Hr1_w353 d L fx fr)
      (fun x => Gs (sSlot1.view.writes (Elt F) sSlot1.view.junk [⟨Rect.whole S16x256, run0.sl.dma0_1 d L fx⟩]) ((Rect.unit (s := S2x16x256) ![1, 2, 96] S1x1x16.size inb_S2x16x256_S1x1x16_1_2_96).emb x)) Finset.univ := by
  unfold run0.sl.Hr1_w354
  exact congrArg (fun w => View.write (Elt F) (sO.access (Rect.unit (s := S2x16x256) ![1, 2, 96] S1x1x16.size inb_S2x16x256_S1x1x16_1_2_96)) (run0.sl.Hr1_w353 d L fx fr) w Finset.univ)
    (funext fun x => (pieceA' _ _ _ _ _ _ _ (by decide) x).symm)

set_option maxHeartbeats 1000000 in
theorem step1_99 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w355 d L fx fr = View.write (Elt F) (sO.access (Rect.unit (s := S2x16x256) ![1, 3, 96] S1x1x16.size inb_S2x16x256_S1x1x16_1_3_96)) (run0.sl.Hr1_w354 d L fx fr)
      (fun x => Gs (sSlot1.view.writes (Elt F) sSlot1.view.junk [⟨Rect.whole S16x256, run0.sl.dma0_1 d L fx⟩]) ((Rect.unit (s := S2x16x256) ![1, 3, 96] S1x1x16.size inb_S2x16x256_S1x1x16_1_3_96).emb x)) Finset.univ := by
  unfold run0.sl.Hr1_w355
  unfold run0.sl.r_228
  exact congrArg (fun w => View.write (Elt F) (sO.access (Rect.unit (s := S2x16x256) ![1, 3, 96] S1x1x16.size inb_S2x16x256_S1x1x16_1_3_96)) (run0.sl.Hr1_w354 d L fx fr) w Finset.univ)
    (funext fun x => (pieceA' _ _ _ _ _ _ _ (by decide) x).symm)

set_option maxHeartbeats 1000000 in
theorem step1_100 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w356 d L fx fr = View.write (Elt F) (sO.access (Rect.unit (s := S2x16x256) ![1, 4, 96] S1x1x16.size inb_S2x16x256_S1x1x16_1_4_96)) (run0.sl.Hr1_w355 d L fx fr)
      (fun x => Gs (sSlot1.view.writes (Elt F) sSlot1.view.junk [⟨Rect.whole S16x256, run0.sl.dma0_1 d L fx⟩]) ((Rect.unit (s := S2x16x256) ![1, 4, 96] S1x1x16.size inb_S2x16x256_S1x1x16_1_4_96).emb x)) Finset.univ := by
  unfold run0.sl.Hr1_w356
  exact congrArg (fun w => View.write (Elt F) (sO.access (Rect.unit (s := S2x16x256) ![1, 4, 96] S1x1x16.size inb_S2x16x256_S1x1x16_1_4_96)) (run0.sl.Hr1_w355 d L fx fr) w Finset.univ)
    (funext fun x => (pieceA' _ _ _ _ _ _ _ (by decide) x).symm)

set_option maxHeartbeats 1000000 in
theorem step1_101 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w357 d L fx fr = View.write (Elt F) (sO.access (Rect.unit (s := S2x16x256) ![1, 5, 96] S1x1x16.size inb_S2x16x256_S1x1x16_1_5_96)) (run0.sl.Hr1_w356 d L fx fr)
      (fun x => Gs (sSlot1.view.writes (Elt F) sSlot1.view.junk [⟨Rect.whole S16x256, run0.sl.dma0_1 d L fx⟩]) ((Rect.unit (s := S2x16x256) ![1, 5, 96] S1x1x16.size inb_S2x16x256_S1x1x16_1_5_96).emb x)) Finset.univ := by
  unfold run0.sl.Hr1_w357
  exact congrArg (fun w => View.write (Elt F) (sO.access (Rect.unit (s := S2x16x256) ![1, 5, 96] S1x1x16.size inb_S2x16x256_S1x1x16_1_5_96)) (run0.sl.Hr1_w356 d L fx fr) w Finset.univ)
    (funext fun x => (pieceA' _ _ _ _ _ _ _ (by decide) x).symm)

set_option maxHeartbeats 1000000 in
theorem step1_102 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w358 d L fx fr = View.write (Elt F) (sO.access (Rect.unit (s := S2x16x256) ![1, 6, 96] S1x1x16.size inb_S2x16x256_S1x1x16_1_6_96)) (run0.sl.Hr1_w357 d L fx fr)
      (fun x => Gs (sSlot1.view.writes (Elt F) sSlot1.view.junk [⟨Rect.whole S16x256, run0.sl.dma0_1 d L fx⟩]) ((Rect.unit (s := S2x16x256) ![1, 6, 96] S1x1x16.size inb_S2x16x256_S1x1x16_1_6_96).emb x)) Finset.univ := by
  unfold run0.sl.Hr1_w358
  exact congrArg (fun w => View.write (Elt F) (sO.access (Rect.unit (s := S2x16x256) ![1, 6, 96] S1x1x16.size inb_S2x16x256_S1x1x16_1_6_96)) (run0.sl.Hr1_w357 d L fx fr) w Finset.univ)
    (funext fun x => (pieceA' _ _ _ _ _ _ _ (by decide) x).symm)

set_option maxHeartbeats 1000000 in
theorem step1_103 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w359 d L fx fr = View.write (Elt F) (sO.access (Rect.unit (s := S2x16x256) ![1, 7, 96] S1x1x16.size inb_S2x16x256_S1x1x16_1_7_96)) (run0.sl.Hr1_w358 d L fx fr)
      (fun x => Gs (sSlot1.view.writes (Elt F) sSlot1.view.junk [⟨Rect.whole S16x256, run0.sl.dma0_1 d L fx⟩]) ((Rect.unit (s := S2x16x256) ![1, 7, 96] S1x1x16.size inb_S2x16x256_S1x1x16_1_7_96).emb x)) Finset.univ := by
  unfold run0.sl.Hr1_w359
  exact congrArg (fun w => View.write (Elt F) (sO.access (Rect.unit (s := S2x16x256) ![1, 7, 96] S1x1x16.size inb_S2x16x256_S1x1x16_1_7_96)) (run0.sl.Hr1_w358 d L fx fr) w Finset.univ)
    (funext fun x => (pieceA' _ _ _ _ _ _ _ (by decide) x).symm)

set_option maxHeartbeats 1000000 in
theorem step1_104 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w360 d L fx fr = View.write (Elt F) (sO.access (Rect.unit (s := S2x16x256) ![1, 8, 96] S1x1x16.size inb_S2x16x256_S1x1x16_1_8_96)) (run0.sl.Hr1_w359 d L fx fr)
      (fun x => Gs (sSlot1.view.writes (Elt F) sSlot1.view.junk [⟨Rect.whole S16x256, run0.sl.dma0_1 d L fx⟩]) ((Rect.unit (s := S2x16x256) ![1, 8, 96] S1x1x16.size inb_S2x16x256_S1x1x16_1_8_96).emb x)) Finset.univ := by
  unfold run0.sl.Hr1_w360
  exact congrArg (fun w => View.write (Elt F) (sO.access (Rect.unit (s := S2x16x256) ![1, 8, 96] S1x1x16.size inb_S2x16x256_S1x1x16_1_8_96)) (run0.sl.Hr1_w359 d L fx fr) w Finset.univ)
    (funext fun x => (pieceA' _ _ _ _ _ _ _ (by decide) x).symm)

set_option maxHeartbeats 1000000 in
theorem step1_105 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w361 d L fx fr = View.write (Elt F) (sO.access (Rect.unit (s := S2x16x256) ![1, 9, 96] S1x1x16.size inb_S2x16x256_S1x1x16_1_9_96)) (run0.sl.Hr1_w360 d L fx fr)
      (fun x => Gs (sSlot1.view.writes (Elt F) sSlot1.view.junk [⟨Rect.whole S16x256, run0.sl.dma0_1 d L fx⟩]) ((Rect.unit (s := S2x16x256) ![1, 9, 96] S1x1x16.size inb_S2x16x256_S1x1x16_1_9_96).emb x)) Finset.univ := by
  unfold run0.sl.Hr1_w361
  exact congrArg (fun w => View.write (Elt F) (sO.access (Rect.unit (s := S2x16x256) ![1, 9, 96] S1x1x16.size inb_S2x16x256_S1x1x16_1_9_96)) (run0.sl.Hr1_w360 d L fx fr) w Finset.univ)
    (funext fun x => (pieceA' _ _ _ _ _ _ _ (by decide) x).symm)

set_option maxHeartbeats 1000000 in
theorem step1_106 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w362 d L fx fr = View.write (Elt F) (sO.access (Rect.unit (s := S2x16x256) ![1, 10, 96] S1x1x16.size inb_S2x16x256_S1x1x16_1_10_96)) (run0.sl.Hr1_w361 d L fx fr)
      (fun x => Gs (sSlot1.view.writes (Elt F) sSlot1.view.junk [⟨Rect.whole S16x256, run0.sl.dma0_1 d L fx⟩]) ((Rect.unit (s := S2x16x256) ![1, 10, 96] S1x1x16.size inb_S2x16x256_S1x1x16_1_10_96).emb x)) Finset.univ := by
  unfold run0.sl.Hr1_w362
  exact congrArg (fun w => View.write (Elt F) (sO.access (Rect.unit (s := S2x16x256) ![1, 10, 96] S1x1x16.size inb_S2x16x256_S1x1x16_1_10_96)) (run0.sl.Hr1_w361 d L fx fr) w Finset.univ)
    (funext fun x => (pieceA' _ _ _ _ _ _ _ (by decide) x).symm)

set_option maxHeartbeats 1000000 in
theorem step1_107 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w363 d L fx fr = View.write (Elt F) (sO.access (Rect.unit (s := S2x16x256) ![1, 11, 96] S1x1x16.size inb_S2x16x256_S1x1x16_1_11_96)) (run0.sl.Hr1_w362 d L fx fr)
      (fun x => Gs (sSlot1.view.writes (Elt F) sSlot1.view.junk [⟨Rect.whole S16x256, run0.sl.dma0_1 d L fx⟩]) ((Rect.unit (s := S2x16x256) ![1, 11, 96] S1x1x16.size inb_S2x16x256_S1x1x16_1_11_96).emb x)) Finset.univ := by
  unfold run0.sl.Hr1_w363
  unfold run0.sl.r_231
  exact congrArg (fun w => View.write (Elt F) (sO.access (Rect.unit (s := S2x16x256) ![1, 11, 96] S1x1x16.size inb_S2x16x256_S1x1x16_1_11_96)) (run0.sl.Hr1_w362 d L fx fr) w Finset.univ)
    (funext fun x => (pieceA' _ _ _ _ _ _ _ (by decide) x).symm)

set_option maxHeartbeats 1000000 in
theorem step1_108 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w364 d L fx fr = View.write (Elt F) (sO.access (Rect.unit (s := S2x16x256) ![1, 12, 96] S1x1x16.size inb_S2x16x256_S1x1x16_1_12_96)) (run0.sl.Hr1_w363 d L fx fr)
      (fun x => Gs (sSlot1.view.writes (Elt F) sSlot1.view.junk [⟨Rect.whole S16x256, run0.sl.dma0_1 d L fx⟩]) ((Rect.unit (s := S2x16x256) ![1, 12, 96] S1x1x16.size inb_S2x16x256_S1x1x16_1_12_96).emb x)) Finset.univ := by
  unfold run0.sl.Hr1_w364
  exact congrArg (fun w => View.write (Elt F) (sO.access (Rect.unit (s := S2x16x256) ![1, 12, 96] S1x1x16.size inb_S2x16x256_S1x1x16_1_12_96)) (run0.sl.Hr1_w363 d L fx fr) w Finset.univ)
    (funext fun x => (pieceA' _ _ _ _ _ _ _ (by decide) x).symm)

set_option maxHeartbeats 1000000 in
theorem step1_109 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w365 d L fx fr = View.write (Elt F) (sO.access (Rect.unit (s := S2x16x256) ![1, 13, 96] S1x1x16.size inb_S2x16x256_S1x1x16_1_13_96)) (run0.sl.Hr1_w364 d L fx fr)
      (fun x => Gs (sSlot1.view.writes (Elt F) sSlot1.view.junk [⟨Rect.whole S16x256, run0.sl.dma0_1 d L fx⟩]) ((Rect.unit (s := S2x16x256) ![1, 13, 96] S1x1x16.size inb_S2x16x256_S1x1x16_1_13_96).emb x)) Finset.univ := by
  unfold run0.sl.Hr1_w365
  exact congrArg (fun w => View.write (Elt F) (sO.access (Rect.unit (s := S2x16x256) ![1, 13, 96] S1x1x16.size inb_S2x16x256_S1x1x16_1_13_96)) (run0.sl.Hr1_w364 d L fx fr) w Finset.univ)
    (funext fun x => (pieceA' _ _ _ _ _ _ _ (by decide) x).symm)

set_option maxHeartbeats 1000000 in
theorem step1_110 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w366 d L fx fr = View.write (Elt F) (sO.access (Rect.unit (s := S2x16x256) ![1, 14, 96] S1x1x16.size inb_S2x16x256_S1x1x16_1_14_96)) (run0.sl.Hr1_w365 d L fx fr)
      (fun x => Gs (sSlot1.view.writes (Elt F) sSlot1.view.junk [⟨Rect.whole S16x256, run0.sl.dma0_1 d L fx⟩]) ((Rect.unit (s := S2x16x256) ![1, 14, 96] S1x1x16.size inb_S2x16x256_S1x1x16_1_14_96).emb x)) Finset.univ := by
  unfold run0.sl.Hr1_w366
  unfold run0.sl.r_234
  exact congrArg (fun w => View.write (Elt F) (sO.access (Rect.unit (s := S2x16x256) ![1, 14, 96] S1x1x16.size inb_S2x16x256_S1x1x16_1_14_96)) (run0.sl.Hr1_w365 d L fx fr) w Finset.univ)
    (funext fun x => (pieceA' _ _ _ _ _ _ _ (by decide) x).symm)

set_option maxHeartbeats 1000000 in
theorem step1_111 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w367 d L fx fr = View.write (Elt F) (sO.access (Rect.unit (s := S2x16x256) ![1, 15, 96] S1x1x16.size inb_S2x16x256_S1x1x16_1_15_96)) (run0.sl.Hr1_w366 d L fx fr)
      (fun x => Gs (sSlot1.view.writes (Elt F) sSlot1.view.junk [⟨Rect.whole S16x256, run0.sl.dma0_1 d L fx⟩]) ((Rect.unit (s := S2x16x256) ![1, 15, 96] S1x1x16.size inb_S2x16x256_S1x1x16_1_15_96).emb x)) Finset.univ := by
  unfold run0.sl.Hr1_w367
  exact congrArg (fun w => View.write (Elt F) (sO.access (Rect.unit (s := S2x16x256) ![1, 15, 96] S1x1x16.size inb_S2x16x256_S1x1x16_1_15_96)) (run0.sl.Hr1_w366 d L fx fr) w Finset.univ)
    (funext fun x => (pieceA' _ _ _ _ _ _ _ (by decide) x).symm)

set_option maxHeartbeats 1000000 in
theorem step1_112 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w368 d L fx fr = View.write (Elt F) (sO.access (Rect.unit (s := S2x16x256) ![1, 0, 96] S1x1x16.size inb_S2x16x256_S1x1x16_1_0_96)) (run0.sl.Hr1_w367 d L fx fr)
      (fun x => Gs (sSlot1.view.writes (Elt F) sSlot1.view.junk [⟨Rect.whole S16x256, run0.sl.dma0_1 d L fx⟩]) ((Rect.unit (s := S2x16x256) ![1, 0, 96] S1x1x16.size inb_S2x16x256_S1x1x16_1_0_96).emb x)) Finset.univ := by
  unfold run0.sl.Hr1_w368
  unfold run0.sl.r_226 run0.sl.r_235 run0.sl.r_232 run0.sl.r_230 run0.sl.r_229 run0.sl.r_227 run0.sl.r_228
  exact congrArg (fun w => View.write (Elt F) (sO.access (Rect.unit (s := S2x16x256) ![1, 0, 96] S1x1x16.size inb_S2x16x256_S1x1x16_1_0_96)) (run0.sl.Hr1_w367 d L fx fr) w Finset.univ)
    (funext fun x => (pieceB' (sSlot1.view.writes (Elt F) sSlot1.view.junk [⟨Rect.whole S16x256, run0.sl.dma0_1 d L fx⟩]) 1 96 inb_S2x16x256_S1x1x16_1_0_96 inb_S2x16x256_S1x1x16_1_1_96 inb_S2x16x256_S1x1x16_1_2_96 inb_S2x16x256_S1x1x16_1_3_96 inb_S2x16x256_S1x1x16_1_4_96 inb_S2x16x256_S1x1x16_1_5_96 inb_S2x16x256_S1x1x16_1_6_96 inb_S2x16x256_S1x1x16_1_7_96 inb_S2x16x256_S1x1x16_1_8_96 inb_S2x16x256_S1x1x16_1_9_96 inb_S2x16x256_S1x1x16_1_10_96 inb_S2x16x256_S1x1x16_1_11_96 inb_S2x16x256_S1x1x16_1_12_96 inb_S2x16x256_S1x1x16_1_13_96 inb_S2x16x256_S1x1x16_1_14_96 inb_S2x16x256_S1x1x16_1_15_96 shapeCasts_S1x1x16_S16 shapeCasts_S16_S1x1x16 x).symm)

set_option maxHeartbeats 1000000 in
theorem step1_113 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w369 d L fx fr = View.write (Elt F) (sO.access (Rect.unit (s := S2x16x256) ![1, 1, 112] S1x1x16.size inb_S2x16x256_S1x1x16_1_1_112)) (run0.sl.Hr1_w368 d L fx fr)
      (fun x => Gs (sSlot1.view.writes (Elt F) sSlot1.view.junk [⟨Rect.whole S16x256, run0.sl.dma0_1 d L fx⟩]) ((Rect.unit (s := S2x16x256) ![1, 1, 112] S1x1x16.size inb_S2x16x256_S1x1x16_1_1_112).emb x)) Finset.univ := by
  unfold run0.sl.Hr1_w369
  unfold run0.sl.r_237
  exact congrArg (fun w => View.write (Elt F) (sO.access (Rect.unit (s := S2x16x256) ![1, 1, 112] S1x1x16.size inb_S2x16x256_S1x1x16_1_1_112)) (run0.sl.Hr1_w368 d L fx fr) w Finset.univ)
    (funext fun x => (pieceA' _ _ _ _ _ _ _ (by decide) x).symm)

set_option maxHeartbeats 1000000 in
theorem step1_114 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w370 d L fx fr = View.write (Elt F) (sO.access (Rect.unit (s := S2x16x256) ![1, 2, 112] S1x1x16.size inb_S2x16x256_S1x1x16_1_2_112)) (run0.sl.Hr1_w369 d L fx fr)
      (fun x => Gs (sSlot1.view.writes (Elt F) sSlot1.view.junk [⟨Rect.whole S16x256, run0.sl.dma0_1 d L fx⟩]) ((Rect.unit (s := S2x16x256) ![1, 2, 112] S1x1x16.size inb_S2x16x256_S1x1x16_1_2_112).emb x)) Finset.univ := by
  unfold run0.sl.Hr1_w370
  exact congrArg (fun w => View.write (Elt F) (sO.access (Rect.unit (s := S2x16x256) ![1, 2, 112] S1x1x16.size inb_S2x16x256_S1x1x16_1_2_112)) (run0.sl.Hr1_w369 d L fx fr) w Finset.univ)
    (funext fun x => (pieceA' _ _ _ _ _ _ _ (by decide) x).symm)

set_option maxHeartbeats 1000000 in
theorem step1_115 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w371 d L fx fr = View.write (Elt F) (sO.access (Rect.unit (s := S2x16x256) ![1, 3, 112] S1x1x16.size inb_S2x16x256_S1x1x16_1_3_112)) (run0.sl.Hr1_w370 d L fx fr)
      (fun x => Gs (sSlot1.view.writes (Elt F) sSlot1.view.junk [⟨Rect.whole S16x256, run0.sl.dma0_1 d L fx⟩]) ((Rect.unit (s := S2x16x256) ![1, 3, 112] S1x1x16.size inb_S2x16x256_S1x1x16_1_3_112).emb x)) Finset.univ := by
  unfold run0.sl.Hr1_w371
  exact congrArg (fun w => View.write (Elt F) (sO.access (Rect.unit (s := S2x16x256) ![1, 3, 112] S1x1x16.size inb_S2x16x256_S1x1x16_1_3_112)) (run0.sl.Hr1_w370 d L fx fr) w Finset.univ)
    (funext fun x => (pieceA' _ _ _ _ _ _ _ (by decide) x).symm)

set_option maxHeartbeats 1000000 in
theorem step1_116 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w372 d L fx fr = View.write (Elt F) (sO.access (Rect.unit (s := S2x16x256) ![1, 4, 112] S1x1x16.size inb_S2x16x256_S1x1x16_1_4_112)) (run0.sl.Hr1_w371 d L fx fr)
      (fun x => Gs (sSlot1.view.writes (Elt F) sSlot1.view.junk [⟨Rect.whole S16x256, run0.sl.dma0_1 d L fx⟩]) ((Rect.unit (s := S2x16x256) ![1, 4, 112] S1x1x16.size inb_S2x16x256_S1x1x16_1_4_112).emb x)) Finset.univ := by
  unfold run0.sl.Hr1_w372
  unfold run0.sl.r_239 run0.sl.cst_306
  exact congrArg (fun w => View.write (Elt F) (sO.access (Rect.unit (s := S2x16x256) ![1, 4, 112] S1x1x16.size inb_S2x16x256_S1x1x16_1_4_112)) (run0.sl.Hr1_w371 d L fx fr) w Finset.univ)
    (funext fun x => (pieceA' _ _ _ _ _ _ _ (by decide) x).symm)

set_option maxHeartbeats 1000000 in
theorem step1_117 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w373 d L fx fr = View.write (Elt F) (sO.access (Rect.unit (s := S2x16x256) ![1, 5, 112] S1x1x16.size inb_S2x16x256_S1x1x16_1_5_112)) (run0.sl.Hr1_w372 d L fx fr)
      (fun x => Gs (sSlot1.view.writes (Elt F) sSlot1.view.junk [⟨Rect.whole S16x256, run0.sl.dma0_1 d L fx⟩]) ((Rect.unit (s := S2x16x256) ![1, 5, 112] S1x1x16.size inb_S2x16x256_S1x1x16_1_5_112).emb x)) Finset.univ := by
  unfold run0.sl.Hr1_w373
  exact congrArg (fun w => View.write (Elt F) (sO.access (Rect.unit (s := S2x16x256) ![1, 5, 112] S1x1x16.size inb_S2x16x256_S1x1x16_1_5_112)) (run0.sl.Hr1_w372 d L fx fr) w Finset.univ)
    (funext fun x => (pieceA' _ _ _ _ _ _ _ (by decide) x).symm)

set_option maxHeartbeats 1000000 in
theorem step1_118 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w374 d L fx fr = View.write (Elt F) (sO.access (Rect.unit (s := S2x16x256) ![1, 6, 112] S1x1x16.size inb_S2x16x256_S1x1x16_1_6_112)) (run0.sl.Hr1_w373 d L fx fr)
      (fun x => Gs (sSlot1.view.writes (Elt F) sSlot1.view.junk [⟨Rect.whole S16x256, run0.sl.dma0_1 d L fx⟩]) ((Rect.unit (s := S2x16x256) ![1, 6, 112] S1x1x16.size inb_S2x16x256_S1x1x16_1_6_112).emb x)) Finset.univ := by
  unfold run0.sl.Hr1_w374
  exact congrArg (fun w => View.write (Elt F) (sO.access (Rect.unit (s := S2x16x256) ![1, 6, 112] S1x1x16.size inb_S2x16x256_S1x1x16_1_6_112)) (run0.sl.Hr1_w373 d L fx fr) w Finset.univ)
    (funext fun x => (pieceA' _ _ _ _ _ _ _ (by decide) x).symm)

set_option maxHeartbeats 1000000 in
theorem step1_119 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w375 d L fx fr = View.write (Elt F) (sO.access (Rect.unit (s := S2x16x256) ![1, 7, 112] S1x1x16.size inb_S2x16x256_S1x1x16_1_7_112)) (run0.sl.Hr1_w374 d L fx fr)
      (fun x => Gs (sSlot1.view.writes (Elt F) sSlot1.view.junk [⟨Rect.whole S16x256, run0.sl.dma0_1 d L fx⟩]) ((Rect.unit (s := S2x16x256) ![1, 7, 112] S1x1x16.size inb_S2x16x256_S1x1x16_1_7_112).emb x)) Finset.univ := by
  unfold run0.sl.Hr1_w375
  exact congrArg (fun w => View.write (Elt F) (sO.access (Rect.unit (s := S2x16x256) ![1, 7, 112] S1x1x16.size inb_S2x16x256_S1x1x16_1_7_112)) (run0.sl.Hr1_w374 d L fx fr) w Finset.univ)
    (funext fun x => (pieceA' _ _ _ _ _ _ _ (by decide) x).symm)

set_option maxHeartbeats 1000000 in
theorem step1_120 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w376 d L fx fr = View.write (Elt F) (sO.access (Rect.unit (s := S2x16x256) ![1, 8, 112] S1x1x16.size inb_S2x16x256_S1x1x16_1_8_112)) (run0.sl.Hr1_w375 d L fx fr)
      (fun x => Gs (sSlot1.view.writes (Elt F) sSlot1.view.junk [⟨Rect.whole S16x256, run0.sl.dma0_1 d L fx⟩]) ((Rect.unit (s := S2x16x256) ![1, 8, 112] S1x1x16.size inb_S2x16x256_S1x1x16_1_8_112).emb x)) Finset.univ := by
  unfold run0.sl.Hr1_w376
  exact congrArg (fun w => View.write (Elt F) (sO.access (Rect.unit (s := S2x16x256) ![1, 8, 112] S1x1x16.size inb_S2x16x256_S1x1x16_1_8_112)) (run0.sl.Hr1_w375 d L fx fr) w Finset.univ)
    (funext fun x => (pieceA' _ _ _ _ _ _ _ (by decide) x).symm)

set_option maxHeartbeats 1000000 in
theorem step1_121 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w377 d L fx fr = View.write (Elt F) (sO.access (Rect.unit (s := S2x16x256) ![1, 9, 112] S1x1x16.size inb_S2x16x256_S1x1x16_1_9_112)) (run0.sl.Hr1_w376 d L fx fr)
      (fun x => Gs (sSlot1.view.writes (Elt F) sSlot1.view.junk [⟨Rect.whole S16x256, run0.sl.dma0_1 d L fx⟩]) ((Rect.unit (s := S2x16x256) ![1, 9, 112] S1x1x16.size inb_S2x16x256_S1x1x16_1_9_112).emb x)) Finset.univ := by
  unfold run0.sl.Hr1_w377
  exact congrArg (fun w => View.write (Elt F) (sO.access (Rect.unit (s := S2x16x256) ![1, 9, 112] S1x1x16.size inb_S2x16x256_S1x1x16_1_9_112)) (run0.sl.Hr1_w376 d L fx fr) w Finset.univ)
    (funext fun x => (pieceA' _ _ _ _ _ _ _ (by decide) x).symm)

set_option maxHeartbeats 1000000 in
theorem step1_122 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w378 d L fx fr = View.write (Elt F) (sO.access (Rect.unit (s := S2x16x256) ![1, 10, 112] S1x1x16.size inb_S2x16x256_S1x1x16_1_10_112)) (run0.sl.Hr1_w377 d L fx fr)
      (fun x => Gs (sSlot1.view.writes (Elt F) sSlot1.view.junk [⟨Rect.whole S16x256, run0.sl.dma0_1 d L fx⟩]) ((Rect.unit (s := S2x16x256) ![1, 10, 112] S1x1x16.size inb_S2x16x256_S1x1x16_1_10_112).emb x)) Finset.univ := by
  unfold run0.sl.Hr1_w378
  exact congrArg (fun w => View.write (Elt F) (sO.access (Rect.unit (s := S2x16x256) ![1, 10, 112] S1x1x16.size inb_S2x16x256_S1x1x16_1_10_112)) (run0.sl.Hr1_w377 d L fx fr) w Finset.univ)
    (funext fun x => (pieceA' _ _ _ _ _ _ _ (by decide) x).symm)

set_option maxHeartbeats 1000000 in
theorem step1_123 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w379 d L fx fr = View.write (Elt F) (sO.access (Rect.unit (s := S2x16x256) ![1, 11, 112] S1x1x16.size inb_S2x16x256_S1x1x16_1_11_112)) (run0.sl.Hr1_w378 d L fx fr)
      (fun x => Gs (sSlot1.view.writes (Elt F) sSlot1.view.junk [⟨Rect.whole S16x256, run0.sl.dma0_1 d L fx⟩]) ((Rect.unit (s := S2x16x256) ![1, 11, 112] S1x1x16.size inb_S2x16x256_S1x1x16_1_11_112).emb x)) Finset.univ := by
  unfold run0.sl.Hr1_w379
  exact congrArg (fun w => View.write (Elt F) (sO.access (Rect.unit (s := S2x16x256) ![1, 11, 112] S1x1x16.size inb_S2x16x256_S1x1x16_1_11_112)) (run0.sl.Hr1_w378 d L fx fr) w Finset.univ)
    (funext fun x => (pieceA' _ _ _ _ _ _ _ (by decide) x).symm)

set_option maxHeartbeats 1000000 in
theorem step1_124 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w380 d L fx fr = View.write (Elt F) (sO.access (Rect.unit (s := S2x16x256) ![1, 12, 112] S1x1x16.size inb_S2x16x256_S1x1x16_1_12_112)) (run0.sl.Hr1_w379 d L fx fr)
      (fun x => Gs (sSlot1.view.writes (Elt F) sSlot1.view.junk [⟨Rect.whole S16x256, run0.sl.dma0_1 d L fx⟩]) ((Rect.unit (s := S2x16x256) ![1, 12, 112] S1x1x16.size inb_S2x16x256_S1x1x16_1_12_112).emb x)) Finset.univ := by
  unfold run0.sl.Hr1_w380
  unfold run0.sl.r_243
  exact congrArg (fun w => View.write (Elt F) (sO.access (Rect.unit (s := S2x16x256) ![1, 12, 112] S1x1x16.size inb_S2x16x256_S1x1x16_1_12_112)) (run0.sl.Hr1_w379 d L fx fr) w Finset.univ)
    (funext fun x => (pieceA' _ _ _ _ _ _ _ (by decide) x).symm)

set_option maxHeartbeats 1000000 in
theorem step1_125 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w381 d L fx fr = View.write (Elt F) (sO.access (Rect.unit (s := S2x16x256) ![1, 13, 112] S1x1x16.size inb_S2x16x256_S1x1x16_1_13_112)) (run0.sl.Hr1_w380 d L fx fr)
      (fun x => Gs (sSlot1.view.writes (Elt F) sSlot1.view.junk [⟨Rect.whole S16x256, run0.sl.dma0_1 d L fx⟩]) ((Rect.unit (s := S2x16x256) ![1, 13, 112] S1x1x16.size inb_S2x16x256_S1x1x16_1_13_112).emb x)) Finset.univ := by
  unfold run0.sl.Hr1_w381
  exact congrArg (fun w => View.write (Elt F) (sO.access (Rect.unit (s := S2x16x256) ![1, 13, 112] S1x1x16.size inb_S2x16x256_S1x1x16_1_13_112)) (run0.sl.Hr1_w380 d L fx fr) w Finset.univ)
    (funext fun x => (pieceA' _ _ _ _ _ _ _ (by decide) x).symm)

set_option maxHeartbeats 1000000 in
theorem step1_126 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w382 d L fx fr = View.write (Elt F) (sO.access (Rect.unit (s := S2x16x256) ![1, 14, 112] S1x1x16.size inb_S2x16x256_S1x1x16_1_14_112)) (run0.sl.Hr1_w381 d L fx fr)
      (fun x => Gs (sSlot1.view.writes (Elt F) sSlot1.view.junk [⟨Rect.whole S16x256, run0.sl.dma0_1 d L fx⟩]) ((Rect.unit (s := S2x16x256) ![1, 14, 112] S1x1x16.size inb_S2x16x256_S1x1x16_1_14_112).emb x)) Finset.univ := by
  unfold run0.sl.Hr1_w382
  exact congrArg (fun w => View.write (Elt F) (sO.access (Rect.unit (s := S2x16x256) ![1, 14, 112] S1x1x16.size inb_S2x16x256_S1x1x16_1_14_112)) (run0.sl.Hr1_w381 d L fx fr) w Finset.univ)
    (funext fun x => (pieceA' _ _ _ _ _ _ _ (by decide) x).symm)

set_option maxHeartbeats 1000000 in
theorem step1_127 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w383 d L fx fr = View.write (Elt F) (sO.access (Rect.unit (s := S2x16x256) ![1, 15, 112] S1x1x16.size inb_S2x16x256_S1x1x16_1_15_112)) (run0.sl.Hr1_w382 d L fx fr)
      (fun x => Gs (sSlot1.view.writes (Elt F) sSlot1.view.junk [⟨Rect.whole S16x256, run0.sl.dma0_1 d L fx⟩]) ((Rect.unit (s := S2x16x256) ![1, 15, 112] S1x1x16.size inb_S2x16x256_S1x1x16_1_15_112).emb x)) Finset.univ := by
  unfold run0.sl.Hr1_w383
  unfold run0.sl.r_244
  exact congrArg (fun w => View.write (Elt F) (sO.access (Rect.unit (s := S2x16x256) ![1, 15, 112] S1x1x16.size inb_S2x16x256_S1x1x16_1_15_112)) (run0.sl.Hr1_w382 d L fx fr) w Finset.univ)
    (funext fun x => (pieceA' _ _ _ _ _ _ _ (by decide) x).symm)

set_option maxHeartbeats 1000000 in
theorem step1_128 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w384 d L fx fr = View.write (Elt F) (sO.access (Rect.unit (s := S2x16x256) ![1, 0, 112] S1x1x16.size inb_S2x16x256_S1x1x16_1_0_112)) (run0.sl.Hr1_w383 d L fx fr)
      (fun x => Gs (sSlot1.view.writes (Elt F) sSlot1.view.junk [⟨Rect.whole S16x256, run0.sl.dma0_1 d L fx⟩]) ((Rect.unit (s := S2x16x256) ![1, 0, 112] S1x1x16.size inb_S2x16x256_S1x1x16_1_0_112).emb x)) Finset.univ := by
  unfold run0.sl.Hr1_w384
  unfold run0.sl.r_236 run0.sl.r_245 run0.sl.r_242 run0.sl.r_241 run0.sl.r_240 run0.sl.r_238 run0.sl.r_239 run0.sl.r_237 run0.sl.cst_306
  exact congrArg (fun w => View.write (Elt F) (sO.access (Rect.unit (s := S2x16x256) ![1, 0, 112] S1x1x16.size inb_S2x16x256_S1x1x16_1_0_112)) (run0.sl.Hr1_w383 d L fx fr) w Finset.univ)
    (funext fun x => (pieceB' (sSlot1.view.writes (Elt F) sSlot1.view.junk [⟨Rect.whole S16x256, run0.sl.dma0_1 d L fx⟩]) 1 112 inb_S2x16x256_S1x1x16_1_0_112 inb_S2x16x256_S1x1x16_1_1_112 inb_S2x16x256_S1x1x16_1_2_112 inb_S2x16x256_S1x1x16_1_3_112 inb_S2x16x256_S1x1x16_1_4_112 inb_S2x16x256_S1x1x16_1_5_112 inb_S2x16x256_S1x1x16_1_6_112 inb_S2x16x256_S1x1x16_1_7_112 inb_S2x16x256_S1x1x16_1_8_112 inb_S2x16x256_S1x1x16_1_9_112 inb_S2x16x256_S1x1x16_1_10_112 inb_S2x16x256_S1x1x16_1_11_112 inb_S2x16x256_S1x1x16_1_12_112 inb_S2x16x256_S1x1x16_1_13_112 inb_S2x16x256_S1x1x16_1_14_112 inb_S2x16x256_S1x1x16_1_15_112 shapeCasts_S1x1x16_S16 shapeCasts_S16_S1x1x16 x).symm)

set_option maxHeartbeats 1000000 in
theorem step1_129 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w385 d L fx fr = View.write (Elt F) (sO.access (Rect.unit (s := S2x16x256) ![1, 1, 128] S1x1x16.size inb_S2x16x256_S1x1x16_1_1_128)) (run0.sl.Hr1_w384 d L fx fr)
      (fun x => Gs (sSlot1.view.writes (Elt F) sSlot1.view.junk [⟨Rect.whole S16x256, run0.sl.dma0_1 d L fx⟩]) ((Rect.unit (s := S2x16x256) ![1, 1, 128] S1x1x16.size inb_S2x16x256_S1x1x16_1_1_128).emb x)) Finset.univ := by
  unfold run0.sl.Hr1_w385
  exact congrArg (fun w => View.write (Elt F) (sO.access (Rect.unit (s := S2x16x256) ![1, 1, 128] S1x1x16.size inb_S2x16x256_S1x1x16_1_1_128)) (run0.sl.Hr1_w384 d L fx fr) w Finset.univ)
    (funext fun x => (pieceA' _ _ _ _ _ _ _ (by decide) x).symm)

set_option maxHeartbeats 1000000 in
theorem step1_130 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w386 d L fx fr = View.write (Elt F) (sO.access (Rect.unit (s := S2x16x256) ![1, 2, 128] S1x1x16.size inb_S2x16x256_S1x1x16_1_2_128)) (run0.sl.Hr1_w385 d L fx fr)
      (fun x => Gs (sSlot1.view.writes (Elt F) sSlot1.view.junk [⟨Rect.whole S16x256, run0.sl.dma0_1 d L fx⟩]) ((Rect.unit (s := S2x16x256) ![1, 2, 128] S1x1x16.size inb_S2x16x256_S1x1x16_1_2_128).emb x)) Finset.univ := by
  unfold run0.sl.Hr1_w386
  unfold run0.sl.r_247
  exact congrArg (fun w => View.write (Elt F) (sO.access (Rect.unit (s := S2x16x256) ![1, 2, 128] S1x1x16.size inb_S2x16x256_S1x1x16_1_2_128)) (run0.sl.Hr1_w385 d L fx fr) w Finset.univ)
    (funext fun x => (pieceA' _ _ _ _ _ _ _ (by decide) x).symm)

set_option maxHeartbeats 1000000 in
theorem step1_131 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w387 d L fx fr = View.write (Elt F) (sO.access (Rect.unit (s := S2x16x256) ![1, 3, 128] S1x1x16.size inb_S2x16x256_S1x1x16_1_3_128)) (run0.sl.Hr1_w386 d L fx fr)
      (fun x => Gs (sSlot1.view.writes (Elt F) sSlot1.view.junk [⟨Rect.whole S16x256, run0.sl.dma0_1 d L fx⟩]) ((Rect.unit (s := S2x16x256) ![1, 3, 128] S1x1x16.size inb_S2x16x256_S1x1x16_1_3_128).emb x)) Finset.univ := by
  unfold run0.sl.Hr1_w387
  exact congrArg (fun w => View.write (Elt F) (sO.access (Rect.unit (s := S2x16x256) ![1, 3, 128] S1x1x16.size inb_S2x16x256_S1x1x16_1_3_128)) (run0.sl.Hr1_w386 d L fx fr) w Finset.univ)
    (funext fun x => (pieceA' _ _ _ _ _ _ _ (by decide) x).symm)

set_option maxHeartbeats 1000000 in
theorem step1_132 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w388 d L fx fr = View.write (Elt F) (sO.access (Rect.unit (s := S2x16x256) ![1, 4, 128] S1x1x16.size inb_S2x16x256_S1x1x16_1_4_128)) (run0.sl.Hr1_w387 d L fx fr)
      (fun x => Gs (sSlot1.view.writes (Elt F) sSlot1.view.junk [⟨Rect.whole S16x256, run0.sl.dma0_1 d L fx⟩]) ((Rect.unit (s := S2x16x256) ![1, 4, 128] S1x1x16.size inb_S2x16x256_S1x1x16_1_4_128).emb x)) Finset.univ := by
  unfold run0.sl.Hr1_w388
  exact congrArg (fun w => View.write (Elt F) (sO.access (Rect.unit (s := S2x16x256) ![1, 4, 128] S1x1x16.size inb_S2x16x256_S1x1x16_1_4_128)) (run0.sl.Hr1_w387 d L fx fr) w Finset.univ)
    (funext fun x => (pieceA' _ _ _ _ _ _ _ (by decide) x).symm)

set_option maxHeartbeats 1000000 in
theorem step1_133 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w389 d L fx fr = View.write (Elt F) (sO.access (Rect.unit (s := S2x16x256) ![1, 5, 128] S1x1x16.size inb_S2x16x256_S1x1x16_1_5_128)) (run0.sl.Hr1_w388 d L fx fr)
      (fun x => Gs (sSlot1.view.writes (Elt F) sSlot1.view.junk [⟨Rect.whole S16x256, run0.sl.dma0_1 d L fx⟩]) ((Rect.unit (s := S2x16x256) ![1, 5, 128] S1x1x16.size inb_S2x16x256_S1x1x16_1_5_128).emb x)) Finset.univ := by
  unfold run0.sl.Hr1_w389
  unfold run0.sl.r_250
  exact congrArg (fun w => View.write (Elt F) (sO.access (Rect.unit (s := S2x16x256) ![1, 5, 128] S1x1x16.size inb_S2x16x256_S1x1x16_1_5_128)) (run0.sl.Hr1_w388 d L fx fr) w Finset.univ)
    (funext fun x => (pieceA' _ _ _ _ _ _ _ (by decide) x).symm)

set_option maxHeartbeats 1000000 in
theorem step1_134 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w390 d L fx fr = View.write (Elt F) (sO.access (Rect.unit (s := S2x16x256) ![1, 6, 128] S1x1x16.size inb_S2x16x256_S1x1x16_1_6_128)) (run0.sl.Hr1_w389 d L fx fr)
      (fun x => Gs (sSlot1.view.writes (Elt F) sSlot1.view.junk [⟨Rect.whole S16x256, run0.sl.dma0_1 d L fx⟩]) ((Rect.unit (s := S2x16x256) ![1, 6, 128] S1x1x16.size inb_S2x16x256_S1x1x16_1_6_128).emb x)) Finset.univ := by
  unfold run0.sl.Hr1_w390
  exact congrArg (fun w => View.write (Elt F) (sO.access (Rect.unit (s := S2x16x256) ![1, 6, 128] S1x1x16.size inb_S2x16x256_S1x1x16_1_6_128)) (run0.sl.Hr1_w389 d L fx fr) w Finset.univ)
    (funext fun x => (pieceA' _ _ _ _ _ _ _ (by decide) x).symm)

set_option maxHeartbeats 1000000 in
theorem step1_135 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w391 d L fx fr = View.write (Elt F) (sO.access (Rect.unit (s := S2x16x256) ![1, 7, 128] S1x1x16.size inb_S2x16x256_S1x1x16_1_7_128)) (run0.sl.Hr1_w390 d L fx fr)
      (fun x => Gs (sSlot1.view.writes (Elt F) sSlot1.view.junk [⟨Rect.whole S16x256, run0.sl.dma0_1 d L fx⟩]) ((Rect.unit (s := S2x16x256) ![1, 7, 128] S1x1x16.size inb_S2x16x256_S1x1x16_1_7_128).emb x)) Finset.univ := by
  unfold run0.sl.Hr1_w391
  exact congrArg (fun w => View.write (Elt F) (sO.access (Rect.unit (s := S2x16x256) ![1, 7, 128] S1x1x16.size inb_S2x16x256_S1x1x16_1_7_128)) (run0.sl.Hr1_w390 d L fx fr) w Finset.univ)
    (funext fun x => (pieceA' _ _ _ _ _ _ _ (by decide) x).symm)

set_option maxHeartbeats 1000000 in
theorem step1_136 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w392 d L fx fr = View.write (Elt F) (sO.access (Rect.unit (s := S2x16x256) ![1, 8, 128] S1x1x16.size inb_S2x16x256_S1x1x16_1_8_128)) (run0.sl.Hr1_w391 d L fx fr)
      (fun x => Gs (sSlot1.view.writes (Elt F) sSlot1.view.junk [⟨Rect.whole S16x256, run0.sl.dma0_1 d L fx⟩]) ((Rect.unit (s := S2x16x256) ![1, 8, 128] S1x1x16.size inb_S2x16x256_S1x1x16_1_8_128).emb x)) Finset.univ := by
  unfold run0.sl.Hr1_w392
  unfold run0.sl.r_252
  exact congrArg (fun w => View.write (Elt F) (sO.access (Rect.unit (s := S2x16x256) ![1, 8, 128] S1x1x16.size inb_S2x16x256_S1x1x16_1_8_128)) (run0.sl.Hr1_w391 d L fx fr) w Finset.univ)
    (funext fun x => (pieceA' _ _ _ _ _ _ _ (by decide) x).symm)

set_option maxHeartbeats 1000000 in
theorem step1_137 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w393 d L fx fr = View.write (Elt F) (sO.access (Rect.unit (s := S2x16x256) ![1, 9, 128] S1x1x16.size inb_S2x16x256_S1x1x16_1_9_128)) (run0.sl.Hr1_w392 d L fx fr)
      (fun x => Gs (sSlot1.view.writes (Elt F) sSlot1.view.junk [⟨Rect.whole S16x256, run0.sl.dma0_1 d L fx⟩]) ((Rect.unit (s := S2x16x256) ![1, 9, 128] S1x1x16.size inb_S2x16x256_S1x1x16_1_9_128).emb x)) Finset.univ := by
  unfold run0.sl.Hr1_w393
  exact congrArg (fun w => View.write (Elt F) (sO.access (Rect.unit (s := S2x16x256) ![1, 9, 128] S1x1x16.size inb_S2x16x256_S1x1x16_1_9_128)) (run0.sl.Hr1_w392 d L fx fr) w Finset.univ)
    (funext fun x => (pieceA' _ _ _ _ _ _ _ (by decide) x).symm)

set_option maxHeartbeats 1000000 in
theorem step1_138 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w394 d L fx fr = View.write (Elt F) (sO.access (Rect.unit (s := S2x16x256) ![1, 10, 128] S1x1x16.size inb_S2x16x256_S1x1x16_1_10_128)) (run0.sl.Hr1_w393 d L fx fr)
      (fun x => Gs (sSlot1.view.writes (Elt F) sSlot1.view.junk [⟨Rect.whole S16x256, run0.sl.dma0_1 d L fx⟩]) ((Rect.unit (s := S2x16x256) ![1, 10, 128] S1x1x16.size inb_S2x16x256_S1x1x16_1_10_128).emb x)) Finset.univ := by
  unfold run0.sl.Hr1_w394
  exact congrArg (fun w => View.write (Elt F) (sO.access (Rect.unit (s := S2x16x256) ![1, 10, 128] S1x1x16.size inb_S2x16x256_S1x1x16_1_10_128)) (run0.sl.Hr1_w393 d L fx fr) w Finset.univ)
    (funext fun x => (pieceA' _ _ _ _ _ _ _ (by decide) x).symm)

set_option maxHeartbeats 1000000 in
theorem step1_139 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w395 d L fx fr = View.write (Elt F) (sO.access (Rect.unit (s := S2x16x256) ![1, 11, 128] S1x1x16.size inb_S2x16x256_S1x1x16_1_11_128)) (run0.sl.Hr1_w394 d L fx fr)
      (fun x => Gs (sSlot1.view.writes (Elt F) sSlot1.view.junk [⟨Rect.whole S16x256, run0.sl.dma0_1 d L fx⟩]) ((Rect.unit (s := S2x16x256) ![1, 11, 128] S1x1x16.size inb_S2x16x256_S1x1x16_1_11_128).emb x)) Finset.univ := by
  unfold run0.sl.Hr1_w395
  exact congrArg (fun w => View.write (Elt F) (sO.access (Rect.unit (s := S2x16x256) ![1, 11, 128] S1x1x16.size inb_S2x16x256_S1x1x16_1_11_128)) (run0.sl.Hr1_w394 d L fx fr) w Finset.univ)
    (funext fun x => (pieceA' _ _ _ _ _ _ _ (by decide) x).symm)

set_option maxHeartbeats 1000000 in
theorem step1_140 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w396 d L fx fr = View.write (Elt F) (sO.access (Rect.unit (s := S2x16x256) ![1, 12, 128] S1x1x16.size inb_S2x16x256_S1x1x16_1_12_128)) (run0.sl.Hr1_w395 d L fx fr)
      (fun x => Gs (sSlot1.view.writes (Elt F) sSlot1.view.junk [⟨Rect.whole S16x256, run0.sl.dma0_1 d L fx⟩]) ((Rect.unit (s := S2x16x256) ![1, 12, 128] S1x1x16.size inb_S2x16x256_S1x1x16_1_12_128).emb x)) Finset.univ := by
  unfold run0.sl.Hr1_w396
  exact congrArg (fun w => View.write (Elt F) (sO.access (Rect.unit (s := S2x16x256) ![1, 12, 128] S1x1x16.size inb_S2x16x256_S1x1x16_1_12_128)) (run0.sl.Hr1_w395 d L fx fr) w Finset.univ)
    (funext fun x => (pieceA' _ _ _ _ _ _ _ (by decide) x).symm)

set_option maxHeartbeats 1000000 in
theorem step1_141 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w397 d L fx fr = View.write (Elt F) (sO.access (Rect.unit (s := S2x16x256) ![1, 13, 128] S1x1x16.size inb_S2x16x256_S1x1x16_1_13_128)) (run0.sl.Hr1_w396 d L fx fr)
      (fun x => Gs (sSlot1.view.writes (Elt F) sSlot1.view.junk [⟨Rect.whole S16x256, run0.sl.dma0_1 d L fx⟩]) ((Rect.unit (s := S2x16x256) ![1, 13, 128] S1x1x16.size inb_S2x16x256_S1x1x16_1_13_128).emb x)) Finset.univ := by
  unfold run0.sl.Hr1_w397
  exact congrArg (fun w => View.write (Elt F) (sO.access (Rect.unit (s := S2x16x256) ![1, 13, 128] S1x1x16.size inb_S2x16x256_S1x1x16_1_13_128)) (run0.sl.Hr1_w396 d L fx fr) w Finset.univ)
    (funext fun x => (pieceA' _ _ _ _ _ _ _ (by decide) x).symm)

set_option maxHeartbeats 1000000 in
theorem step1_142 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w398 d L fx fr = View.write (Elt F) (sO.access (Rect.unit (s := S2x16x256) ![1, 14, 128] S1x1x16.size inb_S2x16x256_S1x1x16_1_14_128)) (run0.sl.Hr1_w397 d L fx fr)
      (fun x => Gs (sSlot1.view.writes (Elt F) sSlot1.view.junk [⟨Rect.whole S16x256, run0.sl.dma0_1 d L fx⟩]) ((Rect.unit (s := S2x16x256) ![1, 14, 128] S1x1x16.size inb_S2x16x256_S1x1x16_1_14_128).emb x)) Finset.univ := by
  unfold run0.sl.Hr1_w398
  exact congrArg (fun w => View.write (Elt F) (sO.access (Rect.unit (s := S2x16x256) ![1, 14, 128] S1x1x16.size inb_S2x16x256_S1x1x16_1_14_128)) (run0.sl.Hr1_w397 d L fx fr) w Finset.univ)
    (funext fun x => (pieceA' _ _ _ _ _ _ _ (by decide) x).symm)

set_option maxHeartbeats 1000000 in
theorem step1_143 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w399 d L fx fr = View.write (Elt F) (sO.access (Rect.unit (s := S2x16x256) ![1, 15, 128] S1x1x16.size inb_S2x16x256_S1x1x16_1_15_128)) (run0.sl.Hr1_w398 d L fx fr)
      (fun x => Gs (sSlot1.view.writes (Elt F) sSlot1.view.junk [⟨Rect.whole S16x256, run0.sl.dma0_1 d L fx⟩]) ((Rect.unit (s := S2x16x256) ![1, 15, 128] S1x1x16.size inb_S2x16x256_S1x1x16_1_15_128).emb x)) Finset.univ := by
  unfold run0.sl.Hr1_w399
  exact congrArg (fun w => View.write (Elt F) (sO.access (Rect.unit (s := S2x16x256) ![1, 15, 128] S1x1x16.size inb_S2x16x256_S1x1x16_1_15_128)) (run0.sl.Hr1_w398 d L fx fr) w Finset.univ)
    (funext fun x => (pieceA' _ _ _ _ _ _ _ (by decide) x).symm)

set_option maxHeartbeats 1000000 in
theorem step1_144 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w400 d L fx fr = View.write (Elt F) (sO.access (Rect.unit (s := S2x16x256) ![1, 0, 128] S1x1x16.size inb_S2x16x256_S1x1x16_1_0_128)) (run0.sl.Hr1_w399 d L fx fr)
      (fun x => Gs (sSlot1.view.writes (Elt F) sSlot1.view.junk [⟨Rect.whole S16x256, run0.sl.dma0_1 d L fx⟩]) ((Rect.unit (s := S2x16x256) ![1, 0, 128] S1x1x16.size inb_S2x16x256_S1x1x16_1_0_128).emb x)) Finset.univ := by
  unfold run0.sl.Hr1_w400
  unfold run0.sl.r_246 run0.sl.r_254 run0.sl.r_253 run0.sl.r_251 run0.sl.r_252 run0.sl.r_249 run0.sl.r_250 run0.sl.r_248
  exact congrArg (fun w => View.write (Elt F) (sO.access (Rect.unit (s := S2x16x256) ![1, 0, 128] S1x1x16.size inb_S2x16x256_S1x1x16_1_0_128)) (run0.sl.Hr1_w399 d L fx fr) w Finset.univ)
    (funext fun x => (pieceB' (sSlot1.view.writes (Elt F) sSlot1.view.junk [⟨Rect.whole S16x256, run0.sl.dma0_1 d L fx⟩]) 1 128 inb_S2x16x256_S1x1x16_1_0_128 inb_S2x16x256_S1x1x16_1_1_128 inb_S2x16x256_S1x1x16_1_2_128 inb_S2x16x256_S1x1x16_1_3_128 inb_S2x16x256_S1x1x16_1_4_128 inb_S2x16x256_S1x1x16_1_5_128 inb_S2x16x256_S1x1x16_1_6_128 inb_S2x16x256_S1x1x16_1_7_128 inb_S2x16x256_S1x1x16_1_8_128 inb_S2x16x256_S1x1x16_1_9_128 inb_S2x16x256_S1x1x16_1_10_128 inb_S2x16x256_S1x1x16_1_11_128 inb_S2x16x256_S1x1x16_1_12_128 inb_S2x16x256_S1x1x16_1_13_128 inb_S2x16x256_S1x1x16_1_14_128 inb_S2x16x256_S1x1x16_1_15_128 shapeCasts_S1x1x16_S16 shapeCasts_S16_S1x1x16 x).symm)

set_option maxHeartbeats 1000000 in
theorem step1_145 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w401 d L fx fr = View.write (Elt F) (sO.access (Rect.unit (s := S2x16x256) ![1, 1, 144] S1x1x16.size inb_S2x16x256_S1x1x16_1_1_144)) (run0.sl.Hr1_w400 d L fx fr)
      (fun x => Gs (sSlot1.view.writes (Elt F) sSlot1.view.junk [⟨Rect.whole S16x256, run0.sl.dma0_1 d L fx⟩]) ((Rect.unit (s := S2x16x256) ![1, 1, 144] S1x1x16.size inb_S2x16x256_S1x1x16_1_1_144).emb x)) Finset.univ := by
  unfold run0.sl.Hr1_w401
  exact congrArg (fun w => View.write (Elt F) (sO.access (Rect.unit (s := S2x16x256) ![1, 1, 144] S1x1x16.size inb_S2x16x256_S1x1x16_1_1_144)) (run0.sl.Hr1_w400 d L fx fr) w Finset.univ)
    (funext fun x => (pieceA' _ _ _ _ _ _ _ (by decide) x).symm)

set_option maxHeartbeats 1000000 in
theorem step1_146 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w402 d L fx fr = View.write (Elt F) (sO.access (Rect.unit (s := S2x16x256) ![1, 2, 144] S1x1x16.size inb_S2x16x256_S1x1x16_1_2_144)) (run0.sl.Hr1_w401 d L fx fr)
      (fun x => Gs (sSlot1.view.writes (Elt F) sSlot1.view.junk [⟨Rect.whole S16x256, run0.sl.dma0_1 d L fx⟩]) ((Rect.unit (s := S2x16x256) ![1, 2, 144] S1x1x16.size inb_S2x16x256_S1x1x16_1_2_144).emb x)) Finset.univ := by
  unfold run0.sl.Hr1_w402
  exact congrArg (fun w => View.write (Elt F) (sO.access (Rect.unit (s := S2x16x256) ![1, 2, 144] S1x1x16.size inb_S2x16x256_S1x1x16_1_2_144)) (run0.sl.Hr1_w401 d L fx fr) w Finset.univ)
    (funext fun x => (pieceA' _ _ _ _ _ _ _ (by decide) x).symm)

set_option maxHeartbeats 1000000 in
theorem step1_147 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w403 d L fx fr = View.write (Elt F) (sO.access (Rect.unit (s := S2x16x256) ![1, 3, 144] S1x1x16.size inb_S2x16x256_S1x1x16_1_3_144)) (run0.sl.Hr1_w402 d L fx fr)
      (fun x => Gs (sSlot1.view.writes (Elt F) sSlot1.view.junk [⟨Rect.whole S16x256, run0.sl.dma0_1 d L fx⟩]) ((Rect.unit (s := S2x16x256) ![1, 3, 144] S1x1x16.size inb_S2x16x256_S1x1x16_1_3_144).emb x)) Finset.univ := by
  unfold run0.sl.Hr1_w403
  unfold run0.sl.r_257
  exact congrArg (fun w => View.write (Elt F) (sO.access (Rect.unit (s := S2x16x256) ![1, 3, 144] S1x1x16.size inb_S2x16x256_S1x1x16_1_3_144)) (run0.sl.Hr1_w402 d L fx fr) w Finset.univ)
    (funext fun x => (pieceA' _ _ _ _ _ _ _ (by decide) x).symm)

set_option maxHeartbeats 1000000 in
theorem step1_148 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w404 d L fx fr = View.write (Elt F) (sO.access (Rect.unit (s := S2x16x256) ![1, 4, 144] S1x1x16.size inb_S2x16x256_S1x1x16_1_4_144)) (run0.sl.Hr1_w403 d L fx fr)
      (fun x => Gs (sSlot1.view.writes (Elt F) sSlot1.view.junk [⟨Rect.whole S16x256, run0.sl.dma0_1 d L fx⟩]) ((Rect.unit (s := S2x16x256) ![1, 4, 144] S1x1x16.size inb_S2x16x256_S1x1x16_1_4_144).emb x)) Finset.univ := by
  unfold run0.sl.Hr1_w404
  exact congrArg (fun w => View.write (Elt F) (sO.access (Rect.unit (s := S2x16x256) ![1, 4, 144] S1x1x16.size inb_S2x16x256_S1x1x16_1_4_144)) (run0.sl.Hr1_w403 d L fx fr) w Finset.univ)
    (funext fun x => (pieceA' _ _ _ _ _ _ _ (by decide) x).symm)

set_option maxHeartbeats 1000000 in
theorem step1_149 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w405 d L fx fr = View.write (Elt F) (sO.access (Rect.unit (s := S2x16x256) ![1, 5, 144] S1x1x16.size inb_S2x16x256_S1x1x16_1_5_144)) (run0.sl.Hr1_w404 d L fx fr)
      (fun x => Gs (sSlot1.view.writes (Elt F) sSlot1.view.junk [⟨Rect.whole S16x256, run0.sl.dma0_1 d L fx⟩]) ((Rect.unit (s := S2x16x256) ![1, 5, 144] S1x1x16.size inb_S2x16x256_S1x1x16_1_5_144).emb x)) Finset.univ := by
  unfold run0.sl.Hr1_w405
  exact congrArg (fun w => View.write (Elt F) (sO.access (Rect.unit (s := S2x16x256) ![1, 5, 144] S1x1x16.size inb_S2x16x256_S1x1x16_1_5_144)) (run0.sl.Hr1_w404 d L fx fr) w Finset.univ)
    (funext fun x => (pieceA' _ _ _ _ _ _ _ (by decide) x).symm)

set_option maxHeartbeats 1000000 in
theorem step1_150 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w406 d L fx fr = View.write (Elt F) (sO.access (Rect.unit (s := S2x16x256) ![1, 6, 144] S1x1x16.size inb_S2x16x256_S1x1x16_1_6_144)) (run0.sl.Hr1_w405 d L fx fr)
      (fun x => Gs (sSlot1.view.writes (Elt F) sSlot1.view.junk [⟨Rect.whole S16x256, run0.sl.dma0_1 d L fx⟩]) ((Rect.unit (s := S2x16x256) ![1, 6, 144] S1x1x16.size inb_S2x16x256_S1x1x16_1_6_144).emb x)) Finset.univ := by
  unfold run0.sl.Hr1_w406
  unfold run0.sl.r_259
  exact congrArg (fun w => View.write (Elt F) (sO.access (Rect.unit (s := S2x16x256) ![1, 6, 144] S1x1x16.size inb_S2x16x256_S1x1x16_1_6_144)) (run0.sl.Hr1_w405 d L fx fr) w Finset.univ)
    (funext fun x => (pieceA' _ _ _ _ _ _ _ (by decide) x).symm)

set_option maxHeartbeats 1000000 in
theorem step1_151 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w407 d L fx fr = View.write (Elt F) (sO.access (Rect.unit (s := S2x16x256) ![1, 7, 144] S1x1x16.size inb_S2x16x256_S1x1x16_1_7_144)) (run0.sl.Hr1_w406 d L fx fr)
      (fun x => Gs (sSlot1.view.writes (Elt F) sSlot1.view.junk [⟨Rect.whole S16x256, run0.sl.dma0_1 d L fx⟩]) ((Rect.unit (s := S2x16x256) ![1, 7, 144] S1x1x16.size inb_S2x16x256_S1x1x16_1_7_144).emb x)) Finset.univ := by
  unfold run0.sl.Hr1_w407
  exact congrArg (fun w => View.write (Elt F) (sO.access (Rect.unit (s := S2x16x256) ![1, 7, 144] S1x1x16.size inb_S2x16x256_S1x1x16_1_7_144)) (run0.sl.Hr1_w406 d L fx fr) w Finset.univ)
    (funext fun x => (pieceA' _ _ _ _ _ _ _ (by decide) x).symm)

set_option maxHeartbeats 1000000 in
theorem step1_152 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w408 d L fx fr = View.write (Elt F) (sO.access (Rect.unit (s := S2x16x256) ![1, 8, 144] S1x1x16.size inb_S2x16x256_S1x1x16_1_8_144)) (run0.sl.Hr1_w407 d L fx fr)
      (fun x => Gs (sSlot1.view.writes (Elt F) sSlot1.view.junk [⟨Rect.whole S16x256, run0.sl.dma0_1 d L fx⟩]) ((Rect.unit (s := S2x16x256) ![1, 8, 144] S1x1x16.size inb_S2x16x256_S1x1x16_1_8_144).emb x)) Finset.univ := by
  unfold run0.sl.Hr1_w408
  exact congrArg (fun w => View.write (Elt F) (sO.access (Rect.unit (s := S2x16x256) ![1, 8, 144] S1x1x16.size inb_S2x16x256_S1x1x16_1_8_144)) (run0.sl.Hr1_w407 d L fx fr) w Finset.univ)
    (funext fun x => (pieceA' _ _ _ _ _ _ _ (by decide) x).symm)

set_option maxHeartbeats 1000000 in
theorem step1_153 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w409 d L fx fr = View.write (Elt F) (sO.access (Rect.unit (s := S2x16x256) ![1, 9, 144] S1x1x16.size inb_S2x16x256_S1x1x16_1_9_144)) (run0.sl.Hr1_w408 d L fx fr)
      (fun x => Gs (sSlot1.view.writes (Elt F) sSlot1.view.junk [⟨Rect.whole S16x256, run0.sl.dma0_1 d L fx⟩]) ((Rect.unit (s := S2x16x256) ![1, 9, 144] S1x1x16.size inb_S2x16x256_S1x1x16_1_9_144).emb x)) Finset.univ := by
  unfold run0.sl.Hr1_w409
  unfold run0.sl.r_262
  exact congrArg (fun w => View.write (Elt F) (sO.access (Rect.unit (s := S2x16x256) ![1, 9, 144] S1x1x16.size inb_S2x16x256_S1x1x16_1_9_144)) (run0.sl.Hr1_w408 d L fx fr) w Finset.univ)
    (funext fun x => (pieceA' _ _ _ _ _ _ _ (by decide) x).symm)

set_option maxHeartbeats 1000000 in
theorem step1_154 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w410 d L fx fr = View.write (Elt F) (sO.access (Rect.unit (s := S2x16x256) ![1, 10, 144] S1x1x16.size inb_S2x16x256_S1x1x16_1_10_144)) (run0.sl.Hr1_w409 d L fx fr)
      (fun x => Gs (sSlot1.view.writes (Elt F) sSlot1.view.junk [⟨Rect.whole S16x256, run0.sl.dma0_1 d L fx⟩]) ((Rect.unit (s := S2x16x256) ![1, 10, 144] S1x1x16.size inb_S2x16x256_S1x1x16_1_10_144).emb x)) Finset.univ := by
  unfold run0.sl.Hr1_w410
  exact congrArg (fun w => View.write (Elt F) (sO.access (Rect.unit (s := S2x16x256) ![1, 10, 144] S1x1x16.size inb_S2x16x256_S1x1x16_1_10_144)) (run0.sl.Hr1_w409 d L fx fr) w Finset.univ)
    (funext fun x => (pieceA' _ _ _ _ _ _ _ (by decide) x).symm)

set_option maxHeartbeats 1000000 in
theorem step1_155 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w411 d L fx fr = View.write (Elt F) (sO.access (Rect.unit (s := S2x16x256) ![1, 11, 144] S1x1x16.size inb_S2x16x256_S1x1x16_1_11_144)) (run0.sl.Hr1_w410 d L fx fr)
      (fun x => Gs (sSlot1.view.writes (Elt F) sSlot1.view.junk [⟨Rect.whole S16x256, run0.sl.dma0_1 d L fx⟩]) ((Rect.unit (s := S2x16x256) ![1, 11, 144] S1x1x16.size inb_S2x16x256_S1x1x16_1_11_144).emb x)) Finset.univ := by
  unfold run0.sl.Hr1_w411
  exact congrArg (fun w => View.write (Elt F) (sO.access (Rect.unit (s := S2x16x256) ![1, 11, 144] S1x1x16.size inb_S2x16x256_S1x1x16_1_11_144)) (run0.sl.Hr1_w410 d L fx fr) w Finset.univ)
    (funext fun x => (pieceA' _ _ _ _ _ _ _ (by decide) x).symm)

set_option maxHeartbeats 1000000 in
theorem step1_156 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w412 d L fx fr = View.write (Elt F) (sO.access (Rect.unit (s := S2x16x256) ![1, 12, 144] S1x1x16.size inb_S2x16x256_S1x1x16_1_12_144)) (run0.sl.Hr1_w411 d L fx fr)
      (fun x => Gs (sSlot1.view.writes (Elt F) sSlot1.view.junk [⟨Rect.whole S16x256, run0.sl.dma0_1 d L fx⟩]) ((Rect.unit (s := S2x16x256) ![1, 12, 144] S1x1x16.size inb_S2x16x256_S1x1x16_1_12_144).emb x)) Finset.univ := by
  unfold run0.sl.Hr1_w412
  unfold run0.sl.r_264
  exact congrArg (fun w => View.write (Elt F) (sO.access (Rect.unit (s := S2x16x256) ![1, 12, 144] S1x1x16.size inb_S2x16x256_S1x1x16_1_12_144)) (run0.sl.Hr1_w411 d L fx fr) w Finset.univ)
    (funext fun x => (pieceA' _ _ _ _ _ _ _ (by decide) x).symm)

set_option maxHeartbeats 1000000 in
theorem step1_157 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w413 d L fx fr = View.write (Elt F) (sO.access (Rect.unit (s := S2x16x256) ![1, 13, 144] S1x1x16.size inb_S2x16x256_S1x1x16_1_13_144)) (run0.sl.Hr1_w412 d L fx fr)
      (fun x => Gs (sSlot1.view.writes (Elt F) sSlot1.view.junk [⟨Rect.whole S16x256, run0.sl.dma0_1 d L fx⟩]) ((Rect.unit (s := S2x16x256) ![1, 13, 144] S1x1x16.size inb_S2x16x256_S1x1x16_1_13_144).emb x)) Finset.univ := by
  unfold run0.sl.Hr1_w413
  exact congrArg (fun w => View.write (Elt F) (sO.access (Rect.unit (s := S2x16x256) ![1, 13, 144] S1x1x16.size inb_S2x16x256_S1x1x16_1_13_144)) (run0.sl.Hr1_w412 d L fx fr) w Finset.univ)
    (funext fun x => (pieceA' _ _ _ _ _ _ _ (by decide) x).symm)

set_option maxHeartbeats 1000000 in
theorem step1_158 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w414 d L fx fr = View.write (Elt F) (sO.access (Rect.unit (s := S2x16x256) ![1, 14, 144] S1x1x16.size inb_S2x16x256_S1x1x16_1_14_144)) (run0.sl.Hr1_w413 d L fx fr)
      (fun x => Gs (sSlot1.view.writes (Elt F) sSlot1.view.junk [⟨Rect.whole S16x256, run0.sl.dma0_1 d L fx⟩]) ((Rect.unit (s := S2x16x256) ![1, 14, 144] S1x1x16.size inb_S2x16x256_S1x1x16_1_14_144).emb x)) Finset.univ := by
  unfold run0.sl.Hr1_w414
  exact congrArg (fun w => View.write (Elt F) (sO.access (Rect.unit (s := S2x16x256) ![1, 14, 144] S1x1x16.size inb_S2x16x256_S1x1x16_1_14_144)) (run0.sl.Hr1_w413 d L fx fr) w Finset.univ)
    (funext fun x => (pieceA' _ _ _ _ _ _ _ (by decide) x).symm)

set_option maxHeartbeats 1000000 in
theorem step1_159 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w415 d L fx fr = View.write (Elt F) (sO.access (Rect.unit (s := S2x16x256) ![1, 15, 144] S1x1x16.size inb_S2x16x256_S1x1x16_1_15_144)) (run0.sl.Hr1_w414 d L fx fr)
      (fun x => Gs (sSlot1.view.writes (Elt F) sSlot1.view.junk [⟨Rect.whole S16x256, run0.sl.dma0_1 d L fx⟩]) ((Rect.unit (s := S2x16x256) ![1, 15, 144] S1x1x16.size inb_S2x16x256_S1x1x16_1_15_144).emb x)) Finset.univ := by
  unfold run0.sl.Hr1_w415
  exact congrArg (fun w => View.write (Elt F) (sO.access (Rect.unit (s := S2x16x256) ![1, 15, 144] S1x1x16.size inb_S2x16x256_S1x1x16_1_15_144)) (run0.sl.Hr1_w414 d L fx fr) w Finset.univ)
    (funext fun x => (pieceA' _ _ _ _ _ _ _ (by decide) x).symm)

set_option maxHeartbeats 1000000 in
theorem step1_160 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w416 d L fx fr = View.write (Elt F) (sO.access (Rect.unit (s := S2x16x256) ![1, 0, 144] S1x1x16.size inb_S2x16x256_S1x1x16_1_0_144)) (run0.sl.Hr1_w415 d L fx fr)
      (fun x => Gs (sSlot1.view.writes (Elt F) sSlot1.view.junk [⟨Rect.whole S16x256, run0.sl.dma0_1 d L fx⟩]) ((Rect.unit (s := S2x16x256) ![1, 0, 144] S1x1x16.size inb_S2x16x256_S1x1x16_1_0_144).emb x)) Finset.univ := by
  unfold run0.sl.Hr1_w416
  unfold run0.sl.r_256 run0.sl.r_265 run0.sl.r_255 run0.sl.r_263 run0.sl.r_264 run0.sl.r_261 run0.sl.r_262 run0.sl.r_260 run0.sl.r_258 run0.sl.cst_306
  exact congrArg (fun w => View.write (Elt F) (sO.access (Rect.unit (s := S2x16x256) ![1, 0, 144] S1x1x16.size inb_S2x16x256_S1x1x16_1_0_144)) (run0.sl.Hr1_w415 d L fx fr) w Finset.univ)
    (funext fun x => (pieceB' (sSlot1.view.writes (Elt F) sSlot1.view.junk [⟨Rect.whole S16x256, run0.sl.dma0_1 d L fx⟩]) 1 144 inb_S2x16x256_S1x1x16_1_0_144 inb_S2x16x256_S1x1x16_1_1_144 inb_S2x16x256_S1x1x16_1_2_144 inb_S2x16x256_S1x1x16_1_3_144 inb_S2x16x256_S1x1x16_1_4_144 inb_S2x16x256_S1x1x16_1_5_144 inb_S2x16x256_S1x1x16_1_6_144 inb_S2x16x256_S1x1x16_1_7_144 inb_S2x16x256_S1x1x16_1_8_144 inb_S2x16x256_S1x1x16_1_9_144 inb_S2x16x256_S1x1x16_1_10_144 inb_S2x16x256_S1x1x16_1_11_144 inb_S2x16x256_S1x1x16_1_12_144 inb_S2x16x256_S1x1x16_1_13_144 inb_S2x16x256_S1x1x16_1_14_144 inb_S2x16x256_S1x1x16_1_15_144 shapeCasts_S1x1x16_S16 shapeCasts_S16_S1x1x16 x).symm)

set_option maxHeartbeats 1000000 in
theorem step1_161 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w417 d L fx fr = View.write (Elt F) (sO.access (Rect.unit (s := S2x16x256) ![1, 1, 160] S1x1x16.size inb_S2x16x256_S1x1x16_1_1_160)) (run0.sl.Hr1_w416 d L fx fr)
      (fun x => Gs (sSlot1.view.writes (Elt F) sSlot1.view.junk [⟨Rect.whole S16x256, run0.sl.dma0_1 d L fx⟩]) ((Rect.unit (s := S2x16x256) ![1, 1, 160] S1x1x16.size inb_S2x16x256_S1x1x16_1_1_160).emb x)) Finset.univ := by
  unfold run0.sl.Hr1_w417
  unfold run0.sl.r_268
  exact congrArg (fun w => View.write (Elt F) (sO.access (Rect.unit (s := S2x16x256) ![1, 1, 160] S1x1x16.size inb_S2x16x256_S1x1x16_1_1_160)) (run0.sl.Hr1_w416 d L fx fr) w Finset.univ)
    (funext fun x => (pieceA' _ _ _ _ _ _ _ (by decide) x).symm)

set_option maxHeartbeats 1000000 in
theorem step1_162 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w418 d L fx fr = View.write (Elt F) (sO.access (Rect.unit (s := S2x16x256) ![1, 2, 160] S1x1x16.size inb_S2x16x256_S1x1x16_1_2_160)) (run0.sl.Hr1_w417 d L fx fr)
      (fun x => Gs (sSlot1.view.writes (Elt F) sSlot1.view.junk [⟨Rect.whole S16x256, run0.sl.dma0_1 d L fx⟩]) ((Rect.unit (s := S2x16x256) ![1, 2, 160] S1x1x16.size inb_S2x16x256_S1x1x16_1_2_160).emb x)) Finset.univ := by
  unfold run0.sl.Hr1_w418
  exact congrArg (fun w => View.write (Elt F) (sO.access (Rect.unit (s := S2x16x256) ![1, 2, 160] S1x1x16.size inb_S2x16x256_S1x1x16_1_2_160)) (run0.sl.Hr1_w417 d L fx fr) w Finset.univ)
    (funext fun x => (pieceA' _ _ _ _ _ _ _ (by decide) x).symm)

set_option maxHeartbeats 1000000 in
theorem step1_163 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w419 d L fx fr = View.write (Elt F) (sO.access (Rect.unit (s := S2x16x256) ![1, 3, 160] S1x1x16.size inb_S2x16x256_S1x1x16_1_3_160)) (run0.sl.Hr1_w418 d L fx fr)
      (fun x => Gs (sSlot1.view.writes (Elt F) sSlot1.view.junk [⟨Rect.whole S16x256, run0.sl.dma0_1 d L fx⟩]) ((Rect.unit (s := S2x16x256) ![1, 3, 160] S1x1x16.size inb_S2x16x256_S1x1x16_1_3_160).emb x)) Finset.univ := by
  unfold run0.sl.Hr1_w419
  exact congrArg (fun w => View.write (Elt F) (sO.access (Rect.unit (s := S2x16x256) ![1, 3, 160] S1x1x16.size inb_S2x16x256_S1x1x16_1_3_160)) (run0.sl.Hr1_w418 d L fx fr) w Finset.univ)
    (funext fun x => (pieceA' _ _ _ _ _ _ _ (by decide) x).symm)

set_option maxHeartbeats 1000000 in
theorem step1_164 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w420 d L fx fr = View.write (Elt F) (sO.access (Rect.unit (s := S2x16x256) ![1, 4, 160] S1x1x16.size inb_S2x16x256_S1x1x16_1_4_160)) (run0.sl.Hr1_w419 d L fx fr)
      (fun x => Gs (sSlot1.view.writes (Elt F) sSlot1.view.junk [⟨Rect.whole S16x256, run0.sl.dma0_1 d L fx⟩]) ((Rect.unit (s := S2x16x256) ![1, 4, 160] S1x1x16.size inb_S2x16x256_S1x1x16_1_4_160).emb x)) Finset.univ := by
  unfold run0.sl.Hr1_w420
  unfold run0.sl.r_269
  exact congrArg (fun w => View.write (Elt F) (sO.access (Rect.unit (s := S2x16x256) ![1, 4, 160] S1x1x16.size inb_S2x16x256_S1x1x16_1_4_160)) (run0.sl.Hr1_w419 d L fx fr) w Finset.univ)
    (funext fun x => (pieceA' _ _ _ _ _ _ _ (by decide) x).symm)

set_option maxHeartbeats 1000000 in
theorem step1_165 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w421 d L fx fr = View.write (Elt F) (sO.access (Rect.unit (s := S2x16x256) ![1, 5, 160] S1x1x16.size inb_S2x16x256_S1x1x16_1_5_160)) (run0.sl.Hr1_w420 d L fx fr)
      (fun x => Gs (sSlot1.view.writes (Elt F) sSlot1.view.junk [⟨Rect.whole S16x256, run0.sl.dma0_1 d L fx⟩]) ((Rect.unit (s := S2x16x256) ![1, 5, 160] S1x1x16.size inb_S2x16x256_S1x1x16_1_5_160).emb x)) Finset.univ := by
  unfold run0.sl.Hr1_w421
  exact congrArg (fun w => View.write (Elt F) (sO.access (Rect.unit (s := S2x16x256) ![1, 5, 160] S1x1x16.size inb_S2x16x256_S1x1x16_1_5_160)) (run0.sl.Hr1_w420 d L fx fr) w Finset.univ)
    (funext fun x => (pieceA' _ _ _ _ _ _ _ (by decide) x).symm)

set_option maxHeartbeats 1000000 in
theorem step1_166 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w422 d L fx fr = View.write (Elt F) (sO.access (Rect.unit (s := S2x16x256) ![1, 6, 160] S1x1x16.size inb_S2x16x256_S1x1x16_1_6_160)) (run0.sl.Hr1_w421 d L fx fr)
      (fun x => Gs (sSlot1.view.writes (Elt F) sSlot1.view.junk [⟨Rect.whole S16x256, run0.sl.dma0_1 d L fx⟩]) ((Rect.unit (s := S2x16x256) ![1, 6, 160] S1x1x16.size inb_S2x16x256_S1x1x16_1_6_160).emb x)) Finset.univ := by
  unfold run0.sl.Hr1_w422
  exact congrArg (fun w => View.write (Elt F) (sO.access (Rect.unit (s := S2x16x256) ![1, 6, 160] S1x1x16.size inb_S2x16x256_S1x1x16_1_6_160)) (run0.sl.Hr1_w421 d L fx fr) w Finset.univ)
    (funext fun x => (pieceA' _ _ _ _ _ _ _ (by decide) x).symm)

set_option maxHeartbeats 1000000 in
theorem step1_167 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w423 d L fx fr = View.write (Elt F) (sO.access (Rect.unit (s := S2x16x256) ![1, 7, 160] S1x1x16.size inb_S2x16x256_S1x1x16_1_7_160)) (run0.sl.Hr1_w422 d L fx fr)
      (fun x => Gs (sSlot1.view.writes (Elt F) sSlot1.view.junk [⟨Rect.whole S16x256, run0.sl.dma0_1 d L fx⟩]) ((Rect.unit (s := S2x16x256) ![1, 7, 160] S1x1x16.size inb_S2x16x256_S1x1x16_1_7_160).emb x)) Finset.univ := by
  unfold run0.sl.Hr1_w423
  unfold run0.sl.r_271
  exact congrArg (fun w => View.write (Elt F) (sO.access (Rect.unit (s := S2x16x256) ![1, 7, 160] S1x1x16.size inb_S2x16x256_S1x1x16_1_7_160)) (run0.sl.Hr1_w422 d L fx fr) w Finset.univ)
    (funext fun x => (pieceA' _ _ _ _ _ _ _ (by decide) x).symm)

set_option maxHeartbeats 1000000 in
theorem step1_168 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w424 d L fx fr = View.write (Elt F) (sO.access (Rect.unit (s := S2x16x256) ![1, 8, 160] S1x1x16.size inb_S2x16x256_S1x1x16_1_8_160)) (run0.sl.Hr1_w423 d L fx fr)
      (fun x => Gs (sSlot1.view.writes (Elt F) sSlot1.view.junk [⟨Rect.whole S16x256, run0.sl.dma0_1 d L fx⟩]) ((Rect.unit (s := S2x16x256) ![1, 8, 160] S1x1x16.size inb_S2x16x256_S1x1x16_1_8_160).emb x)) Finset.univ := by
  unfold run0.sl.Hr1_w424
  exact congrArg (fun w => View.write (Elt F) (sO.access (Rect.unit (s := S2x16x256) ![1, 8, 160] S1x1x16.size inb_S2x16x256_S1x1x16_1_8_160)) (run0.sl.Hr1_w423 d L fx fr) w Finset.univ)
    (funext fun x => (pieceA' _ _ _ _ _ _ _ (by decide) x).symm)

set_option maxHeartbeats 1000000 in
theorem step1_169 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w425 d L fx fr = View.write (Elt F) (sO.access (Rect.unit (s := S2x16x256) ![1, 9, 160] S1x1x16.size inb_S2x16x256_S1x1x16_1_9_160)) (run0.sl.Hr1_w424 d L fx fr)
      (fun x => Gs (sSlot1.view.writes (Elt F) sSlot1.view.junk [⟨Rect.whole S16x256, run0.sl.dma0_1 d L fx⟩]) ((Rect.unit (s := S2x16x256) ![1, 9, 160] S1x1x16.size inb_S2x16x256_S1x1x16_1_9_160).emb x)) Finset.univ := by
  unfold run0.sl.Hr1_w425
  exact congrArg (fun w => View.write (Elt F) (sO.access (Rect.unit (s := S2x16x256) ![1, 9, 160] S1x1x16.size inb_S2x16x256_S1x1x16_1_9_160)) (run0.sl.Hr1_w424 d L fx fr) w Finset.univ)
    (funext fun x => (pieceA' _ _ _ _ _ _ _ (by decide) x).symm)

set_option maxHeartbeats 1000000 in
theorem step1_170 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w426 d L fx fr = View.write (Elt F) (sO.access (Rect.unit (s := S2x16x256) ![1, 10, 160] S1x1x16.size inb_S2x16x256_S1x1x16_1_10_160)) (run0.sl.Hr1_w425 d L fx fr)
      (fun x => Gs (sSlot1.view.writes (Elt F) sSlot1.view.junk [⟨Rect.whole S16x256, run0.sl.dma0_1 d L fx⟩]) ((Rect.unit (s := S2x16x256) ![1, 10, 160] S1x1x16.size inb_S2x16x256_S1x1x16_1_10_160).emb x)) Finset.univ := by
  unfold run0.sl.Hr1_w426
  unfold run0.sl.r_274
  exact congrArg (fun w => View.write (Elt F) (sO.access (Rect.unit (s := S2x16x256) ![1, 10, 160] S1x1x16.size inb_S2x16x256_S1x1x16_1_10_160)) (run0.sl.Hr1_w425 d L fx fr) w Finset.univ)
    (funext fun x => (pieceA' _ _ _ _ _ _ _ (by decide) x).symm)

set_option maxHeartbeats 1000000 in
theorem step1_171 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w427 d L fx fr = View.write (Elt F) (sO.access (Rect.unit (s := S2x16x256) ![1, 11, 160] S1x1x16.size inb_S2x16x256_S1x1x16_1_11_160)) (run0.sl.Hr1_w426 d L fx fr)
      (fun x => Gs (sSlot1.view.writes (Elt F) sSlot1.view.junk [⟨Rect.whole S16x256, run0.sl.dma0_1 d L fx⟩]) ((Rect.unit (s := S2x16x256) ![1, 11, 160] S1x1x16.size inb_S2x16x256_S1x1x16_1_11_160).emb x)) Finset.univ := by
  unfold run0.sl.Hr1_w427
  exact congrArg (fun w => View.write (Elt F) (sO.access (Rect.unit (s := S2x16x256) ![1, 11, 160] S1x1x16.size inb_S2x16x256_S1x1x16_1_11_160)) (run0.sl.Hr1_w426 d L fx fr) w Finset.univ)
    (funext fun x => (pieceA' _ _ _ _ _ _ _ (by decide) x).symm)

set_option maxHeartbeats 1000000 in
theorem step1_172 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w428 d L fx fr = View.write (Elt F) (sO.access (Rect.unit (s := S2x16x256) ![1, 12, 160] S1x1x16.size inb_S2x16x256_S1x1x16_1_12_160)) (run0.sl.Hr1_w427 d L fx fr)
      (fun x => Gs (sSlot1.view.writes (Elt F) sSlot1.view.junk [⟨Rect.whole S16x256, run0.sl.dma0_1 d L fx⟩]) ((Rect.unit (s := S2x16x256) ![1, 12, 160] S1x1x16.size inb_S2x16x256_S1x1x16_1_12_160).emb x)) Finset.univ := by
  unfold run0.sl.Hr1_w428
  exact congrArg (fun w => View.write (Elt F) (sO.access (Rect.unit (s := S2x16x256) ![1, 12, 160] S1x1x16.size inb_S2x16x256_S1x1x16_1_12_160)) (run0.sl.Hr1_w427 d L fx fr) w Finset.univ)
    (funext fun x => (pieceA' _ _ _ _ _ _ _ (by decide) x).symm)

set_option maxHeartbeats 1000000 in
theorem step1_173 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w429 d L fx fr = View.write (Elt F) (sO.access (Rect.unit (s := S2x16x256) ![1, 13, 160] S1x1x16.size inb_S2x16x256_S1x1x16_1_13_160)) (run0.sl.Hr1_w428 d L fx fr)
      (fun x => Gs (sSlot1.view.writes (Elt F) sSlot1.view.junk [⟨Rect.whole S16x256, run0.sl.dma0_1 d L fx⟩]) ((Rect.unit (s := S2x16x256) ![1, 13, 160] S1x1x16.size inb_S2x16x256_S1x1x16_1_13_160).emb x)) Finset.univ := by
  unfold run0.sl.Hr1_w429
  unfold run0.sl.r_276 run0.sl.cst_306
  exact congrArg (fun w => View.write (Elt F) (sO.access (Rect.unit (s := S2x16x256) ![1, 13, 160] S1x1x16.size inb_S2x16x256_S1x1x16_1_13_160)) (run0.sl.Hr1_w428 d L fx fr) w Finset.univ)
    (funext fun x => (pieceA' _ _ _ _ _ _ _ (by decide) x).symm)

set_option maxHeartbeats 1000000 in
theorem step1_174 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w430 d L fx fr = View.write (Elt F) (sO.access (Rect.unit (s := S2x16x256) ![1, 14, 160] S1x1x16.size inb_S2x16x256_S1x1x16_1_14_160)) (run0.sl.Hr1_w429 d L fx fr)
      (fun x => Gs (sSlot1.view.writes (Elt F) sSlot1.view.junk [⟨Rect.whole S16x256, run0.sl.dma0_1 d L fx⟩]) ((Rect.unit (s := S2x16x256) ![1, 14, 160] S1x1x16.size inb_S2x16x256_S1x1x16_1_14_160).emb x)) Finset.univ := by
  unfold run0.sl.Hr1_w430
  exact congrArg (fun w => View.write (Elt F) (sO.access (Rect.unit (s := S2x16x256) ![1, 14, 160] S1x1x16.size inb_S2x16x256_S1x1x16_1_14_160)) (run0.sl.Hr1_w429 d L fx fr) w Finset.univ)
    (funext fun x => (pieceA' _ _ _ _ _ _ _ (by decide) x).symm)

set_option maxHeartbeats 1000000 in
theorem step1_175 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w431 d L fx fr = View.write (Elt F) (sO.access (Rect.unit (s := S2x16x256) ![1, 15, 160] S1x1x16.size inb_S2x16x256_S1x1x16_1_15_160)) (run0.sl.Hr1_w430 d L fx fr)
      (fun x => Gs (sSlot1.view.writes (Elt F) sSlot1.view.junk [⟨Rect.whole S16x256, run0.sl.dma0_1 d L fx⟩]) ((Rect.unit (s := S2x16x256) ![1, 15, 160] S1x1x16.size inb_S2x16x256_S1x1x16_1_15_160).emb x)) Finset.univ := by
  unfold run0.sl.Hr1_w431
  exact congrArg (fun w => View.write (Elt F) (sO.access (Rect.unit (s := S2x16x256) ![1, 15, 160] S1x1x16.size inb_S2x16x256_S1x1x16_1_15_160)) (run0.sl.Hr1_w430 d L fx fr) w Finset.univ)
    (funext fun x => (pieceA' _ _ _ _ _ _ _ (by decide) x).symm)

set_option maxHeartbeats 1000000 in
theorem step1_176 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w432 d L fx fr = View.write (Elt F) (sO.access (Rect.unit (s := S2x16x256) ![1, 0, 160] S1x1x16.size inb_S2x16x256_S1x1x16_1_0_160)) (run0.sl.Hr1_w431 d L fx fr)
      (fun x => Gs (sSlot1.view.writes (Elt F) sSlot1.view.junk [⟨Rect.whole S16x256, run0.sl.dma0_1 d L fx⟩]) ((Rect.unit (s := S2x16x256) ![1, 0, 160] S1x1x16.size inb_S2x16x256_S1x1x16_1_0_160).emb x)) Finset.univ := by
  unfold run0.sl.Hr1_w432
  unfold run0.sl.r_277 run0.sl.r_266 run0.sl.r_275 run0.sl.r_276 run0.sl.r_273 run0.sl.r_274 run0.sl.r_272 run0.sl.r_270 run0.sl.r_267 run0.sl.cst_306
  exact congrArg (fun w => View.write (Elt F) (sO.access (Rect.unit (s := S2x16x256) ![1, 0, 160] S1x1x16.size inb_S2x16x256_S1x1x16_1_0_160)) (run0.sl.Hr1_w431 d L fx fr) w Finset.univ)
    (funext fun x => (pieceB' (sSlot1.view.writes (Elt F) sSlot1.view.junk [⟨Rect.whole S16x256, run0.sl.dma0_1 d L fx⟩]) 1 160 inb_S2x16x256_S1x1x16_1_0_160 inb_S2x16x256_S1x1x16_1_1_160 inb_S2x16x256_S1x1x16_1_2_160 inb_S2x16x256_S1x1x16_1_3_160 inb_S2x16x256_S1x1x16_1_4_160 inb_S2x16x256_S1x1x16_1_5_160 inb_S2x16x256_S1x1x16_1_6_160 inb_S2x16x256_S1x1x16_1_7_160 inb_S2x16x256_S1x1x16_1_8_160 inb_S2x16x256_S1x1x16_1_9_160 inb_S2x16x256_S1x1x16_1_10_160 inb_S2x16x256_S1x1x16_1_11_160 inb_S2x16x256_S1x1x16_1_12_160 inb_S2x16x256_S1x1x16_1_13_160 inb_S2x16x256_S1x1x16_1_14_160 inb_S2x16x256_S1x1x16_1_15_160 shapeCasts_S1x1x16_S16 shapeCasts_S16_S1x1x16 x).symm)

set_option maxHeartbeats 1000000 in
theorem step1_177 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w433 d L fx fr = View.write (Elt F) (sO.access (Rect.unit (s := S2x16x256) ![1, 1, 176] S1x1x16.size inb_S2x16x256_S1x1x16_1_1_176)) (run0.sl.Hr1_w432 d L fx fr)
      (fun x => Gs (sSlot1.view.writes (Elt F) sSlot1.view.junk [⟨Rect.whole S16x256, run0.sl.dma0_1 d L fx⟩]) ((Rect.unit (s := S2x16x256) ![1, 1, 176] S1x1x16.size inb_S2x16x256_S1x1x16_1_1_176).emb x)) Finset.univ := by
  unfold run0.sl.Hr1_w433
  exact congrArg (fun w => View.write (Elt F) (sO.access (Rect.unit (s := S2x16x256) ![1, 1, 176] S1x1x16.size inb_S2x16x256_S1x1x16_1_1_176)) (run0.sl.Hr1_w432 d L fx fr) w Finset.univ)
    (funext fun x => (pieceA' _ _ _ _ _ _ _ (by decide) x).symm)

set_option maxHeartbeats 1000000 in
theorem step1_178 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w434 d L fx fr = View.write (Elt F) (sO.access (Rect.unit (s := S2x16x256) ![1, 2, 176] S1x1x16.size inb_S2x16x256_S1x1x16_1_2_176)) (run0.sl.Hr1_w433 d L fx fr)
      (fun x => Gs (sSlot1.view.writes (Elt F) sSlot1.view.junk [⟨Rect.whole S16x256, run0.sl.dma0_1 d L fx⟩]) ((Rect.unit (s := S2x16x256) ![1, 2, 176] S1x1x16.size inb_S2x16x256_S1x1x16_1_2_176).emb x)) Finset.univ := by
  unfold run0.sl.Hr1_w434
  exact congrArg (fun w => View.write (Elt F) (sO.access (Rect.unit (s := S2x16x256) ![1, 2, 176] S1x1x16.size inb_S2x16x256_S1x1x16_1_2_176)) (run0.sl.Hr1_w433 d L fx fr) w Finset.univ)
    (funext fun x => (pieceA' _ _ _ _ _ _ _ (by decide) x).symm)

set_option maxHeartbeats 1000000 in
theorem step1_179 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w435 d L fx fr = View.write (Elt F) (sO.access (Rect.unit (s := S2x16x256) ![1, 3, 176] S1x1x16.size inb_S2x16x256_S1x1x16_1_3_176)) (run0.sl.Hr1_w434 d L fx fr)
      (fun x => Gs (sSlot1.view.writes (Elt F) sSlot1.view.junk [⟨Rect.whole S16x256, run0.sl.dma0_1 d L fx⟩]) ((Rect.unit (s := S2x16x256) ![1, 3, 176] S1x1x16.size inb_S2x16x256_S1x1x16_1_3_176).emb x)) Finset.univ := by
  unfold run0.sl.Hr1_w435
  exact congrArg (fun w => View.write (Elt F) (sO.access (Rect.unit (s := S2x16x256) ![1, 3, 176] S1x1x16.size inb_S2x16x256_S1x1x16_1_3_176)) (run0.sl.Hr1_w434 d L fx fr) w Finset.univ)
    (funext fun x => (pieceA' _ _ _ _ _ _ _ (by decide) x).symm)

set_option maxHeartbeats 1000000 in
theorem step1_180 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w436 d L fx fr = View.write (Elt F) (sO.access (Rect.unit (s := S2x16x256) ![1, 4, 176] S1x1x16.size inb_S2x16x256_S1x1x16_1_4_176)) (run0.sl.Hr1_w435 d L fx fr)
      (fun x => Gs (sSlot1.view.writes (Elt F) sSlot1.view.junk [⟨Rect.whole S16x256, run0.sl.dma0_1 d L fx⟩]) ((Rect.unit (s := S2x16x256) ![1, 4, 176] S1x1x16.size inb_S2x16x256_S1x1x16_1_4_176).emb x)) Finset.univ := by
  unfold run0.sl.Hr1_w436
  exact congrArg (fun w => View.write (Elt F) (sO.access (Rect.unit (s := S2x16x256) ![1, 4, 176] S1x1x16.size inb_S2x16x256_S1x1x16_1_4_176)) (run0.sl.Hr1_w435 d L fx fr) w Finset.univ)
    (funext fun x => (pieceA' _ _ _ _ _ _ _ (by decide) x).symm)

set_option maxHeartbeats 1000000 in
theorem step1_181 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w437 d L fx fr = View.write (Elt F) (sO.access (Rect.unit (s := S2x16x256) ![1, 5, 176] S1x1x16.size inb_S2x16x256_S1x1x16_1_5_176)) (run0.sl.Hr1_w436 d L fx fr)
      (fun x => Gs (sSlot1.view.writes (Elt F) sSlot1.view.junk [⟨Rect.whole S16x256, run0.sl.dma0_1 d L fx⟩]) ((Rect.unit (s := S2x16x256) ![1, 5, 176] S1x1x16.size inb_S2x16x256_S1x1x16_1_5_176).emb x)) Finset.univ := by
  unfold run0.sl.Hr1_w437
  unfold run0.sl.r_280
  exact congrArg (fun w => View.write (Elt F) (sO.access (Rect.unit (s := S2x16x256) ![1, 5, 176] S1x1x16.size inb_S2x16x256_S1x1x16_1_5_176)) (run0.sl.Hr1_w436 d L fx fr) w Finset.univ)
    (funext fun x => (pieceA' _ _ _ _ _ _ _ (by decide) x).symm)

set_option maxHeartbeats 1000000 in
theorem step1_182 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w438 d L fx fr = View.write (Elt F) (sO.access (Rect.unit (s := S2x16x256) ![1, 6, 176] S1x1x16.size inb_S2x16x256_S1x1x16_1_6_176)) (run0.sl.Hr1_w437 d L fx fr)
      (fun x => Gs (sSlot1.view.writes (Elt F) sSlot1.view.junk [⟨Rect.whole S16x256, run0.sl.dma0_1 d L fx⟩]) ((Rect.unit (s := S2x16x256) ![1, 6, 176] S1x1x16.size inb_S2x16x256_S1x1x16_1_6_176).emb x)) Finset.univ := by
  unfold run0.sl.Hr1_w438
  exact congrArg (fun w => View.write (Elt F) (sO.access (Rect.unit (s := S2x16x256) ![1, 6, 176] S1x1x16.size inb_S2x16x256_S1x1x16_1_6_176)) (run0.sl.Hr1_w437 d L fx fr) w Finset.univ)
    (funext fun x => (pieceA' _ _ _ _ _ _ _ (by decide) x).symm)

set_option maxHeartbeats 1000000 in
theorem step1_183 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w439 d L fx fr = View.write (Elt F) (sO.access (Rect.unit (s := S2x16x256) ![1, 7, 176] S1x1x16.size inb_S2x16x256_S1x1x16_1_7_176)) (run0.sl.Hr1_w438 d L fx fr)
      (fun x => Gs (sSlot1.view.writes (Elt F) sSlot1.view.junk [⟨Rect.whole S16x256, run0.sl.dma0_1 d L fx⟩]) ((Rect.unit (s := S2x16x256) ![1, 7, 176] S1x1x16.size inb_S2x16x256_S1x1x16_1_7_176).emb x)) Finset.univ := by
  unfold run0.sl.Hr1_w439
  exact congrArg (fun w => View.write (Elt F) (sO.access (Rect.unit (s := S2x16x256) ![1, 7, 176] S1x1x16.size inb_S2x16x256_S1x1x16_1_7_176)) (run0.sl.Hr1_w438 d L fx fr) w Finset.univ)
    (funext fun x => (pieceA' _ _ _ _ _ _ _ (by decide) x).symm)

set_option maxHeartbeats 1000000 in
theorem step1_184 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w440 d L fx fr = View.write (Elt F) (sO.access (Rect.unit (s := S2x16x256) ![1, 8, 176] S1x1x16.size inb_S2x16x256_S1x1x16_1_8_176)) (run0.sl.Hr1_w439 d L fx fr)
      (fun x => Gs (sSlot1.view.writes (Elt F) sSlot1.view.junk [⟨Rect.whole S16x256, run0.sl.dma0_1 d L fx⟩]) ((Rect.unit (s := S2x16x256) ![1, 8, 176] S1x1x16.size inb_S2x16x256_S1x1x16_1_8_176).emb x)) Finset.univ := by
  unfold run0.sl.Hr1_w440
  unfold run0.sl.r_282
  exact congrArg (fun w => View.write (Elt F) (sO.access (Rect.unit (s := S2x16x256) ![1, 8, 176] S1x1x16.size inb_S2x16x256_S1x1x16_1_8_176)) (run0.sl.Hr1_w439 d L fx fr) w Finset.univ)
    (funext fun x => (pieceA' _ _ _ _ _ _ _ (by decide) x).symm)

set_option maxHeartbeats 1000000 in
theorem step1_185 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w441 d L fx fr = View.write (Elt F) (sO.access (Rect.unit (s := S2x16x256) ![1, 9, 176] S1x1x16.size inb_S2x16x256_S1x1x16_1_9_176)) (run0.sl.Hr1_w440 d L fx fr)
      (fun x => Gs (sSlot1.view.writes (Elt F) sSlot1.view.junk [⟨Rect.whole S16x256, run0.sl.dma0_1 d L fx⟩]) ((Rect.unit (s := S2x16x256) ![1, 9, 176] S1x1x16.size inb_S2x16x256_S1x1x16_1_9_176).emb x)) Finset.univ := by
  unfold run0.sl.Hr1_w441
  exact congrArg (fun w => View.write (Elt F) (sO.access (Rect.unit (s := S2x16x256) ![1, 9, 176] S1x1x16.size inb_S2x16x256_S1x1x16_1_9_176)) (run0.sl.Hr1_w440 d L fx fr) w Finset.univ)
    (funext fun x => (pieceA' _ _ _ _ _ _ _ (by decide) x).symm)

set_option maxHeartbeats 1000000 in
theorem step1_186 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w442 d L fx fr = View.write (Elt F) (sO.access (Rect.unit (s := S2x16x256) ![1, 10, 176] S1x1x16.size inb_S2x16x256_S1x1x16_1_10_176)) (run0.sl.Hr1_w441 d L fx fr)
      (fun x => Gs (sSlot1.view.writes (Elt F) sSlot1.view.junk [⟨Rect.whole S16x256, run0.sl.dma0_1 d L fx⟩]) ((Rect.unit (s := S2x16x256) ![1, 10, 176] S1x1x16.size inb_S2x16x256_S1x1x16_1_10_176).emb x)) Finset.univ := by
  unfold run0.sl.Hr1_w442
  exact congrArg (fun w => View.write (Elt F) (sO.access (Rect.unit (s := S2x16x256) ![1, 10, 176] S1x1x16.size inb_S2x16x256_S1x1x16_1_10_176)) (run0.sl.Hr1_w441 d L fx fr) w Finset.univ)
    (funext fun x => (pieceA' _ _ _ _ _ _ _ (by decide) x).symm)

set_option maxHeartbeats 1000000 in
theorem step1_187 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w443 d L fx fr = View.write (Elt F) (sO.access (Rect.unit (s := S2x16x256) ![1, 11, 176] S1x1x16.size inb_S2x16x256_S1x1x16_1_11_176)) (run0.sl.Hr1_w442 d L fx fr)
      (fun x => Gs (sSlot1.view.writes (Elt F) sSlot1.view.junk [⟨Rect.whole S16x256, run0.sl.dma0_1 d L fx⟩]) ((Rect.unit (s := S2x16x256) ![1, 11, 176] S1x1x16.size inb_S2x16x256_S1x1x16_1_11_176).emb x)) Finset.univ := by
  unfold run0.sl.Hr1_w443
  unfold run0.sl.r_284
  exact congrArg (fun w => View.write (Elt F) (sO.access (Rect.unit (s := S2x16x256) ![1, 11, 176] S1x1x16.size inb_S2x16x256_S1x1x16_1_11_176)) (run0.sl.Hr1_w442 d L fx fr) w Finset.univ)
    (funext fun x => (pieceA' _ _ _ _ _ _ _ (by decide) x).symm)

set_option maxHeartbeats 1000000 in
theorem step1_188 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w444 d L fx fr = View.write (Elt F) (sO.access (Rect.unit (s := S2x16x256) ![1, 12, 176] S1x1x16.size inb_S2x16x256_S1x1x16_1_12_176)) (run0.sl.Hr1_w443 d L fx fr)
      (fun x => Gs (sSlot1.view.writes (Elt F) sSlot1.view.junk [⟨Rect.whole S16x256, run0.sl.dma0_1 d L fx⟩]) ((Rect.unit (s := S2x16x256) ![1, 12, 176] S1x1x16.size inb_S2x16x256_S1x1x16_1_12_176).emb x)) Finset.univ := by
  unfold run0.sl.Hr1_w444
  exact congrArg (fun w => View.write (Elt F) (sO.access (Rect.unit (s := S2x16x256) ![1, 12, 176] S1x1x16.size inb_S2x16x256_S1x1x16_1_12_176)) (run0.sl.Hr1_w443 d L fx fr) w Finset.univ)
    (funext fun x => (pieceA' _ _ _ _ _ _ _ (by decide) x).symm)

set_option maxHeartbeats 1000000 in
theorem step1_189 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w445 d L fx fr = View.write (Elt F) (sO.access (Rect.unit (s := S2x16x256) ![1, 13, 176] S1x1x16.size inb_S2x16x256_S1x1x16_1_13_176)) (run0.sl.Hr1_w444 d L fx fr)
      (fun x => Gs (sSlot1.view.writes (Elt F) sSlot1.view.junk [⟨Rect.whole S16x256, run0.sl.dma0_1 d L fx⟩]) ((Rect.unit (s := S2x16x256) ![1, 13, 176] S1x1x16.size inb_S2x16x256_S1x1x16_1_13_176).emb x)) Finset.univ := by
  unfold run0.sl.Hr1_w445
  exact congrArg (fun w => View.write (Elt F) (sO.access (Rect.unit (s := S2x16x256) ![1, 13, 176] S1x1x16.size inb_S2x16x256_S1x1x16_1_13_176)) (run0.sl.Hr1_w444 d L fx fr) w Finset.univ)
    (funext fun x => (pieceA' _ _ _ _ _ _ _ (by decide) x).symm)

set_option maxHeartbeats 1000000 in
theorem step1_190 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w446 d L fx fr = View.write (Elt F) (sO.access (Rect.unit (s := S2x16x256) ![1, 14, 176] S1x1x16.size inb_S2x16x256_S1x1x16_1_14_176)) (run0.sl.Hr1_w445 d L fx fr)
      (fun x => Gs (sSlot1.view.writes (Elt F) sSlot1.view.junk [⟨Rect.whole S16x256, run0.sl.dma0_1 d L fx⟩]) ((Rect.unit (s := S2x16x256) ![1, 14, 176] S1x1x16.size inb_S2x16x256_S1x1x16_1_14_176).emb x)) Finset.univ := by
  unfold run0.sl.Hr1_w446
  unfold run0.sl.r_287
  exact congrArg (fun w => View.write (Elt F) (sO.access (Rect.unit (s := S2x16x256) ![1, 14, 176] S1x1x16.size inb_S2x16x256_S1x1x16_1_14_176)) (run0.sl.Hr1_w445 d L fx fr) w Finset.univ)
    (funext fun x => (pieceA' _ _ _ _ _ _ _ (by decide) x).symm)

set_option maxHeartbeats 1000000 in
theorem step1_191 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w447 d L fx fr = View.write (Elt F) (sO.access (Rect.unit (s := S2x16x256) ![1, 15, 176] S1x1x16.size inb_S2x16x256_S1x1x16_1_15_176)) (run0.sl.Hr1_w446 d L fx fr)
      (fun x => Gs (sSlot1.view.writes (Elt F) sSlot1.view.junk [⟨Rect.whole S16x256, run0.sl.dma0_1 d L fx⟩]) ((Rect.unit (s := S2x16x256) ![1, 15, 176] S1x1x16.size inb_S2x16x256_S1x1x16_1_15_176).emb x)) Finset.univ := by
  unfold run0.sl.Hr1_w447
  exact congrArg (fun w => View.write (Elt F) (sO.access (Rect.unit (s := S2x16x256) ![1, 15, 176] S1x1x16.size inb_S2x16x256_S1x1x16_1_15_176)) (run0.sl.Hr1_w446 d L fx fr) w Finset.univ)
    (funext fun x => (pieceA' _ _ _ _ _ _ _ (by decide) x).symm)

set_option maxHeartbeats 1000000 in
theorem step1_192 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w448 d L fx fr = View.write (Elt F) (sO.access (Rect.unit (s := S2x16x256) ![1, 0, 176] S1x1x16.size inb_S2x16x256_S1x1x16_1_0_176)) (run0.sl.Hr1_w447 d L fx fr)
      (fun x => Gs (sSlot1.view.writes (Elt F) sSlot1.view.junk [⟨Rect.whole S16x256, run0.sl.dma0_1 d L fx⟩]) ((Rect.unit (s := S2x16x256) ![1, 0, 176] S1x1x16.size inb_S2x16x256_S1x1x16_1_0_176).emb x)) Finset.univ := by
  unfold run0.sl.Hr1_w448
  unfold run0.sl.r_278 run0.sl.r_286 run0.sl.r_287 run0.sl.r_285 run0.sl.r_283 run0.sl.r_281 run0.sl.r_279
  exact congrArg (fun w => View.write (Elt F) (sO.access (Rect.unit (s := S2x16x256) ![1, 0, 176] S1x1x16.size inb_S2x16x256_S1x1x16_1_0_176)) (run0.sl.Hr1_w447 d L fx fr) w Finset.univ)
    (funext fun x => (pieceB' (sSlot1.view.writes (Elt F) sSlot1.view.junk [⟨Rect.whole S16x256, run0.sl.dma0_1 d L fx⟩]) 1 176 inb_S2x16x256_S1x1x16_1_0_176 inb_S2x16x256_S1x1x16_1_1_176 inb_S2x16x256_S1x1x16_1_2_176 inb_S2x16x256_S1x1x16_1_3_176 inb_S2x16x256_S1x1x16_1_4_176 inb_S2x16x256_S1x1x16_1_5_176 inb_S2x16x256_S1x1x16_1_6_176 inb_S2x16x256_S1x1x16_1_7_176 inb_S2x16x256_S1x1x16_1_8_176 inb_S2x16x256_S1x1x16_1_9_176 inb_S2x16x256_S1x1x16_1_10_176 inb_S2x16x256_S1x1x16_1_11_176 inb_S2x16x256_S1x1x16_1_12_176 inb_S2x16x256_S1x1x16_1_13_176 inb_S2x16x256_S1x1x16_1_14_176 inb_S2x16x256_S1x1x16_1_15_176 shapeCasts_S1x1x16_S16 shapeCasts_S16_S1x1x16 x).symm)

set_option maxHeartbeats 1000000 in
theorem step1_193 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w449 d L fx fr = View.write (Elt F) (sO.access (Rect.unit (s := S2x16x256) ![1, 1, 192] S1x1x16.size inb_S2x16x256_S1x1x16_1_1_192)) (run0.sl.Hr1_w448 d L fx fr)
      (fun x => Gs (sSlot1.view.writes (Elt F) sSlot1.view.junk [⟨Rect.whole S16x256, run0.sl.dma0_1 d L fx⟩]) ((Rect.unit (s := S2x16x256) ![1, 1, 192] S1x1x16.size inb_S2x16x256_S1x1x16_1_1_192).emb x)) Finset.univ := by
  unfold run0.sl.Hr1_w449
  unfold run0.sl.r_289
  exact congrArg (fun w => View.write (Elt F) (sO.access (Rect.unit (s := S2x16x256) ![1, 1, 192] S1x1x16.size inb_S2x16x256_S1x1x16_1_1_192)) (run0.sl.Hr1_w448 d L fx fr) w Finset.univ)
    (funext fun x => (pieceA' _ _ _ _ _ _ _ (by decide) x).symm)

set_option maxHeartbeats 1000000 in
theorem step1_194 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w450 d L fx fr = View.write (Elt F) (sO.access (Rect.unit (s := S2x16x256) ![1, 2, 192] S1x1x16.size inb_S2x16x256_S1x1x16_1_2_192)) (run0.sl.Hr1_w449 d L fx fr)
      (fun x => Gs (sSlot1.view.writes (Elt F) sSlot1.view.junk [⟨Rect.whole S16x256, run0.sl.dma0_1 d L fx⟩]) ((Rect.unit (s := S2x16x256) ![1, 2, 192] S1x1x16.size inb_S2x16x256_S1x1x16_1_2_192).emb x)) Finset.univ := by
  unfold run0.sl.Hr1_w450
  exact congrArg (fun w => View.write (Elt F) (sO.access (Rect.unit (s := S2x16x256) ![1, 2, 192] S1x1x16.size inb_S2x16x256_S1x1x16_1_2_192)) (run0.sl.Hr1_w449 d L fx fr) w Finset.univ)
    (funext fun x => (pieceA' _ _ _ _ _ _ _ (by decide) x).symm)

set_option maxHeartbeats 1000000 in
theorem step1_195 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w451 d L fx fr = View.write (Elt F) (sO.access (Rect.unit (s := S2x16x256) ![1, 3, 192] S1x1x16.size inb_S2x16x256_S1x1x16_1_3_192)) (run0.sl.Hr1_w450 d L fx fr)
      (fun x => Gs (sSlot1.view.writes (Elt F) sSlot1.view.junk [⟨Rect.whole S16x256, run0.sl.dma0_1 d L fx⟩]) ((Rect.unit (s := S2x16x256) ![1, 3, 192] S1x1x16.size inb_S2x16x256_S1x1x16_1_3_192).emb x)) Finset.univ := by
  unfold run0.sl.Hr1_w451
  exact congrArg (fun w => View.write (Elt F) (sO.access (Rect.unit (s := S2x16x256) ![1, 3, 192] S1x1x16.size inb_S2x16x256_S1x1x16_1_3_192)) (run0.sl.Hr1_w450 d L fx fr) w Finset.univ)
    (funext fun x => (pieceA' _ _ _ _ _ _ _ (by decide) x).symm)

set_option maxHeartbeats 1000000 in
theorem step1_196 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w452 d L fx fr = View.write (Elt F) (sO.access (Rect.unit (s := S2x16x256) ![1, 4, 192] S1x1x16.size inb_S2x16x256_S1x1x16_1_4_192)) (run0.sl.Hr1_w451 d L fx fr)
      (fun x => Gs (sSlot1.view.writes (Elt F) sSlot1.view.junk [⟨Rect.whole S16x256, run0.sl.dma0_1 d L fx⟩]) ((Rect.unit (s := S2x16x256) ![1, 4, 192] S1x1x16.size inb_S2x16x256_S1x1x16_1_4_192).emb x)) Finset.univ := by
  unfold run0.sl.Hr1_w452
  exact congrArg (fun w => View.write (Elt F) (sO.access (Rect.unit (s := S2x16x256) ![1, 4, 192] S1x1x16.size inb_S2x16x256_S1x1x16_1_4_192)) (run0.sl.Hr1_w451 d L fx fr) w Finset.univ)
    (funext fun x => (pieceA' _ _ _ _ _ _ _ (by decide) x).symm)

set_option maxHeartbeats 1000000 in
theorem step1_197 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w453 d L fx fr = View.write (Elt F) (sO.access (Rect.unit (s := S2x16x256) ![1, 5, 192] S1x1x16.size inb_S2x16x256_S1x1x16_1_5_192)) (run0.sl.Hr1_w452 d L fx fr)
      (fun x => Gs (sSlot1.view.writes (Elt F) sSlot1.view.junk [⟨Rect.whole S16x256, run0.sl.dma0_1 d L fx⟩]) ((Rect.unit (s := S2x16x256) ![1, 5, 192] S1x1x16.size inb_S2x16x256_S1x1x16_1_5_192).emb x)) Finset.univ := by
  unfold run0.sl.Hr1_w453
  exact congrArg (fun w => View.write (Elt F) (sO.access (Rect.unit (s := S2x16x256) ![1, 5, 192] S1x1x16.size inb_S2x16x256_S1x1x16_1_5_192)) (run0.sl.Hr1_w452 d L fx fr) w Finset.univ)
    (funext fun x => (pieceA' _ _ _ _ _ _ _ (by decide) x).symm)

set_option maxHeartbeats 1000000 in
theorem step1_198 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w454 d L fx fr = View.write (Elt F) (sO.access (Rect.unit (s := S2x16x256) ![1, 6, 192] S1x1x16.size inb_S2x16x256_S1x1x16_1_6_192)) (run0.sl.Hr1_w453 d L fx fr)
      (fun x => Gs (sSlot1.view.writes (Elt F) sSlot1.view.junk [⟨Rect.whole S16x256, run0.sl.dma0_1 d L fx⟩]) ((Rect.unit (s := S2x16x256) ![1, 6, 192] S1x1x16.size inb_S2x16x256_S1x1x16_1_6_192).emb x)) Finset.univ := by
  unfold run0.sl.Hr1_w454
  exact congrArg (fun w => View.write (Elt F) (sO.access (Rect.unit (s := S2x16x256) ![1, 6, 192] S1x1x16.size inb_S2x16x256_S1x1x16_1_6_192)) (run0.sl.Hr1_w453 d L fx fr) w Finset.univ)
    (funext fun x => (pieceA' _ _ _ _ _ _ _ (by decide) x).symm)

set_option maxHeartbeats 1000000 in
theorem step1_199 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w455 d L fx fr = View.write (Elt F) (sO.access (Rect.unit (s := S2x16x256) ![1, 7, 192] S1x1x16.size inb_S2x16x256_S1x1x16_1_7_192)) (run0.sl.Hr1_w454 d L fx fr)
      (fun x => Gs (sSlot1.view.writes (Elt F) sSlot1.view.junk [⟨Rect.whole S16x256, run0.sl.dma0_1 d L fx⟩]) ((Rect.unit (s := S2x16x256) ![1, 7, 192] S1x1x16.size inb_S2x16x256_S1x1x16_1_7_192).emb x)) Finset.univ := by
  unfold run0.sl.Hr1_w455
  exact congrArg (fun w => View.write (Elt F) (sO.access (Rect.unit (s := S2x16x256) ![1, 7, 192] S1x1x16.size inb_S2x16x256_S1x1x16_1_7_192)) (run0.sl.Hr1_w454 d L fx fr) w Finset.univ)
    (funext fun x => (pieceA' _ _ _ _ _ _ _ (by decide) x).symm)

set_option maxHeartbeats 1000000 in
theorem step1_200 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w456 d L fx fr = View.write (Elt F) (sO.access (Rect.unit (s := S2x16x256) ![1, 8, 192] S1x1x16.size inb_S2x16x256_S1x1x16_1_8_192)) (run0.sl.Hr1_w455 d L fx fr)
      (fun x => Gs (sSlot1.view.writes (Elt F) sSlot1.view.junk [⟨Rect.whole S16x256, run0.sl.dma0_1 d L fx⟩]) ((Rect.unit (s := S2x16x256) ![1, 8, 192] S1x1x16.size inb_S2x16x256_S1x1x16_1_8_192).emb x)) Finset.univ := by
  unfold run0.sl.Hr1_w456
  exact congrArg (fun w => View.write (Elt F) (sO.access (Rect.unit (s := S2x16x256) ![1, 8, 192] S1x1x16.size inb_S2x16x256_S1x1x16_1_8_192)) (run0.sl.Hr1_w455 d L fx fr) w Finset.univ)
    (funext fun x => (pieceA' _ _ _ _ _ _ _ (by decide) x).symm)

set_option maxHeartbeats 1000000 in
theorem step1_201 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w457 d L fx fr = View.write (Elt F) (sO.access (Rect.unit (s := S2x16x256) ![1, 9, 192] S1x1x16.size inb_S2x16x256_S1x1x16_1_9_192)) (run0.sl.Hr1_w456 d L fx fr)
      (fun x => Gs (sSlot1.view.writes (Elt F) sSlot1.view.junk [⟨Rect.whole S16x256, run0.sl.dma0_1 d L fx⟩]) ((Rect.unit (s := S2x16x256) ![1, 9, 192] S1x1x16.size inb_S2x16x256_S1x1x16_1_9_192).emb x)) Finset.univ := by
  unfold run0.sl.Hr1_w457
  unfold run0.sl.r_292
  exact congrArg (fun w => View.write (Elt F) (sO.access (Rect.unit (s := S2x16x256) ![1, 9, 192] S1x1x16.size inb_S2x16x256_S1x1x16_1_9_192)) (run0.sl.Hr1_w456 d L fx fr) w Finset.univ)
    (funext fun x => (pieceA' _ _ _ _ _ _ _ (by decide) x).symm)

set_option maxHeartbeats 1000000 in
theorem step1_202 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w458 d L fx fr = View.write (Elt F) (sO.access (Rect.unit (s := S2x16x256) ![1, 10, 192] S1x1x16.size inb_S2x16x256_S1x1x16_1_10_192)) (run0.sl.Hr1_w457 d L fx fr)
      (fun x => Gs (sSlot1.view.writes (Elt F) sSlot1.view.junk [⟨Rect.whole S16x256, run0.sl.dma0_1 d L fx⟩]) ((Rect.unit (s := S2x16x256) ![1, 10, 192] S1x1x16.size inb_S2x16x256_S1x1x16_1_10_192).emb x)) Finset.univ := by
  unfold run0.sl.Hr1_w458
  exact congrArg (fun w => View.write (Elt F) (sO.access (Rect.unit (s := S2x16x256) ![1, 10, 192] S1x1x16.size inb_S2x16x256_S1x1x16_1_10_192)) (run0.sl.Hr1_w457 d L fx fr) w Finset.univ)
    (funext fun x => (pieceA' _ _ _ _ _ _ _ (by decide) x).symm)

set_option maxHeartbeats 1000000 in
theorem step1_203 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w459 d L fx fr = View.write (Elt F) (sO.access (Rect.unit (s := S2x16x256) ![1, 11, 192] S1x1x16.size inb_S2x16x256_S1x1x16_1_11_192)) (run0.sl.Hr1_w458 d L fx fr)
      (fun x => Gs (sSlot1.view.writes (Elt F) sSlot1.view.junk [⟨Rect.whole S16x256, run0.sl.dma0_1 d L fx⟩]) ((Rect.unit (s := S2x16x256) ![1, 11, 192] S1x1x16.size inb_S2x16x256_S1x1x16_1_11_192).emb x)) Finset.univ := by
  unfold run0.sl.Hr1_w459
  exact congrArg (fun w => View.write (Elt F) (sO.access (Rect.unit (s := S2x16x256) ![1, 11, 192] S1x1x16.size inb_S2x16x256_S1x1x16_1_11_192)) (run0.sl.Hr1_w458 d L fx fr) w Finset.univ)
    (funext fun x => (pieceA' _ _ _ _ _ _ _ (by decide) x).symm)

set_option maxHeartbeats 1000000 in
theorem step1_204 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w460 d L fx fr = View.write (Elt F) (sO.access (Rect.unit (s := S2x16x256) ![1, 12, 192] S1x1x16.size inb_S2x16x256_S1x1x16_1_12_192)) (run0.sl.Hr1_w459 d L fx fr)
      (fun x => Gs (sSlot1.view.writes (Elt F) sSlot1.view.junk [⟨Rect.whole S16x256, run0.sl.dma0_1 d L fx⟩]) ((Rect.unit (s := S2x16x256) ![1, 12, 192] S1x1x16.size inb_S2x16x256_S1x1x16_1_12_192).emb x)) Finset.univ := by
  unfold run0.sl.Hr1_w460
  unfold run0.sl.r_295
  exact congrArg (fun w => View.write (Elt F) (sO.access (Rect.unit (s := S2x16x256) ![1, 12, 192] S1x1x16.size inb_S2x16x256_S1x1x16_1_12_192)) (run0.sl.Hr1_w459 d L fx fr) w Finset.univ)
    (funext fun x => (pieceA' _ _ _ _ _ _ _ (by decide) x).symm)

set_option maxHeartbeats 1000000 in
theorem step1_205 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w461 d L fx fr = View.write (Elt F) (sO.access (Rect.unit (s := S2x16x256) ![1, 13, 192] S1x1x16.size inb_S2x16x256_S1x1x16_1_13_192)) (run0.sl.Hr1_w460 d L fx fr)
      (fun x => Gs (sSlot1.view.writes (Elt F) sSlot1.view.junk [⟨Rect.whole S16x256, run0.sl.dma0_1 d L fx⟩]) ((Rect.unit (s := S2x16x256) ![1, 13, 192] S1x1x16.size inb_S2x16x256_S1x1x16_1_13_192).emb x)) Finset.univ := by
  unfold run0.sl.Hr1_w461
  exact congrArg (fun w => View.write (Elt F) (sO.access (Rect.unit (s := S2x16x256) ![1, 13, 192] S1x1x16.size inb_S2x16x256_S1x1x16_1_13_192)) (run0.sl.Hr1_w460 d L fx fr) w Finset.univ)
    (funext fun x => (pieceA' _ _ _ _ _ _ _ (by decide) x).symm)

set_option maxHeartbeats 1000000 in
theorem step1_206 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w462 d L fx fr = View.write (Elt F) (sO.access (Rect.unit (s := S2x16x256) ![1, 14, 192] S1x1x16.size inb_S2x16x256_S1x1x16_1_14_192)) (run0.sl.Hr1_w461 d L fx fr)
      (fun x => Gs (sSlot1.view.writes (Elt F) sSlot1.view.junk [⟨Rect.whole S16x256, run0.sl.dma0_1 d L fx⟩]) ((Rect.unit (s := S2x16x256) ![1, 14, 192] S1x1x16.size inb_S2x16x256_S1x1x16_1_14_192).emb x)) Finset.univ := by
  unfold run0.sl.Hr1_w462
  exact congrArg (fun w => View.write (Elt F) (sO.access (Rect.unit (s := S2x16x256) ![1, 14, 192] S1x1x16.size inb_S2x16x256_S1x1x16_1_14_192)) (run0.sl.Hr1_w461 d L fx fr) w Finset.univ)
    (funext fun x => (pieceA' _ _ _ _ _ _ _ (by decide) x).symm)

set_option maxHeartbeats 1000000 in
theorem step1_207 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w463 d L fx fr = View.write (Elt F) (sO.access (Rect.unit (s := S2x16x256) ![1, 15, 192] S1x1x16.size inb_S2x16x256_S1x1x16_1_15_192)) (run0.sl.Hr1_w462 d L fx fr)
      (fun x => Gs (sSlot1.view.writes (Elt F) sSlot1.view.junk [⟨Rect.whole S16x256, run0.sl.dma0_1 d L fx⟩]) ((Rect.unit (s := S2x16x256) ![1, 15, 192] S1x1x16.size inb_S2x16x256_S1x1x16_1_15_192).emb x)) Finset.univ := by
  unfold run0.sl.Hr1_w463
  unfold run0.sl.r_297
  exact congrArg (fun w => View.write (Elt F) (sO.access (Rect.unit (s := S2x16x256) ![1, 15, 192] S1x1x16.size inb_S2x16x256_S1x1x16_1_15_192)) (run0.sl.Hr1_w462 d L fx fr) w Finset.univ)
    (funext fun x => (pieceA' _ _ _ _ _ _ _ (by decide) x).symm)

set_option maxHeartbeats 1000000 in
theorem step1_208 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w464 d L fx fr = View.write (Elt F) (sO.access (Rect.unit (s := S2x16x256) ![1, 0, 192] S1x1x16.size inb_S2x16x256_S1x1x16_1_0_192)) (run0.sl.Hr1_w463 d L fx fr)
      (fun x => Gs (sSlot1.view.writes (Elt F) sSlot1.view.junk [⟨Rect.whole S16x256, run0.sl.dma0_1 d L fx⟩]) ((Rect.unit (s := S2x16x256) ![1, 0, 192] S1x1x16.size inb_S2x16x256_S1x1x16_1_0_192).emb x)) Finset.univ := by
  unfold run0.sl.Hr1_w464
  unfold run0.sl.r_288 run0.sl.r_298 run0.sl.r_296 run0.sl.r_293 run0.sl.r_291 run0.sl.r_290 run0.sl.r_289
  exact congrArg (fun w => View.write (Elt F) (sO.access (Rect.unit (s := S2x16x256) ![1, 0, 192] S1x1x16.size inb_S2x16x256_S1x1x16_1_0_192)) (run0.sl.Hr1_w463 d L fx fr) w Finset.univ)
    (funext fun x => (pieceB' (sSlot1.view.writes (Elt F) sSlot1.view.junk [⟨Rect.whole S16x256, run0.sl.dma0_1 d L fx⟩]) 1 192 inb_S2x16x256_S1x1x16_1_0_192 inb_S2x16x256_S1x1x16_1_1_192 inb_S2x16x256_S1x1x16_1_2_192 inb_S2x16x256_S1x1x16_1_3_192 inb_S2x16x256_S1x1x16_1_4_192 inb_S2x16x256_S1x1x16_1_5_192 inb_S2x16x256_S1x1x16_1_6_192 inb_S2x16x256_S1x1x16_1_7_192 inb_S2x16x256_S1x1x16_1_8_192 inb_S2x16x256_S1x1x16_1_9_192 inb_S2x16x256_S1x1x16_1_10_192 inb_S2x16x256_S1x1x16_1_11_192 inb_S2x16x256_S1x1x16_1_12_192 inb_S2x16x256_S1x1x16_1_13_192 inb_S2x16x256_S1x1x16_1_14_192 inb_S2x16x256_S1x1x16_1_15_192 shapeCasts_S1x1x16_S16 shapeCasts_S16_S1x1x16 x).symm)

set_option maxHeartbeats 1000000 in
theorem step1_209 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w465 d L fx fr = View.write (Elt F) (sO.access (Rect.unit (s := S2x16x256) ![1, 1, 208] S1x1x16.size inb_S2x16x256_S1x1x16_1_1_208)) (run0.sl.Hr1_w464 d L fx fr)
      (fun x => Gs (sSlot1.view.writes (Elt F) sSlot1.view.junk [⟨Rect.whole S16x256, run0.sl.dma0_1 d L fx⟩]) ((Rect.unit (s := S2x16x256) ![1, 1, 208] S1x1x16.size inb_S2x16x256_S1x1x16_1_1_208).emb x)) Finset.univ := by
  unfold run0.sl.Hr1_w465
  exact congrArg (fun w => View.write (Elt F) (sO.access (Rect.unit (s := S2x16x256) ![1, 1, 208] S1x1x16.size inb_S2x16x256_S1x1x16_1_1_208)) (run0.sl.Hr1_w464 d L fx fr) w Finset.univ)
    (funext fun x => (pieceA' _ _ _ _ _ _ _ (by decide) x).symm)

set_option maxHeartbeats 1000000 in
theorem step1_210 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w466 d L fx fr = View.write (Elt F) (sO.access (Rect.unit (s := S2x16x256) ![1, 2, 208] S1x1x16.size inb_S2x16x256_S1x1x16_1_2_208)) (run0.sl.Hr1_w465 d L fx fr)
      (fun x => Gs (sSlot1.view.writes (Elt F) sSlot1.view.junk [⟨Rect.whole S16x256, run0.sl.dma0_1 d L fx⟩]) ((Rect.unit (s := S2x16x256) ![1, 2, 208] S1x1x16.size inb_S2x16x256_S1x1x16_1_2_208).emb x)) Finset.univ := by
  unfold run0.sl.Hr1_w466
  unfold run0.sl.r_301 run0.sl.cst_306
  exact congrArg (fun w => View.write (Elt F) (sO.access (Rect.unit (s := S2x16x256) ![1, 2, 208] S1x1x16.size inb_S2x16x256_S1x1x16_1_2_208)) (run0.sl.Hr1_w465 d L fx fr) w Finset.univ)
    (funext fun x => (pieceA' _ _ _ _ _ _ _ (by decide) x).symm)

set_option maxHeartbeats 1000000 in
theorem step1_211 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w467 d L fx fr = View.write (Elt F) (sO.access (Rect.unit (s := S2x16x256) ![1, 3, 208] S1x1x16.size inb_S2x16x256_S1x1x16_1_3_208)) (run0.sl.Hr1_w466 d L fx fr)
      (fun x => Gs (sSlot1.view.writes (Elt F) sSlot1.view.junk [⟨Rect.whole S16x256, run0.sl.dma0_1 d L fx⟩]) ((Rect.unit (s := S2x16x256) ![1, 3, 208] S1x1x16.size inb_S2x16x256_S1x1x16_1_3_208).emb x)) Finset.univ := by
  unfold run0.sl.Hr1_w467
  exact congrArg (fun w => View.write (Elt F) (sO.access (Rect.unit (s := S2x16x256) ![1, 3, 208] S1x1x16.size inb_S2x16x256_S1x1x16_1_3_208)) (run0.sl.Hr1_w466 d L fx fr) w Finset.univ)
    (funext fun x => (pieceA' _ _ _ _ _ _ _ (by decide) x).symm)

set_option maxHeartbeats 1000000 in
theorem step1_212 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w468 d L fx fr = View.write (Elt F) (sO.access (Rect.unit (s := S2x16x256) ![1, 4, 208] S1x1x16.size inb_S2x16x256_S1x1x16_1_4_208)) (run0.sl.Hr1_w467 d L fx fr)
      (fun x => Gs (sSlot1.view.writes (Elt F) sSlot1.view.junk [⟨Rect.whole S16x256, run0.sl.dma0_1 d L fx⟩]) ((Rect.unit (s := S2x16x256) ![1, 4, 208] S1x1x16.size inb_S2x16x256_S1x1x16_1_4_208).emb x)) Finset.univ := by
  unfold run0.sl.Hr1_w468
  exact congrArg (fun w => View.write (Elt F) (sO.access (Rect.unit (s := S2x16x256) ![1, 4, 208] S1x1x16.size inb_S2x16x256_S1x1x16_1_4_208)) (run0.sl.Hr1_w467 d L fx fr) w Finset.univ)
    (funext fun x => (pieceA' _ _ _ _ _ _ _ (by decide) x).symm)

set_option maxHeartbeats 1000000 in
theorem step1_213 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w469 d L fx fr = View.write (Elt F) (sO.access (Rect.unit (s := S2x16x256) ![1, 5, 208] S1x1x16.size inb_S2x16x256_S1x1x16_1_5_208)) (run0.sl.Hr1_w468 d L fx fr)
      (fun x => Gs (sSlot1.view.writes (Elt F) sSlot1.view.junk [⟨Rect.whole S16x256, run0.sl.dma0_1 d L fx⟩]) ((Rect.unit (s := S2x16x256) ![1, 5, 208] S1x1x16.size inb_S2x16x256_S1x1x16_1_5_208).emb x)) Finset.univ := by
  unfold run0.sl.Hr1_w469
  exact congrArg (fun w => View.write (Elt F) (sO.access (Rect.unit (s := S2x16x256) ![1, 5, 208] S1x1x16.size inb_S2x16x256_S1x1x16_1_5_208)) (run0.sl.Hr1_w468 d L fx fr) w Finset.univ)
    (funext fun x => (pieceA' _ _ _ _ _ _ _ (by decide) x).symm)

set_option maxHeartbeats 1000000 in
theorem step1_214 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w470 d L fx fr = View.write (Elt F) (sO.access (Rect.unit (s := S2x16x256) ![1, 6, 208] S1x1x16.size inb_S2x16x256_S1x1x16_1_6_208)) (run0.sl.Hr1_w469 d L fx fr)
      (fun x => Gs (sSlot1.view.writes (Elt F) sSlot1.view.junk [⟨Rect.whole S16x256, run0.sl.dma0_1 d L fx⟩]) ((Rect.unit (s := S2x16x256) ![1, 6, 208] S1x1x16.size inb_S2x16x256_S1x1x16_1_6_208).emb x)) Finset.univ := by
  unfold run0.sl.Hr1_w470
  exact congrArg (fun w => View.write (Elt F) (sO.access (Rect.unit (s := S2x16x256) ![1, 6, 208] S1x1x16.size inb_S2x16x256_S1x1x16_1_6_208)) (run0.sl.Hr1_w469 d L fx fr) w Finset.univ)
    (funext fun x => (pieceA' _ _ _ _ _ _ _ (by decide) x).symm)

set_option maxHeartbeats 1000000 in
theorem step1_215 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w471 d L fx fr = View.write (Elt F) (sO.access (Rect.unit (s := S2x16x256) ![1, 7, 208] S1x1x16.size inb_S2x16x256_S1x1x16_1_7_208)) (run0.sl.Hr1_w470 d L fx fr)
      (fun x => Gs (sSlot1.view.writes (Elt F) sSlot1.view.junk [⟨Rect.whole S16x256, run0.sl.dma0_1 d L fx⟩]) ((Rect.unit (s := S2x16x256) ![1, 7, 208] S1x1x16.size inb_S2x16x256_S1x1x16_1_7_208).emb x)) Finset.univ := by
  unfold run0.sl.Hr1_w471
  exact congrArg (fun w => View.write (Elt F) (sO.access (Rect.unit (s := S2x16x256) ![1, 7, 208] S1x1x16.size inb_S2x16x256_S1x1x16_1_7_208)) (run0.sl.Hr1_w470 d L fx fr) w Finset.univ)
    (funext fun x => (pieceA' _ _ _ _ _ _ _ (by decide) x).symm)

set_option maxHeartbeats 1000000 in
theorem step1_216 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w472 d L fx fr = View.write (Elt F) (sO.access (Rect.unit (s := S2x16x256) ![1, 8, 208] S1x1x16.size inb_S2x16x256_S1x1x16_1_8_208)) (run0.sl.Hr1_w471 d L fx fr)
      (fun x => Gs (sSlot1.view.writes (Elt F) sSlot1.view.junk [⟨Rect.whole S16x256, run0.sl.dma0_1 d L fx⟩]) ((Rect.unit (s := S2x16x256) ![1, 8, 208] S1x1x16.size inb_S2x16x256_S1x1x16_1_8_208).emb x)) Finset.univ := by
  unfold run0.sl.Hr1_w472
  exact congrArg (fun w => View.write (Elt F) (sO.access (Rect.unit (s := S2x16x256) ![1, 8, 208] S1x1x16.size inb_S2x16x256_S1x1x16_1_8_208)) (run0.sl.Hr1_w471 d L fx fr) w Finset.univ)
    (funext fun x => (pieceA' _ _ _ _ _ _ _ (by decide) x).symm)

set_option maxHeartbeats 1000000 in
theorem step1_217 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w473 d L fx fr = View.write (Elt F) (sO.access (Rect.unit (s := S2x16x256) ![1, 9, 208] S1x1x16.size inb_S2x16x256_S1x1x16_1_9_208)) (run0.sl.Hr1_w472 d L fx fr)
      (fun x => Gs (sSlot1.view.writes (Elt F) sSlot1.view.junk [⟨Rect.whole S16x256, run0.sl.dma0_1 d L fx⟩]) ((Rect.unit (s := S2x16x256) ![1, 9, 208] S1x1x16.size inb_S2x16x256_S1x1x16_1_9_208).emb x)) Finset.univ := by
  unfold run0.sl.Hr1_w473
  exact congrArg (fun w => View.write (Elt F) (sO.access (Rect.unit (s := S2x16x256) ![1, 9, 208] S1x1x16.size inb_S2x16x256_S1x1x16_1_9_208)) (run0.sl.Hr1_w472 d L fx fr) w Finset.univ)
    (funext fun x => (pieceA' _ _ _ _ _ _ _ (by decide) x).symm)

set_option maxHeartbeats 1000000 in
theorem step1_218 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w474 d L fx fr = View.write (Elt F) (sO.access (Rect.unit (s := S2x16x256) ![1, 10, 208] S1x1x16.size inb_S2x16x256_S1x1x16_1_10_208)) (run0.sl.Hr1_w473 d L fx fr)
      (fun x => Gs (sSlot1.view.writes (Elt F) sSlot1.view.junk [⟨Rect.whole S16x256, run0.sl.dma0_1 d L fx⟩]) ((Rect.unit (s := S2x16x256) ![1, 10, 208] S1x1x16.size inb_S2x16x256_S1x1x16_1_10_208).emb x)) Finset.univ := by
  unfold run0.sl.Hr1_w474
  unfold run0.sl.r_305
  exact congrArg (fun w => View.write (Elt F) (sO.access (Rect.unit (s := S2x16x256) ![1, 10, 208] S1x1x16.size inb_S2x16x256_S1x1x16_1_10_208)) (run0.sl.Hr1_w473 d L fx fr) w Finset.univ)
    (funext fun x => (pieceA' _ _ _ _ _ _ _ (by decide) x).symm)

set_option maxHeartbeats 1000000 in
theorem step1_219 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w475 d L fx fr = View.write (Elt F) (sO.access (Rect.unit (s := S2x16x256) ![1, 11, 208] S1x1x16.size inb_S2x16x256_S1x1x16_1_11_208)) (run0.sl.Hr1_w474 d L fx fr)
      (fun x => Gs (sSlot1.view.writes (Elt F) sSlot1.view.junk [⟨Rect.whole S16x256, run0.sl.dma0_1 d L fx⟩]) ((Rect.unit (s := S2x16x256) ![1, 11, 208] S1x1x16.size inb_S2x16x256_S1x1x16_1_11_208).emb x)) Finset.univ := by
  unfold run0.sl.Hr1_w475
  exact congrArg (fun w => View.write (Elt F) (sO.access (Rect.unit (s := S2x16x256) ![1, 11, 208] S1x1x16.size inb_S2x16x256_S1x1x16_1_11_208)) (run0.sl.Hr1_w474 d L fx fr) w Finset.univ)
    (funext fun x => (pieceA' _ _ _ _ _ _ _ (by decide) x).symm)

set_option maxHeartbeats 1000000 in
theorem step1_220 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w476 d L fx fr = View.write (Elt F) (sO.access (Rect.unit (s := S2x16x256) ![1, 12, 208] S1x1x16.size inb_S2x16x256_S1x1x16_1_12_208)) (run0.sl.Hr1_w475 d L fx fr)
      (fun x => Gs (sSlot1.view.writes (Elt F) sSlot1.view.junk [⟨Rect.whole S16x256, run0.sl.dma0_1 d L fx⟩]) ((Rect.unit (s := S2x16x256) ![1, 12, 208] S1x1x16.size inb_S2x16x256_S1x1x16_1_12_208).emb x)) Finset.univ := by
  unfold run0.sl.Hr1_w476
  exact congrArg (fun w => View.write (Elt F) (sO.access (Rect.unit (s := S2x16x256) ![1, 12, 208] S1x1x16.size inb_S2x16x256_S1x1x16_1_12_208)) (run0.sl.Hr1_w475 d L fx fr) w Finset.univ)
    (funext fun x => (pieceA' _ _ _ _ _ _ _ (by decide) x).symm)

set_option maxHeartbeats 1000000 in
theorem step1_221 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w477 d L fx fr = View.write (Elt F) (sO.access (Rect.unit (s := S2x16x256) ![1, 13, 208] S1x1x16.size inb_S2x16x256_S1x1x16_1_13_208)) (run0.sl.Hr1_w476 d L fx fr)
      (fun x => Gs (sSlot1.view.writes (Elt F) sSlot1.view.junk [⟨Rect.whole S16x256, run0.sl.dma0_1 d L fx⟩]) ((Rect.unit (s := S2x16x256) ![1, 13, 208] S1x1x16.size inb_S2x16x256_S1x1x16_1_13_208).emb x)) Finset.univ := by
  unfold run0.sl.Hr1_w477
  unfold run0.sl.r_306
  exact congrArg (fun w => View.write (Elt F) (sO.access (Rect.unit (s := S2x16x256) ![1, 13, 208] S1x1x16.size inb_S2x16x256_S1x1x16_1_13_208)) (run0.sl.Hr1_w476 d L fx fr) w Finset.univ)
    (funext fun x => (pieceA' _ _ _ _ _ _ _ (by decide) x).symm)

set_option maxHeartbeats 1000000 in
theorem step1_222 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w478 d L fx fr = View.write (Elt F) (sO.access (Rect.unit (s := S2x16x256) ![1, 14, 208] S1x1x16.size inb_S2x16x256_S1x1x16_1_14_208)) (run0.sl.Hr1_w477 d L fx fr)
      (fun x => Gs (sSlot1.view.writes (Elt F) sSlot1.view.junk [⟨Rect.whole S16x256, run0.sl.dma0_1 d L fx⟩]) ((Rect.unit (s := S2x16x256) ![1, 14, 208] S1x1x16.size inb_S2x16x256_S1x1x16_1_14_208).emb x)) Finset.univ := by
  unfold run0.sl.Hr1_w478
  exact congrArg (fun w => View.write (Elt F) (sO.access (Rect.unit (s := S2x16x256) ![1, 14, 208] S1x1x16.size inb_S2x16x256_S1x1x16_1_14_208)) (run0.sl.Hr1_w477 d L fx fr) w Finset.univ)
    (funext fun x => (pieceA' _ _ _ _ _ _ _ (by decide) x).symm)

set_option maxHeartbeats 1000000 in
theorem step1_223 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w479 d L fx fr = View.write (Elt F) (sO.access (Rect.unit (s := S2x16x256) ![1, 15, 208] S1x1x16.size inb_S2x16x256_S1x1x16_1_15_208)) (run0.sl.Hr1_w478 d L fx fr)
      (fun x => Gs (sSlot1.view.writes (Elt F) sSlot1.view.junk [⟨Rect.whole S16x256, run0.sl.dma0_1 d L fx⟩]) ((Rect.unit (s := S2x16x256) ![1, 15, 208] S1x1x16.size inb_S2x16x256_S1x1x16_1_15_208).emb x)) Finset.univ := by
  unfold run0.sl.Hr1_w479
  exact congrArg (fun w => View.write (Elt F) (sO.access (Rect.unit (s := S2x16x256) ![1, 15, 208] S1x1x16.size inb_S2x16x256_S1x1x16_1_15_208)) (run0.sl.Hr1_w478 d L fx fr) w Finset.univ)
    (funext fun x => (pieceA' _ _ _ _ _ _ _ (by decide) x).symm)

set_option maxHeartbeats 1000000 in
theorem step1_224 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w480 d L fx fr = View.write (Elt F) (sO.access (Rect.unit (s := S2x16x256) ![1, 0, 208] S1x1x16.size inb_S2x16x256_S1x1x16_1_0_208)) (run0.sl.Hr1_w479 d L fx fr)
      (fun x => Gs (sSlot1.view.writes (Elt F) sSlot1.view.junk [⟨Rect.whole S16x256, run0.sl.dma0_1 d L fx⟩]) ((Rect.unit (s := S2x16x256) ![1, 0, 208] S1x1x16.size inb_S2x16x256_S1x1x16_1_0_208).emb x)) Finset.univ := by
  unfold run0.sl.Hr1_w480
  unfold run0.sl.r_299 run0.sl.r_307 run0.sl.r_304 run0.sl.r_303 run0.sl.r_302 run0.sl.r_300 run0.sl.r_301 run0.sl.cst_306
  exact congrArg (fun w => View.write (Elt F) (sO.access (Rect.unit (s := S2x16x256) ![1, 0, 208] S1x1x16.size inb_S2x16x256_S1x1x16_1_0_208)) (run0.sl.Hr1_w479 d L fx fr) w Finset.univ)
    (funext fun x => (pieceB' (sSlot1.view.writes (Elt F) sSlot1.view.junk [⟨Rect.whole S16x256, run0.sl.dma0_1 d L fx⟩]) 1 208 inb_S2x16x256_S1x1x16_1_0_208 inb_S2x16x256_S1x1x16_1_1_208 inb_S2x16x256_S1x1x16_1_2_208 inb_S2x16x256_S1x1x16_1_3_208 inb_S2x16x256_S1x1x16_1_4_208 inb_S2x16x256_S1x1x16_1_5_208 inb_S2x16x256_S1x1x16_1_6_208 inb_S2x16x256_S1x1x16_1_7_208 inb_S2x16x256_S1x1x16_1_8_208 inb_S2x16x256_S1x1x16_1_9_208 inb_S2x16x256_S1x1x16_1_10_208 inb_S2x16x256_S1x1x16_1_11_208 inb_S2x16x256_S1x1x16_1_12_208 inb_S2x16x256_S1x1x16_1_13_208 inb_S2x16x256_S1x1x16_1_14_208 inb_S2x16x256_S1x1x16_1_15_208 shapeCasts_S1x1x16_S16 shapeCasts_S16_S1x1x16 x).symm)

set_option maxHeartbeats 1000000 in
theorem step1_225 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w481 d L fx fr = View.write (Elt F) (sO.access (Rect.unit (s := S2x16x256) ![1, 1, 224] S1x1x16.size inb_S2x16x256_S1x1x16_1_1_224)) (run0.sl.Hr1_w480 d L fx fr)
      (fun x => Gs (sSlot1.view.writes (Elt F) sSlot1.view.junk [⟨Rect.whole S16x256, run0.sl.dma0_1 d L fx⟩]) ((Rect.unit (s := S2x16x256) ![1, 1, 224] S1x1x16.size inb_S2x16x256_S1x1x16_1_1_224).emb x)) Finset.univ := by
  unfold run0.sl.Hr1_w481
  exact congrArg (fun w => View.write (Elt F) (sO.access (Rect.unit (s := S2x16x256) ![1, 1, 224] S1x1x16.size inb_S2x16x256_S1x1x16_1_1_224)) (run0.sl.Hr1_w480 d L fx fr) w Finset.univ)
    (funext fun x => (pieceA' _ _ _ _ _ _ _ (by decide) x).symm)

set_option maxHeartbeats 1000000 in
theorem step1_226 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w482 d L fx fr = View.write (Elt F) (sO.access (Rect.unit (s := S2x16x256) ![1, 2, 224] S1x1x16.size inb_S2x16x256_S1x1x16_1_2_224)) (run0.sl.Hr1_w481 d L fx fr)
      (fun x => Gs (sSlot1.view.writes (Elt F) sSlot1.view.junk [⟨Rect.whole S16x256, run0.sl.dma0_1 d L fx⟩]) ((Rect.unit (s := S2x16x256) ![1, 2, 224] S1x1x16.size inb_S2x16x256_S1x1x16_1_2_224).emb x)) Finset.univ := by
  unfold run0.sl.Hr1_w482
  exact congrArg (fun w => View.write (Elt F) (sO.access (Rect.unit (s := S2x16x256) ![1, 2, 224] S1x1x16.size inb_S2x16x256_S1x1x16_1_2_224)) (run0.sl.Hr1_w481 d L fx fr) w Finset.univ)
    (funext fun x => (pieceA' _ _ _ _ _ _ _ (by decide) x).symm)

set_option maxHeartbeats 1000000 in
theorem step1_227 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w483 d L fx fr = View.write (Elt F) (sO.access (Rect.unit (s := S2x16x256) ![1, 3, 224] S1x1x16.size inb_S2x16x256_S1x1x16_1_3_224)) (run0.sl.Hr1_w482 d L fx fr)
      (fun x => Gs (sSlot1.view.writes (Elt F) sSlot1.view.junk [⟨Rect.whole S16x256, run0.sl.dma0_1 d L fx⟩]) ((Rect.unit (s := S2x16x256) ![1, 3, 224] S1x1x16.size inb_S2x16x256_S1x1x16_1_3_224).emb x)) Finset.univ := by
  unfold run0.sl.Hr1_w483
  unfold run0.sl.r_310
  exact congrArg (fun w => View.write (Elt F) (sO.access (Rect.unit (s := S2x16x256) ![1, 3, 224] S1x1x16.size inb_S2x16x256_S1x1x16_1_3_224)) (run0.sl.Hr1_w482 d L fx fr) w Finset.univ)
    (funext fun x => (pieceA' _ _ _ _ _ _ _ (by decide) x).symm)

set_option maxHeartbeats 1000000 in
theorem step1_228 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w484 d L fx fr = View.write (Elt F) (sO.access (Rect.unit (s := S2x16x256) ![1, 4, 224] S1x1x16.size inb_S2x16x256_S1x1x16_1_4_224)) (run0.sl.Hr1_w483 d L fx fr)
      (fun x => Gs (sSlot1.view.writes (Elt F) sSlot1.view.junk [⟨Rect.whole S16x256, run0.sl.dma0_1 d L fx⟩]) ((Rect.unit (s := S2x16x256) ![1, 4, 224] S1x1x16.size inb_S2x16x256_S1x1x16_1_4_224).emb x)) Finset.univ := by
  unfold run0.sl.Hr1_w484
  exact congrArg (fun w => View.write (Elt F) (sO.access (Rect.unit (s := S2x16x256) ![1, 4, 224] S1x1x16.size inb_S2x16x256_S1x1x16_1_4_224)) (run0.sl.Hr1_w483 d L fx fr) w Finset.univ)
    (funext fun x => (pieceA' _ _ _ _ _ _ _ (by decide) x).symm)

set_option maxHeartbeats 1000000 in
theorem step1_229 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w485 d L fx fr = View.write (Elt F) (sO.access (Rect.unit (s := S2x16x256) ![1, 5, 224] S1x1x16.size inb_S2x16x256_S1x1x16_1_5_224)) (run0.sl.Hr1_w484 d L fx fr)
      (fun x => Gs (sSlot1.view.writes (Elt F) sSlot1.view.junk [⟨Rect.whole S16x256, run0.sl.dma0_1 d L fx⟩]) ((Rect.unit (s := S2x16x256) ![1, 5, 224] S1x1x16.size inb_S2x16x256_S1x1x16_1_5_224).emb x)) Finset.univ := by
  unfold run0.sl.Hr1_w485
  exact congrArg (fun w => View.write (Elt F) (sO.access (Rect.unit (s := S2x16x256) ![1, 5, 224] S1x1x16.size inb_S2x16x256_S1x1x16_1_5_224)) (run0.sl.Hr1_w484 d L fx fr) w Finset.univ)
    (funext fun x => (pieceA' _ _ _ _ _ _ _ (by decide) x).symm)

set_option maxHeartbeats 1000000 in
theorem step1_230 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w486 d L fx fr = View.write (Elt F) (sO.access (Rect.unit (s := S2x16x256) ![1, 6, 224] S1x1x16.size inb_S2x16x256_S1x1x16_1_6_224)) (run0.sl.Hr1_w485 d L fx fr)
      (fun x => Gs (sSlot1.view.writes (Elt F) sSlot1.view.junk [⟨Rect.whole S16x256, run0.sl.dma0_1 d L fx⟩]) ((Rect.unit (s := S2x16x256) ![1, 6, 224] S1x1x16.size inb_S2x16x256_S1x1x16_1_6_224).emb x)) Finset.univ := by
  unfold run0.sl.Hr1_w486
  unfold run0.sl.r_312
  exact congrArg (fun w => View.write (Elt F) (sO.access (Rect.unit (s := S2x16x256) ![1, 6, 224] S1x1x16.size inb_S2x16x256_S1x1x16_1_6_224)) (run0.sl.Hr1_w485 d L fx fr) w Finset.univ)
    (funext fun x => (pieceA' _ _ _ _ _ _ _ (by decide) x).symm)

set_option maxHeartbeats 1000000 in
theorem step1_231 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w487 d L fx fr = View.write (Elt F) (sO.access (Rect.unit (s := S2x16x256) ![1, 7, 224] S1x1x16.size inb_S2x16x256_S1x1x16_1_7_224)) (run0.sl.Hr1_w486 d L fx fr)
      (fun x => Gs (sSlot1.view.writes (Elt F) sSlot1.view.junk [⟨Rect.whole S16x256, run0.sl.dma0_1 d L fx⟩]) ((Rect.unit (s := S2x16x256) ![1, 7, 224] S1x1x16.size inb_S2x16x256_S1x1x16_1_7_224).emb x)) Finset.univ := by
  unfold run0.sl.Hr1_w487
  exact congrArg (fun w => View.write (Elt F) (sO.access (Rect.unit (s := S2x16x256) ![1, 7, 224] S1x1x16.size inb_S2x16x256_S1x1x16_1_7_224)) (run0.sl.Hr1_w486 d L fx fr) w Finset.univ)
    (funext fun x => (pieceA' _ _ _ _ _ _ _ (by decide) x).symm)

set_option maxHeartbeats 1000000 in
theorem step1_232 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w488 d L fx fr = View.write (Elt F) (sO.access (Rect.unit (s := S2x16x256) ![1, 8, 224] S1x1x16.size inb_S2x16x256_S1x1x16_1_8_224)) (run0.sl.Hr1_w487 d L fx fr)
      (fun x => Gs (sSlot1.view.writes (Elt F) sSlot1.view.junk [⟨Rect.whole S16x256, run0.sl.dma0_1 d L fx⟩]) ((Rect.unit (s := S2x16x256) ![1, 8, 224] S1x1x16.size inb_S2x16x256_S1x1x16_1_8_224).emb x)) Finset.univ := by
  unfold run0.sl.Hr1_w488
  exact congrArg (fun w => View.write (Elt F) (sO.access (Rect.unit (s := S2x16x256) ![1, 8, 224] S1x1x16.size inb_S2x16x256_S1x1x16_1_8_224)) (run0.sl.Hr1_w487 d L fx fr) w Finset.univ)
    (funext fun x => (pieceA' _ _ _ _ _ _ _ (by decide) x).symm)

set_option maxHeartbeats 1000000 in
theorem step1_233 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w489 d L fx fr = View.write (Elt F) (sO.access (Rect.unit (s := S2x16x256) ![1, 9, 224] S1x1x16.size inb_S2x16x256_S1x1x16_1_9_224)) (run0.sl.Hr1_w488 d L fx fr)
      (fun x => Gs (sSlot1.view.writes (Elt F) sSlot1.view.junk [⟨Rect.whole S16x256, run0.sl.dma0_1 d L fx⟩]) ((Rect.unit (s := S2x16x256) ![1, 9, 224] S1x1x16.size inb_S2x16x256_S1x1x16_1_9_224).emb x)) Finset.univ := by
  unfold run0.sl.Hr1_w489
  exact congrArg (fun w => View.write (Elt F) (sO.access (Rect.unit (s := S2x16x256) ![1, 9, 224] S1x1x16.size inb_S2x16x256_S1x1x16_1_9_224)) (run0.sl.Hr1_w488 d L fx fr) w Finset.univ)
    (funext fun x => (pieceA' _ _ _ _ _ _ _ (by decide) x).symm)

set_option maxHeartbeats 1000000 in
theorem step1_234 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w490 d L fx fr = View.write (Elt F) (sO.access (Rect.unit (s := S2x16x256) ![1, 10, 224] S1x1x16.size inb_S2x16x256_S1x1x16_1_10_224)) (run0.sl.Hr1_w489 d L fx fr)
      (fun x => Gs (sSlot1.view.writes (Elt F) sSlot1.view.junk [⟨Rect.whole S16x256, run0.sl.dma0_1 d L fx⟩]) ((Rect.unit (s := S2x16x256) ![1, 10, 224] S1x1x16.size inb_S2x16x256_S1x1x16_1_10_224).emb x)) Finset.univ := by
  unfold run0.sl.Hr1_w490
  exact congrArg (fun w => View.write (Elt F) (sO.access (Rect.unit (s := S2x16x256) ![1, 10, 224] S1x1x16.size inb_S2x16x256_S1x1x16_1_10_224)) (run0.sl.Hr1_w489 d L fx fr) w Finset.univ)
    (funext fun x => (pieceA' _ _ _ _ _ _ _ (by decide) x).symm)

set_option maxHeartbeats 1000000 in
theorem step1_235 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w491 d L fx fr = View.write (Elt F) (sO.access (Rect.unit (s := S2x16x256) ![1, 11, 224] S1x1x16.size inb_S2x16x256_S1x1x16_1_11_224)) (run0.sl.Hr1_w490 d L fx fr)
      (fun x => Gs (sSlot1.view.writes (Elt F) sSlot1.view.junk [⟨Rect.whole S16x256, run0.sl.dma0_1 d L fx⟩]) ((Rect.unit (s := S2x16x256) ![1, 11, 224] S1x1x16.size inb_S2x16x256_S1x1x16_1_11_224).emb x)) Finset.univ := by
  unfold run0.sl.Hr1_w491
  exact congrArg (fun w => View.write (Elt F) (sO.access (Rect.unit (s := S2x16x256) ![1, 11, 224] S1x1x16.size inb_S2x16x256_S1x1x16_1_11_224)) (run0.sl.Hr1_w490 d L fx fr) w Finset.univ)
    (funext fun x => (pieceA' _ _ _ _ _ _ _ (by decide) x).symm)

set_option maxHeartbeats 1000000 in
theorem step1_236 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w492 d L fx fr = View.write (Elt F) (sO.access (Rect.unit (s := S2x16x256) ![1, 12, 224] S1x1x16.size inb_S2x16x256_S1x1x16_1_12_224)) (run0.sl.Hr1_w491 d L fx fr)
      (fun x => Gs (sSlot1.view.writes (Elt F) sSlot1.view.junk [⟨Rect.whole S16x256, run0.sl.dma0_1 d L fx⟩]) ((Rect.unit (s := S2x16x256) ![1, 12, 224] S1x1x16.size inb_S2x16x256_S1x1x16_1_12_224).emb x)) Finset.univ := by
  unfold run0.sl.Hr1_w492
  exact congrArg (fun w => View.write (Elt F) (sO.access (Rect.unit (s := S2x16x256) ![1, 12, 224] S1x1x16.size inb_S2x16x256_S1x1x16_1_12_224)) (run0.sl.Hr1_w491 d L fx fr) w Finset.univ)
    (funext fun x => (pieceA' _ _ _ _ _ _ _ (by decide) x).symm)

set_option maxHeartbeats 1000000 in
theorem step1_237 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w493 d L fx fr = View.write (Elt F) (sO.access (Rect.unit (s := S2x16x256) ![1, 13, 224] S1x1x16.size inb_S2x16x256_S1x1x16_1_13_224)) (run0.sl.Hr1_w492 d L fx fr)
      (fun x => Gs (sSlot1.view.writes (Elt F) sSlot1.view.junk [⟨Rect.whole S16x256, run0.sl.dma0_1 d L fx⟩]) ((Rect.unit (s := S2x16x256) ![1, 13, 224] S1x1x16.size inb_S2x16x256_S1x1x16_1_13_224).emb x)) Finset.univ := by
  unfold run0.sl.Hr1_w493
  exact congrArg (fun w => View.write (Elt F) (sO.access (Rect.unit (s := S2x16x256) ![1, 13, 224] S1x1x16.size inb_S2x16x256_S1x1x16_1_13_224)) (run0.sl.Hr1_w492 d L fx fr) w Finset.univ)
    (funext fun x => (pieceA' _ _ _ _ _ _ _ (by decide) x).symm)

set_option maxHeartbeats 1000000 in
theorem step1_238 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w494 d L fx fr = View.write (Elt F) (sO.access (Rect.unit (s := S2x16x256) ![1, 14, 224] S1x1x16.size inb_S2x16x256_S1x1x16_1_14_224)) (run0.sl.Hr1_w493 d L fx fr)
      (fun x => Gs (sSlot1.view.writes (Elt F) sSlot1.view.junk [⟨Rect.whole S16x256, run0.sl.dma0_1 d L fx⟩]) ((Rect.unit (s := S2x16x256) ![1, 14, 224] S1x1x16.size inb_S2x16x256_S1x1x16_1_14_224).emb x)) Finset.univ := by
  unfold run0.sl.Hr1_w494
  unfold run0.sl.r_315
  exact congrArg (fun w => View.write (Elt F) (sO.access (Rect.unit (s := S2x16x256) ![1, 14, 224] S1x1x16.size inb_S2x16x256_S1x1x16_1_14_224)) (run0.sl.Hr1_w493 d L fx fr) w Finset.univ)
    (funext fun x => (pieceA' _ _ _ _ _ _ _ (by decide) x).symm)

set_option maxHeartbeats 1000000 in
theorem step1_239 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w495 d L fx fr = View.write (Elt F) (sO.access (Rect.unit (s := S2x16x256) ![1, 15, 224] S1x1x16.size inb_S2x16x256_S1x1x16_1_15_224)) (run0.sl.Hr1_w494 d L fx fr)
      (fun x => Gs (sSlot1.view.writes (Elt F) sSlot1.view.junk [⟨Rect.whole S16x256, run0.sl.dma0_1 d L fx⟩]) ((Rect.unit (s := S2x16x256) ![1, 15, 224] S1x1x16.size inb_S2x16x256_S1x1x16_1_15_224).emb x)) Finset.univ := by
  unfold run0.sl.Hr1_w495
  exact congrArg (fun w => View.write (Elt F) (sO.access (Rect.unit (s := S2x16x256) ![1, 15, 224] S1x1x16.size inb_S2x16x256_S1x1x16_1_15_224)) (run0.sl.Hr1_w494 d L fx fr) w Finset.univ)
    (funext fun x => (pieceA' _ _ _ _ _ _ _ (by decide) x).symm)

set_option maxHeartbeats 1000000 in
theorem step1_240 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w496 d L fx fr = View.write (Elt F) (sO.access (Rect.unit (s := S2x16x256) ![1, 0, 224] S1x1x16.size inb_S2x16x256_S1x1x16_1_0_224)) (run0.sl.Hr1_w495 d L fx fr)
      (fun x => Gs (sSlot1.view.writes (Elt F) sSlot1.view.junk [⟨Rect.whole S16x256, run0.sl.dma0_1 d L fx⟩]) ((Rect.unit (s := S2x16x256) ![1, 0, 224] S1x1x16.size inb_S2x16x256_S1x1x16_1_0_224).emb x)) Finset.univ := by
  unfold run0.sl.Hr1_w496
  unfold run0.sl.r_308 run0.sl.r_316 run0.sl.r_314 run0.sl.r_313 run0.sl.r_311 run0.sl.r_312 run0.sl.r_309 run0.sl.r_310
  exact congrArg (fun w => View.write (Elt F) (sO.access (Rect.unit (s := S2x16x256) ![1, 0, 224] S1x1x16.size inb_S2x16x256_S1x1x16_1_0_224)) (run0.sl.Hr1_w495 d L fx fr) w Finset.univ)
    (funext fun x => (pieceB' (sSlot1.view.writes (Elt F) sSlot1.view.junk [⟨Rect.whole S16x256, run0.sl.dma0_1 d L fx⟩]) 1 224 inb_S2x16x256_S1x1x16_1_0_224 inb_S2x16x256_S1x1x16_1_1_224 inb_S2x16x256_S1x1x16_1_2_224 inb_S2x16x256_S1x1x16_1_3_224 inb_S2x16x256_S1x1x16_1_4_224 inb_S2x16x256_S1x1x16_1_5_224 inb_S2x16x256_S1x1x16_1_6_224 inb_S2x16x256_S1x1x16_1_7_224 inb_S2x16x256_S1x1x16_1_8_224 inb_S2x16x256_S1x1x16_1_9_224 inb_S2x16x256_S1x1x16_1_10_224 inb_S2x16x256_S1x1x16_1_11_224 inb_S2x16x256_S1x1x16_1_12_224 inb_S2x16x256_S1x1x16_1_13_224 inb_S2x16x256_S1x1x16_1_14_224 inb_S2x16x256_S1x1x16_1_15_224 shapeCasts_S1x1x16_S16 shapeCasts_S16_S1x1x16 x).symm)

set_option maxHeartbeats 1000000 in
theorem step1_241 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w497 d L fx fr = View.write (Elt F) (sO.access (Rect.unit (s := S2x16x256) ![1, 1, 240] S1x1x16.size inb_S2x16x256_S1x1x16_1_1_240)) (run0.sl.Hr1_w496 d L fx fr)
      (fun x => Gs (sSlot1.view.writes (Elt F) sSlot1.view.junk [⟨Rect.whole S16x256, run0.sl.dma0_1 d L fx⟩]) ((Rect.unit (s := S2x16x256) ![1, 1, 240] S1x1x16.size inb_S2x16x256_S1x1x16_1_1_240).emb x)) Finset.univ := by
  unfold run0.sl.Hr1_w497
  unfold run0.sl.r_318
  exact congrArg (fun w => View.write (Elt F) (sO.access (Rect.unit (s := S2x16x256) ![1, 1, 240] S1x1x16.size inb_S2x16x256_S1x1x16_1_1_240)) (run0.sl.Hr1_w496 d L fx fr) w Finset.univ)
    (funext fun x => (pieceA' _ _ _ _ _ _ _ (by decide) x).symm)

set_option maxHeartbeats 1000000 in
theorem step1_242 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w498 d L fx fr = View.write (Elt F) (sO.access (Rect.unit (s := S2x16x256) ![1, 2, 240] S1x1x16.size inb_S2x16x256_S1x1x16_1_2_240)) (run0.sl.Hr1_w497 d L fx fr)
      (fun x => Gs (sSlot1.view.writes (Elt F) sSlot1.view.junk [⟨Rect.whole S16x256, run0.sl.dma0_1 d L fx⟩]) ((Rect.unit (s := S2x16x256) ![1, 2, 240] S1x1x16.size inb_S2x16x256_S1x1x16_1_2_240).emb x)) Finset.univ := by
  unfold run0.sl.Hr1_w498
  exact congrArg (fun w => View.write (Elt F) (sO.access (Rect.unit (s := S2x16x256) ![1, 2, 240] S1x1x16.size inb_S2x16x256_S1x1x16_1_2_240)) (run0.sl.Hr1_w497 d L fx fr) w Finset.univ)
    (funext fun x => (pieceA' _ _ _ _ _ _ _ (by decide) x).symm)

set_option maxHeartbeats 1000000 in
theorem step1_243 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w499 d L fx fr = View.write (Elt F) (sO.access (Rect.unit (s := S2x16x256) ![1, 3, 240] S1x1x16.size inb_S2x16x256_S1x1x16_1_3_240)) (run0.sl.Hr1_w498 d L fx fr)
      (fun x => Gs (sSlot1.view.writes (Elt F) sSlot1.view.junk [⟨Rect.whole S16x256, run0.sl.dma0_1 d L fx⟩]) ((Rect.unit (s := S2x16x256) ![1, 3, 240] S1x1x16.size inb_S2x16x256_S1x1x16_1_3_240).emb x)) Finset.univ := by
  unfold run0.sl.Hr1_w499
  exact congrArg (fun w => View.write (Elt F) (sO.access (Rect.unit (s := S2x16x256) ![1, 3, 240] S1x1x16.size inb_S2x16x256_S1x1x16_1_3_240)) (run0.sl.Hr1_w498 d L fx fr) w Finset.univ)
    (funext fun x => (pieceA' _ _ _ _ _ _ _ (by decide) x).symm)

set_option maxHeartbeats 1000000 in
theorem step1_244 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w500 d L fx fr = View.write (Elt F) (sO.access (Rect.unit (s := S2x16x256) ![1, 4, 240] S1x1x16.size inb_S2x16x256_S1x1x16_1_4_240)) (run0.sl.Hr1_w499 d L fx fr)
      (fun x => Gs (sSlot1.view.writes (Elt F) sSlot1.view.junk [⟨Rect.whole S16x256, run0.sl.dma0_1 d L fx⟩]) ((Rect.unit (s := S2x16x256) ![1, 4, 240] S1x1x16.size inb_S2x16x256_S1x1x16_1_4_240).emb x)) Finset.univ := by
  unfold run0.sl.Hr1_w500
  unfold run0.sl.r_320
  exact congrArg (fun w => View.write (Elt F) (sO.access (Rect.unit (s := S2x16x256) ![1, 4, 240] S1x1x16.size inb_S2x16x256_S1x1x16_1_4_240)) (run0.sl.Hr1_w499 d L fx fr) w Finset.univ)
    (funext fun x => (pieceA' _ _ _ _ _ _ _ (by decide) x).symm)

set_option maxHeartbeats 1000000 in
theorem step1_245 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w501 d L fx fr = View.write (Elt F) (sO.access (Rect.unit (s := S2x16x256) ![1, 5, 240] S1x1x16.size inb_S2x16x256_S1x1x16_1_5_240)) (run0.sl.Hr1_w500 d L fx fr)
      (fun x => Gs (sSlot1.view.writes (Elt F) sSlot1.view.junk [⟨Rect.whole S16x256, run0.sl.dma0_1 d L fx⟩]) ((Rect.unit (s := S2x16x256) ![1, 5, 240] S1x1x16.size inb_S2x16x256_S1x1x16_1_5_240).emb x)) Finset.univ := by
  unfold run0.sl.Hr1_w501
  exact congrArg (fun w => View.write (Elt F) (sO.access (Rect.unit (s := S2x16x256) ![1, 5, 240] S1x1x16.size inb_S2x16x256_S1x1x16_1_5_240)) (run0.sl.Hr1_w500 d L fx fr) w Finset.univ)
    (funext fun x => (pieceA' _ _ _ _ _ _ _ (by decide) x).symm)

set_option maxHeartbeats 1000000 in
theorem step1_246 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w502 d L fx fr = View.write (Elt F) (sO.access (Rect.unit (s := S2x16x256) ![1, 6, 240] S1x1x16.size inb_S2x16x256_S1x1x16_1_6_240)) (run0.sl.Hr1_w501 d L fx fr)
      (fun x => Gs (sSlot1.view.writes (Elt F) sSlot1.view.junk [⟨Rect.whole S16x256, run0.sl.dma0_1 d L fx⟩]) ((Rect.unit (s := S2x16x256) ![1, 6, 240] S1x1x16.size inb_S2x16x256_S1x1x16_1_6_240).emb x)) Finset.univ := by
  unfold run0.sl.Hr1_w502
  exact congrArg (fun w => View.write (Elt F) (sO.access (Rect.unit (s := S2x16x256) ![1, 6, 240] S1x1x16.size inb_S2x16x256_S1x1x16_1_6_240)) (run0.sl.Hr1_w501 d L fx fr) w Finset.univ)
    (funext fun x => (pieceA' _ _ _ _ _ _ _ (by decide) x).symm)

set_option maxHeartbeats 1000000 in
theorem step1_247 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w503 d L fx fr = View.write (Elt F) (sO.access (Rect.unit (s := S2x16x256) ![1, 7, 240] S1x1x16.size inb_S2x16x256_S1x1x16_1_7_240)) (run0.sl.Hr1_w502 d L fx fr)
      (fun x => Gs (sSlot1.view.writes (Elt F) sSlot1.view.junk [⟨Rect.whole S16x256, run0.sl.dma0_1 d L fx⟩]) ((Rect.unit (s := S2x16x256) ![1, 7, 240] S1x1x16.size inb_S2x16x256_S1x1x16_1_7_240).emb x)) Finset.univ := by
  unfold run0.sl.Hr1_w503
  unfold run0.sl.r_323
  exact congrArg (fun w => View.write (Elt F) (sO.access (Rect.unit (s := S2x16x256) ![1, 7, 240] S1x1x16.size inb_S2x16x256_S1x1x16_1_7_240)) (run0.sl.Hr1_w502 d L fx fr) w Finset.univ)
    (funext fun x => (pieceA' _ _ _ _ _ _ _ (by decide) x).symm)

set_option maxHeartbeats 1000000 in
theorem step1_248 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w504 d L fx fr = View.write (Elt F) (sO.access (Rect.unit (s := S2x16x256) ![1, 8, 240] S1x1x16.size inb_S2x16x256_S1x1x16_1_8_240)) (run0.sl.Hr1_w503 d L fx fr)
      (fun x => Gs (sSlot1.view.writes (Elt F) sSlot1.view.junk [⟨Rect.whole S16x256, run0.sl.dma0_1 d L fx⟩]) ((Rect.unit (s := S2x16x256) ![1, 8, 240] S1x1x16.size inb_S2x16x256_S1x1x16_1_8_240).emb x)) Finset.univ := by
  unfold run0.sl.Hr1_w504
  exact congrArg (fun w => View.write (Elt F) (sO.access (Rect.unit (s := S2x16x256) ![1, 8, 240] S1x1x16.size inb_S2x16x256_S1x1x16_1_8_240)) (run0.sl.Hr1_w503 d L fx fr) w Finset.univ)
    (funext fun x => (pieceA' _ _ _ _ _ _ _ (by decide) x).symm)

set_option maxHeartbeats 1000000 in
theorem step1_249 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w505 d L fx fr = View.write (Elt F) (sO.access (Rect.unit (s := S2x16x256) ![1, 9, 240] S1x1x16.size inb_S2x16x256_S1x1x16_1_9_240)) (run0.sl.Hr1_w504 d L fx fr)
      (fun x => Gs (sSlot1.view.writes (Elt F) sSlot1.view.junk [⟨Rect.whole S16x256, run0.sl.dma0_1 d L fx⟩]) ((Rect.unit (s := S2x16x256) ![1, 9, 240] S1x1x16.size inb_S2x16x256_S1x1x16_1_9_240).emb x)) Finset.univ := by
  unfold run0.sl.Hr1_w505
  exact congrArg (fun w => View.write (Elt F) (sO.access (Rect.unit (s := S2x16x256) ![1, 9, 240] S1x1x16.size inb_S2x16x256_S1x1x16_1_9_240)) (run0.sl.Hr1_w504 d L fx fr) w Finset.univ)
    (funext fun x => (pieceA' _ _ _ _ _ _ _ (by decide) x).symm)

set_option maxHeartbeats 1000000 in
theorem step1_250 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w506 d L fx fr = View.write (Elt F) (sO.access (Rect.unit (s := S2x16x256) ![1, 10, 240] S1x1x16.size inb_S2x16x256_S1x1x16_1_10_240)) (run0.sl.Hr1_w505 d L fx fr)
      (fun x => Gs (sSlot1.view.writes (Elt F) sSlot1.view.junk [⟨Rect.whole S16x256, run0.sl.dma0_1 d L fx⟩]) ((Rect.unit (s := S2x16x256) ![1, 10, 240] S1x1x16.size inb_S2x16x256_S1x1x16_1_10_240).emb x)) Finset.univ := by
  unfold run0.sl.Hr1_w506
  unfold run0.sl.r_325
  exact congrArg (fun w => View.write (Elt F) (sO.access (Rect.unit (s := S2x16x256) ![1, 10, 240] S1x1x16.size inb_S2x16x256_S1x1x16_1_10_240)) (run0.sl.Hr1_w505 d L fx fr) w Finset.univ)
    (funext fun x => (pieceA' _ _ _ _ _ _ _ (by decide) x).symm)

set_option maxHeartbeats 1000000 in
theorem step1_251 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w507 d L fx fr = View.write (Elt F) (sO.access (Rect.unit (s := S2x16x256) ![1, 11, 240] S1x1x16.size inb_S2x16x256_S1x1x16_1_11_240)) (run0.sl.Hr1_w506 d L fx fr)
      (fun x => Gs (sSlot1.view.writes (Elt F) sSlot1.view.junk [⟨Rect.whole S16x256, run0.sl.dma0_1 d L fx⟩]) ((Rect.unit (s := S2x16x256) ![1, 11, 240] S1x1x16.size inb_S2x16x256_S1x1x16_1_11_240).emb x)) Finset.univ := by
  unfold run0.sl.Hr1_w507
  exact congrArg (fun w => View.write (Elt F) (sO.access (Rect.unit (s := S2x16x256) ![1, 11, 240] S1x1x16.size inb_S2x16x256_S1x1x16_1_11_240)) (run0.sl.Hr1_w506 d L fx fr) w Finset.univ)
    (funext fun x => (pieceA' _ _ _ _ _ _ _ (by decide) x).symm)

set_option maxHeartbeats 1000000 in
theorem step1_252 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w508 d L fx fr = View.write (Elt F) (sO.access (Rect.unit (s := S2x16x256) ![1, 12, 240] S1x1x16.size inb_S2x16x256_S1x1x16_1_12_240)) (run0.sl.Hr1_w507 d L fx fr)
      (fun x => Gs (sSlot1.view.writes (Elt F) sSlot1.view.junk [⟨Rect.whole S16x256, run0.sl.dma0_1 d L fx⟩]) ((Rect.unit (s := S2x16x256) ![1, 12, 240] S1x1x16.size inb_S2x16x256_S1x1x16_1_12_240).emb x)) Finset.univ := by
  unfold run0.sl.Hr1_w508
  exact congrArg (fun w => View.write (Elt F) (sO.access (Rect.unit (s := S2x16x256) ![1, 12, 240] S1x1x16.size inb_S2x16x256_S1x1x16_1_12_240)) (run0.sl.Hr1_w507 d L fx fr) w Finset.univ)
    (funext fun x => (pieceA' _ _ _ _ _ _ _ (by decide) x).symm)

set_option maxHeartbeats 1000000 in
theorem step1_253 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w509 d L fx fr = View.write (Elt F) (sO.access (Rect.unit (s := S2x16x256) ![1, 13, 240] S1x1x16.size inb_S2x16x256_S1x1x16_1_13_240)) (run0.sl.Hr1_w508 d L fx fr)
      (fun x => Gs (sSlot1.view.writes (Elt F) sSlot1.view.junk [⟨Rect.whole S16x256, run0.sl.dma0_1 d L fx⟩]) ((Rect.unit (s := S2x16x256) ![1, 13, 240] S1x1x16.size inb_S2x16x256_S1x1x16_1_13_240).emb x)) Finset.univ := by
  unfold run0.sl.Hr1_w509
  exact congrArg (fun w => View.write (Elt F) (sO.access (Rect.unit (s := S2x16x256) ![1, 13, 240] S1x1x16.size inb_S2x16x256_S1x1x16_1_13_240)) (run0.sl.Hr1_w508 d L fx fr) w Finset.univ)
    (funext fun x => (pieceA' _ _ _ _ _ _ _ (by decide) x).symm)

set_option maxHeartbeats 1000000 in
theorem step1_254 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w510 d L fx fr = View.write (Elt F) (sO.access (Rect.unit (s := S2x16x256) ![1, 14, 240] S1x1x16.size inb_S2x16x256_S1x1x16_1_14_240)) (run0.sl.Hr1_w509 d L fx fr)
      (fun x => Gs (sSlot1.view.writes (Elt F) sSlot1.view.junk [⟨Rect.whole S16x256, run0.sl.dma0_1 d L fx⟩]) ((Rect.unit (s := S2x16x256) ![1, 14, 240] S1x1x16.size inb_S2x16x256_S1x1x16_1_14_240).emb x)) Finset.univ := by
  unfold run0.sl.Hr1_w510
  exact congrArg (fun w => View.write (Elt F) (sO.access (Rect.unit (s := S2x16x256) ![1, 14, 240] S1x1x16.size inb_S2x16x256_S1x1x16_1_14_240)) (run0.sl.Hr1_w509 d L fx fr) w Finset.univ)
    (funext fun x => (pieceA' _ _ _ _ _ _ _ (by decide) x).symm)

set_option maxHeartbeats 1000000 in
theorem step1_255 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w511 d L fx fr = View.write (Elt F) (sO.access (Rect.unit (s := S2x16x256) ![1, 15, 240] S1x1x16.size inb_S2x16x256_S1x1x16_1_15_240)) (run0.sl.Hr1_w510 d L fx fr)
      (fun x => Gs (sSlot1.view.writes (Elt F) sSlot1.view.junk [⟨Rect.whole S16x256, run0.sl.dma0_1 d L fx⟩]) ((Rect.unit (s := S2x16x256) ![1, 15, 240] S1x1x16.size inb_S2x16x256_S1x1x16_1_15_240).emb x)) Finset.univ := by
  unfold run0.sl.Hr1_w511
  exact congrArg (fun w => View.write (Elt F) (sO.access (Rect.unit (s := S2x16x256) ![1, 15, 240] S1x1x16.size inb_S2x16x256_S1x1x16_1_15_240)) (run0.sl.Hr1_w510 d L fx fr) w Finset.univ)
    (funext fun x => (pieceA' _ _ _ _ _ _ _ (by decide) x).symm)

set_option maxHeartbeats 1000000 in
theorem step1_256 [∀ e, Nonempty (Elt F e)] (d : Dev nD) (L : grid0.Coords)
    (fx : Buf (Elt F) ((xV).view.loc (V d (cV L) (jV L)))) (fr : Buf (Elt F) ((sO).view.loc (V d (cV L) (jV L)))) :
    run0.sl.Hr1_w512 d L fx fr = View.write (Elt F) (sO.access (Rect.unit (s := S2x16x256) ![1, 0, 240] S1x1x16.size inb_S2x16x256_S1x1x16_1_0_240)) (run0.sl.Hr1_w511 d L fx fr)
      (fun x => Gs (sSlot1.view.writes (Elt F) sSlot1.view.junk [⟨Rect.whole S16x256, run0.sl.dma0_1 d L fx⟩]) ((Rect.unit (s := S2x16x256) ![1, 0, 240] S1x1x16.size inb_S2x16x256_S1x1x16_1_0_240).emb x)) Finset.univ := by
  unfold run0.sl.Hr1_w512
  unfold run0.sl.r_317 run0.sl.r_327 run0.sl.r_326 run0.sl.r_324 run0.sl.r_325 run0.sl.r_322 run0.sl.r_323 run0.sl.r_321 run0.sl.r_319
  exact congrArg (fun w => View.write (Elt F) (sO.access (Rect.unit (s := S2x16x256) ![1, 0, 240] S1x1x16.size inb_S2x16x256_S1x1x16_1_0_240)) (run0.sl.Hr1_w511 d L fx fr) w Finset.univ)
    (funext fun x => (pieceB' (sSlot1.view.writes (Elt F) sSlot1.view.junk [⟨Rect.whole S16x256, run0.sl.dma0_1 d L fx⟩]) 1 240 inb_S2x16x256_S1x1x16_1_0_240 inb_S2x16x256_S1x1x16_1_1_240 inb_S2x16x256_S1x1x16_1_2_240 inb_S2x16x256_S1x1x16_1_3_240 inb_S2x16x256_S1x1x16_1_4_240 inb_S2x16x256_S1x1x16_1_5_240 inb_S2x16x256_S1x1x16_1_6_240 inb_S2x16x256_S1x1x16_1_7_240 inb_S2x16x256_S1x1x16_1_8_240 inb_S2x16x256_S1x1x16_1_9_240 inb_S2x16x256_S1x1x16_1_10_240 inb_S2x16x256_S1x1x16_1_11_240 inb_S2x16x256_S1x1x16_1_12_240 inb_S2x16x256_S1x1x16_1_13_240 inb_S2x16x256_S1x1x16_1_14_240 inb_S2x16x256_S1x1x16_1_15_240 shapeCasts_S1x1x16_S16 shapeCasts_S16_S1x1x16 x).symm)

set_option maxHeartbeats 0 in
/-- The result scratch after slot 1's stores is the slot function of the score scratch, on slot 1. -/
theorem slot1_val [∀ e, Nonempty (Elt F e)] (d : Dev nD) (L : grid0.Coords)
    (fx : Buf (Elt F) ((xV).view.loc (V d (cV L) (jV L)))) (fr : Buf (Elt F) ((sO).view.loc (V d (cV L) (jV L)))) (y : S2x16x256.Idx) (hy : (y 0).val = 1) :
    run0.sl.Hr1_w512 d L fx fr y = Gs (sSlot1.view.writes (Elt F) sSlot1.view.junk [⟨Rect.whole S16x256, run0.sl.dma0_1 d L fx⟩]) y := by
  have base : ∀ (r : Rect S2x16x256) (w : r.shape.Idx → Elt F .i32), View.write (Elt F) (sO.access r) fr w Finset.univ = sO.view.writes (Elt F) fr [⟨r, w⟩] := fun _ _ => rfl
  rw [step1_256 d L fx fr, step1_255 d L fx fr, step1_254 d L fx fr, step1_253 d L fx fr, step1_252 d L fx fr, step1_251 d L fx fr, step1_250 d L fx fr, step1_249 d L fx fr]
  rw [step1_248 d L fx fr, step1_247 d L fx fr, step1_246 d L fx fr, step1_245 d L fx fr, step1_244 d L fx fr, step1_243 d L fx fr, step1_242 d L fx fr, step1_241 d L fx fr]
  rw [step1_240 d L fx fr, step1_239 d L fx fr, step1_238 d L fx fr, step1_237 d L fx fr, step1_236 d L fx fr, step1_235 d L fx fr, step1_234 d L fx fr, step1_233 d L fx fr]
  rw [step1_232 d L fx fr, step1_231 d L fx fr, step1_230 d L fx fr, step1_229 d L fx fr, step1_228 d L fx fr, step1_227 d L fx fr, step1_226 d L fx fr, step1_225 d L fx fr]
  rw [step1_224 d L fx fr, step1_223 d L fx fr, step1_222 d L fx fr, step1_221 d L fx fr, step1_220 d L fx fr, step1_219 d L fx fr, step1_218 d L fx fr, step1_217 d L fx fr]
  rw [step1_216 d L fx fr, step1_215 d L fx fr, step1_214 d L fx fr, step1_213 d L fx fr, step1_212 d L fx fr, step1_211 d L fx fr, step1_210 d L fx fr, step1_209 d L fx fr]
  rw [step1_208 d L fx fr, step1_207 d L fx fr, step1_206 d L fx fr, step1_205 d L fx fr, step1_204 d L fx fr, step1_203 d L fx fr, step1_202 d L fx fr, step1_201 d L fx fr]
  rw [step1_200 d L fx fr, step1_199 d L fx fr, step1_198 d L fx fr, step1_197 d L fx fr, step1_196 d L fx fr, step1_195 d L fx fr, step1_194 d L fx fr, step1_193 d L fx fr]
  rw [step1_192 d L fx fr, step1_191 d L fx fr, step1_190 d L fx fr, step1_189 d L fx fr, step1_188 d L fx fr, step1_187 d L fx fr, step1_186 d L fx fr, step1_185 d L fx fr]
  rw [step1_184 d L fx fr, step1_183 d L fx fr, step1_182 d L fx fr, step1_181 d L fx fr, step1_180 d L fx fr, step1_179 d L fx fr, step1_178 d L fx fr, step1_177 d L fx fr]
  rw [step1_176 d L fx fr, step1_175 d L fx fr, step1_174 d L fx fr, step1_173 d L fx fr, step1_172 d L fx fr, step1_171 d L fx fr, step1_170 d L fx fr, step1_169 d L fx fr]
  rw [step1_168 d L fx fr, step1_167 d L fx fr, step1_166 d L fx fr, step1_165 d L fx fr, step1_164 d L fx fr, step1_163 d L fx fr, step1_162 d L fx fr, step1_161 d L fx fr]
  rw [step1_160 d L fx fr, step1_159 d L fx fr, step1_158 d L fx fr, step1_157 d L fx fr, step1_156 d L fx fr, step1_155 d L fx fr, step1_154 d L fx fr, step1_153 d L fx fr]
  rw [step1_152 d L fx fr, step1_151 d L fx fr, step1_150 d L fx fr, step1_149 d L fx fr, step1_148 d L fx fr, step1_147 d L fx fr, step1_146 d L fx fr, step1_145 d L fx fr]
  rw [step1_144 d L fx fr, step1_143 d L fx fr, step1_142 d L fx fr, step1_141 d L fx fr, step1_140 d L fx fr, step1_139 d L fx fr, step1_138 d L fx fr, step1_137 d L fx fr]
  rw [step1_136 d L fx fr, step1_135 d L fx fr, step1_134 d L fx fr, step1_133 d L fx fr, step1_132 d L fx fr, step1_131 d L fx fr, step1_130 d L fx fr, step1_129 d L fx fr]
  rw [step1_128 d L fx fr, step1_127 d L fx fr, step1_126 d L fx fr, step1_125 d L fx fr, step1_124 d L fx fr, step1_123 d L fx fr, step1_122 d L fx fr, step1_121 d L fx fr]
  rw [step1_120 d L fx fr, step1_119 d L fx fr, step1_118 d L fx fr, step1_117 d L fx fr, step1_116 d L fx fr, step1_115 d L fx fr, step1_114 d L fx fr, step1_113 d L fx fr]
  rw [step1_112 d L fx fr, step1_111 d L fx fr, step1_110 d L fx fr, step1_109 d L fx fr, step1_108 d L fx fr, step1_107 d L fx fr, step1_106 d L fx fr, step1_105 d L fx fr]
  rw [step1_104 d L fx fr, step1_103 d L fx fr, step1_102 d L fx fr, step1_101 d L fx fr, step1_100 d L fx fr, step1_99 d L fx fr, step1_98 d L fx fr, step1_97 d L fx fr]
  rw [step1_96 d L fx fr, step1_95 d L fx fr, step1_94 d L fx fr, step1_93 d L fx fr, step1_92 d L fx fr, step1_91 d L fx fr, step1_90 d L fx fr, step1_89 d L fx fr]
  rw [step1_88 d L fx fr, step1_87 d L fx fr, step1_86 d L fx fr, step1_85 d L fx fr, step1_84 d L fx fr, step1_83 d L fx fr, step1_82 d L fx fr, step1_81 d L fx fr]
  rw [step1_80 d L fx fr, step1_79 d L fx fr, step1_78 d L fx fr, step1_77 d L fx fr, step1_76 d L fx fr, step1_75 d L fx fr, step1_74 d L fx fr, step1_73 d L fx fr]
  rw [step1_72 d L fx fr, step1_71 d L fx fr, step1_70 d L fx fr, step1_69 d L fx fr, step1_68 d L fx fr, step1_67 d L fx fr, step1_66 d L fx fr, step1_65 d L fx fr]
  rw [step1_64 d L fx fr, step1_63 d L fx fr, step1_62 d L fx fr, step1_61 d L fx fr, step1_60 d L fx fr, step1_59 d L fx fr, step1_58 d L fx fr, step1_57 d L fx fr]
  rw [step1_56 d L fx fr, step1_55 d L fx fr, step1_54 d L fx fr, step1_53 d L fx fr, step1_52 d L fx fr, step1_51 d L fx fr, step1_50 d L fx fr, step1_49 d L fx fr]
  rw [step1_48 d L fx fr, step1_47 d L fx fr, step1_46 d L fx fr, step1_45 d L fx fr, step1_44 d L fx fr, step1_43 d L fx fr, step1_42 d L fx fr, step1_41 d L fx fr]
  rw [step1_40 d L fx fr, step1_39 d L fx fr, step1_38 d L fx fr, step1_37 d L fx fr, step1_36 d L fx fr, step1_35 d L fx fr, step1_34 d L fx fr, step1_33 d L fx fr]
  rw [step1_32 d L fx fr, step1_31 d L fx fr, step1_30 d L fx fr, step1_29 d L fx fr, step1_28 d L fx fr, step1_27 d L fx fr, step1_26 d L fx fr, step1_25 d L fx fr]
  rw [step1_24 d L fx fr, step1_23 d L fx fr, step1_22 d L fx fr, step1_21 d L fx fr, step1_20 d L fx fr, step1_19 d L fx fr, step1_18 d L fx fr, step1_17 d L fx fr]
  rw [step1_16 d L fx fr, step1_15 d L fx fr, step1_14 d L fx fr, step1_13 d L fx fr, step1_12 d L fx fr, step1_11 d L fx fr, step1_10 d L fx fr, step1_9 d L fx fr]
  rw [step1_8 d L fx fr, step1_7 d L fx fr, step1_6 d L fx fr, step1_5 d L fx fr, step1_4 d L fx fr, step1_3 d L fx fr, step1_2 d L fx fr, step1_1 d L fx fr]
  rw [base]; repeat rw [write_writes]
  refine (congrFun (View.read_whole (Val := Elt F) cc0_scratch1 _) y).symm.trans ?_
  refine View.read_writes_apply_of_pieces (View.whole cc0_scratch1) fr (Gs _) _ ?hG y ?hc
  case hG =>
    iterate 256 (refine List.forall_mem_cons.2 ⟨fun x => rfl, ?_⟩)
    exact List.forall_mem_nil _
  case hc => exact cover_slot _ 1 rfl y hy

end Cert.Proof.KI

end
-- ==== Proof.IdealDeliver.lean ====
/-
  Index plumbing between a tile's body and what the launch handshakes carry. A slot of a tile's scratch, squeezed, puts
  index (e, t) at (slot, e, t); a tile's window of a transposed array puts (e, t) at row e, column (window start) + t.
  So what the copy-out of a result slot delivers — the slot's contents, which are the slot function of the score
  slot's contents, which are the score window's — is, at each place of the result window, the specification's function
  of the transposed scores there: the same expert row, the same token column, the condition over the same column of
  all sixteen rows. A window written whole with such a delivery holds the whole-array function.
-/
import proofs.«216989_g62371515073183_cont_9to1_m_320_20_alg».proof.Proof.IdealRun0
import proofs.«216989_g62371515073183_cont_9to1_m_320_20_alg».proof.Proof.IdealPieces
import proofs.«216989_g62371515073183_cont_9to1_m_320_20_alg».proof.Proof.IdealWin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## Where a slot's and a window's indices sit -/

omit [FloatOps F] in
/-- Slot `b` of a 2 × 16 × 256 scratch, squeezed to 16 × 256: index `(e, t)` sits at `(b, e, t)`. -/
theorem slot_emb {κ : Kind} {sp : Space} {el : EltTy} (v : View sig κ sp S2x16x256 el) (b : Fin 2)
    (inb : ∀ a, (![b.val, 0, 0] : Fin 3 → ℕ) a + S1x16x256.size a ≤ S2x16x256.size a)
    (h : S16x256.numel = (Rect.unit (s := S2x16x256) ![b.val, 0, 0] S1x16x256.size inb).shape.numel) (y : S16x256.Idx) :
    ((v.slice (Rect.unit (s := S2x16x256) ![b.val, 0, 0] S1x16x256.size inb)).reshape S16x256 h).emb y
      = v.emb (ix3 b (y 0) (y 1)) := by
  rw [View.emb_reshape, View.emb_slice]
  show v.emb ((Rect.unit (s := S2x16x256) ![b.val, 0, 0] S1x16x256.size inb).emb (Shape.reshapeEquiv h y)) = _
  congr 1
  have hc : Shape.reshapeEquiv h y = Fin.cons ⟨0, Nat.one_pos⟩ y :=
    Shape.reshapeEquiv_cons_one (n := 2) (d := ![16, 256]) h y
  rw [hc]
  funext a
  apply Fin.ext
  rw [Rect.emb_apply]
  match a with
  | ⟨0, _⟩ => show b.val + 1 * 0 = b.val; omega
  | ⟨1, _⟩ => show 0 + 1 * (y 0).val = (y 0).val; omega
  | ⟨2, _⟩ => show 0 + 1 * (y 1).val = (y 1).val; omega

omit [FloatOps F] in
/-- A 16 × 256 window of a 16 × 16384 array from row 0: index `(e, t)` sits at row `e` … -/
theorem win_emb0 (off : Fin 2 → ℕ) (inb : ∀ a, off a + S16x256.size a ≤ S16x16384.size a) (h0 : off 0 = 0) (x : S16x256.Idx) :
    (((Rect.unit (s := S16x16384) off S16x256.size inb).emb x) 0).val = (x 0).val := by
  rw [Rect.emb_apply]
  show off 0 + 1 * (x 0).val = (x 0).val
  rw [h0]; omega
omit [FloatOps F] in
/-- … and column `off 1 + t`. -/
theorem win_emb1 (off : Fin 2 → ℕ) (inb : ∀ a, off a + S16x256.size a ≤ S16x16384.size a) (x : S16x256.Idx) :
    (((Rect.unit (s := S16x16384) off S16x256.size inb).emb x) 1).val = off 1 + (x 1).val := by
  rw [Rect.emb_apply]
  show off 1 + 1 * (x 1).val = off 1 + (x 1).val
  omega

/-- What the copy-out of slot 0 delivers: the specification's function of the transposed scores, at the window's places. -/
theorem deliver0 [∀ e, Nonempty (Elt F e)] (d : Dev nD) (L : grid0.Coords)
    (fx : Buf (Elt F) (xV.view.loc (V d (cV L) (jV L)))) (fr : Buf (Elt F) (sO.view.loc (V d (cV L) (jV L))))
    (hslot : ∀ y : S2x16x256.Idx, (y 0).val = 0 →
      run0.sl.Hr0_w256 d L fx fr y
        = Gs (sSlot0.view.writes (Elt F) sSlot0.view.junk [⟨Rect.whole S16x256, run0.sl.dma0 d L fx⟩]) y) :
    ∀ y : S16x256.Idx, run0.sl.dma770 d L fx fr y = Cert.Threshold.GT (F := F) fx ((oWin0 L).view.emb y) := by
  intro y
  -- the copy-out reads the result scratch at (0, y 0, y 1)
  have hO : oSlot0.view.emb y = ix3 (0 : Fin 2) (y 0) (y 1) :=
    slot_emb (View.whole cc0_scratch1) 0 inb_S2x16x256_S1x16x256_0_0_0 _ y
  have h1 : run0.sl.dma770 d L fx fr y = run0.sl.Hr0_w256 d L fx fr (ix3 (0 : Fin 2) (y 0) (y 1)) := by
    unfold run0.sl.dma770
    show View.read (Elt F) oSlot0.view (run0.sl.Hr0_w256 d L fx fr) y = _
    rw [View.read_apply, hO]
    exact cast_eq _ _
  rw [h1, hslot _ rfl]
  -- the score scratch's slot holds the window of the transposed scores
  have hC : ∀ (e : Fin 16) (t : Fin 256),
      (sSlot0.view.writes (Elt F) sSlot0.view.junk [⟨Rect.whole S16x256, run0.sl.dma0 d L fx⟩]) (ix3 (0 : Fin 2) e t)
        = fx ((xWin0 L).view.emb (ix2 e t)) := by
    intro e t
    have hS : sSlot0.view.emb (ix2 e t) = ix3 (0 : Fin 2) e t :=
      slot_emb (View.whole cc0_scratch0) 0 inb_S2x16x256_S1x16x256_0_0_0 _ (ix2 e t)
    have hw := View.read_writes_cons_emb sSlot0.view (Val := Elt F) sSlot0.view.junk (Rect.whole S16x256)
      (run0.sl.dma0 d L fx) [] (ix2 e t)
    rw [Rect.emb_whole_apply, View.read_apply, hS] at hw
    refine ((cast_eq _ _).symm.trans hw).trans ?_
    unfold run0.sl.dma0
    show View.read (Elt F) (xWin0 L).view fx (ix2 e t) = _
    rw [View.read_apply]
    exact cast_eq _ _
  -- the two windows are the same rectangle: rows untouched, columns shifted alike
  have hoff0 : k0_off1 L 0#32 0 = 0 := rfl
  have hJ0 : (((oWin0 L).view.emb y) 0).val = (y 0).val :=
    win_emb0 (k0_off1 L 0#32) (k0_off1_inb L 0) hoff0 y
  have hA : ∀ e : Fin 16, (xWin0 L).view.emb (ix2 e (y 1)) = ix2 e (((oWin0 L).view.emb y) 1) := fun e => by
    funext a
    match a with
    | ⟨0, _⟩ => exact Fin.ext (win_emb0 (k0_off1 L 0#32) (k0_off1_inb L 0) hoff0 (ix2 e (y 1)))
    | ⟨1, _⟩ =>
      exact Fin.ext ((win_emb1 (k0_off1 L 0#32) (k0_off1_inb L 0) (ix2 e (y 1))).trans
        (win_emb1 (k0_off1 L 0#32) (k0_off1_inb L 0) y).symm)
  have hB : (xWin0 L).view.emb (ix2 (y 0) (y 1)) = (oWin0 L).view.emb y := by
    exact congrArg (fun z => (xWin0 L).view.emb z) (eq_ix2 y).symm
  unfold Gs Cert.Threshold.GT Cert.Threshold.coldT
  by_cases hc : ((y 0).val = 0 ∧ ∀ e : Fin 16, Cert.Threshold.hotBit (F := F) (fx ((xWin0 L).view.emb (ix2 e (y 1)))) = 0#1)
  · have hl : (y 0).val = 0 ∧ ∀ e : Fin 16, Cert.Threshold.hotBit (F := F)
        ((sSlot0.view.writes (Elt F) sSlot0.view.junk [⟨Rect.whole S16x256, run0.sl.dma0 d L fx⟩]) (ix3 (0 : Fin 2) e (y 1))) = 0#1 :=
      ⟨hc.1, fun e => (congrArg (Cert.Threshold.hotBit (F := F)) (hC e (y 1))).trans (hc.2 e)⟩
    have hr : (((oWin0 L).view.emb y) 0).val = 0 ∧ ∀ e : Fin 16, Cert.Threshold.hotBit (F := F) (fx (ix2 e (((oWin0 L).view.emb y) 1))) = 0#1 :=
      ⟨hJ0.trans hc.1, fun e => (congrArg (fun z => Cert.Threshold.hotBit (F := F) (fx z)) (hA e)).symm.trans (hc.2 e)⟩
    exact (if_pos hl).trans (if_pos hr).symm
  · have hl : ¬ ((y 0).val = 0 ∧ ∀ e : Fin 16, Cert.Threshold.hotBit (F := F)
        ((sSlot0.view.writes (Elt F) sSlot0.view.junk [⟨Rect.whole S16x256, run0.sl.dma0 d L fx⟩]) (ix3 (0 : Fin 2) e (y 1))) = 0#1) :=
      fun h => hc ⟨h.1, fun e => (congrArg (Cert.Threshold.hotBit (F := F)) (hC e (y 1))).symm.trans (h.2 e)⟩
    have hr : ¬ ((((oWin0 L).view.emb y) 0).val = 0 ∧ ∀ e : Fin 16, Cert.Threshold.hotBit (F := F) (fx (ix2 e (((oWin0 L).view.emb y) 1))) = 0#1) :=
      fun h => hc ⟨hJ0.symm.trans h.1, fun e => (congrArg (fun z => Cert.Threshold.hotBit (F := F) (fx z)) (hA e)).trans (h.2 e)⟩
    exact (if_neg hl).trans ((congrArg (Cert.Threshold.hot (F := F)) ((hC (y 0) (y 1)).trans (congrArg fx hB))).trans (if_neg hr).symm)

/-- What the copy-out of slot 1 delivers: the specification's function of the transposed scores, at the window's places. -/
theorem deliver1 [∀ e, Nonempty (Elt F e)] (d : Dev nD) (L : grid0.Coords)
    (fx : Buf (Elt F) (xV.view.loc (V d (cV L) (jV L)))) (fr : Buf (Elt F) (sO.view.loc (V d (cV L) (jV L))))
    (hslot : ∀ y : S2x16x256.Idx, (y 0).val = 1 →
      run0.sl.Hr1_w512 d L fx fr y
        = Gs (sSlot1.view.writes (Elt F) sSlot1.view.junk [⟨Rect.whole S16x256, run0.sl.dma0_1 d L fx⟩]) y) :
    ∀ y : S16x256.Idx, run0.sl.dma1539 d L fx fr y = Cert.Threshold.GT (F := F) fx ((oWin1 L).view.emb y) := by
  intro y
  -- the copy-out reads the result scratch at (1, y 0, y 1)
  have hO : oSlot1.view.emb y = ix3 (1 : Fin 2) (y 0) (y 1) :=
    slot_emb (View.whole cc0_scratch1) 1 inb_S2x16x256_S1x16x256_1_0_0 _ y
  have h1 : run0.sl.dma1539 d L fx fr y = run0.sl.Hr1_w512 d L fx fr (ix3 (1 : Fin 2) (y 0) (y 1)) := by
    unfold run0.sl.dma1539
    show View.read (Elt F) oSlot1.view (run0.sl.Hr1_w512 d L fx fr) y = _
    rw [View.read_apply, hO]
    exact cast_eq _ _
  rw [h1, hslot _ rfl]
  -- the score scratch's slot holds the window of the transposed scores
  have hC : ∀ (e : Fin 16) (t : Fin 256),
      (sSlot1.view.writes (Elt F) sSlot1.view.junk [⟨Rect.whole S16x256, run0.sl.dma0_1 d L fx⟩]) (ix3 (1 : Fin 2) e t)
        = fx ((xWin1 L).view.emb (ix2 e t)) := by
    intro e t
    have hS : sSlot1.view.emb (ix2 e t) = ix3 (1 : Fin 2) e t :=
      slot_emb (View.whole cc0_scratch0) 1 inb_S2x16x256_S1x16x256_1_0_0 _ (ix2 e t)
    have hw := View.read_writes_cons_emb sSlot1.view (Val := Elt F) sSlot1.view.junk (Rect.whole S16x256)
      (run0.sl.dma0_1 d L fx) [] (ix2 e t)
    rw [Rect.emb_whole_apply, View.read_apply, hS] at hw
    refine ((cast_eq _ _).symm.trans hw).trans ?_
    unfold run0.sl.dma0_1
    show View.read (Elt F) (xWin1 L).view fx (ix2 e t) = _
    rw [View.read_apply]
    exact cast_eq _ _
  -- the two windows are the same rectangle: rows untouched, columns shifted alike
  have hoff0 : k0_off1 L 256#32 0 = 0 := rfl
  have hJ0 : (((oWin1 L).view.emb y) 0).val = (y 0).val :=
    win_emb0 (k0_off1 L 256#32) (k0_off1_inb L 1) hoff0 y
  have hA : ∀ e : Fin 16, (xWin1 L).view.emb (ix2 e (y 1)) = ix2 e (((oWin1 L).view.emb y) 1) := fun e => by
    funext a
    match a with
    | ⟨0, _⟩ => exact Fin.ext (win_emb0 (k0_off1 L 256#32) (k0_off1_inb L 1) hoff0 (ix2 e (y 1)))
    | ⟨1, _⟩ =>
      exact Fin.ext ((win_emb1 (k0_off1 L 256#32) (k0_off1_inb L 1) (ix2 e (y 1))).trans
        (win_emb1 (k0_off1 L 256#32) (k0_off1_inb L 1) y).symm)
  have hB : (xWin1 L).view.emb (ix2 (y 0) (y 1)) = (oWin1 L).view.emb y := by
    exact congrArg (fun z => (xWin1 L).view.emb z) (eq_ix2 y).symm
  unfold Gs Cert.Threshold.GT Cert.Threshold.coldT
  by_cases hc : ((y 0).val = 0 ∧ ∀ e : Fin 16, Cert.Threshold.hotBit (F := F) (fx ((xWin1 L).view.emb (ix2 e (y 1)))) = 0#1)
  · have hl : (y 0).val = 0 ∧ ∀ e : Fin 16, Cert.Threshold.hotBit (F := F)
        ((sSlot1.view.writes (Elt F) sSlot1.view.junk [⟨Rect.whole S16x256, run0.sl.dma0_1 d L fx⟩]) (ix3 (1 : Fin 2) e (y 1))) = 0#1 :=
      ⟨hc.1, fun e => (congrArg (Cert.Threshold.hotBit (F := F)) (hC e (y 1))).trans (hc.2 e)⟩
    have hr : (((oWin1 L).view.emb y) 0).val = 0 ∧ ∀ e : Fin 16, Cert.Threshold.hotBit (F := F) (fx (ix2 e (((oWin1 L).view.emb y) 1))) = 0#1 :=
      ⟨hJ0.trans hc.1, fun e => (congrArg (fun z => Cert.Threshold.hotBit (F := F) (fx z)) (hA e)).symm.trans (hc.2 e)⟩
    exact (if_pos hl).trans (if_pos hr).symm
  · have hl : ¬ ((y 0).val = 0 ∧ ∀ e : Fin 16, Cert.Threshold.hotBit (F := F)
        ((sSlot1.view.writes (Elt F) sSlot1.view.junk [⟨Rect.whole S16x256, run0.sl.dma0_1 d L fx⟩]) (ix3 (1 : Fin 2) e (y 1))) = 0#1) :=
      fun h => hc ⟨h.1, fun e => (congrArg (Cert.Threshold.hotBit (F := F)) (hC e (y 1))).symm.trans (h.2 e)⟩
    have hr : ¬ ((((oWin1 L).view.emb y) 0).val = 0 ∧ ∀ e : Fin 16, Cert.Threshold.hotBit (F := F) (fx (ix2 e (((oWin1 L).view.emb y) 1))) = 0#1) :=
      fun h => hc ⟨hJ0.symm.trans h.1, fun e => (congrArg (fun z => Cert.Threshold.hotBit (F := F) (fx z)) (hA e)).trans (h.2 e)⟩
    exact (if_neg hl).trans ((congrArg (Cert.Threshold.hot (F := F)) ((hC (y 0) (y 1)).trans (congrArg fx hB))).trans (if_neg hr).symm)

/-! ## A delivery written through a window holds the delivered function -/

omit [FloatOps F] in
/-- A window of the transposed result, written whole with `g`, holds any whole-array function that agrees with `g` at
    the window's places. -/
theorem pts_deliver (off : Fin 2 → ℕ) (inb : ∀ a, off a + S16x256.size a ≤ S16x16384.size a)
    (d : Dev nD) (c : Fin τ.nSC) (j : Fin τ.nSub)
    (fo : Buf (Elt F) ((oV.slice (Rect.unit (s := S16x16384) off S16x256.size inb) (fun _ => rfl)).view.loc (V d c j)))
    (g : S16x256.Idx → Elt F .i32)
    (H : Buf (Elt F) ((oV.slice (Rect.unit (s := S16x16384) off S16x256.size inb) (fun _ => rfl)).view.loc (V d c j)))
    (h : ∀ y, g y = H ((oV.slice (Rect.unit (s := S16x16384) off S16x256.size inb) (fun _ => rfl)).view.emb y)) :
    ((oV.slice (Rect.unit (s := S16x16384) off S16x256.size inb) (fun _ => rfl)).view.loc (V d c j)
        ↦[(oV.slice (Rect.unit (s := S16x16384) off S16x256.size inb) (fun _ => rfl)).view.set]{fullShare}
          (oV.slice (Rect.unit (s := S16x16384) off S16x256.size inb) (fun _ => rfl)).view.writes (Elt F) fo [⟨Rect.whole S16x256, g⟩] : sProp 𝕄)
      = ((oV.slice (Rect.unit (s := S16x16384) off S16x256.size inb) (fun _ => rfl)).view.loc (V d c j)
        ↦[(oV.slice (Rect.unit (s := S16x16384) off S16x256.size inb) (fun _ => rfl)).view.set]{fullShare} H) := by
  have key : ∀ y : S16x256.Idx,
      (oV.slice (Rect.unit (s := S16x16384) off S16x256.size inb) (fun _ => rfl)).view.writes (Elt F) fo [⟨Rect.whole S16x256, g⟩]
          ((oV.slice (Rect.unit (s := S16x16384) off S16x256.size inb) (fun _ => rfl)).view.emb y)
        = H ((oV.slice (Rect.unit (s := S16x16384) off S16x256.size inb) (fun _ => rfl)).view.emb y) := fun y => by
    have hw := View.read_writes_cons_emb (oV.slice (Rect.unit (s := S16x16384) off S16x256.size inb) (fun _ => rfl)).view
      (Val := Elt F) fo (Rect.whole S16x256) g [] y
    have he : (Rect.whole S16x256).emb y = y := Rect.emb_whole_apply S16x256 y
    have hw' := (congrArg (fun z => View.read (Elt F) (oV.slice (Rect.unit (s := S16x16384) off S16x256.size inb) (fun _ => rfl)).view
      ((oV.slice (Rect.unit (s := S16x16384) off S16x256.size inb) (fun _ => rfl)).view.writes (Elt F) fo [⟨Rect.whole S16x256, g⟩]) z) he).symm.trans hw
    rw [View.read_apply] at hw'
    exact ((cast_eq _ _).symm.trans hw').trans (h y)
  refine pointsTo_congr fun i hi => ?_
  obtain ⟨y, -, rfl⟩ := Finset.mem_map.mp hi
  exact key y

omit [FloatOps F] in
theorem pts_deliver0 (d : Dev nD) (L : grid0.Coords) (fo : Buf (Elt F) ((oWin0 L).view.loc (V d (cV L) (jV L))))
    (g : S16x256.Idx → Elt F .i32) (H : Buf (Elt F) ((oWin0 L).view.loc (V d (cV L) (jV L))))
    (h : ∀ y, g y = H ((oWin0 L).view.emb y)) :
    ((oWin0 L).view.loc (V d (cV L) (jV L)) ↦[(oWin0 L).view.set]{fullShare}
        (oWin0 L).view.writes (Elt F) fo [⟨Rect.whole S16x256, g⟩] : sProp 𝕄)
      = ((oWin0 L).view.loc (V d (cV L) (jV L)) ↦[(oWin0 L).view.set]{fullShare} H) :=
  pts_deliver _ _ d (cV L) (jV L) fo g H h
omit [FloatOps F] in
theorem pts_deliver1 (d : Dev nD) (L : grid0.Coords) (fo : Buf (Elt F) ((oWin1 L).view.loc (V d (cV L) (jV L))))
    (g : S16x256.Idx → Elt F .i32) (H : Buf (Elt F) ((oWin1 L).view.loc (V d (cV L) (jV L))))
    (h : ∀ y, g y = H ((oWin1 L).view.emb y)) :
    ((oWin1 L).view.loc (V d (cV L) (jV L)) ↦[(oWin1 L).view.set]{fullShare}
        (oWin1 L).view.writes (Elt F) fo [⟨Rect.whole S16x256, g⟩] : sProp 𝕄)
      = ((oWin1 L).view.loc (V d (cV L) (jV L)) ↦[(oWin1 L).view.set]{fullShare} H) :=
  pts_deliver _ _ d (cV L) (jV L) fo g H h

end Cert.Proof.KI

end
-- ==== Proof.IdealScoped.lean ====
/-
  A tile's scoped storage as its body needs it: its three transfer semaphores out of its own semaphores, its two
  scratches out of its own buffers, and each scratch as its two slots (slot b is rows b of the leading axis).
-/
import proofs.«216989_g62371515073183_cont_9to1_m_320_20_alg».proof.Proof.IdealSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

omit [FloatOps F] in
/-- A tile's own semaphores at zero: the three transfer semaphores, and the rest. -/
theorem ownSems0_V :
    (ownSems0 (V d (cV L) (jV L)) : sProp 𝕄)
      = iprop(semVal (cIn0 d (cV L) (jV L)) 0 ∗ semVal (cIn1 d (cV L) (jV L)) 0 ∗ semVal (cOut d (cV L) (jV L)) 0
          ∗ bigSep ((((ownCells (V d (cV L) (jV L))).erase (cIn0 d (cV L) (jV L))).erase (cIn1 d (cV L) (jV L))).erase (cOut d (cV L) (jV L)))
              fun g => semVal g 0) := by
  unfold SparseCore.Cfg.ownSems0
  rw [SparseCore.bigSep_erase' ((mem_ownCells (g := cIn0 d (cV L) (jV L))).mpr ⟨rfl, by
      show (SemLoc.dma cc0_scratch2.sem : SemLoc sig).isScoped .scVector = true; decide⟩),
    SparseCore.bigSep_erase' (Finset.mem_erase.mpr ⟨by simp [cIn0, cIn1]; decide, (mem_ownCells (g := cIn1 d (cV L) (jV L))).mpr ⟨rfl, by
      show (SemLoc.dma cc0_scratch3.sem : SemLoc sig).isScoped .scVector = true; decide⟩⟩),
    SparseCore.bigSep_erase' (Finset.mem_erase.mpr ⟨by simp [cIn1, cOut]; decide, Finset.mem_erase.mpr ⟨by simp [cIn0, cOut]; decide,
      (mem_ownCells (g := cOut d (cV L) (jV L))).mpr ⟨rfl, by show (SemLoc.dma cc0_scratch4.sem : SemLoc sig).isScoped .scVector = true; decide⟩⟩⟩)]

omit [FloatOps F] in
/-- A tile's own buffers: the two scratches at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Slot 0 and slot 1 of a scratch, as rectangles of its shape: leading coordinate 0, leading coordinate 1. -/
abbrev slotRect0 : Rect S2x16x256 := Rect.unit (s := S2x16x256) ![0, 0, 0] S1x16x256.size inb_S2x16x256_S1x16x256_0_0_0
abbrev slotRect1 : Rect S2x16x256 := Rect.unit (s := S2x16x256) ![1, 0, 0] S1x16x256.size inb_S2x16x256_S1x16x256_1_0_0

/-- The two slots share no element: they differ in the leading coordinate. -/
theorem slots_disjoint : Disjoint slotRect0.set slotRect1.set :=
  Rect.unit_disjoint 0 (Or.inl (show 0 + 1 ≤ 1 from Nat.le_refl _))

/-- The two slots are the whole scratch: the leading coordinate is 0 or 1. -/
theorem slots_cover : slotRect0.set ∪ slotRect1.set = Finset.univ := by
  ext i
  simp only [Finset.mem_union, Rect.mem_set_unit, Finset.mem_univ, iff_true]
  have h0 : (i 0).val < 2 := (i 0).isLt
  have h1 : (i 1).val < 16 := (i 1).isLt
  have h2 : (i 2).val < 256 := (i 2).isLt
  by_cases h : (i 0).val = 0
  · left; intro a
    match a with
    | ⟨0, _⟩ => show 0 ≤ (i 0).val ∧ (i 0).val < 0 + 1; omega
    | ⟨1, _⟩ => show 0 ≤ (i 1).val ∧ (i 1).val < 0 + 16; omega
    | ⟨2, _⟩ => show 0 ≤ (i 2).val ∧ (i 2).val < 0 + 256; omega
  · right; intro a
    match a with
    | ⟨0, _⟩ => show 1 ≤ (i 0).val ∧ (i 0).val < 1 + 1; omega
    | ⟨1, _⟩ => show 0 ≤ (i 1).val ∧ (i 1).val < 0 + 16; omega
    | ⟨2, _⟩ => show 0 ≤ (i 2).val ∧ (i 2).val < 0 + 256; omega

omit [FloatOps F] in
theorem set_sSlot0 : sSlot0.view.set = slotRect0.set := by
  simp only [Memref.view_squeeze, Memref.view_slice, Memref.view_whole, View.set_reshape, View.set_slice_whole]
omit [FloatOps F] in
theorem set_sSlot1 : sSlot1.view.set = slotRect1.set := by
  simp only [Memref.view_squeeze, Memref.view_slice, Memref.view_whole, View.set_reshape, View.set_slice_whole]
omit [FloatOps F] in
theorem set_oSlot0 : oSlot0.view.set = slotRect0.set := by
  simp only [Memref.view_squeeze, Memref.view_slice, Memref.view_whole, View.set_reshape, View.set_slice_whole]
omit [FloatOps F] in
theorem set_oSlot1 : oSlot1.view.set = slotRect1.set := by
  simp only [Memref.view_squeeze, Memref.view_slice, Memref.view_whole, View.set_reshape, View.set_slice_whole]

omit [FloatOps F] in
/-- The score scratch whole is its two slots side by side. -/
theorem split_sS (f : Buf (Elt F) ((V d (cV L) (jV L)).loc cc0_scratch0)) :
    ((V d (cV L) (jV L)).loc cc0_scratch0 ↦{fullShare} f : sProp 𝕄) ⊢ iprop((sSlot0.view.loc (V d (cV L) (jV L)) ↦[sSlot0.view.set]{fullShare} f) ∗ (sSlot1.view.loc (V d (cV L) (jV L)) ↦[sSlot1.view.set]{fullShare} f)) := by
  rw [set_sSlot0, set_sSlot1]
  show ((V d (cV L) (jV L)).loc cc0_scratch0 ↦[Finset.univ]{fullShare} f : sProp 𝕄) ⊢
    iprop(((V d (cV L) (jV L)).loc cc0_scratch0 ↦[slotRect0.set]{fullShare} f) ∗ ((V d (cV L) (jV L)).loc cc0_scratch0 ↦[slotRect1.set]{fullShare} f))
  rw [← slots_cover]
  exact (pointsTo_union slots_disjoint).1

omit [FloatOps F] in
theorem join_sS (f0 f1 : Buf (Elt F) ((V d (cV L) (jV L)).loc cc0_scratch0)) :
    (iprop((sSlot0.view.loc (V d (cV L) (jV L)) ↦[sSlot0.view.set]{fullShare} f0) ∗ (sSlot1.view.loc (V d (cV L) (jV L)) ↦[sSlot1.view.set]{fullShare} f1)) : sProp 𝕄) ⊢ iprop(∃ f, (V d (cV L) (jV L)).loc cc0_scratch0 ↦{fullShare} f) := by
  rw [set_sSlot0, set_sSlot1]
  refine (pointsTo_join (ℓ := (V d (cV L) (jV L)).loc cc0_scratch0) slots_disjoint).trans ?_
  rw [slots_cover]
  iintro H
  iexists _
  iexact H

omit [FloatOps F] in
/-- The result scratch whole is its two slots side by side. -/
theorem split_sO (f : Buf (Elt F) ((V d (cV L) (jV L)).loc cc0_scratch1)) :
    ((V d (cV L) (jV L)).loc cc0_scratch1 ↦{fullShare} f : sProp 𝕄) ⊢ iprop((oSlot0.view.loc (V d (cV L) (jV L)) ↦[oSlot0.view.set]{fullShare} f) ∗ (oSlot1.view.loc (V d (cV L) (jV L)) ↦[oSlot1.view.set]{fullShare} f)) := by
  rw [set_oSlot0, set_oSlot1]
  show ((V d (cV L) (jV L)).loc cc0_scratch1 ↦[Finset.univ]{fullShare} f : sProp 𝕄) ⊢
    iprop(((V d (cV L) (jV L)).loc cc0_scratch1 ↦[slotRect0.set]{fullShare} f) ∗ ((V d (cV L) (jV L)).loc cc0_scratch1 ↦[slotRect1.set]{fullShare} f))
  rw [← slots_cover]
  exact (pointsTo_union slots_disjoint).1

omit [FloatOps F] in
theorem join_sO (f0 f1 : Buf (Elt F) ((V d (cV L) (jV L)).loc cc0_scratch1)) :
    (iprop((oSlot0.view.loc (V d (cV L) (jV L)) ↦[oSlot0.view.set]{fullShare} f0) ∗ (oSlot1.view.loc (V d (cV L) (jV L)) ↦[oSlot1.view.set]{fullShare} f1)) : sProp 𝕄) ⊢ iprop(∃ f, (V d (cV L) (jV L)).loc cc0_scratch1 ↦{fullShare} f) := by
  rw [set_oSlot0, set_oSlot1]
  refine (pointsTo_join (ℓ := (V d (cV L) (jV L)).loc cc0_scratch1) slots_disjoint).trans ?_
  rw [slots_cover]
  iintro H
  iexists _
  iexact H

end Cert.Proof.KI

end
-- ==== Proof.IdealBody.lean ====
/-
  One tile's task, from the launch's hand to the launch's hand. The tile is handed its two chunks of the transposed
  scores and of the transposed result, its own two scratches and its three transfer semaphores at zero. Its body copies
  chunk r of the scores into slot r of the score scratch (one copy per semaphore), computes slot r of the result scratch
  from it, and copies that slot out to chunk r of the result, both copies-out on one semaphore and waited for only at the
  end, nothing touching an issued copy's source or destination meanwhile. What it hands back in the result chunks is the
  specification's function of the transposed scores: each copied-out slot is, index by index, what the slot's 256 stores
  wrote (the slot theorems), read through the copies' index maps.
-/
import proofs.«216989_g62371515073183_cont_9to1_m_320_20_alg».proof.Proof.IdealRun0
import proofs.«216989_g62371515073183_cont_9to1_m_320_20_alg».proof.Proof.IdealSlots
import proofs.«216989_g62371515073183_cont_9to1_m_320_20_alg».proof.Proof.IdealDeliver
import proofs.«216989_g62371515073183_cont_9to1_m_320_20_alg».proof.Proof.IdealScoped
import proofs.«216989_g62371515073183_cont_9to1_m_320_20_alg».proof.Proof.IdealPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

set_option maxHeartbeats 0 in
theorem tile_body [∀ e, Nonempty (Elt F e)] (hF : (K (F := F)).Facts) (d : Dev nD) (L : grid0.Coords)
    (O : CellTallies nD τ sig (HIx 1)) (W : Waits sig (HIx 1)) (hO : ∀ g, O g none = 0) :
    (iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(tileRes m d (cL L) (iL L) (oT m d) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes oT
  iintro ⟨#Hlv, -, ⟨Hx0, Hx1, Ho0, Ho1⟩, ⟨⟨%fs, Hs⟩, ⟨%fr, Hr⟩, Hbufs⟩, ⟨Hc0, Hc1, Hc2, Hsems⟩, HO⟩
  ihave Hmw := ((K (F := F)).mayWaits_none (thr := (V d (cV L) (jV L))) hO) $$ Hlv
  ihave Hx0 := (Entails.of_eq (pts_xWin0 (F := F) d L _).symm) $$ Hx0
  ihave Hx1 := (Entails.of_eq (pts_xWin1 (F := F) d L _).symm) $$ Hx1
  ihave Ho0 := (Entails.of_eq (pts_oWin0 (F := F) d L _).symm) $$ Ho0
  ihave Ho1 := (Entails.of_eq (pts_oWin1 (F := F) d L _).symm) $$ Ho1
  ihave Hss := (split_sS (F := F) d L fs) $$ Hs
  icases Hss with ⟨Hs0, Hs1⟩
  ihave Hrr := (split_sO (F := F) d L fr) $$ Hr
  icases Hrr with ⟨Hr0, Hr1⟩
  have hB : Transfers.BatchOf (V d (cV L) (jV L)) (SemLoc.dma (SemArray.sem cc0_scratch4)) 2 := Transfers.BatchOf.intro _ _ 2
  rw [cc0__threshold_kernel_eq_skeleton]; unfold cc0__threshold_kernel_skel
  sl_exec_parts (disch := exact View.amount_pos _ _ (show 0 < S16x256.numel by decide))
  sl_step
  isplitl [Hx0 Hx1 Ho0 Ho1]
  · isplitl [Hx0]
    · iapply (Entails.of_eq (pts_xWin0 (F := F) d L _)); iexact Hx0
    isplitl [Hx1]
    · iapply (Entails.of_eq (pts_xWin1 (F := F) d L _)); iexact Hx1
    isplitl [Ho0]
    · iapply (Entails.of_eq (pts_oWin0 (F := F) d L _))
      iapply (Entails.of_eq (pts_deliver0 (F := F) d L (m (oLoc d)) (run0.sl.dma770 d L (xT m d) fr) (Cert.Threshold.GT (F := F) (xT m d))
        (deliver0 d L (xT m d) fr (fun y hy => slot0_val d L (xT m d) fr y hy))))
      iexact Ho0
    iapply (Entails.of_eq (pts_oWin1 (F := F) d L _))
    iapply (Entails.of_eq (pts_deliver1 (F := F) d L (m (oLoc d)) (run0.sl.dma1539 d L (xT m d) fr) (Cert.Threshold.GT (F := F) (xT m d))
      (deliver1 d L (xT m d) fr (fun y hy => slot1_val d L (xT m d) fr y hy))))
    iexact Ho1
  isplitl [Hs0 Hs1 Hr0 Hr1 Hbufs]
  · isplitl [Hs0 Hs1]
    · iapply (join_sS (F := F) d L _ _); isplitl [Hs0] <;> iassumption
    isplitl [Hr0 Hr1]
    · iapply (join_sO (F := F) d L _ _); isplitl [Hr0] <;> iassumption
    iexact Hbufs
  isplitl [Hc0 Hc1 Hc2 Hsems]
  · isplitl [Hc0]; · iexact Hc0
    isplitl [Hc1]; · iexact Hc1
    isplitl [Hc2]; · iexact Hc2
    iexact Hsems
  iexists _; isplitr
  on_goal 2 => iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KI

end
-- ==== Proof.BitsSetup.lean ====
/-
  The threshold kernel as the SparseCore launch theorem sees it: the call's configuration, the resource algebra (the
  launch handshakes' rounds beside the local transfers' counters), and the kernel's memrefs spelt as its body spells
  them. Tile (c, s) of the 2 × 16 grid has index 2 s + c in the kernel's own numbering; it owns the 512 token columns from 1024 s + 512 c on, in two
  chunks of 256: it copies chunk r of the transposed scores (all sixteen expert rows) into slot r of its score scratch,
  computes slot r of its result scratch from it, and copies that slot out to chunk r of the result.
-/
import proofs.«216989_g62371515073183_cont_9to1_m_320_20_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«216989_g62371515073183_cont_9to1_m_320_20_alg».proof.Proof.Gen.Kernel
import proofs.«216989_g62371515073183_cont_9to1_m_320_20_alg».proof.Proof.Gen.Kernel.Skeleton
import proofs.«216989_g62371515073183_cont_9to1_m_320_20_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and the kernel's memrefs -/

/-- The transposed scores (experts × tokens) and the transposed result, as a tile names them. -/
abbrev xV : Memref sig .scVector .hbm S16x16384 .f32 := Memref.whole main_v0_scv
abbrev oV : Memref sig .scVector .hbm S16x16384 .i32 := Memref.whole main_v1_scv
/-- A tile's score scratch and result scratch: two slots of 16 × 256 each. -/
abbrev sS : Memref sig .scVector .vmem S2x16x256 .f32 := Memref.whole cc0_scratch0
abbrev sO : Memref sig .scVector .vmem S2x16x256 .i32 := Memref.whole cc0_scratch1

/-- Chunk 0 and chunk 1 of a tile's columns, of the scores and of the result, as the body slices them. -/
abbrev xWin0 (L : grid0.Coords) : Memref sig .scVector .hbm S16x256 .f32 :=
  xV.slice (Rect.unit (s := S16x16384) (k0_off1 L 0#32) S16x256.size (k0_off1_inb L 0)) (fun _ => rfl)
abbrev xWin1 (L : grid0.Coords) : Memref sig .scVector .hbm S16x256 .f32 :=
  xV.slice (Rect.unit (s := S16x16384) (k0_off1 L 256#32) S16x256.size (k0_off1_inb L 1)) (fun _ => rfl)
abbrev oWin0 (L : grid0.Coords) : Memref sig .scVector .hbm S16x256 .i32 :=
  oV.slice (Rect.unit (s := S16x16384) (k0_off1 L 0#32) S16x256.size (k0_off1_inb L 0)) (fun _ => rfl)
abbrev oWin1 (L : grid0.Coords) : Memref sig .scVector .hbm S16x256 .i32 :=
  oV.slice (Rect.unit (s := S16x16384) (k0_off1 L 256#32) S16x256.size (k0_off1_inb L 1)) (fun _ => rfl)

/-- Slot 0 and slot 1 of the two scratches, as the body slices and squeezes them. -/
abbrev sSlot0 : Memref sig .scVector .vmem S16x256 .f32 :=
  (sS.slice (Rect.unit (s := S2x16x256) ![0, 0, 0] S1x16x256.size inb_S2x16x256_S1x16x256_0_0_0) (fun _ => rfl)).squeeze S16x256 squeezes_S1x16x256_S16x256
abbrev sSlot1 : Memref sig .scVector .vmem S16x256 .f32 :=
  (sS.slice (Rect.unit (s := S2x16x256) ![1, 0, 0] S1x16x256.size inb_S2x16x256_S1x16x256_1_0_0) (fun _ => rfl)).squeeze S16x256 squeezes_S1x16x256_S16x256
abbrev oSlot0 : Memref sig .scVector .vmem S16x256 .i32 :=
  (sO.slice (Rect.unit (s := S2x16x256) ![0, 0, 0] S1x16x256.size inb_S2x16x256_S1x16x256_0_0_0) (fun _ => rfl)).squeeze S16x256 squeezes_S1x16x256_S16x256
abbrev oSlot1 : Memref sig .scVector .vmem S16x256 .i32 :=
  (sO.slice (Rect.unit (s := S2x16x256) ![1, 0, 0] S1x16x256.size inb_S2x16x256_S1x16x256_1_0_0) (fun _ => rfl)).squeeze S16x256 squeezes_S1x16x256_S16x256

/-- The tile a grid point names. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The tile's three transfer semaphores: chunk 0 in, chunk 1 in, both chunks out. -/
abbrev cIn0 (d : Dev nD) (c : Fin τ.nSC) (i : Fin τ.nSub) : GSem nD τ sig := (V d c i, .dma cc0_scratch2.sem)
abbrev cIn1 (d : Dev nD) (c : Fin τ.nSC) (i : Fin τ.nSub) : GSem nD τ sig := (V d c i, .dma cc0_scratch3.sem)
abbrev cOut (d : Dev nD) (c : Fin τ.nSC) (i : Fin τ.nSub) : GSem nD τ sig := (V d c i, .dma cc0_scratch4.sem)

end Cert.Proof.KB

end
-- ==== Proof.BitsPay.lean ====
/-
  What the launch handshakes carry for the threshold kernel. The 16384 token columns of the transposed arrays fall into
  64 chunks of 256; tile (c, i), of index 2 i + c, works on chunks 4 i + 2 c and 4 i + 2 c + 1. A tile is handed its two
  chunks of the transposed scores (read, and given back unchanged) and of the transposed result (at whatever they held),
  and hands the result chunks back holding the ONE whole-array function `GT` of the transposed scores. A SparseCore's
  share is its sixteen tiles' shares side by side, so splitting a SparseCore's operands among its tiles is the identity.
-/
import proofs.«216989_g62371515073183_cont_9to1_m_320_20_alg».proof.Proof.BitsSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The scores, their transpose, the transposed result, the result: the TensorCore's arrays. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

theorem hdiv64 : 64 ∣ S16x16384.size 1 := ⟨256, rfl⟩
/-- Chunk `k` of the 64 chunks of 256 token columns (all sixteen expert rows). -/
abbrev chunk (k : Fin 64) : Rect S16x16384 := Rect.part (s := S16x16384) (a₀ := 1) hdiv64 k
abbrev chunkSet (k : Fin 64) : Finset S16x16384.Idx := ((xV : Memref sig .scVector .hbm S16x16384 .f32).view.slice (chunk k)).set

/-- Tile (c, i)'s chunk `r` is chunk 4 i + 2 c + r. -/
def chunkOf (c : Fin 2) (i : Fin 16) (r : Fin 2) : Fin 64 := ⟨4 * i.val + 2 * c.val + r.val, by omega⟩

variable [FloatOps F] (m : (ℓ : Loc nD τ sig) → Buf (Elt F) ℓ)

/-- The transposed scores, as @main's first operation leaves them for the call. -/
def xT (d : Dev nD) : Buf (Elt F) (xLoc d) := transpose S16x16384 [1, 0] (m (aLoc d)) transposes_S16384x16_S16x16384_1_0

/-- The transposed result the kernel leaves: the specification's function of the transposed scores. -/
def oT (d : Dev nD) : Buf (Elt F) (oLoc d) := Cert.Threshold.GT (F := F) (xT m d)

/-- One tile's share: its two chunks of the transposed scores, and of the transposed result at contents `fo`. -/
def tileRes (d : Dev nD) (c : Fin 2) (i : Fin 16) (fo : Buf (Elt F) (oLoc d)) : sProp 𝕄 :=
  iprop((xLoc d ↦[chunkSet (chunkOf c i 0)]{fullShare} xT m d) ∗ (xLoc d ↦[chunkSet (chunkOf c i 1)]{fullShare} xT m d)
      ∗ (oLoc d ↦[chunkSet (chunkOf c i 0)]{fullShare} fo) ∗ (oLoc d ↦[chunkSet (chunkOf c i 1)]{fullShare} fo))

/-- The one call: each SparseCore is handed its sixteen tiles' shares, each tile its own; back the same with the result
    chunks at `oT`. Nothing of the launch's is consumed by the kernel's proof. -/
def P : (K (F := F)).Pay (nD := nD) (Val := Elt F) (Name := ℕ) (U := UU) where
  st := fun q d c => match q with
    | 0 => bigSep Finset.univ fun i : Fin 16 => tileRes m d (Fin.cast nCore_zero c) i (m (oLoc d))
  dn := fun q d c => match q with
    | 0 => bigSep Finset.univ fun i : Fin 16 => tileRes m d (Fin.cast nCore_zero c) i (oT m d)
  go := fun q d c i => match q with
    | 0 => tileRes m d (Fin.cast nCore_zero c) (Fin.cast nSub_zero i) (m (oLoc d))
  td := fun q d c i => match q with
    | 0 => tileRes m d (Fin.cast nCore_zero c) (Fin.cast nSub_zero i) (oT m d)
  x := fun _ _ => iprop(emp)

instance tileRes_storable (d : Dev nD) (c : Fin 2) (i : Fin 16) (fo : Buf (Elt F) (oLoc d)) :
    BI.Storable (upEmb : UEmb _ 𝕄) (tileRes m d c i fo) := by unfold tileRes; infer_instance

instance P_storable : (P (F := F) m).IsStorable where
  st q d c := match q with
    | 0 => (inferInstance : BI.Storable (upEmb : UEmb _ 𝕄) (bigSep Finset.univ fun i : Fin 16 => tileRes m d (Fin.cast nCore_zero c) i (m (oLoc d))))
  dn q d c := match q with
    | 0 => (inferInstance : BI.Storable (upEmb : UEmb _ 𝕄) (bigSep Finset.univ fun i : Fin 16 => tileRes m d (Fin.cast nCore_zero c) i (oT m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (oT m d)))

end Cert.Proof.KB

end
-- ==== Proof.BitsLaunch.lean ====
/-
  The launch of the threshold kernel's run. On each device the TensorCore transposes the scores, starts the two
  SparseCores on the transposed array and waits for them, and transposes what they leave. The call is handed the
  transposed scores and the transposed result in 64 chunks of 256 token columns — chunk 4 i + 2 c + r to tile (c, i) —,
  every chunk of one array held at ONE whole-array function, so that the chunks split from the whole array and join back
  into it by equations. What the tiles leave is the specification's function of the transposed scores; transposed back
  it is the specification's function of the scores.
-/
import proofs.«216989_g62371515073183_cont_9to1_m_320_20_alg».proof.Proof.BitsPay
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the handshakes carry, as equations -/

theorem st_eq (d : Dev nD) (c : Fin ((K (F := F)).nCore 0)) :
    (P m).st 0 d c = bigSep Finset.univ fun i : Fin 16 => tileRes m d (Fin.cast nCore_zero c) i (m (oLoc d)) := rfl
theorem dn_eq (d : Dev nD) (c : Fin ((K (F := F)).nCore 0)) :
    (P m).dn 0 d c = bigSep Finset.univ fun i : Fin 16 => tileRes m d (Fin.cast nCore_zero c) i (oT m d) := rfl
theorem go_eq (d : Dev nD) (c : Fin ((K (F := F)).nCore 0)) (i : Fin ((K (F := F)).nSub 0)) :
    (P m).go 0 d c i = tileRes m d (Fin.cast nCore_zero c) (Fin.cast nSub_zero i) (m (oLoc d)) := rfl
theorem td_eq (d : Dev nD) (c : Fin ((K (F := F)).nCore 0)) (i : Fin ((K (F := F)).nSub 0)) :
    (P m).td 0 d c i = tileRes m d (Fin.cast nCore_zero c) (Fin.cast nSub_zero i) (oT m d) := rfl

/-! ## A SparseCore's share among its tiles: the identity -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [st_eq, dn_eq, bigSep_congr (fun i _ => go_eq m d c i), bigSep_congr (fun i _ => td_eq m d c i),
    bigSep_tasks (F := F) (fun i => tileRes m d (Fin.cast nCore_zero c) i (m (oLoc d))),
    bigSep_tasks (F := F) (fun i => tileRes m d (Fin.cast nCore_zero c) i (oT m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr)
      = (iprop(emp) : sProp 𝕄) from by
    rw [bigSep_congr fun thr _ => show (bigSep Finset.univ fun q : Fin 1 => (P m).x q thr) = (iprop(emp) : sProp 𝕄) from bigSep_emp' _,
      bigSep_emp']]
  iempintro

/-! ## @main's four arrays -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the transpose before the call and the transpose after it. -/
abbrev op1 : HloOp τ sig (Elt F) :=
  StableHlo.unary main_arg0 main_v0 ((transpose S16x16384 [1, 0] · transposes_S16384x16_S16x16384_1_0) :
    (⟨S16384x16, .f32⟩ : BufTy).Contents (Elt F) → (⟨S16x16384, .f32⟩ : BufTy).Contents (Elt F))
abbrev op2 : HloOp τ sig (Elt F) :=
  StableHlo.unary main_v1 main_v2 ((transpose S16384x16 [1, 0] · transposes_S16x16384_S16384x16_1_0) :
    (⟨S16x16384, .i32⟩ : BufTy).Contents (Elt F) → (⟨S16384x16, .i32⟩ : BufTy).Contents (Elt F))

/-- The result: the transposed result, transposed back. -/
def rT (d : Dev nD) : Buf (Elt F) (rLoc d) := transpose S16384x16 [1, 0] (oT m d) transposes_S16x16384_S16384x16_1_0

/-- The TensorCore's arrays, all unscoped. -/
abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the valuation after the call, the transposed scores and result in place. -/
def V0 (d : Dev nD) : Valuation τ sig (Elt F) := fun b => m (d, b)
def V2 (d : Dev nD) : Valuation τ sig (Elt F) := Function.update (Function.update (V0 m d) x' (xT m d)) o' (oT m d)

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = xT m d :=
  (Function.update_of_ne (show x' ≠ o' by decide) _ _).trans (Function.update_self _ _ _)
theorem V2_o (d : Dev nD) : V2 m d o' = oT m d := Function.update_self _ _ _
theorem V2_r (d : Dev nD) : V2 m d r' = m (rLoc d) :=
  (Function.update_of_ne (show r' ≠ o' by decide) _ _).trans (Function.update_of_ne (show r' ≠ x' by decide) _ _)

/-- After the first transpose: the transposed scores in place, the rest as launched. -/
theorem held_res1 (d : Dev nD) :
    (held (T d) S4 ((op1 (F := F)).result (V0 m d)) : sProp 𝕄)
      = iprop((aLoc d ↦{fullShare} m (aLoc d)) ∗ (xLoc d ↦{fullShare} xT m d) ∗ (oLoc d ↦{fullShare} m (oLoc d)) ∗ rLoc d ↦{fullShare} m (rLoc d)) := by
  rw [held_S4,
    (op1 (F := F)).result_of_not_mem (V0 m d) (b := a') (show a' ∉ ({x'} : Finset (DevRef τ sig)) by decide),
    (op1 (F := F)).result_of_not_mem (V0 m d) (b := o') (show o' ∉ ({x'} : Finset (DevRef τ sig)) by decide),
    (op1 (F := F)).result_of_not_mem (V0 m d) (b := r') (show r' ∉ ({x'} : Finset (DevRef τ sig)) by decide),
    show (op1 (F := F)).result (V0 m d) x' = xT m d from StableHlo.unary_result _ _ _ _ _ _]
  rfl

/-- Before the second transpose: what the call left. -/
theorem held_V2 (d : Dev nD) :
    (held (T d) S4 (V2 m d) : sProp 𝕄)
      = iprop((aLoc d ↦{fullShare} m (aLoc d)) ∗ (xLoc d ↦{fullShare} xT m d) ∗ (oLoc d ↦{fullShare} oT m d) ∗ rLoc d ↦{fullShare} m (rLoc d)) := by
  rw [held_S4, V2_a, V2_x, V2_o, V2_r]

/-- After the second transpose: the result in place. -/
theorem held_res2 (d : Dev nD) :
    (held (T d) S4 ((op2 (F := F)).result (V2 m d)) : sProp 𝕄)
      = iprop((aLoc d ↦{fullShare} m (aLoc d)) ∗ (xLoc d ↦{fullShare} xT m d) ∗ (oLoc d ↦{fullShare} oT m d) ∗ rLoc d ↦{fullShare} rT m d) := by
  rw [held_S4,
    (op2 (F := F)).result_of_not_mem (V2 m d) (b := a') (show a' ∉ ({r'} : Finset (DevRef τ sig)) by decide),
    (op2 (F := F)).result_of_not_mem (V2 m d) (b := x') (show x' ∉ ({r'} : Finset (DevRef τ sig)) by decide),
    (op2 (F := F)).result_of_not_mem (V2 m d) (b := o') (show o' ∉ ({r'} : Finset (DevRef τ sig)) by decide),
    show (op2 (F := F)).result (V2 m d) r' = rT m d from
      (StableHlo.unary_result _ _ _ _ _ _).trans (by unfold rT; rw [V2_o]),
    V2_a, V2_x, V2_o]

theorem h1 : (op1 (F := F)).bufs ⊆ S4 := show ({a', x'} : Finset (DevRef τ sig)) ⊆ S4 by decide
theorem h2 : (op2 (F := F)).bufs ⊆ S4 := show ({o', r'} : Finset (DevRef τ sig)) ⊆ S4 by decide

/-! ## The 64 chunks: a whole array is its chunks, and the chunks are the tiles' -/

omit [FloatOps F] in
theorem chunkSet_eq (k : Fin 64) : chunkSet k = (chunk k).set := by
  show ((View.whole (main_v0_scv : Ref sig .scVector)).slice (chunk k)).set = _
  rw [View.set_slice]; exact Finset.map_refl
omit [FloatOps F] in
theorem chunks_disjoint : ∀ i ∈ (Finset.univ : Finset (Fin 64)), ∀ j ∈ (Finset.univ : Finset (Fin 64)), i ≠ j → Disjoint (chunkSet i) (chunkSet j) :=
  fun i _ j _ h => by rw [chunkSet_eq, chunkSet_eq]; exact Rect.part_disjoint hdiv64 h
omit [FloatOps F] in
theorem chunks_cover : (Finset.univ : Finset (Fin 64)).biUnion chunkSet = Finset.univ :=
  (Finset.biUnion_congr rfl fun i _ => chunkSet_eq i).trans (Rect.biUnion_part hdiv64)

omit [FloatOps F] in
theorem xPts_chunks (d : Dev nD) (f : Buf (Elt F) (xLoc d)) :
    (xLoc d ↦{fullShare} f : sProp 𝕄) = bigSep Finset.univ fun k : Fin 64 => xLoc d ↦[chunkSet k]{fullShare} f := by
  rw [← pointsTo_biUnion Finset.univ (ℓ := xLoc d) chunkSet chunks_disjoint, chunks_cover]; try rfl
omit [FloatOps F] in
theorem oPts_chunks (d : Dev nD) (f : Buf (Elt F) (oLoc d)) :
    (oLoc d ↦{fullShare} f : sProp 𝕄) = bigSep Finset.univ fun k : Fin 64 => oLoc d ↦[chunkSet k]{fullShare} f := by
  rw [← pointsTo_biUnion Finset.univ (ℓ := oLoc d) chunkSet chunks_disjoint, chunks_cover]; try rfl

/-- Chunk numbers are the triples (SparseCore, tile, chunk of the tile): `4 i + 2 c + r` is a bijection. -/
def chunkEquiv : Fin 2 × Fin 16 × Fin 2 ≃ Fin 64 where
  toFun p := chunkOf p.1 p.2.1 p.2.2
  invFun k := (⟨k.val % 4 / 2, by omega⟩, ⟨k.val / 4, by omega⟩, ⟨k.val % 2, by omega⟩)
  left_inv p := by
    obtain ⟨⟨c, hc⟩, ⟨i, hi⟩, ⟨r, hr⟩⟩ := p
    refine Prod.ext (Fin.ext ?_) (Prod.ext (Fin.ext ?_) (Fin.ext ?_)) <;> simp only [chunkOf] <;> omega
  right_inv k := by
    apply Fin.ext
    simp only [chunkOf]
    omega

omit [FloatOps F] in
/-- A product over the 64 chunks, regrouped by SparseCore, tile and the tile's two chunks. -/
theorem bigSep_chunks (Φ : Fin 64 → sProp 𝕄) :
    bigSep Finset.univ Φ
      = bigSep Finset.univ fun c : Fin 2 => bigSep Finset.univ fun i : Fin 16 => iprop(Φ (chunkOf c i 0) ∗ Φ (chunkOf c i 1)) := by
  rw [BI.bigSep_univ_equiv chunkEquiv Φ, bigSep_univ_prod]
  refine bigSep_congr fun c _ => ?_
  rw [bigSep_univ_prod]
  refine bigSep_congr fun i _ => ?_
  rw [bigSep_univ_two]
  rfl

/-- One tile's share, its score chunks beside its result chunks. -/
theorem tileRes_eq (d : Dev nD) (c : Fin 2) (i : Fin 16) (fo : Buf (Elt F) (oLoc d)) :
    tileRes m d c i fo
      = iprop(((xLoc d ↦[chunkSet (chunkOf c i 0)]{fullShare} xT m d) ∗ (xLoc d ↦[chunkSet (chunkOf c i 1)]{fullShare} xT m d))
          ∗ ((oLoc d ↦[chunkSet (chunkOf c i 0)]{fullShare} fo) ∗ (oLoc d ↦[chunkSet (chunkOf c i 1)]{fullShare} fo))) := by
  unfold tileRes
  exact equiv_iff.mp ⟨BI.sep_assoc', BI.sep_assoc⟩

/-- All the tiles' shares are the two whole arrays. -/
theorem tiles_eq (d : Dev nD) (fo : Buf (Elt F) (oLoc d)) :
    (bigSep Finset.univ fun c : Fin 2 => bigSep Finset.univ fun i : Fin 16 => tileRes m d c i fo)
      = iprop((xLoc d ↦{fullShare} xT m d) ∗ (oLoc d ↦{fullShare} fo)) := by
  rw [xPts_chunks, oPts_chunks, bigSep_chunks (F := F) (fun k => xLoc d ↦[chunkSet k]{fullShare} xT m d),
    bigSep_chunks (F := F) (fun k => oLoc d ↦[chunkSet k]{fullShare} fo), ← bigSep_sep']
  refine bigSep_congr fun c _ => ?_
  rw [← bigSep_sep']
  exact bigSep_congr fun i _ => tileRes_eq m d c i fo

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back. -/
theorem st0_eq (d : Dev nD) :
    (bigSep Finset.univ fun c : Fin ((K (F := F)).nCore 0) => (P m).st 0 d c)
      = iprop((xLoc d ↦{fullShare} xT m d) ∗ (oLoc d ↦{fullShare} m (oLoc d))) := by
  rw [bigSep_congr (fun c _ => st_eq m d c),
    bigSep_cores (F := F) (fun c => bigSep Finset.univ fun i : Fin 16 => tileRes m d c i (m (oLoc d))), tiles_eq]
theorem dn0_eq (d : Dev nD) :
    (bigSep Finset.univ fun c : Fin ((K (F := F)).nCore 0) => (P m).dn 0 d c)
      = iprop((xLoc d ↦{fullShare} xT m d) ∗ (oLoc d ↦{fullShare} oT m d)) := by
  rw [bigSep_congr (fun c _ => dn_eq m d c),
    bigSep_cores (F := F) (fun c => bigSep Finset.univ fun i : Fin 16 => tileRes m d c i (oT m d)), tiles_eq]

/-! ## @main on the TensorCore -/

/-- What @main leaves the claim: the scores at their launch contents, and the result. -/
abbrev FIN (d : Dev nD) : sProp 𝕄 := iprop((aLoc d ↦{fullShare} m (aLoc d)) ∗ (rLoc d ↦{fullShare} rT m d))

/-- @main on device `d`'s TensorCore: the first transpose leaves the transposed scores; the call takes them and the
    transposed result's array in chunks and hands them back, the result's at the specification's function; the second
    transpose leaves the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := op1) (S := S4) h1 (V := V0 m d)) $$ [Hb Hheld]
  · isplitl [Hb]; · iexact Hb
    iexact Hheld
  iintro ⟨Hb, Hheld⟩
  ihave Hh := (Entails.of_eq (held_res1 (F := F) m d)) $$ Hheld
  icases Hh with ⟨Ha, Hx, Ho, Hr⟩
  rw [wp_ret]; imodintro
  -- the call: the two arrays in chunks to the tiles, and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the second transpose
  iapply (wp_hlo_within 𝒱 (SparseCore.T d) none Set.univ (op := op2) (S := S4) h2 (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_res2 (F := F) m d)) $$ Hheld
  icases Hh with ⟨Ha, -, -, Hr⟩
  rw [wp_ret]; imodintro; imodintro
  isplitl [Hst]; · iexact Hst
  isplitl [Ha]; · iexact Ha
  iexact Hr

/-! ## The value: transposing back -/

/-- The specification in the transposed layout, transposed back, is the specification. -/
theorem result_eq (x : FVec F Cert.Threshold.STE .f32) :
    transpose S16384x16 [1, 0] (Cert.Threshold.GT (F := F) (transpose S16x16384 [1, 0] x transposes_S16384x16_S16x16384_1_0))
      transposes_S16x16384_S16384x16_1_0 = Cert.Threshold.G (F := F) x := by
  funext i
  obtain ⟨t, e, rfl⟩ : ∃ (t : Fin 16384) (e : Fin 16), i = ValueIdx.ix2 t e := ⟨i 0, i 1, ValueIdx.eq_ix2 i⟩
  rw [ValueIdx.transpose_ix2_apply]
  have hx : ∀ (e' : Fin 16) (t' : Fin 16384),
      transpose S16x16384 [1, 0] x transposes_S16384x16_S16x16384_1_0 (ValueIdx.ix2 e' t') = x (ValueIdx.ix2 t' e') :=
    fun e' t' => ValueIdx.transpose_ix2_apply x _ e' t'
  unfold Cert.Threshold.GT Cert.Threshold.G Cert.Threshold.coldT Cert.Threshold.cold
  simp only [hx]
  by_cases hc : (e.val = 0 ∧ ∀ e' : Fin 16, Cert.Threshold.hotBit (x (ValueIdx.ix2 t e')) = 0#1)
  · exact (if_pos hc).trans (if_pos hc).symm
  · exact (if_neg hc).trans (if_neg hc).symm

/-! ## The final memory, the program's run -/

def fq (d : Dev nD) (s' : Phys nD τ sig (Elt F)) : Prop :=
  s'.mem.mem (aLoc d) = m (aLoc d) ∧ s'.mem.mem (rLoc d) = rT m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := rT m d)) $$ [HSI Hr]
  · isplitl [HSI] <;> iassumption
  icases H with %h2
  ipureintro; exact ⟨funext fun i => h1 i (Finset.mem_univ i), funext fun i => h2 i (Finset.mem_univ i)⟩

/-- The result array holds the specification's function of the scores. -/
theorem rT_eq (d : Dev nD) : rT m d = Cert.Threshold.G (F := F) (m (aLoc d)) := by
  unfold rT oT xT
  exact result_eq (m (aLoc d))

/-- Every weakly fair execution of the whole family of threads ends; the scores are unchanged and the result is the
    specification's function of them — given the tile's body obligation. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (rLoc c) = Cert.Threshold.G (F := F) (m (aLoc c)) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).2.trans (rT_eq m c), (h c).1⟩)

end Cert.Proof.KB

end
-- ==== Proof.BitsFrame.lean ====
/-
  The frame-only launch of the threshold kernel's run: every weakly fair execution of the whole family of threads ends,
  nothing faults, and the scores are unchanged — with no claim about what the tiles compute. The call hands each tile its
  chunks as before; a tile hands its result chunks back at SOME contents, each under its own existential. The 64 result
  chunks, disjoint and covering the array, join into the whole transposed result at some contents, over which the second
  transpose runs.
-/
import proofs.«216989_g62371515073183_cont_9to1_m_320_20_alg».proof.Proof.BitsLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the handshakes carry when only the frame is claimed -/

/-- One tile's share handed back: its two score chunks as they were, its two result chunks at some contents. -/
def tileResE (d : Dev nD) (c : Fin 2) (i : Fin 16) : sProp 𝕄 :=
  iprop((xLoc d ↦[chunkSet (chunkOf c i 0)]{fullShare} xT m d) ∗ (xLoc d ↦[chunkSet (chunkOf c i 1)]{fullShare} xT m d)
      ∗ (∃ f, oLoc d ↦[chunkSet (chunkOf c i 0)]{fullShare} f) ∗ (∃ f, oLoc d ↦[chunkSet (chunkOf c i 1)]{fullShare} f))

/-- The one call: each SparseCore is handed its sixteen tiles' shares, each tile its own; back the same with the result
    chunks at whatever the tiles left. -/
def PF : (K (F := F)).Pay (nD := nD) (Val := Elt F) (Name := ℕ) (U := UU) where
  st := fun q d c => match q with
    | 0 => bigSep Finset.univ fun i : Fin 16 => tileRes m d (Fin.cast nCore_zero c) i (m (oLoc d))
  dn := fun q d c => match q with
    | 0 => bigSep Finset.univ fun i : Fin 16 => tileResE m d (Fin.cast nCore_zero c) i
  go := fun q d c i => match q with
    | 0 => tileRes m d (Fin.cast nCore_zero c) (Fin.cast nSub_zero i) (m (oLoc d))
  td := fun q d c i => match q with
    | 0 => tileResE m d (Fin.cast nCore_zero c) (Fin.cast nSub_zero i)
  x := fun _ _ => iprop(emp)

instance tileResE_storable (d : Dev nD) (c : Fin 2) (i : Fin 16) :
    BI.Storable (upEmb : UEmb _ 𝕄) (tileResE m d c i) := by unfold tileResE; infer_instance

instance PF_storable : (PF (F := F) m).IsStorable where
  st q d c := match q with
    | 0 => (inferInstance : BI.Storable (upEmb : UEmb _ 𝕄) (bigSep Finset.univ fun i : Fin 16 => tileRes m d (Fin.cast nCore_zero c) i (m (oLoc d))))
  dn q d c := match q with
    | 0 => (inferInstance : BI.Storable (upEmb : UEmb _ 𝕄) (bigSep Finset.univ fun i : Fin 16 => tileResE m d (Fin.cast nCore_zero c) i))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileResE m d (Fin.cast nCore_zero c) (Fin.cast nSub_zero i)))

theorem stF_eq (d : Dev nD) (c : Fin ((K (F := F)).nCore 0)) :
    (PF m).st 0 d c = bigSep Finset.univ fun i : Fin 16 => tileRes m d (Fin.cast nCore_zero c) i (m (oLoc d)) := rfl
theorem dnF_eq (d : Dev nD) (c : Fin ((K (F := F)).nCore 0)) :
    (PF m).dn 0 d c = bigSep Finset.univ fun i : Fin 16 => tileResE m d (Fin.cast nCore_zero c) i := rfl
theorem goF_eq (d : Dev nD) (c : Fin ((K (F := F)).nCore 0)) (i : Fin ((K (F := F)).nSub 0)) :
    (PF m).go 0 d c i = tileRes m d (Fin.cast nCore_zero c) (Fin.cast nSub_zero i) (m (oLoc d)) := rfl
theorem tdF_eq (d : Dev nD) (c : Fin ((K (F := F)).nCore 0)) (i : Fin ((K (F := F)).nSub 0)) :
    (PF m).td 0 d c i = tileResE m d (Fin.cast nCore_zero c) (Fin.cast nSub_zero i) := rfl

/-- A SparseCore's share among its tiles: the identity. -/
theorem vecSplitF : (K (F := F)).VecSplit' (PF m) 0 := by
  intro d c
  rw [stF_eq, dnF_eq, bigSep_congr (fun i _ => goF_eq m d c i), bigSep_congr (fun i _ => tdF_eq m d c i),
    bigSep_tasks (F := F) (fun i => tileRes m d (Fin.cast nCore_zero c) i (m (oLoc d))),
    bigSep_tasks (F := F) (fun i => tileResE m d (Fin.cast nCore_zero c) i)]
  iintro H; imodintro
  isplitl [H]; · iexact H
  iintro H; iexact H

/-- The launch element: the handshakes' rounds; nothing of the kernel's own. -/
theorem hu₀F : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PF m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PF m).x q thr)
      = (iprop(emp) : sProp 𝕄) from by
    rw [bigSep_congr fun thr _ => show (bigSep Finset.univ fun q : Fin 1 => (PF m).x q thr) = (iprop(emp) : sProp 𝕄) from bigSep_emp' _,
      bigSep_emp']]
  iempintro

/-! ## The call's operands and what comes back -/

theorem st0F_eq (d : Dev nD) :
    (bigSep Finset.univ fun c : Fin ((K (F := F)).nCore 0) => (PF m).st 0 d c)
      = iprop((xLoc d ↦{fullShare} xT m d) ∗ (oLoc d ↦{fullShare} m (oLoc d))) := by
  rw [bigSep_congr (fun c _ => stF_eq m d c),
    bigSep_cores (F := F) (fun c => bigSep Finset.univ fun i : Fin 16 => tileRes m d c i (m (oLoc d))), tiles_eq]

/-- One tile's share handed back, its score chunks beside its result chunks. -/
theorem tileResE_eq (d : Dev nD) (c : Fin 2) (i : Fin 16) :
    tileResE m d c i
      = iprop(((xLoc d ↦[chunkSet (chunkOf c i 0)]{fullShare} xT m d) ∗ (xLoc d ↦[chunkSet (chunkOf c i 1)]{fullShare} xT m d))
          ∗ ((∃ f, oLoc d ↦[chunkSet (chunkOf c i 0)]{fullShare} f) ∗ (∃ f, oLoc d ↦[chunkSet (chunkOf c i 1)]{fullShare} f))) := by
  unfold tileResE
  exact equiv_iff.mp ⟨BI.sep_assoc', BI.sep_assoc⟩

/-- All the tiles' shares handed back: the transposed scores whole, and the 64 result chunks each at some contents. -/
theorem tilesE_eq (d : Dev nD) :
    (bigSep Finset.univ fun c : Fin 2 => bigSep Finset.univ fun i : Fin 16 => tileResE m d c i)
      = iprop((xLoc d ↦{fullShare} xT m d) ∗ bigSep Finset.univ fun k : Fin 64 => iprop(∃ f, oLoc d ↦[chunkSet k]{fullShare} f)) := by
  rw [xPts_chunks, bigSep_chunks (F := F) (fun k => xLoc d ↦[chunkSet k]{fullShare} xT m d),
    bigSep_chunks (F := F) (fun k => iprop(∃ f, oLoc d ↦[chunkSet k]{fullShare} f)), ← bigSep_sep']
  refine bigSep_congr fun c _ => ?_
  rw [← bigSep_sep']
  exact bigSep_congr fun i _ => tileResE_eq m d c i

theorem dn0F_eq (d : Dev nD) :
    (bigSep Finset.univ fun c : Fin ((K (F := F)).nCore 0) => (PF m).dn 0 d c)
      = iprop((xLoc d ↦{fullShare} xT m d) ∗ bigSep Finset.univ fun k : Fin 64 => iprop(∃ f, oLoc d ↦[chunkSet k]{fullShare} f)) := by
  rw [bigSep_congr (fun c _ => dnF_eq m d c),
    bigSep_cores (F := F) (fun c => bigSep Finset.univ fun i : Fin 16 => tileResE m d c i), tilesE_eq]

omit [FloatOps F] in
/-- The 64 result chunks, each at some contents, are the whole transposed result at some contents. -/
theorem oChunks_join [∀ e, Nonempty (Elt F e)] (d : Dev nD) :
    (bigSep Finset.univ fun k : Fin 64 => iprop(∃ f, oLoc d ↦[chunkSet k]{fullShare} f))
      ⊢ (iprop(∃ f, oLoc d ↦{fullShare} f) : sProp 𝕄) := by
  refine (bigSep_exists_pi Finset.univ (fun (k : Fin 64) (f : Buf (Elt F) (oLoc d)) => (oLoc d ↦[chunkSet k]{fullShare} f : sProp 𝕄))).trans ?_
  iintro ⟨%fs, H⟩
  ihave H' := (pointsTo_biUnion_join Finset.univ chunkSet fs (fs 0) chunks_disjoint) $$ H
  icases H' with ⟨%g, -, Hg⟩
  rw [chunks_cover]
  iexists g; iexact Hg

/-! ## @main on the TensorCore -/

/-- The valuation after the call: the transposed scores in place, the transposed result at what the tiles left. -/
def V2F (d : Dev nD) (f : Buf (Elt F) (oLoc d)) : Valuation τ sig (Elt F) :=
  Function.update (Function.update (V0 m d) x' (xT m d)) o' f

theorem V2F_a (d : Dev nD) (f : Buf (Elt F) (oLoc d)) : V2F m d f a' = m (aLoc d) :=
  (Function.update_of_ne (show a' ≠ o' by decide) _ _).trans (Function.update_of_ne (show a' ≠ x' by decide) _ _)
theorem V2F_x (d : Dev nD) (f : Buf (Elt F) (oLoc d)) : V2F m d f x' = xT m d :=
  (Function.update_of_ne (show x' ≠ o' by decide) _ _).trans (Function.update_self _ _ _)
theorem V2F_o (d : Dev nD) (f : Buf (Elt F) (oLoc d)) : V2F m d f o' = f := Function.update_self _ _ _
theorem V2F_r (d : Dev nD) (f : Buf (Elt F) (oLoc d)) : V2F m d f r' = m (rLoc d) :=
  (Function.update_of_ne (show r' ≠ o' by decide) _ _).trans (Function.update_of_ne (show r' ≠ x' by decide) _ _)

/-- Before the second transpose: what the call left. -/
theorem held_V2F (d : Dev nD) (f : Buf (Elt F) (oLoc d)) :
    (held (T d) S4 (V2F m d f) : sProp 𝕄)
      = iprop((aLoc d ↦{fullShare} m (aLoc d)) ∗ (xLoc d ↦{fullShare} xT m d) ∗ (oLoc d ↦{fullShare} f) ∗ rLoc d ↦{fullShare} m (rLoc d)) := by
  rw [held_S4, V2F_a, V2F_x, V2F_o, V2F_r]

/-- After the second transpose the scores are still as launched. -/
theorem held_res2F (d : Dev nD) (f : Buf (Elt F) (oLoc d)) :
    (held (T d) S4 ((op2 (F := F)).result (V2F m d f)) : sProp 𝕄)
      = iprop((aLoc d ↦{fullShare} m (aLoc d)) ∗ (xLoc d ↦{fullShare} (op2 (F := F)).result (V2F m d f) x')
          ∗ (oLoc d ↦{fullShare} (op2 (F := F)).result (V2F m d f) o') ∗ rLoc d ↦{fullShare} (op2 (F := F)).result (V2F m d f) r') := by
  rw [held_S4,
    (op2 (F := F)).result_of_not_mem (V2F m d f) (b := a') (show a' ∉ ({r'} : Finset (DevRef τ sig)) by decide), V2F_a]

/-- What @main leaves the claim: the scores at their launch contents. -/
abbrev FINF (d : Dev nD) : sProp 𝕄 := aLoc d ↦{fullShare} m (aLoc d)

/-- @main on device `d`'s TensorCore, for the frame: the first transpose; the call, the result chunks coming back at
    some contents and joined; the second transpose over them. -/
theorem hmainF [∀ e, Nonempty (Elt F e)] (κ : GSem nD τ sig → ℕ) (d : Dev nD) :
    iprop((K (F := F)).ctx EH (PF m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINF m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := op1) (S := S4) h1 (V := V0 m d)) $$ [Hb Hheld]
  · isplitl [Hb]; · iexact Hb
    iexact Hheld
  iintro ⟨Hb, Hheld⟩
  ihave Hh := (Entails.of_eq (held_res1 (F := F) m d)) $$ Hheld
  icases Hh with ⟨Ha, Hx, Ho, Hr⟩
  rw [wp_ret]; imodintro
  -- the call: the two arrays in chunks to the tiles, and back
  iapply ((K (F := F)).wp_run (D (F := F)) 𝒱 (EH := EH) (P := PF m) κ d 0) $$ [Hst Hx Ho Hb Ha Hr]
  isplitr; · iexact Hctx
  isplitl [Hst]; · iexact Hst
  isplitl [Hx Ho]
  · rw [st0F_eq]
    isplitl [Hx]; · iexact Hx
    iexact Ho
  iintro ⟨Hst, Hdn⟩
  ihave Hdn' := (Entails.of_eq (dn0F_eq m d)) $$ Hdn
  icases Hdn' with ⟨Hx, Hos⟩
  ihave Ho' := (oChunks_join (F := F) d) $$ Hos
  icases Ho' with ⟨%f, Ho⟩
  -- the second transpose
  iapply (wp_hlo_within 𝒱 (SparseCore.T d) none Set.univ (op := op2) (S := S4) h2 (V := V2F m d f)) $$ [Hb Ha Hx Ho Hr]
  · isplitl [Hb]; · iexact Hb
    rw [held_V2F]
    isplitl [Ha]; · iexact Ha
    isplitl [Hx]; · iexact Hx
    isplitl [Ho]; · iexact Ho
    iexact Hr
  iintro ⟨Hb, Hheld⟩
  ihave Hh := (Entails.of_eq (held_res2F (F := F) m d f)) $$ Hheld
  icases Hh with ⟨Ha, -, -, -⟩
  rw [wp_ret]; imodintro; imodintro
  isplitl [Hst]; · iexact Hst
  iexact Ha

/-! ## The final memory, the program's run -/

def fqF (d : Dev nD) (s' : Phys nD τ sig (Elt F)) : Prop := s'.mem.mem (aLoc d) = m (aLoc d)

theorem hfinF (d : Dev nD) (s' : Phys nD τ sig (Elt F)) : iprop(FINF m d ∗ SI s') ⊢ (⌜fqF m d s'⌝ : sProp 𝕄) := by
  iintro ⟨Ha, HSI⟩
  ihave H := (SI_pointsTo_agree (st := s') (ℓ := aLoc d) (I := Finset.univ) (q := fullShare) (f := m (aLoc d))) $$ [HSI Ha]
  · isplitl [HSI] <;> iassumption
  icases H with %ha
  ipureintro; exact funext fun i => ha i (Finset.mem_univ i)

/-- Every weakly fair execution of the whole family of threads ends, and the scores are unchanged — given the tile's
    body obligation for the frame. -/
theorem run_mainF [∀ e, Nonempty (Elt F e)] (htile : (K (F := F)).TileObl (D (F := F)) 𝒱 (PF m) v₀ 0) :
    θ_run (Cert.Kernel.defs (F := F)) (Cert.Kernel.threads (F := F)) ⟨m, fun _ => 0, ρ⟩
      (fun r => ∀ c : Dev nD, r.2.mem (aLoc c) = m (aLoc c)) :=
  SparseCore.Cfg.θ_run_sc (K := K (F := F)) (D := D (F := F)) (𝒱 := 𝒱) (EH := EH) (P := PF m) facts v₀
    (fun q hq => match q with | 0 => nomatch hq)
    (fun q _ => match q with | 0 => htile)
    (fun q _ => match q with | 0 => SparseCore.Cfg.VecSplit.of_plain (vecSplitF m))
    m ρ main (fun _ => iprop(emp)) (FINF m) (u₀ (F := F)) (sep_elim_left.trans (hu₀F m)) (hmainF m ρ) (fqF m) (hfinF m) _
    (fun s' h c => h c)

end Cert.Proof.KB

end
-- ==== Proof.BitsWin.lean ====
/-
  A tile's windows are its chunks. Tile (c, i), of index 2 i + c, slices, of each transposed array, the 256 columns from
  1024 i + 512 c + 256 r on, r = 0, 1: that rectangle is part 4 i + 2 c + r of the cut of the 16384 columns into 64, so a
  window held through the tile's memref is the chunk held at the device's array.
-/
import proofs.«216989_g62371515073183_cont_9to1_m_320_20_alg».proof.Proof.BitsPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A tile's windows are its chunks -/

/-- The SparseCore and the tile a grid point names, as the chunks are numbered by. -/
abbrev cL (L : grid0.Coords) : Fin 2 := Fin.cast rfl (L 0)
abbrev iL (L : grid0.Coords) : Fin 16 := Fin.cast rfl (L 1)

/-- The two windows of a tile, as rectangles of the transposed arrays. -/
abbrev winK0 (L : grid0.Coords) : Rect S16x16384 := Rect.unit (s := S16x16384) (k0_off1 L 0#32) S16x256.size (k0_off1_inb L 0)
abbrev winK1 (L : grid0.Coords) : Rect S16x16384 := Rect.unit (s := S16x16384) (k0_off1 L 256#32) S16x256.size (k0_off1_inb L 1)

omit [FloatOps F] in
theorem winK0_eq (L : grid0.Coords) : winK0 L = chunk (chunkOf (cL L) (iL L) 0) := by
  have ho : k0_off1 L 0#32 = ![0, 1024 * (L 1).val + 512 * (L 0).val + 256 * 0] := k0_off1_eq L 0
  unfold winK0 chunk Rect.part Rect.block
  congr 1 <;> funext a
  · rw [ho]
    match a with
    | 0 => simp [Shape.partIx, Shape.partSize]
    | 1 =>
      have hcv : ((cL L : Fin 2) : ℕ) = ((L 0 : Fin (grid0.bound 0)) : ℕ) := rfl
      have hiv : ((iL L : Fin 16) : ℕ) = ((L 1 : Fin (grid0.bound 1)) : ℕ) := rfl
      simp [Shape.partIx, Shape.partSize, chunkOf, hcv, hiv]; omega
  · match a with
    | 0 => simp [Shape.partSize]
    | 1 => simp [Shape.partSize]
omit [FloatOps F] in
theorem winK1_eq (L : grid0.Coords) : winK1 L = chunk (chunkOf (cL L) (iL L) 1) := by
  have ho : k0_off1 L 256#32 = ![0, 1024 * (L 1).val + 512 * (L 0).val + 256 * 1] := k0_off1_eq L 1
  unfold winK1 chunk Rect.part Rect.block
  congr 1 <;> funext a
  · rw [ho]
    match a with
    | 0 => simp [Shape.partIx, Shape.partSize]
    | 1 =>
      have hcv : ((cL L : Fin 2) : ℕ) = ((L 0 : Fin (grid0.bound 0)) : ℕ) := rfl
      have hiv : ((iL L : Fin 16) : ℕ) = ((L 1 : Fin (grid0.bound 1)) : ℕ) := rfl
      simp [Shape.partIx, Shape.partSize, chunkOf, hcv, hiv]; omega
  · match a with
    | 0 => simp [Shape.partSize]
    | 1 => simp [Shape.partSize]

omit [FloatOps F] in
theorem set_xWin0 (L : grid0.Coords) : (xWin0 L).view.set = chunkSet (chunkOf (cL L) (iL L) 0) := by
  show ((xV : Memref sig .scVector .hbm S16x16384 .f32).view.slice (winK0 L)).set
    = ((xV : Memref sig .scVector .hbm S16x16384 .f32).view.slice (chunk (chunkOf (cL L) (iL L) 0))).set
  exact winK0_eq L ▸ rfl
omit [FloatOps F] in
theorem set_xWin1 (L : grid0.Coords) : (xWin1 L).view.set = chunkSet (chunkOf (cL L) (iL L) 1) := by
  show ((xV : Memref sig .scVector .hbm S16x16384 .f32).view.slice (winK1 L)).set
    = ((xV : Memref sig .scVector .hbm S16x16384 .f32).view.slice (chunk (chunkOf (cL L) (iL L) 1))).set
  exact winK1_eq L ▸ rfl
omit [FloatOps F] in
theorem set_oWin0 (L : grid0.Coords) : (oWin0 L).view.set = chunkSet (chunkOf (cL L) (iL L) 0) := by
  have h1 : (oWin0 L).view.set = (winK0 L).set := View.set_slice_whole (main_v1_scv : Ref sig .scVector) (winK0 L)
  have h2 : chunkSet (chunkOf (cL L) (iL L) 0) = (chunk (chunkOf (cL L) (iL L) 0)).set :=
    View.set_slice_whole (main_v0_scv : Ref sig .scVector) (chunk (chunkOf (cL L) (iL L) 0))
  rw [h1, h2, winK0_eq]
omit [FloatOps F] in
theorem set_oWin1 (L : grid0.Coords) : (oWin1 L).view.set = chunkSet (chunkOf (cL L) (iL L) 1) := by
  have h1 : (oWin1 L).view.set = (winK1 L).set := View.set_slice_whole (main_v1_scv : Ref sig .scVector) (winK1 L)
  have h2 : chunkSet (chunkOf (cL L) (iL L) 1) = (chunk (chunkOf (cL L) (iL L) 1)).set :=
    View.set_slice_whole (main_v0_scv : Ref sig .scVector) (chunk (chunkOf (cL L) (iL L) 1))
  rw [h1, h2, winK1_eq]

omit [FloatOps F] in
theorem pts_xWin0 (d : Dev nD) (L : grid0.Coords) (f : Buf (Elt F) (xLoc d)) :
    ((xWin0 L).view.loc (V d (cV L) (jV L)) ↦[(xWin0 L).view.set]{fullShare} f : sProp 𝕄)
      = (xLoc d ↦[chunkSet (chunkOf (cL L) (iL L) 0)]{fullShare} f) := by
  rw [set_xWin0]
omit [FloatOps F] in
theorem pts_xWin1 (d : Dev nD) (L : grid0.Coords) (f : Buf (Elt F) (xLoc d)) :
    ((xWin1 L).view.loc (V d (cV L) (jV L)) ↦[(xWin1 L).view.set]{fullShare} f : sProp 𝕄)
      = (xLoc d ↦[chunkSet (chunkOf (cL L) (iL L) 1)]{fullShare} f) := by
  rw [set_xWin1]
omit [FloatOps F] in
theorem pts_oWin0 (d : Dev nD) (L : grid0.Coords) (f : Buf (Elt F) (oLoc d)) :
    ((oWin0 L).view.loc (V d (cV L) (jV L)) ↦[(oWin0 L).view.set]{fullShare} f : sProp 𝕄)
      = (oLoc d ↦[chunkSet (chunkOf (cL L) (iL L) 0)]{fullShare} f) := by
  rw [set_oWin0]
omit [FloatOps F] in
theorem pts_oWin1 (d : Dev nD) (L : grid0.Coords) (f : Buf (Elt F) (oLoc d)) :
    ((oWin1 L).view.loc (V d (cV L) (jV L)) ↦[(oWin1 L).view.set]{fullShare} f : sProp 𝕄)
      = (oLoc d ↦[chunkSet (chunkOf (cL L) (iL L) 1)]{fullShare} f) := by
  rw [set_oWin1]

end Cert.Proof.KB

end
-- ==== Proof.BitsObl.lean ====
/-
  The tile obligation of the launch theorem, from the body's triple. The launch names a tile by its core and subcore
  indices; the body names it by a grid point. At the grid point with those two coordinates the two spellings of the tile,
  of its share and of its program agree, and the body's postcondition (waits left over are old ones or the body's own)
  is the obligation's (which also allows waits of the call's own protocol).
-/
import proofs.«216989_g62371515073183_cont_9to1_m_320_20_alg».proof.Proof.BitsWin
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- A vector subcore's program is the kernel body at the grid point with the subcore's coordinates. -/
theorem defs₀_vector (c : Fin τ.nSC) (s : Fin τ.nSub) :
    defs₀ (F := F) (.scVector c s) 0 ()
      = SparseCore.onTile hcore0 hsub0 (fun c s => cc0__threshold_kernel (coordsV c s) xV (Memref.isWhole_whole _) oV (Memref.isWhole_whole _) sS (Memref.isWhole_whole _) sO (Memref.isWhole_whole _) cc0_scratch2 cc0_scratch3 cc0_scratch4) ⟨⟩ c s := rfl

omit [FloatOps F] in
/-- Waits left over that are old or the body's own are in particular old, the body's own, or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] wp in
/-- The launch theorem's obligation for a tile, from the body's triple at every grid point. -/
theorem tileObl_of
    (hbody : ∀ (d : Dev nD) (L : grid0.Coords) (O : CellTallies nD τ sig (HIx 1)) (W : Waits sig (HIx 1)), (∀ g, O g none = 0) →
      ((iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(tileRes m d (cL L) (iL L) (oT m d) ∗ scopedBufs (V d (cV L) (jV L)) ∗ scopedSems0 (V d (cV L) (jV L))
            ∗ ∃ W', ⌜∀ p ∈ W', p ∈ W ∨ p.2 = none⌝ ∗ owes (V d (cV L) (jV L)) O W'))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have ec : cL (coordsV ⟨_, hc.1⟩ ⟨_, hc.2⟩) = Fin.cast nCore_zero c := Fin.ext rfl
  have ei : iL (coordsV ⟨_, hc.1⟩ ⟨_, hc.2⟩) = Fin.cast nSub_zero i := Fin.ext rfl
  have hb := hbody d (coordsV ⟨_, hc.1⟩ ⟨_, hc.2⟩) O W hO
  rw [ec, ei] at hb
  have ex : (P m).x 0 (V d ((K (F := F)).core 0 c) ((K (F := F)).sub 0 i)) = (iprop(emp) : sProp 𝕄) := rfl
  have eg : (P m).go 0 d c i = tileRes m d (Fin.cast nCore_zero c) (Fin.cast nSub_zero i) (m (oLoc d)) := rfl
  have et : (P m).td 0 d c i = tileRes m d (Fin.cast nCore_zero c) (Fin.cast nSub_zero i) (oT m d) := rfl
  rw [ex, eg, et]
  refine hb.trans ?_
  refine wp_mono frame _ _ fun _ => ?_
  exact obl_post

end Cert.Proof.KB

end
-- ==== Proof.BitsOblF.lean ====
/-
  The tile obligation of the launch theorem for the frame-only payload, from the body's triple: as for the full
  payload, with the tile handing its result chunks back at some contents.
-/
import proofs.«216989_g62371515073183_cont_9to1_m_320_20_alg».proof.Proof.BitsObl
import proofs.«216989_g62371515073183_cont_9to1_m_320_20_alg».proof.Proof.BitsFrame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

attribute [local irreducible] wp in
/-- The launch theorem's obligation for a tile under the frame-only payload, from the body's triple at every grid point. -/
theorem tileObl_ofF
    (hbody : ∀ (d : Dev nD) (L : grid0.Coords) (O : CellTallies nD τ sig (HIx 1)) (W : Waits sig (HIx 1)), (∀ g, O g none = 0) →
      ((iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(tileResE m d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W'))) :
    (K (F := F)).TileObl (D (F := F)) 𝒱 (PF m) v₀ 0 := by
  intro d c i O W hO _ _
  -- this kernel owes nothing for a protocol of its own
  simp only [show (PF m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have ec : cL (coordsV ⟨_, hc.1⟩ ⟨_, hc.2⟩) = Fin.cast nCore_zero c := Fin.ext rfl
  have ei : iL (coordsV ⟨_, hc.1⟩ ⟨_, hc.2⟩) = Fin.cast nSub_zero i := Fin.ext rfl
  have hb := hbody d (coordsV ⟨_, hc.1⟩ ⟨_, hc.2⟩) O W hO
  rw [ec, ei] at hb
  have ex : (PF m).x 0 (V d ((K (F := F)).core 0 c) ((K (F := F)).sub 0 i)) = (iprop(emp) : sProp 𝕄) := rfl
  rw [ex, goF_eq, tdF_eq]
  refine hb.trans ?_
  refine wp_mono frame _ _ fun _ => ?_
  exact obl_post

end Cert.Proof.KB

end
-- ==== Proof.BitsScoped.lean ====
/-
  A tile's scoped storage as its body needs it: its three transfer semaphores out of its own semaphores, its two
  scratches out of its own buffers, and each scratch as its two slots (slot b is rows b of the leading axis).
-/
import proofs.«216989_g62371515073183_cont_9to1_m_320_20_alg».proof.Proof.BitsSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

omit [FloatOps F] in
/-- A tile's own semaphores at zero: the three transfer semaphores, and the rest. -/
theorem ownSems0_V :
    (ownSems0 (V d (cV L) (jV L)) : sProp 𝕄)
      = iprop(semVal (cIn0 d (cV L) (jV L)) 0 ∗ semVal (cIn1 d (cV L) (jV L)) 0 ∗ semVal (cOut d (cV L) (jV L)) 0
          ∗ bigSep ((((ownCells (V d (cV L) (jV L))).erase (cIn0 d (cV L) (jV L))).erase (cIn1 d (cV L) (jV L))).erase (cOut d (cV L) (jV L)))
              fun g => semVal g 0) := by
  unfold SparseCore.Cfg.ownSems0
  rw [SparseCore.bigSep_erase' ((mem_ownCells (g := cIn0 d (cV L) (jV L))).mpr ⟨rfl, by
      show (SemLoc.dma cc0_scratch2.sem : SemLoc sig).isScoped .scVector = true; decide⟩),
    SparseCore.bigSep_erase' (Finset.mem_erase.mpr ⟨by simp [cIn0, cIn1]; decide, (mem_ownCells (g := cIn1 d (cV L) (jV L))).mpr ⟨rfl, by
      show (SemLoc.dma cc0_scratch3.sem : SemLoc sig).isScoped .scVector = true; decide⟩⟩),
    SparseCore.bigSep_erase' (Finset.mem_erase.mpr ⟨by simp [cIn1, cOut]; decide, Finset.mem_erase.mpr ⟨by simp [cIn0, cOut]; decide,
      (mem_ownCells (g := cOut d (cV L) (jV L))).mpr ⟨rfl, by show (SemLoc.dma cc0_scratch4.sem : SemLoc sig).isScoped .scVector = true; decide⟩⟩⟩)]

omit [FloatOps F] in
/-- A tile's own buffers: the two scratches at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Slot 0 and slot 1 of a scratch, as rectangles of its shape: leading coordinate 0, leading coordinate 1. -/
abbrev slotRect0 : Rect S2x16x256 := Rect.unit (s := S2x16x256) ![0, 0, 0] S1x16x256.size inb_S2x16x256_S1x16x256_0_0_0
abbrev slotRect1 : Rect S2x16x256 := Rect.unit (s := S2x16x256) ![1, 0, 0] S1x16x256.size inb_S2x16x256_S1x16x256_1_0_0

/-- The two slots share no element: they differ in the leading coordinate. -/
theorem slots_disjoint : Disjoint slotRect0.set slotRect1.set :=
  Rect.unit_disjoint 0 (Or.inl (show 0 + 1 ≤ 1 from Nat.le_refl _))

/-- The two slots are the whole scratch: the leading coordinate is 0 or 1. -/
theorem slots_cover : slotRect0.set ∪ slotRect1.set = Finset.univ := by
  ext i
  simp only [Finset.mem_union, Rect.mem_set_unit, Finset.mem_univ, iff_true]
  have h0 : (i 0).val < 2 := (i 0).isLt
  have h1 : (i 1).val < 16 := (i 1).isLt
  have h2 : (i 2).val < 256 := (i 2).isLt
  by_cases h : (i 0).val = 0
  · left; intro a
    match a with
    | ⟨0, _⟩ => show 0 ≤ (i 0).val ∧ (i 0).val < 0 + 1; omega
    | ⟨1, _⟩ => show 0 ≤ (i 1).val ∧ (i 1).val < 0 + 16; omega
    | ⟨2, _⟩ => show 0 ≤ (i 2).val ∧ (i 2).val < 0 + 256; omega
  · right; intro a
    match a with
    | ⟨0, _⟩ => show 1 ≤ (i 0).val ∧ (i 0).val < 1 + 1; omega
    | ⟨1, _⟩ => show 0 ≤ (i 1).val ∧ (i 1).val < 0 + 16; omega
    | ⟨2, _⟩ => show 0 ≤ (i 2).val ∧ (i 2).val < 0 + 256; omega

omit [FloatOps F] in
theorem set_sSlot0 : sSlot0.view.set = slotRect0.set := by
  simp only [Memref.view_squeeze, Memref.view_slice, Memref.view_whole, View.set_reshape, View.set_slice_whole]
omit [FloatOps F] in
theorem set_sSlot1 : sSlot1.view.set = slotRect1.set := by
  simp only [Memref.view_squeeze, Memref.view_slice, Memref.view_whole, View.set_reshape, View.set_slice_whole]
omit [FloatOps F] in
theorem set_oSlot0 : oSlot0.view.set = slotRect0.set := by
  simp only [Memref.view_squeeze, Memref.view_slice, Memref.view_whole, View.set_reshape, View.set_slice_whole]
omit [FloatOps F] in
theorem set_oSlot1 : oSlot1.view.set = slotRect1.set := by
  simp only [Memref.view_squeeze, Memref.view_slice, Memref.view_whole, View.set_reshape, View.set_slice_whole]

omit [FloatOps F] in
/-- The score scratch whole is its two slots side by side. -/
theorem split_sS (f : Buf (Elt F) ((V d (cV L) (jV L)).loc cc0_scratch0)) :
    ((V d (cV L) (jV L)).loc cc0_scratch0 ↦{fullShare} f : sProp 𝕄) ⊢ iprop((sSlot0.view.loc (V d (cV L) (jV L)) ↦[sSlot0.view.set]{fullShare} f) ∗ (sSlot1.view.loc (V d (cV L) (jV L)) ↦[sSlot1.view.set]{fullShare} f)) := by
  rw [set_sSlot0, set_sSlot1]
  show ((V d (cV L) (jV L)).loc cc0_scratch0 ↦[Finset.univ]{fullShare} f : sProp 𝕄) ⊢
    iprop(((V d (cV L) (jV L)).loc cc0_scratch0 ↦[slotRect0.set]{fullShare} f) ∗ ((V d (cV L) (jV L)).loc cc0_scratch0 ↦[slotRect1.set]{fullShare} f))
  rw [← slots_cover]
  exact (pointsTo_union slots_disjoint).1

omit [FloatOps F] in
theorem join_sS (f0 f1 : Buf (Elt F) ((V d (cV L) (jV L)).loc cc0_scratch0)) :
    (iprop((sSlot0.view.loc (V d (cV L) (jV L)) ↦[sSlot0.view.set]{fullShare} f0) ∗ (sSlot1.view.loc (V d (cV L) (jV L)) ↦[sSlot1.view.set]{fullShare} f1)) : sProp 𝕄) ⊢ iprop(∃ f, (V d (cV L) (jV L)).loc cc0_scratch0 ↦{fullShare} f) := by
  rw [set_sSlot0, set_sSlot1]
  refine (pointsTo_join (ℓ := (V d (cV L) (jV L)).loc cc0_scratch0) slots_disjoint).trans ?_
  rw [slots_cover]
  iintro H
  iexists _
  iexact H

omit [FloatOps F] in
/-- The result scratch whole is its two slots side by side. -/
theorem split_sO (f : Buf (Elt F) ((V d (cV L) (jV L)).loc cc0_scratch1)) :
    ((V d (cV L) (jV L)).loc cc0_scratch1 ↦{fullShare} f : sProp 𝕄) ⊢ iprop((oSlot0.view.loc (V d (cV L) (jV L)) ↦[oSlot0.view.set]{fullShare} f) ∗ (oSlot1.view.loc (V d (cV L) (jV L)) ↦[oSlot1.view.set]{fullShare} f)) := by
  rw [set_oSlot0, set_oSlot1]
  show ((V d (cV L) (jV L)).loc cc0_scratch1 ↦[Finset.univ]{fullShare} f : sProp 𝕄) ⊢
    iprop(((V d (cV L) (jV L)).loc cc0_scratch1 ↦[slotRect0.set]{fullShare} f) ∗ ((V d (cV L) (jV L)).loc cc0_scratch1 ↦[slotRect1.set]{fullShare} f))
  rw [← slots_cover]
  exact (pointsTo_union slots_disjoint).1

omit [FloatOps F] in
theorem join_sO (f0 f1 : Buf (Elt F) ((V d (cV L) (jV L)).loc cc0_scratch1)) :
    (iprop((oSlot0.view.loc (V d (cV L) (jV L)) ↦[oSlot0.view.set]{fullShare} f0) ∗ (oSlot1.view.loc (V d (cV L) (jV L)) ↦[oSlot1.view.set]{fullShare} f1)) : sProp 𝕄) ⊢ iprop(∃ f, (V d (cV L) (jV L)).loc cc0_scratch1 ↦{fullShare} f) := by
  rw [set_oSlot0, set_oSlot1]
  refine (pointsTo_join (ℓ := (V d (cV L) (jV L)).loc cc0_scratch1) slots_disjoint).trans ?_
  rw [slots_cover]
  iintro H
  iexists _
  iexact H

end Cert.Proof.KB

end
-- ==== Proof.BitsBodyF.lean ====
/-
  One tile's task, as far as the frame needs it: from its two chunks of the transposed scores and of the transposed
  result, its two scratches and its three transfer semaphores at zero, the body runs to its end — each copy-in on its own
  semaphore and waited for before its slot is read, both copies-out on one semaphore with nothing touching an issued
  copy's source or destination until both are waited for — and hands everything back, the score chunks unchanged, the
  result chunks at whatever it wrote.
-/
import proofs.«216989_g62371515073183_cont_9to1_m_320_20_alg».proof.Proof.BitsWin
import proofs.«216989_g62371515073183_cont_9to1_m_320_20_alg».proof.Proof.BitsScoped
import proofs.«216989_g62371515073183_cont_9to1_m_320_20_alg».proof.Proof.BitsFrame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

set_option maxHeartbeats 0 in
theorem tile_bodyF [∀ e, Nonempty (Elt F e)] (hF : (K (F := F)).Facts) (d : Dev nD) (L : grid0.Coords)
    (O : CellTallies nD τ sig (HIx 1)) (W : Waits sig (HIx 1)) (hO : ∀ g, O g none = 0) :
    (iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__threshold_kernel L xV (Memref.isWhole_whole _) oV (Memref.isWhole_whole _) sS (Memref.isWhole_whole _) sO (Memref.isWhole_whole _)
            cc0_scratch2 cc0_scratch3 cc0_scratch4)
          fun _ => iprop(tileResE m d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes tileResE
  iintro ⟨#Hlv, -, ⟨Hx0, Hx1, Ho0, Ho1⟩, ⟨⟨%fs, Hs⟩, ⟨%fr, Hr⟩, Hbufs⟩, ⟨Hc0, Hc1, Hc2, Hsems⟩, HO⟩
  ihave Hmw := ((K (F := F)).mayWaits_none (thr := (V d (cV L) (jV L))) hO) $$ Hlv
  ihave Hx0 := (Entails.of_eq (pts_xWin0 (F := F) d L _).symm) $$ Hx0
  ihave Hx1 := (Entails.of_eq (pts_xWin1 (F := F) d L _).symm) $$ Hx1
  ihave Ho0 := (Entails.of_eq (pts_oWin0 (F := F) d L _).symm) $$ Ho0
  ihave Ho1 := (Entails.of_eq (pts_oWin1 (F := F) d L _).symm) $$ Ho1
  ihave Hss := (split_sS (F := F) d L fs) $$ Hs
  icases Hss with ⟨Hs0, Hs1⟩
  ihave Hrr := (split_sO (F := F) d L fr) $$ Hr
  icases Hrr with ⟨Hr0, Hr1⟩
  have hB : Transfers.BatchOf (V d (cV L) (jV L)) (SemLoc.dma (SemArray.sem cc0_scratch4)) 2 := Transfers.BatchOf.intro _ _ 2
  rw [cc0__threshold_kernel_eq_skeleton]; unfold cc0__threshold_kernel_skel
  sl_exec_parts (disch := exact View.amount_pos _ _ (show 0 < S16x256.numel by decide))
  sl_step
  isplitl [Hx0 Hx1 Ho0 Ho1]
  · isplitl [Hx0]
    · iapply (Entails.of_eq (pts_xWin0 (F := F) d L _)); iexact Hx0
    isplitl [Hx1]
    · iapply (Entails.of_eq (pts_xWin1 (F := F) d L _)); iexact Hx1
    isplitl [Ho0]
    · iexists _; iapply (Entails.of_eq (pts_oWin0 (F := F) d L _)); iexact Ho0
    iexists _; iapply (Entails.of_eq (pts_oWin1 (F := F) d L _)); iexact Ho1
  isplitl [Hs0 Hs1 Hr0 Hr1 Hbufs]
  · isplitl [Hs0 Hs1]
    · iapply (join_sS (F := F) d L _ _); isplitl [Hs0] <;> iassumption
    isplitl [Hr0 Hr1]
    · iapply (join_sO (F := F) d L _ _); isplitl [Hr0] <;> iassumption
    iexact Hbufs
  isplitl [Hc0 Hc1 Hc2 Hsems]
  · isplitl [Hc0]; · iexact Hc0
    isplitl [Hc1]; · iexact Hc1
    isplitl [Hc2]; · iexact Hc2
    iexact Hsems
  iexists _; isplitr
  on_goal 2 => iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KB

end
-- ==== Proof.lean ====
/-
  The certificate's five claims for the threshold-routing kernel.

  Both programs compute, for every token and expert, whether the score is above zero (a 32-bit word, 1 or 0), except
  that a token with no expert above zero is sent to expert 0: the entry at expert 0 is then 1. The reference adds to
  column 0 the indicator that the row of words sums to zero; the kernel selects 1 where its count of the sixteen words
  is zero and the row's own word otherwise: one function of the scores (`Cert.Threshold.G`), in any float instance.

  The kernel runs on the SparseCores: the TensorCore transposes the scores, starts the call, waits for it and transposes
  the result back; each of the 2 × 16 vector subcores takes 512 token columns in two chunks, copies a chunk of all
  sixteen expert rows into its scratch, computes the chunk's result and copies it out. Its frames are the launch theorem
  of the SparseCore library applied to one theorem about a subcore's task at a symbolic grid point; for the idealized
  program that theorem also names what the task leaves in the result, index by index, and the reference's side is its
  generated run read one operation at a time down to its scatter-add, whose updates land one per row in column 0.
-/
import proofs.«216989_g62371515073183_cont_9to1_m_320_20_alg».proof.Defs
import proofs.«216989_g62371515073183_cont_9to1_m_320_20_alg».proof.Proof.Gen.Kernel
import proofs.«216989_g62371515073183_cont_9to1_m_320_20_alg».proof.Proof.Gen.Kernel.Skeleton
import proofs.«216989_g62371515073183_cont_9to1_m_320_20_alg».proof.Proof.Gen.KernelIdeal
import proofs.«216989_g62371515073183_cont_9to1_m_320_20_alg».proof.Proof.Gen.KernelIdeal.Skeleton
import proofs.«216989_g62371515073183_cont_9to1_m_320_20_alg».proof.Proof.Gen.ReferenceIdeal
import proofs.«216989_g62371515073183_cont_9to1_m_320_20_alg».proof.Proof.Gen.Pre_finite_inputs
import proofs.«216989_g62371515073183_cont_9to1_m_320_20_alg».proof.Proof.Gen.ReferenceIdeal.Run
import proofs.«216989_g62371515073183_cont_9to1_m_320_20_alg».proof.Proof.Gen.ReferenceIdeal.Read
import proofs.«216989_g62371515073183_cont_9to1_m_320_20_alg».proof.Proof.RefValue
import proofs.«216989_g62371515073183_cont_9to1_m_320_20_alg».proof.Proof.IdealLaunch
import proofs.«216989_g62371515073183_cont_9to1_m_320_20_alg».proof.Proof.IdealObl
import proofs.«216989_g62371515073183_cont_9to1_m_320_20_alg».proof.Proof.IdealBody
import proofs.«216989_g62371515073183_cont_9to1_m_320_20_alg».proof.Proof.BitsFrame
import proofs.«216989_g62371515073183_cont_9to1_m_320_20_alg».proof.Proof.BitsOblF
import proofs.«216989_g62371515073183_cont_9to1_m_320_20_alg».proof.Proof.BitsBodyF
import Idealize.ShloMosaic.Adequacy
import Idealize.ShloMosaic.Init

noncomputable section

namespace Cert.Proof

open Idealize.ShloMosaic Idealize.SL.Sem

/-- The word-level kernel runs to its end, faults nowhere and leaves the scores unchanged. -/
theorem frame_p : Cert.frame_Kernel := fun m ρ _ =>
  (θ_run (Cert.Kernel.defs (F := Bits)) _ _).mono (fun _ h c => h c)
    (Cert.Proof.KB.run_mainF (F := Bits) m ρ
      (Cert.Proof.KB.tileObl_ofF m fun d L O W hO => Cert.Proof.KB.tile_bodyF m Cert.Proof.KB.facts d L O W hO))

/-- The idealized kernel's run: the result is the specification's function of the scores, the scores unchanged. -/
theorem run_pi (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩
      (fun r => ∀ c : Dev Cert.KernelIdeal.nD,
        r.2.mem (Cert.Proof.KI.rLoc c) = Cert.Threshold.G (F := Ideal) (m (Cert.Proof.KI.aLoc c))
        ∧ r.2.mem (Cert.Proof.KI.aLoc c) = m (Cert.Proof.KI.aLoc c)) :=
  Cert.Proof.KI.run_main (F := Ideal) m ρ
    (Cert.Proof.KI.tileObl_of m fun d L O W hO => Cert.Proof.KI.tile_body m Cert.Proof.KI.facts d L O W hO)

theorem frame_pi : Cert.frame_KernelIdeal := fun m ρ _ =>
  (θ_run (Cert.KernelIdeal.defs (F := Ideal)) _ _).mono (fun _ h c => (h c).2) (run_pi m ρ)

/-- The reference's frame is its generated run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- Both idealized programs end at the specification's function of the (agreeing) scores. -/
theorem algebraic : Cert.algebraic_KernelIdeal_ReferenceIdeal := by
  intro m ρ m' ρ' _ hagree
  refine ⟨fun c => Cert.Threshold.G (F := Ideal) (m ((c.tc : Thread Cert.KernelIdeal.nD Cert.KernelIdeal.τ).loc Cert.KernelIdeal.main_arg0)), ?_, ?_⟩
  · exact (θ_run (Cert.KernelIdeal.defs (F := Ideal)) _ _).mono (fun _ h c => h c) (run_pi m ρ)
  · refine (θ_run (Cert.ReferenceIdeal.defs (F := Ideal)) _ _).mono (fun _ h c => ⟨?_, (h c).2⟩)
      (Cert.ReferenceIdeal.Value.run (F := Ideal) m' ρ')
    refine (h c).1.trans ?_
    refine (Cert.ReferenceIdeal.Read.val_main_v24_eq (F := Ideal) _).trans ?_
    rw [Cert.Threshold.Ref.val_is_G, hagree c]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
